-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x784 : Shape := ⟨2, ![8192, 784]⟩
abbrev S8192x8192 : Shape := ⟨2, ![8192, 8192]⟩
abbrev S784x256 : Shape := ⟨2, ![784, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S128x128 : Shape := ⟨2, ![128, 128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S128x10 : Shape := ⟨2, ![128, 10]⟩
abbrev S10 : Shape := ⟨1, ![10]⟩
abbrev S_ : Shape := ⟨0, ![]⟩
abbrev S8192 : Shape := ⟨1, ![8192]⟩

class Facts : Prop where
  bcast_S_S8192x784 : S_.BroadcastsInDim S8192x784 (![] : Fin 0 → Fin S8192x784.rank)
  reducesTo_S8192x784_S_d0_1 : S8192x784.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S784x256 : S_.BroadcastsInDim S784x256 (![] : Fin 0 → Fin S784x256.rank)
  reducesTo_S784x256_S_d0_1 : S784x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  natLt_1_32 : 1 < 32
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part6 {F : FTy → Type} [FloatOps F] (main_arg1 : FVec F S8192x8192 .f32) (main_arg21 : FVec F S10 .f32) (main_v98 : IVec S_ 1) (main_v101 : IVec S128x10 1) (main_c_39 : IVec S_ 1) : IVec S_ 1 :=
  let main_v102 : IVec S_ 1 := (fun x v => Host.reduce IntOp.andi x v reducesTo_S128x10_S_d0_1 h_S_) main_v101 main_c_39
  let main_v103 : IVec S_ 1 := andi main_v98 main_v102
  let main_v104 : FVec F S10 .f32 := Host.absf main_arg21
  let main_cst_40 : FVec F S_ .f32 := constant S_ .f32 0x7F800000#32
  let main_v105 : FVec F S10 .f32 := broadcastInDim S10 ![] bcast_S_S10 main_cst_40
  let main_v106 : IVec S10 1 := cmpf .olt main_v104 main_v105
  let main_c_41 : IVec S_ 1 := constantI S_ 1 1#1
  let main_v107 : IVec S_ 1 := (fun x v => Host.reduce IntOp.andi x v reducesTo_S10_S_d0 h_S_) main_v106 main_c_41
  let main_v108 : IVec S_ 1 := andi main_v103 main_v107
  let main_cst_42 : FVec F S_ .f32 := constant S_ .f32 0x00000000#32
  let main_v109 : FVec F S8192x8192 .f32 := broadcastInDim S8192x8192 ![] bcast_S_S8192x8192 main_cst_42
  let main_v110 : IVec S8192x8192 1 := cmpf .une main_arg1 main_v109
  let main_v111 : IVec S8192x8192 32 := (extui 32 · natLt_1_32) main_v110
  let main_c_43 : IVec S_ 32 := constantI S_ 32 0#32
  let main_v112 : IVec S8192 32 := (fun x v => Host.reduce IntOp.addi x v reducesTo_S8192x8192_S8192_d1 h_S_) main_v111 main_c_43
  let main_c_44 : IVec S_ 32 := constantI S_ 32 0#32
  let main_v113 : IVec S8192 32 := broadcastInDim S8192 ![] bcast_S_S8192 main_c_44
  let main_v114 : IVec S8192 1 := cmpi .sgt main_v112 main_v113
  let main_c_45 : IVec S_ 1 := constantI S_ 1 1#1
  let main_v115 : IVec S_ 1 := (fun x v => Host.reduce IntOp.andi x v reducesTo_S8192_S_d0 h_S_) main_v114 main_c_45
  let main_v116 : IVec S_ 1 := andi main_v108 main_v115
  main_v116

def fn_part5 {F : FTy → Type} [FloatOps F] (main_arg1 : FVec F S8192x8192 .f32) (main_arg18 : FVec F S128x1 .f32) (main_arg19 : FVec F S1 .f32) (main_arg20 : FVec F S128x10 .f32) (main_arg21 : FVec F S10 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1 .f32 := Host.absf main_arg18
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S128x10 .f32 := Host.absf main_arg20
  let main_cst_38 : FVec F S_ .f32 := constant S_ .f32 0x7F800000#32
  let main_v100 : FVec F S128x10 .f32 := broadcastInDim S128x10 ![] bcast_S_S128x10 main_cst_38
  let main_v101 : IVec S128x10 1 := cmpf .olt main_v99 main_v100
  let main_c_39 : IVec S_ 1 := constantI S_ 1 1#1
  fn_part6 (F := F) main_arg1 main_arg21 main_v98 main_v101 main_c_39

def fn_part4 {F : FTy → Type} [FloatOps F] (main_arg1 : FVec F S8192x8192 .f32) (main_arg14 : FVec F S128x128 .f32) (main_arg15 : FVec F S128 .f32) (main_arg16 : FVec F S128x128 .f32) (main_arg17 : FVec F S128 .f32) (main_arg18 : FVec F S128x1 .f32) (main_arg19 : FVec F S1 .f32) (main_arg20 : FVec F S128x10 .f32) (main_arg21 : FVec F S10 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg1 main_arg18 main_arg19 main_arg20 main_arg21 main_v83 main_v84 main_cst_32

def fn_part3 {F : FTy → Type} [FloatOps F] (main_arg1 : FVec F S8192x8192 .f32) (main_arg11 : FVec F S128 .f32) (main_arg12 : FVec F S128x64 .f32) (main_arg13 : FVec F S64 .f32) (main_arg14 : FVec F S128x128 .f32) (main_arg15 : FVec F S128 .f32) (main_arg16 : FVec F S128x128 .f32) (main_arg17 : FVec F S128 .f32) (main_arg18 : FVec F S128x1 .f32) (main_arg19 : FVec F S1 .f32) (main_arg20 : FVec F S128x10 .f32) (main_arg21 : FVec F S10 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg12
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_arg14 main_arg15 main_arg16 main_arg17 main_arg18 main_arg19 main_arg20 main_arg21 main_v63 main_v67

def fn_part2 {F : FTy → Type} [FloatOps F] (main_arg1 : FVec F S8192x8192 .f32) (main_arg7 : FVec F S256 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) (main_arg14 : FVec F S128x128 .f32) (main_arg15 : FVec F S128 .f32) (main_arg16 : FVec F S128x128 .f32) (main_arg17 : FVec F S128 .f32) (main_arg18 : FVec F S128x1 .f32) (main_arg19 : FVec F S1 .f32) (main_arg20 : FVec F S128x10 .f32) (main_arg21 : FVec F S10 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg1 main_arg11 main_arg12 main_arg13 main_arg14 main_arg15 main_arg16 main_arg17 main_arg18 main_arg19 main_arg20 main_arg21 main_v48 main_v49 main_v50

def fn_part1 {F : FTy → Type} [FloatOps F] (main_arg1 : FVec F S8192x8192 .f32) (main_arg4 : FVec F S256x128 .f32) (main_arg5 : FVec F S128 .f32) (main_arg6 : FVec F S256x256 .f32) (main_arg7 : FVec F S256 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) (main_arg14 : FVec F S128x128 .f32) (main_arg15 : FVec F S128 .f32) (main_arg16 : FVec F S128x128 .f32) (main_arg17 : FVec F S128 .f32) (main_arg18 : FVec F S128x1 .f32) (main_arg19 : FVec F S1 .f32) (main_arg20 : FVec F S128x10 .f32) (main_arg21 : FVec F S10 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S8192x784 .f32) (main_arg1 : FVec F S8192x8192 .f32) (main_arg2 : FVec F S784x256 .f32) (main_arg3 : FVec F S256 .f32) (main_arg4 : FVec F S256x128 .f32) (main_arg5 : FVec F S128 .f32) (main_arg6 : FVec F S256x256 .f32) (main_arg7 : FVec F S256 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) (main_arg14 : FVec F S128x128 .f32) (main_arg15 : FVec F S128 .f32) (main_arg16 : FVec F S128x128 .f32) (main_arg17 : FVec F S128 .f32) (main_arg18 : FVec F S128x1 .f32) (main_arg19 : FVec F S1 .f32) (main_arg20 : FVec F S128x10 .f32) (main_arg21 : FVec F S10 .f32) : IVec S_ 1 :=
  let main_v0 : FVec F S8192x784 .f32 := Host.absf main_arg0
  let main_cst : FVec F S_ .f32 := constant S_ .f32 0x7F800000#32
  let main_v1 : FVec F S8192x784 .f32 := broadcastInDim S8192x784 ![] bcast_S_S8192x784 main_cst
  let main_v2 : IVec S8192x784 1 := cmpf .olt main_v0 main_v1
  let main_c : IVec S_ 1 := constantI S_ 1 1#1
  let main_v3 : IVec S_ 1 := (fun x v => Host.reduce IntOp.andi x v reducesTo_S8192x784_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S784x256 .f32 := Host.absf main_arg2
  let main_cst_2 : FVec F S_ .f32 := constant S_ .f32 0x7F800000#32
  let main_v10 : FVec F S784x256 .f32 := broadcastInDim S784x256 ![] bcast_S_S784x256 main_cst_2
  let main_v11 : IVec S784x256 1 := cmpf .olt main_v9 main_v10
  let main_c_3 : IVec S_ 1 := constantI S_ 1 1#1
  let main_v12 : IVec S_ 1 := (fun x v => Host.reduce IntOp.andi x v reducesTo_S784x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S8192x784 : Shape := ⟨2, ![8192, 784]⟩
abbrev S8192x8192 : Shape := ⟨2, ![8192, 8192]⟩
abbrev S784x256 : Shape := ⟨2, ![784, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S128x128 : Shape := ⟨2, ![128, 128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S128x10 : Shape := ⟨2, ![128, 10]⟩
abbrev S10 : Shape := ⟨1, ![10]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S8192x256 : Shape := ⟨2, ![8192, 256]⟩
abbrev S1024x784 : Shape := ⟨2, ![1024, 784]⟩
abbrev S1024x256 : Shape := ⟨2, ![1024, 256]⟩
abbrev S1x256 : Shape := ⟨2, ![1, 256]⟩
abbrev S2048x256 : Shape := ⟨2, ![2048, 256]⟩
abbrev S2048x1 : Shape := ⟨2, ![2048, 1]⟩
abbrev S8192x128 : Shape := ⟨2, ![8192, 128]⟩
abbrev S1024x128 : Shape := ⟨2, ![1024, 128]⟩
abbrev S1x128 : Shape := ⟨2, ![1, 128]⟩
abbrev S2048x128 : Shape := ⟨2, ![2048, 128]⟩
abbrev S1x8192 : Shape := ⟨2, ![1, 8192]⟩
abbrev S256x8192 : Shape := ⟨2, ![256, 8192]⟩
abbrev S2048x1024 : Shape := ⟨2, ![2048, 1024]⟩
abbrev S1x1024 : Shape := ⟨2, ![1, 1024]⟩
abbrev S256x1024 : Shape := ⟨2, ![256, 1024]⟩
abbrev S256x2048 : Shape := ⟨2, ![256, 2048]⟩
abbrev S256x64 : Shape := ⟨2, ![256, 64]⟩
abbrev S1x64 : Shape := ⟨2, ![1, 64]⟩
abbrev S_ : Shape := ⟨0, ![]⟩
abbrev S256x1 : Shape := ⟨2, ![256, 1]⟩
abbrev S64x256 : Shape := ⟨2, ![64, 256]⟩
abbrev S64x128 : Shape := ⟨2, ![64, 128]⟩
abbrev S64x64 : Shape := ⟨2, ![64, 64]⟩
abbrev S64x1 : Shape := ⟨2, ![64, 1]⟩
abbrev S1x1 : Shape := ⟨2, ![1, 1]⟩
abbrev S1x10 : Shape := ⟨2, ![1, 10]⟩

abbrev nBuf : Space → Nat
  | .hbm => 119
  | .vmem => 78
  | .smem => 0
  | _ => 0

abbrev bufTy : (tb : Table) → Fin (tcTables nBuf tb) → BufTy
  | .hbm, ⟨0, _⟩ => ⟨S8192x784, .f32⟩
  | .hbm, ⟨1, _⟩ => ⟨S8192x8192, .f32⟩
  | .hbm, ⟨2, _⟩ => ⟨S784x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x256, .f32⟩
  | .hbm, ⟨7, _⟩ => ⟨S256, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x1, .f32⟩
  | .hbm, ⟨19, _⟩ => ⟨S1, .f32⟩
  | .hbm, ⟨20, _⟩ => ⟨S128x10, .f32⟩
  | .hbm, ⟨21, _⟩ => ⟨S10, .f32⟩
  | .hbm, ⟨22, _⟩ => ⟨S8192x8192, .bf16⟩
  | .hbm, ⟨23, _⟩ => ⟨S8192x1, .f32⟩
  | .hbm, ⟨24, _⟩ => ⟨S8192x1, .f32⟩
  | .hbm, ⟨25, _⟩ => ⟨S8192x256, .bf16⟩
  | .hbm, ⟨26, _⟩ => ⟨S1x256, .f32⟩
  | .hbm, ⟨27, _⟩ => ⟨S8192x256, .f32⟩
  | .hbm, ⟨28, _⟩ => ⟨S8192x128, .bf16⟩
  | .hbm, ⟨29, _⟩ => ⟨S8192x256, .bf16⟩
  | .hbm, ⟨30, _⟩ => ⟨S1x128, .f32⟩
  | .hbm, ⟨31, _⟩ => ⟨S1x256, .f32⟩
  | .hbm, ⟨32, _⟩ => ⟨S8192x128, .f32⟩
  | .hbm, ⟨33, _⟩ => ⟨S8192x256, .bf16⟩
  | .hbm, ⟨34, _⟩ => ⟨S256x128, .f32⟩
  | .hbm, ⟨35, _⟩ => ⟨S1x8192, .f32⟩
  | .hbm, ⟨36, _⟩ => ⟨S256x8192, .bf16⟩
  | .hbm, ⟨37, _⟩ => ⟨S256x256, .f32⟩
  | .hbm, ⟨38, _⟩ => ⟨S256x128, .f32⟩
  | .hbm, ⟨39, _⟩ => ⟨S256x128, .f32⟩
  | .hbm, ⟨40, _⟩ => ⟨S1x128, .f32⟩
  | .hbm, ⟨41, _⟩ => ⟨S256x128, .f32⟩
  | .hbm, ⟨42, _⟩ => ⟨S256x128, .f32⟩
  | .hbm, ⟨43, _⟩ => ⟨S256x128, .f32⟩
  | .hbm, ⟨44, _⟩ => ⟨S256x128, .f32⟩
  | .hbm, ⟨45, _⟩ => ⟨S1x128, .f32⟩
  | .hbm, ⟨46, _⟩ => ⟨S256x128, .f32⟩
  | .hbm, ⟨47, _⟩ => ⟨S256x128, .f32⟩
  | .hbm, ⟨48, _⟩ => ⟨S256x64, .f32⟩
  | .hbm, ⟨49, _⟩ => ⟨S256x64, .f32⟩
  | .hbm, ⟨50, _⟩ => ⟨S1x64, .f32⟩
  | .hbm, ⟨51, _⟩ => ⟨S256x64, .f32⟩
  | .hbm, ⟨52, _⟩ => ⟨S256x64, .f32⟩
  | .hbm, ⟨53, _⟩ => ⟨S_, .f32⟩
  | .hbm, ⟨54, _⟩ => ⟨S256, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S256x1, .f32⟩
  | .hbm, ⟨59, _⟩ => ⟨S256x64, .f32⟩
  | .hbm, ⟨60, _⟩ => ⟨S256x64, .f32⟩
  | .hbm, ⟨61, _⟩ => ⟨S256x64, .f32⟩
  | .hbm, ⟨62, _⟩ => ⟨S_, .f32⟩
  | .hbm, ⟨63, _⟩ => ⟨S256, .f32⟩
  | .hbm, ⟨64, _⟩ => ⟨S256x1, .f32⟩
  | .hbm, ⟨65, _⟩ => ⟨S256x64, .f32⟩
  | .hbm, ⟨66, _⟩ => ⟨S256x64, .f32⟩
  | .hbm, ⟨67, _⟩ => ⟨S64x256, .f32⟩
  | .hbm, ⟨68, _⟩ => ⟨S64x128, .f32⟩
  | .hbm, ⟨69, _⟩ => ⟨S64x256, .f32⟩
  | .hbm, ⟨70, _⟩ => ⟨S256x64, .f32⟩
  | .hbm, ⟨71, _⟩ => ⟨S64x64, .f32⟩
  | .hbm, ⟨72, _⟩ => ⟨S64x128, .f32⟩
  | .hbm, ⟨73, _⟩ => ⟨S64x128, .f32⟩
  | .hbm, ⟨74, _⟩ => ⟨S1x128, .f32⟩
  | .hbm, ⟨75, _⟩ => ⟨S64x128, .f32⟩
  | .hbm, ⟨76, _⟩ => ⟨S64x128, .f32⟩
  | .hbm, ⟨77, _⟩ => ⟨S64x128, .f32⟩
  | .hbm, ⟨78, _⟩ => ⟨S64x128, .f32⟩
  | .hbm, ⟨79, _⟩ => ⟨S1x128, .f32⟩
  | .hbm, ⟨80, _⟩ => ⟨S64x128, .f32⟩
  | .hbm, ⟨81, _⟩ => ⟨S64x128, .f32⟩
  | .hbm, ⟨82, _⟩ => ⟨S64x1, .f32⟩
  | .hbm, ⟨83, _⟩ => ⟨S64x1, .f32⟩
  | .hbm, ⟨84, _⟩ => ⟨S1x1, .f32⟩
  | .hbm, ⟨85, _⟩ => ⟨S64x1, .f32⟩
  | .hbm, ⟨86, _⟩ => ⟨S64x1, .f32⟩
  | .hbm, ⟨87, _⟩ => ⟨S_, .f32⟩
  | .hbm, ⟨88, _⟩ => ⟨S64, .f32⟩
  | .hbm, ⟨89, _⟩ => ⟨S_, .f32⟩
  | .hbm, ⟨90, _⟩ => ⟨S64, .f32⟩
  | .hbm, ⟨91, _⟩ => ⟨S64, .f32⟩
  | .hbm, ⟨92, _⟩ => ⟨S64x1, .f32⟩
  | .hbm, ⟨93, _⟩ => ⟨S64x1, .f32⟩
  | .hbm, ⟨94, _⟩ => ⟨S64x1, .f32⟩
  | .hbm, ⟨95, _⟩ => ⟨S_, .f32⟩
  | .hbm, ⟨96, _⟩ => ⟨S64, .f32⟩
  | .hbm, ⟨97, _⟩ => ⟨S64x1, .f32⟩
  | .hbm, ⟨98, _⟩ => ⟨S64x1, .f32⟩
  | .hbm, ⟨99, _⟩ => ⟨S1x64, .f32⟩
  | .hbm, ⟨100, _⟩ => ⟨S1x128, .f32⟩
  | .hbm, ⟨101, _⟩ => ⟨S1x10, .f32⟩
  | .hbm, ⟨102, _⟩ => ⟨S1x10, .f32⟩
  | .hbm, ⟨103, _⟩ => ⟨S1x10, .f32⟩
  | .hbm, ⟨104, _⟩ => ⟨S_, .f32⟩
  | .hbm, ⟨105, _⟩ => ⟨S1, .f32⟩
  | .hbm, ⟨106, _⟩ => ⟨S_, .f32⟩
  | .hbm, ⟨107, _⟩ => ⟨S1, .f32⟩
  | .hbm, ⟨108, _⟩ => ⟨S1, .f32⟩
  | .hbm, ⟨109, _⟩ => ⟨S1x1, .f32⟩
  | .hbm, ⟨110, _⟩ => ⟨S1x10, .f32⟩
  | .hbm, ⟨111, _⟩ => ⟨S1x10, .f32⟩
  | .hbm, ⟨112, _⟩ => ⟨S1x10, .f32⟩
  | .hbm, ⟨113, _⟩ => ⟨S_, .f32⟩
  | .hbm, ⟨114, _⟩ => ⟨S1, .f32⟩
  | .hbm, ⟨115, _⟩ => ⟨S1x1, .f32⟩
  | .hbm, ⟨116, _⟩ => ⟨S1x1, .f32⟩
  | .hbm, ⟨117, _⟩ => ⟨S1x10, .f32⟩
  | .hbm, ⟨118, _⟩ => ⟨S1x10, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x784, .f32⟩
  | .local _ .vmem, ⟨8, _⟩ => ⟨S1024x784, .f32⟩
  | .local _ .vmem, ⟨9, _⟩ => ⟨S784x256, .f32⟩
  | .local _ .vmem, ⟨10, _⟩ => ⟨S1024x256, .bf16⟩
  | .local _ .vmem, ⟨11, _⟩ => ⟨S1024x256, .bf16⟩
  | .local _ .vmem, ⟨12, _⟩ => ⟨S1024x256, .f32⟩
  | .local _ .vmem, ⟨13, _⟩ => ⟨S1024x2048, .bf16⟩
  | .local _ .vmem, ⟨14, _⟩ => ⟨S1024x2048, .bf16⟩
  | .local _ .vmem, ⟨15, _⟩ => ⟨S2048x256, .bf16⟩
  | .local _ .vmem, ⟨16, _⟩ => ⟨S2048x256, .bf16⟩
  | .local _ .vmem, ⟨17, _⟩ => ⟨S2048x1, .f32⟩
  | .local _ .vmem, ⟨18, _⟩ => ⟨S2048x1, .f32⟩
  | .local _ .vmem, ⟨19, _⟩ => ⟨S1024x1, .f32⟩
  | .local _ .vmem, ⟨20, _⟩ => ⟨S1024x1, .f32⟩
  | .local _ .vmem, ⟨21, _⟩ => ⟨S1x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S256x128, .f32⟩
  | .local _ .vmem, ⟨28, _⟩ => ⟨S1024x128, .bf16⟩
  | .local _ .vmem, ⟨29, _⟩ => ⟨S1024x128, .bf16⟩
  | .local _ .vmem, ⟨30, _⟩ => ⟨S1024x128, .f32⟩
  | .local _ .vmem, ⟨31, _⟩ => ⟨S1024x256, .f32⟩
  | .local _ .vmem, ⟨32, _⟩ => ⟨S1024x256, .f32⟩
  | .local _ .vmem, ⟨33, _⟩ => ⟨S256x256, .f32⟩
  | .local _ .vmem, ⟨34, _⟩ => ⟨S1024x256, .bf16⟩
  | .local _ .vmem, ⟨35, _⟩ => ⟨S1024x256, .bf16⟩
  | .local _ .vmem, ⟨36, _⟩ => ⟨S1024x256, .f32⟩
  | .local _ .vmem, ⟨37, _⟩ => ⟨S1024x2048, .bf16⟩
  | .local _ .vmem, ⟨38, _⟩ => ⟨S1024x2048, .bf16⟩
  | .local _ .vmem, ⟨39, _⟩ => ⟨S2048x128, .bf16⟩
  | .local _ .vmem, ⟨40, _⟩ => ⟨S2048x128, .bf16⟩
  | .local _ .vmem, ⟨41, _⟩ => ⟨S2048x256, .bf16⟩
  | .local _ .vmem, ⟨42, _⟩ => ⟨S2048x256, .bf16⟩
  | .local _ .vmem, ⟨43, _⟩ => ⟨S2048x1, .f32⟩
  | .local _ .vmem, ⟨44, _⟩ => ⟨S2048x1, .f32⟩
  | .local _ .vmem, ⟨45, _⟩ => ⟨S1024x1, .f32⟩
  | .local _ .vmem, ⟨46, _⟩ => ⟨S1024x1, .f32⟩
  | .local _ .vmem, ⟨47, _⟩ => ⟨S1x128, .f32⟩
  | .local _ .vmem, ⟨48, _⟩ => ⟨S1x256, .f32⟩
  | .local _ .vmem, ⟨49, _⟩ => ⟨S1024x128, .f32⟩
  | .local _ .vmem, ⟨50, _⟩ => ⟨S1024x128, .f32⟩
  | .local _ .vmem, ⟨51, _⟩ => ⟨S1024x256, .bf16⟩
  | .local _ .vmem, ⟨52, _⟩ => ⟨S1024x256, .bf16⟩
  | .local _ .vmem, ⟨53, _⟩ => ⟨S1024x128, .f32⟩
  | .local _ .vmem, ⟨54, _⟩ => ⟨S1024x256, .f32⟩
  | .local _ .vmem, ⟨55, _⟩ => ⟨S2048x256, .bf16⟩
  | .local _ .vmem, ⟨56, _⟩ => ⟨S2048x256, .bf16⟩
  | .local _ .vmem, ⟨57, _⟩ => ⟨S2048x128, .f32⟩
  | .local _ .vmem, ⟨58, _⟩ => ⟨S2048x128, .f32⟩
  | .local _ .vmem, ⟨59, _⟩ => ⟨S256x128, .f32⟩
  | .local _ .vmem, ⟨60, _⟩ => ⟨S256x128, .f32⟩
  | .local _ .vmem, ⟨61, _⟩ => ⟨S2048x256, .bf16⟩
  | .local _ .vmem, ⟨62, _⟩ => ⟨S2048x256, .bf16⟩
  | .local _ .vmem, ⟨63, _⟩ => ⟨S2048x1024, .bf16⟩
  | .local _ .vmem, ⟨64, _⟩ => ⟨S2048x1024, .bf16⟩
  | .local _ .vmem, ⟨65, _⟩ => ⟨S2048x1, .f32⟩
  | .local _ .vmem, ⟨66, _⟩ => ⟨S2048x1, .f32⟩
  | .local _ .vmem, ⟨67, _⟩ => ⟨S1x1024, .f32⟩
  | .local _ .vmem, ⟨68, _⟩ => ⟨S1x1024, .f32⟩
  | .local _ .vmem, ⟨69, _⟩ => ⟨S256x1024, .bf16⟩
  | .local _ .vmem, ⟨70, _⟩ => ⟨S256x1024, .bf16⟩
  | .local _ .vmem, ⟨71, _⟩ => ⟨S256x1024, .f32⟩
  | .local _ .vmem, ⟨72, _⟩ => ⟨S256x2048, .bf16⟩
  | .local _ .vmem, ⟨73, _⟩ => ⟨S256x2048, .bf16⟩
  | .local _ .vmem, ⟨74, _⟩ => ⟨S2048x256, .bf16⟩
  | .local _ .vmem, ⟨75, _⟩ => ⟨S2048x256, .bf16⟩
  | .local _ .vmem, ⟨76, _⟩ => ⟨S256x256, .f32⟩
  | .local _ .vmem, ⟨77, _⟩ => ⟨S256x256, .f32⟩
  | _, _ => ⟨S8192x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0_0 : Ref sig .tc := ⟨.hbm, 22, rfl⟩
abbrev main_v0_1 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9_0 : Ref sig .tc := ⟨.hbm, 32, rfl⟩
abbrev main_v9_1 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst : Ref sig .tc := ⟨.hbm, 53, rfl⟩
abbrev main_v29 : Ref sig .tc := ⟨.hbm, 54, rfl⟩
abbrev main_cst_0 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_1 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_2 : Ref sig .tc := ⟨.hbm, 87, rfl⟩
abbrev main_v60 : Ref sig .tc := ⟨.hbm, 88, rfl⟩
abbrev main_cst_3 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_4 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_call0_cst : Ref sig .tc := ⟨.hbm, 104, rfl⟩
abbrev main_call0_v0 : Ref sig .tc := ⟨.hbm, 105, rfl⟩
abbrev main_call0_cst_0 : Ref sig .tc := ⟨.hbm, 106, rfl⟩
abbrev main_call0_v1 : Ref sig .tc := ⟨.hbm, 107, rfl⟩
abbrev main_call0_v2 : Ref sig .tc := ⟨.hbm, 108, rfl⟩
abbrev main_call0_v3 : Ref sig .tc := ⟨.hbm, 109, rfl⟩
abbrev main_call0_v4 : Ref sig .tc := ⟨.hbm, 110, rfl⟩
abbrev main_call0_v5 : Ref sig .tc := ⟨.hbm, 111, rfl⟩
abbrev main_call0_v6 : Ref sig .tc := ⟨.hbm, 112, rfl⟩
abbrev main_call0_cst_1 : Ref sig .tc := ⟨.hbm, 113, rfl⟩
abbrev main_call0_v7 : Ref sig .tc := ⟨.hbm, 114, rfl⟩
abbrev main_call0_v8 : Ref sig .tc := ⟨.hbm, 115, rfl⟩
abbrev main_call0_v9 : Ref sig .tc := ⟨.hbm, 116, rfl⟩
abbrev main_call0_v10 : Ref sig .tc := ⟨.hbm, 117, rfl⟩
abbrev main_v74 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc3_scratch0 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg2_1 : Ref sig .tc := ⟨.vmem, 35, rfl⟩
abbrev cc4_scratch0 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg3_1 : Ref sig .tc := ⟨.vmem, 44, rfl⟩
abbrev cc5_stg4_0 : Ref sig .tc := ⟨.vmem, 45, rfl⟩
abbrev cc5_stg4_1 : Ref sig .tc := ⟨.vmem, 46, rfl⟩
abbrev cc5_stg5_0 : Ref sig .tc := ⟨.vmem, 47, rfl⟩
abbrev cc5_stg6_0 : Ref sig .tc := ⟨.vmem, 48, rfl⟩
abbrev cc5_stg7_0 : Ref sig .tc := ⟨.vmem, 49, rfl⟩
abbrev cc5_stg7_1 : Ref sig .tc := ⟨.vmem, 50, rfl⟩
abbrev cc5_stg8_0 : Ref sig .tc := ⟨.vmem, 51, rfl⟩
abbrev cc5_stg8_1 : Ref sig .tc := ⟨.vmem, 52, rfl⟩
abbrev cc5_scratch0 : Ref sig .tc := ⟨.vmem, 53, rfl⟩
abbrev cc5_scratch1 : Ref sig .tc := ⟨.vmem, 54, rfl⟩
abbrev cc6_stg0_0 : Ref sig .tc := ⟨.vmem, 55, rfl⟩
abbrev cc6_stg0_1 : Ref sig .tc := ⟨.vmem, 56, rfl⟩
abbrev cc6_stg1_0 : Ref sig .tc := ⟨.vmem, 57, rfl⟩
abbrev cc6_stg1_1 : Ref sig .tc := ⟨.vmem, 58, rfl⟩
abbrev cc6_stg2_0 : Ref sig .tc := ⟨.vmem, 59, rfl⟩
abbrev cc6_scratch0 : Ref sig .tc := ⟨.vmem, 60, rfl⟩
abbrev cc7_stg0_0 : Ref sig .tc := ⟨.vmem, 61, rfl⟩
abbrev cc7_stg0_1 : Ref sig .tc := ⟨.vmem, 62, rfl⟩
abbrev cc7_stg1_0 : Ref sig .tc := ⟨.vmem, 63, rfl⟩
abbrev cc7_stg1_1 : Ref sig .tc := ⟨.vmem, 64, rfl⟩
abbrev cc7_stg2_0 : Ref sig .tc := ⟨.vmem, 65, rfl⟩
abbrev cc7_stg2_1 : Ref sig .tc := ⟨.vmem, 66, rfl⟩
abbrev cc7_stg3_0 : Ref sig .tc := ⟨.vmem, 67, rfl⟩
abbrev cc7_stg3_1 : Ref sig .tc := ⟨.vmem, 68, rfl⟩
abbrev cc7_stg4_0 : Ref sig .tc := ⟨.vmem, 69, rfl⟩
abbrev cc7_stg4_1 : Ref sig .tc := ⟨.vmem, 70, rfl⟩
abbrev cc7_scratch0 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_scratch0 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc5_sem3_0 : DmaSem sig := 38
abbrev cc5_sem3_1 : DmaSem sig := 39
abbrev cc5_sem4_0 : DmaSem sig := 40
abbrev cc5_sem4_1 : DmaSem sig := 41
abbrev cc5_sem5_0 : DmaSem sig := 42
abbrev cc5_sem6_0 : DmaSem sig := 43
abbrev cc5_sem7_0 : DmaSem sig := 44
abbrev cc5_sem7_1 : DmaSem sig := 45
abbrev cc5_sem8_0 : DmaSem sig := 46
abbrev cc5_sem8_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem3_1 : DmaSem sig := 60
abbrev cc7_sem4_0 : DmaSem sig := 61
abbrev cc7_sem4_1 : DmaSem sig := 62
abbrev cc8_sem0_0 : DmaSem sig := 63
abbrev cc8_sem0_1 : DmaSem sig := 64
abbrev cc8_sem1_0 : DmaSem sig := 65
abbrev cc8_sem1_1 : DmaSem sig := 66
abbrev cc8_sem2_0 : DmaSem sig := 67

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨3, ![8, 1, 1], ![false, false, false]⟩

def k1_cond2 (i : grid1.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x784 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S784x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 1, 4], ![false, false, false]⟩

def k2_cond2 (i : grid2.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_10 : BitVec 32 := 0#32
  let v21 : BitVec 1 := Scalar.cmpi .ne v20 c0_i32_10
  v21

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, false, true]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, true, false]

abbrev stage2_5 : Fin 2 → Memref sig .tc .vmem S1024x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev grid3 : Pipeline.Grid := ⟨3, ![8, 1, 1], ![false, false, false]⟩

def k3_cond2 (i : grid3.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![8, 1, 1], ![false, false, false]⟩

def k4_cond2 (i : grid4.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨2, ![8, 4], ![false, false]⟩

def k5_cond2 (i : grid5.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_17 : BitVec 32 := 0#32
  let v33 : BitVec 1 := Scalar.cmpi .ne v32 c0_i32_17
  v33

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2048x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S2048x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S1024x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 2 → Memref sig .tc .vmem S1024x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, false]

abbrev stage5_8 : Fin 2 → Memref sig .tc .vmem S1024x256 .bf16 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, false]

abbrev grid6 : Pipeline.Grid := ⟨3, ![1, 1, 4], ![false, false, false]⟩

def k6_cond2 (i : grid6.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S2048x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S2048x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 1 → Memref sig .tc .vmem S256x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, true, false]

abbrev grid7 : Pipeline.Grid := ⟨3, ![1, 8, 4], ![false, false, false]⟩

def k7_cond2 (i : grid7.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_10 : BitVec 32 := 0#32
  let v21 : BitVec 1 := Scalar.cmpi .ne v20 c0_i32_10
  v21

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc7_transform_4 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S2048x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S2048x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S2048x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, false, true]

abbrev stage7_3 : Fin 2 → Memref sig .tc .vmem S1x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![false, true, false]

abbrev stage7_4 : Fin 2 → Memref sig .tc .vmem S256x1024 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true, false]

abbrev grid8 : Pipeline.Grid := ⟨3, ![1, 1, 4], ![false, false, false]⟩

def k8_cond2 (i : grid8.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S256x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S2048x256 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 1 → Memref sig .tc .vmem S256x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true, true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  natLt_1_32 : 1 < 32
  reduces_S1024x2048_S1024 : S1024x2048.Reduces [1] S1024
  shapeCasts_S1024_S1024x1 : S1024.ShapeCasts S1024x1
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x784_S1024x784_0_0 : ∀ a, (![0, 0] : Fin 2 → Nat) a + S1024x784.size a ≤ S1024x784.size a
  h_S1024x784 : 0 < S1024x784.numel
  inb_S784x256_S784x256_0_0 : ∀ a, (![0, 0] : Fin 2 → Nat) a + S784x256.size a ≤ S784x256.size a
  h_S784x256 : 0 < S784x256.numel
  packedbf16_S1024x256_S1024x256_0_0 : (Rect.unit (s := S1024x256) ![0, 0] S1024x256.size inb_S1024x256_S1024x256_0_0).PackedRows (EltTy.packing .bf16)
  shapeCasts_S256_S1x256 : S256.ShapeCasts S1x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  shapeCasts_S1024x2048_S1024x2048 : S1024x2048.ShapeCasts S1024x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S2048x1_S2048x256 : S2048x1.Broadcasts S2048x256
  broadcasts_S1024x1_S1024x256 : S1024x1.Broadcasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S256x128_S256x128_0_0 : ∀ a, (![0, 0] : Fin 2 → Nat) a + S256x128.size a ≤ S256x128.size a
  h_S256x128 : 0 < S256x128.numel
  packedbf16_S1024x128_S1024x128_0_0 : (Rect.unit (s := S1024x128) ![0, 0] S1024x128.size inb_S1024x128_S1024x128_0_0).PackedRows (EltTy.packing .bf16)
  inb_S256x256_S256x256_0_0 : ∀ a, (![0, 0] : Fin 2 → Nat) a + S256x256.size a ≤ S256x256.size a
  h_S256x256 : 0 < S256x256.numel
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S2048x1_S2048x128 : S2048x1.Broadcasts S2048x128
  broadcasts_S1024x1_S1024x128 : S1024x1.Broadcasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x256_S1024 : S1024x256.Reduces [1] S1024
  shapeCasts_S256x128_S256x128 : S256x128.ShapeCasts S256x128
  shapeCasts_S8192x1_S1x8192 : S8192x1.ShapeCasts S1x8192
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  packedbf16_S256x1024_S256x1024_0_0 : (Rect.unit (s := S256x1024) ![0, 0] S256x1024.size inb_S256x1024_S256x1024_0_0).PackedRows (EltTy.packing .bf16)
  shapeCasts_S256x256_S256x256 : S256x256.ShapeCasts S256x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  reducesTo_S256x64_S256_d1 : S256x64.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  transposes_S256x64_S64x256_1_0 : S256x64.Transposes [1, 0] S64x256
  bcast_S1x128_S64x128_0_1 : S1x128.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  bcast_S_S64 : S_.BroadcastsInDim S64 (![] : Fin 0 → Fin S64.rank)
  bcast_S64_S64x1_0 : S64.BroadcastsInDim S64x1 (![0] : Fin 1 → Fin S64x1.rank)
  transposes_S64x1_S1x64_1_0 : S64x1.Transposes [1, 0] S1x64
  bcast_S10_S1x10_1 : S10.BroadcastsInDim S1x10 (![1] : Fin 1 → Fin S1x10.rank)
  reducesTo_S1x10_S1_d1 : S1x10.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x10_0_1 : S1x1.BroadcastsInDim S1x10 (![0, 1] : Fin 2 → Fin S1x10.rank)
  dot_S1024x784_S784x256_S1024x256_1_0_0_1_n_n_wf : DotDims.WF S1024x784 S784x256 S1024x256 [1] [0] [0] [1] [] []
  dot_S1024x2048_S2048x256_S1024x256_1_0_0_1_n_n_wf : DotDims.WF S1024x2048 S2048x256 S1024x256 [1] [0] [0] [1] [] []
  dot_S1024x256_S256x128_S1024x128_1_0_0_1_n_n_wf : DotDims.WF S1024x256 S256x128 S1024x128 [1] [0] [0] [1] [] []
  dot_S1024x256_S256x256_S1024x256_1_0_0_1_n_n_wf : DotDims.WF S1024x256 S256x256 S1024x256 [1] [0] [0] [1] [] []
  dot_S1024x2048_S2048x128_S1024x128_1_0_0_1_n_n_wf : DotDims.WF S1024x2048 S2048x128 S1024x128 [1] [0] [0] [1] [] []
  dot_S2048x256_S2048x128_S256x128_0_0_1_1_n_n_wf : DotDims.WF S2048x256 S2048x128 S256x128 [0] [0] [1] [1] [] []
  dot_S2048x256_S2048x1024_S256x1024_0_0_1_1_n_n_wf : DotDims.WF S2048x256 S2048x1024 S256x1024 [0] [0] [1] [1] [] []
  dot_S256x2048_S2048x256_S256x256_1_0_0_1_n_n_wf : DotDims.WF S256x2048 S2048x256 S256x256 [1] [0] [0] [1] [] []
  dot_S256x128_S128x128_S256x128_1_0_0_1_n_n_wf : DotDims.WF S256x128 S128x128 S256x128 [1] [0] [0] [1] [] []
  dot_S256x256_S256x128_S256x128_1_0_0_1_n_n_wf : DotDims.WF S256x256 S256x128 S256x128 [1] [0] [0] [1] [] []
  dot_S256x128_S128x64_S256x64_1_0_0_1_n_n_wf : DotDims.WF S256x128 S128x64 S256x64 [1] [0] [0] [1] [] []
  dot_S256x256_S256x64_S256x64_1_0_0_1_n_n_wf : DotDims.WF S256x256 S256x64 S256x64 [1] [0] [0] [1] [] []
  dot_S64x256_S256x128_S64x128_1_0_0_1_n_n_wf : DotDims.WF S64x256 S256x128 S64x128 [1] [0] [0] [1] [] []
  dot_S64x256_S256x64_S64x64_1_0_0_1_n_n_wf : DotDims.WF S64x256 S256x64 S64x64 [1] [0] [0] [1] [] []
  dot_S64x128_S128x128_S64x128_1_0_0_1_n_n_wf : DotDims.WF S64x128 S128x128 S64x128 [1] [0] [0] [1] [] []
  dot_S64x64_S64x128_S64x128_1_0_0_1_n_n_wf : DotDims.WF S64x64 S64x128 S64x128 [1] [0] [0] [1] [] []
  dot_S64x128_S128x1_S64x1_1_0_0_1_n_n_wf : DotDims.WF S64x128 S128x1 S64x1 [1] [0] [0] [1] [] []
  dot_S64x64_S64x1_S64x1_1_0_0_1_n_n_wf : DotDims.WF S64x64 S64x1 S64x1 [1] [0] [0] [1] [] []
  dot_S1x64_S64x128_S1x128_1_0_0_1_n_n_wf : DotDims.WF S1x64 S64x128 S1x128 [1] [0] [0] [1] [] []
  dot_S1x128_S128x10_S1x10_1_0_0_1_n_n_wf : DotDims.WF S1x128 S128x10 S1x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .bf16 = 32 ∨ (Rect.block (s := S8192x8192) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x784.size a ≤ S8192x784.size a
  hwx1_0 : ∀ i : grid1.Coords, EltTy.bits .f32 = 32 ∨ (Rect.block (s := S8192x784) S1024x784.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S784x256.size a ≤ S784x256.size a
  hwx1_1 : ∀ i : grid1.Coords, EltTy.bits .f32 = 32 ∨ (Rect.block (s := S784x256) S784x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .bf16 = 32 ∨ (Rect.block (s := S8192x256) S1024x256.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .bf16 = 32 ∨ (Rect.block (s := S8192x8192) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S8192x256.size a
  hwx2_1 : ∀ i : grid2.Coords, EltTy.bits .bf16 = 32 ∨ (Rect.block (s := S8192x256) S2048x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .f32 = 32 ∨ (Rect.block (s := S8192x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S8192x1.size a
  hwx2_3 : ∀ i : grid2.Coords, EltTy.bits .f32 = 32 ∨ (Rect.block (s := S8192x1) S1024x1.size (cc2_transform_3 i) (hinb2_3 i)).WholeWords (EltTy.packing .f32)
  hstage2_4 : ∀ j, (stage2_4 j).IsWhole
  nbuf2_4 : grid2.bufCount reads2_4 false = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x256.size a ≤ S8192x256.size a
  hwx2_5 : ∀ i : grid2.Coords, EltTy.bits .f32 = 32 ∨ (Rect.block (s := S8192x256) S1024x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S8192x256.size a
  hwx3_0 : ∀ i : grid3.Coords, EltTy.bits .f32 = 32 ∨ (Rect.block (s := S8192x256) S1024x256.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S8192x128.size a
  hwx3_2 : ∀ i : grid3.Coords, EltTy.bits .bf16 = 32 ∨ (Rect.block (s := S8192x128) S1024x128.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x256.size a ≤ S8192x256.size a
  hwx4_0 : ∀ i : grid4.Coords, EltTy.bits .f32 = 32 ∨ (Rect.block (s := S8192x256) S1024x256.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x256.size a ≤ S8192x256.size a
  hwx4_2 : ∀ i : grid4.Coords, EltTy.bits .bf16 = 32 ∨ (Rect.block (s := S8192x256) S1024x256.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x2048.size a ≤ S8192x8192.size a
  hwx5_0 : ∀ i : grid5.Coords, EltTy.bits .bf16 = 32 ∨ (Rect.block (s := S8192x8192) S1024x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x128.size a ≤ S8192x128.size a
  hwx5_1 : ∀ i : grid5.Coords, EltTy.bits .bf16 = 32 ∨ (Rect.block (s := S8192x128) S2048x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x256.size a ≤ S8192x256.size a
  hwx5_2 : ∀ i : grid5.Coords, EltTy.bits .bf16 = 32 ∨ (Rect.block (s := S8192x256) S2048x256.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x1.size a ≤ S8192x1.size a
  hwx5_3 : ∀ i : grid5.Coords, EltTy.bits .f32 = 32 ∨ (Rect.block (s := S8192x1) S2048x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1024x1.size a ≤ S8192x1.size a
  hwx5_4 : ∀ i : grid5.Coords, EltTy.bits .f32 = 32 ∨ (Rect.block (s := S8192x1) S1024x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1024x128.size a ≤ S8192x128.size a
  hwx5_7 : ∀ i : grid5.Coords, EltTy.bits .f32 = 32 ∨ (Rect.block (s := S8192x128) S1024x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S1024x256.size a ≤ S8192x256.size a
  hwx5_8 : ∀ i : grid5.Coords, EltTy.bits .bf16 = 32 ∨ (Rect.block (s := S8192x256) S1024x256.size (cc5_transform_8 i) (hinb5_8 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x256.size a ≤ S8192x256.size a
  hwx6_0 : ∀ i : grid6.Coords, EltTy.bits .bf16 = 32 ∨ (Rect.block (s := S8192x256) S2048x256.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x128.size a ≤ S8192x128.size a
  hwx6_1 : ∀ i : grid6.Coords, EltTy.bits .f32 = 32 ∨ (Rect.block (s := S8192x128) S2048x128.size (cc6_transform_1 i) (hinb6_1 i)).WholeWords (EltTy.packing .f32)
  hstage6_2 : ∀ j, (stage6_2 j).IsWhole
  nbuf6_2 : grid6.bufCount reads6_2 false = 1
  hreads6_2 : ∀ i i' : grid6.Coords, (∀ a, reads6_2 a = true → i a = i' a) → cc6_transform_2 i = cc6_transform_2 i'
  hinb6_2 : ∀ (i : grid6.Coords) a, (cc6_transform_2 i a + 1) * S256x128.size a ≤ S256x128.size a
  hwx6_2 : ∀ i : grid6.Coords, EltTy.bits .f32 = 32 ∨ (Rect.block (s := S256x128) S256x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x256.size a ≤ S8192x256.size a
  hwx7_0 : ∀ i : grid7.Coords, EltTy.bits .bf16 = 32 ∨ (Rect.block (s := S8192x256) S2048x256.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x1024.size a ≤ S8192x8192.size a
  hwx7_1 : ∀ i : grid7.Coords, EltTy.bits .bf16 = 32 ∨ (Rect.block (s := S8192x8192) S2048x1024.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x1.size a ≤ S8192x1.size a
  hwx7_2 : ∀ i : grid7.Coords, EltTy.bits .f32 = 32 ∨ (Rect.block (s := S8192x1) S2048x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1x1024.size a ≤ S1x8192.size a
  hwx7_3 : ∀ i : grid7.Coords, EltTy.bits .f32 = 32 ∨ (Rect.block (s := S1x8192) S1x1024.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S256x1024.size a ≤ S256x8192.size a
  hwx7_4 : ∀ i : grid7.Coords, EltTy.bits .bf16 = 32 ∨ (Rect.block (s := S256x8192) S256x1024.size (cc7_transform_4 i) (hinb7_4 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S256x2048.size a ≤ S256x8192.size a
  hwx8_0 : ∀ i : grid8.Coords, EltTy.bits .bf16 = 32 ∨ (Rect.block (s := S256x8192) S256x2048.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2048x256.size a ≤ S8192x256.size a
  hwx8_1 : ∀ i : grid8.Coords, EltTy.bits .bf16 = 32 ∨ (Rect.block (s := S8192x256) S2048x256.size (cc8_transform_1 i) (hinb8_1 i)).WholeWords (EltTy.packing .bf16)
  hstage8_2 : ∀ j, (stage8_2 j).IsWhole
  nbuf8_2 : grid8.bufCount reads8_2 false = 1
  hreads8_2 : ∀ i i' : grid8.Coords, (∀ a, reads8_2 a = true → i a = i' a) → cc8_transform_2 i = cc8_transform_2 i'
  hinb8_2 : ∀ (i : grid8.Coords) a, (cc8_transform_2 i a + 1) * S256x256.size a ≤ S256x256.size a
  hwx8_2 : ∀ i : grid8.Coords, EltTy.bits .f32 = 32 ∨ (Rect.block (s := S256x256) S256x256.size (cc8_transform_2 i) (hinb8_2 i)).WholeWords (EltTy.packing .f32)

variable [Facts₀]

def dot_S1024x784_S784x256_S1024x256_1_0_0_1_n_n : DotDims S1024x784 S784x256 S1024x256 where
  lhsContracting := [1]
  rhsContracting := [0]
  lhsNonContracting := [0]
  rhsNonContracting := [1]
  lhsBatch := []
  rhsBatch := []
  wf := dot_S1024x784_S784x256_S1024x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S2048x256_S2048x128_S256x128_0_0_1_1_n_n : DotDims S2048x256 S2048x128 S256x128 where
  lhsContracting := [0]
  rhsContracting := [0]
  lhsNonContracting := [1]
  rhsNonContracting := [1]
  lhsBatch := []
  rhsBatch := []
  wf := dot_S2048x256_S2048x128_S256x128_0_0_1_1_n_n_wf
def dot_S2048x256_S2048x1024_S256x1024_0_0_1_1_n_n : DotDims S2048x256 S2048x1024 S256x1024 where
  lhsContracting := [0]
  rhsContracting := [0]
  lhsNonContracting := [1]
  rhsNonContracting := [1]
  lhsBatch := []
  rhsBatch := []
  wf := dot_S2048x256_S2048x1024_S256x1024_0_0_1_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x256_S256x64_S64x64_1_0_0_1_n_n : DotDims S64x256 S256x64 S64x64 where
  lhsContracting := [1]
  rhsContracting := [0]
  lhsNonContracting := [0]
  rhsNonContracting := [1]
  lhsBatch := []
  rhsBatch := []
  wf := dot_S64x256_S256x64_S64x64_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def dot_S1x128_S128x10_S1x10_1_0_0_1_n_n : DotDims S1x128 S128x10 S1x10 where
  lhsContracting := [1]
  rhsContracting := [0]
  lhsNonContracting := [0]
  rhsNonContracting := [1]
  lhsBatch := []
  rhsBatch := []
  wf := dot_S1x128_S128x10_S1x10_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1024x784.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S784x256.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v0_0) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1x256.size cc2_transform_4 reads2_4 false false 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S1024x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v4) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S256x128.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1024x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v4) S1024x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S256x256.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v6) S1024x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v0_0) S1024x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S2048x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v6) S2048x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v1) S2048x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v1) S1024x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v7) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v8) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v9_0) S1024x128.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v9_1) S1024x256.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev idle5 : Fin 9 → grid5.Coords → Bool := fun | 0 => fun _ => false | 1 => fun _ => false | 2 => fun _ => false | 3 => fun _ => false | 4 => fun _ => false | 5 => fun _ => false | 6 => fun _ => false | 7 => fun i => !(k5_cond2 i == 1#1) | 8 => fun i => !(k5_cond2 i == 1#1) | ⟨_ + 9, h⟩ => absurd h (Nat.not_lt.2 (Nat.le_add_left _ _))

abbrev win6_0 : Pipeline.Window sig grid6 :=
  Pipeline.Window.ofSpec (Memref.whole main_v9_1) S2048x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v9_0) S2048x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v10) S256x128.size cc6_transform_2 reads6_2 true false 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v9_1) S2048x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v0_0) S2048x1024.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v1) S2048x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v11) S1x1024.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v12) S256x1024.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev idle7 : Fin 5 → grid7.Coords → Bool := fun | 0 => fun _ => false | 1 => fun _ => false | 2 => fun _ => false | 3 => fun _ => false | 4 => fun i => !(k7_cond2 i == 1#1) | ⟨_ + 5, h⟩ => absurd h (Nat.not_lt.2 (Nat.le_add_left _ _))

abbrev win8_0 : Pipeline.Window sig grid8 :=
  Pipeline.Window.ofSpec (Memref.whole main_v12) S256x2048.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v9_1) S2048x256.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v13) S256x256.size cc8_transform_2 reads8_2 true false 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

class Facts : Prop extends Facts₀ where

variable [Facts]
-- ==== ReferenceIdeal.lean ====
abbrev S8192x784 : Shape := ⟨2, ![8192, 784]⟩
abbrev S8192x8192 : Shape := ⟨2, ![8192, 8192]⟩
abbrev S784x256 : Shape := ⟨2, ![784, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S128x128 : Shape := ⟨2, ![128, 128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S128x10 : Shape := ⟨2, ![128, 10]⟩
abbrev S10 : Shape := ⟨1, ![10]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x256 : Shape := ⟨2, ![8192, 256]⟩
abbrev S1x256 : Shape := ⟨2, ![1, 256]⟩
abbrev S8192x128 : Shape := ⟨2, ![8192, 128]⟩
abbrev S1x128 : Shape := ⟨2, ![1, 128]⟩
abbrev S256x8192 : Shape := ⟨2, ![256, 8192]⟩
abbrev S256x64 : Shape := ⟨2, ![256, 64]⟩
abbrev S1x64 : Shape := ⟨2, ![1, 64]⟩
abbrev S256x1 : Shape := ⟨2, ![256, 1]⟩
abbrev S64x256 : Shape := ⟨2, ![64, 256]⟩
abbrev S64x128 : Shape := ⟨2, ![64, 128]⟩
abbrev S64x64 : Shape := ⟨2, ![64, 64]⟩
abbrev S64x1 : Shape := ⟨2, ![64, 1]⟩
abbrev S1x1 : Shape := ⟨2, ![1, 1]⟩
abbrev S1x10 : Shape := ⟨2, ![1, 10]⟩

abbrev nBuf : Space → Nat
  | .hbm => 151
  | .vmem => 0
  | .smem => 0
  | _ => 0

abbrev hbmTy0_0 (i : Nat) : BufTy := match i % 128 with
  | 0 => ⟨S8192x784, .f32⟩
  | 1 => ⟨S8192x8192, .f32⟩
  | 2 => ⟨S784x256, .f32⟩
  | 3 => ⟨S256, .f32⟩
  | 4 => ⟨S256x128, .f32⟩
  | 5 => ⟨S128, .f32⟩
  | 6 => ⟨S256x256, .f32⟩
  | 7 => ⟨S256, .f32⟩
  | 8 => ⟨S128x128, .f32⟩
  | 9 => ⟨S128, .f32⟩
  | 10 => ⟨S128x128, .f32⟩
  | 11 => ⟨S128, .f32⟩
  | 12 => ⟨S128x64, .f32⟩
  | 13 => ⟨S64, .f32⟩
  | 14 => ⟨S128x128, .f32⟩
  | 15 => ⟨S128, .f32⟩
  | 16 => ⟨S128x128, .f32⟩
  | 17 => ⟨S128, .f32⟩
  | 18 => ⟨S128x1, .f32⟩
  | 19 => ⟨S1, .f32⟩
  | 20 => ⟨S128x10, .f32⟩
  | 21 => ⟨S10, .f32⟩
  | 22 => ⟨S_, .f32⟩
  | 23 => ⟨S8192x8192, .f32⟩
  | 24 => ⟨S8192x8192, .i1⟩
  | 25 => ⟨S8192x8192, .i32⟩
  | 26 => ⟨S_, .i32⟩
  | 27 => ⟨S8192, .i32⟩
  | 28 => ⟨S8192, .f32⟩
  | 29 => ⟨S8192, .f32⟩
  | 30 => ⟨S8192x1, .f32⟩
  | 31 => ⟨S8192x8192, .f32⟩
  | 32 => ⟨S8192x8192, .f32⟩
  | 33 => ⟨S1x8192, .f32⟩
  | 34 => ⟨S8192x8192, .f32⟩
  | 35 => ⟨S8192x8192, .f32⟩
  | 36 => ⟨S8192x256, .f32⟩
  | 37 => ⟨S8192x256, .f32⟩
  | 38 => ⟨S1x256, .f32⟩
  | 39 => ⟨S8192x256, .f32⟩
  | 40 => ⟨S8192x256, .f32⟩
  | 41 => ⟨S8192x128, .f32⟩
  | 42 => ⟨S8192x128, .f32⟩
  | 43 => ⟨S1x128, .f32⟩
  | 44 => ⟨S8192x128, .f32⟩
  | 45 => ⟨S8192x128, .f32⟩
  | 46 => ⟨S8192x256, .f32⟩
  | 47 => ⟨S8192x256, .f32⟩
  | 48 => ⟨S1x256, .f32⟩
  | 49 => ⟨S8192x256, .f32⟩
  | 50 => ⟨S8192x256, .f32⟩
  | 51 => ⟨S_, .f32⟩
  | 52 => ⟨S8192, .f32⟩
  | 53 => ⟨S_, .f32⟩
  | 54 => ⟨S8192, .f32⟩
  | 55 => ⟨S8192, .f32⟩
  | 56 => ⟨S8192x1, .f32⟩
  | 57 => ⟨S8192x256, .f32⟩
  | 58 => ⟨S8192x256, .f32⟩
  | 59 => ⟨S8192x256, .f32⟩
  | 60 => ⟨S_, .f32⟩
  | 61 => ⟨S8192, .f32⟩
  | 62 => ⟨S8192x1, .f32⟩
  | 63 => ⟨S8192x256, .f32⟩
  | 64 => ⟨S8192x256, .f32⟩
  | 65 => ⟨S256x8192, .f32⟩
  | 66 => ⟨S256x128, .f32⟩
  | 67 => ⟨S256x8192, .f32⟩
  | 68 => ⟨S256x8192, .f32⟩
  | 69 => ⟨S256x256, .f32⟩
  | 70 => ⟨S256x128, .f32⟩
  | 71 => ⟨S256x128, .f32⟩
  | 72 => ⟨S1x128, .f32⟩
  | 73 => ⟨S256x128, .f32⟩
  | 74 => ⟨S256x128, .f32⟩
  | 75 => ⟨S256x128, .f32⟩
  | 76 => ⟨S256x128, .f32⟩
  | 77 => ⟨S1x128, .f32⟩
  | 78 => ⟨S256x128, .f32⟩
  | 79 => ⟨S256x128, .f32⟩
  | 80 => ⟨S256x64, .f32⟩
  | 81 => ⟨S256x64, .f32⟩
  | 82 => ⟨S1x64, .f32⟩
  | 83 => ⟨S256x64, .f32⟩
  | 84 => ⟨S256x64, .f32⟩
  | 85 => ⟨S_, .f32⟩
  | 86 => ⟨S256, .f32⟩
  | 87 => ⟨S_, .f32⟩
  | 88 => ⟨S256, .f32⟩
  | 89 => ⟨S256, .f32⟩
  | 90 => ⟨S256x1, .f32⟩
  | 91 => ⟨S256x64, .f32⟩
  | 92 => ⟨S256x64, .f32⟩
  | 93 => ⟨S256x64, .f32⟩
  | 94 => ⟨S_, .f32⟩
  | 95 => ⟨S256, .f32⟩
  | 96 => ⟨S256x1, .f32⟩
  | 97 => ⟨S256x64, .f32⟩
  | 98 => ⟨S256x64, .f32⟩
  | 99 => ⟨S64x256, .f32⟩
  | 100 => ⟨S64x128, .f32⟩
  | 101 => ⟨S64x256, .f32⟩
  | 102 => ⟨S256x64, .f32⟩
  | 103 => ⟨S64x64, .f32⟩
  | 104 => ⟨S64x128, .f32⟩
  | 105 => ⟨S64x128, .f32⟩
  | 106 => ⟨S1x128, .f32⟩
  | 107 => ⟨S64x128, .f32⟩
  | 108 => ⟨S64x128, .f32⟩
  | 109 => ⟨S64x128, .f32⟩
  | 110 => ⟨S64x128, .f32⟩
  | 111 => ⟨S1x128, .f32⟩
  | 112 => ⟨S64x128, .f32⟩
  | 113 => ⟨S64x128, .f32⟩
  | 114 => ⟨S64x1, .f32⟩
  | 115 => ⟨S64x1, .f32⟩
  | 116 => ⟨S1x1, .f32⟩
  | 117 => ⟨S64x1, .f32⟩
  | 118 => ⟨S64x1, .f32⟩
  | 119 => ⟨S_, .f32⟩
  | 120 => ⟨S64, .f32⟩
  | 121 => ⟨S_, .f32⟩
  | 122 => ⟨S64, .f32⟩
  | 123 => ⟨S64, .f32⟩
  | 124 => ⟨S64x1, .f32⟩
  | 125 => ⟨S64x1, .f32⟩
  | 126 => ⟨S64x1, .f32⟩
  | 127 => ⟨S_, .f32⟩
  | _ => ⟨S8192x784, .f32⟩

abbrev hbmTy0_1 (i : Nat) : BufTy := match i % 128 with
  | 0 => ⟨S64, .f32⟩
  | 1 => ⟨S64x1, .f32⟩
  | 2 => ⟨S64x1, .f32⟩
  | 3 => ⟨S1x64, .f32⟩
  | 4 => ⟨S1x128, .f32⟩
  | 5 => ⟨S1x10, .f32⟩
  | 6 => ⟨S1x10, .f32⟩
  | 7 => ⟨S1x10, .f32⟩
  | 8 => ⟨S_, .f32⟩
  | 9 => ⟨S1, .f32⟩
  | 10 => ⟨S_, .f32⟩
  | 11 => ⟨S1, .f32⟩
  | 12 => ⟨S1, .f32⟩
  | 13 => ⟨S1x1, .f32⟩
  | 14 => ⟨S1x10, .f32⟩
  | 15 => ⟨S1x10, .f32⟩
  | 16 => ⟨S1x10, .f32⟩
  | 17 => ⟨S_, .f32⟩
  | 18 => ⟨S1, .f32⟩
  | 19 => ⟨S1x1, .f32⟩
  | 20 => ⟨S1x1, .f32⟩
  | 21 => ⟨S1x10, .f32⟩
  | 22 => ⟨S1x10, .f32⟩
  | _ => ⟨S8192x784, .f32⟩

abbrev hbmTy (i : Nat) : BufTy := match i / 128 with
  | 0 => hbmTy0_0 i
  | 1 => hbmTy0_1 i
  | _ => ⟨S8192x784, .f32⟩

abbrev bufTy : (tb : Table) → Fin (tcTables nBuf tb) → BufTy
  | .hbm, ⟨i, _⟩ => hbmTy i
  | _, _ => ⟨S8192x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_c : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_0 : Ref sig .tc := ⟨.hbm, 51, rfl⟩
abbrev main_v27 : Ref sig .tc := ⟨.hbm, 52, rfl⟩
abbrev main_cst_1 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_3 : Ref sig .tc := ⟨.hbm, 85, rfl⟩
abbrev main_v58 : Ref sig .tc := ⟨.hbm, 86, rfl⟩
abbrev main_cst_4 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_5 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_6 : Ref sig .tc := ⟨.hbm, 119, rfl⟩
abbrev main_v89 : Ref sig .tc := ⟨.hbm, 120, rfl⟩
abbrev main_cst_7 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_8 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_call0_cst : Ref sig .tc := ⟨.hbm, 136, rfl⟩
abbrev main_call0_v0 : Ref sig .tc := ⟨.hbm, 137, rfl⟩
abbrev main_call0_cst_0 : Ref sig .tc := ⟨.hbm, 138, rfl⟩
abbrev main_call0_v1 : Ref sig .tc := ⟨.hbm, 139, rfl⟩
abbrev main_call0_v2 : Ref sig .tc := ⟨.hbm, 140, rfl⟩
abbrev main_call0_v3 : Ref sig .tc := ⟨.hbm, 141, rfl⟩
abbrev main_call0_v4 : Ref sig .tc := ⟨.hbm, 142, rfl⟩
abbrev main_call0_v5 : Ref sig .tc := ⟨.hbm, 143, rfl⟩
abbrev main_call0_v6 : Ref sig .tc := ⟨.hbm, 144, rfl⟩
abbrev main_call0_cst_1 : Ref sig .tc := ⟨.hbm, 145, rfl⟩
abbrev main_call0_v7 : Ref sig .tc := ⟨.hbm, 146, rfl⟩
abbrev main_call0_v8 : Ref sig .tc := ⟨.hbm, 147, rfl⟩
abbrev main_call0_v9 : Ref sig .tc := ⟨.hbm, 148, rfl⟩
abbrev main_call0_v10 : Ref sig .tc := ⟨.hbm, 149, rfl⟩
abbrev main_v103 : Ref sig .tc := ⟨.hbm, 150, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  natLt_1_32 : 1 < 32
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x256_S8192_d1 : S8192x256.ReducesTo [1] S8192
  bcast_S_S8192 : S_.BroadcastsInDim S8192 (![] : Fin 0 → Fin S8192.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S1x128_S256x128_0_1 : S1x128.BroadcastsInDim S256x128 (![0, 1] : Fin 2 → Fin S256x128.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  reducesTo_S256x64_S256_d1 : S256x64.ReducesTo [1] S256
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  transposes_S256x64_S64x256_1_0 : S256x64.Transposes [1, 0] S64x256
  bcast_S1x128_S64x128_0_1 : S1x128.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  bcast_S_S64 : S_.BroadcastsInDim S64 (![] : Fin 0 → Fin S64.rank)
  bcast_S64_S64x1_0 : S64.BroadcastsInDim S64x1 (![0] : Fin 1 → Fin S64x1.rank)
  transposes_S64x1_S1x64_1_0 : S64x1.Transposes [1, 0] S1x64
  bcast_S10_S1x10_1 : S10.BroadcastsInDim S1x10 (![1] : Fin 1 → Fin S1x10.rank)
  reducesTo_S1x10_S1_d1 : S1x10.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x10_0_1 : S1x1.BroadcastsInDim S1x10 (![0, 1] : Fin 2 → Fin S1x10.rank)
  dot_S8192x784_S784x256_S8192x256_1_0_0_1_n_n_wf : DotDims.WF S8192x784 S784x256 S8192x256 [1] [0] [0] [1] [] []
  dot_S8192x8192_S8192x256_S8192x256_1_0_0_1_n_n_wf : DotDims.WF S8192x8192 S8192x256 S8192x256 [1] [0] [0] [1] [] []
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []
  dot_S8192x256_S256x256_S8192x256_1_0_0_1_n_n_wf : DotDims.WF S8192x256 S256x256 S8192x256 [1] [0] [0] [1] [] []
  dot_S256x8192_S8192x128_S256x128_1_0_0_1_n_n_wf : DotDims.WF S256x8192 S8192x128 S256x128 [1] [0] [0] [1] [] []
  dot_S256x8192_S8192x8192_S256x8192_1_0_0_1_n_n_wf : DotDims.WF S256x8192 S8192x8192 S256x8192 [1] [0] [0] [1] [] []
  dot_S256x8192_S8192x256_S256x256_1_0_0_1_n_n_wf : DotDims.WF S256x8192 S8192x256 S256x256 [1] [0] [0] [1] [] []
  dot_S256x128_S128x128_S256x128_1_0_0_1_n_n_wf : DotDims.WF S256x128 S128x128 S256x128 [1] [0] [0] [1] [] []
  dot_S256x256_S256x128_S256x128_1_0_0_1_n_n_wf : DotDims.WF S256x256 S256x128 S256x128 [1] [0] [0] [1] [] []
  dot_S256x128_S128x64_S256x64_1_0_0_1_n_n_wf : DotDims.WF S256x128 S128x64 S256x64 [1] [0] [0] [1] [] []
  dot_S256x256_S256x64_S256x64_1_0_0_1_n_n_wf : DotDims.WF S256x256 S256x64 S256x64 [1] [0] [0] [1] [] []
  dot_S64x256_S256x128_S64x128_1_0_0_1_n_n_wf : DotDims.WF S64x256 S256x128 S64x128 [1] [0] [0] [1] [] []
  dot_S64x256_S256x64_S64x64_1_0_0_1_n_n_wf : DotDims.WF S64x256 S256x64 S64x64 [1] [0] [0] [1] [] []
  dot_S64x128_S128x128_S64x128_1_0_0_1_n_n_wf : DotDims.WF S64x128 S128x128 S64x128 [1] [0] [0] [1] [] []
  dot_S64x64_S64x128_S64x128_1_0_0_1_n_n_wf : DotDims.WF S64x64 S64x128 S64x128 [1] [0] [0] [1] [] []
  dot_S64x128_S128x1_S64x1_1_0_0_1_n_n_wf : DotDims.WF S64x128 S128x1 S64x1 [1] [0] [0] [1] [] []
  dot_S64x64_S64x1_S64x1_1_0_0_1_n_n_wf : DotDims.WF S64x64 S64x1 S64x1 [1] [0] [0] [1] [] []
  dot_S1x64_S64x128_S1x128_1_0_0_1_n_n_wf : DotDims.WF S1x64 S64x128 S1x128 [1] [0] [0] [1] [] []
  dot_S1x128_S128x10_S1x10_1_0_0_1_n_n_wf : DotDims.WF S1x128 S128x10 S1x10 [1] [0] [0] [1] [] []

variable [Facts₀]

def dot_S8192x784_S784x256_S8192x256_1_0_0_1_n_n : DotDims S8192x784 S784x256 S8192x256 where
  lhsContracting := [1]
  rhsContracting := [0]
  lhsNonContracting := [0]
  rhsNonContracting := [1]
  lhsBatch := []
  rhsBatch := []
  wf := dot_S8192x784_S784x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S256x8192_S8192x8192_S256x8192_1_0_0_1_n_n : DotDims S256x8192 S8192x8192 S256x8192 where
  lhsContracting := [1]
  rhsContracting := [0]
  lhsNonContracting := [0]
  rhsNonContracting := [1]
  lhsBatch := []
  rhsBatch := []
  wf := dot_S256x8192_S8192x8192_S256x8192_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x256_S256x64_S64x64_1_0_0_1_n_n : DotDims S64x256 S256x64 S64x64 where
  lhsContracting := [1]
  rhsContracting := [0]
  lhsNonContracting := [0]
  rhsNonContracting := [1]
  lhsBatch := []
  rhsBatch := []
  wf := dot_S64x256_S256x64_S64x64_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def dot_S1x128_S128x10_S1x10_1_0_0_1_n_n : DotDims S1x128 S128x10 S1x10 where
  lhsContracting := [1]
  rhsContracting := [0]
  lhsNonContracting := [0]
  rhsNonContracting := [1]
  lhsBatch := []
  rhsBatch := []
  wf := dot_S1x128_S128x10_S1x10_1_0_0_1_n_n_wf

class Facts : Prop extends Facts₀ where

variable [Facts]
-- ==== Proof.KB.Common.lean ====
/-
  Shared setting of the hand-written frame of the nine-region program: the resource algebra every region's proof
  data is stated over, the state that rides beside the buffers between two items of the host program, and the
  admissible (empty) prefetched tables.
-/
import proofs.«105977_j57329223467619_2_alg».proof.Proof.Gen.Kernel.Launch
import proofs.«105977_j57329223467619_2_alg».proof.Proof.Gen.Kernel.Points
import proofs.«105977_j57329223467619_2_alg».proof.Proof.Gen.Kernel.Skeleton
import Idealize.ShloMosaic.Lib.Pipeline.Frame
import Idealize.ShloMosaic.Lib.Pipeline.FrameSuffix
import Idealize.ShloMosaic.Lib.Pipeline.Regions
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of every region's proof data: no level index, names and levels natural numbers. -/
abbrev MK (F : FTy → Type) : Type := MT nD τ sig Unit (Elt F) ℕ (UR sig nD τ) ℕ

/-- No pipeline has a prefetched table. -/
abbrev adm : (p : Fin 9) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp (MK F) := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.KB.Host.lean ====
/-
  The six stretches of host operations between the kernel regions: none allocates a buffer, each writes only the
  references listed here, and so every other reference holds after a stretch what it held before it.
-/
import proofs.«105977_j57329223467619_2_alg».proof.Proof.KB.Common

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v1]
theorem hostOps1_writes : (hostOps1 : List (HloOp τ sig (Elt F))).Forall fun op => op.writes ⊆ ((hostOps1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps1` does not write holds after the stretch what it held before. -/
theorem hostOps1_keep (W : Valuation τ sig (Elt F)) (r : Ref sig .tc) (h : r ∉ hostOps1_W) :
    StableHlo.after (hostOps1 : List (HloOp τ sig (Elt F))) W (Proc.devRef .tc r) = W (Proc.devRef .tc r) :=
  StableHlo.after_of_writes_sub hostOps1 _ hostOps1_writes h

/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v3]
theorem hostOps2_writes : (hostOps2 : List (HloOp τ sig (Elt F))).Forall fun op => op.writes ⊆ ((hostOps2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps2` does not write holds after the stretch what it held before. -/
theorem hostOps2_keep (W : Valuation τ sig (Elt F)) (r : Ref sig .tc) (h : r ∉ hostOps2_W) :
    StableHlo.after (hostOps2 : List (HloOp τ sig (Elt F))) W (Proc.devRef .tc r) = W (Proc.devRef .tc r) :=
  StableHlo.after_of_writes_sub hostOps2 _ hostOps2_writes h

/-- No operation of `hostOps5` allocates a buffer. -/
theorem hostOps5_fresh : (hostOps5 : List (HloOp τ sig (Elt F))).Forall fun op => op.fresh = ∅ := by
  simp only [List.Forall]; repeat' constructor
/-- The references `hostOps5`'s operations write. -/
abbrev hostOps5_W : List (Ref sig .tc) := [main_v7, main_v8]
theorem hostOps5_writes : (hostOps5 : List (HloOp τ sig (Elt F))).Forall fun op => op.writes ⊆ ((hostOps5_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps5` does not write holds after the stretch what it held before. -/
theorem hostOps5_keep (W : Valuation τ sig (Elt F)) (r : Ref sig .tc) (h : r ∉ hostOps5_W) :
    StableHlo.after (hostOps5 : List (HloOp τ sig (Elt F))) W (Proc.devRef .tc r) = W (Proc.devRef .tc r) :=
  StableHlo.after_of_writes_sub hostOps5 _ hostOps5_writes h

/-- No operation of `hostOps7` allocates a buffer. -/
theorem hostOps7_fresh : (hostOps7 : List (HloOp τ sig (Elt F))).Forall fun op => op.fresh = ∅ := by
  simp only [List.Forall]; repeat' constructor
/-- The references `hostOps7`'s operations write. -/
abbrev hostOps7_W : List (Ref sig .tc) := [main_v11]
theorem hostOps7_writes : (hostOps7 : List (HloOp τ sig (Elt F))).Forall fun op => op.writes ⊆ ((hostOps7_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps7` does not write holds after the stretch what it held before. -/
theorem hostOps7_keep (W : Valuation τ sig (Elt F)) (r : Ref sig .tc) (h : r ∉ hostOps7_W) :
    StableHlo.after (hostOps7 : List (HloOp τ sig (Elt F))) W (Proc.devRef .tc r) = W (Proc.devRef .tc r) :=
  StableHlo.after_of_writes_sub hostOps7 _ hostOps7_writes h

set_option maxHeartbeats 4000000 in
/-- No operation of `hostOps9` allocates a buffer. -/
theorem hostOps9_fresh : (hostOps9 : List (HloOp τ sig (Elt F))).Forall fun op => op.fresh = ∅ := by
  simp only [List.Forall]; repeat' constructor
/-- The references `hostOps9`'s operations write. -/
abbrev hostOps9_W : List (Ref sig .tc) := [main_v14, main_v15, main_v16, main_v17, main_v18, main_v19, main_v20, main_v21, main_v22, main_v23, main_v24, main_v25, main_v26, main_v27, main_v28, main_cst, main_v29, main_cst_0, main_v30, main_v31, main_v32, main_v33, main_v34, main_v35, main_cst_1, main_v36, main_v37, main_v38, main_v39, main_v40, main_v41, main_v42, main_v43, main_v44, main_v45, main_v46, main_v47, main_v48, main_v49, main_v50, main_v51, main_v52, main_v53, main_v54, main_v55, main_v56, main_v57, main_v58, main_v59, main_cst_2, main_v60, main_cst_3, main_v61, main_v62, main_v63, main_v64, main_v65, main_cst_4, main_v66, main_v67, main_v68, main_v69, main_v70, main_v71, main_v72, main_v73]
set_option maxHeartbeats 4000000 in
theorem hostOps9_writes : (hostOps9 : List (HloOp τ sig (Elt F))).Forall fun op => op.writes ⊆ ((hostOps9_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps9` does not write holds after the stretch what it held before. -/
theorem hostOps9_keep (W : Valuation τ sig (Elt F)) (r : Ref sig .tc) (h : r ∉ hostOps9_W) :
    StableHlo.after (hostOps9 : List (HloOp τ sig (Elt F))) W (Proc.devRef .tc r) = W (Proc.devRef .tc r) :=
  StableHlo.after_of_writes_sub hostOps9 _ hostOps9_writes h

/-- No operation of `hostOps9_1` allocates a buffer. -/
theorem hostOps9_1_fresh : (hostOps9_1 : List (HloOp τ sig (Elt F))).Forall fun op => op.fresh = ∅ := by
  simp only [List.Forall]; repeat' constructor
/-- The references `hostOps9_1`'s operations write. -/
abbrev hostOps9_1_W : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v74]
theorem hostOps9_1_writes : (hostOps9_1 : List (HloOp τ sig (Elt F))).Forall fun op => op.writes ⊆ ((hostOps9_1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps9_1` does not write holds after the stretch what it held before. -/
theorem hostOps9_1_keep (W : Valuation τ sig (Elt F)) (r : Ref sig .tc) (h : r ∉ hostOps9_1_W) :
    StableHlo.after (hostOps9_1 : List (HloOp τ sig (Elt F))) W (Proc.devRef .tc r) = W (Proc.devRef .tc r) :=
  StableHlo.after_of_writes_sub hostOps9_1 _ hostOps9_1_writes h

/-- A host stretch as a segment of the program: the unscoped references from the contents `W`, the riding state beside
    them; it leaves them at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

end Cert.Kernel.Hand

end
-- ==== Proof.KB.Reg0.lean ====
/-
  Region 0 of the nine-region program: the kernel that copies the adjacency matrix block by block into bfloat16 and
  counts, row by row, the nonzero entries into an accumulator kept across the four column steps of a row block.
  Stated at the contents V the region is entered with: what each window's buffer holds after the body at every grid
  point, the body's triple in each case of its two conditions, the proof data, the body obligation, and the region as a
  segment between two thread states.
-/
import proofs.«105977_j57329223467619_2_alg».proof.Proof.KB.Common
import Idealize.ShloMosaic.Lib.Pipeline.FrameBody
import Idealize.ShloMosaic.Lib.Pipeline.Value
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two conditions of the body, decided over the grid -/

/-- The first condition: the column step is the first of its row block. -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second condition: the column step is the last of its row block. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The input window and the copy's window are live at every point; the degree window is idle, and not written back,
    off the last column step, and live at it. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- The two-axis offset vector of zeros is the zero function. -/
theorem zoff0 : (![0, 0] : Fin 2 → Nat) = fun _ => 0 := by
  funext a; fin_cases a <;> rfl

/-- The scratch accumulator as a memref. -/
abbrev scM0 : Memref sig .tc .vmem S1024x1 .f32 := Memref.whole cc0_scratch0

/-- The class invariant with the scratch accumulator set apart, owned at some contents. -/
theorem PhiA0_eq (c : Dev nD) :
    (Pipeline.ΦA spec0 c : sProp (MK F))
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-! ## Loads and stores through the rectangle that covers a whole buffer -/

/-- A load through the whole-shape rectangle at zero offsets reads the contents. -/
theorem readAt_whole_r0 {S : Shape} {e : EltTy} {κ : Kind} {sp : Space} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h]

/-- A store through it, the last of any list of stores, leaves its payload. -/
theorem read_writes_whole_r0 {S : Shape} {e : EltTy} {κ : Kind} {sp : Space} (v : View sig κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-! ## The body's triple, case by case -/

local notation "𝕄" => MT nD τ sig Unit (Elt F) ℕ (UR sig nD τ) ℕ

set_option maxHeartbeats 2000000 in
/-- A middle column step (neither first nor last): the accumulator, found at xs, gains the block's row counts; the copy's buffer takes the block recast; the degree buffer is handed back as found. -/
theorem run0_B (c : Dev nD) (i : grid0.Coords) (arg2 : Memref sig .tc .vmem S1024x2048 .f32) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1024x1 .f32) (harg5 : arg5.IsWhole)
    (hc0 : ¬cond0_0 i) (hc1 : ¬cond0_1 i)
    (x0 : Vec F S1024x2048 .f32) (xi2 : Vec F S1024x1 .f32) (xs : Vec F S1024x1 .f32) (E : Set ℕ) (K : PUnit → sProp 𝕄) :
    iprop(owns (c : Thread nD τ) arg2 fullShare x0 ∗ (∃ d, owns (c : Thread nD τ) arg3 fullShare d) ∗ owns (c : Thread nD τ) arg4 fullShare xi2
        ∗ owns (c : Thread nD τ) arg5 fullShare xs
        ∗ (iprop(owns (c : Thread nD τ) arg2 fullShare x0 ∗ owns (c : Thread nD τ) arg3 fullShare (k0_pay3 x0) ∗ owns (c : Thread nD τ) arg4 fullShare xi2
            ∗ owns (c : Thread nD τ) arg5 fullShare (k0_pay2 x0 xs)) -∗ K ⟨⟩))
      ⊢ wp frame (wpE (defs₀ (F := F)) Variants.none c none) E (cc0__adj_cast_kernel i arg2 harg2 arg3 harg3 arg4 harg4 arg5 harg5) K := by
  simp only [cc0__adj_cast_kernel_eq_skeleton]; unfold cc0__adj_cast_kernel_skel
  unfold owns
  iintro ⟨⟨%f0, %hf0, H0⟩, ⟨%d1, %f1, -, H1⟩, ⟨%f2, %hf2, H2⟩, ⟨%fs, %hfs, HS⟩, Hk⟩
  subst hf0
  sl_exec (disch := first | exact hc0 | exact hc1)
  sl_step
  iapply Hk
  isplitl [H0]
  · iexists f0; isplitr; · ipureintro; rfl
    iexact H0
  isplitl [H1]
  · iexists _; isplitr
    swap; · iexact H1
    ipureintro
    rw [read_writes_whole_r0 _ _ zoff0, readAt_whole_r0 _ _ zoff0]
  isplitl [H2]
  · iexists f2; isplitr; · ipureintro; exact hf2
    iexact H2
  iexists _; isplitr
  swap; · iexact HS
  ipureintro
  subst hfs
  rw [read_writes_whole_r0 _ _ zoff0, readAt_whole_r0 _ _ zoff0, readAt_whole_r0 _ _ zoff0]

set_option maxHeartbeats 2000000 in
/-- The first column step of a row block: the accumulator, whatever it held, is zeroed and gains the block's row counts; the copy's buffer takes the block recast; the degree buffer is handed back as found. -/
theorem run0_A (c : Dev nD) (i : grid0.Coords) (arg2 : Memref sig .tc .vmem S1024x2048 .f32) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1024x1 .f32) (harg5 : arg5.IsWhole)
    (hc0 : cond0_0 i) (hc1 : ¬cond0_1 i)
    (x0 : Vec F S1024x2048 .f32) (xi2 : Vec F S1024x1 .f32) (E : Set ℕ) (K : PUnit → sProp 𝕄) :
    iprop(owns (c : Thread nD τ) arg2 fullShare x0 ∗ (∃ d, owns (c : Thread nD τ) arg3 fullShare d) ∗ owns (c : Thread nD τ) arg4 fullShare xi2
        ∗ (∃ d, owns (c : Thread nD τ) arg5 fullShare d)
        ∗ (iprop(owns (c : Thread nD τ) arg2 fullShare x0 ∗ owns (c : Thread nD τ) arg3 fullShare (k0_pay3 x0) ∗ owns (c : Thread nD τ) arg4 fullShare xi2
            ∗ owns (c : Thread nD τ) arg5 fullShare (k0_pay2 x0 (k0_pay1 (F := F)))) -∗ K ⟨⟩))
      ⊢ wp frame (wpE (defs₀ (F := F)) Variants.none c none) E (cc0__adj_cast_kernel i arg2 harg2 arg3 harg3 arg4 harg4 arg5 harg5) K := by
  simp only [cc0__adj_cast_kernel_eq_skeleton]; unfold cc0__adj_cast_kernel_skel
  unfold owns
  iintro ⟨⟨%f0, %hf0, H0⟩, ⟨%d1, %f1, -, H1⟩, ⟨%f2, %hf2, H2⟩, ⟨%ds, %fs, -, HS⟩, Hk⟩
  subst hf0
  sl_exec (disch := first | exact hc0 | exact hc1)
  sl_step
  iapply Hk
  isplitl [H0]
  · iexists f0; isplitr; · ipureintro; rfl
    iexact H0
  isplitl [H1]
  · iexists _; isplitr
    swap; · iexact H1
    ipureintro
    rw [read_writes_whole_r0 _ _ zoff0, readAt_whole_r0 _ _ zoff0]
  isplitl [H2]
  · iexists f2; isplitr; · ipureintro; exact hf2
    iexact H2
  iexists _; isplitr
  swap; · iexact HS
  ipureintro
  unfold run0_A.sl.v8 run0_A.sl.HS_1
  rw [read_writes_whole_r0 _ _ zoff0, readAt_whole_r0 _ _ zoff0, View.readCov_unit_zero _ zoff0]

set_option maxHeartbeats 2000000 in
/-- The last column step of a row block: the accumulator, found at xs, gains the block's row counts, and the degree buffer, whatever it held, takes the accumulator; the copy's buffer takes the block recast. -/
theorem run0_C (c : Dev nD) (i : grid0.Coords) (arg2 : Memref sig .tc .vmem S1024x2048 .f32) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1024x1 .f32) (harg5 : arg5.IsWhole)
    (hc0 : ¬cond0_0 i) (hc1 : cond0_1 i)
    (x0 : Vec F S1024x2048 .f32) (xs : Vec F S1024x1 .f32) (E : Set ℕ) (K : PUnit → sProp 𝕄) :
    iprop(owns (c : Thread nD τ) arg2 fullShare x0 ∗ (∃ d, owns (c : Thread nD τ) arg3 fullShare d) ∗ (∃ d, owns (c : Thread nD τ) arg4 fullShare d)
        ∗ owns (c : Thread nD τ) arg5 fullShare xs
        ∗ (iprop(owns (c : Thread nD τ) arg2 fullShare x0 ∗ owns (c : Thread nD τ) arg3 fullShare (k0_pay3 x0) ∗ owns (c : Thread nD τ) arg4 fullShare (k0_pay2 x0 xs)
            ∗ owns (c : Thread nD τ) arg5 fullShare (k0_pay2 x0 xs)) -∗ K ⟨⟩))
      ⊢ wp frame (wpE (defs₀ (F := F)) Variants.none c none) E (cc0__adj_cast_kernel i arg2 harg2 arg3 harg3 arg4 harg4 arg5 harg5) K := by
  simp only [cc0__adj_cast_kernel_eq_skeleton]; unfold cc0__adj_cast_kernel_skel
  unfold owns
  iintro ⟨⟨%f0, %hf0, H0⟩, ⟨%d1, %f1, -, H1⟩, ⟨%d2, %f2, -, H2⟩, ⟨%fs, %hfs, HS⟩, Hk⟩
  subst hf0
  sl_exec (disch := first | exact hc0 | exact hc1)
  sl_step
  iapply Hk
  isplitl [H0]
  · iexists f0; isplitr; · ipureintro; rfl
    iexact H0
  isplitl [H1]
  · iexists _; isplitr
    swap; · iexact H1
    ipureintro
    rw [read_writes_whole_r0 _ _ zoff0, readAt_whole_r0 _ _ zoff0]
  subst hfs
  isplitl [H2]
  · iexists _; isplitr
    swap; · iexact H2
    ipureintro
    unfold run0_C.sl.v20 run0_C.sl.HS_1
    rw [read_writes_whole_r0 _ _ zoff0, View.readCov_unit_zero _ zoff0, readAt_whole_r0 _ _ zoff0, readAt_whole_r0 _ _ zoff0]
  iexists _; isplitr
  swap; · iexact HS
  ipureintro
  unfold run0_C.sl.HS_1
  rw [read_writes_whole_r0 _ _ zoff0, readAt_whole_r0 _ _ zoff0, readAt_whole_r0 _ _ zoff0]

/-! ## The windows' blocks, the accumulator point by point, the proof data -/

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point, for any proof data whose array is V's and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The accumulator after the body at position n: the block's row counts added to zero at the first column step of a
    row block, to what the point before left at the others. -/
def accAt0 (c : Dev nD) : (n : ℕ) → n < cfg0.N → Vec F S1024x1 .f32
  | 0, hn => k0_pay2 (iblk0 V c 0 ⟨0, hn⟩) (k0_pay1 (F := F))
  | n + 1, hn => k0_pay2 (iblk0 V c 0 ⟨n + 1, hn⟩)
      (if (n + 1) % 4 = 0 then k0_pay1 (F := F) else accAt0 c n (Nat.lt_of_succ_lt hn))

theorem accAt0_first (c : Dev nD) (t : Fin cfg0.N) (h0 : t.val % 4 = 0) :
    accAt0 V c t.val t.isLt = k0_pay2 (iblk0 V c 0 t) (k0_pay1 (F := F)) := by
  obtain ⟨n, hn⟩ := t
  cases n with
  | zero => rfl
  | succ n => show k0_pay2 _ (if (n + 1) % 4 = 0 then _ else _) = _; rw [if_pos h0]

theorem accAt0_later (c : Dev nD) (t : Fin cfg0.N) (h0 : ¬t.val % 4 = 0) :
    accAt0 V c t.val t.isLt = k0_pay2 (iblk0 V c 0 t) (accAt0 V c (t.val - 1) (Nat.lt_of_le_of_lt (Nat.sub_le _ _) t.isLt)) := by
  obtain ⟨n, hn⟩ := t
  cases n with
  | zero => exact absurd (Nat.zero_mod _) h0
  | succ n => show k0_pay2 _ (if (n + 1) % 4 = 0 then _ else _) = _; rw [if_neg h0]; rfl

/-- The region invariant before position n: before the first point the class's; afterwards the accumulator at what the
    point before left, the rest of the scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of the pipeline on core c: the arrays as the region finds them; after the body the input's buffer at
    its block, the copy's at the block recast, the degree's at the accumulator; the invariant carrying the accumulator. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (iblk0 V c 0 t)
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = k0_pay3 (iblk0 V c 0 t) := by dsimp only [dat0]
theorem after0_2 (c : Dev nD) (t : Fin cfg0.N) : (dat0 V c).after 2 t = accAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-- After any point the invariant gives the accumulator at some contents, the other scoped buffers and the generator
    register: the accumulator's named contents forgotten. -/
theorem PhiS0_any (c : Dev nD) (n : ℕ) (h : n ≤ cfg0.N) :
    PhiS0 V c n h ⊢ iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  cases n with
  | zero => rw [PhiS0_zero V c 0 h rfl, PhiA0_eq]
  | succ n =>
    rw [PhiS0_succ]
    iintro ⟨⟨HS, Hr⟩, Hg⟩
    isplitl [HS Hr]
    · isplitl [HS]
      · iexists _; iexact HS
      iexact Hr
    iexact Hg

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input's buffer holds its block; the closed forms of the two conditions say which case
    the point is in; the invariant hands the body the accumulator (at what the point before left, or at anything at a
    first column step) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [PhiS0_castSucc V c t]
  have hN : t.val < 32 := lt_of_lt_of_eq t.isLt (show cfg0.N = 32 from N_0)
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 t hc1) (noFlush0_2 t hc1)]
    rw [accAt0_first V c t h0]
    iintro ⟨HΦ, Ho, ⟨%d0, H0⟩, ⟨%d1, H1⟩, ⟨%d2, H2⟩⟩
    ihave HΦ' := (PhiS0_any V c t.val (Nat.le_of_lt t.isLt)) $$ HΦ
    icases HΦ' with ⟨⟨HS, Hr⟩, Hg⟩
    iapply (run0_A c (grid0.coords t) _ _ _ _ _ _ _ _ hc0 hc1 (iblk0 V c 0 t) _ Set.univ _)
    isplitl [H0]; · iexact H0
    isplitl [H1]; · iexists _; iexact H1
    isplitl [H2]; · iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists _; iexact H2
  · have hz : t.val ≠ 0 := fun h => h0 (by rw [h])
    rw [PhiS0_pos V c _ _ hz, accAt0_later V c t h0]
    by_cases h1 : t.val % 4 = 3
    · have hc0 : ¬cond0_0 (grid0.coords t) := fun h => h0 ((hcond0_0 t).mp h)
      have hc1 : cond0_1 (grid0.coords t) := (hcond0_1 t).mpr h1
      rw [show (dat0 V c).leavesExact 2 t = owns (c : Thread nD τ) (st0_2 t) fullShare ((dat0 V c).after 2 t) from by
        unfold Dat.leavesExact; rw [liveAt0_2 t hc1], after0_2, accAt0_later V c t h0]
      iintro ⟨⟨⟨HS, Hr⟩, Hg⟩, Ho, ⟨%d0, H0⟩, ⟨%d1, H1⟩, ⟨%d2, H2⟩⟩
      iapply (run0_C c (grid0.coords t) _ _ _ _ _ _ _ _ hc0 hc1 (iblk0 V c 0 t) _ Set.univ _)
      isplitl [H0]; · iexact H0
      isplitl [H1]; · iexists _; iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 2 t (idleAt0_2 t hc1) (noFlush0_2 t hc1)]
      iintro ⟨⟨⟨HS, Hr⟩, Hg⟩, Ho, ⟨%d0, H0⟩, ⟨%d1, H1⟩, ⟨%d2, H2⟩⟩
      iapply (run0_B c (grid0.coords t) _ _ _ _ _ _ _ _ hc0 hc1 (iblk0 V c 0 t) _ _ Set.univ _)
      isplitl [H0]; · iexact H0
      isplitl [H1]; · iexists _; iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact PhiS0_any V c _ _

theorem hout0' (c : Dev nD) : (dat0 V c).Φ (Fin.last cfg0.N)
    ⊢ iprop(Pipeline.scopedRest (Ix := Unit) (Name := ℕ) (U := UR sig nD τ) (Lvl := ℕ) (Val := Elt F) spec0 c ∗ ∃ r, prngReg c r) := by
  have h := hout0 V c
  unfold Pipeline.ΦA at h
  exact h

end Region0

/-! ## The region as a segment between two thread states -/

section Segment0
variable (W : Dev nD → Valuation τ sig (Elt F))

/-- The entry contents read at the TensorCore's references: what the proof data take. -/
abbrev Vin0 : (c : Dev nD) → (b : Ref sig .tc) → Buf (Elt F) ((c : Thread nD τ).loc b) := fun c b => W c b

/-- The contents at the region's exit: its arrays at what the pipeline leaves, every other buffer as entered. -/
def Wout0 (c : Dev nD) : Valuation τ sig (Elt F) :=
  Pipeline.withArrays spec0 c (W c) fun w => (dat0 (Vin0 W) c).arrAt w cfg0.N

theorem Wout0_arr (c : Dev nD) (w : Fin cfg0.W) :
    Wout0 W c (Proc.devRef .tc (Pipeline.arrRef spec0 w)) = (dat0 (Vin0 W) c).arrAt w cfg0.N := by
  unfold Wout0; exact Pipeline.withArrays_arr spec0 launch0.win.arr_inj c _ _ w

theorem Wout0_of_ne (c : Dev nD) (b : Ref sig .tc) (hb : ∀ w, Pipeline.arrRef spec0 w ≠ b) :
    Wout0 W c (Proc.devRef .tc b) = W c (Proc.devRef .tc b) := by
  unfold Wout0; exact Pipeline.withArrays_of_ne spec0 c _ _ b hb

/-- The input array is left as entered. -/
theorem Wout0_in (c : Dev nD) : Wout0 W c (Proc.devRef .tc main_arg1) = W c (Proc.devRef .tc main_arg1) :=
  (Wout0_arr W c 0).trans (((dat0 (Vin0 W) c).arrAt_in 0 rfl _).trans (A_eq0 (Vin0 W) c 0))

theorem Wout0_main_arg1 (c : Dev nD) : Wout0 W c (Proc.devRef .tc main_arg1) = W c (Proc.devRef .tc main_arg1) := Wout0_in W c

/-- The two output arrays hold what the write-backs leave. -/
theorem Wout0_main_v0_0 (c : Dev nD) : Wout0 W c (Proc.devRef .tc main_v0_0) = (dat0 (Vin0 W) c).arrAt 1 cfg0.N :=
  Wout0_arr W c 1
theorem Wout0_main_v0_1 (c : Dev nD) : Wout0 W c (Proc.devRef .tc main_v0_1) = (dat0 (Vin0 W) c).arrAt 2 cfg0.N :=
  Wout0_arr W c 2

/-- The exit contents read at the TensorCore's references. -/
abbrev Vout0 : (c : Dev nD) → (b : Ref sig .tc) → Buf (Elt F) ((c : Thread nD τ).loc b) := fun c b => Wout0 W c b

theorem hF0 (c : Dev nD) (w : Fin cfg0.W) : (dat0 (Vin0 W) c).arrAt w cfg0.N = Vout0 W c (Pipeline.arrRef spec0 w) :=
  (Wout0_arr W c w).symm
theorem hrest0 (c : Dev nD) : ∀ b, b ∉ Finset.univ.image (Pipeline.arrRef spec0) → Vout0 W c b = Vin0 W c b :=
  fun b hb => Wout0_of_ne W c b fun w e => hb (Finset.mem_image.mpr ⟨w, Finset.mem_univ _, e⟩)

set_option backward.isDefEq.respectTransparency.types false in
/-- Region 0 over the thread state: entered from every unscoped buffer at W, left at Wout0. Its arrays are split out of
    the unscoped buffers and put back at the exit contents; the generator register goes into the invariant and comes
    out; nothing is owed; the kernel has no semaphore of its own. -/
def reg0 (pdats : (p : Fin 9) → (c : Dev nD) → Dat τ (Elt F) Unit ℕ (UR sig nD τ) ℕ (Pipeline.pin (pcfgs (F := F)) adm p) c)
    (hK : ∀ c, pdats 0 c = dat0 (Vin0 W) c) :
    Pipeline.RegionSeg (pcfgs (F := F)) adm pdats () defs₀ 𝒱₀ L lv 0 where
  win := launch0.win.to₀
  block_pos := launch0.block_pos
  stage_whole := launch0.stage_whole
  K := PEmpty
  osem k := k.elim
  ho := Pipeline.OwnSemFacts.none _
  hbody c := by rw [hK c]; exact (body_obligation0 (Vin0 W) c).loose
  hwaits := Pipeline.hwaits_of_owed_zero _ _ _ _ L lv 0 fun c t => by rw [hK c]; rfl
  pre c := iprop(StableHlo.held (c : Thread nD τ) (Pipeline.ucRefs τ sig) (W c) ∗ R c)
  post c := iprop(StableHlo.held (c : Thread nD τ) (Pipeline.ucRefs τ sig) (Wout0 W c) ∗ R c)
  X c := iprop(∃ r, prngReg c r)
  Y c := iprop(∃ r, prngReg c r)
  Z c := Pipeline.unscopedRest (Ix := Unit) (Name := ℕ) (U := UR sig nD τ) (Lvl := ℕ) spec0 c (Vin0 W c)
  hentry c := by
    rw [Pipeline.ownSems0_none]
    have hsplit := Pipeline.arrays_of_unscopedBufs (p := 0) (pcfgs (F := F)) adm pdats launch0.win launch0.arr_whole c
      (by rw [hK c]; exact (dat0 (Vin0 W) c).share_full fun _ => rfl) (Vin0 W c) (by rw [hK c]; exact fun _ => rfl)
    rw [Pipeline.unscopedBufs_held] at hsplit
    rw [hK c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [hK c]
    iintro ⟨Hp, -, Hr⟩
    iapply (hin0 (Vin0 W) c)
    unfold Pipeline.ΦA
    isplitl [Hr]; · iexact Hr
    iexact Hp
  hout c := by
    rw [Pipeline.ownSems0_none, hK c]
    iintro HΦ
    ihave H := (hout0' (Vin0 W) c) $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c pdats (by rw [hK c]; exact (dat0 (Vin0 W) c).share_full fun _ => rfl)
      (Vin0 W c) (Vout0 W c) ((pdats 0 c).arrAt · cfg0.N) (by rw [hK c]; exact hF0 W c) (hrest0 W c)
    rw [Pipeline.unscopedBufs_held] at hjoin
    rw [hK c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W', -, HO⟩; iexists W'; iexact HO

theorem reg0_pre (pdats : (p : Fin 9) → (c : Dev nD) → Dat τ (Elt F) Unit ℕ (UR sig nD τ) ℕ (Pipeline.pin (pcfgs (F := F)) adm p) c)
    (hK : ∀ c, pdats 0 c = dat0 (Vin0 W) c) (c : Dev nD) :
    (reg0 W pdats hK).pre c = iprop(StableHlo.held (c : Thread nD τ) (Pipeline.ucRefs τ sig) (W c) ∗ R c) := rfl
theorem reg0_post (pdats : (p : Fin 9) → (c : Dev nD) → Dat τ (Elt F) Unit ℕ (UR sig nD τ) ℕ (Pipeline.pin (pcfgs (F := F)) adm p) c)
    (hK : ∀ c, pdats 0 c = dat0 (Vin0 W) c) (c : Dev nD) :
    (reg0 W pdats hK).post c = iprop(StableHlo.held (c : Thread nD τ) (Pipeline.ucRefs τ sig) (Wout0 W c) ∗ R c) := rfl

end Segment0

end Cert.Kernel.Hand

end
-- ==== Proof.LibWhole.lean ====
/-
  General facts about a buffer read through the rectangle that covers its whole shape (zero offsets, the shape's own
  extents): a load through it reads the buffer's contents, and one store through it leaves exactly the stored payload.
-/
import Idealize.ShloMosaic.Lib.Pipeline.FrameBody
import Idealize.ShloMosaic.Lib.Pipeline.Value

namespace Idealize.ShloMosaic.View

variable {Val : EltTy → Type} {S : Shape} {e : EltTy}

/-- The two-axis offset vector `![0, 0]` is the zero function. -/
theorem zero_offsets2 : (![0, 0] : Fin 2 → Nat) = fun _ => 0 := by
  funext a; fin_cases a <;> rfl

/-- A load through the whole-shape rectangle at zero offsets reads the contents. -/
theorem readAt_unit_zero {sig : RefSig} {κ : Kind} {sp : Space} (v : View sig κ sp S e) (f : v.ty.Contents Val)
    {off : Fin S.rank → Nat} (h : off = fun _ => 0) (inb : ∀ a, off a + S.size a ≤ S.size a) :
    v.readAt Val (Rect.unit off S.size inb).toLoadRect f = v.read Val f := by
  rw [readAt_eq_ld, ld_unit_zero h]

/-- One store through the whole-shape rectangle at zero offsets leaves its payload, whatever was there. -/
theorem read_writes_unit_zero [∀ e, Nonempty (Val e)] {sig : RefSig} {κ : Kind} {sp : Space} (v : View sig κ sp S e)
    (f : v.ty.Contents Val) {off : Fin S.rank → Nat} (h : off = fun _ => 0) (inb : ∀ a, off a + S.size a ≤ S.size a)
    (w : S.Idx → Val e) :
    v.read Val (v.writes Val f [(⟨Rect.unit off S.size inb, w⟩ : Piece Val S e)]) = w := by
  subst h
  rw [read_writes_eq_canon _ _ _ (fun y => ⟨_, List.mem_singleton_self _, by
    show y ∈ (Rect.whole S).set; rw [Rect.set_whole]; exact Finset.mem_univ y⟩), canon_unit_zero rfl]

end Idealize.ShloMosaic.View
-- ==== Proof.KB.Reg1.lean ====
/-
  Region 1 of the kernel program: one matrix product [8192,784] x [784,256] by row blocks of 1024, the whole contracted axis in
  one block, so that at every grid point the accumulator is zeroed, added to once and stored into the output block. The
  proof data of the pipeline at the region's entry contents, the body obligation, the contents at the region's exit and the
  region as a segment of the host program.
-/
import proofs.«105977_j57329223467619_2_alg».proof.Proof.KB.Common
import proofs.«105977_j57329223467619_2_alg».proof.Proof.LibWhole
import Idealize.ShloMosaic.Lib.Pipeline.FrameBody
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region1

variable (V : (c : Dev nD) → (b : Ref sig .tc) → Buf (Elt F) ((c : Thread nD τ).loc b))

/-! ## The windows' blocks -/

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions: the contracted axis has one block, so both hold at every point -/

theorem hc1_1 (i : grid1.Coords) : (Scalar.cmpi .ne (Scalar.extui (Scalar.cmpi .eq (BitVec.ofNat 32 (i 2).val) 0#32)) 0#32) = 1#1 := by
  have h2 : (i 2).val = 0 := by have h : (i 2).val < 1 := (i 2).isLt; omega
  rw [h2]; rfl

theorem hc1_2 (i : grid1.Coords) : k1_cond2 i = 1#1 := by
  have h2 : (i 2).val = 0 := by have h : (i 2).val < 1 := (i 2).isLt; omega
  unfold k1_cond2; rw [h2]; rfl

/-- The output window is live at every point. -/
theorem liveAt1_2 : ∀ t : Fin cfg1.N, cfg1.idle 2 (grid1.coords t) = false :=
  fun t => by show (!(k1_cond2 (grid1.coords t) == 1#1)) = false; rw [hc1_2]; rfl

/-! ## What the body leaves in the output window's buffer -/

/-- The output block after the body: the product of the two input blocks added to the zeroed accumulator, recast. -/
def out1_2 (x0 : Vec F S1024x784 .f32) (x1 : Vec F S784x256 .f32) : Vec F S1024x256 .bf16 :=
  k1_pay3 (k1_pay2 x0 x1 (k1_pay1 (F := F)))

/-- The scratch accumulator, a whole buffer of the kernel's own. -/
abbrev scM1 : Memref sig .tc .vmem S1024x256 .f32 := Memref.whole cc1_scratch0

/-! ## The body's triple -/

set_option maxHeartbeats 1000000 in
/-- The kernel body on whole staging memrefs, the inputs' at read contents, the output's and the accumulator's at anything,
    runs to the continuation holding the inputs' as they were, the output's at `out1_2` of the inputs' and the accumulator at
    some contents. -/
theorem sound_kernel1 (c : Dev nD) (E : Set ℕ) (i : grid1.Coords)
    (arg3 : Memref sig .tc .vmem S1024x784 .f32) (harg3 : arg3.IsWhole) (arg4 : Memref sig .tc .vmem S784x256 .f32) (harg4 : arg4.IsWhole)
    (arg5 : Memref sig .tc .vmem S1024x256 .bf16) (harg5 : arg5.IsWhole) (arg6 : Memref sig .tc .vmem S1024x256 .f32) (harg6 : arg6.IsWhole)
    (x0 : Vec F S1024x784 .f32) (x1 : Vec F S784x256 .f32) (K : PUnit → sProp (MK F)) :
    iprop(owns (c : Thread nD τ) arg3 fullShare x0 ∗ owns (c : Thread nD τ) arg4 fullShare x1 ∗ (∃ d, owns (c : Thread nD τ) arg5 fullShare d)
        ∗ (∃ d, owns (c : Thread nD τ) arg6 fullShare d)
        ∗ (iprop(owns (c : Thread nD τ) arg3 fullShare x0 ∗ owns (c : Thread nD τ) arg4 fullShare x1 ∗ owns (c : Thread nD τ) arg5 fullShare (out1_2 x0 x1)
            ∗ (∃ d, owns (c : Thread nD τ) arg6 fullShare d)) -∗ K ⟨⟩))
      ⊢ wp frame (wpE (defs₀ (F := F)) Variants.none c none) E (cc1_kernel i arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc1_1 i | exact hc1_2 i)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_unit_zero _ _ View.zero_offsets2, View.readCov_cons_toLoadRect, View.readCov_cons_toLoadRect,
      View.readAt_unit_zero _ _ View.zero_offsets2, View.readAt_unit_zero _ _ View.zero_offsets2]
    rfl
  iexists _; iexists _; isplitr
  swap; · iexact H3
  ipureintro; rfl

/-! ## The pipeline's proof data -/

/-- The proof data of pipeline 1 on core `c`: the arrays at the entry contents; after the body each input's buffer at its
    block and the output's at `out1_2` of the input blocks; the invariant the scoped buffers no window stages (the
    accumulator among them, at anything: every point zeroes it first) and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The invariant with the accumulator split out as a memref owned at some contents. -/
theorem PhiA1_eq (c : Dev nD) :
    (Pipeline.ΦA spec1 c : sProp (MK F))
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body obligation -/

def bodyPre1 (c : Dev nD) (t : Fin cfg1.N) : sProp (MK F) :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp (MK F) :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (dat1 V c).leavesExact 2 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).leavesExact 2 t = owns (c : Thread nD τ) (st1_2 t) fullShare ((dat1 V c).after 2 t) from by
    unfold Dat.leavesExact; rw [liveAt1_2 t]]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, PhiA1_eq]
  iintro ⟨⟨⟨HS, Hb⟩, Hg⟩, Ho, ⟨%d0, H0⟩, ⟨%d1, H1⟩, ⟨%d2, H2⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [HS]; · iexact HS
  iintro ⟨H0, H1, H2, HS⟩
  isplitl [HS Hb Hg]
  · isplitl [HS Hb]
    · isplitl [HS]; · iexact HS
      iexact Hb
    iexact Hg
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

/-! ## The contents at the region's exit, and the region as a segment -/

section Segment1

variable (W : Dev nD → Valuation τ sig (Elt F))

/-- A valuation read at the TensorCore's references. -/
abbrev Vof1 (W : Dev nD → Valuation τ sig (Elt F)) : (c : Dev nD) → (b : Ref sig .tc) → Buf (Elt F) ((c : Thread nD τ).loc b) := fun c b => W c b

/-- At region 1's exit: its arrays at what the pipeline leaves, every other buffer as entered. -/
def Wout1 (c : Dev nD) : Valuation τ sig (Elt F) :=
  Pipeline.withArrays spec1 c (W c) fun w => (dat1 (Vof1 W) c).arrAt w cfg1.N

theorem Wout1_arr (c : Dev nD) (w : Fin cfg1.W) :
    Wout1 W c (Proc.devRef .tc (Pipeline.arrRef spec1 w)) = (dat1 (Vof1 W) c).arrAt w cfg1.N := by
  unfold Wout1; exact Pipeline.withArrays_arr spec1 launch1.win.arr_inj c _ _ w

theorem Wout1_of_ne (c : Dev nD) (b : Ref sig .tc) (hb : ∀ w, Pipeline.arrRef spec1 w ≠ b) :
    Wout1 W c (Proc.devRef .tc b) = W c (Proc.devRef .tc b) := by
  unfold Wout1; exact Pipeline.withArrays_of_ne spec1 c _ _ b hb

/-- The input arrays leave the region as they entered it. -/
theorem Wout1_main_arg0 (c : Dev nD) : Wout1 W c (Proc.devRef .tc main_arg0) = W c (Proc.devRef .tc main_arg0) :=
  (Wout1_arr W c 0).trans (((dat1 (Vof1 W) c).arrAt_in 0 rfl _).trans (A_eq1 (Vof1 W) c 0))
theorem Wout1_main_arg2 (c : Dev nD) : Wout1 W c (Proc.devRef .tc main_arg2) = W c (Proc.devRef .tc main_arg2) :=
  (Wout1_arr W c 1).trans (((dat1 (Vof1 W) c).arrAt_in 1 rfl _).trans (A_eq1 (Vof1 W) c 1))
/-- The output array holds what the write-backs leave. -/
theorem Wout1_main_v2 (c : Dev nD) : Wout1 W c (Proc.devRef .tc main_v2) = (dat1 (Vof1 W) c).arrAt 2 cfg1.N :=
  Wout1_arr W c 2

theorem hF1 (c : Dev nD) (w : Fin cfg1.W) : (dat1 (Vof1 W) c).arrAt w cfg1.N = Vof1 (Wout1 W) c (Pipeline.arrRef spec1 w) :=
  (Wout1_arr W c w).symm
theorem hrest1 (c : Dev nD) : ∀ b, b ∉ Finset.univ.image (Pipeline.arrRef spec1) → Vof1 (Wout1 W) c b = Vof1 W c b :=
  fun b hb => Wout1_of_ne W c b fun w e => hb (Finset.mem_image.mpr ⟨w, Finset.mem_univ _, e⟩)

set_option backward.isDefEq.respectTransparency.types false in
/-- REGION 1 over the thread state: entered from every unscoped buffer at `W`, left at `Wout1 W`. -/
def reg1 (pdats : (p : Fin 9) → (c : Dev nD) → Dat τ (Elt F) Unit ℕ (UR sig nD τ) ℕ (Pipeline.pin (pcfgs (F := F)) adm p) c)
    (hK : ∀ c, pdats 1 c = dat1 (Vof1 W) c) :
    Pipeline.RegionSeg (pcfgs (F := F)) adm pdats () defs₀ 𝒱₀ L lv 1 where
  win := launch1.win.to₀
  block_pos := launch1.block_pos
  stage_whole := launch1.stage_whole
  K := PEmpty
  osem k := k.elim
  ho := Pipeline.OwnSemFacts.none _
  hbody c := by rw [hK c]; exact (body_obligation1 (Vof1 W) c).loose
  hwaits := Pipeline.hwaits_of_owed_zero _ _ _ _ L lv 1 fun c t => by rw [hK c]; rfl
  pre c := iprop(StableHlo.held (c : Thread nD τ) (Pipeline.ucRefs τ sig) (W c) ∗ R c)
  post c := iprop(StableHlo.held (c : Thread nD τ) (Pipeline.ucRefs τ sig) (Wout1 W c) ∗ R c)
  X c := iprop(∃ r, prngReg c r)
  Y c := iprop(∃ r, prngReg c r)
  Z c := Pipeline.unscopedRest (Ix := Unit) (Name := ℕ) (U := UR sig nD τ) (Lvl := ℕ) spec1 c (Vof1 W c)
  hentry c := by
    rw [Pipeline.ownSems0_none]
    have hsplit := Pipeline.arrays_of_unscopedBufs (p := 1) (pcfgs (F := F)) adm pdats launch1.win launch1.arr_whole c
      (by rw [hK c]; exact (dat1 (Vof1 W) c).share_full fun _ => rfl) (Vof1 W c) (by rw [hK c]; exact fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [hK c]; show _ ⊢ Pipeline.ΦA spec1 c; unfold Pipeline.ΦA
    iintro ⟨Hp, -, Hr⟩
    isplitl [Hr]; · iexact Hr
    iexact Hp
  hout c := by
    rw [Pipeline.ownSems0_none, hK c]; show Pipeline.ΦA spec1 c ⊢ _; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c pdats (by rw [hK c]; exact (dat1 (Vof1 W) c).share_full fun _ => rfl)
      (Vof1 W c) (Vof1 (Wout1 W) c) ((pdats 1 c).arrAt · cfg1.N) (by rw [hK c]; exact hF1 W c) (hrest1 W c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W', -, HO⟩; iexists W'; iexact HO

theorem reg1_pre (pdats) (hK) (c : Dev nD) :
    (reg1 W pdats hK).pre c = iprop(StableHlo.held (c : Thread nD τ) (Pipeline.ucRefs τ sig) (W c) ∗ R c) := rfl
theorem reg1_post (pdats) (hK) (c : Dev nD) :
    (reg1 W pdats hK).post c = iprop(StableHlo.held (c : Thread nD τ) (Pipeline.ucRefs τ sig) (Wout1 W c) ∗ R c) := rfl

end Segment1

end Cert.Kernel.Hand

end
-- ==== Proof.KB.Reg2.lean ====
/-
  Region 2 of the nine-region program: the scaled matrix product with bias, its reduction axis cut in four steps. The
  accumulator kept in scratch memory from step to step is carried by the invariant; the output block is stored at the
  last step only. Two input windows read one array (the scale column: once by blocks of the reduction axis, once by
  blocks of the rows), so the array's full share is dealt to them as its two halves at entry and joined at exit.
-/
import proofs.«105977_j57329223467619_2_alg».proof.Proof.KB.Common
import proofs.«105977_j57329223467619_2_alg».proof.Proof.LibWhole
import Idealize.ShloMosaic.Lib.Pipeline.FrameBody
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's two conditions, over the grid -/

/-- The first step of a run of four (the accumulator is zeroed there). -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- The last step (the output block is stored there). -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-- The input windows are never idle; the output window is idle, and not written back, off the last steps. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The body's triple, in its three cases -/

set_option maxHeartbeats 2000000 in
/-- First step: the accumulator, at anything, ends at the blocks' product added to zero. -/
theorem sound_kernel2_A (c : Dev nD) (E : Set ℕ) (i : grid2.Coords)
    (arg3 : Memref sig .tc .vmem S1024x2048 .bf16) (harg3 : arg3.IsWhole) (arg4 : Memref sig .tc .vmem S2048x256 .bf16) (harg4 : arg4.IsWhole)
    (arg5 : Memref sig .tc .vmem S2048x1 .f32) (harg5 : arg5.IsWhole) (arg6 : Memref sig .tc .vmem S1024x1 .f32) (harg6 : arg6.IsWhole)
    (arg7 : Memref sig .tc .vmem S1x256 .f32) (harg7 : arg7.IsWhole) (arg8 : Memref sig .tc .vmem S1024x256 .f32) (harg8 : arg8.IsWhole)
    (arg9 : Memref sig .tc .vmem S1024x256 .f32) (harg9 : arg9.IsWhole)
    (hc0 : cond2_0 i) (hc1 : ¬cond2_1 i)
    (x0 : Vec F S1024x2048 .bf16) (x1 : Vec F S2048x256 .bf16) (x2 : Vec F S2048x1 .f32) (K : PUnit → sProp (MK F)) :
    iprop(owns (c : Thread nD τ) arg3 fullShare x0 ∗ owns (c : Thread nD τ) arg4 fullShare x1 ∗ owns (c : Thread nD τ) arg5 fullShare x2
        ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg9 fullShare (k2_pay2 x2 x0 x1 k2_pay1)) -∗ K ⟨⟩))
      ⊢ wp frame (wpE (defs₀ (F := F)) Variants.none c none) E
          (cc2_kernel i arg3 harg3 arg4 harg4 arg5 harg5 arg6 harg6 arg7 harg7 arg8 harg8 arg9 harg9) K := by
  simp only [cc2_kernel_eq_skeleton]; unfold cc2_kernel_skel
  unfold owns
  iintro ⟨⟨%f0, %hf0, H0⟩, ⟨%f1, %hf1, H1⟩, ⟨%f2, %hf2, H2⟩, ⟨%d9, %f9, -, H9⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H9
  ipureintro
  sl_unfold_run_names
  rw [View.read_writes_eq_canon _ _ _ (fun y => ⟨_, List.mem_cons_self, View.mem_set_unit_zero View.zero_offsets2 inb_S1024x256_S1024x256_0_0 y⟩),
    View.canon_cons_unit_zero View.zero_offsets2, View.readCov_unit_zero _ View.zero_offsets2]
  rw [View.readAt_unit_zero (S := S2048x1) _ _ View.zero_offsets2, View.readAt_unit_zero (S := S1024x2048) _ _ View.zero_offsets2,
    View.readAt_unit_zero (S := S2048x256) _ _ View.zero_offsets2]

set_option maxHeartbeats 2000000 in
/-- A middle step: the accumulator ends at the blocks' product added to what it held. -/
theorem sound_kernel2_B (c : Dev nD) (E : Set ℕ) (i : grid2.Coords)
    (arg3 : Memref sig .tc .vmem S1024x2048 .bf16) (harg3 : arg3.IsWhole) (arg4 : Memref sig .tc .vmem S2048x256 .bf16) (harg4 : arg4.IsWhole)
    (arg5 : Memref sig .tc .vmem S2048x1 .f32) (harg5 : arg5.IsWhole) (arg6 : Memref sig .tc .vmem S1024x1 .f32) (harg6 : arg6.IsWhole)
    (arg7 : Memref sig .tc .vmem S1x256 .f32) (harg7 : arg7.IsWhole) (arg8 : Memref sig .tc .vmem S1024x256 .f32) (harg8 : arg8.IsWhole)
    (arg9 : Memref sig .tc .vmem S1024x256 .f32) (harg9 : arg9.IsWhole)
    (hc0 : ¬cond2_0 i) (hc1 : ¬cond2_1 i)
    (x0 : Vec F S1024x2048 .bf16) (x1 : Vec F S2048x256 .bf16) (x2 : Vec F S2048x1 .f32) (xs : Vec F S1024x256 .f32) (K : PUnit → sProp (MK F)) :
    iprop(owns (c : Thread nD τ) arg3 fullShare x0 ∗ owns (c : Thread nD τ) arg4 fullShare x1 ∗ owns (c : Thread nD τ) arg5 fullShare x2
        ∗ owns (c : Thread nD τ) arg9 fullShare xs
        ∗ (iprop(owns (c : Thread nD τ) arg3 fullShare x0 ∗ owns (c : Thread nD τ) arg4 fullShare x1 ∗ owns (c : Thread nD τ) arg5 fullShare x2
            ∗ owns (c : Thread nD τ) arg9 fullShare (k2_pay2 x2 x0 x1 xs)) -∗ K ⟨⟩))
      ⊢ wp frame (wpE (defs₀ (F := F)) Variants.none c none) E
          (cc2_kernel i arg3 harg3 arg4 harg4 arg5 harg5 arg6 harg6 arg7 harg7 arg8 harg8 arg9 harg9) K := by
  simp only [cc2_kernel_eq_skeleton]; unfold cc2_kernel_skel
  unfold owns
  iintro ⟨⟨%f0, %hf0, H0⟩, ⟨%f1, %hf1, H1⟩, ⟨%f2, %hf2, H2⟩, ⟨%f9, %hf9, H9⟩, Hk⟩
  subst hf0; subst hf1; subst hf2; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H9
  ipureintro
  sl_unfold_run_names
  rw [View.read_writes_unit_zero _ _ View.zero_offsets2]
  rw [View.readAt_unit_zero (S := S2048x1) _ _ View.zero_offsets2, View.readAt_unit_zero (S := S1024x2048) _ _ View.zero_offsets2,
    View.readAt_unit_zero (S := S2048x256) _ _ View.zero_offsets2, View.readAt_unit_zero (S := S1024x256) _ _ View.zero_offsets2]

set_option maxHeartbeats 2000000 in
/-- Last step: the accumulator likewise, and the output block, at anything, ends at the accumulator scaled by the row
    block of the column with the bias row added. -/
theorem sound_kernel2_C (c : Dev nD) (E : Set ℕ) (i : grid2.Coords)
    (arg3 : Memref sig .tc .vmem S1024x2048 .bf16) (harg3 : arg3.IsWhole) (arg4 : Memref sig .tc .vmem S2048x256 .bf16) (harg4 : arg4.IsWhole)
    (arg5 : Memref sig .tc .vmem S2048x1 .f32) (harg5 : arg5.IsWhole) (arg6 : Memref sig .tc .vmem S1024x1 .f32) (harg6 : arg6.IsWhole)
    (arg7 : Memref sig .tc .vmem S1x256 .f32) (harg7 : arg7.IsWhole) (arg8 : Memref sig .tc .vmem S1024x256 .f32) (harg8 : arg8.IsWhole)
    (arg9 : Memref sig .tc .vmem S1024x256 .f32) (harg9 : arg9.IsWhole)
    (hc0 : ¬cond2_0 i) (hc1 : cond2_1 i)
    (x0 : Vec F S1024x2048 .bf16) (x1 : Vec F S2048x256 .bf16) (x2 : Vec F S2048x1 .f32) (x3 : Vec F S1024x1 .f32) (x4 : Vec F S1x256 .f32)
    (xs : Vec F S1024x256 .f32) (K : PUnit → sProp (MK F)) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ owns (c : Thread nD τ) arg9 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (k2_pay3 (k2_pay2 x2 x0 x1 xs) x3 x4)
            ∗ owns (c : Thread nD τ) arg9 fullShare (k2_pay2 x2 x0 x1 xs)) -∗ K ⟨⟩))
      ⊢ wp frame (wpE (defs₀ (F := F)) Variants.none c none) E
          (cc2_kernel i arg3 harg3 arg4 harg4 arg5 harg5 arg6 harg6 arg7 harg7 arg8 harg8 arg9 harg9) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%f9, %hf9, H9⟩, Hk⟩
  subst hf0; subst hf1; subst hf2; subst hf3; subst hf4; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    sl_unfold_run_names
    rw [View.read_writes_unit_zero _ _ View.zero_offsets2, View.readCov_unit_zero _ View.zero_offsets2]
    rw [View.readAt_unit_zero (S := S2048x1) _ _ View.zero_offsets2, View.readAt_unit_zero (S := S1024x2048) _ _ View.zero_offsets2,
    View.readAt_unit_zero (S := S2048x256) _ _ View.zero_offsets2, View.readAt_unit_zero (S := S1024x256) _ _ View.zero_offsets2,
    View.readAt_unit_zero (S := S1024x1) _ _ View.zero_offsets2, View.readAt_unit_zero (S := S1x256) _ _ View.zero_offsets2]
  iexists _; isplitr
  swap; · iexact H9
  ipureintro
  sl_unfold_run_names
  rw [View.read_writes_unit_zero _ _ View.zero_offsets2]
  rw [View.readAt_unit_zero (S := S2048x1) _ _ View.zero_offsets2, View.readAt_unit_zero (S := S1024x2048) _ _ View.zero_offsets2,
    View.readAt_unit_zero (S := S2048x256) _ _ View.zero_offsets2, View.readAt_unit_zero (S := S1024x256) _ _ View.zero_offsets2]

section Region2
variable (V : (c : Dev nD) → (b : Ref sig .tc) → Buf (Elt F) ((c : Thread nD τ).loc b))

/-! ## The windows' blocks -/

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulator, point by point -/

/-- What the scratch accumulator holds after the body at position `n`: the product of the point's blocks added to zero at
    the first step of a run of four, to what the point before left at the others. -/
def acc2 (c : Dev nD) : (n : ℕ) → n < cfg2.N → Vec F S1024x256 .f32
  | 0, hn => k2_pay2 (iblk2 V c 2 ⟨0, hn⟩) (iblk2 V c 0 ⟨0, hn⟩) (iblk2 V c 1 ⟨0, hn⟩) k2_pay1
  | n + 1, hn => k2_pay2 (iblk2 V c 2 ⟨n + 1, hn⟩) (iblk2 V c 0 ⟨n + 1, hn⟩) (iblk2 V c 1 ⟨n + 1, hn⟩)
      (if (n + 1) % 4 = 0 then k2_pay1 else acc2 c n (Nat.lt_of_succ_lt hn))

/-- What the output block's buffer holds after the body at a last step: the accumulator scaled by the row block of the
    column and the bias row added. -/
def out2 (c : Dev nD) (t : Fin cfg2.N) : Vec F S1024x256 .f32 :=
  k2_pay3 (acc2 V c t.val t.isLt) (iblk2 V c 3 t) (iblk2 V c 4 t)

/-! ## The input windows' buffers at a point -/

/-- An input window's current staging buffer holds its block at every point, fetched there or not (unfetched, the block
    index has not moved), for any proof data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator's recursion, by the point's case -/

theorem acc2_first (c : Dev nD) (t : Fin cfg2.N) (h0 : t.val % 4 = 0) :
    acc2 V c t.val t.isLt = k2_pay2 (iblk2 V c 2 t) (iblk2 V c 0 t) (iblk2 V c 1 t) k2_pay1 := by
  obtain ⟨n, hn⟩ := t
  cases n with
  | zero => rfl
  | succ n => exact (show acc2 V c (n + 1) hn = _ from by rw [acc2]; rw [if_pos h0])

theorem acc2_next (c : Dev nD) (t : Fin cfg2.N) (h0 : ¬t.val % 4 = 0) :
    acc2 V c t.val t.isLt = k2_pay2 (iblk2 V c 2 t) (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h0
  | succ n => exact (show acc2 V c (n + 1) hn = _ from by rw [acc2]; rw [if_neg h0]; rfl)

/-! ## The invariant: the scratch accumulator carried from point to point -/

/-- The scratch accumulator, a whole scoped buffer of the kernel's own. -/
abbrev scM2 : Memref sig .tc .vmem S1024x256 .f32 := Memref.whole cc2_scratch0

/-- Before the first point the scoped rest at anything and the generator register at some state; after point `n` the
    accumulator at what that point left, the other scoped buffers at anything, the register at some state. -/
def Phi2 (c : Dev nD) : (n : ℕ) → n ≤ cfg2.N → sProp (MK F)
  | 0, _ => Pipeline.ΦA spec2 c
  | n + 1, hn => iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The class invariant with the accumulator as a memref owned at some contents. -/
theorem PhiA2_eq (c : Dev nD) :
    (Pipeline.ΦA spec2 c : sProp (MK F))
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The pipeline's proof data -/

/-- The proof data of pipeline 2 on core `c`: the arrays at the entry contents; after the body at point `t` each input's
    buffer at its block and the output's at `out2`; the invariant carrying the accumulator; nothing owed; the array two
    windows read held by each at one half of the full share, every other input array at the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 V c t
  Φ t := Phi2 V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

/-- What the body is called with at point `t`, the windows one by one, -/
def bodyPre2 (c : Dev nD) (t : Fin cfg2.N) : sProp (MK F) :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp (MK F) :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

theorem leaves2_0 (c : Dev nD) (t : Fin cfg2.N) : (dat2 V c).leavesExact 0 t = owns (c : Thread nD τ) (st2_0 t) fullShare (iblk2 V c 0 t) := by
  rw [← after2_0]
theorem leaves2_1 (c : Dev nD) (t : Fin cfg2.N) : (dat2 V c).leavesExact 1 t = owns (c : Thread nD τ) (st2_1 t) fullShare (iblk2 V c 1 t) := by
  rw [← after2_1]
theorem leaves2_2 (c : Dev nD) (t : Fin cfg2.N) : (dat2 V c).leavesExact 2 t = owns (c : Thread nD τ) (st2_2 t) fullShare (iblk2 V c 2 t) := by
  rw [← after2_2]
theorem leaves2_3 (c : Dev nD) (t : Fin cfg2.N) : (dat2 V c).leavesExact 3 t = owns (c : Thread nD τ) (st2_3 t) fullShare (iblk2 V c 3 t) := by
  rw [← after2_3]
theorem leaves2_4 (c : Dev nD) (t : Fin cfg2.N) : (dat2 V c).leavesExact 4 t = owns (c : Thread nD τ) (st2_4 t) fullShare (iblk2 V c 4 t) := by
  rw [← after2_4]
theorem leaves2_5_idle (c : Dev nD) (t : Fin cfg2.N) (h1 : ¬cond2_1 (grid2.coords t)) :
    (dat2 V c).leavesExact 5 t = iprop(∃ d, owns (c : Thread nD τ) (st2_5 t) fullShare ((dat2 V c).before 5 t d)) :=
  Dat.leavesExact_idle (dat2 V c) 5 t (idleAt2_5 t h1) (noFlush2_5 t h1)
theorem leaves2_5_live (c : Dev nD) (t : Fin cfg2.N) (h1 : cond2_1 (grid2.coords t)) :
    (dat2 V c).leavesExact 5 t = owns (c : Thread nD τ) (st2_5 t) fullShare (out2 V c t) := by
  unfold Dat.leavesExact; rw [liveAt2_5 t h1, after2_5]

set_option maxHeartbeats 4000000 in
/-- The body at any point: the inputs' buffers hold their blocks; the point's place in its run of four says which case
    applies; the invariant hands over the accumulator at what the point before left (at anything before the first
    point) and takes it back at this point's contents; the output's buffer passes untouched off the last steps. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = Phi2 V c (t.val + 1) t.isLt from rfl, Phi2_succ]
  rw [leaves2_0, leaves2_1, leaves2_2, leaves2_3, leaves2_4]
  have hN : t.val < 32 := lt_of_lt_of_eq t.isLt (show cfg2.N = 32 from N_2)
  by_cases h0 : t.val % 4 = 0
  · have h1 : ¬t.val % 4 = 3 := by omega
    have hc0 := (hcond2_0 t).mpr h0
    have hc1 : ¬cond2_1 (grid2.coords t) := fun h => h1 ((hcond2_1 t).mp h)
    rw [leaves2_5_idle V c t hc1, acc2_first V c t h0]
    by_cases hz : t.val = 0
    · rw [Phi2_castSucc V c t, Phi2_zero V c _ _ hz, PhiA2_eq]
      iintro ⟨⟨⟨HS, HB⟩, Hg⟩, Ho, ⟨%d0, H0⟩, ⟨%d1, H1⟩, ⟨%d2, H2⟩, ⟨%d3, H3⟩, ⟨%d4, H4⟩, H5⟩
      iapply (sound_kernel2_A c Set.univ (grid2.coords t) _ _ _ _ _ _ _ _ _ _ _ _ _ _ hc0 hc1 (iblk2 V c 0 t) (iblk2 V c 1 t) (iblk2 V c 2 t) _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Phi2_castSucc V c t, Phi2_pos V c _ _ hz]
      iintro ⟨⟨⟨HS, HB⟩, Hg⟩, Ho, ⟨%d0, H0⟩, ⟨%d1, H1⟩, ⟨%d2, H2⟩, ⟨%d3, H3⟩, ⟨%d4, H4⟩, H5⟩
      iapply (sound_kernel2_A c Set.univ (grid2.coords t) _ _ _ _ _ _ _ _ _ _ _ _ _ _ hc0 hc1 (iblk2 V c 0 t) (iblk2 V c 1 t) (iblk2 V c 2 t) _)
      isplitl [H0]; · iexact H0
      isplitl [H1]; · iexact H1
      isplitl [H2]; · iexact H2
      isplitl [HS]; · iexists _; iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    have hc0 : ¬cond2_0 (grid2.coords t) := fun h => h0 ((hcond2_0 t).mp h)
    rw [Phi2_castSucc V c t, Phi2_pos V c _ _ hz, acc2_next V c t h0]
    by_cases h1 : t.val % 4 = 3
    · have hc1 := (hcond2_1 t).mpr h1
      rw [leaves2_5_live V c t hc1]
      unfold out2
      rw [acc2_next V c t h0]
      iintro ⟨⟨⟨HS, HB⟩, Hg⟩, Ho, ⟨%d0, H0⟩, ⟨%d1, H1⟩, ⟨%d2, H2⟩, ⟨%d3, H3⟩, ⟨%d4, H4⟩, ⟨%d5, H5⟩⟩
      iapply (sound_kernel2_C c Set.univ (grid2.coords t) _ _ _ _ _ _ _ _ _ _ _ _ _ _ hc0 hc1 (iblk2 V c 0 t) (iblk2 V c 1 t) (iblk2 V c 2 t)
        (iblk2 V c 3 t) (iblk2 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond2_1 (grid2.coords t) := fun h => h1 ((hcond2_1 t).mp h)
      rw [leaves2_5_idle V c t hc1]
      iintro ⟨⟨⟨HS, HB⟩, Hg⟩, Ho, ⟨%d0, H0⟩, ⟨%d1, H1⟩, ⟨%d2, H2⟩, ⟨%d3, H3⟩, ⟨%d4, H4⟩, H5⟩
      iapply (sound_kernel2_B c Set.univ (grid2.coords t) _ _ _ _ _ _ _ _ _ _ _ _ _ _ hc0 hc1 (iblk2 V c 0 t) (iblk2 V c 1 t) (iblk2 V c 2 t) _ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

/-! ## The region as a segment of the host program -/

section Seg2
variable (W : Dev nD → Valuation τ sig (Elt F))

/-- The valuation read at the TensorCore's references: what the proof data take. -/
abbrev V2of (W : Dev nD → Valuation τ sig (Elt F)) : (c : Dev nD) → (b : Ref sig .tc) → Buf (Elt F) ((c : Thread nD τ).loc b) :=
  fun c b => W c b

/-- The exit contents: the output array at what the write-backs leave, every other buffer as entered. -/
def Wout2 (c : Dev nD) : Valuation τ sig (Elt F) :=
  Function.update (W c) (Proc.devRef .tc main_v4) ((dat2 (V2of W) c).arrAt 5 cfg2.N)

theorem Wout2_main_v4 (c : Dev nD) : Wout2 W c (Proc.devRef .tc main_v4) = (dat2 (V2of W) c).arrAt 5 cfg2.N := by
  unfold Wout2; exact Function.update_self ..

theorem Wout2_of_ne_dev (c : Dev nD) (b : DevRef τ sig) (hb : b ≠ Proc.devRef .tc main_v4) : Wout2 W c b = W c b := by
  unfold Wout2; exact Function.update_of_ne hb ..

theorem Wout2_of_ne (c : Dev nD) (b : Ref sig .tc) (hb : ∀ w, Pipeline.arrRef spec2 w ≠ b) :
    Wout2 W c (Proc.devRef .tc b) = W c (Proc.devRef .tc b) :=
  Wout2_of_ne_dev W c _ fun e => hb 5 (Proc.devRef_injective _ e).symm

/-- The input windows' arrays leave as they entered. -/
theorem Wout2_main_v0_0 (c : Dev nD) : Wout2 W c (Proc.devRef .tc main_v0_0) = W c (Proc.devRef .tc main_v0_0) :=
  Wout2_of_ne_dev W c _ (StableHlo.devRef_ne_of_ne (by decide))
theorem Wout2_main_v2 (c : Dev nD) : Wout2 W c (Proc.devRef .tc main_v2) = W c (Proc.devRef .tc main_v2) :=
  Wout2_of_ne_dev W c _ (StableHlo.devRef_ne_of_ne (by decide))
theorem Wout2_main_v1 (c : Dev nD) : Wout2 W c (Proc.devRef .tc main_v1) = W c (Proc.devRef .tc main_v1) :=
  Wout2_of_ne_dev W c _ (StableHlo.devRef_ne_of_ne (by decide))
theorem Wout2_main_v3 (c : Dev nD) : Wout2 W c (Proc.devRef .tc main_v3) = W c (Proc.devRef .tc main_v3) :=
  Wout2_of_ne_dev W c _ (StableHlo.devRef_ne_of_ne (by decide))

/-- The five buffers behind the six windows' arrays. -/
abbrev arrs2 : List (DevRef τ sig) :=
  [Proc.devRef .tc main_v0_0, Proc.devRef .tc main_v2, Proc.devRef .tc main_v1, Proc.devRef .tc main_v3, Proc.devRef .tc main_v4]

theorem arrs2_nodup : arrs2.Nodup := by decide

theorem arrs2_sub : arrs2.toFinset ⊆ Pipeline.ucRefs τ sig := by
  intro b hb
  simp only [arrs2, List.toFinset_cons, List.toFinset_nil, Finset.mem_insert, Finset.mem_singleton, insert_empty_eq] at hb
  rcases hb with rfl | rfl | rfl | rfl | rfl <;> exact mem_uc _ (by decide)

/-- Those buffers held at a valuation, one by one. -/
theorem held_arrs2 (c : Dev nD) (X : Valuation τ sig (Elt F)) :
    (StableHlo.held (c : Thread nD τ) arrs2.toFinset X : sProp (MK F))
      = iprop((((c : Thread nD τ).loc main_v0_0) ↦{fullShare} X (Proc.devRef .tc main_v0_0))
          ∗ (((c : Thread nD τ).loc main_v2) ↦{fullShare} X (Proc.devRef .tc main_v2))
          ∗ (((c : Thread nD τ).loc main_v1) ↦{fullShare} X (Proc.devRef .tc main_v1))
          ∗ (((c : Thread nD τ).loc main_v3) ↦{fullShare} X (Proc.devRef .tc main_v3))
          ∗ (((c : Thread nD τ).loc main_v4) ↦{fullShare} X (Proc.devRef .tc main_v4))) := by
  unfold StableHlo.held; rw [bigSep_eq_bigSepL _ arrs2_nodup]; rfl

/-- The windows' arrays as the proof data hold them, one by one: the array two windows read is held by each at one half
    of the full share. -/
theorem arrays2_eq (V : (c : Dev nD) → (b : Ref sig .tc) → Buf (Elt F) ((c : Thread nD τ).loc b)) (c : Dev nD)
    (Fa : (w : Fin cfg2.W) → Buf (Elt F) ((cfg2.win w).arr.view.loc (c.tc : Thread nD τ))) :
    ((dat2 V c).arrays Fa : sProp (MK F))
      = iprop((((c : Thread nD τ).loc main_v0_0) ↦{fullShare} Fa 0)
          ∗ (((c : Thread nD τ).loc main_v2) ↦{fullShare} Fa 1)
          ∗ (((c : Thread nD τ).loc main_v1) ↦{fullShare.left} Fa 2)
          ∗ (((c : Thread nD τ).loc main_v1) ↦{fullShare.right} Fa 3)
          ∗ (((c : Thread nD τ).loc main_v3) ↦{fullShare} Fa 4)
          ∗ (((c : Thread nD τ).loc main_v4) ↦{fullShare} Fa 5)) := by
  unfold Dat.arrays
  rw [bigSep_W2, (arr_whole2 0).set_eq_univ, (arr_whole2 1).set_eq_univ, (arr_whole2 2).set_eq_univ,
    (arr_whole2 4).set_eq_univ, (arr_whole2 5).set_eq_univ]
  rfl

/-- After any point but the first the invariant gives the class invariant back: the accumulator's contents forgotten. -/
theorem Phi2_out (V : (c : Dev nD) → (b : Ref sig .tc) → Buf (Elt F) ((c : Thread nD τ).loc b)) (c : Dev nD)
    (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨⟨HS, HB⟩, Hg⟩
  isplitl [HS HB]
  · isplitl [HS]; · iexists _; iexact HS
    iexact HB
  iexact Hg

set_option maxHeartbeats 4000000 in
set_option backward.isDefEq.respectTransparency.types false in
/-- REGION 2 over the thread state: entered from every unscoped buffer at `W`, left at `Wout2 W`. The five buffers behind
    its arrays are split out of the unscoped buffers, the one two windows read dealt to them as its two half shares, and
    at the exit joined and put back; the generator register into the invariant and out; nothing owed; no semaphore of
    the kernel's own. -/
def reg2 (pdats : (p : Fin 9) → (c : Dev nD) → Dat τ (Elt F) Unit ℕ (UR sig nD τ) ℕ (Pipeline.pin (pcfgs (F := F)) adm p) c)
    (hK : ∀ c, pdats 2 c = dat2 (V2of W) c) :
    Pipeline.RegionSeg (pcfgs (F := F)) adm pdats () defs₀ 𝒱₀ L lv 2 where
  win := winFacts₀2
  block_pos := block_pos2
  stage_whole := stage_whole2
  K := PEmpty
  osem k := k.elim
  ho := Pipeline.OwnSemFacts.none _
  hbody c := by rw [hK c]; exact (body_obligation2 (V2of W) c).loose
  hwaits := Pipeline.hwaits_of_owed_zero _ _ _ _ L lv 2 fun c _ => by rw [hK c]; rfl
  pre c := iprop(StableHlo.held (c : Thread nD τ) (Pipeline.ucRefs τ sig) (W c) ∗ R c)
  post c := iprop(StableHlo.held (c : Thread nD τ) (Pipeline.ucRefs τ sig) (Wout2 W c) ∗ R c)
  X c := iprop(∃ r, prngReg c r)
  Y c := iprop(∃ r, prngReg c r)
  Z c := StableHlo.held (c : Thread nD τ) (Pipeline.ucRefs τ sig \ arrs2.toFinset) (W c)
  hentry c := by
    rw [Pipeline.ownSems0_none, hK c, arrays2_eq, StableHlo.held_sub_split _ arrs2_sub (W c), held_arrs2]
    iintro ⟨⟨⟨⟨Ha, Hb, Hd, He, Hf⟩, Hrest⟩, Hp, HO⟩, -, -⟩
    ihave Hd' := (pointsTo_share (PosShare.mem_left_op_right fullShare)).1 $$ Hd
    icases Hd' with ⟨Hd1, Hd2⟩
    imodintro
    isplitl [Ha Hb Hd1 Hd2 He Hf]
    · isplitl [Ha]; · iexact Ha
      isplitl [Hb]; · iexact Hb
      isplitl [Hd1]; · iexact Hd1
      isplitl [Hd2]; · iexact Hd2
      isplitl [He]; · iexact He
      iexact Hf
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [hK c, show (dat2 (V2of W) c).Φ 0 = Pipeline.ΦA spec2 c from rfl]; unfold Pipeline.ΦA
    iintro ⟨Hp, -, Hr⟩
    isplitl [Hr]; · iexact Hr
    iexact Hp
  hout c := by
    rw [Pipeline.ownSems0_none, hK c]
    refine (Phi2_out (V2of W) c _ (by rw [Fin.val_last]; show grid2.N ≠ 0; rw [N_2]; decide)).trans ?_
    unfold Pipeline.ΦA
    iintro ⟨Hr, Hp⟩
    isplitl [Hp]; · iexact Hp
    isplitr; · iempintro
    iexact Hr
  hexit c := by
    rw [hK c, arrays2_eq, StableHlo.held_sub_split _ arrs2_sub (Wout2 W c), held_arrs2,
      Wout2_main_v0_0, Wout2_main_v2, Wout2_main_v1, Wout2_main_v3, Wout2_main_v4,
      StableHlo.held_congr _ (V := Wout2 W c) (V' := W c) (fun b hb => Wout2_of_ne_dev W c b fun e =>
        (Finset.mem_sdiff.mp hb).2 (e ▸ by decide))]
    beta_reduce
    rw [(dat2 (V2of W) c).arrAt_in 0 rfl, (dat2 (V2of W) c).arrAt_in 1 rfl, (dat2 (V2of W) c).arrAt_in 2 rfl,
      (dat2 (V2of W) c).arrAt_in 3 rfl, (dat2 (V2of W) c).arrAt_in 4 rfl]
    iintro ⟨⟨Ha, Hb, Hd1, Hd2, He, Hf⟩, HO, HY, Hrest⟩
    imodintro
    isplitl [Ha Hb Hd1 Hd2 He Hf Hrest]
    · isplitl [Ha Hb Hd1 Hd2 He Hf]
      · isplitl [Ha]; · iexact Ha
        isplitl [Hb]; · iexact Hb
        isplitl [Hd1 Hd2]
        · iapply (pointsTo_share (PosShare.mem_left_op_right fullShare)).2
          isplitl [Hd1]; · iexact Hd1
          iexact Hd2
        isplitl [He]; · iexact He
        iexact Hf
      iexact Hrest
    isplitl [HY]; · iexact HY
    unfold Pipeline.Dat.owesAt Pipeline.owesWithin
    icases HO with ⟨%W', -, HO⟩; iexists W'; iexact HO

theorem reg2_pre (pdats : (p : Fin 9) → (c : Dev nD) → Dat τ (Elt F) Unit ℕ (UR sig nD τ) ℕ (Pipeline.pin (pcfgs (F := F)) adm p) c)
    (hK : ∀ c, pdats 2 c = dat2 (V2of W) c) (c : Dev nD) :
    (reg2 W pdats hK).pre c = iprop(StableHlo.held (c : Thread nD τ) (Pipeline.ucRefs τ sig) (W c) ∗ R c) := rfl
theorem reg2_post (pdats : (p : Fin 9) → (c : Dev nD) → Dat τ (Elt F) Unit ℕ (UR sig nD τ) ℕ (Pipeline.pin (pcfgs (F := F)) adm p) c)
    (hK : ∀ c, pdats 2 c = dat2 (V2of W) c) (c : Dev nD) :
    (reg2 W pdats hK).post c = iprop(StableHlo.held (c : Thread nD τ) (Pipeline.ucRefs τ sig) (Wout2 W c) ∗ R c) := rfl

end Seg2

end Cert.Kernel.Hand

end
-- ==== Proof.KB.Reg3.lean ====
/-
  Region 3 of the kernel program: one matrix product [8192,256] x [256,128] by row blocks of 1024, the whole contracted axis in
  one block, so that at every grid point the accumulator is zeroed, added to once and stored into the output block. The
  proof data of the pipeline at the region's entry contents, the body obligation, the contents at the region's exit and the
  region as a segment of the host program.
-/
import proofs.«105977_j57329223467619_2_alg».proof.Proof.KB.Common
import proofs.«105977_j57329223467619_2_alg».proof.Proof.LibWhole
import Idealize.ShloMosaic.Lib.Pipeline.FrameBody
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region3

variable (V : (c : Dev nD) → (b : Ref sig .tc) → Buf (Elt F) ((c : Thread nD τ).loc b))

/-! ## The windows' blocks -/

/-- Window `w`'s block at point `t`, read off its array at the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions: the contracted axis has one block, so both hold at every point -/

theorem hc3_1 (i : grid3.Coords) : (Scalar.cmpi .ne (Scalar.extui (Scalar.cmpi .eq (BitVec.ofNat 32 (i 2).val) 0#32)) 0#32) = 1#1 := by
  have h2 : (i 2).val = 0 := by have h : (i 2).val < 1 := (i 2).isLt; omega
  rw [h2]; rfl

theorem hc3_2 (i : grid3.Coords) : k3_cond2 i = 1#1 := by
  have h2 : (i 2).val = 0 := by have h : (i 2).val < 1 := (i 2).isLt; omega
  unfold k3_cond2; rw [h2]; rfl

/-- The output window is live at every point. -/
theorem liveAt3_2 : ∀ t : Fin cfg3.N, cfg3.idle 2 (grid3.coords t) = false :=
  fun t => by show (!(k3_cond2 (grid3.coords t) == 1#1)) = false; rw [hc3_2]; rfl

/-! ## What the body leaves in the output window's buffer -/

/-- The output block after the body: the product of the two input blocks added to the zeroed accumulator, recast. -/
def out3_2 (x0 : Vec F S1024x256 .f32) (x1 : Vec F S256x128 .f32) : Vec F S1024x128 .bf16 :=
  k3_pay3 (k3_pay2 x0 x1 (k3_pay1 (F := F)))

/-- The scratch accumulator, a whole buffer of the kernel's own. -/
abbrev scM3 : Memref sig .tc .vmem S1024x128 .f32 := Memref.whole cc3_scratch0

/-! ## The body's triple -/

set_option maxHeartbeats 1000000 in
/-- The kernel body on whole staging memrefs, the inputs' at read contents, the output's and the accumulator's at anything,
    runs to the continuation holding the inputs' as they were, the output's at `out3_2` of the inputs' and the accumulator at
    some contents. -/
theorem sound_kernel3 (c : Dev nD) (E : Set ℕ) (i : grid3.Coords)
    (arg3 : Memref sig .tc .vmem S1024x256 .f32) (harg3 : arg3.IsWhole) (arg4 : Memref sig .tc .vmem S256x128 .f32) (harg4 : arg4.IsWhole)
    (arg5 : Memref sig .tc .vmem S1024x128 .bf16) (harg5 : arg5.IsWhole) (arg6 : Memref sig .tc .vmem S1024x128 .f32) (harg6 : arg6.IsWhole)
    (x0 : Vec F S1024x256 .f32) (x1 : Vec F S256x128 .f32) (K : PUnit → sProp (MK F)) :
    iprop(owns (c : Thread nD τ) arg3 fullShare x0 ∗ owns (c : Thread nD τ) arg4 fullShare x1 ∗ (∃ d, owns (c : Thread nD τ) arg5 fullShare d)
        ∗ (∃ d, owns (c : Thread nD τ) arg6 fullShare d)
        ∗ (iprop(owns (c : Thread nD τ) arg3 fullShare x0 ∗ owns (c : Thread nD τ) arg4 fullShare x1 ∗ owns (c : Thread nD τ) arg5 fullShare (out3_2 x0 x1)
            ∗ (∃ d, owns (c : Thread nD τ) arg6 fullShare d)) -∗ K ⟨⟩))
      ⊢ wp frame (wpE (defs₀ (F := F)) Variants.none c none) E (cc3_kernel i arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc3_1 i | exact hc3_2 i)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_unit_zero _ _ View.zero_offsets2, View.readCov_cons_toLoadRect, View.readCov_cons_toLoadRect,
      View.readAt_unit_zero _ _ View.zero_offsets2, View.readAt_unit_zero _ _ View.zero_offsets2]
    rfl
  iexists _; iexists _; isplitr
  swap; · iexact H3
  ipureintro; rfl

/-! ## The pipeline's proof data -/

/-- The proof data of pipeline 3 on core `c`: the arrays at the entry contents; after the body each input's buffer at its
    block and the output's at `out3_2` of the input blocks; the invariant the scoped buffers no window stages (the
    accumulator among them, at anything: every point zeroes it first) and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- The invariant with the accumulator split out as a memref owned at some contents. -/
theorem PhiA3_eq (c : Dev nD) :
    (Pipeline.ΦA spec3 c : sProp (MK F))
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body obligation -/

def bodyPre3 (c : Dev nD) (t : Fin cfg3.N) : sProp (MK F) :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp (MK F) :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ (dat3 V c).leavesExact 2 t)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).leavesExact 2 t = owns (c : Thread nD τ) (st3_2 t) fullShare ((dat3 V c).after 2 t) from by
    unfold Dat.leavesExact; rw [liveAt3_2 t]]
  rw [show (dat3 V c).Φ t.succ = Pipeline.ΦA spec3 c from rfl, show (dat3 V c).Φ t.castSucc = Pipeline.ΦA spec3 c from rfl,
    show (dat3 V c).owesAt () t.succ = (dat3 V c).owesAt () t.castSucc from rfl,
    after3_0, after3_1, after3_2, PhiA3_eq]
  iintro ⟨⟨⟨HS, Hb⟩, Hg⟩, Ho, ⟨%d0, H0⟩, ⟨%d1, H1⟩, ⟨%d2, H2⟩⟩
  iapply (sound_kernel3 c Set.univ (grid3.coords t) _ _ _ _ _ _ _ _ (iblk3 V c 0 t) (iblk3 V c 1 t) _)
  isplitl [H0]; · iexact H0
  isplitl [H1]; · iexact H1
  isplitl [H2]; · iexists _; iexact H2
  isplitl [HS]; · iexact HS
  iintro ⟨H0, H1, H2, HS⟩
  isplitl [HS Hb Hg]
  · isplitl [HS Hb]
    · isplitl [HS]; · iexact HS
      iexact Hb
    iexact Hg
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

/-! ## The contents at the region's exit, and the region as a segment -/

section Segment3

variable (W : Dev nD → Valuation τ sig (Elt F))

/-- A valuation read at the TensorCore's references. -/
abbrev Vof3 (W : Dev nD → Valuation τ sig (Elt F)) : (c : Dev nD) → (b : Ref sig .tc) → Buf (Elt F) ((c : Thread nD τ).loc b) := fun c b => W c b

/-- At region 3's exit: its arrays at what the pipeline leaves, every other buffer as entered. -/
def Wout3 (c : Dev nD) : Valuation τ sig (Elt F) :=
  Pipeline.withArrays spec3 c (W c) fun w => (dat3 (Vof3 W) c).arrAt w cfg3.N

theorem Wout3_arr (c : Dev nD) (w : Fin cfg3.W) :
    Wout3 W c (Proc.devRef .tc (Pipeline.arrRef spec3 w)) = (dat3 (Vof3 W) c).arrAt w cfg3.N := by
  unfold Wout3; exact Pipeline.withArrays_arr spec3 launch3.win.arr_inj c _ _ w

theorem Wout3_of_ne (c : Dev nD) (b : Ref sig .tc) (hb : ∀ w, Pipeline.arrRef spec3 w ≠ b) :
    Wout3 W c (Proc.devRef .tc b) = W c (Proc.devRef .tc b) := by
  unfold Wout3; exact Pipeline.withArrays_of_ne spec3 c _ _ b hb

/-- The input arrays leave the region as they entered it. -/
theorem Wout3_main_v4 (c : Dev nD) : Wout3 W c (Proc.devRef .tc main_v4) = W c (Proc.devRef .tc main_v4) :=
  (Wout3_arr W c 0).trans (((dat3 (Vof3 W) c).arrAt_in 0 rfl _).trans (A_eq3 (Vof3 W) c 0))
theorem Wout3_main_arg4 (c : Dev nD) : Wout3 W c (Proc.devRef .tc main_arg4) = W c (Proc.devRef .tc main_arg4) :=
  (Wout3_arr W c 1).trans (((dat3 (Vof3 W) c).arrAt_in 1 rfl _).trans (A_eq3 (Vof3 W) c 1))
/-- The output array holds what the write-backs leave. -/
theorem Wout3_main_v5 (c : Dev nD) : Wout3 W c (Proc.devRef .tc main_v5) = (dat3 (Vof3 W) c).arrAt 2 cfg3.N :=
  Wout3_arr W c 2

theorem hF3 (c : Dev nD) (w : Fin cfg3.W) : (dat3 (Vof3 W) c).arrAt w cfg3.N = Vof3 (Wout3 W) c (Pipeline.arrRef spec3 w) :=
  (Wout3_arr W c w).symm
theorem hrest3 (c : Dev nD) : ∀ b, b ∉ Finset.univ.image (Pipeline.arrRef spec3) → Vof3 (Wout3 W) c b = Vof3 W c b :=
  fun b hb => Wout3_of_ne W c b fun w e => hb (Finset.mem_image.mpr ⟨w, Finset.mem_univ _, e⟩)

set_option backward.isDefEq.respectTransparency.types false in
/-- REGION 3 over the thread state: entered from every unscoped buffer at `W`, left at `Wout3 W`. -/
def reg3 (pdats : (p : Fin 9) → (c : Dev nD) → Dat τ (Elt F) Unit ℕ (UR sig nD τ) ℕ (Pipeline.pin (pcfgs (F := F)) adm p) c)
    (hK : ∀ c, pdats 3 c = dat3 (Vof3 W) c) :
    Pipeline.RegionSeg (pcfgs (F := F)) adm pdats () defs₀ 𝒱₀ L lv 3 where
  win := launch3.win.to₀
  block_pos := launch3.block_pos
  stage_whole := launch3.stage_whole
  K := PEmpty
  osem k := k.elim
  ho := Pipeline.OwnSemFacts.none _
  hbody c := by rw [hK c]; exact (body_obligation3 (Vof3 W) c).loose
  hwaits := Pipeline.hwaits_of_owed_zero _ _ _ _ L lv 3 fun c t => by rw [hK c]; rfl
  pre c := iprop(StableHlo.held (c : Thread nD τ) (Pipeline.ucRefs τ sig) (W c) ∗ R c)
  post c := iprop(StableHlo.held (c : Thread nD τ) (Pipeline.ucRefs τ sig) (Wout3 W c) ∗ R c)
  X c := iprop(∃ r, prngReg c r)
  Y c := iprop(∃ r, prngReg c r)
  Z c := Pipeline.unscopedRest (Ix := Unit) (Name := ℕ) (U := UR sig nD τ) (Lvl := ℕ) spec3 c (Vof3 W c)
  hentry c := by
    rw [Pipeline.ownSems0_none]
    have hsplit := Pipeline.arrays_of_unscopedBufs (p := 3) (pcfgs (F := F)) adm pdats launch3.win launch3.arr_whole c
      (by rw [hK c]; exact (dat3 (Vof3 W) c).share_full fun _ => rfl) (Vof3 W c) (by rw [hK c]; exact fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [hK c]; show _ ⊢ Pipeline.ΦA spec3 c; unfold Pipeline.ΦA
    iintro ⟨Hp, -, Hr⟩
    isplitl [Hr]; · iexact Hr
    iexact Hp
  hout c := by
    rw [Pipeline.ownSems0_none, hK c]; show Pipeline.ΦA spec3 c ⊢ _; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c pdats (by rw [hK c]; exact (dat3 (Vof3 W) c).share_full fun _ => rfl)
      (Vof3 W c) (Vof3 (Wout3 W) c) ((pdats 3 c).arrAt · cfg3.N) (by rw [hK c]; exact hF3 W c) (hrest3 W c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W', -, HO⟩; iexists W'; iexact HO

theorem reg3_pre (pdats) (hK) (c : Dev nD) :
    (reg3 W pdats hK).pre c = iprop(StableHlo.held (c : Thread nD τ) (Pipeline.ucRefs τ sig) (W c) ∗ R c) := rfl
theorem reg3_post (pdats) (hK) (c : Dev nD) :
    (reg3 W pdats hK).post c = iprop(StableHlo.held (c : Thread nD τ) (Pipeline.ucRefs τ sig) (Wout3 W c) ∗ R c) := rfl

end Segment3

end Cert.Kernel.Hand

end
-- ==== Proof.KB.Reg4.lean ====
/-
  Region 4 of the kernel program: one matrix product [8192,256] x [256,256] by row blocks of 1024, the whole contracted axis in
  one block, so that at every grid point the accumulator is zeroed, added to once and stored into the output block. The
  proof data of the pipeline at the region's entry contents, the body obligation, the contents at the region's exit and the
  region as a segment of the host program.
-/
import proofs.«105977_j57329223467619_2_alg».proof.Proof.KB.Common
import proofs.«105977_j57329223467619_2_alg».proof.Proof.LibWhole
import Idealize.ShloMosaic.Lib.Pipeline.FrameBody
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region4

variable (V : (c : Dev nD) → (b : Ref sig .tc) → Buf (Elt F) ((c : Thread nD τ).loc b))

/-! ## The windows' blocks -/

/-- Window `w`'s block at point `t`, read off its array at the entry contents. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions: the contracted axis has one block, so both hold at every point -/

theorem hc4_1 (i : grid4.Coords) : (Scalar.cmpi .ne (Scalar.extui (Scalar.cmpi .eq (BitVec.ofNat 32 (i 2).val) 0#32)) 0#32) = 1#1 := by
  have h2 : (i 2).val = 0 := by have h : (i 2).val < 1 := (i 2).isLt; omega
  rw [h2]; rfl

theorem hc4_2 (i : grid4.Coords) : k4_cond2 i = 1#1 := by
  have h2 : (i 2).val = 0 := by have h : (i 2).val < 1 := (i 2).isLt; omega
  unfold k4_cond2; rw [h2]; rfl

/-- The output window is live at every point. -/
theorem liveAt4_2 : ∀ t : Fin cfg4.N, cfg4.idle 2 (grid4.coords t) = false :=
  fun t => by show (!(k4_cond2 (grid4.coords t) == 1#1)) = false; rw [hc4_2]; rfl

/-! ## What the body leaves in the output window's buffer -/

/-- The output block after the body: the product of the two input blocks added to the zeroed accumulator, recast. -/
def out4_2 (x0 : Vec F S1024x256 .f32) (x1 : Vec F S256x256 .f32) : Vec F S1024x256 .bf16 :=
  k4_pay3 (k4_pay2 x0 x1 (k4_pay1 (F := F)))

/-- The scratch accumulator, a whole buffer of the kernel's own. -/
abbrev scM4 : Memref sig .tc .vmem S1024x256 .f32 := Memref.whole cc4_scratch0

/-! ## The body's triple -/

set_option maxHeartbeats 1000000 in
/-- The kernel body on whole staging memrefs, the inputs' at read contents, the output's and the accumulator's at anything,
    runs to the continuation holding the inputs' as they were, the output's at `out4_2` of the inputs' and the accumulator at
    some contents. -/
theorem sound_kernel4 (c : Dev nD) (E : Set ℕ) (i : grid4.Coords)
    (arg3 : Memref sig .tc .vmem S1024x256 .f32) (harg3 : arg3.IsWhole) (arg4 : Memref sig .tc .vmem S256x256 .f32) (harg4 : arg4.IsWhole)
    (arg5 : Memref sig .tc .vmem S1024x256 .bf16) (harg5 : arg5.IsWhole) (arg6 : Memref sig .tc .vmem S1024x256 .f32) (harg6 : arg6.IsWhole)
    (x0 : Vec F S1024x256 .f32) (x1 : Vec F S256x256 .f32) (K : PUnit → sProp (MK F)) :
    iprop(owns (c : Thread nD τ) arg3 fullShare x0 ∗ owns (c : Thread nD τ) arg4 fullShare x1 ∗ (∃ d, owns (c : Thread nD τ) arg5 fullShare d)
        ∗ (∃ d, owns (c : Thread nD τ) arg6 fullShare d)
        ∗ (iprop(owns (c : Thread nD τ) arg3 fullShare x0 ∗ owns (c : Thread nD τ) arg4 fullShare x1 ∗ owns (c : Thread nD τ) arg5 fullShare (out4_2 x0 x1)
            ∗ (∃ d, owns (c : Thread nD τ) arg6 fullShare d)) -∗ K ⟨⟩))
      ⊢ wp frame (wpE (defs₀ (F := F)) Variants.none c none) E (cc4_kernel i arg3 harg3 arg4 harg4 arg5 harg5 arg6 harg6) K := by
  simp only [cc4_kernel_eq_skeleton]; unfold cc4_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc4_1 i | exact hc4_2 i)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_unit_zero _ _ View.zero_offsets2, View.readCov_cons_toLoadRect, View.readCov_cons_toLoadRect,
      View.readAt_unit_zero _ _ View.zero_offsets2, View.readAt_unit_zero _ _ View.zero_offsets2]
    rfl
  iexists _; iexists _; isplitr
  swap; · iexact H3
  ipureintro; rfl

/-! ## The pipeline's proof data -/

/-- The proof data of pipeline 4 on core `c`: the arrays at the entry contents; after the body each input's buffer at its
    block and the output's at `out4_2` of the input blocks; the invariant the scoped buffers no window stages (the
    accumulator among them, at anything: every point zeroes it first) and the generator register; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- The invariant with the accumulator split out as a memref owned at some contents. -/
theorem PhiA4_eq (c : Dev nD) :
    (Pipeline.ΦA spec4 c : sProp (MK F))
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-! ## The body obligation -/

def bodyPre4 (c : Dev nD) (t : Fin cfg4.N) : sProp (MK F) :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp (MK F) :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ (dat4 V c).leavesExact 2 t)

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).leavesExact 2 t = owns (c : Thread nD τ) (st4_2 t) fullShare ((dat4 V c).after 2 t) from by
    unfold Dat.leavesExact; rw [liveAt4_2 t]]
  rw [show (dat4 V c).Φ t.succ = Pipeline.ΦA spec4 c from rfl, show (dat4 V c).Φ t.castSucc = Pipeline.ΦA spec4 c from rfl,
    show (dat4 V c).owesAt () t.succ = (dat4 V c).owesAt () t.castSucc from rfl,
    after4_0, after4_1, after4_2, PhiA4_eq]
  iintro ⟨⟨⟨HS, Hb⟩, Hg⟩, Ho, ⟨%d0, H0⟩, ⟨%d1, H1⟩, ⟨%d2, H2⟩⟩
  iapply (sound_kernel4 c Set.univ (grid4.coords t) _ _ _ _ _ _ _ _ (iblk4 V c 0 t) (iblk4 V c 1 t) _)
  isplitl [H0]; · iexact H0
  isplitl [H1]; · iexact H1
  isplitl [H2]; · iexists _; iexact H2
  isplitl [HS]; · iexact HS
  iintro ⟨H0, H1, H2, HS⟩
  isplitl [HS Hb Hg]
  · isplitl [HS Hb]
    · isplitl [HS]; · iexact HS
      iexact Hb
    iexact Hg
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

/-! ## The contents at the region's exit, and the region as a segment -/

section Segment4

variable (W : Dev nD → Valuation τ sig (Elt F))

/-- A valuation read at the TensorCore's references. -/
abbrev Vof4 (W : Dev nD → Valuation τ sig (Elt F)) : (c : Dev nD) → (b : Ref sig .tc) → Buf (Elt F) ((c : Thread nD τ).loc b) := fun c b => W c b

/-- At region 4's exit: its arrays at what the pipeline leaves, every other buffer as entered. -/
def Wout4 (c : Dev nD) : Valuation τ sig (Elt F) :=
  Pipeline.withArrays spec4 c (W c) fun w => (dat4 (Vof4 W) c).arrAt w cfg4.N

theorem Wout4_arr (c : Dev nD) (w : Fin cfg4.W) :
    Wout4 W c (Proc.devRef .tc (Pipeline.arrRef spec4 w)) = (dat4 (Vof4 W) c).arrAt w cfg4.N := by
  unfold Wout4; exact Pipeline.withArrays_arr spec4 launch4.win.arr_inj c _ _ w

theorem Wout4_of_ne (c : Dev nD) (b : Ref sig .tc) (hb : ∀ w, Pipeline.arrRef spec4 w ≠ b) :
    Wout4 W c (Proc.devRef .tc b) = W c (Proc.devRef .tc b) := by
  unfold Wout4; exact Pipeline.withArrays_of_ne spec4 c _ _ b hb

/-- The input arrays leave the region as they entered it. -/
theorem Wout4_main_v4 (c : Dev nD) : Wout4 W c (Proc.devRef .tc main_v4) = W c (Proc.devRef .tc main_v4) :=
  (Wout4_arr W c 0).trans (((dat4 (Vof4 W) c).arrAt_in 0 rfl _).trans (A_eq4 (Vof4 W) c 0))
theorem Wout4_main_arg6 (c : Dev nD) : Wout4 W c (Proc.devRef .tc main_arg6) = W c (Proc.devRef .tc main_arg6) :=
  (Wout4_arr W c 1).trans (((dat4 (Vof4 W) c).arrAt_in 1 rfl _).trans (A_eq4 (Vof4 W) c 1))
/-- The output array holds what the write-backs leave. -/
theorem Wout4_main_v6 (c : Dev nD) : Wout4 W c (Proc.devRef .tc main_v6) = (dat4 (Vof4 W) c).arrAt 2 cfg4.N :=
  Wout4_arr W c 2

theorem hF4 (c : Dev nD) (w : Fin cfg4.W) : (dat4 (Vof4 W) c).arrAt w cfg4.N = Vof4 (Wout4 W) c (Pipeline.arrRef spec4 w) :=
  (Wout4_arr W c w).symm
theorem hrest4 (c : Dev nD) : ∀ b, b ∉ Finset.univ.image (Pipeline.arrRef spec4) → Vof4 (Wout4 W) c b = Vof4 W c b :=
  fun b hb => Wout4_of_ne W c b fun w e => hb (Finset.mem_image.mpr ⟨w, Finset.mem_univ _, e⟩)

set_option backward.isDefEq.respectTransparency.types false in
/-- REGION 4 over the thread state: entered from every unscoped buffer at `W`, left at `Wout4 W`. -/
def reg4 (pdats : (p : Fin 9) → (c : Dev nD) → Dat τ (Elt F) Unit ℕ (UR sig nD τ) ℕ (Pipeline.pin (pcfgs (F := F)) adm p) c)
    (hK : ∀ c, pdats 4 c = dat4 (Vof4 W) c) :
    Pipeline.RegionSeg (pcfgs (F := F)) adm pdats () defs₀ 𝒱₀ L lv 4 where
  win := launch4.win.to₀
  block_pos := launch4.block_pos
  stage_whole := launch4.stage_whole
  K := PEmpty
  osem k := k.elim
  ho := Pipeline.OwnSemFacts.none _
  hbody c := by rw [hK c]; exact (body_obligation4 (Vof4 W) c).loose
  hwaits := Pipeline.hwaits_of_owed_zero _ _ _ _ L lv 4 fun c t => by rw [hK c]; rfl
  pre c := iprop(StableHlo.held (c : Thread nD τ) (Pipeline.ucRefs τ sig) (W c) ∗ R c)
  post c := iprop(StableHlo.held (c : Thread nD τ) (Pipeline.ucRefs τ sig) (Wout4 W c) ∗ R c)
  X c := iprop(∃ r, prngReg c r)
  Y c := iprop(∃ r, prngReg c r)
  Z c := Pipeline.unscopedRest (Ix := Unit) (Name := ℕ) (U := UR sig nD τ) (Lvl := ℕ) spec4 c (Vof4 W c)
  hentry c := by
    rw [Pipeline.ownSems0_none]
    have hsplit := Pipeline.arrays_of_unscopedBufs (p := 4) (pcfgs (F := F)) adm pdats launch4.win launch4.arr_whole c
      (by rw [hK c]; exact (dat4 (Vof4 W) c).share_full fun _ => rfl) (Vof4 W c) (by rw [hK c]; exact fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [hK c]; show _ ⊢ Pipeline.ΦA spec4 c; unfold Pipeline.ΦA
    iintro ⟨Hp, -, Hr⟩
    isplitl [Hr]; · iexact Hr
    iexact Hp
  hout c := by
    rw [Pipeline.ownSems0_none, hK c]; show Pipeline.ΦA spec4 c ⊢ _; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c pdats (by rw [hK c]; exact (dat4 (Vof4 W) c).share_full fun _ => rfl)
      (Vof4 W c) (Vof4 (Wout4 W) c) ((pdats 4 c).arrAt · cfg4.N) (by rw [hK c]; exact hF4 W c) (hrest4 W c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W', -, HO⟩; iexists W'; iexact HO

theorem reg4_pre (pdats) (hK) (c : Dev nD) :
    (reg4 W pdats hK).pre c = iprop(StableHlo.held (c : Thread nD τ) (Pipeline.ucRefs τ sig) (W c) ∗ R c) := rfl
theorem reg4_post (pdats) (hK) (c : Dev nD) :
    (reg4 W pdats hK).post c = iprop(StableHlo.held (c : Thread nD τ) (Pipeline.ucRefs τ sig) (Wout4 W c) ∗ R c) := rfl

end Segment4

end Cert.Kernel.Hand

end
-- ==== Proof.KB.Reg5Run.lean ====
import proofs.«105977_j57329223467619_2_alg».proof.Proof.KB.Common
import proofs.«105977_j57329223467619_2_alg».proof.Proof.LibWhole

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The dual kernel's body, case by case

The body of the fifth call zeroes its two accumulators when the reduction coordinate is 0, adds one block product into
each at every point, and stores the two outputs when the reduction coordinate is 3. The two conditions are decided over
the grid in closed form; the body's triple is stated once per case, over the payloads of its stores. -/

/-- The first condition (the accumulators are zeroed), from the grid coordinates. -/
abbrev cond5_0 (i : grid5.Coords) : Prop := (Scalar.cmpi .ne (Scalar.extui (Scalar.cmpi .eq (BitVec.ofNat 32 (i 1).val) 0#32)) 0#32) = 1#1
/-- It holds at the points ≡ 0 (mod 4). -/
theorem hcond5_0 : ∀ t : Fin cfg5.N, cond5_0 (grid5.coords t) ↔ t.val % 4 = 0 :=
  (by decide +kernel : ∀ t : Fin grid5.N, cond5_0 (grid5.coords t) ↔ t.val % 4 = 0)

/-- The second condition (the outputs are stored), from the grid coordinates. -/
abbrev cond5_1 (i : grid5.Coords) : Prop := k5_cond2 i = 1#1
/-- It holds at the points ≡ 3 (mod 4). -/
theorem hcond5_1 : ∀ t : Fin cfg5.N, cond5_1 (grid5.coords t) ↔ t.val % 4 = 3 :=
  (by decide +kernel : ∀ t : Fin grid5.N, cond5_1 (grid5.coords t) ↔ t.val % 4 = 3)

/-- A store through the whole-shape rectangle, last, leaves its payload whatever the earlier stores were. -/
theorem read_writes_cons_whole5 {Val : EltTy → Type} [∀ e, Nonempty (Val e)] {S : Shape} {e : EltTy} {sg : RefSig} {κ : Kind} {sp : Space}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]

set_option maxHeartbeats 4000000 in
/-- A middle point (neither condition): each accumulator gains its block product. -/
theorem run5_B (c : Dev nD) (i : grid5.Coords) (arg2 : Memref sig .tc .vmem S1024x2048 .bf16) (harg2 : arg2.IsWhole) (arg3 : Memref sig .tc .vmem S2048x128 .bf16) (harg3 : arg3.IsWhole) (arg4 : Memref sig .tc .vmem S2048x256 .bf16) (harg4 : arg4.IsWhole) (arg5 : Memref sig .tc .vmem S2048x1 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1x256 .f32) (harg8 : arg8.IsWhole) (arg9 : Memref sig .tc .vmem S1024x128 .f32) (harg9 : arg9.IsWhole) (arg10 : Memref sig .tc .vmem S1024x256 .bf16) (harg10 : arg10.IsWhole) (arg11 : Memref sig .tc .vmem S1024x128 .f32) (harg11 : arg11.IsWhole) (arg12 : Memref sig .tc .vmem S1024x256 .f32) (harg12 : arg12.IsWhole) (hc0 : ¬cond5_0 i) (hc1 : ¬cond5_1 i)
    (x0 : Vec F S1024x2048 .bf16) (x1 : Vec F S2048x128 .bf16) (x2 : Vec F S2048x256 .bf16) (x3 : Vec F S2048x1 .f32)
    (xs0 : Vec F S1024x128 .f32) (xs1 : Vec F S1024x256 .f32) (E : Set ℕ) (K : PUnit → sProp (MK F)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg11 fullShare xs0 ∗ owns (c : Thread nD τ) arg12 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg11 fullShare (k5_pay8 x0 x3 x1 xs0)
            ∗ owns (c : Thread nD τ) arg12 fullShare (k5_pay9 x0 x3 x2 xs1)) -∗ K ⟨⟩))
      ⊢ wp frame (wpE (defs₀ (F := F)) Variants.none c none) E (cc5__dual_kernel i arg2 harg2 arg3 harg3 arg4 harg4 arg5 harg5 arg6 harg6 arg7 harg7 arg8 harg8 arg9 harg9 arg10 harg10 arg11 harg11 arg12 harg12) K := by
  simp only [cc5__dual_kernel_eq_skeleton]; unfold cc5__dual_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  subst hf0; subst hf1; subst hf2; subst hf3; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HS0]
  · iexists _; isplitr
    swap; · iexact HS0
    ipureintro
    rw [read_writes_cons_whole5 _ _ View.zero_offsets2]
    exact congr (congr (congr (congrArg _ (View.readAt_unit_zero _ _ View.zero_offsets2 _)) (View.readAt_unit_zero _ _ View.zero_offsets2 _)) (View.readAt_unit_zero _ _ View.zero_offsets2 _)) (View.readAt_unit_zero _ _ View.zero_offsets2 _)
  · iexists _; isplitr
    swap; · iexact HS1
    ipureintro
    rw [read_writes_cons_whole5 _ _ View.zero_offsets2]
    exact congr (congr (congr (congrArg _ (View.readAt_unit_zero _ _ View.zero_offsets2 _)) (View.readAt_unit_zero _ _ View.zero_offsets2 _)) (View.readAt_unit_zero _ _ View.zero_offsets2 _)) (View.readAt_unit_zero _ _ View.zero_offsets2 _)

set_option maxHeartbeats 4000000 in
/-- A first point of a reduction (the first condition only): each accumulator is its block product over zero. -/
theorem run5_A (c : Dev nD) (i : grid5.Coords) (arg2 : Memref sig .tc .vmem S1024x2048 .bf16) (harg2 : arg2.IsWhole) (arg3 : Memref sig .tc .vmem S2048x128 .bf16) (harg3 : arg3.IsWhole) (arg4 : Memref sig .tc .vmem S2048x256 .bf16) (harg4 : arg4.IsWhole) (arg5 : Memref sig .tc .vmem S2048x1 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1x256 .f32) (harg8 : arg8.IsWhole) (arg9 : Memref sig .tc .vmem S1024x128 .f32) (harg9 : arg9.IsWhole) (arg10 : Memref sig .tc .vmem S1024x256 .bf16) (harg10 : arg10.IsWhole) (arg11 : Memref sig .tc .vmem S1024x128 .f32) (harg11 : arg11.IsWhole) (arg12 : Memref sig .tc .vmem S1024x256 .f32) (harg12 : arg12.IsWhole) (hc0 : cond5_0 i) (hc1 : ¬cond5_1 i)
    (x0 : Vec F S1024x2048 .bf16) (x1 : Vec F S2048x128 .bf16) (x2 : Vec F S2048x256 .bf16) (x3 : Vec F S2048x1 .f32)
    (E : Set ℕ) (K : PUnit → sProp (MK F)) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg11 fullShare (k5_pay8 x0 x3 x1 k5_pay4)
            ∗ owns (c : Thread nD τ) arg12 fullShare (k5_pay9 x0 x3 x2 k5_pay5)) -∗ K ⟨⟩))
      ⊢ wp frame (wpE (defs₀ (F := F)) Variants.none c none) E (cc5__dual_kernel i arg2 harg2 arg3 harg3 arg4 harg4 arg5 harg5 arg6 harg6 arg7 harg7 arg8 harg8 arg9 harg9 arg10 harg10 arg11 harg11 arg12 harg12) K := by
  simp only [cc5__dual_kernel_eq_skeleton]; unfold cc5__dual_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HS0]
  · iexists _; isplitr
    swap; · iexact HS0
    ipureintro
    rw [read_writes_cons_whole5 _ _ View.zero_offsets2]
    unfold run5_A.sl.v19 run5_A.sl.HS0_1
    exact congr (congr (congr (congrArg _ (View.readAt_unit_zero _ _ View.zero_offsets2 _)) (View.readAt_unit_zero _ _ View.zero_offsets2 _)) (View.readAt_unit_zero _ _ View.zero_offsets2 _)) (View.readCov_unit_zero _ View.zero_offsets2 _ _)
  · iexists _; isplitr
    swap; · iexact HS1
    ipureintro
    rw [read_writes_cons_whole5 _ _ View.zero_offsets2]
    unfold run5_A.sl.v25 run5_A.sl.HS1_1
    exact congr (congr (congr (congrArg _ (View.readAt_unit_zero _ _ View.zero_offsets2 _)) (View.readAt_unit_zero _ _ View.zero_offsets2 _)) (View.readAt_unit_zero _ _ View.zero_offsets2 _)) (View.readCov_unit_zero _ View.zero_offsets2 _ _)

set_option maxHeartbeats 4000000 in
/-- A last point of a reduction (the second condition only): each accumulator gains its block product, and the two
    outputs are stored from them. -/
theorem run5_C (c : Dev nD) (i : grid5.Coords) (arg2 : Memref sig .tc .vmem S1024x2048 .bf16) (harg2 : arg2.IsWhole) (arg3 : Memref sig .tc .vmem S2048x128 .bf16) (harg3 : arg3.IsWhole) (arg4 : Memref sig .tc .vmem S2048x256 .bf16) (harg4 : arg4.IsWhole) (arg5 : Memref sig .tc .vmem S2048x1 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1x256 .f32) (harg8 : arg8.IsWhole) (arg9 : Memref sig .tc .vmem S1024x128 .f32) (harg9 : arg9.IsWhole) (arg10 : Memref sig .tc .vmem S1024x256 .bf16) (harg10 : arg10.IsWhole) (arg11 : Memref sig .tc .vmem S1024x128 .f32) (harg11 : arg11.IsWhole) (arg12 : Memref sig .tc .vmem S1024x256 .f32) (harg12 : arg12.IsWhole) (hc0 : ¬cond5_0 i) (hc1 : cond5_1 i)
    (x0 : Vec F S1024x2048 .bf16) (x1 : Vec F S2048x128 .bf16) (x2 : Vec F S2048x256 .bf16) (x3 : Vec F S2048x1 .f32)
    (x4 : Vec F S1024x1 .f32) (x5 : Vec F S1x128 .f32) (x6 : Vec F S1x256 .f32)
    (xs0 : Vec F S1024x128 .f32) (xs1 : Vec F S1024x256 .f32) (E : Set ℕ) (K : PUnit → sProp (MK F)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d)
        ∗ owns (c : Thread nD τ) arg11 fullShare xs0 ∗ owns (c : Thread nD τ) arg12 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k5_pay2 x4 (k5_pay8 x0 x3 x1 xs0) x5)
            ∗ owns (c : Thread nD τ) arg10 fullShare (k5_pay3 x4 (k5_pay9 x0 x3 x2 xs1) x6)
            ∗ owns (c : Thread nD τ) arg11 fullShare (k5_pay8 x0 x3 x1 xs0)
            ∗ owns (c : Thread nD τ) arg12 fullShare (k5_pay9 x0 x3 x2 xs1)) -∗ K ⟨⟩))
      ⊢ wp frame (wpE (defs₀ (F := F)) Variants.none c none) E (cc5__dual_kernel i arg2 harg2 arg3 harg3 arg4 harg4 arg5 harg5 arg6 harg6 arg7 harg7 arg8 harg8 arg9 harg9 arg10 harg10 arg11 harg11 arg12 harg12) K := by
  simp only [cc5__dual_kernel_eq_skeleton]; unfold cc5__dual_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, Hk⟩
  subst hf0; subst hf1; subst hf2; subst hf3; subst hf4; subst hf5; subst hf6; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_writes_cons_whole5 _ _ View.zero_offsets2]
    unfold run5_C.sl.v36 run5_C.sl.HS0_1
    exact congr (congr (congrArg _ (View.readAt_unit_zero _ _ View.zero_offsets2 _)) ((View.readCov_unit_zero _ View.zero_offsets2 _ _).trans (congr (congr (congr (congrArg _ (View.readAt_unit_zero _ _ View.zero_offsets2 _)) (View.readAt_unit_zero _ _ View.zero_offsets2 _)) (View.readAt_unit_zero _ _ View.zero_offsets2 _)) (View.readAt_unit_zero _ _ View.zero_offsets2 _)))) (View.readAt_unit_zero _ _ View.zero_offsets2 _)
  isplitl [H8]
  · iexists _; isplitr
    swap; · iexact H8
    ipureintro
    rw [read_writes_cons_whole5 _ _ View.zero_offsets2]
    unfold run5_C.sl.v43 run5_C.sl.HS1_1
    exact congr (congr (congrArg _ (View.readAt_unit_zero _ _ View.zero_offsets2 _)) ((View.readCov_unit_zero _ View.zero_offsets2 _ _).trans (congr (congr (congr (congrArg _ (View.readAt_unit_zero _ _ View.zero_offsets2 _)) (View.readAt_unit_zero _ _ View.zero_offsets2 _)) (View.readAt_unit_zero _ _ View.zero_offsets2 _)) (View.readAt_unit_zero _ _ View.zero_offsets2 _)))) (View.readAt_unit_zero _ _ View.zero_offsets2 _)
  isplitl [HS0]
  · iexists _; isplitr
    swap; · iexact HS0
    ipureintro
    unfold run5_C.sl.HS0_1
    rw [read_writes_cons_whole5 _ _ View.zero_offsets2]
    exact congr (congr (congr (congrArg _ (View.readAt_unit_zero _ _ View.zero_offsets2 _)) (View.readAt_unit_zero _ _ View.zero_offsets2 _)) (View.readAt_unit_zero _ _ View.zero_offsets2 _)) (View.readAt_unit_zero _ _ View.zero_offsets2 _)
  · iexists _; isplitr
    swap; · iexact HS1
    ipureintro
    unfold run5_C.sl.HS1_1
    rw [read_writes_cons_whole5 _ _ View.zero_offsets2]
    exact congr (congr (congr (congrArg _ (View.readAt_unit_zero _ _ View.zero_offsets2 _)) (View.readAt_unit_zero _ _ View.zero_offsets2 _)) (View.readAt_unit_zero _ _ View.zero_offsets2 _)) (View.readAt_unit_zero _ _ View.zero_offsets2 _)

end Cert.Kernel.Hand

end
-- ==== Proof.KB.Reg5.lean ====
import proofs.«105977_j57329223467619_2_alg».proof.Proof.KB.Reg5Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The fifth call (the dual kernel) as a region, at the entry contents `V`

Nine windows on a grid of 8 × 4 points, the second coordinate the reduction: the adjacency block, the two feature
blocks, the scaling vector read twice (by reduction block and by row block), the two bias rows, and the two outputs,
stored at the last step of each reduction from two accumulators kept in scratch. -/

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Each input window's current staging buffer holds its block at every point, fetched there or not, for any proof data
    whose array is the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## Where the output windows are idle -/

theorem idleAt5_7 : ∀ t : Fin cfg5.N, ¬cond5_1 (grid5.coords t) → cfg5.idle 7 (grid5.coords t) = true := by decide +kernel
theorem idleAt5_8 : ∀ t : Fin cfg5.N, ¬cond5_1 (grid5.coords t) → cfg5.idle 8 (grid5.coords t) = true := by decide +kernel
theorem liveAt5_7 : ∀ t : Fin cfg5.N, cond5_1 (grid5.coords t) → cfg5.idle 7 (grid5.coords t) = false := by decide +kernel
theorem liveAt5_8 : ∀ t : Fin cfg5.N, cond5_1 (grid5.coords t) → cfg5.idle 8 (grid5.coords t) = false := by decide +kernel
theorem noFlush5_7 (t : Fin cfg5.N) (h : ¬t.val % 4 = 3) : (cfg5.win 7).flush t = false :=
  Bool.eq_false_iff.mpr fun e => h ((flush5_7 t).mp e)
theorem noFlush5_8 (t : Fin cfg5.N) (h : ¬t.val % 4 = 3) : (cfg5.win 8).flush t = false :=
  Bool.eq_false_iff.mpr fun e => h ((flush5_8 t).mp e)

/-! ## The accumulators, point by point -/

/-- What the two scratch accumulators hold after the body at position `n`: at the first step of a reduction the block
    product over zero, afterwards the block product added to what the point before left. -/
def acc5 (c : Dev nD) : (n : ℕ) → n < cfg5.N → Vec F S1024x128 .f32 × Vec F S1024x256 .f32
  | 0, hn => (k5_pay8 (iblk5 V c 0 ⟨0, hn⟩) (iblk5 V c 3 ⟨0, hn⟩) (iblk5 V c 1 ⟨0, hn⟩) k5_pay4, k5_pay9 (iblk5 V c 0 ⟨0, hn⟩) (iblk5 V c 3 ⟨0, hn⟩) (iblk5 V c 2 ⟨0, hn⟩) k5_pay5)
  | n + 1, hn =>
    if (n + 1) % 4 = 0 then
      (k5_pay8 (iblk5 V c 0 ⟨n + 1, hn⟩) (iblk5 V c 3 ⟨n + 1, hn⟩) (iblk5 V c 1 ⟨n + 1, hn⟩) k5_pay4, k5_pay9 (iblk5 V c 0 ⟨n + 1, hn⟩) (iblk5 V c 3 ⟨n + 1, hn⟩) (iblk5 V c 2 ⟨n + 1, hn⟩) k5_pay5)
    else
      (k5_pay8 (iblk5 V c 0 ⟨n + 1, hn⟩) (iblk5 V c 3 ⟨n + 1, hn⟩) (iblk5 V c 1 ⟨n + 1, hn⟩) (acc5 c n (Nat.lt_of_succ_lt hn)).1, k5_pay9 (iblk5 V c 0 ⟨n + 1, hn⟩) (iblk5 V c 3 ⟨n + 1, hn⟩) (iblk5 V c 2 ⟨n + 1, hn⟩) (acc5 c n (Nat.lt_of_succ_lt hn)).2)

/-- At a first step of a reduction. -/
theorem acc5_first (c : Dev nD) (t : Fin cfg5.N) (h0 : t.val % 4 = 0) :
    acc5 V c t.val t.isLt = (k5_pay8 (iblk5 V c 0 t) (iblk5 V c 3 t) (iblk5 V c 1 t) k5_pay4, k5_pay9 (iblk5 V c 0 t) (iblk5 V c 3 t) (iblk5 V c 2 t) k5_pay5) := by
  obtain ⟨n, hn⟩ := t
  cases n with
  | zero => rfl
  | succ n => exact if_pos h0

/-- At a later step. -/
theorem acc5_later (c : Dev nD) (t : Fin cfg5.N) (h0 : ¬t.val % 4 = 0) :
    acc5 V c t.val t.isLt = (k5_pay8 (iblk5 V c 0 t) (iblk5 V c 3 t) (iblk5 V c 1 t) (acc5 V c (t.val - 1) (Nat.lt_of_le_of_lt (Nat.sub_le _ _) t.isLt)).1, k5_pay9 (iblk5 V c 0 t) (iblk5 V c 3 t) (iblk5 V c 2 t) (acc5 V c (t.val - 1) (Nat.lt_of_le_of_lt (Nat.sub_le _ _) t.isLt)).2) := by
  obtain ⟨n, hn⟩ := t
  cases n with
  | zero => exact absurd (Nat.zero_mod _) h0
  | succ n => exact if_neg h0

/-- What the first output's staging buffer holds after a storing point: the first accumulator scaled by the row block of
    the scaling vector, plus the bias row. -/
def out5_7 (c : Dev nD) (t : Fin cfg5.N) : Vec F S1024x128 .f32 :=
  k5_pay2 (iblk5 V c 4 t) (acc5 V c t.val t.isLt).1 (iblk5 V c 5 t)
/-- The second output's: the row-wise softmax of the second accumulator scaled, plus the bias row. -/
def out5_8 (c : Dev nD) (t : Fin cfg5.N) : Vec F S1024x256 .bf16 :=
  k5_pay3 (iblk5 V c 4 t) (acc5 V c t.val t.isLt).2 (iblk5 V c 6 t)

/-! ## The invariant -/

/-- The two scratch operands, whole buffers of the kernel's own. -/
abbrev scM5_0 : Memref sig .tc .vmem S1024x128 .f32 := Memref.whole cc5_scratch0
abbrev scM5_1 : Memref sig .tc .vmem S1024x256 .f32 := Memref.whole cc5_scratch1

/-- The other scoped buffers, unopened. -/
abbrev rest5 (c : Dev nD) : sProp (MK F) :=
  Pipeline.scopedRestBut (Ix := Unit) (Name := ℕ) (U := UR sig nD τ) (Lvl := ℕ) (Val := Elt F) spec5 c [cc5_scratch0, cc5_scratch1]

/-- The class's invariant with the two scratch operands as memrefs owned at some contents. -/
theorem PhiA5_eq (c : Dev nD) :
    (Pipeline.ΦA spec5 c : sProp (MK F))
      = iprop(iprop(iprop((∃ d, owns (c : Thread nD τ) scM5_0 fullShare d) ∗ (∃ d, owns (c : Thread nD τ) scM5_1 fullShare d)) ∗ rest5 c) ∗ (∃ r, prngReg c r)) := by
  unfold Pipeline.ΦA; rw [scopedRest5_split]; simp only [scM5_0, scM5_1, owns_whole]; try rfl

/-- The invariant before position `n`: before the first point the class's; afterwards the two accumulators at what the
    point before left, the other scoped buffers and the generator register at some state. -/
def PhiS5 (c : Dev nD) : (n : ℕ) → n ≤ cfg5.N → sProp (MK F)
  | 0, _ => Pipeline.ΦA spec5 c
  | n + 1, hn => iprop(iprop(iprop(owns (c : Thread nD τ) scM5_0 fullShare (acc5 V c n hn).1 ∗ owns (c : Thread nD τ) scM5_1 fullShare (acc5 V c n hn).2) ∗ rest5 c) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(iprop(owns (c : Thread nD τ) scM5_0 fullShare (acc5 V c n hn).1 ∗ owns (c : Thread nD τ) scM5_1 fullShare (acc5 V c n hn).2) ∗ rest5 c) ∗ (∃ r, prngReg c r)) := rfl
theorem PhiS5_pos (c : Dev nD) (n : ℕ) (h : n ≤ cfg5.N) (hz : n ≠ 0) :
    PhiS5 V c n h = iprop(iprop(iprop(owns (c : Thread nD τ) scM5_0 fullShare (acc5 V c (n - 1) (by omega)).1 ∗ owns (c : Thread nD τ) scM5_1 fullShare (acc5 V c (n - 1) (by omega)).2) ∗ rest5 c) ∗ (∃ r, prngReg c r)) := by
  cases n with
  | zero => exact absurd rfl hz
  | succ n => rfl

/-! ## The proof data -/

/-- The proof data of the fifth pipeline on core `c`: the arrays as the region finds them; after the body each input's
    buffer at its block and the outputs' at what a storing point leaves; the invariant carrying the accumulators;
    nothing owed; full shares, the scaling vector's array dealt to its two windows as the two halves. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 V c t
    | ⟨8, _⟩ => out5_8 V c t
  Φ t := PhiS5 V c t.val (Nat.le_of_lt_succ t.isLt)
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
    | ⟨6, _⟩ => fullShare
    | ⟨7, _⟩ => fullShare
    | ⟨8, _⟩ => fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 V c t := by dsimp only [dat5]
theorem after5_8 (c : Dev nD) (t : Fin cfg5.N) : (dat5 V c).after 8 t = out5_8 V c t := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-- An input window is never idle: the body hands its buffer back at the block. -/
theorem leaves5_0 (c : Dev nD) (t : Fin cfg5.N) : (dat5 V c).leavesExact 0 t = owns (c : Thread nD τ) (st5_0 t) fullShare (iblk5 V c 0 t) := by
  unfold Dat.leavesExact; rw [show cfg5.idle 0 (cfg5.grid.coords t) = false from rfl, after5_0]
theorem leaves5_1 (c : Dev nD) (t : Fin cfg5.N) : (dat5 V c).leavesExact 1 t = owns (c : Thread nD τ) (st5_1 t) fullShare (iblk5 V c 1 t) := by
  unfold Dat.leavesExact; rw [show cfg5.idle 1 (cfg5.grid.coords t) = false from rfl, after5_1]
theorem leaves5_2 (c : Dev nD) (t : Fin cfg5.N) : (dat5 V c).leavesExact 2 t = owns (c : Thread nD τ) (st5_2 t) fullShare (iblk5 V c 2 t) := by
  unfold Dat.leavesExact; rw [show cfg5.idle 2 (cfg5.grid.coords t) = false from rfl, after5_2]
theorem leaves5_3 (c : Dev nD) (t : Fin cfg5.N) : (dat5 V c).leavesExact 3 t = owns (c : Thread nD τ) (st5_3 t) fullShare (iblk5 V c 3 t) := by
  unfold Dat.leavesExact; rw [show cfg5.idle 3 (cfg5.grid.coords t) = false from rfl, after5_3]
theorem leaves5_4 (c : Dev nD) (t : Fin cfg5.N) : (dat5 V c).leavesExact 4 t = owns (c : Thread nD τ) (st5_4 t) fullShare (iblk5 V c 4 t) := by
  unfold Dat.leavesExact; rw [show cfg5.idle 4 (cfg5.grid.coords t) = false from rfl, after5_4]
theorem leaves5_5 (c : Dev nD) (t : Fin cfg5.N) : (dat5 V c).leavesExact 5 t = owns (c : Thread nD τ) (st5_5 t) fullShare (iblk5 V c 5 t) := by
  unfold Dat.leavesExact; rw [show cfg5.idle 5 (cfg5.grid.coords t) = false from rfl, after5_5]
theorem leaves5_6 (c : Dev nD) (t : Fin cfg5.N) : (dat5 V c).leavesExact 6 t = owns (c : Thread nD τ) (st5_6 t) fullShare (iblk5 V c 6 t) := by
  unfold Dat.leavesExact; rw [show cfg5.idle 6 (cfg5.grid.coords t) = false from rfl, after5_6]

/-! ## The body obligation, at a generic point -/

def bodyPre5 (c : Dev nD) (t : Fin cfg5.N) : sProp (MK F) :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d)))

def bodyPost5 (c : Dev nD) (t : Fin cfg5.N) : sProp (MK F) :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t)

set_option maxHeartbeats 4800000 in
/-- The body at any point: the inputs' memrefs hold their blocks; the closed forms say which case the point is in; the
    invariant hands the body the accumulators at what the point before left (at anything at the first point) and takes
    them back at this point's contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [leaves5_0, leaves5_1, leaves5_2, leaves5_3, leaves5_4, leaves5_5, leaves5_6]
  rw [show (dat5 V c).owesAt () t.succ = (dat5 V c).owesAt () t.castSucc from rfl]
  rw [show (dat5 V c).Φ t.succ = PhiS5 V c (t.val + 1) t.isLt from rfl, PhiS5_succ]
  have hN : t.val < 32 := lt_of_lt_of_eq t.isLt (show cfg5.N = 32 from N_5)
  by_cases h0 : t.val % 4 = 0
  · have h1 : ¬t.val % 4 = 3 := by omega
    have hc0 : cond5_0 (grid5.coords t) := (hcond5_0 t).mpr h0
    have hc1 : ¬cond5_1 (grid5.coords t) := fun h => h1 ((hcond5_1 t).mp h)
    rw [Dat.leavesExact_idle (dat5 V c) 7 t (idleAt5_7 t hc1) (noFlush5_7 t h1),
      Dat.leavesExact_idle (dat5 V c) 8 t (idleAt5_8 t hc1) (noFlush5_8 t h1)]
    have e1 : (acc5 V c t.val t.isLt).1 = k5_pay8 (iblk5 V c 0 t) (iblk5 V c 3 t) (iblk5 V c 1 t) k5_pay4 := by rw [acc5_first V c t h0]
    have e2 : (acc5 V c t.val t.isLt).2 = k5_pay9 (iblk5 V c 0 t) (iblk5 V c 3 t) (iblk5 V c 2 t) k5_pay5 := by rw [acc5_first V c t h0]
    rw [e1, e2]
    by_cases hz : t.val = 0
    · rw [PhiS5_castSucc V c t, PhiS5_zero V c _ _ hz, PhiA5_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run5_A c (grid5.coords t) _ _ _ _ _ _ _ _ _ _ _ _ _ _ _ _ _ _ _ _ _ _ hc0 hc1 (iblk5 V c 0 t) (iblk5 V c 1 t) (iblk5 V c 2 t) (iblk5 V c 3 t) Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [PhiS5_castSucc V c t, PhiS5_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run5_A c (grid5.coords t) _ _ _ _ _ _ _ _ _ _ _ _ _ _ _ _ _ _ _ _ _ _ hc0 hc1 (iblk5 V c 0 t) (iblk5 V c 1 t) (iblk5 V c 2 t) (iblk5 V c 3 t) Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hz : t.val ≠ 0 := fun e => h0 (by rw [e])
    have hc0 : ¬cond5_0 (grid5.coords t) := fun h => h0 ((hcond5_0 t).mp h)
    have e1 : (acc5 V c t.val t.isLt).1 = k5_pay8 (iblk5 V c 0 t) (iblk5 V c 3 t) (iblk5 V c 1 t) (acc5 V c (t.val - 1) (Nat.lt_of_le_of_lt (Nat.sub_le _ _) t.isLt)).1 := by rw [acc5_later V c t h0]
    have e2 : (acc5 V c t.val t.isLt).2 = k5_pay9 (iblk5 V c 0 t) (iblk5 V c 3 t) (iblk5 V c 2 t) (acc5 V c (t.val - 1) (Nat.lt_of_le_of_lt (Nat.sub_le _ _) t.isLt)).2 := by rw [acc5_later V c t h0]
    by_cases h1 : t.val % 4 = 3
    · have hc1 : cond5_1 (grid5.coords t) := (hcond5_1 t).mpr h1
      rw [show (dat5 V c).leavesExact 7 t = owns (c : Thread nD τ) (st5_7 t) fullShare (out5_7 V c t) from by
        unfold Dat.leavesExact; rw [liveAt5_7 t hc1, after5_7]]
      rw [show (dat5 V c).leavesExact 8 t = owns (c : Thread nD τ) (st5_8 t) fullShare (out5_8 V c t) from by
        unfold Dat.leavesExact; rw [liveAt5_8 t hc1, after5_8]]
      unfold out5_7 out5_8
      rw [e1, e2]
      rw [PhiS5_castSucc V c t, PhiS5_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run5_C c (grid5.coords t) _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond5_1 (grid5.coords t) := fun h => h1 ((hcond5_1 t).mp h)
      rw [Dat.leavesExact_idle (dat5 V c) 7 t (idleAt5_7 t hc1) (noFlush5_7 t h1),
        Dat.leavesExact_idle (dat5 V c) 8 t (idleAt5_8 t hc1) (noFlush5_8 t h1)]
      rw [e1, e2]
      rw [PhiS5_castSucc V c t, PhiS5_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run5_B c (grid5.coords t) _ _ _ _ _ _ _ _ _ _ _ _ _ _ _ _ _ _ _ _ _ _ hc0 hc1 (iblk5 V c 0 t) (iblk5 V c 1 t) (iblk5 V c 2 t) (iblk5 V c 3 t) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the class's back: the accumulators' contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

theorem hout5 (c : Dev nD) : (dat5 V c).Φ (Fin.last cfg5.N) ⊢ Pipeline.ΦA spec5 c :=
  Phi_out5 V c _ (by rw [Fin.val_last]; have : cfg5.N = 32 := N_5; omega)

/-! ## The region as a segment of the host program -/

section Seg5
variable (W : Dev nD → Valuation τ sig (Elt F))

/-- The valuation read at the TensorCore's references: what the proof data take. -/
abbrev V5of (W : Dev nD → Valuation τ sig (Elt F)) : (c : Dev nD) → (b : Ref sig .tc) → Buf (Elt F) ((c : Thread nD τ).loc b) :=
  fun c b => W c b

/-- The exit contents: the two output arrays at what the write-backs leave, every other buffer as entered. -/
def Wout5 (c : Dev nD) : Valuation τ sig (Elt F) :=
  Function.update (Function.update (W c) (Proc.devRef .tc main_v9_0) ((dat5 (V5of W) c).arrAt 7 cfg5.N))
    (Proc.devRef .tc main_v9_1) ((dat5 (V5of W) c).arrAt 8 cfg5.N)

theorem Wout5_main_v9_1 (c : Dev nD) : Wout5 W c (Proc.devRef .tc main_v9_1) = (dat5 (V5of W) c).arrAt 8 cfg5.N := by
  unfold Wout5; exact Function.update_self ..

theorem Wout5_main_v9_0 (c : Dev nD) : Wout5 W c (Proc.devRef .tc main_v9_0) = (dat5 (V5of W) c).arrAt 7 cfg5.N := by
  unfold Wout5
  rw [Function.update_of_ne (StableHlo.devRef_ne_of_ne (by decide))]
  exact Function.update_self ..

theorem Wout5_of_ne_dev (c : Dev nD) (b : DevRef τ sig) (h0 : b ≠ Proc.devRef .tc main_v9_0) (h1 : b ≠ Proc.devRef .tc main_v9_1) :
    Wout5 W c b = W c b := by
  unfold Wout5; rw [Function.update_of_ne h1, Function.update_of_ne h0]

theorem Wout5_of_ne (c : Dev nD) (b : Ref sig .tc) (hb : ∀ w, Pipeline.arrRef spec5 w ≠ b) :
    Wout5 W c (Proc.devRef .tc b) = W c (Proc.devRef .tc b) :=
  Wout5_of_ne_dev W c _ (fun e => hb 7 (Proc.devRef_injective _ e).symm) (fun e => hb 8 (Proc.devRef_injective _ e).symm)

/-- The input windows' arrays leave as they entered. -/
theorem Wout5_main_v0_0 (c : Dev nD) : Wout5 W c (Proc.devRef .tc main_v0_0) = W c (Proc.devRef .tc main_v0_0) :=
  Wout5_of_ne_dev W c _ (StableHlo.devRef_ne_of_ne (by decide)) (StableHlo.devRef_ne_of_ne (by decide))
theorem Wout5_main_v5 (c : Dev nD) : Wout5 W c (Proc.devRef .tc main_v5) = W c (Proc.devRef .tc main_v5) :=
  Wout5_of_ne_dev W c _ (StableHlo.devRef_ne_of_ne (by decide)) (StableHlo.devRef_ne_of_ne (by decide))
theorem Wout5_main_v6 (c : Dev nD) : Wout5 W c (Proc.devRef .tc main_v6) = W c (Proc.devRef .tc main_v6) :=
  Wout5_of_ne_dev W c _ (StableHlo.devRef_ne_of_ne (by decide)) (StableHlo.devRef_ne_of_ne (by decide))
theorem Wout5_main_v1 (c : Dev nD) : Wout5 W c (Proc.devRef .tc main_v1) = W c (Proc.devRef .tc main_v1) :=
  Wout5_of_ne_dev W c _ (StableHlo.devRef_ne_of_ne (by decide)) (StableHlo.devRef_ne_of_ne (by decide))
theorem Wout5_main_v7 (c : Dev nD) : Wout5 W c (Proc.devRef .tc main_v7) = W c (Proc.devRef .tc main_v7) :=
  Wout5_of_ne_dev W c _ (StableHlo.devRef_ne_of_ne (by decide)) (StableHlo.devRef_ne_of_ne (by decide))
theorem Wout5_main_v8 (c : Dev nD) : Wout5 W c (Proc.devRef .tc main_v8) = W c (Proc.devRef .tc main_v8) :=
  Wout5_of_ne_dev W c _ (StableHlo.devRef_ne_of_ne (by decide)) (StableHlo.devRef_ne_of_ne (by decide))

/-- The eight buffers behind the nine windows' arrays. -/
abbrev arrs5 : List (DevRef τ sig) :=
  [Proc.devRef .tc main_v0_0, Proc.devRef .tc main_v5, Proc.devRef .tc main_v6, Proc.devRef .tc main_v1, Proc.devRef .tc main_v7, Proc.devRef .tc main_v8, Proc.devRef .tc main_v9_0, Proc.devRef .tc main_v9_1]

theorem arrs5_nodup : arrs5.Nodup := by decide

theorem arrs5_sub : arrs5.toFinset ⊆ Pipeline.ucRefs τ sig := by
  intro b hb
  simp only [arrs5, List.toFinset_cons, List.toFinset_nil, Finset.mem_insert, Finset.mem_singleton, insert_empty_eq] at hb
  rcases hb with rfl | rfl | rfl | rfl | rfl | rfl | rfl | rfl <;> exact mem_uc _ (by decide)

/-- Those buffers held at a valuation, one by one. -/
theorem held_arrs5 (c : Dev nD) (X : Valuation τ sig (Elt F)) :
    (StableHlo.held (c : Thread nD τ) arrs5.toFinset X : sProp (MK F))
      = iprop((((c : Thread nD τ).loc main_v0_0) ↦{fullShare} X (Proc.devRef .tc main_v0_0))
          ∗ (((c : Thread nD τ).loc main_v5) ↦{fullShare} X (Proc.devRef .tc main_v5))
          ∗ (((c : Thread nD τ).loc main_v6) ↦{fullShare} X (Proc.devRef .tc main_v6))
          ∗ (((c : Thread nD τ).loc main_v1) ↦{fullShare} X (Proc.devRef .tc main_v1))
          ∗ (((c : Thread nD τ).loc main_v7) ↦{fullShare} X (Proc.devRef .tc main_v7))
          ∗ (((c : Thread nD τ).loc main_v8) ↦{fullShare} X (Proc.devRef .tc main_v8))
          ∗ (((c : Thread nD τ).loc main_v9_0) ↦{fullShare} X (Proc.devRef .tc main_v9_0))
          ∗ (((c : Thread nD τ).loc main_v9_1) ↦{fullShare} X (Proc.devRef .tc main_v9_1))) := by
  unfold StableHlo.held; rw [bigSep_eq_bigSepL _ arrs5_nodup]; rfl

set_option maxHeartbeats 4000000 in
/-- The windows' arrays as the proof data hold them, one by one: the array two windows read is held by each at one half
    of the full share. -/
theorem arrays5_eq (c : Dev nD)
    (Fa : (w : Fin cfg5.W) → Buf (Elt F) ((cfg5.win w).arr.view.loc (c.tc : Thread nD τ))) :
    ((dat5 V c).arrays Fa : sProp (MK F))
      = iprop((((c : Thread nD τ).loc main_v0_0) ↦{fullShare} Fa 0)
          ∗ (((c : Thread nD τ).loc main_v5) ↦{fullShare} Fa 1)
          ∗ (((c : Thread nD τ).loc main_v6) ↦{fullShare} Fa 2)
          ∗ (((c : Thread nD τ).loc main_v1) ↦{fullShare.left} Fa 3)
          ∗ (((c : Thread nD τ).loc main_v1) ↦{fullShare.right} Fa 4)
          ∗ (((c : Thread nD τ).loc main_v7) ↦{fullShare} Fa 5)
          ∗ (((c : Thread nD τ).loc main_v8) ↦{fullShare} Fa 6)
          ∗ (((c : Thread nD τ).loc main_v9_0) ↦{fullShare} Fa 7)
          ∗ (((c : Thread nD τ).loc main_v9_1) ↦{fullShare} Fa 8)) := by
  unfold Dat.arrays
  rw [bigSep_W5, (arr_whole5 0).set_eq_univ, (arr_whole5 1).set_eq_univ, (arr_whole5 2).set_eq_univ, (arr_whole5 3).set_eq_univ,
    (arr_whole5 5).set_eq_univ, (arr_whole5 6).set_eq_univ, (arr_whole5 7).set_eq_univ, (arr_whole5 8).set_eq_univ]
  rfl

set_option maxHeartbeats 4000000 in
set_option backward.isDefEq.respectTransparency.types false in
/-- REGION 5 over the thread state: entered from every unscoped buffer at `W`, left at `Wout5 W`. The eight buffers
    behind its arrays are split out of the unscoped buffers, the one two windows read dealt to them as its two half
    shares, and at the exit joined and put back; the generator register into the invariant and out; nothing owed; no
    semaphore of the kernel's own. -/
def reg5 (pdats : (p : Fin 9) → (c : Dev nD) → Dat τ (Elt F) Unit ℕ (UR sig nD τ) ℕ (Pipeline.pin (pcfgs (F := F)) adm p) c)
    (hK : ∀ c, pdats 5 c = dat5 (V5of W) c) :
    Pipeline.RegionSeg (pcfgs (F := F)) adm pdats () defs₀ 𝒱₀ L lv 5 where
  win := winFacts₀5
  block_pos := block_pos5
  stage_whole := stage_whole5
  K := PEmpty
  osem k := k.elim
  ho := Pipeline.OwnSemFacts.none _
  hbody c := by rw [hK c]; exact (body_obligation5 (V5of W) c).loose
  hwaits := Pipeline.hwaits_of_owed_zero _ _ _ _ L lv 5 fun c _ => by rw [hK c]; rfl
  pre c := iprop(StableHlo.held (c : Thread nD τ) (Pipeline.ucRefs τ sig) (W c) ∗ R c)
  post c := iprop(StableHlo.held (c : Thread nD τ) (Pipeline.ucRefs τ sig) (Wout5 W c) ∗ R c)
  X c := iprop(∃ r, prngReg c r)
  Y c := iprop(∃ r, prngReg c r)
  Z c := StableHlo.held (c : Thread nD τ) (Pipeline.ucRefs τ sig \ arrs5.toFinset) (W c)
  hentry c := by
    rw [Pipeline.ownSems0_none, hK c, arrays5_eq, StableHlo.held_sub_split _ arrs5_sub (W c), held_arrs5]
    iintro ⟨⟨⟨⟨Ha, Hb, Hc, Hd, He, Hf, Hg, Hh⟩, Hrest⟩, Hp, HO⟩, -, -⟩
    ihave Hd' := (pointsTo_share (PosShare.mem_left_op_right fullShare)).1 $$ Hd
    icases Hd' with ⟨Hd1, Hd2⟩
    imodintro
    isplitl [Ha Hb Hc Hd1 Hd2 He Hf Hg Hh]
    · isplitl [Ha]; · iexact Ha
      isplitl [Hb]; · iexact Hb
      isplitl [Hc]; · iexact Hc
      isplitl [Hd1]; · iexact Hd1
      isplitl [Hd2]; · iexact Hd2
      isplitl [He]; · iexact He
      isplitl [Hf]; · iexact Hf
      isplitl [Hg]; · iexact Hg
      iexact Hh
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [hK c, show (dat5 (V5of W) c).Φ 0 = Pipeline.ΦA spec5 c from rfl]; unfold Pipeline.ΦA
    iintro ⟨Hp, -, Hr⟩
    isplitl [Hr]; · iexact Hr
    iexact Hp
  hout c := by
    rw [Pipeline.ownSems0_none, hK c]
    refine (Phi_out5 (V5of W) c _ (by rw [Fin.val_last]; show grid5.N ≠ 0; rw [N_5]; decide)).trans ?_
    unfold Pipeline.ΦA
    iintro ⟨Hr, Hp⟩
    isplitl [Hp]; · iexact Hp
    isplitr; · iempintro
    iexact Hr
  hexit c := by
    rw [hK c, arrays5_eq, StableHlo.held_sub_split _ arrs5_sub (Wout5 W c), held_arrs5,
      Wout5_main_v0_0, Wout5_main_v5, Wout5_main_v6, Wout5_main_v1, Wout5_main_v7, Wout5_main_v8, Wout5_main_v9_0, Wout5_main_v9_1,
      StableHlo.held_congr _ (V := Wout5 W c) (V' := W c) (fun b hb => Wout5_of_ne_dev W c b
        (fun e => (Finset.mem_sdiff.mp hb).2 (e ▸ by decide)) (fun e => (Finset.mem_sdiff.mp hb).2 (e ▸ by decide)))]
    beta_reduce
    rw [(dat5 (V5of W) c).arrAt_in 0 rfl, (dat5 (V5of W) c).arrAt_in 1 rfl, (dat5 (V5of W) c).arrAt_in 2 rfl, (dat5 (V5of W) c).arrAt_in 3 rfl, (dat5 (V5of W) c).arrAt_in 4 rfl, (dat5 (V5of W) c).arrAt_in 5 rfl, (dat5 (V5of W) c).arrAt_in 6 rfl]
    iintro ⟨⟨Ha, Hb, Hc, Hd1, Hd2, He, Hf, Hg, Hh⟩, HO, HY, Hrest⟩
    imodintro
    isplitl [Ha Hb Hc Hd1 Hd2 He Hf Hg Hh Hrest]
    · isplitl [Ha Hb Hc Hd1 Hd2 He Hf Hg Hh]
      · isplitl [Ha]; · iexact Ha
        isplitl [Hb]; · iexact Hb
        isplitl [Hc]; · iexact Hc
        isplitl [Hd1 Hd2]
        · iapply (pointsTo_share (PosShare.mem_left_op_right fullShare)).2
          isplitl [Hd1]; · iexact Hd1
          iexact Hd2
        isplitl [He]; · iexact He
        isplitl [Hf]; · iexact Hf
        isplitl [Hg]; · iexact Hg
        iexact Hh
      iexact Hrest
    isplitl [HY]; · iexact HY
    unfold Pipeline.Dat.owesAt Pipeline.owesWithin
    icases HO with ⟨%W', -, HO⟩; iexists W'; iexact HO

theorem reg5_pre (pdats : (p : Fin 9) → (c : Dev nD) → Dat τ (Elt F) Unit ℕ (UR sig nD τ) ℕ (Pipeline.pin (pcfgs (F := F)) adm p) c)
    (hK : ∀ c, pdats 5 c = dat5 (V5of W) c) (c : Dev nD) :
    (reg5 W pdats hK).pre c = iprop(StableHlo.held (c : Thread nD τ) (Pipeline.ucRefs τ sig) (W c) ∗ R c) := rfl
theorem reg5_post (pdats : (p : Fin 9) → (c : Dev nD) → Dat τ (Elt F) Unit ℕ (UR sig nD τ) ℕ (Pipeline.pin (pcfgs (F := F)) adm p) c)
    (hK : ∀ c, pdats 5 c = dat5 (V5of W) c) (c : Dev nD) :
    (reg5 W pdats hK).post c = iprop(StableHlo.held (c : Thread nD τ) (Pipeline.ucRefs τ sig) (Wout5 W c) ∗ R c) := rfl

end Seg5

end Cert.Kernel.Hand

end
-- ==== Proof.LibAcc.lean ====
/-
  General facts about a buffer stored through the rectangle that covers its whole shape: the last such store decides
  what the buffer reads, whatever was stored before it.
-/
import Idealize.ShloMosaic.Lib.Pipeline.FrameBody
import Idealize.ShloMosaic.Lib.Pipeline.Value

namespace Idealize.ShloMosaic.View

variable {Val : EltTy → Type} {S : Shape} {e : EltTy}

/-- A store through the whole-shape rectangle at zero offsets, made last, leaves its payload, whatever the earlier
    stores and the first contents were. -/
theorem read_writes_cons_unit_zero [∀ e, Nonempty (Val e)] {sig : RefSig} {κ : Kind} {sp : Space} (v : View sig κ sp S e)
    (f : v.ty.Contents Val) {off : Fin S.rank → Nat} (h : off = fun _ => 0) (inb : ∀ a, off a + S.size a ≤ S.size a)
    (w : S.Idx → Val e) (L : List (Piece Val S e)) :
    v.read Val (v.writes Val f ((⟨Rect.unit off S.size inb, w⟩ : Piece Val S e) :: L)) = w := by
  subst h
  rw [read_writes_eq_canon _ _ _ (fun y => ⟨_, List.mem_cons_self, by
    show y ∈ (Rect.whole S).set; rw [Rect.set_whole]; exact Finset.mem_univ y⟩), canon_cons_unit_zero rfl]

end Idealize.ShloMosaic.View
-- ==== Proof.KB.Reg6.lean ====
/-
  Region 6 of the nine-region program: the transposed product s1ᵀ·z1 accumulated over the four blocks of the
  contracted axis in a scratch accumulator, the result stored at the last block only. The region's proof data at any
  entry contents, the body's triples in the three cases of its two conditions, the body obligation, and the region as
  a segment of the host program.
-/
import proofs.«105977_j57329223467619_2_alg».proof.Proof.KB.Common
import proofs.«105977_j57329223467619_2_alg».proof.Proof.LibWhole
import proofs.«105977_j57329223467619_2_alg».proof.Proof.LibAcc
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's two conditions over the grid -/

/-- The accumulator is zeroed: the block coordinate of the contracted axis is 0. -/
abbrev cond6_0 (i : grid6.Coords) : Prop := (Scalar.cmpi .ne (Scalar.extui (Scalar.cmpi .eq (BitVec.ofNat 32 (i 2).val) 0#32)) 0#32) = 1#1
/-- The result is stored: that coordinate is the last, 3. -/
abbrev cond6_1 (i : grid6.Coords) : Prop := k6_cond2 i = 1#1

theorem hcond6_0 : ∀ t : Fin cfg6.N, cond6_0 (grid6.coords t) ↔ t.val = 0 :=
  (by decide +kernel : ∀ t : Fin grid6.N, cond6_0 (grid6.coords t) ↔ t.val = 0)
theorem hcond6_1 : ∀ t : Fin cfg6.N, cond6_1 (grid6.coords t) ↔ t.val = 3 :=
  (by decide +kernel : ∀ t : Fin grid6.N, cond6_1 (grid6.coords t) ↔ t.val = 3)

theorem N6 : cfg6.N = 4 := N_6

/-- The two operand windows are never idle; the result window is idle, and not written back, wherever the result is
    not stored, and live where it is. -/
theorem liveAt6_0 : ∀ t : Fin cfg6.N, cfg6.idle 0 (grid6.coords t) = false := by decide +kernel
theorem liveAt6_1 : ∀ t : Fin cfg6.N, cfg6.idle 1 (grid6.coords t) = false := by decide +kernel
theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
theorem liveAt6_2 : ∀ t : Fin cfg6.N, cond6_1 (grid6.coords t) → cfg6.idle 2 (grid6.coords t) = false := by decide +kernel

/-! ## The body's triples -/

/-- The scratch accumulator as a memref. -/
abbrev scM6 : Memref sig .tc .vmem S256x128 .f32 := Memref.whole cc6_scratch0

set_option maxHeartbeats 1000000 in
/-- First block: the accumulator, whatever it held, ends at the zero fill plus this block's product; the result
    buffer is not touched. -/
theorem sound_kernel6_A (c : Dev nD) (E : Set ℕ) (i : grid6.Coords)
    (arg3 : Memref sig .tc .vmem S2048x256 .bf16) (harg3 : arg3.IsWhole) (arg4 : Memref sig .tc .vmem S2048x128 .f32) (harg4 : arg4.IsWhole)
    (arg5 : Memref sig .tc .vmem S256x128 .f32) (harg5 : arg5.IsWhole) (arg6 : Memref sig .tc .vmem S256x128 .f32) (harg6 : arg6.IsWhole)
    (hc0 : cond6_0 i) (hc1 : ¬cond6_1 i)
    (x0 : Vec F S2048x256 .bf16) (x1 : Vec F S2048x128 .f32) (xi : Vec F S256x128 .f32) (K : PUnit → sProp (MK F)) :
    iprop(owns (c : Thread nD τ) arg3 fullShare x0 ∗ owns (c : Thread nD τ) arg4 fullShare x1 ∗ owns (c : Thread nD τ) arg5 fullShare xi
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi
            ∗ owns (c : Thread nD τ) arg6 fullShare (k6_pay2 x0 x1 (k6_pay1 (F := F)))) -∗ K ⟨⟩))
      ⊢ wp frame (wpE (defs₀ (F := F)) Variants.none c none) E (cc6_kernel i arg3 harg3 arg4 harg4 arg5 harg5 arg6 harg6) K := by
  simp only [cc6_kernel_eq_skeleton]; unfold cc6_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_cons_unit_zero _ _ View.zero_offsets2, View.readCov_unit_zero _ View.zero_offsets2,
    View.readAt_unit_zero _ _ View.zero_offsets2, View.readAt_unit_zero _ _ View.zero_offsets2]

set_option maxHeartbeats 1000000 in
/-- A middle block: the accumulator gains this block's product; the result buffer is not touched. -/
theorem sound_kernel6_B (c : Dev nD) (E : Set ℕ) (i : grid6.Coords)
    (arg3 : Memref sig .tc .vmem S2048x256 .bf16) (harg3 : arg3.IsWhole) (arg4 : Memref sig .tc .vmem S2048x128 .f32) (harg4 : arg4.IsWhole)
    (arg5 : Memref sig .tc .vmem S256x128 .f32) (harg5 : arg5.IsWhole) (arg6 : Memref sig .tc .vmem S256x128 .f32) (harg6 : arg6.IsWhole)
    (hc0 : ¬cond6_0 i) (hc1 : ¬cond6_1 i)
    (x0 : Vec F S2048x256 .bf16) (x1 : Vec F S2048x128 .f32) (xi : Vec F S256x128 .f32) (xs : Vec F S256x128 .f32) (K : PUnit → sProp (MK F)) :
    iprop(owns (c : Thread nD τ) arg3 fullShare x0 ∗ owns (c : Thread nD τ) arg4 fullShare x1 ∗ owns (c : Thread nD τ) arg5 fullShare xi
        ∗ owns (c : Thread nD τ) arg6 fullShare xs
        ∗ (iprop(owns (c : Thread nD τ) arg3 fullShare x0 ∗ owns (c : Thread nD τ) arg4 fullShare x1 ∗ owns (c : Thread nD τ) arg5 fullShare xi
            ∗ owns (c : Thread nD τ) arg6 fullShare (k6_pay2 x0 x1 xs)) -∗ K ⟨⟩))
      ⊢ wp frame (wpE (defs₀ (F := F)) Variants.none c none) E (cc6_kernel i arg3 harg3 arg4 harg4 arg5 harg5 arg6 harg6) K := by
  simp only [cc6_kernel_eq_skeleton]; unfold cc6_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_cons_unit_zero _ _ View.zero_offsets2, View.readAt_unit_zero _ _ View.zero_offsets2,
    View.readAt_unit_zero _ _ View.zero_offsets2, View.readAt_unit_zero _ _ View.zero_offsets2]

set_option maxHeartbeats 1000000 in
/-- Last block: the accumulator gains this block's product and the result buffer, whatever it held, ends at the
    accumulator. -/
theorem sound_kernel6_C (c : Dev nD) (E : Set ℕ) (i : grid6.Coords)
    (arg3 : Memref sig .tc .vmem S2048x256 .bf16) (harg3 : arg3.IsWhole) (arg4 : Memref sig .tc .vmem S2048x128 .f32) (harg4 : arg4.IsWhole)
    (arg5 : Memref sig .tc .vmem S256x128 .f32) (harg5 : arg5.IsWhole) (arg6 : Memref sig .tc .vmem S256x128 .f32) (harg6 : arg6.IsWhole)
    (hc0 : ¬cond6_0 i) (hc1 : cond6_1 i)
    (x0 : Vec F S2048x256 .bf16) (x1 : Vec F S2048x128 .f32) (xs : Vec F S256x128 .f32) (K : PUnit → sProp (MK F)) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (k6_pay2 x0 x1 xs)
            ∗ owns (c : Thread nD τ) arg6 fullShare (k6_pay2 x0 x1 xs)) -∗ K ⟨⟩))
      ⊢ wp frame (wpE (defs₀ (F := F)) Variants.none c none) E (cc6_kernel i arg3 harg3 arg4 harg4 arg5 harg5 arg6 harg6) K := by
  simp only [cc6_kernel_eq_skeleton]; unfold cc6_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_cons_unit_zero _ _ View.zero_offsets2, View.readCov_unit_zero _ View.zero_offsets2,
      View.readAt_unit_zero _ _ View.zero_offsets2, View.readAt_unit_zero _ _ View.zero_offsets2, View.readAt_unit_zero _ _ View.zero_offsets2]
  iexists _; isplitr
  swap; · iexact HS
  ipureintro
  sl_unfold_run_names
  rw [View.read_writes_cons_unit_zero _ _ View.zero_offsets2, View.readAt_unit_zero _ _ View.zero_offsets2,
    View.readAt_unit_zero _ _ View.zero_offsets2, View.readAt_unit_zero _ _ View.zero_offsets2]

section Region6

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An operand window's current staging buffer holds its block at every point, for any proof data whose array is the
    entry contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The accumulator after each point -/

/-- What the scratch accumulator holds after the body at position `n`: the zero fill plus the products of the blocks
    0 … n, added one after the other. -/
def acc6 (c : Dev nD) : (n : ℕ) → n < cfg6.N → Vec F S256x128 .f32
  | 0, hn => k6_pay2 (iblk6 V c 0 ⟨0, hn⟩) (iblk6 V c 1 ⟨0, hn⟩) (k6_pay1 (F := F))
  | n + 1, hn => k6_pay2 (iblk6 V c 0 ⟨n + 1, hn⟩) (iblk6 V c 1 ⟨n + 1, hn⟩) (acc6 c n (Nat.lt_of_succ_lt hn))

theorem acc6_zero (c : Dev nD) (t : Fin cfg6.N) (h0 : t.val = 0) :
    acc6 V c t.val t.isLt = k6_pay2 (iblk6 V c 0 t) (iblk6 V c 1 t) (k6_pay1 (F := F)) := by
  obtain ⟨n, hn⟩ := t
  cases n with
  | zero => rfl
  | succ n => exact absurd h0 (Nat.succ_ne_zero n)

theorem acc6_pos (c : Dev nD) (t : Fin cfg6.N) (h0 : t.val ≠ 0) :
    acc6 V c t.val t.isLt = k6_pay2 (iblk6 V c 0 t) (iblk6 V c 1 t) (acc6 V c (t.val - 1) (Nat.lt_of_le_of_lt (Nat.sub_le _ _) t.isLt)) := by
  obtain ⟨n, hn⟩ := t
  cases n with
  | zero => exact absurd rfl h0
  | succ n => rfl

/-! ## The region invariant -/

/-- The invariant before position `n`: before the first point every scoped buffer no window stages at anything and the
    generator register at some state; afterwards the scratch accumulator at what the point before left, the other such
    scoped buffers at anything, the register at some state. -/
def PhiS6 (c : Dev nD) : (n : ℕ) → n ≤ cfg6.N → sProp (MK F)
  | 0, _ => Pipeline.ΦA spec6 c
  | n + 1, hn => iprop(iprop(owns (c : Thread nD τ) scM6 fullShare (acc6 V c n hn)
      ∗ Pipeline.scopedRestBut (Ix := Unit) (Name := ℕ) (U := UR sig nD τ) (Lvl := ℕ) (Val := Elt F) spec6 c [cc6_scratch0]) ∗ (∃ r, prngReg c r))

theorem PhiA6_eq (c : Dev nD) :
    (Pipeline.ΦA spec6 c : sProp (MK F))
      = iprop(iprop((∃ d, owns (c : Thread nD τ) scM6 fullShare d)
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6 fullShare (acc6 V c n hn)
      ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6 fullShare (acc6 V c (n - 1) (by omega))
      ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The proof data -/

/-- The proof data of the pipeline on core `c`: the arrays as the region finds them; after the body each operand's
    buffer at its block and the result's at the accumulator; the invariant carrying the accumulator; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val t.isLt
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c t.val t.isLt := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation -/

abbrev ms6_0 (t : Fin cfg6.N) : Memref sig .tc .vmem S2048x256 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2048x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S256x128 .f32 := win6_2.stage (cfg6.slots t 2)
abbrev hs6_2 (t : Fin cfg6.N) : (ms6_2 t).IsWhole := hstage6_2 ((cfg6.slots t 2).cast nbuf6_2)

/-- What the body is called with at point `t`, -/
def bodyPre6 (c : Dev nD) (t : Fin cfg6.N) : sProp (MK F) :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns. -/
def bodyPost6 (c : Dev nD) (t : Fin cfg6.N) : sProp (MK F) :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point: the operands' buffers hold their blocks; the point's position decides the case; the
    invariant hands the body the accumulator at what the point before left (at anything at the first point) and takes it
    back at this point's contents. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  have hN : t.val < 4 := lt_of_lt_of_eq t.isLt N6
  by_cases h0 : t.val = 0
  · have h1 : ¬t.val = 3 := by omega
    rw [Dat.leavesExact_idle (dat6 V c) 2 t (idleAt6_2 t (fun h => h1 ((hcond6_1 t).mp h))) (noFlush6_2 t (fun h => h1 ((hcond6_1 t).mp h)))]
    rw [acc6_zero V c t h0]
    rw [PhiS6_castSucc V c t, PhiS6_zero V c _ _ h0, PhiA6_eq]
    iintro ⟨⟨⟨HS, Hrest⟩, Hg⟩, Ho, ⟨%d0, H0⟩, ⟨%d1, H1⟩, ⟨%d2, H2⟩⟩
    iapply (sound_kernel6_A c Set.univ (grid6.coords t) _ _ _ _ _ _ _ _ ((hcond6_0 t).mpr h0) (fun h => h1 ((hcond6_1 t).mp h)) (iblk6 V c 0 t) (iblk6 V c 1 t) _ _)
    isplitl [H0]; · iexact H0
    isplitl [H1]; · iexact H1
    isplitl [H2]; · iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexists _; iexact H2
  · by_cases h1 : t.val = 3
    · rw [show (dat6 V c).leavesExact 2 t = owns (c : Thread nD τ) (ms6_2 t) fullShare ((dat6 V c).after 2 t) from by
        unfold Dat.leavesExact; rw [liveAt6_2 t ((hcond6_1 t).mpr h1)], after6_2]
      rw [acc6_pos V c t h0]
      rw [PhiS6_castSucc V c t, PhiS6_pos V c _ _ h0]
      iintro ⟨⟨⟨HS, Hrest⟩, Hg⟩, Ho, ⟨%d0, H0⟩, ⟨%d1, H1⟩, ⟨%d2, H2⟩⟩
      iapply (sound_kernel6_C c Set.univ (grid6.coords t) _ _ _ _ _ _ _ _ (fun h => h0 ((hcond6_0 t).mp h)) ((hcond6_1 t).mpr h1) (iblk6 V c 0 t) (iblk6 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat6 V c) 2 t (idleAt6_2 t (fun h => h1 ((hcond6_1 t).mp h))) (noFlush6_2 t (fun h => h1 ((hcond6_1 t).mp h)))]
      rw [acc6_pos V c t h0]
      rw [PhiS6_castSucc V c t, PhiS6_pos V c _ _ h0]
      iintro ⟨⟨⟨HS, Hrest⟩, Hg⟩, Ho, ⟨%d0, H0⟩, ⟨%d1, H1⟩, ⟨%d2, H2⟩⟩
      iapply (sound_kernel6_B c Set.univ (grid6.coords t) _ _ _ _ _ _ _ _ (fun h => h0 ((hcond6_0 t).mp h)) (fun h => h1 ((hcond6_1 t).mp h)) (iblk6 V c 0 t) (iblk6 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives it back: the accumulator's contents are forgotten. -/
theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 4 := N6; omega), PhiA6_eq]
  iintro ⟨⟨HS, Hrest⟩, Hg⟩
  isplitl [HS Hrest]
  · isplitl [HS]; · iexists _; iexact HS
    iexact Hrest
  iexact Hg

end Region6

/-! ## The region as a segment of the host program -/

section Seg6

variable (W : Dev nD → Valuation τ sig (Elt F))

/-- The entry contents read at the TensorCore's references. -/
abbrev V6 : (c : Dev nD) → (b : Ref sig .tc) → Buf (Elt F) ((c : Thread nD τ).loc b) := fun c b => W c b

/-- The contents at the region's exit: its arrays at what the pipeline leaves, every other buffer as entered. -/
def Wout6 (c : Dev nD) : Valuation τ sig (Elt F) :=
  Pipeline.withArrays spec6 c (W c) fun w => (dat6 (V6 W) c).arrAt w cfg6.N

theorem Wout6_arr (c : Dev nD) (w : Fin cfg6.W) :
    Wout6 W c (Proc.devRef .tc (Pipeline.arrRef spec6 w)) = (dat6 (V6 W) c).arrAt w cfg6.N := by
  unfold Wout6; exact Pipeline.withArrays_arr spec6 launch6.win.arr_inj c _ _ w

theorem Wout6_of_ne (c : Dev nD) (b : Ref sig .tc) (hb : ∀ w, Pipeline.arrRef spec6 w ≠ b) :
    Wout6 W c (Proc.devRef .tc b) = W c (Proc.devRef .tc b) := by
  unfold Wout6; exact Pipeline.withArrays_of_ne spec6 c _ _ b hb

/-- The two operand arrays leave as they entered. -/
theorem Wout6_main_v9_1 (c : Dev nD) : Wout6 W c (Proc.devRef .tc main_v9_1) = W c (Proc.devRef .tc main_v9_1) :=
  (Wout6_arr W c 0).trans (((dat6 (V6 W) c).arrAt_in 0 rfl _).trans (A_eq6 (V6 W) c 0))
theorem Wout6_main_v9_0 (c : Dev nD) : Wout6 W c (Proc.devRef .tc main_v9_0) = W c (Proc.devRef .tc main_v9_0) :=
  (Wout6_arr W c 1).trans (((dat6 (V6 W) c).arrAt_in 1 rfl _).trans (A_eq6 (V6 W) c 1))
/-- The result array leaves at the pipeline's write-backs. -/
theorem Wout6_main_v10 (c : Dev nD) : Wout6 W c (Proc.devRef .tc main_v10) = (dat6 (V6 W) c).arrAt 2 cfg6.N :=
  Wout6_arr W c 2

theorem hF6 (c : Dev nD) (w : Fin cfg6.W) : (dat6 (V6 W) c).arrAt w cfg6.N = (fun b : Ref sig .tc => Wout6 W c b) (Pipeline.arrRef spec6 w) :=
  (Wout6_arr W c w).symm
theorem hrest6 (c : Dev nD) : ∀ b, b ∉ Finset.univ.image (Pipeline.arrRef spec6) → (fun b : Ref sig .tc => Wout6 W c b) b = V6 W c b :=
  fun b hb => Wout6_of_ne W c b fun w e => hb (Finset.mem_image.mpr ⟨w, Finset.mem_univ _, e⟩)

set_option backward.isDefEq.respectTransparency.types false in
/-- Region 6 over the thread state: entered from every unscoped buffer at `W`, left at `Wout6 W`. Its arrays are
    split out of the unscoped buffers and put back at the exit contents; the generator register goes into the
    invariant and comes back; nothing owed; no semaphore of the kernel's own. -/
def reg6 (pdats : (p : Fin 9) → (c : Dev nD) → Dat τ (Elt F) Unit ℕ (UR sig nD τ) ℕ (Pipeline.pin (pcfgs (F := F)) adm p) c)
    (hK : ∀ c, pdats 6 c = dat6 (V6 W) c) :
    Pipeline.RegionSeg (pcfgs (F := F)) adm pdats () defs₀ 𝒱₀ L lv 6 where
  win := launch6.win.to₀
  block_pos := launch6.block_pos
  stage_whole := launch6.stage_whole
  K := PEmpty
  osem k := k.elim
  ho := Pipeline.OwnSemFacts.none _
  hbody c := by rw [hK c]; exact (body_obligation6 (V6 W) c).loose
  hwaits := Pipeline.hwaits_of_owed_zero _ _ _ _ L lv 6 fun c t => by rw [hK c]; rfl
  pre c := iprop(StableHlo.held (c : Thread nD τ) (Pipeline.ucRefs τ sig) (W c) ∗ R c)
  post c := iprop(StableHlo.held (c : Thread nD τ) (Pipeline.ucRefs τ sig) (Wout6 W c) ∗ R c)
  X c := iprop(∃ r, prngReg c r)
  Y c := iprop(∃ r, prngReg c r)
  Z c := Pipeline.unscopedRest (Ix := Unit) (Name := ℕ) (U := UR sig nD τ) (Lvl := ℕ) spec6 c (V6 W c)
  hentry c := by
    rw [Pipeline.ownSems0_none]
    have hsh : ∀ w, (pdats 6 c).share w = fullShare := by rw [hK c]; exact (dat6 (V6 W) c).share_full fun _ => rfl
    have hsplit := Pipeline.arrays_of_unscopedBufs (p := 6) (pcfgs (F := F)) adm pdats launch6.win launch6.arr_whole c
      hsh (V6 W c) (fun w => by rw [hK c]; rfl)
    rw [Pipeline.unscopedBufs_held] at hsplit
    rw [hK c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [hK c, show (dat6 (V6 W) c).Φ 0 = Pipeline.ΦA spec6 c from rfl]; unfold Pipeline.ΦA
    iintro ⟨Hp, -, Hr⟩
    isplitl [Hr]; · iexact Hr
    iexact Hp
  hout c := by
    rw [Pipeline.ownSems0_none, hK c]
    refine (hout6 (V6 W) c).trans ?_
    unfold Pipeline.ΦA
    iintro ⟨Hr, Hp⟩
    isplitl [Hp]; · iexact Hp
    isplitr; · iempintro
    iexact Hr
  hexit c := by
    have hsh : ∀ w, (pdats 6 c).share w = fullShare := by rw [hK c]; exact (dat6 (V6 W) c).share_full fun _ => rfl
    have hjoin := Pipeline.unscopedBufs_of_arrays (p := 6) (pcfgs (F := F)) adm (Ix := Unit) (Name := ℕ) (U := UR sig nD τ) (Lvl := ℕ)
      launch6.win launch6.arr_whole c pdats hsh
      (V6 W c) (fun b : Ref sig .tc => Wout6 W c b) ((pdats 6 c).arrAt · cfg6.N) (fun w => by rw [hK c]; exact hF6 W c w) (hrest6 W c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W', -, HO⟩; iexists W'; rw [hK c]; iexact HO

theorem reg6_pre (pdats : (p : Fin 9) → (c : Dev nD) → Dat τ (Elt F) Unit ℕ (UR sig nD τ) ℕ (Pipeline.pin (pcfgs (F := F)) adm p) c)
    (hK : ∀ c, pdats 6 c = dat6 (V6 W) c) (c : Dev nD) :
    (reg6 W pdats hK).pre c = iprop(StableHlo.held (c : Thread nD τ) (Pipeline.ucRefs τ sig) (W c) ∗ R c) := rfl
theorem reg6_post (pdats : (p : Fin 9) → (c : Dev nD) → Dat τ (Elt F) Unit ℕ (UR sig nD τ) ℕ (Pipeline.pin (pcfgs (F := F)) adm p) c)
    (hK : ∀ c, pdats 6 c = dat6 (V6 W) c) (c : Dev nD) :
    (reg6 W pdats hK).post c = iprop(StableHlo.held (c : Thread nD τ) (Pipeline.ucRefs τ sig) (Wout6 W c) ∗ R c) := rfl

end Seg6

end Cert.Kernel.Hand

end
-- ==== Proof.LibCover.lean ====
/-
  Two general facts about reading a buffer after stores, when the LAST store wrote the whole buffer: a load through any
  rectangle then reads that store's payload through the rectangle, whatever was stored before.
-/
import Idealize.ShloMosaic.Lib.Pipeline.FrameBody
import Idealize.ShloMosaic.Lib.Pipeline.Value

namespace Idealize.ShloMosaic.View

variable {Val : EltTy → Type} {S : Shape} {e : EltTy}

/-- After a last store of `w` through the whole-shape rectangle at zero offsets, a covered load through a rectangle
    `r` reads `w` at `r`'s indices. -/
theorem readCov_cons_whole_ld [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) (r : Rect S) :
    v.readCov ((⟨Rect.unit off S.size inb, w⟩ : Piece Val S e) :: L) r.toLoadRect = View.ld w r := by
  subst h
  rw [readCov_eq_canon_ld _ _ _ (fun y => ⟨_, List.mem_cons_self, by
    show y ∈ (Rect.whole S).set; rw [Rect.set_whole]; exact Finset.mem_univ y⟩), canon_cons_unit_zero rfl]

end Idealize.ShloMosaic.View
-- ==== Proof.KB.Reg7.lean ====
/-
  Region 7 of the nine-region program: the transposed, scaled matrix product. Over a grid of 8 column blocks by 4 steps
  along the contracted axis, the body scales the rows of a left block by a column of factors, multiplies its transpose
  by a right block, adds the product into an accumulator kept across the four steps (zeroed at the first), and at the
  last step stores the accumulator, each column scaled by a row of factors, into the output block.
  Stated at the contents V the region is entered with: the windows' blocks, the body's triple in each case of its two
  conditions, the accumulator point by point, the proof data, the body obligation, and the region as a segment between
  two thread states.
-/
import proofs.«105977_j57329223467619_2_alg».proof.Proof.KB.Common
import proofs.«105977_j57329223467619_2_alg».proof.Proof.LibWhole
import proofs.«105977_j57329223467619_2_alg».proof.Proof.LibCover
import Idealize.ShloMosaic.Lib.Pipeline.FrameBody
import Idealize.ShloMosaic.Lib.Pipeline.Value
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's two conditions, decided over the grid -/

/-- The first condition of the body: the step along the contracted axis is the first one. -/
abbrev cond7_0 (i : grid7.Coords) : Prop := (Scalar.cmpi .ne (Scalar.extui (Scalar.cmpi .eq (BitVec.ofNat 32 (i 2).val) 0#32)) 0#32) = 1#1
/-- The second condition: the step is the last one. -/
abbrev cond7_1 (i : grid7.Coords) : Prop := k7_cond2 i = 1#1

theorem hcond7_0 : ∀ t : Fin cfg7.N, cond7_0 (grid7.coords t) ↔ t.val % 4 = 0 :=
  (by decide +kernel : ∀ t : Fin grid7.N, cond7_0 (grid7.coords t) ↔ t.val % 4 = 0)
theorem hcond7_1 : ∀ t : Fin cfg7.N, cond7_1 (grid7.coords t) ↔ t.val % 4 = 3 :=
  (by decide +kernel : ∀ t : Fin grid7.N, cond7_1 (grid7.coords t) ↔ t.val % 4 = 3)

/-- The four input windows are never idle. -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
/-- The output window is idle, and not written back, away from the last step; live at the last step. -/
theorem idleAt7_4 : ∀ t : Fin cfg7.N, ¬cond7_1 (grid7.coords t) → cfg7.idle 4 (grid7.coords t) = true := by decide +kernel
theorem noFlush7_4 : ∀ t : Fin cfg7.N, ¬cond7_1 (grid7.coords t) → (cfg7.win 4).flush t = false := by decide +kernel
theorem liveAt7_4 : ∀ t : Fin cfg7.N, cond7_1 (grid7.coords t) → cfg7.idle 4 (grid7.coords t) = false := by decide +kernel

/-! ## Reading a buffer through the rectangle that covers it -/

/-- After a last store through the whole-shape rectangle, the buffer reads as that store's payload, whatever came before. -/
theorem read_writes_cons_whole7 {Val : EltTy → Type} [∀ e, Nonempty (Val e)] {S : Shape} {e : EltTy} {sg : RefSig} {κ : Kind} {sp : Space}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_of_cover_last (v := v) (f := f) v f _ L [] (fun y => by
    subst h; show y ∈ (Rect.whole S).set; rw [Rect.set_whole]; exact Finset.mem_univ y)]
  exact View.read_writes_unit_zero v f h inb w

/-! ## The body's triple, case by case -/

set_option maxHeartbeats 1000000 in
/-- FIRST STEP: the accumulator is zeroed, then the product of the scaled left block and the right block is added. -/
theorem run7_A (c : Dev nD) (i : grid7.Coords)
    (arg3 : Memref sig .tc .vmem S2048x256 .bf16) (harg3 : arg3.IsWhole) (arg4 : Memref sig .tc .vmem S2048x1024 .bf16) (harg4 : arg4.IsWhole)
    (arg5 : Memref sig .tc .vmem S2048x1 .f32) (harg5 : arg5.IsWhole) (arg6 : Memref sig .tc .vmem S1x1024 .f32) (harg6 : arg6.IsWhole)
    (arg7 : Memref sig .tc .vmem S256x1024 .bf16) (harg7 : arg7.IsWhole) (arg8 : Memref sig .tc .vmem S256x1024 .f32) (harg8 : arg8.IsWhole)
    (hc0 : cond7_0 i) (hc1 : ¬cond7_1 i)
    (x0 : Vec F S2048x256 .bf16) (x1 : Vec F S2048x1024 .bf16) (x2 : Vec F S2048x1 .f32) (x3 : Vec F S1x1024 .f32)
    (xo : Vec F S256x1024 .bf16) (E : Set ℕ) (K : PUnit → sProp (MK F)) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xo
            ∗ owns (c : Thread nD τ) arg8 fullShare (k7_pay2 x2 x0 x1 (k7_pay1 (F := F)))) -∗ K ⟨⟩))
      ⊢ wp frame (wpE (defs₀ (F := F)) Variants.none c none) E (cc7_kernel i arg3 harg3 arg4 harg4 arg5 harg5 arg6 harg6 arg7 harg7 arg8 harg8) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%fo, %hfo, Ho⟩, ⟨%xs, %fs, -, Hs⟩, Hk⟩
  sl_exec (disch := first | exact hc0 | exact hc1)
  sl_step
  iapply Hk
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [Ho]; · iexists fo; isplitr; · ipureintro; exact hfo
                  iexact Ho
  iexists _; isplitr
  swap; · iexact Hs
  ipureintro
  sl_unfold_run_names
  rw [read_writes_cons_whole7 (S := S256x1024) _ _ View.zero_offsets2,
    View.readAt_unit_zero (S := S2048x1) _ _ View.zero_offsets2, View.readAt_unit_zero (S := S2048x256) _ _ View.zero_offsets2,
    View.readAt_unit_zero (S := S2048x1024) _ _ View.zero_offsets2, View.readCov_cons_whole_ld (S := S256x1024) _ View.zero_offsets2,
    View.ld_unit_zero View.zero_offsets2, hf0, hf1, hf2]

set_option maxHeartbeats 1000000 in
/-- A MIDDLE STEP: the product is added to the accumulator as found. -/
theorem run7_B (c : Dev nD) (i : grid7.Coords)
    (arg3 : Memref sig .tc .vmem S2048x256 .bf16) (harg3 : arg3.IsWhole) (arg4 : Memref sig .tc .vmem S2048x1024 .bf16) (harg4 : arg4.IsWhole)
    (arg5 : Memref sig .tc .vmem S2048x1 .f32) (harg5 : arg5.IsWhole) (arg6 : Memref sig .tc .vmem S1x1024 .f32) (harg6 : arg6.IsWhole)
    (arg7 : Memref sig .tc .vmem S256x1024 .bf16) (harg7 : arg7.IsWhole) (arg8 : Memref sig .tc .vmem S256x1024 .f32) (harg8 : arg8.IsWhole)
    (hc0 : ¬cond7_0 i) (hc1 : ¬cond7_1 i)
    (x0 : Vec F S2048x256 .bf16) (x1 : Vec F S2048x1024 .bf16) (x2 : Vec F S2048x1 .f32) (x3 : Vec F S1x1024 .f32)
    (xo : Vec F S256x1024 .bf16) (xs : Vec F S256x1024 .f32) (E : Set ℕ) (K : PUnit → sProp (MK F)) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xo
            ∗ owns (c : Thread nD τ) arg8 fullShare (k7_pay2 x2 x0 x1 xs)) -∗ K ⟨⟩))
      ⊢ wp frame (wpE (defs₀ (F := F)) Variants.none c none) E (cc7_kernel i arg3 harg3 arg4 harg4 arg5 harg5 arg6 harg6 arg7 harg7 arg8 harg8) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%fo, %hfo, Ho⟩, ⟨%fs, %hfs, Hs⟩, Hk⟩
  sl_exec (disch := first | exact hc0 | exact hc1)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [Ho]
  · iexists fo; isplitr; · ipureintro; exact hfo
    iexact Ho
  iexists _; isplitr
  swap; · iexact Hs
  ipureintro
  sl_unfold_run_names
  rw [read_writes_cons_whole7 (S := S256x1024) _ _ View.zero_offsets2,
    View.readAt_unit_zero (S := S2048x1) _ _ View.zero_offsets2, View.readAt_unit_zero (S := S2048x256) _ _ View.zero_offsets2,
    View.readAt_unit_zero (S := S2048x1024) _ _ View.zero_offsets2, View.readAt_unit_zero (S := S256x1024) _ _ View.zero_offsets2,
    hf0, hf1, hf2, hfs]

set_option maxHeartbeats 1000000 in
/-- THE LAST STEP: the product is added to the accumulator as found, and the accumulator, scaled column by column, is stored
    into the output block, whatever that held. -/
theorem run7_C (c : Dev nD) (i : grid7.Coords)
    (arg3 : Memref sig .tc .vmem S2048x256 .bf16) (harg3 : arg3.IsWhole) (arg4 : Memref sig .tc .vmem S2048x1024 .bf16) (harg4 : arg4.IsWhole)
    (arg5 : Memref sig .tc .vmem S2048x1 .f32) (harg5 : arg5.IsWhole) (arg6 : Memref sig .tc .vmem S1x1024 .f32) (harg6 : arg6.IsWhole)
    (arg7 : Memref sig .tc .vmem S256x1024 .bf16) (harg7 : arg7.IsWhole) (arg8 : Memref sig .tc .vmem S256x1024 .f32) (harg8 : arg8.IsWhole)
    (hc0 : ¬cond7_0 i) (hc1 : cond7_1 i)
    (x0 : Vec F S2048x256 .bf16) (x1 : Vec F S2048x1024 .bf16) (x2 : Vec F S2048x1 .f32) (x3 : Vec F S1x1024 .f32)
    (xs : Vec F S256x1024 .f32) (E : Set ℕ) (K : PUnit → sProp (MK F)) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k7_pay3 (k7_pay2 x2 x0 x1 xs) x3)
            ∗ owns (c : Thread nD τ) arg8 fullShare (k7_pay2 x2 x0 x1 xs)) -∗ K ⟨⟩))
      ⊢ wp frame (wpE (defs₀ (F := F)) Variants.none c none) E (cc7_kernel i arg3 harg3 arg4 harg4 arg5 harg5 arg6 harg6 arg7 harg7 arg8 harg8) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%xo, %fo, -, Ho⟩, ⟨%fs, %hfs, Hs⟩, Hk⟩
  sl_exec (disch := first | exact hc0 | exact hc1)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [Ho]
  · iexists _; isplitr
    swap; · iexact Ho
    ipureintro
    sl_unfold_run_names
    rw [read_writes_cons_whole7 (S := S256x1024) _ _ View.zero_offsets2, View.readCov_cons_whole_ld (S := S256x1024) _ View.zero_offsets2,
      View.ld_unit_zero View.zero_offsets2,
      View.readAt_unit_zero (S := S2048x1) _ _ View.zero_offsets2, View.readAt_unit_zero (S := S2048x256) _ _ View.zero_offsets2,
      View.readAt_unit_zero (S := S2048x1024) _ _ View.zero_offsets2, View.readAt_unit_zero (S := S256x1024) _ _ View.zero_offsets2,
      View.readAt_unit_zero (S := S1x1024) _ _ View.zero_offsets2, hf0, hf1, hf2, hf3, hfs]
  iexists _; isplitr
  swap; · iexact Hs
  ipureintro
  sl_unfold_run_names
  rw [read_writes_cons_whole7 (S := S256x1024) _ _ View.zero_offsets2,
    View.readAt_unit_zero (S := S2048x1) _ _ View.zero_offsets2, View.readAt_unit_zero (S := S2048x256) _ _ View.zero_offsets2,
    View.readAt_unit_zero (S := S2048x1024) _ _ View.zero_offsets2, View.readAt_unit_zero (S := S256x1024) _ _ View.zero_offsets2,
    hf0, hf1, hf2, hfs]

section Region
variable (V : (c : Dev nD) → (b : Ref sig .tc) → Buf (Elt F) ((c : Thread nD τ).loc b))

/-! ## The windows' blocks -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Each input window's current staging buffer holds its block at every point, fetched there or not (unfetched, the
    block index has not moved), for any proof data whose array is the entry contents and whose body leaves the block. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The accumulator, point by point -/

/-- The scratch accumulator as a memref. -/
abbrev scM7 : Memref sig .tc .vmem S256x1024 .f32 := Memref.whole cc7_scratch0

/-- What the accumulator holds after the body at point n: at a first step the product of the point's blocks added to
    zero, at a later step added to what the point before left. -/
def acc7 (c : Dev nD) : (n : ℕ) → n < cfg7.N → Vec F S256x1024 .f32
  | 0, hn => k7_pay2 (iblk7 V c 2 ⟨0, hn⟩) (iblk7 V c 0 ⟨0, hn⟩) (iblk7 V c 1 ⟨0, hn⟩) (k7_pay1 (F := F))
  | n + 1, hn =>
    if (n + 1) % 4 = 0 then k7_pay2 (iblk7 V c 2 ⟨n + 1, hn⟩) (iblk7 V c 0 ⟨n + 1, hn⟩) (iblk7 V c 1 ⟨n + 1, hn⟩) (k7_pay1 (F := F))
    else k7_pay2 (iblk7 V c 2 ⟨n + 1, hn⟩) (iblk7 V c 0 ⟨n + 1, hn⟩) (iblk7 V c 1 ⟨n + 1, hn⟩) (acc7 c n (Nat.lt_of_succ_lt hn))

theorem acc7_first (c : Dev nD) (t : Fin cfg7.N) (h0 : t.val % 4 = 0) :
    acc7 V c t.val t.isLt = k7_pay2 (iblk7 V c 2 t) (iblk7 V c 0 t) (iblk7 V c 1 t) (k7_pay1 (F := F)) := by
  obtain ⟨n, hn⟩ := t
  cases n with
  | zero => rfl
  | succ n => exact if_pos h0

theorem acc7_later (c : Dev nD) (t : Fin cfg7.N) (h0 : ¬t.val % 4 = 0) :
    acc7 V c t.val t.isLt = k7_pay2 (iblk7 V c 2 t) (iblk7 V c 0 t) (iblk7 V c 1 t)
      (acc7 V c (t.val - 1) (Nat.lt_of_le_of_lt (Nat.sub_le _ _) t.isLt)) := by
  obtain ⟨n, hn⟩ := t
  cases n with
  | zero => exact absurd (Nat.zero_mod _) h0
  | succ n => exact if_neg h0

/-! ## The region invariant -/

/-- The class invariant with the accumulator set apart, owned at some contents. -/
theorem PhiA7_eq (c : Dev nD) :
    (Pipeline.ΦA spec7 c : sProp (MK F))
      = iprop(iprop((∃ d, owns (c : Thread nD τ) scM7 fullShare d) ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7, owns_whole]; try rfl

/-- Before the first point the class invariant (the accumulator at anything); before a later point the accumulator at what
    the point before left, the other scoped buffers at anything, the generator register at some state. -/
def PhiS7 (c : Dev nD) : (n : ℕ) → n ≤ cfg7.N → sProp (MK F)
  | 0, _ => Pipeline.ΦA spec7 c
  | n + 1, hn => iprop(iprop(owns (c : Thread nD τ) scM7 fullShare (acc7 V c n hn) ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7 fullShare (acc7 V c n hn) ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) scM7 fullShare (acc7 V c (n - 1) (by omega)) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The proof data -/

/-- The proof data of the region on core c: the arrays as the region finds them; after the body each input's buffer at its
    block and the output's at the accumulator scaled column by column; the invariant carrying the accumulator. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => k7_pay3 (acc7 V c t.val t.isLt) (iblk7 V c 3 t)
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = k7_pay3 (acc7 V c t.val t.isLt) (iblk7 V c 3 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

/-- What the body is called with at point t, the windows one by one, -/
def bodyPre7 (c : Dev nD) (t : Fin cfg7.N) : sProp (MK F) :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp (MK F) :=
  iprop((dat7 V c).Φ t.succ ∗ (dat7 V c).owesAt () t.succ
    ∗ (dat7 V c).leavesExact 0 t ∗ (dat7 V c).leavesExact 1 t ∗ (dat7 V c).leavesExact 2 t
    ∗ (dat7 V c).leavesExact 3 t ∗ (dat7 V c).leavesExact 4 t)

set_option maxHeartbeats 4800000 in
/-- The body at any point: the inputs' buffers hold their blocks; the step along the contracted axis says which case the
    point is in; the invariant hands the body the accumulator at what the point before left (at anything at a first
    step) and takes it back at this point's contents; off the last step the output's buffer goes back as found. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  have hN : t.val < 32 := lt_of_lt_of_eq t.isLt (show cfg7.N = 32 from N_7)
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  rw [show (dat7 V c).leavesExact 2 t = owns (c : Thread nD τ) (st7_2 t) fullShare ((dat7 V c).after 2 t) from by
    unfold Dat.leavesExact; rw [liveAt7_2 t], after7_2]
  rw [show (dat7 V c).leavesExact 3 t = owns (c : Thread nD τ) (st7_3 t) fullShare ((dat7 V c).after 3 t) from by
    unfold Dat.leavesExact; rw [liveAt7_3 t], after7_3]
  by_cases h0 : t.val % 4 = 0
  · have h1 : ¬t.val % 4 = 3 := by omega
    rw [Dat.leavesExact_idle (dat7 V c) 4 t (idleAt7_4 t (fun h => h1 ((hcond7_1 t).mp h))) (noFlush7_4 t (fun h => h1 ((hcond7_1 t).mp h)))]
    rw [acc7_first V c t h0]
    by_cases hz : t.val = 0
    · rw [PhiS7_castSucc V c t, PhiS7_zero V c _ _ hz, PhiA7_eq]
      iintro ⟨⟨⟨HS, Hr⟩, Hg⟩, Ho, ⟨%d0, H0⟩, ⟨%d1, H1⟩, ⟨%d2, H2⟩, ⟨%d3, H3⟩, ⟨%d4, H4⟩⟩
      iapply (run7_A c (grid7.coords t) _ _ _ _ _ _ _ _ _ _ _ _ ((hcond7_0 t).mpr h0) (fun h => h1 ((hcond7_1 t).mp h))
        (iblk7 V c 0 t) (iblk7 V c 1 t) (iblk7 V c 2 t) (iblk7 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS7_castSucc V c t, PhiS7_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (run7_A c (grid7.coords t) _ _ _ _ _ _ _ _ _ _ _ _ ((hcond7_0 t).mpr h0) (fun h => h1 ((hcond7_1 t).mp h))
        (iblk7 V c 0 t) (iblk7 V c 1 t) (iblk7 V c 2 t) (iblk7 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [acc7_later V c t h0, PhiS7_castSucc V c t, PhiS7_pos V c _ _ hz]
    by_cases h1 : t.val % 4 = 3
    · rw [show (dat7 V c).leavesExact 4 t = owns (c : Thread nD τ) (st7_4 t) fullShare ((dat7 V c).after 4 t) from by
        unfold Dat.leavesExact; rw [liveAt7_4 t ((hcond7_1 t).mpr h1)], after7_4, acc7_later V c t h0]
      iintro ⟨⟨⟨HS, Hr⟩, Hg⟩, Ho, ⟨%d0, H0⟩, ⟨%d1, H1⟩, ⟨%d2, H2⟩, ⟨%d3, H3⟩, ⟨%d4, H4⟩⟩
      iapply (run7_C c (grid7.coords t) _ _ _ _ _ _ _ _ _ _ _ _ (fun h => h0 ((hcond7_0 t).mp h)) ((hcond7_1 t).mpr h1)
        (iblk7 V c 0 t) (iblk7 V c 1 t) (iblk7 V c 2 t) (iblk7 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat7 V c) 4 t (idleAt7_4 t (fun h => h1 ((hcond7_1 t).mp h))) (noFlush7_4 t (fun h => h1 ((hcond7_1 t).mp h)))]
      iintro ⟨⟨⟨HS, Hr⟩, Hg⟩, Ho, ⟨%d0, H0⟩, ⟨%d1, H1⟩, ⟨%d2, H2⟩, ⟨%d3, H3⟩, ⟨%d4, H4⟩⟩
      iapply (run7_B c (grid7.coords t) _ _ _ _ _ _ _ _ _ _ _ _ (fun h => h0 ((hcond7_0 t).mp h)) (fun h => h1 ((hcond7_1 t).mp h))
        (iblk7 V c 0 t) (iblk7 V c 1 t) (iblk7 V c 2 t) (iblk7 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point the invariant gives the class invariant back: the accumulator's contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS, Hr⟩, Hg⟩
  isplitl [HS Hr]
  · isplitl [HS]; · iexists _; iexact HS
    iexact Hr
  iexact Hg

theorem hout7 (c : Dev nD) : (dat7 V c).Φ (Fin.last cfg7.N) ⊢ Pipeline.ΦA spec7 c :=
  Phi_out7 V c _ (by rw [Fin.val_last]; have : cfg7.N = 32 := N_7; omega)

end Region

/-! # The region as a segment between two thread states -/

section Segment
variable (W : Dev nD → Valuation τ sig (Elt F))

/-- The entry contents read at the TensorCore's references: what the proof data take. -/
abbrev V7 : (c : Dev nD) → (b : Ref sig .tc) → Buf (Elt F) ((c : Thread nD τ).loc b) := fun c b => W c b

/-- The contents at the region's exit: its arrays at what the write-backs leave (an input as entered), every other buffer
    as entered. -/
def Wout7 (c : Dev nD) : Valuation τ sig (Elt F) :=
  Pipeline.withArrays spec7 c (W c) fun w => (dat7 (V7 W) c).arrAt w cfg7.N

theorem Wout7_arr (c : Dev nD) (w : Fin cfg7.W) :
    Wout7 W c (Proc.devRef .tc (Pipeline.arrRef spec7 w)) = (dat7 (V7 W) c).arrAt w cfg7.N := by
  unfold Wout7; exact Pipeline.withArrays_arr spec7 launch7.win.arr_inj c _ _ w

theorem Wout7_of_ne (c : Dev nD) (b : Ref sig .tc) (hb : ∀ w, Pipeline.arrRef spec7 w ≠ b) :
    Wout7 W c (Proc.devRef .tc b) = W c (Proc.devRef .tc b) := by
  unfold Wout7; exact Pipeline.withArrays_of_ne spec7 c _ _ b hb

/-- An input window's array leaves the region as it entered. -/
theorem Wout7_in (c : Dev nD) (w : Fin cfg7.W) (hw : (cfg7.win w).isOut = false) :
    Wout7 W c (Proc.devRef .tc (Pipeline.arrRef spec7 w)) = W c (Proc.devRef .tc (Pipeline.arrRef spec7 w)) :=
  (Wout7_arr W c w).trans (((dat7 (V7 W) c).arrAt_in w hw _).trans (A_eq7 (V7 W) c w))

theorem Wout7_main_v9_1 (c : Dev nD) : Wout7 W c (Proc.devRef .tc main_v9_1) = W c (Proc.devRef .tc main_v9_1) := Wout7_in W c 0 rfl
theorem Wout7_main_v0_0 (c : Dev nD) : Wout7 W c (Proc.devRef .tc main_v0_0) = W c (Proc.devRef .tc main_v0_0) := Wout7_in W c 1 rfl
theorem Wout7_main_v1 (c : Dev nD) : Wout7 W c (Proc.devRef .tc main_v1) = W c (Proc.devRef .tc main_v1) := Wout7_in W c 2 rfl
theorem Wout7_main_v11 (c : Dev nD) : Wout7 W c (Proc.devRef .tc main_v11) = W c (Proc.devRef .tc main_v11) := Wout7_in W c 3 rfl
/-- The output array leaves the region at what the write-backs of all the points leave. -/
theorem Wout7_main_v12 (c : Dev nD) : Wout7 W c (Proc.devRef .tc main_v12) = (dat7 (V7 W) c).arrAt 4 cfg7.N := Wout7_arr W c 4

set_option backward.isDefEq.respectTransparency.types false in
/-- The region over the thread state "every unscoped buffer at the boundary's contents, the generator register at some
    state, nothing owed": entered from the contents W, left at Wout7 W. Its arrays are split out of the unscoped buffers
    and put back at the exit contents; the generator register goes into the invariant and comes back; no semaphore of the
    kernel's own. -/
def reg7 (pdats : (p : Fin 9) → (c : Dev nD) → Dat τ (Elt F) Unit ℕ (UR sig nD τ) ℕ (Pipeline.pin (pcfgs (F := F)) adm p) c)
    (hK : ∀ c, pdats 7 c = dat7 (V7 W) c) :
    Pipeline.RegionSeg (pcfgs (F := F)) adm pdats () defs₀ 𝒱₀ L lv 7 where
  win := launch7.win.to₀
  block_pos := launch7.block_pos
  stage_whole := launch7.stage_whole
  K := PEmpty
  osem k := k.elim
  ho := Pipeline.OwnSemFacts.none _
  hbody c := by rw [hK c]; exact (body_obligation7 (V7 W) c).loose
  hwaits := Pipeline.hwaits_of_owed_zero _ _ _ _ L lv 7 fun c _ => by rw [hK c]; rfl
  pre c := iprop(StableHlo.held (c : Thread nD τ) (Pipeline.ucRefs τ sig) (W c) ∗ R c)
  post c := iprop(StableHlo.held (c : Thread nD τ) (Pipeline.ucRefs τ sig) (Wout7 W c) ∗ R c)
  X c := iprop(∃ r, prngReg c r)
  Y c := iprop(∃ r, prngReg c r)
  Z c := Pipeline.unscopedRest (Ix := Unit) (Name := ℕ) (U := UR sig nD τ) (Lvl := ℕ) spec7 c (V7 W c)
  hentry c := by
    rw [Pipeline.ownSems0_none]
    have hsplit := Pipeline.arrays_of_unscopedBufs (p := 7) (pcfgs (F := F)) adm pdats launch7.win launch7.arr_whole c
      (fun w => by rw [hK c]; exact (dat7 (V7 W) c).share_full (fun _ => rfl) w) (V7 W c) (fun w => by rw [hK c]; exact A_eq7 (V7 W) c w)
    rw [Pipeline.unscopedBufs_held] at hsplit
    rw [hK c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [hK c]
    refine _root_.Idealize.SL.BI.BIBase.Entails.trans ?_ (hin7 (V7 W) c)
    unfold Pipeline.ΦA
    iintro ⟨Hp, -, Hr⟩
    isplitl [Hr]; · iexact Hr
    iexact Hp
  hout c := by
    rw [Pipeline.ownSems0_none, hK c]
    refine _root_.Idealize.SL.BI.BIBase.Entails.trans (hout7 (V7 W) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c pdats (fun w => by rw [hK c]; exact (dat7 (V7 W) c).share_full (fun _ => rfl) w)
      (V7 W c) (fun b => Wout7 W c b) ((pdats 7 c).arrAt · cfg7.N) (fun w => by rw [hK c]; exact (Wout7_arr W c w).symm)
      (fun b hb => Wout7_of_ne W c b fun w e => hb (Finset.mem_image.mpr ⟨w, Finset.mem_univ _, e⟩))
    rw [Pipeline.unscopedBufs_held] at hjoin
    rw [hK c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W', -, HO⟩; iexists W'; iexact HO

theorem reg7_pre (pdats : (p : Fin 9) → (c : Dev nD) → Dat τ (Elt F) Unit ℕ (UR sig nD τ) ℕ (Pipeline.pin (pcfgs (F := F)) adm p) c)
    (hK : ∀ c, pdats 7 c = dat7 (V7 W) c) (c : Dev nD) :
    (reg7 W pdats hK).pre c = iprop(StableHlo.held (c : Thread nD τ) (Pipeline.ucRefs τ sig) (W c) ∗ R c) := rfl
theorem reg7_post (pdats : (p : Fin 9) → (c : Dev nD) → Dat τ (Elt F) Unit ℕ (UR sig nD τ) ℕ (Pipeline.pin (pcfgs (F := F)) adm p) c)
    (hK : ∀ c, pdats 7 c = dat7 (V7 W) c) (c : Dev nD) :
    (reg7 W pdats hK).post c = iprop(StableHlo.held (c : Thread nD τ) (Pipeline.ucRefs τ sig) (Wout7 W c) ∗ R c) := rfl

end Segment

end Cert.Kernel.Hand
end
-- ==== Proof.KB.Reg8.lean ====
/-
  Region 8 of the nine-region program: the plain product of the [256,8192] array by s1 accumulated over the four blocks
  of the contracted axis in a scratch accumulator, the result stored at the last block only. The region's proof data at
  any entry contents, the body's triples in the three cases of its two conditions, the body obligation, and the region
  as a segment of the host program.
-/
import proofs.«105977_j57329223467619_2_alg».proof.Proof.KB.Common
import proofs.«105977_j57329223467619_2_alg».proof.Proof.LibWhole
import proofs.«105977_j57329223467619_2_alg».proof.Proof.LibAcc
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's two conditions over the grid -/

/-- The accumulator is zeroed: the block coordinate of the contracted axis is 0. -/
abbrev cond8_0 (i : grid8.Coords) : Prop := (Scalar.cmpi .ne (Scalar.extui (Scalar.cmpi .eq (BitVec.ofNat 32 (i 2).val) 0#32)) 0#32) = 1#1
/-- The result is stored: that coordinate is the last, 3. -/
abbrev cond8_1 (i : grid8.Coords) : Prop := k8_cond2 i = 1#1

theorem hcond8_0 : ∀ t : Fin cfg8.N, cond8_0 (grid8.coords t) ↔ t.val = 0 :=
  (by decide +kernel : ∀ t : Fin grid8.N, cond8_0 (grid8.coords t) ↔ t.val = 0)
theorem hcond8_1 : ∀ t : Fin cfg8.N, cond8_1 (grid8.coords t) ↔ t.val = 3 :=
  (by decide +kernel : ∀ t : Fin grid8.N, cond8_1 (grid8.coords t) ↔ t.val = 3)

theorem N8 : cfg8.N = 4 := N_8

/-- The two operand windows are never idle; the result window is idle, and not written back, wherever the result is
    not stored, and live where it is. -/
theorem liveAt8_0 : ∀ t : Fin cfg8.N, cfg8.idle 0 (grid8.coords t) = false := by decide +kernel
theorem liveAt8_1 : ∀ t : Fin cfg8.N, cfg8.idle 1 (grid8.coords t) = false := by decide +kernel
theorem idleAt8_2 : ∀ t : Fin cfg8.N, ¬cond8_1 (grid8.coords t) → cfg8.idle 2 (grid8.coords t) = true := by decide +kernel
theorem noFlush8_2 : ∀ t : Fin cfg8.N, ¬cond8_1 (grid8.coords t) → (cfg8.win 2).flush t = false := by decide +kernel
theorem liveAt8_2 : ∀ t : Fin cfg8.N, cond8_1 (grid8.coords t) → cfg8.idle 2 (grid8.coords t) = false := by decide +kernel

/-! ## The body's triples -/

/-- The scratch accumulator as a memref. -/
abbrev scM8 : Memref sig .tc .vmem S256x256 .f32 := Memref.whole cc8_scratch0

set_option maxHeartbeats 1000000 in
/-- First block: the accumulator, whatever it held, ends at the zero fill plus this block's product; the result
    buffer is not touched. -/
theorem sound_kernel8_A (c : Dev nD) (E : Set ℕ) (i : grid8.Coords)
    (arg3 : Memref sig .tc .vmem S256x2048 .bf16) (harg3 : arg3.IsWhole) (arg4 : Memref sig .tc .vmem S2048x256 .bf16) (harg4 : arg4.IsWhole)
    (arg5 : Memref sig .tc .vmem S256x256 .f32) (harg5 : arg5.IsWhole) (arg8 : Memref sig .tc .vmem S256x256 .f32) (harg8 : arg8.IsWhole)
    (hc0 : cond8_0 i) (hc1 : ¬cond8_1 i)
    (x0 : Vec F S256x2048 .bf16) (x1 : Vec F S2048x256 .bf16) (xi : Vec F S256x256 .f32) (K : PUnit → sProp (MK F)) :
    iprop(owns (c : Thread nD τ) arg3 fullShare x0 ∗ owns (c : Thread nD τ) arg4 fullShare x1 ∗ owns (c : Thread nD τ) arg5 fullShare xi
        ∗ (∃ d, owns (c : Thread nD τ) arg8 fullShare d)
        ∗ (iprop(owns (c : Thread nD τ) arg3 fullShare x0 ∗ owns (c : Thread nD τ) arg4 fullShare x1 ∗ owns (c : Thread nD τ) arg5 fullShare xi
            ∗ owns (c : Thread nD τ) arg8 fullShare (k8_pay2 x0 x1 (k8_pay1 (F := F)))) -∗ K ⟨⟩))
      ⊢ wp frame (wpE (defs₀ (F := F)) Variants.none c none) E (cc8_kernel i arg3 harg3 arg4 harg4 arg5 harg5 arg8 harg8) K := by
  simp only [cc8_kernel_eq_skeleton]; unfold cc8_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_cons_unit_zero _ _ View.zero_offsets2, View.readCov_unit_zero _ View.zero_offsets2,
    View.readAt_unit_zero _ _ View.zero_offsets2, View.readAt_unit_zero _ _ View.zero_offsets2]

set_option maxHeartbeats 1000000 in
/-- A middle block: the accumulator gains this block's product; the result buffer is not touched. -/
theorem sound_kernel8_B (c : Dev nD) (E : Set ℕ) (i : grid8.Coords)
    (arg3 : Memref sig .tc .vmem S256x2048 .bf16) (harg3 : arg3.IsWhole) (arg4 : Memref sig .tc .vmem S2048x256 .bf16) (harg4 : arg4.IsWhole)
    (arg5 : Memref sig .tc .vmem S256x256 .f32) (harg5 : arg5.IsWhole) (arg8 : Memref sig .tc .vmem S256x256 .f32) (harg8 : arg8.IsWhole)
    (hc0 : ¬cond8_0 i) (hc1 : ¬cond8_1 i)
    (x0 : Vec F S256x2048 .bf16) (x1 : Vec F S2048x256 .bf16) (xi : Vec F S256x256 .f32) (xs : Vec F S256x256 .f32) (K : PUnit → sProp (MK F)) :
    iprop(owns (c : Thread nD τ) arg3 fullShare x0 ∗ owns (c : Thread nD τ) arg4 fullShare x1 ∗ owns (c : Thread nD τ) arg5 fullShare xi
        ∗ owns (c : Thread nD τ) arg8 fullShare xs
        ∗ (iprop(owns (c : Thread nD τ) arg3 fullShare x0 ∗ owns (c : Thread nD τ) arg4 fullShare x1 ∗ owns (c : Thread nD τ) arg5 fullShare xi
            ∗ owns (c : Thread nD τ) arg8 fullShare (k8_pay2 x0 x1 xs)) -∗ K ⟨⟩))
      ⊢ wp frame (wpE (defs₀ (F := F)) Variants.none c none) E (cc8_kernel i arg3 harg3 arg4 harg4 arg5 harg5 arg8 harg8) K := by
  simp only [cc8_kernel_eq_skeleton]; unfold cc8_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_cons_unit_zero _ _ View.zero_offsets2, View.readAt_unit_zero _ _ View.zero_offsets2,
    View.readAt_unit_zero _ _ View.zero_offsets2, View.readAt_unit_zero _ _ View.zero_offsets2]

set_option maxHeartbeats 1000000 in
/-- Last block: the accumulator gains this block's product and the result buffer, whatever it held, ends at the
    accumulator. -/
theorem sound_kernel8_C (c : Dev nD) (E : Set ℕ) (i : grid8.Coords)
    (arg3 : Memref sig .tc .vmem S256x2048 .bf16) (harg3 : arg3.IsWhole) (arg4 : Memref sig .tc .vmem S2048x256 .bf16) (harg4 : arg4.IsWhole)
    (arg5 : Memref sig .tc .vmem S256x256 .f32) (harg5 : arg5.IsWhole) (arg8 : Memref sig .tc .vmem S256x256 .f32) (harg8 : arg8.IsWhole)
    (hc0 : ¬cond8_0 i) (hc1 : cond8_1 i)
    (x0 : Vec F S256x2048 .bf16) (x1 : Vec F S2048x256 .bf16) (xs : Vec F S256x256 .f32) (K : PUnit → sProp (MK F)) :
    iprop(owns (c : Thread nD τ) arg3 fullShare x0 ∗ owns (c : Thread nD τ) arg4 fullShare x1 ∗ (∃ d, owns (c : Thread nD τ) arg5 fullShare d)
        ∗ owns (c : Thread nD τ) arg8 fullShare xs
        ∗ (iprop(owns (c : Thread nD τ) arg3 fullShare x0 ∗ owns (c : Thread nD τ) arg4 fullShare x1
            ∗ owns (c : Thread nD τ) arg5 fullShare (k8_pay2 x0 x1 xs)
            ∗ owns (c : Thread nD τ) arg8 fullShare (k8_pay2 x0 x1 xs)) -∗ K ⟨⟩))
      ⊢ wp frame (wpE (defs₀ (F := F)) Variants.none c none) E (cc8_kernel i arg3 harg3 arg4 harg4 arg5 harg5 arg8 harg8) K := by
  simp only [cc8_kernel_eq_skeleton]; unfold cc8_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_cons_unit_zero _ _ View.zero_offsets2, View.readCov_unit_zero _ View.zero_offsets2,
      View.readAt_unit_zero _ _ View.zero_offsets2, View.readAt_unit_zero _ _ View.zero_offsets2, View.readAt_unit_zero _ _ View.zero_offsets2]
  iexists _; isplitr
  swap; · iexact HS
  ipureintro
  sl_unfold_run_names
  rw [View.read_writes_cons_unit_zero _ _ View.zero_offsets2, View.readAt_unit_zero _ _ View.zero_offsets2,
    View.readAt_unit_zero _ _ View.zero_offsets2, View.readAt_unit_zero _ _ View.zero_offsets2]

section Region8

variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An operand window's current staging buffer holds its block at every point, for any proof data whose array is the
    entry contents and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The accumulator after each point -/

/-- What the scratch accumulator holds after the body at position `n`: the zero fill plus the products of the blocks
    0 … n, added one after the other. -/
def acc8 (c : Dev nD) : (n : ℕ) → n < cfg8.N → Vec F S256x256 .f32
  | 0, hn => k8_pay2 (iblk8 V c 0 ⟨0, hn⟩) (iblk8 V c 1 ⟨0, hn⟩) (k8_pay1 (F := F))
  | n + 1, hn => k8_pay2 (iblk8 V c 0 ⟨n + 1, hn⟩) (iblk8 V c 1 ⟨n + 1, hn⟩) (acc8 c n (Nat.lt_of_succ_lt hn))

theorem acc8_zero (c : Dev nD) (t : Fin cfg8.N) (h0 : t.val = 0) :
    acc8 V c t.val t.isLt = k8_pay2 (iblk8 V c 0 t) (iblk8 V c 1 t) (k8_pay1 (F := F)) := by
  obtain ⟨n, hn⟩ := t
  cases n with
  | zero => rfl
  | succ n => exact absurd h0 (Nat.succ_ne_zero n)

theorem acc8_pos (c : Dev nD) (t : Fin cfg8.N) (h0 : t.val ≠ 0) :
    acc8 V c t.val t.isLt = k8_pay2 (iblk8 V c 0 t) (iblk8 V c 1 t) (acc8 V c (t.val - 1) (Nat.lt_of_le_of_lt (Nat.sub_le _ _) t.isLt)) := by
  obtain ⟨n, hn⟩ := t
  cases n with
  | zero => exact absurd rfl h0
  | succ n => rfl

/-! ## The region invariant -/

/-- The invariant before position `n`: before the first point every scoped buffer no window stages at anything and the
    generator register at some state; afterwards the scratch accumulator at what the point before left, the other such
    scoped buffers at anything, the register at some state. -/
def PhiS8 (c : Dev nD) : (n : ℕ) → n ≤ cfg8.N → sProp (MK F)
  | 0, _ => Pipeline.ΦA spec8 c
  | n + 1, hn => iprop(iprop(owns (c : Thread nD τ) scM8 fullShare (acc8 V c n hn)
      ∗ Pipeline.scopedRestBut (Ix := Unit) (Name := ℕ) (U := UR sig nD τ) (Lvl := ℕ) (Val := Elt F) spec8 c [cc8_scratch0]) ∗ (∃ r, prngReg c r))

theorem PhiA8_eq (c : Dev nD) :
    (Pipeline.ΦA spec8 c : sProp (MK F))
      = iprop(iprop((∃ d, owns (c : Thread nD τ) scM8 fullShare d)
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; try rfl

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(owns (c : Thread nD τ) scM8 fullShare (acc8 V c n hn)
      ∗ Pipeline.scopedRestBut (Ix := Unit) (Name := ℕ) (U := UR sig nD τ) (Lvl := ℕ) (Val := Elt F) spec8 c [cc8_scratch0]) ∗ (∃ r, prngReg c r)) := rfl

theorem PhiS8_pos (c : Dev nD) (n : ℕ) (h : n ≤ cfg8.N) (hz : n ≠ 0) :
    PhiS8 V c n h = iprop(iprop(owns (c : Thread nD τ) scM8 fullShare (acc8 V c (n - 1) (by omega))
      ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-! ## The proof data -/

/-- The proof data of the pipeline on core `c`: the arrays as the region finds them; after the body each operand's
    buffer at its block and the result's at the accumulator; the invariant carrying the accumulator; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => acc8 V c t.val t.isLt
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = acc8 V c t.val t.isLt := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation -/

abbrev ms8_0 (t : Fin cfg8.N) : Memref sig .tc .vmem S256x2048 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S2048x256 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S256x256 .f32 := win8_2.stage (cfg8.slots t 2)
abbrev hs8_2 (t : Fin cfg8.N) : (ms8_2 t).IsWhole := hstage8_2 ((cfg8.slots t 2).cast nbuf8_2)

/-- What the body is called with at point `t`, -/
def bodyPre8 (c : Dev nD) (t : Fin cfg8.N) : sProp (MK F) :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

/-- and what it returns. -/
def bodyPost8 (c : Dev nD) (t : Fin cfg8.N) : sProp (MK F) :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point: the operands' buffers hold their blocks; the point's position decides the case; the
    invariant hands the body the accumulator at what the point before left (at anything at the first point) and takes it
    back at this point's contents. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  have hN : t.val < 4 := lt_of_lt_of_eq t.isLt N8
  by_cases h0 : t.val = 0
  · have h1 : ¬t.val = 3 := by omega
    rw [Dat.leavesExact_idle (dat8 V c) 2 t (idleAt8_2 t (fun h => h1 ((hcond8_1 t).mp h))) (noFlush8_2 t (fun h => h1 ((hcond8_1 t).mp h)))]
    rw [acc8_zero V c t h0]
    rw [PhiS8_castSucc V c t, PhiS8_zero V c _ _ h0, PhiA8_eq]
    iintro ⟨⟨⟨HS, Hrest⟩, Hg⟩, Ho, ⟨%d0, H0⟩, ⟨%d1, H1⟩, ⟨%d2, H2⟩⟩
    iapply (sound_kernel8_A c Set.univ (grid8.coords t) _ _ _ _ _ _ _ _ ((hcond8_0 t).mpr h0) (fun h => h1 ((hcond8_1 t).mp h)) (iblk8 V c 0 t) (iblk8 V c 1 t) _ _)
    isplitl [H0]; · iexact H0
    isplitl [H1]; · iexact H1
    isplitl [H2]; · iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexists _; iexact H2
  · by_cases h1 : t.val = 3
    · rw [show (dat8 V c).leavesExact 2 t = owns (c : Thread nD τ) (ms8_2 t) fullShare ((dat8 V c).after 2 t) from by
        unfold Dat.leavesExact; rw [liveAt8_2 t ((hcond8_1 t).mpr h1)], after8_2]
      rw [acc8_pos V c t h0]
      rw [PhiS8_castSucc V c t, PhiS8_pos V c _ _ h0]
      iintro ⟨⟨⟨HS, Hrest⟩, Hg⟩, Ho, ⟨%d0, H0⟩, ⟨%d1, H1⟩, ⟨%d2, H2⟩⟩
      iapply (sound_kernel8_C c Set.univ (grid8.coords t) _ _ _ _ _ _ _ _ (fun h => h0 ((hcond8_0 t).mp h)) ((hcond8_1 t).mpr h1) (iblk8 V c 0 t) (iblk8 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat8 V c) 2 t (idleAt8_2 t (fun h => h1 ((hcond8_1 t).mp h))) (noFlush8_2 t (fun h => h1 ((hcond8_1 t).mp h)))]
      rw [acc8_pos V c t h0]
      rw [PhiS8_castSucc V c t, PhiS8_pos V c _ _ h0]
      iintro ⟨⟨⟨HS, Hrest⟩, Hg⟩, Ho, ⟨%d0, H0⟩, ⟨%d1, H1⟩, ⟨%d2, H2⟩⟩
      iapply (sound_kernel8_B c Set.univ (grid8.coords t) _ _ _ _ _ _ _ _ (fun h => h0 ((hcond8_0 t).mp h)) (fun h => h1 ((hcond8_1 t).mp h)) (iblk8 V c 0 t) (iblk8 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After the last point the invariant gives it back: the accumulator's contents are forgotten. -/
theorem hout8 (c : Dev nD) : (dat8 V c).Φ (Fin.last cfg8.N) ⊢ Pipeline.ΦA spec8 c := by
  rw [show (dat8 V c).Φ (Fin.last cfg8.N) = PhiS8 V c (Fin.last cfg8.N).val (Nat.le_of_lt_succ (Fin.last cfg8.N).isLt) from rfl,
    PhiS8_pos V c _ _ (by rw [Fin.val_last]; have : cfg8.N = 4 := N8; omega), PhiA8_eq]
  iintro ⟨⟨HS, Hrest⟩, Hg⟩
  isplitl [HS Hrest]
  · isplitl [HS]; · iexists _; iexact HS
    iexact Hrest
  iexact Hg

end Region8

/-! ## The region as a segment of the host program -/

section Seg8

variable (W : Dev nD → Valuation τ sig (Elt F))

/-- The entry contents read at the TensorCore's references. -/
abbrev V8 : (c : Dev nD) → (b : Ref sig .tc) → Buf (Elt F) ((c : Thread nD τ).loc b) := fun c b => W c b

/-- The contents at the region's exit: its arrays at what the pipeline leaves, every other buffer as entered. -/
def Wout8 (c : Dev nD) : Valuation τ sig (Elt F) :=
  Pipeline.withArrays spec8 c (W c) fun w => (dat8 (V8 W) c).arrAt w cfg8.N

theorem Wout8_arr (c : Dev nD) (w : Fin cfg8.W) :
    Wout8 W c (Proc.devRef .tc (Pipeline.arrRef spec8 w)) = (dat8 (V8 W) c).arrAt w cfg8.N := by
  unfold Wout8; exact Pipeline.withArrays_arr spec8 launch8.win.arr_inj c _ _ w

theorem Wout8_of_ne (c : Dev nD) (b : Ref sig .tc) (hb : ∀ w, Pipeline.arrRef spec8 w ≠ b) :
    Wout8 W c (Proc.devRef .tc b) = W c (Proc.devRef .tc b) := by
  unfold Wout8; exact Pipeline.withArrays_of_ne spec8 c _ _ b hb

/-- The two operand arrays leave as they entered. -/
theorem Wout8_main_v12 (c : Dev nD) : Wout8 W c (Proc.devRef .tc main_v12) = W c (Proc.devRef .tc main_v12) :=
  (Wout8_arr W c 0).trans (((dat8 (V8 W) c).arrAt_in 0 rfl _).trans (A_eq8 (V8 W) c 0))
theorem Wout8_main_v9_1 (c : Dev nD) : Wout8 W c (Proc.devRef .tc main_v9_1) = W c (Proc.devRef .tc main_v9_1) :=
  (Wout8_arr W c 1).trans (((dat8 (V8 W) c).arrAt_in 1 rfl _).trans (A_eq8 (V8 W) c 1))
/-- The result array leaves at the pipeline's write-backs. -/
theorem Wout8_main_v13 (c : Dev nD) : Wout8 W c (Proc.devRef .tc main_v13) = (dat8 (V8 W) c).arrAt 2 cfg8.N :=
  Wout8_arr W c 2

theorem hF8 (c : Dev nD) (w : Fin cfg8.W) : (dat8 (V8 W) c).arrAt w cfg8.N = (fun b : Ref sig .tc => Wout8 W c b) (Pipeline.arrRef spec8 w) :=
  (Wout8_arr W c w).symm
theorem hrest8 (c : Dev nD) : ∀ b, b ∉ Finset.univ.image (Pipeline.arrRef spec8) → (fun b : Ref sig .tc => Wout8 W c b) b = V8 W c b :=
  fun b hb => Wout8_of_ne W c b fun w e => hb (Finset.mem_image.mpr ⟨w, Finset.mem_univ _, e⟩)

set_option backward.isDefEq.respectTransparency.types false in
/-- Region 8 over the thread state: entered from every unscoped buffer at `W`, left at `Wout8 W`. Its arrays are
    split out of the unscoped buffers and put back at the exit contents; the generator register goes into the
    invariant and comes back; nothing owed; no semaphore of the kernel's own. -/
def reg8 (pdats : (p : Fin 9) → (c : Dev nD) → Dat τ (Elt F) Unit ℕ (UR sig nD τ) ℕ (Pipeline.pin (pcfgs (F := F)) adm p) c)
    (hK : ∀ c, pdats 8 c = dat8 (V8 W) c) :
    Pipeline.RegionSeg (pcfgs (F := F)) adm pdats () defs₀ 𝒱₀ L lv 8 where
  win := launch8.win.to₀
  block_pos := launch8.block_pos
  stage_whole := launch8.stage_whole
  K := PEmpty
  osem k := k.elim
  ho := Pipeline.OwnSemFacts.none _
  hbody c := by rw [hK c]; exact (body_obligation8 (V8 W) c).loose
  hwaits := Pipeline.hwaits_of_owed_zero _ _ _ _ L lv 8 fun c t => by rw [hK c]; rfl
  pre c := iprop(StableHlo.held (c : Thread nD τ) (Pipeline.ucRefs τ sig) (W c) ∗ R c)
  post c := iprop(StableHlo.held (c : Thread nD τ) (Pipeline.ucRefs τ sig) (Wout8 W c) ∗ R c)
  X c := iprop(∃ r, prngReg c r)
  Y c := iprop(∃ r, prngReg c r)
  Z c := Pipeline.unscopedRest (Ix := Unit) (Name := ℕ) (U := UR sig nD τ) (Lvl := ℕ) spec8 c (V8 W c)
  hentry c := by
    rw [Pipeline.ownSems0_none]
    have hsh : ∀ w, (pdats 8 c).share w = fullShare := by rw [hK c]; exact (dat8 (V8 W) c).share_full fun _ => rfl
    have hsplit := Pipeline.arrays_of_unscopedBufs (p := 8) (pcfgs (F := F)) adm pdats launch8.win launch8.arr_whole c
      hsh (V8 W c) (fun w => by rw [hK c]; rfl)
    rw [Pipeline.unscopedBufs_held] at hsplit
    rw [hK c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [hK c, show (dat8 (V8 W) c).Φ 0 = Pipeline.ΦA spec8 c from rfl]; unfold Pipeline.ΦA
    iintro ⟨Hp, -, Hr⟩
    isplitl [Hr]; · iexact Hr
    iexact Hp
  hout c := by
    rw [Pipeline.ownSems0_none, hK c]
    refine (hout8 (V8 W) c).trans ?_
    unfold Pipeline.ΦA
    iintro ⟨Hr, Hp⟩
    isplitl [Hp]; · iexact Hp
    isplitr; · iempintro
    iexact Hr
  hexit c := by
    have hsh : ∀ w, (pdats 8 c).share w = fullShare := by rw [hK c]; exact (dat8 (V8 W) c).share_full fun _ => rfl
    have hjoin := Pipeline.unscopedBufs_of_arrays (p := 8) (pcfgs (F := F)) adm (Ix := Unit) (Name := ℕ) (U := UR sig nD τ) (Lvl := ℕ)
      launch8.win launch8.arr_whole c pdats hsh
      (V8 W c) (fun b : Ref sig .tc => Wout8 W c b) ((pdats 8 c).arrAt · cfg8.N) (fun w => by rw [hK c]; exact hF8 W c w) (hrest8 W c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W', -, HO⟩; iexists W'; rw [hK c]; iexact HO

theorem reg8_pre (pdats : (p : Fin 9) → (c : Dev nD) → Dat τ (Elt F) Unit ℕ (UR sig nD τ) ℕ (Pipeline.pin (pcfgs (F := F)) adm p) c)
    (hK : ∀ c, pdats 8 c = dat8 (V8 W) c) (c : Dev nD) :
    (reg8 W pdats hK).pre c = iprop(StableHlo.held (c : Thread nD τ) (Pipeline.ucRefs τ sig) (W c) ∗ R c) := rfl
theorem reg8_post (pdats : (p : Fin 9) → (c : Dev nD) → Dat τ (Elt F) Unit ℕ (UR sig nD τ) ℕ (Pipeline.pin (pcfgs (F := F)) adm p) c)
    (hK : ∀ c, pdats 8 c = dat8 (V8 W) c) (c : Dev nD) :
    (reg8 W pdats hK).post c = iprop(StableHlo.held (c : Thread nD τ) (Pipeline.ucRefs τ sig) (Wout8 W c) ∗ R c) := rfl

end Seg8

end Cert.Kernel.Hand

end
-- ==== Proof.KB.Run.lean ====
/-
  The whole program as a sequence of fifteen items — nine kernel regions and six stretches of host operations — run from
  the launch memory: the contents of every unscoped buffer between two items (each region replaces its output arrays by
  what its pipeline leaves, each host stretch folds its operations), the segments, and the run: every weakly fair
  execution terminates with every unscoped buffer at the last of these contents.
-/
import proofs.«105977_j57329223467619_2_alg».proof.Proof.KB.Host
import proofs.«105977_j57329223467619_2_alg».proof.Proof.KB.Reg0
import proofs.«105977_j57329223467619_2_alg».proof.Proof.KB.Reg1
import proofs.«105977_j57329223467619_2_alg».proof.Proof.KB.Reg2
import proofs.«105977_j57329223467619_2_alg».proof.Proof.KB.Reg3
import proofs.«105977_j57329223467619_2_alg».proof.Proof.KB.Reg4
import proofs.«105977_j57329223467619_2_alg».proof.Proof.KB.Reg5
import proofs.«105977_j57329223467619_2_alg».proof.Proof.KB.Reg6
import proofs.«105977_j57329223467619_2_alg».proof.Proof.KB.Reg7
import proofs.«105977_j57329223467619_2_alg».proof.Proof.KB.Reg8

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MK F

variable (m : (ℓ : Loc nD τ sig) → Buf (Elt F) ℓ)

/-! ## The buffers' contents between the items -/

/-- Core `c`'s buffers at launch. -/
abbrev Wi0 : Dev nD → Valuation τ sig (Elt F) := fun c b => m (c, b)
/-- After region 0. -/
def Wi1 : Dev nD → Valuation τ sig (Elt F) := fun c => Wout0 (Wi0 m) c
/-- After the host stretch `hostOps1`. -/
abbrev Wi2 : Dev nD → Valuation τ sig (Elt F) := fun c => StableHlo.after hostOps1 (Wi1 m c)
/-- After region 1. -/
def Wi3 : Dev nD → Valuation τ sig (Elt F) := fun c => Wout1 (Wi2 m) c
/-- After the host stretch `hostOps2`. -/
abbrev Wi4 : Dev nD → Valuation τ sig (Elt F) := fun c => StableHlo.after hostOps2 (Wi3 m c)
/-- After region 2. -/
def Wi5 : Dev nD → Valuation τ sig (Elt F) := fun c => Wout2 (Wi4 m) c
/-- After region 3. -/
def Wi6 : Dev nD → Valuation τ sig (Elt F) := fun c => Wout3 (Wi5 m) c
/-- After region 4. -/
def Wi7 : Dev nD → Valuation τ sig (Elt F) := fun c => Wout4 (Wi6 m) c
/-- After the host stretch `hostOps5`. -/
abbrev Wi8 : Dev nD → Valuation τ sig (Elt F) := fun c => StableHlo.after hostOps5 (Wi7 m c)
/-- After region 5. -/
def Wi9 : Dev nD → Valuation τ sig (Elt F) := fun c => Wout5 (Wi8 m) c
/-- After region 6. -/
def Wi10 : Dev nD → Valuation τ sig (Elt F) := fun c => Wout6 (Wi9 m) c
/-- After the host stretch `hostOps7`. -/
abbrev Wi11 : Dev nD → Valuation τ sig (Elt F) := fun c => StableHlo.after hostOps7 (Wi10 m c)
/-- After region 7. -/
def Wi12 : Dev nD → Valuation τ sig (Elt F) := fun c => Wout7 (Wi11 m) c
/-- After region 8. -/
def Wi13 : Dev nD → Valuation τ sig (Elt F) := fun c => Wout8 (Wi12 m) c
/-- After the host stretch `hostOps9`. -/
abbrev Wi14 : Dev nD → Valuation τ sig (Elt F) := fun c => StableHlo.after hostOps9 (Wi13 m c)
/-- After the host stretch `hostOps9_1`. -/
abbrev Wi15 : Dev nD → Valuation τ sig (Elt F) := fun c => StableHlo.after hostOps9_1 (Wi14 m c)

/-- A valuation read at the TensorCore's references: what a region's proof data take. -/
abbrev tcV (W : Dev nD → Valuation τ sig (Elt F)) : (c : Dev nD) → (b : Ref sig .tc) → Buf (Elt F) ((c : Thread nD τ).loc b) := fun c b => W c b

/-! ## The proof data family and the segments -/

/-- Every pipeline's proof data, each at its region's entry contents. -/
def pdats : (p : Fin 9) → (c : Dev nD) → Dat τ (Elt F) Unit ℕ (UR sig nD τ) ℕ (Pipeline.pin (pcfgs (F := F)) adm p) c
  | ⟨0, _⟩ => fun c => dat0 (tcV (Wi0 m)) c
  | ⟨1, _⟩ => fun c => dat1 (tcV (Wi2 m)) c
  | ⟨2, _⟩ => fun c => dat2 (tcV (Wi4 m)) c
  | ⟨3, _⟩ => fun c => dat3 (tcV (Wi5 m)) c
  | ⟨4, _⟩ => fun c => dat4 (tcV (Wi6 m)) c
  | ⟨5, _⟩ => fun c => dat5 (tcV (Wi8 m)) c
  | ⟨6, _⟩ => fun c => dat6 (tcV (Wi9 m)) c
  | ⟨7, _⟩ => fun c => dat7 (tcV (Wi11 m)) c
  | ⟨8, _⟩ => fun c => dat8 (tcV (Wi12 m)) c

/-- The fifteen items in order. -/
abbrev segs : List (Pipeline.Seg (pcfgs (F := F)) adm (pdats m) () defs₀ 𝒱₀ L lv) :=
  [ .region (reg0 (Wi0 m) (pdats m) (fun _ => rfl)),
    .host (hseg hostOps1 hostOps1_sub hostOps1_fresh (Wi1 m)),
    .region (reg1 (Wi2 m) (pdats m) (fun _ => rfl)),
    .host (hseg hostOps2 hostOps2_sub hostOps2_fresh (Wi3 m)),
    .region (reg2 (Wi4 m) (pdats m) (fun _ => rfl)),
    .region (reg3 (Wi5 m) (pdats m) (fun _ => rfl)),
    .region (reg4 (Wi6 m) (pdats m) (fun _ => rfl)),
    .host (hseg hostOps5 hostOps5_sub hostOps5_fresh (Wi7 m)),
    .region (reg5 (Wi8 m) (pdats m) (fun _ => rfl)),
    .region (reg6 (Wi9 m) (pdats m) (fun _ => rfl)),
    .host (hseg hostOps7 hostOps7_sub hostOps7_fresh (Wi10 m)),
    .region (reg7 (Wi11 m) (pdats m) (fun _ => rfl)),
    .region (reg8 (Wi12 m) (pdats m) (fun _ => rfl)),
    .host (hseg hostOps9 hostOps9_sub hostOps9_fresh (Wi13 m)),
    .host (hseg hostOps9_1 hostOps9_1_sub hostOps9_1_fresh (Wi14 m)) ]

/-- The program is the run of the segments. -/
theorem main_run (c : Dev nD) : main (F := F) c = Pipeline.Seg.run (segs m) := (main_chain c).trans (by chain_rfl)

/-- The last thread state without the `owes`. -/
abbrev Tₙ (c : Dev nD) : sProp 𝕄 := iprop(StableHlo.held (c : Thread nD τ) (Pipeline.ucRefs τ sig) (Wi15 m c) ∗ ∃ r, prngReg c r)

set_option backward.isDefEq.respectTransparency.types false in
/-- From any memory with zero counters every weakly fair execution of the program terminates, nothing faulting, and
    every unscoped buffer ends at the last contents. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Wi15 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wi0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (Wi15 m c)
            ∗ ((∃ r, prngReg c r) ∗ ∃ W, owes (c : Thread nD τ) (0 : CellTallies nD τ sig Unit) W))
        ⊢ (iprop((StableHlo.held (c : Thread nD τ) (Pipeline.ucRefs τ sig) (Wi15 m c) ∗ ∃ r, prngReg c r)
            ∗ ∃ W, owes (c : Thread nD τ) (0 : CellTallies nD τ sig Unit) W) : sProp 𝕄)
      iintro ⟨Hh, Hp, HO⟩
      isplitl [Hh Hp]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (Wi0 m c)
        from Pipeline.unscopedBufs_held c (Wi0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wi15 m c b)
    (hfin := fun c s' => by
      iintro ⟨⟨Hh, -⟩, HSI⟩
      unfold StableHlo.held
      imodintro
      iapply (pointsTo_read_all (Pipeline.ucRefs τ sig) (fun b => (((c : Thread nD τ)).1, b)) (Wi15 m c) s')
      isplitl [Hh] <;> iassumption)
    (hQ := fun s h c => h c)

end Cert.Kernel.Hand

end
-- ==== Proof.KB.Args.lean ====
/-
  What the items leave unchanged: a buffer written by one item and read by a later one holds, when it is read, what
  its writer left; and no item writes an argument, so every argument holds at the end what the launch memory held.
-/
import proofs.«105977_j57329223467619_2_alg».proof.Proof.KB.Run

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ)

theorem keep_main_v0_0_4_1 (c : Dev nD) : Wi4 m c (Proc.devRef .tc main_v0_0) = Wi1 m c (Proc.devRef .tc main_v0_0) :=
  (hostOps2_keep (Wi3 m c) main_v0_0 (by decide)).trans ((Wout1_of_ne (Wi2 m) c main_v0_0 (by decide)).trans ((hostOps1_keep (Wi1 m c) main_v0_0 (by decide))))
theorem keep_main_v0_0_8_1 (c : Dev nD) : Wi8 m c (Proc.devRef .tc main_v0_0) = Wi1 m c (Proc.devRef .tc main_v0_0) :=
  (hostOps5_keep (Wi7 m c) main_v0_0 (by decide)).trans ((Wout4_of_ne (Wi6 m) c main_v0_0 (by decide)).trans ((Wout3_of_ne (Wi5 m) c main_v0_0 (by decide)).trans ((Wout2_main_v0_0 (Wi4 m) c).trans ((hostOps2_keep (Wi3 m c) main_v0_0 (by decide)).trans ((Wout1_of_ne (Wi2 m) c main_v0_0 (by decide)).trans ((hostOps1_keep (Wi1 m c) main_v0_0 (by decide))))))))
theorem keep_main_v0_0_11_1 (c : Dev nD) : Wi11 m c (Proc.devRef .tc main_v0_0) = Wi1 m c (Proc.devRef .tc main_v0_0) :=
  (hostOps7_keep (Wi10 m c) main_v0_0 (by decide)).trans ((Wout6_of_ne (Wi9 m) c main_v0_0 (by decide)).trans ((Wout5_main_v0_0 (Wi8 m) c).trans ((hostOps5_keep (Wi7 m c) main_v0_0 (by decide)).trans ((Wout4_of_ne (Wi6 m) c main_v0_0 (by decide)).trans ((Wout3_of_ne (Wi5 m) c main_v0_0 (by decide)).trans ((Wout2_main_v0_0 (Wi4 m) c).trans ((hostOps2_keep (Wi3 m c) main_v0_0 (by decide)).trans ((Wout1_of_ne (Wi2 m) c main_v0_0 (by decide)).trans ((hostOps1_keep (Wi1 m c) main_v0_0 (by decide)))))))))))
theorem keep_main_v1_4_2 (c : Dev nD) : Wi4 m c (Proc.devRef .tc main_v1) = Wi2 m c (Proc.devRef .tc main_v1) :=
  (hostOps2_keep (Wi3 m c) main_v1 (by decide)).trans ((Wout1_of_ne (Wi2 m) c main_v1 (by decide)))
theorem keep_main_v1_8_2 (c : Dev nD) : Wi8 m c (Proc.devRef .tc main_v1) = Wi2 m c (Proc.devRef .tc main_v1) :=
  (hostOps5_keep (Wi7 m c) main_v1 (by decide)).trans ((Wout4_of_ne (Wi6 m) c main_v1 (by decide)).trans ((Wout3_of_ne (Wi5 m) c main_v1 (by decide)).trans ((Wout2_main_v1 (Wi4 m) c).trans ((hostOps2_keep (Wi3 m c) main_v1 (by decide)).trans ((Wout1_of_ne (Wi2 m) c main_v1 (by decide)))))))
theorem keep_main_v1_10_2 (c : Dev nD) : Wi10 m c (Proc.devRef .tc main_v1) = Wi2 m c (Proc.devRef .tc main_v1) :=
  (Wout6_of_ne (Wi9 m) c main_v1 (by decide)).trans ((Wout5_main_v1 (Wi8 m) c).trans ((hostOps5_keep (Wi7 m c) main_v1 (by decide)).trans ((Wout4_of_ne (Wi6 m) c main_v1 (by decide)).trans ((Wout3_of_ne (Wi5 m) c main_v1 (by decide)).trans ((Wout2_main_v1 (Wi4 m) c).trans ((hostOps2_keep (Wi3 m c) main_v1 (by decide)).trans ((Wout1_of_ne (Wi2 m) c main_v1 (by decide)))))))))
theorem keep_main_v1_11_2 (c : Dev nD) : Wi11 m c (Proc.devRef .tc main_v1) = Wi2 m c (Proc.devRef .tc main_v1) :=
  (hostOps7_keep (Wi10 m c) main_v1 (by decide)).trans ((Wout6_of_ne (Wi9 m) c main_v1 (by decide)).trans ((Wout5_main_v1 (Wi8 m) c).trans ((hostOps5_keep (Wi7 m c) main_v1 (by decide)).trans ((Wout4_of_ne (Wi6 m) c main_v1 (by decide)).trans ((Wout3_of_ne (Wi5 m) c main_v1 (by decide)).trans ((Wout2_main_v1 (Wi4 m) c).trans ((hostOps2_keep (Wi3 m c) main_v1 (by decide)).trans ((Wout1_of_ne (Wi2 m) c main_v1 (by decide))))))))))
theorem keep_main_v2_4_3 (c : Dev nD) : Wi4 m c (Proc.devRef .tc main_v2) = Wi3 m c (Proc.devRef .tc main_v2) :=
  (hostOps2_keep (Wi3 m c) main_v2 (by decide))
theorem keep_main_v4_6_5 (c : Dev nD) : Wi6 m c (Proc.devRef .tc main_v4) = Wi5 m c (Proc.devRef .tc main_v4) :=
  (Wout3_main_v4 (Wi5 m) c)
theorem keep_main_v5_8_6 (c : Dev nD) : Wi8 m c (Proc.devRef .tc main_v5) = Wi6 m c (Proc.devRef .tc main_v5) :=
  (hostOps5_keep (Wi7 m c) main_v5 (by decide)).trans ((Wout4_of_ne (Wi6 m) c main_v5 (by decide)))
theorem keep_main_v6_8_7 (c : Dev nD) : Wi8 m c (Proc.devRef .tc main_v6) = Wi7 m c (Proc.devRef .tc main_v6) :=
  (hostOps5_keep (Wi7 m c) main_v6 (by decide))
theorem keep_main_v9_1_11_9 (c : Dev nD) : Wi11 m c (Proc.devRef .tc main_v9_1) = Wi9 m c (Proc.devRef .tc main_v9_1) :=
  (hostOps7_keep (Wi10 m c) main_v9_1 (by decide)).trans ((Wout6_main_v9_1 (Wi9 m) c))
theorem keep_main_v9_1_12_9 (c : Dev nD) : Wi12 m c (Proc.devRef .tc main_v9_1) = Wi9 m c (Proc.devRef .tc main_v9_1) :=
  (Wout7_main_v9_1 (Wi11 m) c).trans ((hostOps7_keep (Wi10 m c) main_v9_1 (by decide)).trans ((Wout6_main_v9_1 (Wi9 m) c)))
theorem keep_main_v10_13_10 (c : Dev nD) : Wi13 m c (Proc.devRef .tc main_v10) = Wi10 m c (Proc.devRef .tc main_v10) :=
  (Wout8_of_ne (Wi12 m) c main_v10 (by decide)).trans ((Wout7_of_ne (Wi11 m) c main_v10 (by decide)).trans ((hostOps7_keep (Wi10 m c) main_v10 (by decide))))
theorem keep_main_arg0_2_0 (c : Dev nD) : Wi2 m c (Proc.devRef .tc main_arg0) = Wi0 m c (Proc.devRef .tc main_arg0) :=
  (hostOps1_keep (Wi1 m c) main_arg0 (by decide)).trans ((Wout0_of_ne (Wi0 m) c main_arg0 (by decide)))
theorem keep_main_arg2_2_0 (c : Dev nD) : Wi2 m c (Proc.devRef .tc main_arg2) = Wi0 m c (Proc.devRef .tc main_arg2) :=
  (hostOps1_keep (Wi1 m c) main_arg2 (by decide)).trans ((Wout0_of_ne (Wi0 m) c main_arg2 (by decide)))
theorem keep_main_arg3_3_0 (c : Dev nD) : Wi3 m c (Proc.devRef .tc main_arg3) = Wi0 m c (Proc.devRef .tc main_arg3) :=
  (Wout1_of_ne (Wi2 m) c main_arg3 (by decide)).trans ((hostOps1_keep (Wi1 m c) main_arg3 (by decide)).trans ((Wout0_of_ne (Wi0 m) c main_arg3 (by decide))))
theorem keep_main_arg4_5_0 (c : Dev nD) : Wi5 m c (Proc.devRef .tc main_arg4) = Wi0 m c (Proc.devRef .tc main_arg4) :=
  (Wout2_of_ne (Wi4 m) c main_arg4 (by decide)).trans ((hostOps2_keep (Wi3 m c) main_arg4 (by decide)).trans ((Wout1_of_ne (Wi2 m) c main_arg4 (by decide)).trans ((hostOps1_keep (Wi1 m c) main_arg4 (by decide)).trans ((Wout0_of_ne (Wi0 m) c main_arg4 (by decide))))))
theorem keep_main_arg6_6_0 (c : Dev nD) : Wi6 m c (Proc.devRef .tc main_arg6) = Wi0 m c (Proc.devRef .tc main_arg6) :=
  (Wout3_of_ne (Wi5 m) c main_arg6 (by decide)).trans ((Wout2_of_ne (Wi4 m) c main_arg6 (by decide)).trans ((hostOps2_keep (Wi3 m c) main_arg6 (by decide)).trans ((Wout1_of_ne (Wi2 m) c main_arg6 (by decide)).trans ((hostOps1_keep (Wi1 m c) main_arg6 (by decide)).trans ((Wout0_of_ne (Wi0 m) c main_arg6 (by decide)))))))
theorem keep_main_arg5_7_0 (c : Dev nD) : Wi7 m c (Proc.devRef .tc main_arg5) = Wi0 m c (Proc.devRef .tc main_arg5) :=
  (Wout4_of_ne (Wi6 m) c main_arg5 (by decide)).trans ((Wout3_of_ne (Wi5 m) c main_arg5 (by decide)).trans ((Wout2_of_ne (Wi4 m) c main_arg5 (by decide)).trans ((hostOps2_keep (Wi3 m c) main_arg5 (by decide)).trans ((Wout1_of_ne (Wi2 m) c main_arg5 (by decide)).trans ((hostOps1_keep (Wi1 m c) main_arg5 (by decide)).trans ((Wout0_of_ne (Wi0 m) c main_arg5 (by decide))))))))
theorem keep_main_arg7_7_0 (c : Dev nD) : Wi7 m c (Proc.devRef .tc main_arg7) = Wi0 m c (Proc.devRef .tc main_arg7) :=
  (Wout4_of_ne (Wi6 m) c main_arg7 (by decide)).trans ((Wout3_of_ne (Wi5 m) c main_arg7 (by decide)).trans ((Wout2_of_ne (Wi4 m) c main_arg7 (by decide)).trans ((hostOps2_keep (Wi3 m c) main_arg7 (by decide)).trans ((Wout1_of_ne (Wi2 m) c main_arg7 (by decide)).trans ((hostOps1_keep (Wi1 m c) main_arg7 (by decide)).trans ((Wout0_of_ne (Wi0 m) c main_arg7 (by decide))))))))
theorem keep_main_arg8_13_0 (c : Dev nD) : Wi13 m c (Proc.devRef .tc main_arg8) = Wi0 m c (Proc.devRef .tc main_arg8) :=
  (Wout8_of_ne (Wi12 m) c main_arg8 (by decide)).trans ((Wout7_of_ne (Wi11 m) c main_arg8 (by decide)).trans ((hostOps7_keep (Wi10 m c) main_arg8 (by decide)).trans ((Wout6_of_ne (Wi9 m) c main_arg8 (by decide)).trans ((Wout5_of_ne (Wi8 m) c main_arg8 (by decide)).trans ((hostOps5_keep (Wi7 m c) main_arg8 (by decide)).trans ((Wout4_of_ne (Wi6 m) c main_arg8 (by decide)).trans ((Wout3_of_ne (Wi5 m) c main_arg8 (by decide)).trans ((Wout2_of_ne (Wi4 m) c main_arg8 (by decide)).trans ((hostOps2_keep (Wi3 m c) main_arg8 (by decide)).trans ((Wout1_of_ne (Wi2 m) c main_arg8 (by decide)).trans ((hostOps1_keep (Wi1 m c) main_arg8 (by decide)).trans ((Wout0_of_ne (Wi0 m) c main_arg8 (by decide))))))))))))))
theorem keep_main_arg9_13_0 (c : Dev nD) : Wi13 m c (Proc.devRef .tc main_arg9) = Wi0 m c (Proc.devRef .tc main_arg9) :=
  (Wout8_of_ne (Wi12 m) c main_arg9 (by decide)).trans ((Wout7_of_ne (Wi11 m) c main_arg9 (by decide)).trans ((hostOps7_keep (Wi10 m c) main_arg9 (by decide)).trans ((Wout6_of_ne (Wi9 m) c main_arg9 (by decide)).trans ((Wout5_of_ne (Wi8 m) c main_arg9 (by decide)).trans ((hostOps5_keep (Wi7 m c) main_arg9 (by decide)).trans ((Wout4_of_ne (Wi6 m) c main_arg9 (by decide)).trans ((Wout3_of_ne (Wi5 m) c main_arg9 (by decide)).trans ((Wout2_of_ne (Wi4 m) c main_arg9 (by decide)).trans ((hostOps2_keep (Wi3 m c) main_arg9 (by decide)).trans ((Wout1_of_ne (Wi2 m) c main_arg9 (by decide)).trans ((hostOps1_keep (Wi1 m c) main_arg9 (by decide)).trans ((Wout0_of_ne (Wi0 m) c main_arg9 (by decide))))))))))))))
theorem keep_main_arg10_13_0 (c : Dev nD) : Wi13 m c (Proc.devRef .tc main_arg10) = Wi0 m c (Proc.devRef .tc main_arg10) :=
  (Wout8_of_ne (Wi12 m) c main_arg10 (by decide)).trans ((Wout7_of_ne (Wi11 m) c main_arg10 (by decide)).trans ((hostOps7_keep (Wi10 m c) main_arg10 (by decide)).trans ((Wout6_of_ne (Wi9 m) c main_arg10 (by decide)).trans ((Wout5_of_ne (Wi8 m) c main_arg10 (by decide)).trans ((hostOps5_keep (Wi7 m c) main_arg10 (by decide)).trans ((Wout4_of_ne (Wi6 m) c main_arg10 (by decide)).trans ((Wout3_of_ne (Wi5 m) c main_arg10 (by decide)).trans ((Wout2_of_ne (Wi4 m) c main_arg10 (by decide)).trans ((hostOps2_keep (Wi3 m c) main_arg10 (by decide)).trans ((Wout1_of_ne (Wi2 m) c main_arg10 (by decide)).trans ((hostOps1_keep (Wi1 m c) main_arg10 (by decide)).trans ((Wout0_of_ne (Wi0 m) c main_arg10 (by decide))))))))))))))
theorem keep_main_arg11_13_0 (c : Dev nD) : Wi13 m c (Proc.devRef .tc main_arg11) = Wi0 m c (Proc.devRef .tc main_arg11) :=
  (Wout8_of_ne (Wi12 m) c main_arg11 (by decide)).trans ((Wout7_of_ne (Wi11 m) c main_arg11 (by decide)).trans ((hostOps7_keep (Wi10 m c) main_arg11 (by decide)).trans ((Wout6_of_ne (Wi9 m) c main_arg11 (by decide)).trans ((Wout5_of_ne (Wi8 m) c main_arg11 (by decide)).trans ((hostOps5_keep (Wi7 m c) main_arg11 (by decide)).trans ((Wout4_of_ne (Wi6 m) c main_arg11 (by decide)).trans ((Wout3_of_ne (Wi5 m) c main_arg11 (by decide)).trans ((Wout2_of_ne (Wi4 m) c main_arg11 (by decide)).trans ((hostOps2_keep (Wi3 m c) main_arg11 (by decide)).trans ((Wout1_of_ne (Wi2 m) c main_arg11 (by decide)).trans ((hostOps1_keep (Wi1 m c) main_arg11 (by decide)).trans ((Wout0_of_ne (Wi0 m) c main_arg11 (by decide))))))))))))))
theorem keep_main_arg12_13_0 (c : Dev nD) : Wi13 m c (Proc.devRef .tc main_arg12) = Wi0 m c (Proc.devRef .tc main_arg12) :=
  (Wout8_of_ne (Wi12 m) c main_arg12 (by decide)).trans ((Wout7_of_ne (Wi11 m) c main_arg12 (by decide)).trans ((hostOps7_keep (Wi10 m c) main_arg12 (by decide)).trans ((Wout6_of_ne (Wi9 m) c main_arg12 (by decide)).trans ((Wout5_of_ne (Wi8 m) c main_arg12 (by decide)).trans ((hostOps5_keep (Wi7 m c) main_arg12 (by decide)).trans ((Wout4_of_ne (Wi6 m) c main_arg12 (by decide)).trans ((Wout3_of_ne (Wi5 m) c main_arg12 (by decide)).trans ((Wout2_of_ne (Wi4 m) c main_arg12 (by decide)).trans ((hostOps2_keep (Wi3 m c) main_arg12 (by decide)).trans ((Wout1_of_ne (Wi2 m) c main_arg12 (by decide)).trans ((hostOps1_keep (Wi1 m c) main_arg12 (by decide)).trans ((Wout0_of_ne (Wi0 m) c main_arg12 (by decide))))))))))))))
theorem keep_main_arg13_13_0 (c : Dev nD) : Wi13 m c (Proc.devRef .tc main_arg13) = Wi0 m c (Proc.devRef .tc main_arg13) :=
  (Wout8_of_ne (Wi12 m) c main_arg13 (by decide)).trans ((Wout7_of_ne (Wi11 m) c main_arg13 (by decide)).trans ((hostOps7_keep (Wi10 m c) main_arg13 (by decide)).trans ((Wout6_of_ne (Wi9 m) c main_arg13 (by decide)).trans ((Wout5_of_ne (Wi8 m) c main_arg13 (by decide)).trans ((hostOps5_keep (Wi7 m c) main_arg13 (by decide)).trans ((Wout4_of_ne (Wi6 m) c main_arg13 (by decide)).trans ((Wout3_of_ne (Wi5 m) c main_arg13 (by decide)).trans ((Wout2_of_ne (Wi4 m) c main_arg13 (by decide)).trans ((hostOps2_keep (Wi3 m c) main_arg13 (by decide)).trans ((Wout1_of_ne (Wi2 m) c main_arg13 (by decide)).trans ((hostOps1_keep (Wi1 m c) main_arg13 (by decide)).trans ((Wout0_of_ne (Wi0 m) c main_arg13 (by decide))))))))))))))
theorem keep_main_arg14_13_0 (c : Dev nD) : Wi13 m c (Proc.devRef .tc main_arg14) = Wi0 m c (Proc.devRef .tc main_arg14) :=
  (Wout8_of_ne (Wi12 m) c main_arg14 (by decide)).trans ((Wout7_of_ne (Wi11 m) c main_arg14 (by decide)).trans ((hostOps7_keep (Wi10 m c) main_arg14 (by decide)).trans ((Wout6_of_ne (Wi9 m) c main_arg14 (by decide)).trans ((Wout5_of_ne (Wi8 m) c main_arg14 (by decide)).trans ((hostOps5_keep (Wi7 m c) main_arg14 (by decide)).trans ((Wout4_of_ne (Wi6 m) c main_arg14 (by decide)).trans ((Wout3_of_ne (Wi5 m) c main_arg14 (by decide)).trans ((Wout2_of_ne (Wi4 m) c main_arg14 (by decide)).trans ((hostOps2_keep (Wi3 m c) main_arg14 (by decide)).trans ((Wout1_of_ne (Wi2 m) c main_arg14 (by decide)).trans ((hostOps1_keep (Wi1 m c) main_arg14 (by decide)).trans ((Wout0_of_ne (Wi0 m) c main_arg14 (by decide))))))))))))))
theorem keep_main_arg15_13_0 (c : Dev nD) : Wi13 m c (Proc.devRef .tc main_arg15) = Wi0 m c (Proc.devRef .tc main_arg15) :=
  (Wout8_of_ne (Wi12 m) c main_arg15 (by decide)).trans ((Wout7_of_ne (Wi11 m) c main_arg15 (by decide)).trans ((hostOps7_keep (Wi10 m c) main_arg15 (by decide)).trans ((Wout6_of_ne (Wi9 m) c main_arg15 (by decide)).trans ((Wout5_of_ne (Wi8 m) c main_arg15 (by decide)).trans ((hostOps5_keep (Wi7 m c) main_arg15 (by decide)).trans ((Wout4_of_ne (Wi6 m) c main_arg15 (by decide)).trans ((Wout3_of_ne (Wi5 m) c main_arg15 (by decide)).trans ((Wout2_of_ne (Wi4 m) c main_arg15 (by decide)).trans ((hostOps2_keep (Wi3 m c) main_arg15 (by decide)).trans ((Wout1_of_ne (Wi2 m) c main_arg15 (by decide)).trans ((hostOps1_keep (Wi1 m c) main_arg15 (by decide)).trans ((Wout0_of_ne (Wi0 m) c main_arg15 (by decide))))))))))))))
theorem keep_main_arg16_13_0 (c : Dev nD) : Wi13 m c (Proc.devRef .tc main_arg16) = Wi0 m c (Proc.devRef .tc main_arg16) :=
  (Wout8_of_ne (Wi12 m) c main_arg16 (by decide)).trans ((Wout7_of_ne (Wi11 m) c main_arg16 (by decide)).trans ((hostOps7_keep (Wi10 m c) main_arg16 (by decide)).trans ((Wout6_of_ne (Wi9 m) c main_arg16 (by decide)).trans ((Wout5_of_ne (Wi8 m) c main_arg16 (by decide)).trans ((hostOps5_keep (Wi7 m c) main_arg16 (by decide)).trans ((Wout4_of_ne (Wi6 m) c main_arg16 (by decide)).trans ((Wout3_of_ne (Wi5 m) c main_arg16 (by decide)).trans ((Wout2_of_ne (Wi4 m) c main_arg16 (by decide)).trans ((hostOps2_keep (Wi3 m c) main_arg16 (by decide)).trans ((Wout1_of_ne (Wi2 m) c main_arg16 (by decide)).trans ((hostOps1_keep (Wi1 m c) main_arg16 (by decide)).trans ((Wout0_of_ne (Wi0 m) c main_arg16 (by decide))))))))))))))
theorem keep_main_arg17_13_0 (c : Dev nD) : Wi13 m c (Proc.devRef .tc main_arg17) = Wi0 m c (Proc.devRef .tc main_arg17) :=
  (Wout8_of_ne (Wi12 m) c main_arg17 (by decide)).trans ((Wout7_of_ne (Wi11 m) c main_arg17 (by decide)).trans ((hostOps7_keep (Wi10 m c) main_arg17 (by decide)).trans ((Wout6_of_ne (Wi9 m) c main_arg17 (by decide)).trans ((Wout5_of_ne (Wi8 m) c main_arg17 (by decide)).trans ((hostOps5_keep (Wi7 m c) main_arg17 (by decide)).trans ((Wout4_of_ne (Wi6 m) c main_arg17 (by decide)).trans ((Wout3_of_ne (Wi5 m) c main_arg17 (by decide)).trans ((Wout2_of_ne (Wi4 m) c main_arg17 (by decide)).trans ((hostOps2_keep (Wi3 m c) main_arg17 (by decide)).trans ((Wout1_of_ne (Wi2 m) c main_arg17 (by decide)).trans ((hostOps1_keep (Wi1 m c) main_arg17 (by decide)).trans ((Wout0_of_ne (Wi0 m) c main_arg17 (by decide))))))))))))))
theorem keep_main_arg18_13_0 (c : Dev nD) : Wi13 m c (Proc.devRef .tc main_arg18) = Wi0 m c (Proc.devRef .tc main_arg18) :=
  (Wout8_of_ne (Wi12 m) c main_arg18 (by decide)).trans ((Wout7_of_ne (Wi11 m) c main_arg18 (by decide)).trans ((hostOps7_keep (Wi10 m c) main_arg18 (by decide)).trans ((Wout6_of_ne (Wi9 m) c main_arg18 (by decide)).trans ((Wout5_of_ne (Wi8 m) c main_arg18 (by decide)).trans ((hostOps5_keep (Wi7 m c) main_arg18 (by decide)).trans ((Wout4_of_ne (Wi6 m) c main_arg18 (by decide)).trans ((Wout3_of_ne (Wi5 m) c main_arg18 (by decide)).trans ((Wout2_of_ne (Wi4 m) c main_arg18 (by decide)).trans ((hostOps2_keep (Wi3 m c) main_arg18 (by decide)).trans ((Wout1_of_ne (Wi2 m) c main_arg18 (by decide)).trans ((hostOps1_keep (Wi1 m c) main_arg18 (by decide)).trans ((Wout0_of_ne (Wi0 m) c main_arg18 (by decide))))))))))))))
theorem keep_main_arg19_13_0 (c : Dev nD) : Wi13 m c (Proc.devRef .tc main_arg19) = Wi0 m c (Proc.devRef .tc main_arg19) :=
  (Wout8_of_ne (Wi12 m) c main_arg19 (by decide)).trans ((Wout7_of_ne (Wi11 m) c main_arg19 (by decide)).trans ((hostOps7_keep (Wi10 m c) main_arg19 (by decide)).trans ((Wout6_of_ne (Wi9 m) c main_arg19 (by decide)).trans ((Wout5_of_ne (Wi8 m) c main_arg19 (by decide)).trans ((hostOps5_keep (Wi7 m c) main_arg19 (by decide)).trans ((Wout4_of_ne (Wi6 m) c main_arg19 (by decide)).trans ((Wout3_of_ne (Wi5 m) c main_arg19 (by decide)).trans ((Wout2_of_ne (Wi4 m) c main_arg19 (by decide)).trans ((hostOps2_keep (Wi3 m c) main_arg19 (by decide)).trans ((Wout1_of_ne (Wi2 m) c main_arg19 (by decide)).trans ((hostOps1_keep (Wi1 m c) main_arg19 (by decide)).trans ((Wout0_of_ne (Wi0 m) c main_arg19 (by decide))))))))))))))
theorem keep_main_arg20_13_0 (c : Dev nD) : Wi13 m c (Proc.devRef .tc main_arg20) = Wi0 m c (Proc.devRef .tc main_arg20) :=
  (Wout8_of_ne (Wi12 m) c main_arg20 (by decide)).trans ((Wout7_of_ne (Wi11 m) c main_arg20 (by decide)).trans ((hostOps7_keep (Wi10 m c) main_arg20 (by decide)).trans ((Wout6_of_ne (Wi9 m) c main_arg20 (by decide)).trans ((Wout5_of_ne (Wi8 m) c main_arg20 (by decide)).trans ((hostOps5_keep (Wi7 m c) main_arg20 (by decide)).trans ((Wout4_of_ne (Wi6 m) c main_arg20 (by decide)).trans ((Wout3_of_ne (Wi5 m) c main_arg20 (by decide)).trans ((Wout2_of_ne (Wi4 m) c main_arg20 (by decide)).trans ((hostOps2_keep (Wi3 m c) main_arg20 (by decide)).trans ((Wout1_of_ne (Wi2 m) c main_arg20 (by decide)).trans ((hostOps1_keep (Wi1 m c) main_arg20 (by decide)).trans ((Wout0_of_ne (Wi0 m) c main_arg20 (by decide))))))))))))))
theorem keep_main_arg21_13_0 (c : Dev nD) : Wi13 m c (Proc.devRef .tc main_arg21) = Wi0 m c (Proc.devRef .tc main_arg21) :=
  (Wout8_of_ne (Wi12 m) c main_arg21 (by decide)).trans ((Wout7_of_ne (Wi11 m) c main_arg21 (by decide)).trans ((hostOps7_keep (Wi10 m c) main_arg21 (by decide)).trans ((Wout6_of_ne (Wi9 m) c main_arg21 (by decide)).trans ((Wout5_of_ne (Wi8 m) c main_arg21 (by decide)).trans ((hostOps5_keep (Wi7 m c) main_arg21 (by decide)).trans ((Wout4_of_ne (Wi6 m) c main_arg21 (by decide)).trans ((Wout3_of_ne (Wi5 m) c main_arg21 (by decide)).trans ((Wout2_of_ne (Wi4 m) c main_arg21 (by decide)).trans ((hostOps2_keep (Wi3 m c) main_arg21 (by decide)).trans ((Wout1_of_ne (Wi2 m) c main_arg21 (by decide)).trans ((hostOps1_keep (Wi1 m c) main_arg21 (by decide)).trans ((Wout0_of_ne (Wi0 m) c main_arg21 (by decide))))))))))))))

/-! ## The arguments at the end -/

theorem Wi15_main_arg0 (c : Dev nD) : Wi15 m c (Proc.devRef .tc main_arg0) = m ((c : Thread nD τ).loc main_arg0) :=
  ((hostOps9_1_keep (Wi14 m c) main_arg0 (by decide)).trans ((hostOps9_keep (Wi13 m c) main_arg0 (by decide)).trans ((Wout8_of_ne (Wi12 m) c main_arg0 (by decide)).trans ((Wout7_of_ne (Wi11 m) c main_arg0 (by decide)).trans ((hostOps7_keep (Wi10 m c) main_arg0 (by decide)).trans ((Wout6_of_ne (Wi9 m) c main_arg0 (by decide)).trans ((Wout5_of_ne (Wi8 m) c main_arg0 (by decide)).trans ((hostOps5_keep (Wi7 m c) main_arg0 (by decide)).trans ((Wout4_of_ne (Wi6 m) c main_arg0 (by decide)).trans ((Wout3_of_ne (Wi5 m) c main_arg0 (by decide)).trans ((Wout2_of_ne (Wi4 m) c main_arg0 (by decide)).trans ((hostOps2_keep (Wi3 m c) main_arg0 (by decide)).trans ((Wout1_main_arg0 (Wi2 m) c).trans ((hostOps1_keep (Wi1 m c) main_arg0 (by decide)).trans ((Wout0_of_ne (Wi0 m) c main_arg0 (by decide))))))))))))))))).trans rfl
theorem Wi15_main_arg1 (c : Dev nD) : Wi15 m c (Proc.devRef .tc main_arg1) = m ((c : Thread nD τ).loc main_arg1) :=
  ((hostOps9_1_keep (Wi14 m c) main_arg1 (by decide)).trans ((hostOps9_keep (Wi13 m c) main_arg1 (by decide)).trans ((Wout8_of_ne (Wi12 m) c main_arg1 (by decide)).trans ((Wout7_of_ne (Wi11 m) c main_arg1 (by decide)).trans ((hostOps7_keep (Wi10 m c) main_arg1 (by decide)).trans ((Wout6_of_ne (Wi9 m) c main_arg1 (by decide)).trans ((Wout5_of_ne (Wi8 m) c main_arg1 (by decide)).trans ((hostOps5_keep (Wi7 m c) main_arg1 (by decide)).trans ((Wout4_of_ne (Wi6 m) c main_arg1 (by decide)).trans ((Wout3_of_ne (Wi5 m) c main_arg1 (by decide)).trans ((Wout2_of_ne (Wi4 m) c main_arg1 (by decide)).trans ((hostOps2_keep (Wi3 m c) main_arg1 (by decide)).trans ((Wout1_of_ne (Wi2 m) c main_arg1 (by decide)).trans ((hostOps1_keep (Wi1 m c) main_arg1 (by decide)).trans ((Wout0_main_arg1 (Wi0 m) c)))))))))))))))).trans rfl
theorem Wi15_main_arg2 (c : Dev nD) : Wi15 m c (Proc.devRef .tc main_arg2) = m ((c : Thread nD τ).loc main_arg2) :=
  ((hostOps9_1_keep (Wi14 m c) main_arg2 (by decide)).trans ((hostOps9_keep (Wi13 m c) main_arg2 (by decide)).trans ((Wout8_of_ne (Wi12 m) c main_arg2 (by decide)).trans ((Wout7_of_ne (Wi11 m) c main_arg2 (by decide)).trans ((hostOps7_keep (Wi10 m c) main_arg2 (by decide)).trans ((Wout6_of_ne (Wi9 m) c main_arg2 (by decide)).trans ((Wout5_of_ne (Wi8 m) c main_arg2 (by decide)).trans ((hostOps5_keep (Wi7 m c) main_arg2 (by decide)).trans ((Wout4_of_ne (Wi6 m) c main_arg2 (by decide)).trans ((Wout3_of_ne (Wi5 m) c main_arg2 (by decide)).trans ((Wout2_of_ne (Wi4 m) c main_arg2 (by decide)).trans ((hostOps2_keep (Wi3 m c) main_arg2 (by decide)).trans ((Wout1_main_arg2 (Wi2 m) c).trans ((hostOps1_keep (Wi1 m c) main_arg2 (by decide)).trans ((Wout0_of_ne (Wi0 m) c main_arg2 (by decide))))))))))))))))).trans rfl
theorem Wi15_main_arg3 (c : Dev nD) : Wi15 m c (Proc.devRef .tc main_arg3) = m ((c : Thread nD τ).loc main_arg3) :=
  ((hostOps9_1_keep (Wi14 m c) main_arg3 (by decide)).trans ((hostOps9_keep (Wi13 m c) main_arg3 (by decide)).trans ((Wout8_of_ne (Wi12 m) c main_arg3 (by decide)).trans ((Wout7_of_ne (Wi11 m) c main_arg3 (by decide)).trans ((hostOps7_keep (Wi10 m c) main_arg3 (by decide)).trans ((Wout6_of_ne (Wi9 m) c main_arg3 (by decide)).trans ((Wout5_of_ne (Wi8 m) c main_arg3 (by decide)).trans ((hostOps5_keep (Wi7 m c) main_arg3 (by decide)).trans ((Wout4_of_ne (Wi6 m) c main_arg3 (by decide)).trans ((Wout3_of_ne (Wi5 m) c main_arg3 (by decide)).trans ((Wout2_of_ne (Wi4 m) c main_arg3 (by decide)).trans ((hostOps2_keep (Wi3 m c) main_arg3 (by decide)).trans ((Wout1_of_ne (Wi2 m) c main_arg3 (by decide)).trans ((hostOps1_keep (Wi1 m c) main_arg3 (by decide)).trans ((Wout0_of_ne (Wi0 m) c main_arg3 (by decide))))))))))))))))).trans rfl
theorem Wi15_main_arg4 (c : Dev nD) : Wi15 m c (Proc.devRef .tc main_arg4) = m ((c : Thread nD τ).loc main_arg4) :=
  ((hostOps9_1_keep (Wi14 m c) main_arg4 (by decide)).trans ((hostOps9_keep (Wi13 m c) main_arg4 (by decide)).trans ((Wout8_of_ne (Wi12 m) c main_arg4 (by decide)).trans ((Wout7_of_ne (Wi11 m) c main_arg4 (by decide)).trans ((hostOps7_keep (Wi10 m c) main_arg4 (by decide)).trans ((Wout6_of_ne (Wi9 m) c main_arg4 (by decide)).trans ((Wout5_of_ne (Wi8 m) c main_arg4 (by decide)).trans ((hostOps5_keep (Wi7 m c) main_arg4 (by decide)).trans ((Wout4_of_ne (Wi6 m) c main_arg4 (by decide)).trans ((Wout3_main_arg4 (Wi5 m) c).trans ((Wout2_of_ne (Wi4 m) c main_arg4 (by decide)).trans ((hostOps2_keep (Wi3 m c) main_arg4 (by decide)).trans ((Wout1_of_ne (Wi2 m) c main_arg4 (by decide)).trans ((hostOps1_keep (Wi1 m c) main_arg4 (by decide)).trans ((Wout0_of_ne (Wi0 m) c main_arg4 (by decide))))))))))))))))).trans rfl
theorem Wi15_main_arg5 (c : Dev nD) : Wi15 m c (Proc.devRef .tc main_arg5) = m ((c : Thread nD τ).loc main_arg5) :=
  ((hostOps9_1_keep (Wi14 m c) main_arg5 (by decide)).trans ((hostOps9_keep (Wi13 m c) main_arg5 (by decide)).trans ((Wout8_of_ne (Wi12 m) c main_arg5 (by decide)).trans ((Wout7_of_ne (Wi11 m) c main_arg5 (by decide)).trans ((hostOps7_keep (Wi10 m c) main_arg5 (by decide)).trans ((Wout6_of_ne (Wi9 m) c main_arg5 (by decide)).trans ((Wout5_of_ne (Wi8 m) c main_arg5 (by decide)).trans ((hostOps5_keep (Wi7 m c) main_arg5 (by decide)).trans ((Wout4_of_ne (Wi6 m) c main_arg5 (by decide)).trans ((Wout3_of_ne (Wi5 m) c main_arg5 (by decide)).trans ((Wout2_of_ne (Wi4 m) c main_arg5 (by decide)).trans ((hostOps2_keep (Wi3 m c) main_arg5 (by decide)).trans ((Wout1_of_ne (Wi2 m) c main_arg5 (by decide)).trans ((hostOps1_keep (Wi1 m c) main_arg5 (by decide)).trans ((Wout0_of_ne (Wi0 m) c main_arg5 (by decide))))))))))))))))).trans rfl
theorem Wi15_main_arg6 (c : Dev nD) : Wi15 m c (Proc.devRef .tc main_arg6) = m ((c : Thread nD τ).loc main_arg6) :=
  ((hostOps9_1_keep (Wi14 m c) main_arg6 (by decide)).trans ((hostOps9_keep (Wi13 m c) main_arg6 (by decide)).trans ((Wout8_of_ne (Wi12 m) c main_arg6 (by decide)).trans ((Wout7_of_ne (Wi11 m) c main_arg6 (by decide)).trans ((hostOps7_keep (Wi10 m c) main_arg6 (by decide)).trans ((Wout6_of_ne (Wi9 m) c main_arg6 (by decide)).trans ((Wout5_of_ne (Wi8 m) c main_arg6 (by decide)).trans ((hostOps5_keep (Wi7 m c) main_arg6 (by decide)).trans ((Wout4_main_arg6 (Wi6 m) c).trans ((Wout3_of_ne (Wi5 m) c main_arg6 (by decide)).trans ((Wout2_of_ne (Wi4 m) c main_arg6 (by decide)).trans ((hostOps2_keep (Wi3 m c) main_arg6 (by decide)).trans ((Wout1_of_ne (Wi2 m) c main_arg6 (by decide)).trans ((hostOps1_keep (Wi1 m c) main_arg6 (by decide)).trans ((Wout0_of_ne (Wi0 m) c main_arg6 (by decide))))))))))))))))).trans rfl
theorem Wi15_main_arg7 (c : Dev nD) : Wi15 m c (Proc.devRef .tc main_arg7) = m ((c : Thread nD τ).loc main_arg7) :=
  ((hostOps9_1_keep (Wi14 m c) main_arg7 (by decide)).trans ((hostOps9_keep (Wi13 m c) main_arg7 (by decide)).trans ((Wout8_of_ne (Wi12 m) c main_arg7 (by decide)).trans ((Wout7_of_ne (Wi11 m) c main_arg7 (by decide)).trans ((hostOps7_keep (Wi10 m c) main_arg7 (by decide)).trans ((Wout6_of_ne (Wi9 m) c main_arg7 (by decide)).trans ((Wout5_of_ne (Wi8 m) c main_arg7 (by decide)).trans ((hostOps5_keep (Wi7 m c) main_arg7 (by decide)).trans ((Wout4_of_ne (Wi6 m) c main_arg7 (by decide)).trans ((Wout3_of_ne (Wi5 m) c main_arg7 (by decide)).trans ((Wout2_of_ne (Wi4 m) c main_arg7 (by decide)).trans ((hostOps2_keep (Wi3 m c) main_arg7 (by decide)).trans ((Wout1_of_ne (Wi2 m) c main_arg7 (by decide)).trans ((hostOps1_keep (Wi1 m c) main_arg7 (by decide)).trans ((Wout0_of_ne (Wi0 m) c main_arg7 (by decide))))))))))))))))).trans rfl
theorem Wi15_main_arg8 (c : Dev nD) : Wi15 m c (Proc.devRef .tc main_arg8) = m ((c : Thread nD τ).loc main_arg8) :=
  ((hostOps9_1_keep (Wi14 m c) main_arg8 (by decide)).trans ((hostOps9_keep (Wi13 m c) main_arg8 (by decide)).trans ((Wout8_of_ne (Wi12 m) c main_arg8 (by decide)).trans ((Wout7_of_ne (Wi11 m) c main_arg8 (by decide)).trans ((hostOps7_keep (Wi10 m c) main_arg8 (by decide)).trans ((Wout6_of_ne (Wi9 m) c main_arg8 (by decide)).trans ((Wout5_of_ne (Wi8 m) c main_arg8 (by decide)).trans ((hostOps5_keep (Wi7 m c) main_arg8 (by decide)).trans ((Wout4_of_ne (Wi6 m) c main_arg8 (by decide)).trans ((Wout3_of_ne (Wi5 m) c main_arg8 (by decide)).trans ((Wout2_of_ne (Wi4 m) c main_arg8 (by decide)).trans ((hostOps2_keep (Wi3 m c) main_arg8 (by decide)).trans ((Wout1_of_ne (Wi2 m) c main_arg8 (by decide)).trans ((hostOps1_keep (Wi1 m c) main_arg8 (by decide)).trans ((Wout0_of_ne (Wi0 m) c main_arg8 (by decide))))))))))))))))).trans rfl
theorem Wi15_main_arg9 (c : Dev nD) : Wi15 m c (Proc.devRef .tc main_arg9) = m ((c : Thread nD τ).loc main_arg9) :=
  ((hostOps9_1_keep (Wi14 m c) main_arg9 (by decide)).trans ((hostOps9_keep (Wi13 m c) main_arg9 (by decide)).trans ((Wout8_of_ne (Wi12 m) c main_arg9 (by decide)).trans ((Wout7_of_ne (Wi11 m) c main_arg9 (by decide)).trans ((hostOps7_keep (Wi10 m c) main_arg9 (by decide)).trans ((Wout6_of_ne (Wi9 m) c main_arg9 (by decide)).trans ((Wout5_of_ne (Wi8 m) c main_arg9 (by decide)).trans ((hostOps5_keep (Wi7 m c) main_arg9 (by decide)).trans ((Wout4_of_ne (Wi6 m) c main_arg9 (by decide)).trans ((Wout3_of_ne (Wi5 m) c main_arg9 (by decide)).trans ((Wout2_of_ne (Wi4 m) c main_arg9 (by decide)).trans ((hostOps2_keep (Wi3 m c) main_arg9 (by decide)).trans ((Wout1_of_ne (Wi2 m) c main_arg9 (by decide)).trans ((hostOps1_keep (Wi1 m c) main_arg9 (by decide)).trans ((Wout0_of_ne (Wi0 m) c main_arg9 (by decide))))))))))))))))).trans rfl
theorem Wi15_main_arg10 (c : Dev nD) : Wi15 m c (Proc.devRef .tc main_arg10) = m ((c : Thread nD τ).loc main_arg10) :=
  ((hostOps9_1_keep (Wi14 m c) main_arg10 (by decide)).trans ((hostOps9_keep (Wi13 m c) main_arg10 (by decide)).trans ((Wout8_of_ne (Wi12 m) c main_arg10 (by decide)).trans ((Wout7_of_ne (Wi11 m) c main_arg10 (by decide)).trans ((hostOps7_keep (Wi10 m c) main_arg10 (by decide)).trans ((Wout6_of_ne (Wi9 m) c main_arg10 (by decide)).trans ((Wout5_of_ne (Wi8 m) c main_arg10 (by decide)).trans ((hostOps5_keep (Wi7 m c) main_arg10 (by decide)).trans ((Wout4_of_ne (Wi6 m) c main_arg10 (by decide)).trans ((Wout3_of_ne (Wi5 m) c main_arg10 (by decide)).trans ((Wout2_of_ne (Wi4 m) c main_arg10 (by decide)).trans ((hostOps2_keep (Wi3 m c) main_arg10 (by decide)).trans ((Wout1_of_ne (Wi2 m) c main_arg10 (by decide)).trans ((hostOps1_keep (Wi1 m c) main_arg10 (by decide)).trans ((Wout0_of_ne (Wi0 m) c main_arg10 (by decide))))))))))))))))).trans rfl
theorem Wi15_main_arg11 (c : Dev nD) : Wi15 m c (Proc.devRef .tc main_arg11) = m ((c : Thread nD τ).loc main_arg11) :=
  ((hostOps9_1_keep (Wi14 m c) main_arg11 (by decide)).trans ((hostOps9_keep (Wi13 m c) main_arg11 (by decide)).trans ((Wout8_of_ne (Wi12 m) c main_arg11 (by decide)).trans ((Wout7_of_ne (Wi11 m) c main_arg11 (by decide)).trans ((hostOps7_keep (Wi10 m c) main_arg11 (by decide)).trans ((Wout6_of_ne (Wi9 m) c main_arg11 (by decide)).trans ((Wout5_of_ne (Wi8 m) c main_arg11 (by decide)).trans ((hostOps5_keep (Wi7 m c) main_arg11 (by decide)).trans ((Wout4_of_ne (Wi6 m) c main_arg11 (by decide)).trans ((Wout3_of_ne (Wi5 m) c main_arg11 (by decide)).trans ((Wout2_of_ne (Wi4 m) c main_arg11 (by decide)).trans ((hostOps2_keep (Wi3 m c) main_arg11 (by decide)).trans ((Wout1_of_ne (Wi2 m) c main_arg11 (by decide)).trans ((hostOps1_keep (Wi1 m c) main_arg11 (by decide)).trans ((Wout0_of_ne (Wi0 m) c main_arg11 (by decide))))))))))))))))).trans rfl
theorem Wi15_main_arg12 (c : Dev nD) : Wi15 m c (Proc.devRef .tc main_arg12) = m ((c : Thread nD τ).loc main_arg12) :=
  ((hostOps9_1_keep (Wi14 m c) main_arg12 (by decide)).trans ((hostOps9_keep (Wi13 m c) main_arg12 (by decide)).trans ((Wout8_of_ne (Wi12 m) c main_arg12 (by decide)).trans ((Wout7_of_ne (Wi11 m) c main_arg12 (by decide)).trans ((hostOps7_keep (Wi10 m c) main_arg12 (by decide)).trans ((Wout6_of_ne (Wi9 m) c main_arg12 (by decide)).trans ((Wout5_of_ne (Wi8 m) c main_arg12 (by decide)).trans ((hostOps5_keep (Wi7 m c) main_arg12 (by decide)).trans ((Wout4_of_ne (Wi6 m) c main_arg12 (by decide)).trans ((Wout3_of_ne (Wi5 m) c main_arg12 (by decide)).trans ((Wout2_of_ne (Wi4 m) c main_arg12 (by decide)).trans ((hostOps2_keep (Wi3 m c) main_arg12 (by decide)).trans ((Wout1_of_ne (Wi2 m) c main_arg12 (by decide)).trans ((hostOps1_keep (Wi1 m c) main_arg12 (by decide)).trans ((Wout0_of_ne (Wi0 m) c main_arg12 (by decide))))))))))))))))).trans rfl
theorem Wi15_main_arg13 (c : Dev nD) : Wi15 m c (Proc.devRef .tc main_arg13) = m ((c : Thread nD τ).loc main_arg13) :=
  ((hostOps9_1_keep (Wi14 m c) main_arg13 (by decide)).trans ((hostOps9_keep (Wi13 m c) main_arg13 (by decide)).trans ((Wout8_of_ne (Wi12 m) c main_arg13 (by decide)).trans ((Wout7_of_ne (Wi11 m) c main_arg13 (by decide)).trans ((hostOps7_keep (Wi10 m c) main_arg13 (by decide)).trans ((Wout6_of_ne (Wi9 m) c main_arg13 (by decide)).trans ((Wout5_of_ne (Wi8 m) c main_arg13 (by decide)).trans ((hostOps5_keep (Wi7 m c) main_arg13 (by decide)).trans ((Wout4_of_ne (Wi6 m) c main_arg13 (by decide)).trans ((Wout3_of_ne (Wi5 m) c main_arg13 (by decide)).trans ((Wout2_of_ne (Wi4 m) c main_arg13 (by decide)).trans ((hostOps2_keep (Wi3 m c) main_arg13 (by decide)).trans ((Wout1_of_ne (Wi2 m) c main_arg13 (by decide)).trans ((hostOps1_keep (Wi1 m c) main_arg13 (by decide)).trans ((Wout0_of_ne (Wi0 m) c main_arg13 (by decide))))))))))))))))).trans rfl
theorem Wi15_main_arg14 (c : Dev nD) : Wi15 m c (Proc.devRef .tc main_arg14) = m ((c : Thread nD τ).loc main_arg14) :=
  ((hostOps9_1_keep (Wi14 m c) main_arg14 (by decide)).trans ((hostOps9_keep (Wi13 m c) main_arg14 (by decide)).trans ((Wout8_of_ne (Wi12 m) c main_arg14 (by decide)).trans ((Wout7_of_ne (Wi11 m) c main_arg14 (by decide)).trans ((hostOps7_keep (Wi10 m c) main_arg14 (by decide)).trans ((Wout6_of_ne (Wi9 m) c main_arg14 (by decide)).trans ((Wout5_of_ne (Wi8 m) c main_arg14 (by decide)).trans ((hostOps5_keep (Wi7 m c) main_arg14 (by decide)).trans ((Wout4_of_ne (Wi6 m) c main_arg14 (by decide)).trans ((Wout3_of_ne (Wi5 m) c main_arg14 (by decide)).trans ((Wout2_of_ne (Wi4 m) c main_arg14 (by decide)).trans ((hostOps2_keep (Wi3 m c) main_arg14 (by decide)).trans ((Wout1_of_ne (Wi2 m) c main_arg14 (by decide)).trans ((hostOps1_keep (Wi1 m c) main_arg14 (by decide)).trans ((Wout0_of_ne (Wi0 m) c main_arg14 (by decide))))))))))))))))).trans rfl
theorem Wi15_main_arg15 (c : Dev nD) : Wi15 m c (Proc.devRef .tc main_arg15) = m ((c : Thread nD τ).loc main_arg15) :=
  ((hostOps9_1_keep (Wi14 m c) main_arg15 (by decide)).trans ((hostOps9_keep (Wi13 m c) main_arg15 (by decide)).trans ((Wout8_of_ne (Wi12 m) c main_arg15 (by decide)).trans ((Wout7_of_ne (Wi11 m) c main_arg15 (by decide)).trans ((hostOps7_keep (Wi10 m c) main_arg15 (by decide)).trans ((Wout6_of_ne (Wi9 m) c main_arg15 (by decide)).trans ((Wout5_of_ne (Wi8 m) c main_arg15 (by decide)).trans ((hostOps5_keep (Wi7 m c) main_arg15 (by decide)).trans ((Wout4_of_ne (Wi6 m) c main_arg15 (by decide)).trans ((Wout3_of_ne (Wi5 m) c main_arg15 (by decide)).trans ((Wout2_of_ne (Wi4 m) c main_arg15 (by decide)).trans ((hostOps2_keep (Wi3 m c) main_arg15 (by decide)).trans ((Wout1_of_ne (Wi2 m) c main_arg15 (by decide)).trans ((hostOps1_keep (Wi1 m c) main_arg15 (by decide)).trans ((Wout0_of_ne (Wi0 m) c main_arg15 (by decide))))))))))))))))).trans rfl
theorem Wi15_main_arg16 (c : Dev nD) : Wi15 m c (Proc.devRef .tc main_arg16) = m ((c : Thread nD τ).loc main_arg16) :=
  ((hostOps9_1_keep (Wi14 m c) main_arg16 (by decide)).trans ((hostOps9_keep (Wi13 m c) main_arg16 (by decide)).trans ((Wout8_of_ne (Wi12 m) c main_arg16 (by decide)).trans ((Wout7_of_ne (Wi11 m) c main_arg16 (by decide)).trans ((hostOps7_keep (Wi10 m c) main_arg16 (by decide)).trans ((Wout6_of_ne (Wi9 m) c main_arg16 (by decide)).trans ((Wout5_of_ne (Wi8 m) c main_arg16 (by decide)).trans ((hostOps5_keep (Wi7 m c) main_arg16 (by decide)).trans ((Wout4_of_ne (Wi6 m) c main_arg16 (by decide)).trans ((Wout3_of_ne (Wi5 m) c main_arg16 (by decide)).trans ((Wout2_of_ne (Wi4 m) c main_arg16 (by decide)).trans ((hostOps2_keep (Wi3 m c) main_arg16 (by decide)).trans ((Wout1_of_ne (Wi2 m) c main_arg16 (by decide)).trans ((hostOps1_keep (Wi1 m c) main_arg16 (by decide)).trans ((Wout0_of_ne (Wi0 m) c main_arg16 (by decide))))))))))))))))).trans rfl
theorem Wi15_main_arg17 (c : Dev nD) : Wi15 m c (Proc.devRef .tc main_arg17) = m ((c : Thread nD τ).loc main_arg17) :=
  ((hostOps9_1_keep (Wi14 m c) main_arg17 (by decide)).trans ((hostOps9_keep (Wi13 m c) main_arg17 (by decide)).trans ((Wout8_of_ne (Wi12 m) c main_arg17 (by decide)).trans ((Wout7_of_ne (Wi11 m) c main_arg17 (by decide)).trans ((hostOps7_keep (Wi10 m c) main_arg17 (by decide)).trans ((Wout6_of_ne (Wi9 m) c main_arg17 (by decide)).trans ((Wout5_of_ne (Wi8 m) c main_arg17 (by decide)).trans ((hostOps5_keep (Wi7 m c) main_arg17 (by decide)).trans ((Wout4_of_ne (Wi6 m) c main_arg17 (by decide)).trans ((Wout3_of_ne (Wi5 m) c main_arg17 (by decide)).trans ((Wout2_of_ne (Wi4 m) c main_arg17 (by decide)).trans ((hostOps2_keep (Wi3 m c) main_arg17 (by decide)).trans ((Wout1_of_ne (Wi2 m) c main_arg17 (by decide)).trans ((hostOps1_keep (Wi1 m c) main_arg17 (by decide)).trans ((Wout0_of_ne (Wi0 m) c main_arg17 (by decide))))))))))))))))).trans rfl
theorem Wi15_main_arg18 (c : Dev nD) : Wi15 m c (Proc.devRef .tc main_arg18) = m ((c : Thread nD τ).loc main_arg18) :=
  ((hostOps9_1_keep (Wi14 m c) main_arg18 (by decide)).trans ((hostOps9_keep (Wi13 m c) main_arg18 (by decide)).trans ((Wout8_of_ne (Wi12 m) c main_arg18 (by decide)).trans ((Wout7_of_ne (Wi11 m) c main_arg18 (by decide)).trans ((hostOps7_keep (Wi10 m c) main_arg18 (by decide)).trans ((Wout6_of_ne (Wi9 m) c main_arg18 (by decide)).trans ((Wout5_of_ne (Wi8 m) c main_arg18 (by decide)).trans ((hostOps5_keep (Wi7 m c) main_arg18 (by decide)).trans ((Wout4_of_ne (Wi6 m) c main_arg18 (by decide)).trans ((Wout3_of_ne (Wi5 m) c main_arg18 (by decide)).trans ((Wout2_of_ne (Wi4 m) c main_arg18 (by decide)).trans ((hostOps2_keep (Wi3 m c) main_arg18 (by decide)).trans ((Wout1_of_ne (Wi2 m) c main_arg18 (by decide)).trans ((hostOps1_keep (Wi1 m c) main_arg18 (by decide)).trans ((Wout0_of_ne (Wi0 m) c main_arg18 (by decide))))))))))))))))).trans rfl
theorem Wi15_main_arg19 (c : Dev nD) : Wi15 m c (Proc.devRef .tc main_arg19) = m ((c : Thread nD τ).loc main_arg19) :=
  ((hostOps9_1_keep (Wi14 m c) main_arg19 (by decide)).trans ((hostOps9_keep (Wi13 m c) main_arg19 (by decide)).trans ((Wout8_of_ne (Wi12 m) c main_arg19 (by decide)).trans ((Wout7_of_ne (Wi11 m) c main_arg19 (by decide)).trans ((hostOps7_keep (Wi10 m c) main_arg19 (by decide)).trans ((Wout6_of_ne (Wi9 m) c main_arg19 (by decide)).trans ((Wout5_of_ne (Wi8 m) c main_arg19 (by decide)).trans ((hostOps5_keep (Wi7 m c) main_arg19 (by decide)).trans ((Wout4_of_ne (Wi6 m) c main_arg19 (by decide)).trans ((Wout3_of_ne (Wi5 m) c main_arg19 (by decide)).trans ((Wout2_of_ne (Wi4 m) c main_arg19 (by decide)).trans ((hostOps2_keep (Wi3 m c) main_arg19 (by decide)).trans ((Wout1_of_ne (Wi2 m) c main_arg19 (by decide)).trans ((hostOps1_keep (Wi1 m c) main_arg19 (by decide)).trans ((Wout0_of_ne (Wi0 m) c main_arg19 (by decide))))))))))))))))).trans rfl
theorem Wi15_main_arg20 (c : Dev nD) : Wi15 m c (Proc.devRef .tc main_arg20) = m ((c : Thread nD τ).loc main_arg20) :=
  ((hostOps9_1_keep (Wi14 m c) main_arg20 (by decide)).trans ((hostOps9_keep (Wi13 m c) main_arg20 (by decide)).trans ((Wout8_of_ne (Wi12 m) c main_arg20 (by decide)).trans ((Wout7_of_ne (Wi11 m) c main_arg20 (by decide)).trans ((hostOps7_keep (Wi10 m c) main_arg20 (by decide)).trans ((Wout6_of_ne (Wi9 m) c main_arg20 (by decide)).trans ((Wout5_of_ne (Wi8 m) c main_arg20 (by decide)).trans ((hostOps5_keep (Wi7 m c) main_arg20 (by decide)).trans ((Wout4_of_ne (Wi6 m) c main_arg20 (by decide)).trans ((Wout3_of_ne (Wi5 m) c main_arg20 (by decide)).trans ((Wout2_of_ne (Wi4 m) c main_arg20 (by decide)).trans ((hostOps2_keep (Wi3 m c) main_arg20 (by decide)).trans ((Wout1_of_ne (Wi2 m) c main_arg20 (by decide)).trans ((hostOps1_keep (Wi1 m c) main_arg20 (by decide)).trans ((Wout0_of_ne (Wi0 m) c main_arg20 (by decide))))))))))))))))).trans rfl
theorem Wi15_main_arg21 (c : Dev nD) : Wi15 m c (Proc.devRef .tc main_arg21) = m ((c : Thread nD τ).loc main_arg21) :=
  ((hostOps9_1_keep (Wi14 m c) main_arg21 (by decide)).trans ((hostOps9_keep (Wi13 m c) main_arg21 (by decide)).trans ((Wout8_of_ne (Wi12 m) c main_arg21 (by decide)).trans ((Wout7_of_ne (Wi11 m) c main_arg21 (by decide)).trans ((hostOps7_keep (Wi10 m c) main_arg21 (by decide)).trans ((Wout6_of_ne (Wi9 m) c main_arg21 (by decide)).trans ((Wout5_of_ne (Wi8 m) c main_arg21 (by decide)).trans ((hostOps5_keep (Wi7 m c) main_arg21 (by decide)).trans ((Wout4_of_ne (Wi6 m) c main_arg21 (by decide)).trans ((Wout3_of_ne (Wi5 m) c main_arg21 (by decide)).trans ((Wout2_of_ne (Wi4 m) c main_arg21 (by decide)).trans ((hostOps2_keep (Wi3 m c) main_arg21 (by decide)).trans ((Wout1_of_ne (Wi2 m) c main_arg21 (by decide)).trans ((hostOps1_keep (Wi1 m c) main_arg21 (by decide)).trans ((Wout0_of_ne (Wi0 m) c main_arg21 (by decide))))))))))))))))).trans rfl

end Cert.Kernel.Hand

end
-- ==== Proof.KI.Common.lean ====
/-
  Shared setting of the hand-written frame of the nine-region program: the resource algebra every region's proof
  data is stated over, the state that rides beside the buffers between two items of the host program, and the
  admissible (empty) prefetched tables.
-/
import proofs.«105977_j57329223467619_2_alg».proof.Proof.Gen.KernelIdeal.Launch
import proofs.«105977_j57329223467619_2_alg».proof.Proof.Gen.KernelIdeal.Points
import proofs.«105977_j57329223467619_2_alg».proof.Proof.Gen.KernelIdeal.Skeleton
import Idealize.ShloMosaic.Lib.Pipeline.Frame
import Idealize.ShloMosaic.Lib.Pipeline.FrameSuffix
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of every region's proof data: no level index, names and levels natural numbers. -/
abbrev MK (F : FTy → Type) : Type := MT nD τ sig Unit (Elt F) ℕ (UR sig nD τ) ℕ

/-- No pipeline has a prefetched table. -/
abbrev adm : (p : Fin 9) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp (MK F) := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Host.lean ====
/-
  The six stretches of host operations between the kernel regions: none allocates a buffer, each writes only the
  references listed here, and so every other reference holds after a stretch what it held before it.
-/
import proofs.«105977_j57329223467619_2_alg».proof.Proof.KI.Common

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v1]
theorem hostOps1_writes : (hostOps1 : List (HloOp τ sig (Elt F))).Forall fun op => op.writes ⊆ ((hostOps1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps1` does not write holds after the stretch what it held before. -/
theorem hostOps1_keep (W : Valuation τ sig (Elt F)) (r : Ref sig .tc) (h : r ∉ hostOps1_W) :
    StableHlo.after (hostOps1 : List (HloOp τ sig (Elt F))) W (Proc.devRef .tc r) = W (Proc.devRef .tc r) :=
  StableHlo.after_of_writes_sub hostOps1 _ hostOps1_writes h

/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v3]
theorem hostOps2_writes : (hostOps2 : List (HloOp τ sig (Elt F))).Forall fun op => op.writes ⊆ ((hostOps2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps2` does not write holds after the stretch what it held before. -/
theorem hostOps2_keep (W : Valuation τ sig (Elt F)) (r : Ref sig .tc) (h : r ∉ hostOps2_W) :
    StableHlo.after (hostOps2 : List (HloOp τ sig (Elt F))) W (Proc.devRef .tc r) = W (Proc.devRef .tc r) :=
  StableHlo.after_of_writes_sub hostOps2 _ hostOps2_writes h

/-- No operation of `hostOps5` allocates a buffer. -/
theorem hostOps5_fresh : (hostOps5 : List (HloOp τ sig (Elt F))).Forall fun op => op.fresh = ∅ := by
  simp only [List.Forall]; repeat' constructor
/-- The references `hostOps5`'s operations write. -/
abbrev hostOps5_W : List (Ref sig .tc) := [main_v7, main_v8]
theorem hostOps5_writes : (hostOps5 : List (HloOp τ sig (Elt F))).Forall fun op => op.writes ⊆ ((hostOps5_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps5` does not write holds after the stretch what it held before. -/
theorem hostOps5_keep (W : Valuation τ sig (Elt F)) (r : Ref sig .tc) (h : r ∉ hostOps5_W) :
    StableHlo.after (hostOps5 : List (HloOp τ sig (Elt F))) W (Proc.devRef .tc r) = W (Proc.devRef .tc r) :=
  StableHlo.after_of_writes_sub hostOps5 _ hostOps5_writes h

/-- No operation of `hostOps7` allocates a buffer. -/
theorem hostOps7_fresh : (hostOps7 : List (HloOp τ sig (Elt F))).Forall fun op => op.fresh = ∅ := by
  simp only [List.Forall]; repeat' constructor
/-- The references `hostOps7`'s operations write. -/
abbrev hostOps7_W : List (Ref sig .tc) := [main_v11]
theorem hostOps7_writes : (hostOps7 : List (HloOp τ sig (Elt F))).Forall fun op => op.writes ⊆ ((hostOps7_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps7` does not write holds after the stretch what it held before. -/
theorem hostOps7_keep (W : Valuation τ sig (Elt F)) (r : Ref sig .tc) (h : r ∉ hostOps7_W) :
    StableHlo.after (hostOps7 : List (HloOp τ sig (Elt F))) W (Proc.devRef .tc r) = W (Proc.devRef .tc r) :=
  StableHlo.after_of_writes_sub hostOps7 _ hostOps7_writes h

set_option maxHeartbeats 4000000 in
/-- No operation of `hostOps9` allocates a buffer. -/
theorem hostOps9_fresh : (hostOps9 : List (HloOp τ sig (Elt F))).Forall fun op => op.fresh = ∅ := by
  simp only [List.Forall]; repeat' constructor
/-- The references `hostOps9`'s operations write. -/
abbrev hostOps9_W : List (Ref sig .tc) := [main_v14, main_v15, main_v16, main_v17, main_v18, main_v19, main_v20, main_v21, main_v22, main_v23, main_v24, main_v25, main_v26, main_v27, main_v28, main_cst, main_v29, main_cst_0, main_v30, main_v31, main_v32, main_v33, main_v34, main_v35, main_cst_1, main_v36, main_v37, main_v38, main_v39, main_v40, main_v41, main_v42, main_v43, main_v44, main_v45, main_v46, main_v47, main_v48, main_v49, main_v50, main_v51, main_v52, main_v53, main_v54, main_v55, main_v56, main_v57, main_v58, main_v59, main_cst_2, main_v60, main_cst_3, main_v61, main_v62, main_v63, main_v64, main_v65, main_cst_4, main_v66, main_v67, main_v68, main_v69, main_v70, main_v71, main_v72, main_v73]
set_option maxHeartbeats 4000000 in
theorem hostOps9_writes : (hostOps9 : List (HloOp τ sig (Elt F))).Forall fun op => op.writes ⊆ ((hostOps9_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps9` does not write holds after the stretch what it held before. -/
theorem hostOps9_keep (W : Valuation τ sig (Elt F)) (r : Ref sig .tc) (h : r ∉ hostOps9_W) :
    StableHlo.after (hostOps9 : List (HloOp τ sig (Elt F))) W (Proc.devRef .tc r) = W (Proc.devRef .tc r) :=
  StableHlo.after_of_writes_sub hostOps9 _ hostOps9_writes h

/-- No operation of `hostOps9_1` allocates a buffer. -/
theorem hostOps9_1_fresh : (hostOps9_1 : List (HloOp τ sig (Elt F))).Forall fun op => op.fresh = ∅ := by
  simp only [List.Forall]; repeat' constructor
/-- The references `hostOps9_1`'s operations write. -/
abbrev hostOps9_1_W : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v74]
theorem hostOps9_1_writes : (hostOps9_1 : List (HloOp τ sig (Elt F))).Forall fun op => op.writes ⊆ ((hostOps9_1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps9_1` does not write holds after the stretch what it held before. -/
theorem hostOps9_1_keep (W : Valuation τ sig (Elt F)) (r : Ref sig .tc) (h : r ∉ hostOps9_1_W) :
    StableHlo.after (hostOps9_1 : List (HloOp τ sig (Elt F))) W (Proc.devRef .tc r) = W (Proc.devRef .tc r) :=
  StableHlo.after_of_writes_sub hostOps9_1 _ hostOps9_1_writes h

/-- A host stretch as a segment of the program: the unscoped references from the contents `W`, the riding state beside
    them; it leaves them at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

end Cert.KernelIdeal.Hand

end
-- ==== Proof.KI.Reg0.lean ====
/-
  Region 0 of the nine-region program: the kernel that copies the adjacency matrix block by block into bfloat16 and
  counts, row by row, the nonzero entries into an accumulator kept across the four column steps of a row block.
  Stated at the contents V the region is entered with: what each window's buffer holds after the body at every grid
  point, the body's triple in each case of its two conditions, the proof data, the body obligation, and the region as a
  segment between two thread states.
-/
import proofs.«105977_j57329223467619_2_alg».proof.Proof.KI.Common
import Idealize.ShloMosaic.Lib.Pipeline.FrameBody
import Idealize.ShloMosaic.Lib.Pipeline.Value
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two conditions of the body, decided over the grid -/

/-- The first condition: the column step is the first of its row block. -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second condition: the column step is the last of its row block. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The input window and the copy's window are live at every point; the degree window is idle, and not written back,
    off the last column step, and live at it. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- The two-axis offset vector of zeros is the zero function. -/
theorem zoff0 : (![0, 0] : Fin 2 → Nat) = fun _ => 0 := by
  funext a; fin_cases a <;> rfl

/-- The scratch accumulator as a memref. -/
abbrev scM0 : Memref sig .tc .vmem S1024x1 .f32 := Memref.whole cc0_scratch0

/-- The class invariant with the scratch accumulator set apart, owned at some contents. -/
theorem PhiA0_eq (c : Dev nD) :
    (Pipeline.ΦA spec0 c : sProp (MK F))
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-! ## Loads and stores through the rectangle that covers a whole buffer -/

/-- A load through the whole-shape rectangle at zero offsets reads the contents. -/
theorem readAt_whole_r0 {S : Shape} {e : EltTy} {κ : Kind} {sp : Space} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h]

/-- A store through it, the last of any list of stores, leaves its payload. -/
theorem read_writes_whole_r0 {S : Shape} {e : EltTy} {κ : Kind} {sp : Space} (v : View sig κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-! ## The body's triple, case by case -/

local notation "𝕄" => MT nD τ sig Unit (Elt F) ℕ (UR sig nD τ) ℕ

set_option maxHeartbeats 2000000 in
/-- A middle column step (neither first nor last): the accumulator, found at xs, gains the block's row counts; the copy's buffer takes the block recast; the degree buffer is handed back as found. -/
theorem run0_B (c : Dev nD) (i : grid0.Coords) (arg2 : Memref sig .tc .vmem S1024x2048 .f32) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1024x1 .f32) (harg5 : arg5.IsWhole)
    (hc0 : ¬cond0_0 i) (hc1 : ¬cond0_1 i)
    (x0 : Vec F S1024x2048 .f32) (xi2 : Vec F S1024x1 .f32) (xs : Vec F S1024x1 .f32) (E : Set ℕ) (K : PUnit → sProp 𝕄) :
    iprop(owns (c : Thread nD τ) arg2 fullShare x0 ∗ (∃ d, owns (c : Thread nD τ) arg3 fullShare d) ∗ owns (c : Thread nD τ) arg4 fullShare xi2
        ∗ owns (c : Thread nD τ) arg5 fullShare xs
        ∗ (iprop(owns (c : Thread nD τ) arg2 fullShare x0 ∗ owns (c : Thread nD τ) arg3 fullShare (k0_pay3 x0) ∗ owns (c : Thread nD τ) arg4 fullShare xi2
            ∗ owns (c : Thread nD τ) arg5 fullShare (k0_pay2 x0 xs)) -∗ K ⟨⟩))
      ⊢ wp frame (wpE (defs₀ (F := F)) Variants.none c none) E (cc0__adj_cast_kernel i arg2 harg2 arg3 harg3 arg4 harg4 arg5 harg5) K := by
  simp only [cc0__adj_cast_kernel_eq_skeleton]; unfold cc0__adj_cast_kernel_skel
  unfold owns
  iintro ⟨⟨%f0, %hf0, H0⟩, ⟨%d1, %f1, -, H1⟩, ⟨%f2, %hf2, H2⟩, ⟨%fs, %hfs, HS⟩, Hk⟩
  subst hf0
  sl_exec (disch := first | exact hc0 | exact hc1)
  sl_step
  iapply Hk
  isplitl [H0]
  · iexists f0; isplitr; · ipureintro; rfl
    iexact H0
  isplitl [H1]
  · iexists _; isplitr
    swap; · iexact H1
    ipureintro
    rw [read_writes_whole_r0 _ _ zoff0, readAt_whole_r0 _ _ zoff0]
  isplitl [H2]
  · iexists f2; isplitr; · ipureintro; exact hf2
    iexact H2
  iexists _; isplitr
  swap; · iexact HS
  ipureintro
  subst hfs
  rw [read_writes_whole_r0 _ _ zoff0, readAt_whole_r0 _ _ zoff0, readAt_whole_r0 _ _ zoff0]

set_option maxHeartbeats 2000000 in
/-- The first column step of a row block: the accumulator, whatever it held, is zeroed and gains the block's row counts; the copy's buffer takes the block recast; the degree buffer is handed back as found. -/
theorem run0_A (c : Dev nD) (i : grid0.Coords) (arg2 : Memref sig .tc .vmem S1024x2048 .f32) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1024x1 .f32) (harg5 : arg5.IsWhole)
    (hc0 : cond0_0 i) (hc1 : ¬cond0_1 i)
    (x0 : Vec F S1024x2048 .f32) (xi2 : Vec F S1024x1 .f32) (E : Set ℕ) (K : PUnit → sProp 𝕄) :
    iprop(owns (c : Thread nD τ) arg2 fullShare x0 ∗ (∃ d, owns (c : Thread nD τ) arg3 fullShare d) ∗ owns (c : Thread nD τ) arg4 fullShare xi2
        ∗ (∃ d, owns (c : Thread nD τ) arg5 fullShare d)
        ∗ (iprop(owns (c : Thread nD τ) arg2 fullShare x0 ∗ owns (c : Thread nD τ) arg3 fullShare (k0_pay3 x0) ∗ owns (c : Thread nD τ) arg4 fullShare xi2
            ∗ owns (c : Thread nD τ) arg5 fullShare (k0_pay2 x0 (k0_pay1 (F := F)))) -∗ K ⟨⟩))
      ⊢ wp frame (wpE (defs₀ (F := F)) Variants.none c none) E (cc0__adj_cast_kernel i arg2 harg2 arg3 harg3 arg4 harg4 arg5 harg5) K := by
  simp only [cc0__adj_cast_kernel_eq_skeleton]; unfold cc0__adj_cast_kernel_skel
  unfold owns
  iintro ⟨⟨%f0, %hf0, H0⟩, ⟨%d1, %f1, -, H1⟩, ⟨%f2, %hf2, H2⟩, ⟨%ds, %fs, -, HS⟩, Hk⟩
  subst hf0
  sl_exec (disch := first | exact hc0 | exact hc1)
  sl_step
  iapply Hk
  isplitl [H0]
  · iexists f0; isplitr; · ipureintro; rfl
    iexact H0
  isplitl [H1]
  · iexists _; isplitr
    swap; · iexact H1
    ipureintro
    rw [read_writes_whole_r0 _ _ zoff0, readAt_whole_r0 _ _ zoff0]
  isplitl [H2]
  · iexists f2; isplitr; · ipureintro; exact hf2
    iexact H2
  iexists _; isplitr
  swap; · iexact HS
  ipureintro
  unfold run0_A.sl.v8 run0_A.sl.HS_1
  rw [read_writes_whole_r0 _ _ zoff0, readAt_whole_r0 _ _ zoff0, View.readCov_unit_zero _ zoff0]

set_option maxHeartbeats 2000000 in
/-- The last column step of a row block: the accumulator, found at xs, gains the block's row counts, and the degree buffer, whatever it held, takes the accumulator; the copy's buffer takes the block recast. -/
theorem run0_C (c : Dev nD) (i : grid0.Coords) (arg2 : Memref sig .tc .vmem S1024x2048 .f32) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1024x1 .f32) (harg5 : arg5.IsWhole)
    (hc0 : ¬cond0_0 i) (hc1 : cond0_1 i)
    (x0 : Vec F S1024x2048 .f32) (xs : Vec F S1024x1 .f32) (E : Set ℕ) (K : PUnit → sProp 𝕄) :
    iprop(owns (c : Thread nD τ) arg2 fullShare x0 ∗ (∃ d, owns (c : Thread nD τ) arg3 fullShare d) ∗ (∃ d, owns (c : Thread nD τ) arg4 fullShare d)
        ∗ owns (c : Thread nD τ) arg5 fullShare xs
        ∗ (iprop(owns (c : Thread nD τ) arg2 fullShare x0 ∗ owns (c : Thread nD τ) arg3 fullShare (k0_pay3 x0) ∗ owns (c : Thread nD τ) arg4 fullShare (k0_pay2 x0 xs)
            ∗ owns (c : Thread nD τ) arg5 fullShare (k0_pay2 x0 xs)) -∗ K ⟨⟩))
      ⊢ wp frame (wpE (defs₀ (F := F)) Variants.none c none) E (cc0__adj_cast_kernel i arg2 harg2 arg3 harg3 arg4 harg4 arg5 harg5) K := by
  simp only [cc0__adj_cast_kernel_eq_skeleton]; unfold cc0__adj_cast_kernel_skel
  unfold owns
  iintro ⟨⟨%f0, %hf0, H0⟩, ⟨%d1, %f1, -, H1⟩, ⟨%d2, %f2, -, H2⟩, ⟨%fs, %hfs, HS⟩, Hk⟩
  subst hf0
  sl_exec (disch := first | exact hc0 | exact hc1)
  sl_step
  iapply Hk
  isplitl [H0]
  · iexists f0; isplitr; · ipureintro; rfl
    iexact H0
  isplitl [H1]
  · iexists _; isplitr
    swap; · iexact H1
    ipureintro
    rw [read_writes_whole_r0 _ _ zoff0, readAt_whole_r0 _ _ zoff0]
  subst hfs
  isplitl [H2]
  · iexists _; isplitr
    swap; · iexact H2
    ipureintro
    unfold run0_C.sl.v20 run0_C.sl.HS_1
    rw [read_writes_whole_r0 _ _ zoff0, View.readCov_unit_zero _ zoff0, readAt_whole_r0 _ _ zoff0, readAt_whole_r0 _ _ zoff0]
  iexists _; isplitr
  swap; · iexact HS
  ipureintro
  unfold run0_C.sl.HS_1
  rw [read_writes_whole_r0 _ _ zoff0, readAt_whole_r0 _ _ zoff0, readAt_whole_r0 _ _ zoff0]

/-! ## The windows' blocks, the accumulator point by point, the proof data -/

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point, for any proof data whose array is V's and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The accumulator after the body at position n: the block's row counts added to zero at the first column step of a
    row block, to what the point before left at the others. -/
def accAt0 (c : Dev nD) : (n : ℕ) → n < cfg0.N → Vec F S1024x1 .f32
  | 0, hn => k0_pay2 (iblk0 V c 0 ⟨0, hn⟩) (k0_pay1 (F := F))
  | n + 1, hn => k0_pay2 (iblk0 V c 0 ⟨n + 1, hn⟩)
      (if (n + 1) % 4 = 0 then k0_pay1 (F := F) else accAt0 c n (Nat.lt_of_succ_lt hn))

theorem accAt0_first (c : Dev nD) (t : Fin cfg0.N) (h0 : t.val % 4 = 0) :
    accAt0 V c t.val t.isLt = k0_pay2 (iblk0 V c 0 t) (k0_pay1 (F := F)) := by
  obtain ⟨n, hn⟩ := t
  cases n with
  | zero => rfl
  | succ n => show k0_pay2 _ (if (n + 1) % 4 = 0 then _ else _) = _; rw [if_pos h0]

theorem accAt0_later (c : Dev nD) (t : Fin cfg0.N) (h0 : ¬t.val % 4 = 0) :
    accAt0 V c t.val t.isLt = k0_pay2 (iblk0 V c 0 t) (accAt0 V c (t.val - 1) (Nat.lt_of_le_of_lt (Nat.sub_le _ _) t.isLt)) := by
  obtain ⟨n, hn⟩ := t
  cases n with
  | zero => exact absurd (Nat.zero_mod _) h0
  | succ n => show k0_pay2 _ (if (n + 1) % 4 = 0 then _ else _) = _; rw [if_neg h0]; rfl

/-- The region invariant before position n: before the first point the class's; afterwards the accumulator at what the
    point before left, the rest of the scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of the pipeline on core c: the arrays as the region finds them; after the body the input's buffer at
    its block, the copy's at the block recast, the degree's at the accumulator; the invariant carrying the accumulator. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (iblk0 V c 0 t)
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = k0_pay3 (iblk0 V c 0 t) := by dsimp only [dat0]
theorem after0_2 (c : Dev nD) (t : Fin cfg0.N) : (dat0 V c).after 2 t = accAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-- After any point the invariant gives the accumulator at some contents, the other scoped buffers and the generator
    register: the accumulator's named contents forgotten. -/
theorem PhiS0_any (c : Dev nD) (n : ℕ) (h : n ≤ cfg0.N) :
    PhiS0 V c n h ⊢ iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  cases n with
  | zero => rw [PhiS0_zero V c 0 h rfl, PhiA0_eq]
  | succ n =>
    rw [PhiS0_succ]
    iintro ⟨⟨HS, Hr⟩, Hg⟩
    isplitl [HS Hr]
    · isplitl [HS]
      · iexists _; iexact HS
      iexact Hr
    iexact Hg

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input's buffer holds its block; the closed forms of the two conditions say which case
    the point is in; the invariant hands the body the accumulator (at what the point before left, or at anything at a
    first column step) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [PhiS0_castSucc V c t]
  have hN : t.val < 32 := lt_of_lt_of_eq t.isLt (show cfg0.N = 32 from N_0)
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 t hc1) (noFlush0_2 t hc1)]
    rw [accAt0_first V c t h0]
    iintro ⟨HΦ, Ho, ⟨%d0, H0⟩, ⟨%d1, H1⟩, ⟨%d2, H2⟩⟩
    ihave HΦ' := (PhiS0_any V c t.val (Nat.le_of_lt t.isLt)) $$ HΦ
    icases HΦ' with ⟨⟨HS, Hr⟩, Hg⟩
    iapply (run0_A c (grid0.coords t) _ _ _ _ _ _ _ _ hc0 hc1 (iblk0 V c 0 t) _ Set.univ _)
    isplitl [H0]; · iexact H0
    isplitl [H1]; · iexists _; iexact H1
    isplitl [H2]; · iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists _; iexact H2
  · have hz : t.val ≠ 0 := fun h => h0 (by rw [h])
    rw [PhiS0_pos V c _ _ hz, accAt0_later V c t h0]
    by_cases h1 : t.val % 4 = 3
    · have hc0 : ¬cond0_0 (grid0.coords t) := fun h => h0 ((hcond0_0 t).mp h)
      have hc1 : cond0_1 (grid0.coords t) := (hcond0_1 t).mpr h1
      rw [show (dat0 V c).leavesExact 2 t = owns (c : Thread nD τ) (st0_2 t) fullShare ((dat0 V c).after 2 t) from by
        unfold Dat.leavesExact; rw [liveAt0_2 t hc1], after0_2, accAt0_later V c t h0]
      iintro ⟨⟨⟨HS, Hr⟩, Hg⟩, Ho, ⟨%d0, H0⟩, ⟨%d1, H1⟩, ⟨%d2, H2⟩⟩
      iapply (run0_C c (grid0.coords t) _ _ _ _ _ _ _ _ hc0 hc1 (iblk0 V c 0 t) _ Set.univ _)
      isplitl [H0]; · iexact H0
      isplitl [H1]; · iexists _; iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 2 t (idleAt0_2 t hc1) (noFlush0_2 t hc1)]
      iintro ⟨⟨⟨HS, Hr⟩, Hg⟩, Ho, ⟨%d0, H0⟩, ⟨%d1, H1⟩, ⟨%d2, H2⟩⟩
      iapply (run0_B c (grid0.coords t) _ _ _ _ _ _ _ _ hc0 hc1 (iblk0 V c 0 t) _ _ Set.univ _)
      isplitl [H0]; · iexact H0
      isplitl [H1]; · iexists _; iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact PhiS0_any V c _ _

theorem hout0' (c : Dev nD) : (dat0 V c).Φ (Fin.last cfg0.N)
    ⊢ iprop(Pipeline.scopedRest (Ix := Unit) (Name := ℕ) (U := UR sig nD τ) (Lvl := ℕ) (Val := Elt F) spec0 c ∗ ∃ r, prngReg c r) := by
  have h := hout0 V c
  unfold Pipeline.ΦA at h
  exact h

end Region0

/-! ## The region as a segment between two thread states -/

section Segment0
variable (W : Dev nD → Valuation τ sig (Elt F))

/-- The entry contents read at the TensorCore's references: what the proof data take. -/
abbrev Vin0 : (c : Dev nD) → (b : Ref sig .tc) → Buf (Elt F) ((c : Thread nD τ).loc b) := fun c b => W c b

/-- The contents at the region's exit: its arrays at what the pipeline leaves, every other buffer as entered. -/
def Wout0 (c : Dev nD) : Valuation τ sig (Elt F) :=
  Pipeline.withArrays spec0 c (W c) fun w => (dat0 (Vin0 W) c).arrAt w cfg0.N

theorem Wout0_arr (c : Dev nD) (w : Fin cfg0.W) :
    Wout0 W c (Proc.devRef .tc (Pipeline.arrRef spec0 w)) = (dat0 (Vin0 W) c).arrAt w cfg0.N := by
  unfold Wout0; exact Pipeline.withArrays_arr spec0 launch0.win.arr_inj c _ _ w

theorem Wout0_of_ne (c : Dev nD) (b : Ref sig .tc) (hb : ∀ w, Pipeline.arrRef spec0 w ≠ b) :
    Wout0 W c (Proc.devRef .tc b) = W c (Proc.devRef .tc b) := by
  unfold Wout0; exact Pipeline.withArrays_of_ne spec0 c _ _ b hb

/-- The input array is left as entered. -/
theorem Wout0_in (c : Dev nD) : Wout0 W c (Proc.devRef .tc main_arg1) = W c (Proc.devRef .tc main_arg1) :=
  (Wout0_arr W c 0).trans (((dat0 (Vin0 W) c).arrAt_in 0 rfl _).trans (A_eq0 (Vin0 W) c 0))

theorem Wout0_main_arg1 (c : Dev nD) : Wout0 W c (Proc.devRef .tc main_arg1) = W c (Proc.devRef .tc main_arg1) := Wout0_in W c

/-- The two output arrays hold what the write-backs leave. -/
theorem Wout0_main_v0_0 (c : Dev nD) : Wout0 W c (Proc.devRef .tc main_v0_0) = (dat0 (Vin0 W) c).arrAt 1 cfg0.N :=
  Wout0_arr W c 1
theorem Wout0_main_v0_1 (c : Dev nD) : Wout0 W c (Proc.devRef .tc main_v0_1) = (dat0 (Vin0 W) c).arrAt 2 cfg0.N :=
  Wout0_arr W c 2

/-- The exit contents read at the TensorCore's references. -/
abbrev Vout0 : (c : Dev nD) → (b : Ref sig .tc) → Buf (Elt F) ((c : Thread nD τ).loc b) := fun c b => Wout0 W c b

theorem hF0 (c : Dev nD) (w : Fin cfg0.W) : (dat0 (Vin0 W) c).arrAt w cfg0.N = Vout0 W c (Pipeline.arrRef spec0 w) :=
  (Wout0_arr W c w).symm
theorem hrest0 (c : Dev nD) : ∀ b, b ∉ Finset.univ.image (Pipeline.arrRef spec0) → Vout0 W c b = Vin0 W c b :=
  fun b hb => Wout0_of_ne W c b fun w e => hb (Finset.mem_image.mpr ⟨w, Finset.mem_univ _, e⟩)

set_option backward.isDefEq.respectTransparency.types false in
/-- Region 0 over the thread state: entered from every unscoped buffer at W, left at Wout0. Its arrays are split out of
    the unscoped buffers and put back at the exit contents; the generator register goes into the invariant and comes
    out; nothing is owed; the kernel has no semaphore of its own. -/
def reg0 (pdats : (p : Fin 9) → (c : Dev nD) → Dat τ (Elt F) Unit ℕ (UR sig nD τ) ℕ (Pipeline.pin (pcfgs (F := F)) adm p) c)
    (hK : ∀ c, pdats 0 c = dat0 (Vin0 W) c) :
    Pipeline.RegionSeg (pcfgs (F := F)) adm pdats () defs₀ 𝒱₀ L lv 0 where
  win := launch0.win.to₀
  block_pos := launch0.block_pos
  stage_whole := launch0.stage_whole
  K := PEmpty
  osem k := k.elim
  ho := Pipeline.OwnSemFacts.none _
  hbody c := by rw [hK c]; exact (body_obligation0 (Vin0 W) c).loose
  hwaits := Pipeline.hwaits_of_owed_zero _ _ _ _ L lv 0 fun c t => by rw [hK c]; rfl
  pre c := iprop(StableHlo.held (c : Thread nD τ) (Pipeline.ucRefs τ sig) (W c) ∗ R c)
  post c := iprop(StableHlo.held (c : Thread nD τ) (Pipeline.ucRefs τ sig) (Wout0 W c) ∗ R c)
  X c := iprop(∃ r, prngReg c r)
  Y c := iprop(∃ r, prngReg c r)
  Z c := Pipeline.unscopedRest (Ix := Unit) (Name := ℕ) (U := UR sig nD τ) (Lvl := ℕ) spec0 c (Vin0 W c)
  hentry c := by
    rw [Pipeline.ownSems0_none]
    have hsplit := Pipeline.arrays_of_unscopedBufs (p := 0) (pcfgs (F := F)) adm pdats launch0.win launch0.arr_whole c
      (by rw [hK c]; exact (dat0 (Vin0 W) c).share_full fun _ => rfl) (Vin0 W c) (by rw [hK c]; exact fun _ => rfl)
    rw [Pipeline.unscopedBufs_held] at hsplit
    rw [hK c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [hK c]
    iintro ⟨Hp, -, Hr⟩
    iapply (hin0 (Vin0 W) c)
    unfold Pipeline.ΦA
    isplitl [Hr]; · iexact Hr
    iexact Hp
  hout c := by
    rw [Pipeline.ownSems0_none, hK c]
    iintro HΦ
    ihave H := (hout0' (Vin0 W) c) $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c pdats (by rw [hK c]; exact (dat0 (Vin0 W) c).share_full fun _ => rfl)
      (Vin0 W c) (Vout0 W c) ((pdats 0 c).arrAt · cfg0.N) (by rw [hK c]; exact hF0 W c) (hrest0 W c)
    rw [Pipeline.unscopedBufs_held] at hjoin
    rw [hK c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W', -, HO⟩; iexists W'; iexact HO

theorem reg0_pre (pdats : (p : Fin 9) → (c : Dev nD) → Dat τ (Elt F) Unit ℕ (UR sig nD τ) ℕ (Pipeline.pin (pcfgs (F := F)) adm p) c)
    (hK : ∀ c, pdats 0 c = dat0 (Vin0 W) c) (c : Dev nD) :
    (reg0 W pdats hK).pre c = iprop(StableHlo.held (c : Thread nD τ) (Pipeline.ucRefs τ sig) (W c) ∗ R c) := rfl
theorem reg0_post (pdats : (p : Fin 9) → (c : Dev nD) → Dat τ (Elt F) Unit ℕ (UR sig nD τ) ℕ (Pipeline.pin (pcfgs (F := F)) adm p) c)
    (hK : ∀ c, pdats 0 c = dat0 (Vin0 W) c) (c : Dev nD) :
    (reg0 W pdats hK).post c = iprop(StableHlo.held (c : Thread nD τ) (Pipeline.ucRefs τ sig) (Wout0 W c) ∗ R c) := rfl

end Segment0

end Cert.KernelIdeal.Hand

end
-- ==== Proof.KI.Reg1.lean ====
/-
  Region 1 of the kernel program: one matrix product [8192,784] x [784,256] by row blocks of 1024, the whole contracted axis in
  one block, so that at every grid point the accumulator is zeroed, added to once and stored into the output block. The
  proof data of the pipeline at the region's entry contents, the body obligation, the contents at the region's exit and the
  region as a segment of the host program.
-/
import proofs.«105977_j57329223467619_2_alg».proof.Proof.KI.Common
import proofs.«105977_j57329223467619_2_alg».proof.Proof.LibWhole
import Idealize.ShloMosaic.Lib.Pipeline.FrameBody
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region1

variable (V : (c : Dev nD) → (b : Ref sig .tc) → Buf (Elt F) ((c : Thread nD τ).loc b))

/-! ## The windows' blocks -/

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions: the contracted axis has one block, so both hold at every point -/

theorem hc1_1 (i : grid1.Coords) : (Scalar.cmpi .ne (Scalar.extui (Scalar.cmpi .eq (BitVec.ofNat 32 (i 2).val) 0#32)) 0#32) = 1#1 := by
  have h2 : (i 2).val = 0 := by have h : (i 2).val < 1 := (i 2).isLt; omega
  rw [h2]; rfl

theorem hc1_2 (i : grid1.Coords) : k1_cond2 i = 1#1 := by
  have h2 : (i 2).val = 0 := by have h : (i 2).val < 1 := (i 2).isLt; omega
  unfold k1_cond2; rw [h2]; rfl

/-- The output window is live at every point. -/
theorem liveAt1_2 : ∀ t : Fin cfg1.N, cfg1.idle 2 (grid1.coords t) = false :=
  fun t => by show (!(k1_cond2 (grid1.coords t) == 1#1)) = false; rw [hc1_2]; rfl

/-! ## What the body leaves in the output window's buffer -/

/-- The output block after the body: the product of the two input blocks added to the zeroed accumulator, recast. -/
def out1_2 (x0 : Vec F S1024x784 .f32) (x1 : Vec F S784x256 .f32) : Vec F S1024x256 .bf16 :=
  k1_pay3 (k1_pay2 x0 x1 (k1_pay1 (F := F)))

/-- The scratch accumulator, a whole buffer of the kernel's own. -/
abbrev scM1 : Memref sig .tc .vmem S1024x256 .f32 := Memref.whole cc1_scratch0

/-! ## The body's triple -/

set_option maxHeartbeats 1000000 in
/-- The kernel body on whole staging memrefs, the inputs' at read contents, the output's and the accumulator's at anything,
    runs to the continuation holding the inputs' as they were, the output's at `out1_2` of the inputs' and the accumulator at
    some contents. -/
theorem sound_kernel1 (c : Dev nD) (E : Set ℕ) (i : grid1.Coords)
    (arg3 : Memref sig .tc .vmem S1024x784 .f32) (harg3 : arg3.IsWhole) (arg4 : Memref sig .tc .vmem S784x256 .f32) (harg4 : arg4.IsWhole)
    (arg5 : Memref sig .tc .vmem S1024x256 .bf16) (harg5 : arg5.IsWhole) (arg6 : Memref sig .tc .vmem S1024x256 .f32) (harg6 : arg6.IsWhole)
    (x0 : Vec F S1024x784 .f32) (x1 : Vec F S784x256 .f32) (K : PUnit → sProp (MK F)) :
    iprop(owns (c : Thread nD τ) arg3 fullShare x0 ∗ owns (c : Thread nD τ) arg4 fullShare x1 ∗ (∃ d, owns (c : Thread nD τ) arg5 fullShare d)
        ∗ (∃ d, owns (c : Thread nD τ) arg6 fullShare d)
        ∗ (iprop(owns (c : Thread nD τ) arg3 fullShare x0 ∗ owns (c : Thread nD τ) arg4 fullShare x1 ∗ owns (c : Thread nD τ) arg5 fullShare (out1_2 x0 x1)
            ∗ (∃ d, owns (c : Thread nD τ) arg6 fullShare d)) -∗ K ⟨⟩))
      ⊢ wp frame (wpE (defs₀ (F := F)) Variants.none c none) E (cc1_kernel i arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc1_1 i | exact hc1_2 i)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_unit_zero _ _ View.zero_offsets2, View.readCov_cons_toLoadRect, View.readCov_cons_toLoadRect,
      View.readAt_unit_zero _ _ View.zero_offsets2, View.readAt_unit_zero _ _ View.zero_offsets2]
    rfl
  iexists _; iexists _; isplitr
  swap; · iexact H3
  ipureintro; rfl

/-! ## The pipeline's proof data -/

/-- The proof data of pipeline 1 on core `c`: the arrays at the entry contents; after the body each input's buffer at its
    block and the output's at `out1_2` of the input blocks; the invariant the scoped buffers no window stages (the
    accumulator among them, at anything: every point zeroes it first) and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The invariant with the accumulator split out as a memref owned at some contents. -/
theorem PhiA1_eq (c : Dev nD) :
    (Pipeline.ΦA spec1 c : sProp (MK F))
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body obligation -/

def bodyPre1 (c : Dev nD) (t : Fin cfg1.N) : sProp (MK F) :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp (MK F) :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (dat1 V c).leavesExact 2 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).leavesExact 2 t = owns (c : Thread nD τ) (st1_2 t) fullShare ((dat1 V c).after 2 t) from by
    unfold Dat.leavesExact; rw [liveAt1_2 t]]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, PhiA1_eq]
  iintro ⟨⟨⟨HS, Hb⟩, Hg⟩, Ho, ⟨%d0, H0⟩, ⟨%d1, H1⟩, ⟨%d2, H2⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [HS]; · iexact HS
  iintro ⟨H0, H1, H2, HS⟩
  isplitl [HS Hb Hg]
  · isplitl [HS Hb]
    · isplitl [HS]; · iexact HS
      iexact Hb
    iexact Hg
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

/-! ## The contents at the region's exit, and the region as a segment -/

section Segment1

variable (W : Dev nD → Valuation τ sig (Elt F))

/-- A valuation read at the TensorCore's references. -/
abbrev Vof1 (W : Dev nD → Valuation τ sig (Elt F)) : (c : Dev nD) → (b : Ref sig .tc) → Buf (Elt F) ((c : Thread nD τ).loc b) := fun c b => W c b

/-- At region 1's exit: its arrays at what the pipeline leaves, every other buffer as entered. -/
def Wout1 (c : Dev nD) : Valuation τ sig (Elt F) :=
  Pipeline.withArrays spec1 c (W c) fun w => (dat1 (Vof1 W) c).arrAt w cfg1.N

theorem Wout1_arr (c : Dev nD) (w : Fin cfg1.W) :
    Wout1 W c (Proc.devRef .tc (Pipeline.arrRef spec1 w)) = (dat1 (Vof1 W) c).arrAt w cfg1.N := by
  unfold Wout1; exact Pipeline.withArrays_arr spec1 launch1.win.arr_inj c _ _ w

theorem Wout1_of_ne (c : Dev nD) (b : Ref sig .tc) (hb : ∀ w, Pipeline.arrRef spec1 w ≠ b) :
    Wout1 W c (Proc.devRef .tc b) = W c (Proc.devRef .tc b) := by
  unfold Wout1; exact Pipeline.withArrays_of_ne spec1 c _ _ b hb

/-- The input arrays leave the region as they entered it. -/
theorem Wout1_main_arg0 (c : Dev nD) : Wout1 W c (Proc.devRef .tc main_arg0) = W c (Proc.devRef .tc main_arg0) :=
  (Wout1_arr W c 0).trans (((dat1 (Vof1 W) c).arrAt_in 0 rfl _).trans (A_eq1 (Vof1 W) c 0))
theorem Wout1_main_arg2 (c : Dev nD) : Wout1 W c (Proc.devRef .tc main_arg2) = W c (Proc.devRef .tc main_arg2) :=
  (Wout1_arr W c 1).trans (((dat1 (Vof1 W) c).arrAt_in 1 rfl _).trans (A_eq1 (Vof1 W) c 1))
/-- The output array holds what the write-backs leave. -/
theorem Wout1_main_v2 (c : Dev nD) : Wout1 W c (Proc.devRef .tc main_v2) = (dat1 (Vof1 W) c).arrAt 2 cfg1.N :=
  Wout1_arr W c 2

theorem hF1 (c : Dev nD) (w : Fin cfg1.W) : (dat1 (Vof1 W) c).arrAt w cfg1.N = Vof1 (Wout1 W) c (Pipeline.arrRef spec1 w) :=
  (Wout1_arr W c w).symm
theorem hrest1 (c : Dev nD) : ∀ b, b ∉ Finset.univ.image (Pipeline.arrRef spec1) → Vof1 (Wout1 W) c b = Vof1 W c b :=
  fun b hb => Wout1_of_ne W c b fun w e => hb (Finset.mem_image.mpr ⟨w, Finset.mem_univ _, e⟩)

set_option backward.isDefEq.respectTransparency.types false in
/-- REGION 1 over the thread state: entered from every unscoped buffer at `W`, left at `Wout1 W`. -/
def reg1 (pdats : (p : Fin 9) → (c : Dev nD) → Dat τ (Elt F) Unit ℕ (UR sig nD τ) ℕ (Pipeline.pin (pcfgs (F := F)) adm p) c)
    (hK : ∀ c, pdats 1 c = dat1 (Vof1 W) c) :
    Pipeline.RegionSeg (pcfgs (F := F)) adm pdats () defs₀ 𝒱₀ L lv 1 where
  win := launch1.win.to₀
  block_pos := launch1.block_pos
  stage_whole := launch1.stage_whole
  K := PEmpty
  osem k := k.elim
  ho := Pipeline.OwnSemFacts.none _
  hbody c := by rw [hK c]; exact (body_obligation1 (Vof1 W) c).loose
  hwaits := Pipeline.hwaits_of_owed_zero _ _ _ _ L lv 1 fun c t => by rw [hK c]; rfl
  pre c := iprop(StableHlo.held (c : Thread nD τ) (Pipeline.ucRefs τ sig) (W c) ∗ R c)
  post c := iprop(StableHlo.held (c : Thread nD τ) (Pipeline.ucRefs τ sig) (Wout1 W c) ∗ R c)
  X c := iprop(∃ r, prngReg c r)
  Y c := iprop(∃ r, prngReg c r)
  Z c := Pipeline.unscopedRest (Ix := Unit) (Name := ℕ) (U := UR sig nD τ) (Lvl := ℕ) spec1 c (Vof1 W c)
  hentry c := by
    rw [Pipeline.ownSems0_none]
    have hsplit := Pipeline.arrays_of_unscopedBufs (p := 1) (pcfgs (F := F)) adm pdats launch1.win launch1.arr_whole c
      (by rw [hK c]; exact (dat1 (Vof1 W) c).share_full fun _ => rfl) (Vof1 W c) (by rw [hK c]; exact fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [hK c]; show _ ⊢ Pipeline.ΦA spec1 c; unfold Pipeline.ΦA
    iintro ⟨Hp, -, Hr⟩
    isplitl [Hr]; · iexact Hr
    iexact Hp
  hout c := by
    rw [Pipeline.ownSems0_none, hK c]; show Pipeline.ΦA spec1 c ⊢ _; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c pdats (by rw [hK c]; exact (dat1 (Vof1 W) c).share_full fun _ => rfl)
      (Vof1 W c) (Vof1 (Wout1 W) c) ((pdats 1 c).arrAt · cfg1.N) (by rw [hK c]; exact hF1 W c) (hrest1 W c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W', -, HO⟩; iexists W'; iexact HO

theorem reg1_pre (pdats) (hK) (c : Dev nD) :
    (reg1 W pdats hK).pre c = iprop(StableHlo.held (c : Thread nD τ) (Pipeline.ucRefs τ sig) (W c) ∗ R c) := rfl
theorem reg1_post (pdats) (hK) (c : Dev nD) :
    (reg1 W pdats hK).post c = iprop(StableHlo.held (c : Thread nD τ) (Pipeline.ucRefs τ sig) (Wout1 W c) ∗ R c) := rfl

end Segment1

end Cert.KernelIdeal.Hand

end
-- ==== Proof.KI.Reg2.lean ====
/-
  Region 2 of the nine-region program: the scaled matrix product with bias, its reduction axis cut in four steps. The
  accumulator kept in scratch memory from step to step is carried by the invariant; the output block is stored at the
  last step only. Two input windows read one array (the scale column: once by blocks of the reduction axis, once by
  blocks of the rows), so the array's full share is dealt to them as its two halves at entry and joined at exit.
-/
import proofs.«105977_j57329223467619_2_alg».proof.Proof.KI.Common
import proofs.«105977_j57329223467619_2_alg».proof.Proof.LibWhole
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's two conditions, over the grid -/

/-- The first step of a run of four (the accumulator is zeroed there). -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- The last step (the output block is stored there). -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-- The input windows are never idle; the output window is idle, and not written back, off the last steps. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The body's triple, in its three cases -/

set_option maxHeartbeats 2000000 in
/-- First step: the accumulator, at anything, ends at the blocks' product added to zero. -/
theorem sound_kernel2_A (c : Dev nD) (E : Set ℕ) (i : grid2.Coords)
    (arg3 : Memref sig .tc .vmem S1024x2048 .bf16) (harg3 : arg3.IsWhole) (arg4 : Memref sig .tc .vmem S2048x256 .bf16) (harg4 : arg4.IsWhole)
    (arg5 : Memref sig .tc .vmem S2048x1 .f32) (harg5 : arg5.IsWhole) (arg6 : Memref sig .tc .vmem S1024x1 .f32) (harg6 : arg6.IsWhole)
    (arg7 : Memref sig .tc .vmem S1x256 .f32) (harg7 : arg7.IsWhole) (arg8 : Memref sig .tc .vmem S1024x256 .f32) (harg8 : arg8.IsWhole)
    (arg9 : Memref sig .tc .vmem S1024x256 .f32) (harg9 : arg9.IsWhole)
    (hc0 : cond2_0 i) (hc1 : ¬cond2_1 i)
    (x0 : Vec F S1024x2048 .bf16) (x1 : Vec F S2048x256 .bf16) (x2 : Vec F S2048x1 .f32) (K : PUnit → sProp (MK F)) :
    iprop(owns (c : Thread nD τ) arg3 fullShare x0 ∗ owns (c : Thread nD τ) arg4 fullShare x1 ∗ owns (c : Thread nD τ) arg5 fullShare x2
        ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg9 fullShare (k2_pay2 x2 x0 x1 k2_pay1)) -∗ K ⟨⟩))
      ⊢ wp frame (wpE (defs₀ (F := F)) Variants.none c none) E
          (cc2_kernel i arg3 harg3 arg4 harg4 arg5 harg5 arg6 harg6 arg7 harg7 arg8 harg8 arg9 harg9) K := by
  simp only [cc2_kernel_eq_skeleton]; unfold cc2_kernel_skel
  unfold owns
  iintro ⟨⟨%f0, %hf0, H0⟩, ⟨%f1, %hf1, H1⟩, ⟨%f2, %hf2, H2⟩, ⟨%d9, %f9, -, H9⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H9
  ipureintro
  sl_unfold_run_names
  rw [View.read_writes_eq_canon _ _ _ (fun y => ⟨_, List.mem_cons_self, View.mem_set_unit_zero View.zero_offsets2 inb_S1024x256_S1024x256_0_0 y⟩),
    View.canon_cons_unit_zero View.zero_offsets2, View.readCov_unit_zero _ View.zero_offsets2]
  rw [View.readAt_unit_zero (S := S2048x1) _ _ View.zero_offsets2, View.readAt_unit_zero (S := S1024x2048) _ _ View.zero_offsets2,
    View.readAt_unit_zero (S := S2048x256) _ _ View.zero_offsets2]

set_option maxHeartbeats 2000000 in
/-- A middle step: the accumulator ends at the blocks' product added to what it held. -/
theorem sound_kernel2_B (c : Dev nD) (E : Set ℕ) (i : grid2.Coords)
    (arg3 : Memref sig .tc .vmem S1024x2048 .bf16) (harg3 : arg3.IsWhole) (arg4 : Memref sig .tc .vmem S2048x256 .bf16) (harg4 : arg4.IsWhole)
    (arg5 : Memref sig .tc .vmem S2048x1 .f32) (harg5 : arg5.IsWhole) (arg6 : Memref sig .tc .vmem S1024x1 .f32) (harg6 : arg6.IsWhole)
    (arg7 : Memref sig .tc .vmem S1x256 .f32) (harg7 : arg7.IsWhole) (arg8 : Memref sig .tc .vmem S1024x256 .f32) (harg8 : arg8.IsWhole)
    (arg9 : Memref sig .tc .vmem S1024x256 .f32) (harg9 : arg9.IsWhole)
    (hc0 : ¬cond2_0 i) (hc1 : ¬cond2_1 i)
    (x0 : Vec F S1024x2048 .bf16) (x1 : Vec F S2048x256 .bf16) (x2 : Vec F S2048x1 .f32) (xs : Vec F S1024x256 .f32) (K : PUnit → sProp (MK F)) :
    iprop(owns (c : Thread nD τ) arg3 fullShare x0 ∗ owns (c : Thread nD τ) arg4 fullShare x1 ∗ owns (c : Thread nD τ) arg5 fullShare x2
        ∗ owns (c : Thread nD τ) arg9 fullShare xs
        ∗ (iprop(owns (c : Thread nD τ) arg3 fullShare x0 ∗ owns (c : Thread nD τ) arg4 fullShare x1 ∗ owns (c : Thread nD τ) arg5 fullShare x2
            ∗ owns (c : Thread nD τ) arg9 fullShare (k2_pay2 x2 x0 x1 xs)) -∗ K ⟨⟩))
      ⊢ wp frame (wpE (defs₀ (F := F)) Variants.none c none) E
          (cc2_kernel i arg3 harg3 arg4 harg4 arg5 harg5 arg6 harg6 arg7 harg7 arg8 harg8 arg9 harg9) K := by
  simp only [cc2_kernel_eq_skeleton]; unfold cc2_kernel_skel
  unfold owns
  iintro ⟨⟨%f0, %hf0, H0⟩, ⟨%f1, %hf1, H1⟩, ⟨%f2, %hf2, H2⟩, ⟨%f9, %hf9, H9⟩, Hk⟩
  subst hf0; subst hf1; subst hf2; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H9
  ipureintro
  sl_unfold_run_names
  rw [View.read_writes_unit_zero _ _ View.zero_offsets2]
  rw [View.readAt_unit_zero (S := S2048x1) _ _ View.zero_offsets2, View.readAt_unit_zero (S := S1024x2048) _ _ View.zero_offsets2,
    View.readAt_unit_zero (S := S2048x256) _ _ View.zero_offsets2, View.readAt_unit_zero (S := S1024x256) _ _ View.zero_offsets2]

set_option maxHeartbeats 2000000 in
/-- Last step: the accumulator likewise, and the output block, at anything, ends at the accumulator scaled by the row
    block of the column with the bias row added. -/
theorem sound_kernel2_C (c : Dev nD) (E : Set ℕ) (i : grid2.Coords)
    (arg3 : Memref sig .tc .vmem S1024x2048 .bf16) (harg3 : arg3.IsWhole) (arg4 : Memref sig .tc .vmem S2048x256 .bf16) (harg4 : arg4.IsWhole)
    (arg5 : Memref sig .tc .vmem S2048x1 .f32) (harg5 : arg5.IsWhole) (arg6 : Memref sig .tc .vmem S1024x1 .f32) (harg6 : arg6.IsWhole)
    (arg7 : Memref sig .tc .vmem S1x256 .f32) (harg7 : arg7.IsWhole) (arg8 : Memref sig .tc .vmem S1024x256 .f32) (harg8 : arg8.IsWhole)
    (arg9 : Memref sig .tc .vmem S1024x256 .f32) (harg9 : arg9.IsWhole)
    (hc0 : ¬cond2_0 i) (hc1 : cond2_1 i)
    (x0 : Vec F S1024x2048 .bf16) (x1 : Vec F S2048x256 .bf16) (x2 : Vec F S2048x1 .f32) (x3 : Vec F S1024x1 .f32) (x4 : Vec F S1x256 .f32)
    (xs : Vec F S1024x256 .f32) (K : PUnit → sProp (MK F)) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ owns (c : Thread nD τ) arg9 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (k2_pay3 (k2_pay2 x2 x0 x1 xs) x3 x4)
            ∗ owns (c : Thread nD τ) arg9 fullShare (k2_pay2 x2 x0 x1 xs)) -∗ K ⟨⟩))
      ⊢ wp frame (wpE (defs₀ (F := F)) Variants.none c none) E
          (cc2_kernel i arg3 harg3 arg4 harg4 arg5 harg5 arg6 harg6 arg7 harg7 arg8 harg8 arg9 harg9) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%f9, %hf9, H9⟩, Hk⟩
  subst hf0; subst hf1; subst hf2; subst hf3; subst hf4; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    sl_unfold_run_names
    rw [View.read_writes_unit_zero _ _ View.zero_offsets2, View.readCov_unit_zero _ View.zero_offsets2]
    rw [View.readAt_unit_zero (S := S2048x1) _ _ View.zero_offsets2, View.readAt_unit_zero (S := S1024x2048) _ _ View.zero_offsets2,
    View.readAt_unit_zero (S := S2048x256) _ _ View.zero_offsets2, View.readAt_unit_zero (S := S1024x256) _ _ View.zero_offsets2,
    View.readAt_unit_zero (S := S1024x1) _ _ View.zero_offsets2, View.readAt_unit_zero (S := S1x256) _ _ View.zero_offsets2]
  iexists _; isplitr
  swap; · iexact H9
  ipureintro
  sl_unfold_run_names
  rw [View.read_writes_unit_zero _ _ View.zero_offsets2]
  rw [View.readAt_unit_zero (S := S2048x1) _ _ View.zero_offsets2, View.readAt_unit_zero (S := S1024x2048) _ _ View.zero_offsets2,
    View.readAt_unit_zero (S := S2048x256) _ _ View.zero_offsets2, View.readAt_unit_zero (S := S1024x256) _ _ View.zero_offsets2]

section Region2
variable (V : (c : Dev nD) → (b : Ref sig .tc) → Buf (Elt F) ((c : Thread nD τ).loc b))

/-! ## The windows' blocks -/

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulator, point by point -/

/-- What the scratch accumulator holds after the body at position `n`: the product of the point's blocks added to zero at
    the first step of a run of four, to what the point before left at the others. -/
def acc2 (c : Dev nD) : (n : ℕ) → n < cfg2.N → Vec F S1024x256 .f32
  | 0, hn => k2_pay2 (iblk2 V c 2 ⟨0, hn⟩) (iblk2 V c 0 ⟨0, hn⟩) (iblk2 V c 1 ⟨0, hn⟩) k2_pay1
  | n + 1, hn => k2_pay2 (iblk2 V c 2 ⟨n + 1, hn⟩) (iblk2 V c 0 ⟨n + 1, hn⟩) (iblk2 V c 1 ⟨n + 1, hn⟩)
      (if (n + 1) % 4 = 0 then k2_pay1 else acc2 c n (Nat.lt_of_succ_lt hn))

/-- What the output block's buffer holds after the body at a last step: the accumulator scaled by the row block of the
    column and the bias row added. -/
def out2 (c : Dev nD) (t : Fin cfg2.N) : Vec F S1024x256 .f32 :=
  k2_pay3 (acc2 V c t.val t.isLt) (iblk2 V c 3 t) (iblk2 V c 4 t)

/-! ## The input windows' buffers at a point -/

/-- An input window's current staging buffer holds its block at every point, fetched there or not (unfetched, the block
    index has not moved), for any proof data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator's recursion, by the point's case -/

theorem acc2_first (c : Dev nD) (t : Fin cfg2.N) (h0 : t.val % 4 = 0) :
    acc2 V c t.val t.isLt = k2_pay2 (iblk2 V c 2 t) (iblk2 V c 0 t) (iblk2 V c 1 t) k2_pay1 := by
  obtain ⟨n, hn⟩ := t
  cases n with
  | zero => rfl
  | succ n => exact (show acc2 V c (n + 1) hn = _ from by rw [acc2]; rw [if_pos h0])

theorem acc2_next (c : Dev nD) (t : Fin cfg2.N) (h0 : ¬t.val % 4 = 0) :
    acc2 V c t.val t.isLt = k2_pay2 (iblk2 V c 2 t) (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h0
  | succ n => exact (show acc2 V c (n + 1) hn = _ from by rw [acc2]; rw [if_neg h0]; rfl)

/-! ## The invariant: the scratch accumulator carried from point to point -/

/-- The scratch accumulator, a whole scoped buffer of the kernel's own. -/
abbrev scM2 : Memref sig .tc .vmem S1024x256 .f32 := Memref.whole cc2_scratch0

/-- Before the first point the scoped rest at anything and the generator register at some state; after point `n` the
    accumulator at what that point left, the other scoped buffers at anything, the register at some state. -/
def Phi2 (c : Dev nD) : (n : ℕ) → n ≤ cfg2.N → sProp (MK F)
  | 0, _ => Pipeline.ΦA spec2 c
  | n + 1, hn => iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The class invariant with the accumulator as a memref owned at some contents. -/
theorem PhiA2_eq (c : Dev nD) :
    (Pipeline.ΦA spec2 c : sProp (MK F))
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The pipeline's proof data -/

/-- The proof data of pipeline 2 on core `c`: the arrays at the entry contents; after the body at point `t` each input's
    buffer at its block and the output's at `out2`; the invariant carrying the accumulator; nothing owed; the array two
    windows read held by each at one half of the full share, every other input array at the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 V c t
  Φ t := Phi2 V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

/-- What the body is called with at point `t`, the windows one by one, -/
def bodyPre2 (c : Dev nD) (t : Fin cfg2.N) : sProp (MK F) :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp (MK F) :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

theorem leaves2_0 (c : Dev nD) (t : Fin cfg2.N) : (dat2 V c).leavesExact 0 t = owns (c : Thread nD τ) (st2_0 t) fullShare (iblk2 V c 0 t) := by
  rw [← after2_0]
theorem leaves2_1 (c : Dev nD) (t : Fin cfg2.N) : (dat2 V c).leavesExact 1 t = owns (c : Thread nD τ) (st2_1 t) fullShare (iblk2 V c 1 t) := by
  rw [← after2_1]
theorem leaves2_2 (c : Dev nD) (t : Fin cfg2.N) : (dat2 V c).leavesExact 2 t = owns (c : Thread nD τ) (st2_2 t) fullShare (iblk2 V c 2 t) := by
  rw [← after2_2]
theorem leaves2_3 (c : Dev nD) (t : Fin cfg2.N) : (dat2 V c).leavesExact 3 t = owns (c : Thread nD τ) (st2_3 t) fullShare (iblk2 V c 3 t) := by
  rw [← after2_3]
theorem leaves2_4 (c : Dev nD) (t : Fin cfg2.N) : (dat2 V c).leavesExact 4 t = owns (c : Thread nD τ) (st2_4 t) fullShare (iblk2 V c 4 t) := by
  rw [← after2_4]
theorem leaves2_5_idle (c : Dev nD) (t : Fin cfg2.N) (h1 : ¬cond2_1 (grid2.coords t)) :
    (dat2 V c).leavesExact 5 t = iprop(∃ d, owns (c : Thread nD τ) (st2_5 t) fullShare ((dat2 V c).before 5 t d)) :=
  Dat.leavesExact_idle (dat2 V c) 5 t (idleAt2_5 t h1) (noFlush2_5 t h1)
theorem leaves2_5_live (c : Dev nD) (t : Fin cfg2.N) (h1 : cond2_1 (grid2.coords t)) :
    (dat2 V c).leavesExact 5 t = owns (c : Thread nD τ) (st2_5 t) fullShare (out2 V c t) := by
  unfold Dat.leavesExact; rw [liveAt2_5 t h1, after2_5]

set_option maxHeartbeats 4000000 in
/-- The body at any point: the inputs' buffers hold their blocks; the point's place in its run of four says which case
    applies; the invariant hands over the accumulator at what the point before left (at anything before the first
    point) and takes it back at this point's contents; the output's buffer passes untouched off the last steps. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = Phi2 V c (t.val + 1) t.isLt from rfl, Phi2_succ]
  rw [leaves2_0, leaves2_1, leaves2_2, leaves2_3, leaves2_4]
  have hN : t.val < 32 := lt_of_lt_of_eq t.isLt (show cfg2.N = 32 from N_2)
  by_cases h0 : t.val % 4 = 0
  · have h1 : ¬t.val % 4 = 3 := by omega
    have hc0 := (hcond2_0 t).mpr h0
    have hc1 : ¬cond2_1 (grid2.coords t) := fun h => h1 ((hcond2_1 t).mp h)
    rw [leaves2_5_idle V c t hc1, acc2_first V c t h0]
    by_cases hz : t.val = 0
    · rw [Phi2_castSucc V c t, Phi2_zero V c _ _ hz, PhiA2_eq]
      iintro ⟨⟨⟨HS, HB⟩, Hg⟩, Ho, ⟨%d0, H0⟩, ⟨%d1, H1⟩, ⟨%d2, H2⟩, ⟨%d3, H3⟩, ⟨%d4, H4⟩, H5⟩
      iapply (sound_kernel2_A c Set.univ (grid2.coords t) _ _ _ _ _ _ _ _ _ _ _ _ _ _ hc0 hc1 (iblk2 V c 0 t) (iblk2 V c 1 t) (iblk2 V c 2 t) _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Phi2_castSucc V c t, Phi2_pos V c _ _ hz]
      iintro ⟨⟨⟨HS, HB⟩, Hg⟩, Ho, ⟨%d0, H0⟩, ⟨%d1, H1⟩, ⟨%d2, H2⟩, ⟨%d3, H3⟩, ⟨%d4, H4⟩, H5⟩
      iapply (sound_kernel2_A c Set.univ (grid2.coords t) _ _ _ _ _ _ _ _ _ _ _ _ _ _ hc0 hc1 (iblk2 V c 0 t) (iblk2 V c 1 t) (iblk2 V c 2 t) _)
      isplitl [H0]; · iexact H0
      isplitl [H1]; · iexact H1
      isplitl [H2]; · iexact H2
      isplitl [HS]; · iexists _; iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    have hc0 : ¬cond2_0 (grid2.coords t) := fun h => h0 ((hcond2_0 t).mp h)
    rw [Phi2_castSucc V c t, Phi2_pos V c _ _ hz, acc2_next V c t h0]
    by_cases h1 : t.val % 4 = 3
    · have hc1 := (hcond2_1 t).mpr h1
      rw [leaves2_5_live V c t hc1]
      unfold out2
      rw [acc2_next V c t h0]
      iintro ⟨⟨⟨HS, HB⟩, Hg⟩, Ho, ⟨%d0, H0⟩, ⟨%d1, H1⟩, ⟨%d2, H2⟩, ⟨%d3, H3⟩, ⟨%d4, H4⟩, ⟨%d5, H5⟩⟩
      iapply (sound_kernel2_C c Set.univ (grid2.coords t) _ _ _ _ _ _ _ _ _ _ _ _ _ _ hc0 hc1 (iblk2 V c 0 t) (iblk2 V c 1 t) (iblk2 V c 2 t)
        (iblk2 V c 3 t) (iblk2 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond2_1 (grid2.coords t) := fun h => h1 ((hcond2_1 t).mp h)
      rw [leaves2_5_idle V c t hc1]
      iintro ⟨⟨⟨HS, HB⟩, Hg⟩, Ho, ⟨%d0, H0⟩, ⟨%d1, H1⟩, ⟨%d2, H2⟩, ⟨%d3, H3⟩, ⟨%d4, H4⟩, H5⟩
      iapply (sound_kernel2_B c Set.univ (grid2.coords t) _ _ _ _ _ _ _ _ _ _ _ _ _ _ hc0 hc1 (iblk2 V c 0 t) (iblk2 V c 1 t) (iblk2 V c 2 t) _ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

/-! ## The region as a segment of the host program -/

section Seg2
variable (W : Dev nD → Valuation τ sig (Elt F))

/-- The valuation read at the TensorCore's references: what the proof data take. -/
abbrev V2of (W : Dev nD → Valuation τ sig (Elt F)) : (c : Dev nD) → (b : Ref sig .tc) → Buf (Elt F) ((c : Thread nD τ).loc b) :=
  fun c b => W c b

/-- The exit contents: the output array at what the write-backs leave, every other buffer as entered. -/
def Wout2 (c : Dev nD) : Valuation τ sig (Elt F) :=
  Function.update (W c) (Proc.devRef .tc main_v4) ((dat2 (V2of W) c).arrAt 5 cfg2.N)

theorem Wout2_main_v4 (c : Dev nD) : Wout2 W c (Proc.devRef .tc main_v4) = (dat2 (V2of W) c).arrAt 5 cfg2.N := by
  unfold Wout2; exact Function.update_self ..

theorem Wout2_of_ne_dev (c : Dev nD) (b : DevRef τ sig) (hb : b ≠ Proc.devRef .tc main_v4) : Wout2 W c b = W c b := by
  unfold Wout2; exact Function.update_of_ne hb ..

theorem Wout2_of_ne (c : Dev nD) (b : Ref sig .tc) (hb : ∀ w, Pipeline.arrRef spec2 w ≠ b) :
    Wout2 W c (Proc.devRef .tc b) = W c (Proc.devRef .tc b) :=
  Wout2_of_ne_dev W c _ fun e => hb 5 (Proc.devRef_injective _ e).symm

/-- The input windows' arrays leave as they entered. -/
theorem Wout2_main_v0_0 (c : Dev nD) : Wout2 W c (Proc.devRef .tc main_v0_0) = W c (Proc.devRef .tc main_v0_0) :=
  Wout2_of_ne_dev W c _ (StableHlo.devRef_ne_of_ne (by decide))
theorem Wout2_main_v2 (c : Dev nD) : Wout2 W c (Proc.devRef .tc main_v2) = W c (Proc.devRef .tc main_v2) :=
  Wout2_of_ne_dev W c _ (StableHlo.devRef_ne_of_ne (by decide))
theorem Wout2_main_v1 (c : Dev nD) : Wout2 W c (Proc.devRef .tc main_v1) = W c (Proc.devRef .tc main_v1) :=
  Wout2_of_ne_dev W c _ (StableHlo.devRef_ne_of_ne (by decide))
theorem Wout2_main_v3 (c : Dev nD) : Wout2 W c (Proc.devRef .tc main_v3) = W c (Proc.devRef .tc main_v3) :=
  Wout2_of_ne_dev W c _ (StableHlo.devRef_ne_of_ne (by decide))

/-- The five buffers behind the six windows' arrays. -/
abbrev arrs2 : List (DevRef τ sig) :=
  [Proc.devRef .tc main_v0_0, Proc.devRef .tc main_v2, Proc.devRef .tc main_v1, Proc.devRef .tc main_v3, Proc.devRef .tc main_v4]

theorem arrs2_nodup : arrs2.Nodup := by decide

theorem arrs2_sub : arrs2.toFinset ⊆ Pipeline.ucRefs τ sig := by
  intro b hb
  simp only [arrs2, List.toFinset_cons, List.toFinset_nil, Finset.mem_insert, Finset.mem_singleton, insert_empty_eq] at hb
  rcases hb with rfl | rfl | rfl | rfl | rfl <;> exact mem_uc _ (by decide)

/-- Those buffers held at a valuation, one by one. -/
theorem held_arrs2 (c : Dev nD) (X : Valuation τ sig (Elt F)) :
    (StableHlo.held (c : Thread nD τ) arrs2.toFinset X : sProp (MK F))
      = iprop((((c : Thread nD τ).loc main_v0_0) ↦{fullShare} X (Proc.devRef .tc main_v0_0))
          ∗ (((c : Thread nD τ).loc main_v2) ↦{fullShare} X (Proc.devRef .tc main_v2))
          ∗ (((c : Thread nD τ).loc main_v1) ↦{fullShare} X (Proc.devRef .tc main_v1))
          ∗ (((c : Thread nD τ).loc main_v3) ↦{fullShare} X (Proc.devRef .tc main_v3))
          ∗ (((c : Thread nD τ).loc main_v4) ↦{fullShare} X (Proc.devRef .tc main_v4))) := by
  unfold StableHlo.held; rw [bigSep_eq_bigSepL _ arrs2_nodup]; rfl

/-- The windows' arrays as the proof data hold them, one by one: the array two windows read is held by each at one half
    of the full share. -/
theorem arrays2_eq (V : (c : Dev nD) → (b : Ref sig .tc) → Buf (Elt F) ((c : Thread nD τ).loc b)) (c : Dev nD)
    (Fa : (w : Fin cfg2.W) → Buf (Elt F) ((cfg2.win w).arr.view.loc (c.tc : Thread nD τ))) :
    ((dat2 V c).arrays Fa : sProp (MK F))
      = iprop((((c : Thread nD τ).loc main_v0_0) ↦{fullShare} Fa 0)
          ∗ (((c : Thread nD τ).loc main_v2) ↦{fullShare} Fa 1)
          ∗ (((c : Thread nD τ).loc main_v1) ↦{fullShare.left} Fa 2)
          ∗ (((c : Thread nD τ).loc main_v1) ↦{fullShare.right} Fa 3)
          ∗ (((c : Thread nD τ).loc main_v3) ↦{fullShare} Fa 4)
          ∗ (((c : Thread nD τ).loc main_v4) ↦{fullShare} Fa 5)) := by
  unfold Dat.arrays
  rw [bigSep_W2, (arr_whole2 0).set_eq_univ, (arr_whole2 1).set_eq_univ, (arr_whole2 2).set_eq_univ,
    (arr_whole2 4).set_eq_univ, (arr_whole2 5).set_eq_univ]
  rfl

/-- After any point but the first the invariant gives the class invariant back: the accumulator's contents forgotten. -/
theorem Phi2_out (V : (c : Dev nD) → (b : Ref sig .tc) → Buf (Elt F) ((c : Thread nD τ).loc b)) (c : Dev nD)
    (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨⟨HS, HB⟩, Hg⟩
  isplitl [HS HB]
  · isplitl [HS]; · iexists _; iexact HS
    iexact HB
  iexact Hg

set_option maxHeartbeats 4000000 in
set_option backward.isDefEq.respectTransparency.types false in
/-- REGION 2 over the thread state: entered from every unscoped buffer at `W`, left at `Wout2 W`. The five buffers behind
    its arrays are split out of the unscoped buffers, the one two windows read dealt to them as its two half shares, and
    at the exit joined and put back; the generator register into the invariant and out; nothing owed; no semaphore of
    the kernel's own. -/
def reg2 (pdats : (p : Fin 9) → (c : Dev nD) → Dat τ (Elt F) Unit ℕ (UR sig nD τ) ℕ (Pipeline.pin (pcfgs (F := F)) adm p) c)
    (hK : ∀ c, pdats 2 c = dat2 (V2of W) c) :
    Pipeline.RegionSeg (pcfgs (F := F)) adm pdats () defs₀ 𝒱₀ L lv 2 where
  win := winFacts₀2
  block_pos := block_pos2
  stage_whole := stage_whole2
  K := PEmpty
  osem k := k.elim
  ho := Pipeline.OwnSemFacts.none _
  hbody c := by rw [hK c]; exact (body_obligation2 (V2of W) c).loose
  hwaits := Pipeline.hwaits_of_owed_zero _ _ _ _ L lv 2 fun c _ => by rw [hK c]; rfl
  pre c := iprop(StableHlo.held (c : Thread nD τ) (Pipeline.ucRefs τ sig) (W c) ∗ R c)
  post c := iprop(StableHlo.held (c : Thread nD τ) (Pipeline.ucRefs τ sig) (Wout2 W c) ∗ R c)
  X c := iprop(∃ r, prngReg c r)
  Y c := iprop(∃ r, prngReg c r)
  Z c := StableHlo.held (c : Thread nD τ) (Pipeline.ucRefs τ sig \ arrs2.toFinset) (W c)
  hentry c := by
    rw [Pipeline.ownSems0_none, hK c, arrays2_eq, StableHlo.held_sub_split _ arrs2_sub (W c), held_arrs2]
    iintro ⟨⟨⟨⟨Ha, Hb, Hd, He, Hf⟩, Hrest⟩, Hp, HO⟩, -, -⟩
    ihave Hd' := (pointsTo_share (PosShare.mem_left_op_right fullShare)).1 $$ Hd
    icases Hd' with ⟨Hd1, Hd2⟩
    imodintro
    isplitl [Ha Hb Hd1 Hd2 He Hf]
    · isplitl [Ha]; · iexact Ha
      isplitl [Hb]; · iexact Hb
      isplitl [Hd1]; · iexact Hd1
      isplitl [Hd2]; · iexact Hd2
      isplitl [He]; · iexact He
      iexact Hf
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [hK c, show (dat2 (V2of W) c).Φ 0 = Pipeline.ΦA spec2 c from rfl]; unfold Pipeline.ΦA
    iintro ⟨Hp, -, Hr⟩
    isplitl [Hr]; · iexact Hr
    iexact Hp
  hout c := by
    rw [Pipeline.ownSems0_none, hK c]
    refine (Phi2_out (V2of W) c _ (by rw [Fin.val_last]; show grid2.N ≠ 0; rw [N_2]; decide)).trans ?_
    unfold Pipeline.ΦA
    iintro ⟨Hr, Hp⟩
    isplitl [Hp]; · iexact Hp
    isplitr; · iempintro
    iexact Hr
  hexit c := by
    rw [hK c, arrays2_eq, StableHlo.held_sub_split _ arrs2_sub (Wout2 W c), held_arrs2,
      Wout2_main_v0_0, Wout2_main_v2, Wout2_main_v1, Wout2_main_v3, Wout2_main_v4,
      StableHlo.held_congr _ (V := Wout2 W c) (V' := W c) (fun b hb => Wout2_of_ne_dev W c b fun e =>
        (Finset.mem_sdiff.mp hb).2 (e ▸ by decide))]
    beta_reduce
    rw [(dat2 (V2of W) c).arrAt_in 0 rfl, (dat2 (V2of W) c).arrAt_in 1 rfl, (dat2 (V2of W) c).arrAt_in 2 rfl,
      (dat2 (V2of W) c).arrAt_in 3 rfl, (dat2 (V2of W) c).arrAt_in 4 rfl]
    iintro ⟨⟨Ha, Hb, Hd1, Hd2, He, Hf⟩, HO, HY, Hrest⟩
    imodintro
    isplitl [Ha Hb Hd1 Hd2 He Hf Hrest]
    · isplitl [Ha Hb Hd1 Hd2 He Hf]
      · isplitl [Ha]; · iexact Ha
        isplitl [Hb]; · iexact Hb
        isplitl [Hd1 Hd2]
        · iapply (pointsTo_share (PosShare.mem_left_op_right fullShare)).2
          isplitl [Hd1]; · iexact Hd1
          iexact Hd2
        isplitl [He]; · iexact He
        iexact Hf
      iexact Hrest
    isplitl [HY]; · iexact HY
    unfold Pipeline.Dat.owesAt Pipeline.owesWithin
    icases HO with ⟨%W', -, HO⟩; iexists W'; iexact HO

theorem reg2_pre (pdats : (p : Fin 9) → (c : Dev nD) → Dat τ (Elt F) Unit ℕ (UR sig nD τ) ℕ (Pipeline.pin (pcfgs (F := F)) adm p) c)
    (hK : ∀ c, pdats 2 c = dat2 (V2of W) c) (c : Dev nD) :
    (reg2 W pdats hK).pre c = iprop(StableHlo.held (c : Thread nD τ) (Pipeline.ucRefs τ sig) (W c) ∗ R c) := rfl
theorem reg2_post (pdats : (p : Fin 9) → (c : Dev nD) → Dat τ (Elt F) Unit ℕ (UR sig nD τ) ℕ (Pipeline.pin (pcfgs (F := F)) adm p) c)
    (hK : ∀ c, pdats 2 c = dat2 (V2of W) c) (c : Dev nD) :
    (reg2 W pdats hK).post c = iprop(StableHlo.held (c : Thread nD τ) (Pipeline.ucRefs τ sig) (Wout2 W c) ∗ R c) := rfl

end Seg2

end Cert.KernelIdeal.Hand

end
-- ==== Proof.KI.Reg3.lean ====
/-
  Region 3 of the kernel program: one matrix product [8192,256] x [256,128] by row blocks of 1024, the whole contracted axis in
  one block, so that at every grid point the accumulator is zeroed, added to once and stored into the output block. The
  proof data of the pipeline at the region's entry contents, the body obligation, the contents at the region's exit and the
  region as a segment of the host program.
-/
import proofs.«105977_j57329223467619_2_alg».proof.Proof.KI.Common
import proofs.«105977_j57329223467619_2_alg».proof.Proof.LibWhole
import Idealize.ShloMosaic.Lib.Pipeline.FrameBody
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region3

variable (V : (c : Dev nD) → (b : Ref sig .tc) → Buf (Elt F) ((c : Thread nD τ).loc b))

/-! ## The windows' blocks -/

/-- Window `w`'s block at point `t`, read off its array at the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions: the contracted axis has one block, so both hold at every point -/

theorem hc3_1 (i : grid3.Coords) : (Scalar.cmpi .ne (Scalar.extui (Scalar.cmpi .eq (BitVec.ofNat 32 (i 2).val) 0#32)) 0#32) = 1#1 := by
  have h2 : (i 2).val = 0 := by have h : (i 2).val < 1 := (i 2).isLt; omega
  rw [h2]; rfl

theorem hc3_2 (i : grid3.Coords) : k3_cond2 i = 1#1 := by
  have h2 : (i 2).val = 0 := by have h : (i 2).val < 1 := (i 2).isLt; omega
  unfold k3_cond2; rw [h2]; rfl

/-- The output window is live at every point. -/
theorem liveAt3_2 : ∀ t : Fin cfg3.N, cfg3.idle 2 (grid3.coords t) = false :=
  fun t => by show (!(k3_cond2 (grid3.coords t) == 1#1)) = false; rw [hc3_2]; rfl

/-! ## What the body leaves in the output window's buffer -/

/-- The output block after the body: the product of the two input blocks added to the zeroed accumulator, recast. -/
def out3_2 (x0 : Vec F S1024x256 .f32) (x1 : Vec F S256x128 .f32) : Vec F S1024x128 .bf16 :=
  k3_pay3 (k3_pay2 x0 x1 (k3_pay1 (F := F)))

/-- The scratch accumulator, a whole buffer of the kernel's own. -/
abbrev scM3 : Memref sig .tc .vmem S1024x128 .f32 := Memref.whole cc3_scratch0

/-! ## The body's triple -/

set_option maxHeartbeats 1000000 in
/-- The kernel body on whole staging memrefs, the inputs' at read contents, the output's and the accumulator's at anything,
    runs to the continuation holding the inputs' as they were, the output's at `out3_2` of the inputs' and the accumulator at
    some contents. -/
theorem sound_kernel3 (c : Dev nD) (E : Set ℕ) (i : grid3.Coords)
    (arg3 : Memref sig .tc .vmem S1024x256 .f32) (harg3 : arg3.IsWhole) (arg4 : Memref sig .tc .vmem S256x128 .f32) (harg4 : arg4.IsWhole)
    (arg5 : Memref sig .tc .vmem S1024x128 .bf16) (harg5 : arg5.IsWhole) (arg6 : Memref sig .tc .vmem S1024x128 .f32) (harg6 : arg6.IsWhole)
    (x0 : Vec F S1024x256 .f32) (x1 : Vec F S256x128 .f32) (K : PUnit → sProp (MK F)) :
    iprop(owns (c : Thread nD τ) arg3 fullShare x0 ∗ owns (c : Thread nD τ) arg4 fullShare x1 ∗ (∃ d, owns (c : Thread nD τ) arg5 fullShare d)
        ∗ (∃ d, owns (c : Thread nD τ) arg6 fullShare d)
        ∗ (iprop(owns (c : Thread nD τ) arg3 fullShare x0 ∗ owns (c : Thread nD τ) arg4 fullShare x1 ∗ owns (c : Thread nD τ) arg5 fullShare (out3_2 x0 x1)
            ∗ (∃ d, owns (c : Thread nD τ) arg6 fullShare d)) -∗ K ⟨⟩))
      ⊢ wp frame (wpE (defs₀ (F := F)) Variants.none c none) E (cc3_kernel i arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc3_1 i | exact hc3_2 i)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_unit_zero _ _ View.zero_offsets2, View.readCov_cons_toLoadRect, View.readCov_cons_toLoadRect,
      View.readAt_unit_zero _ _ View.zero_offsets2, View.readAt_unit_zero _ _ View.zero_offsets2]
    rfl
  iexists _; iexists _; isplitr
  swap; · iexact H3
  ipureintro; rfl

/-! ## The pipeline's proof data -/

/-- The proof data of pipeline 3 on core `c`: the arrays at the entry contents; after the body each input's buffer at its
    block and the output's at `out3_2` of the input blocks; the invariant the scoped buffers no window stages (the
    accumulator among them, at anything: every point zeroes it first) and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- The invariant with the accumulator split out as a memref owned at some contents. -/
theorem PhiA3_eq (c : Dev nD) :
    (Pipeline.ΦA spec3 c : sProp (MK F))
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body obligation -/

def bodyPre3 (c : Dev nD) (t : Fin cfg3.N) : sProp (MK F) :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp (MK F) :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ (dat3 V c).leavesExact 2 t)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).leavesExact 2 t = owns (c : Thread nD τ) (st3_2 t) fullShare ((dat3 V c).after 2 t) from by
    unfold Dat.leavesExact; rw [liveAt3_2 t]]
  rw [show (dat3 V c).Φ t.succ = Pipeline.ΦA spec3 c from rfl, show (dat3 V c).Φ t.castSucc = Pipeline.ΦA spec3 c from rfl,
    show (dat3 V c).owesAt () t.succ = (dat3 V c).owesAt () t.castSucc from rfl,
    after3_0, after3_1, after3_2, PhiA3_eq]
  iintro ⟨⟨⟨HS, Hb⟩, Hg⟩, Ho, ⟨%d0, H0⟩, ⟨%d1, H1⟩, ⟨%d2, H2⟩⟩
  iapply (sound_kernel3 c Set.univ (grid3.coords t) _ _ _ _ _ _ _ _ (iblk3 V c 0 t) (iblk3 V c 1 t) _)
  isplitl [H0]; · iexact H0
  isplitl [H1]; · iexact H1
  isplitl [H2]; · iexists _; iexact H2
  isplitl [HS]; · iexact HS
  iintro ⟨H0, H1, H2, HS⟩
  isplitl [HS Hb Hg]
  · isplitl [HS Hb]
    · isplitl [HS]; · iexact HS
      iexact Hb
    iexact Hg
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

/-! ## The contents at the region's exit, and the region as a segment -/

section Segment3

variable (W : Dev nD → Valuation τ sig (Elt F))

/-- A valuation read at the TensorCore's references. -/
abbrev Vof3 (W : Dev nD → Valuation τ sig (Elt F)) : (c : Dev nD) → (b : Ref sig .tc) → Buf (Elt F) ((c : Thread nD τ).loc b) := fun c b => W c b

/-- At region 3's exit: its arrays at what the pipeline leaves, every other buffer as entered. -/
def Wout3 (c : Dev nD) : Valuation τ sig (Elt F) :=
  Pipeline.withArrays spec3 c (W c) fun w => (dat3 (Vof3 W) c).arrAt w cfg3.N

theorem Wout3_arr (c : Dev nD) (w : Fin cfg3.W) :
    Wout3 W c (Proc.devRef .tc (Pipeline.arrRef spec3 w)) = (dat3 (Vof3 W) c).arrAt w cfg3.N := by
  unfold Wout3; exact Pipeline.withArrays_arr spec3 launch3.win.arr_inj c _ _ w

theorem Wout3_of_ne (c : Dev nD) (b : Ref sig .tc) (hb : ∀ w, Pipeline.arrRef spec3 w ≠ b) :
    Wout3 W c (Proc.devRef .tc b) = W c (Proc.devRef .tc b) := by
  unfold Wout3; exact Pipeline.withArrays_of_ne spec3 c _ _ b hb

/-- The input arrays leave the region as they entered it. -/
theorem Wout3_main_v4 (c : Dev nD) : Wout3 W c (Proc.devRef .tc main_v4) = W c (Proc.devRef .tc main_v4) :=
  (Wout3_arr W c 0).trans (((dat3 (Vof3 W) c).arrAt_in 0 rfl _).trans (A_eq3 (Vof3 W) c 0))
theorem Wout3_main_arg4 (c : Dev nD) : Wout3 W c (Proc.devRef .tc main_arg4) = W c (Proc.devRef .tc main_arg4) :=
  (Wout3_arr W c 1).trans (((dat3 (Vof3 W) c).arrAt_in 1 rfl _).trans (A_eq3 (Vof3 W) c 1))
/-- The output array holds what the write-backs leave. -/
theorem Wout3_main_v5 (c : Dev nD) : Wout3 W c (Proc.devRef .tc main_v5) = (dat3 (Vof3 W) c).arrAt 2 cfg3.N :=
  Wout3_arr W c 2

theorem hF3 (c : Dev nD) (w : Fin cfg3.W) : (dat3 (Vof3 W) c).arrAt w cfg3.N = Vof3 (Wout3 W) c (Pipeline.arrRef spec3 w) :=
  (Wout3_arr W c w).symm
theorem hrest3 (c : Dev nD) : ∀ b, b ∉ Finset.univ.image (Pipeline.arrRef spec3) → Vof3 (Wout3 W) c b = Vof3 W c b :=
  fun b hb => Wout3_of_ne W c b fun w e => hb (Finset.mem_image.mpr ⟨w, Finset.mem_univ _, e⟩)

set_option backward.isDefEq.respectTransparency.types false in
/-- REGION 3 over the thread state: entered from every unscoped buffer at `W`, left at `Wout3 W`. -/
def reg3 (pdats : (p : Fin 9) → (c : Dev nD) → Dat τ (Elt F) Unit ℕ (UR sig nD τ) ℕ (Pipeline.pin (pcfgs (F := F)) adm p) c)
    (hK : ∀ c, pdats 3 c = dat3 (Vof3 W) c) :
    Pipeline.RegionSeg (pcfgs (F := F)) adm pdats () defs₀ 𝒱₀ L lv 3 where
  win := launch3.win.to₀
  block_pos := launch3.block_pos
  stage_whole := launch3.stage_whole
  K := PEmpty
  osem k := k.elim
  ho := Pipeline.OwnSemFacts.none _
  hbody c := by rw [hK c]; exact (body_obligation3 (Vof3 W) c).loose
  hwaits := Pipeline.hwaits_of_owed_zero _ _ _ _ L lv 3 fun c t => by rw [hK c]; rfl
  pre c := iprop(StableHlo.held (c : Thread nD τ) (Pipeline.ucRefs τ sig) (W c) ∗ R c)
  post c := iprop(StableHlo.held (c : Thread nD τ) (Pipeline.ucRefs τ sig) (Wout3 W c) ∗ R c)
  X c := iprop(∃ r, prngReg c r)
  Y c := iprop(∃ r, prngReg c r)
  Z c := Pipeline.unscopedRest (Ix := Unit) (Name := ℕ) (U := UR sig nD τ) (Lvl := ℕ) spec3 c (Vof3 W c)
  hentry c := by
    rw [Pipeline.ownSems0_none]
    have hsplit := Pipeline.arrays_of_unscopedBufs (p := 3) (pcfgs (F := F)) adm pdats launch3.win launch3.arr_whole c
      (by rw [hK c]; exact (dat3 (Vof3 W) c).share_full fun _ => rfl) (Vof3 W c) (by rw [hK c]; exact fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [hK c]; show _ ⊢ Pipeline.ΦA spec3 c; unfold Pipeline.ΦA
    iintro ⟨Hp, -, Hr⟩
    isplitl [Hr]; · iexact Hr
    iexact Hp
  hout c := by
    rw [Pipeline.ownSems0_none, hK c]; show Pipeline.ΦA spec3 c ⊢ _; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c pdats (by rw [hK c]; exact (dat3 (Vof3 W) c).share_full fun _ => rfl)
      (Vof3 W c) (Vof3 (Wout3 W) c) ((pdats 3 c).arrAt · cfg3.N) (by rw [hK c]; exact hF3 W c) (hrest3 W c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W', -, HO⟩; iexists W'; iexact HO

theorem reg3_pre (pdats) (hK) (c : Dev nD) :
    (reg3 W pdats hK).pre c = iprop(StableHlo.held (c : Thread nD τ) (Pipeline.ucRefs τ sig) (W c) ∗ R c) := rfl
theorem reg3_post (pdats) (hK) (c : Dev nD) :
    (reg3 W pdats hK).post c = iprop(StableHlo.held (c : Thread nD τ) (Pipeline.ucRefs τ sig) (Wout3 W c) ∗ R c) := rfl

end Segment3

end Cert.KernelIdeal.Hand

end
-- ==== Proof.KI.Reg4.lean ====
/-
  Region 4 of the kernel program: one matrix product [8192,256] x [256,256] by row blocks of 1024, the whole contracted axis in
  one block, so that at every grid point the accumulator is zeroed, added to once and stored into the output block. The
  proof data of the pipeline at the region's entry contents, the body obligation, the contents at the region's exit and the
  region as a segment of the host program.
-/
import proofs.«105977_j57329223467619_2_alg».proof.Proof.KI.Common
import proofs.«105977_j57329223467619_2_alg».proof.Proof.LibWhole
import Idealize.ShloMosaic.Lib.Pipeline.FrameBody
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region4

variable (V : (c : Dev nD) → (b : Ref sig .tc) → Buf (Elt F) ((c : Thread nD τ).loc b))

/-! ## The windows' blocks -/

/-- Window `w`'s block at point `t`, read off its array at the entry contents. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions: the contracted axis has one block, so both hold at every point -/

theorem hc4_1 (i : grid4.Coords) : (Scalar.cmpi .ne (Scalar.extui (Scalar.cmpi .eq (BitVec.ofNat 32 (i 2).val) 0#32)) 0#32) = 1#1 := by
  have h2 : (i 2).val = 0 := by have h : (i 2).val < 1 := (i 2).isLt; omega
  rw [h2]; rfl

theorem hc4_2 (i : grid4.Coords) : k4_cond2 i = 1#1 := by
  have h2 : (i 2).val = 0 := by have h : (i 2).val < 1 := (i 2).isLt; omega
  unfold k4_cond2; rw [h2]; rfl

/-- The output window is live at every point. -/
theorem liveAt4_2 : ∀ t : Fin cfg4.N, cfg4.idle 2 (grid4.coords t) = false :=
  fun t => by show (!(k4_cond2 (grid4.coords t) == 1#1)) = false; rw [hc4_2]; rfl

/-! ## What the body leaves in the output window's buffer -/

/-- The output block after the body: the product of the two input blocks added to the zeroed accumulator, recast. -/
def out4_2 (x0 : Vec F S1024x256 .f32) (x1 : Vec F S256x256 .f32) : Vec F S1024x256 .bf16 :=
  k4_pay3 (k4_pay2 x0 x1 (k4_pay1 (F := F)))

/-- The scratch accumulator, a whole buffer of the kernel's own. -/
abbrev scM4 : Memref sig .tc .vmem S1024x256 .f32 := Memref.whole cc4_scratch0

/-! ## The body's triple -/

set_option maxHeartbeats 1000000 in
/-- The kernel body on whole staging memrefs, the inputs' at read contents, the output's and the accumulator's at anything,
    runs to the continuation holding the inputs' as they were, the output's at `out4_2` of the inputs' and the accumulator at
    some contents. -/
theorem sound_kernel4 (c : Dev nD) (E : Set ℕ) (i : grid4.Coords)
    (arg3 : Memref sig .tc .vmem S1024x256 .f32) (harg3 : arg3.IsWhole) (arg4 : Memref sig .tc .vmem S256x256 .f32) (harg4 : arg4.IsWhole)
    (arg5 : Memref sig .tc .vmem S1024x256 .bf16) (harg5 : arg5.IsWhole) (arg6 : Memref sig .tc .vmem S1024x256 .f32) (harg6 : arg6.IsWhole)
    (x0 : Vec F S1024x256 .f32) (x1 : Vec F S256x256 .f32) (K : PUnit → sProp (MK F)) :
    iprop(owns (c : Thread nD τ) arg3 fullShare x0 ∗ owns (c : Thread nD τ) arg4 fullShare x1 ∗ (∃ d, owns (c : Thread nD τ) arg5 fullShare d)
        ∗ (∃ d, owns (c : Thread nD τ) arg6 fullShare d)
        ∗ (iprop(owns (c : Thread nD τ) arg3 fullShare x0 ∗ owns (c : Thread nD τ) arg4 fullShare x1 ∗ owns (c : Thread nD τ) arg5 fullShare (out4_2 x0 x1)
            ∗ (∃ d, owns (c : Thread nD τ) arg6 fullShare d)) -∗ K ⟨⟩))
      ⊢ wp frame (wpE (defs₀ (F := F)) Variants.none c none) E (cc4_kernel i arg3 harg3 arg4 harg4 arg5 harg5 arg6 harg6) K := by
  simp only [cc4_kernel_eq_skeleton]; unfold cc4_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc4_1 i | exact hc4_2 i)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_unit_zero _ _ View.zero_offsets2, View.readCov_cons_toLoadRect, View.readCov_cons_toLoadRect,
      View.readAt_unit_zero _ _ View.zero_offsets2, View.readAt_unit_zero _ _ View.zero_offsets2]
    rfl
  iexists _; iexists _; isplitr
  swap; · iexact H3
  ipureintro; rfl

/-! ## The pipeline's proof data -/

/-- The proof data of pipeline 4 on core `c`: the arrays at the entry contents; after the body each input's buffer at its
    block and the output's at `out4_2` of the input blocks; the invariant the scoped buffers no window stages (the
    accumulator among them, at anything: every point zeroes it first) and the generator register; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- The invariant with the accumulator split out as a memref owned at some contents. -/
theorem PhiA4_eq (c : Dev nD) :
    (Pipeline.ΦA spec4 c : sProp (MK F))
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-! ## The body obligation -/

def bodyPre4 (c : Dev nD) (t : Fin cfg4.N) : sProp (MK F) :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp (MK F) :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ (dat4 V c).leavesExact 2 t)

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).leavesExact 2 t = owns (c : Thread nD τ) (st4_2 t) fullShare ((dat4 V c).after 2 t) from by
    unfold Dat.leavesExact; rw [liveAt4_2 t]]
  rw [show (dat4 V c).Φ t.succ = Pipeline.ΦA spec4 c from rfl, show (dat4 V c).Φ t.castSucc = Pipeline.ΦA spec4 c from rfl,
    show (dat4 V c).owesAt () t.succ = (dat4 V c).owesAt () t.castSucc from rfl,
    after4_0, after4_1, after4_2, PhiA4_eq]
  iintro ⟨⟨⟨HS, Hb⟩, Hg⟩, Ho, ⟨%d0, H0⟩, ⟨%d1, H1⟩, ⟨%d2, H2⟩⟩
  iapply (sound_kernel4 c Set.univ (grid4.coords t) _ _ _ _ _ _ _ _ (iblk4 V c 0 t) (iblk4 V c 1 t) _)
  isplitl [H0]; · iexact H0
  isplitl [H1]; · iexact H1
  isplitl [H2]; · iexists _; iexact H2
  isplitl [HS]; · iexact HS
  iintro ⟨H0, H1, H2, HS⟩
  isplitl [HS Hb Hg]
  · isplitl [HS Hb]
    · isplitl [HS]; · iexact HS
      iexact Hb
    iexact Hg
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

/-! ## The contents at the region's exit, and the region as a segment -/

section Segment4

variable (W : Dev nD → Valuation τ sig (Elt F))

/-- A valuation read at the TensorCore's references. -/
abbrev Vof4 (W : Dev nD → Valuation τ sig (Elt F)) : (c : Dev nD) → (b : Ref sig .tc) → Buf (Elt F) ((c : Thread nD τ).loc b) := fun c b => W c b

/-- At region 4's exit: its arrays at what the pipeline leaves, every other buffer as entered. -/
def Wout4 (c : Dev nD) : Valuation τ sig (Elt F) :=
  Pipeline.withArrays spec4 c (W c) fun w => (dat4 (Vof4 W) c).arrAt w cfg4.N

theorem Wout4_arr (c : Dev nD) (w : Fin cfg4.W) :
    Wout4 W c (Proc.devRef .tc (Pipeline.arrRef spec4 w)) = (dat4 (Vof4 W) c).arrAt w cfg4.N := by
  unfold Wout4; exact Pipeline.withArrays_arr spec4 launch4.win.arr_inj c _ _ w

theorem Wout4_of_ne (c : Dev nD) (b : Ref sig .tc) (hb : ∀ w, Pipeline.arrRef spec4 w ≠ b) :
    Wout4 W c (Proc.devRef .tc b) = W c (Proc.devRef .tc b) := by
  unfold Wout4; exact Pipeline.withArrays_of_ne spec4 c _ _ b hb

/-- The input arrays leave the region as they entered it. -/
theorem Wout4_main_v4 (c : Dev nD) : Wout4 W c (Proc.devRef .tc main_v4) = W c (Proc.devRef .tc main_v4) :=
  (Wout4_arr W c 0).trans (((dat4 (Vof4 W) c).arrAt_in 0 rfl _).trans (A_eq4 (Vof4 W) c 0))
theorem Wout4_main_arg6 (c : Dev nD) : Wout4 W c (Proc.devRef .tc main_arg6) = W c (Proc.devRef .tc main_arg6) :=
  (Wout4_arr W c 1).trans (((dat4 (Vof4 W) c).arrAt_in 1 rfl _).trans (A_eq4 (Vof4 W) c 1))
/-- The output array holds what the write-backs leave. -/
theorem Wout4_main_v6 (c : Dev nD) : Wout4 W c (Proc.devRef .tc main_v6) = (dat4 (Vof4 W) c).arrAt 2 cfg4.N :=
  Wout4_arr W c 2

theorem hF4 (c : Dev nD) (w : Fin cfg4.W) : (dat4 (Vof4 W) c).arrAt w cfg4.N = Vof4 (Wout4 W) c (Pipeline.arrRef spec4 w) :=
  (Wout4_arr W c w).symm
theorem hrest4 (c : Dev nD) : ∀ b, b ∉ Finset.univ.image (Pipeline.arrRef spec4) → Vof4 (Wout4 W) c b = Vof4 W c b :=
  fun b hb => Wout4_of_ne W c b fun w e => hb (Finset.mem_image.mpr ⟨w, Finset.mem_univ _, e⟩)

set_option backward.isDefEq.respectTransparency.types false in
/-- REGION 4 over the thread state: entered from every unscoped buffer at `W`, left at `Wout4 W`. -/
def reg4 (pdats : (p : Fin 9) → (c : Dev nD) → Dat τ (Elt F) Unit ℕ (UR sig nD τ) ℕ (Pipeline.pin (pcfgs (F := F)) adm p) c)
    (hK : ∀ c, pdats 4 c = dat4 (Vof4 W) c) :
    Pipeline.RegionSeg (pcfgs (F := F)) adm pdats () defs₀ 𝒱₀ L lv 4 where
  win := launch4.win.to₀
  block_pos := launch4.block_pos
  stage_whole := launch4.stage_whole
  K := PEmpty
  osem k := k.elim
  ho := Pipeline.OwnSemFacts.none _
  hbody c := by rw [hK c]; exact (body_obligation4 (Vof4 W) c).loose
  hwaits := Pipeline.hwaits_of_owed_zero _ _ _ _ L lv 4 fun c t => by rw [hK c]; rfl
  pre c := iprop(StableHlo.held (c : Thread nD τ) (Pipeline.ucRefs τ sig) (W c) ∗ R c)
  post c := iprop(StableHlo.held (c : Thread nD τ) (Pipeline.ucRefs τ sig) (Wout4 W c) ∗ R c)
  X c := iprop(∃ r, prngReg c r)
  Y c := iprop(∃ r, prngReg c r)
  Z c := Pipeline.unscopedRest (Ix := Unit) (Name := ℕ) (U := UR sig nD τ) (Lvl := ℕ) spec4 c (Vof4 W c)
  hentry c := by
    rw [Pipeline.ownSems0_none]
    have hsplit := Pipeline.arrays_of_unscopedBufs (p := 4) (pcfgs (F := F)) adm pdats launch4.win launch4.arr_whole c
      (by rw [hK c]; exact (dat4 (Vof4 W) c).share_full fun _ => rfl) (Vof4 W c) (by rw [hK c]; exact fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [hK c]; show _ ⊢ Pipeline.ΦA spec4 c; unfold Pipeline.ΦA
    iintro ⟨Hp, -, Hr⟩
    isplitl [Hr]; · iexact Hr
    iexact Hp
  hout c := by
    rw [Pipeline.ownSems0_none, hK c]; show Pipeline.ΦA spec4 c ⊢ _; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c pdats (by rw [hK c]; exact (dat4 (Vof4 W) c).share_full fun _ => rfl)
      (Vof4 W c) (Vof4 (Wout4 W) c) ((pdats 4 c).arrAt · cfg4.N) (by rw [hK c]; exact hF4 W c) (hrest4 W c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W', -, HO⟩; iexists W'; iexact HO

theorem reg4_pre (pdats) (hK) (c : Dev nD) :
    (reg4 W pdats hK).pre c = iprop(StableHlo.held (c : Thread nD τ) (Pipeline.ucRefs τ sig) (W c) ∗ R c) := rfl
theorem reg4_post (pdats) (hK) (c : Dev nD) :
    (reg4 W pdats hK).post c = iprop(StableHlo.held (c : Thread nD τ) (Pipeline.ucRefs τ sig) (Wout4 W c) ∗ R c) := rfl

end Segment4

end Cert.KernelIdeal.Hand

end
-- ==== Proof.KI.Reg5Run.lean ====
import proofs.«105977_j57329223467619_2_alg».proof.Proof.KI.Common
import proofs.«105977_j57329223467619_2_alg».proof.Proof.LibWhole

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The dual kernel's body, case by case

The body of the fifth call zeroes its two accumulators when the reduction coordinate is 0, adds one block product into
each at every point, and stores the two outputs when the reduction coordinate is 3. The two conditions are decided over
the grid in closed form; the body's triple is stated once per case, over the payloads of its stores. -/

/-- The first condition (the accumulators are zeroed), from the grid coordinates. -/
abbrev cond5_0 (i : grid5.Coords) : Prop := (Scalar.cmpi .ne (Scalar.extui (Scalar.cmpi .eq (BitVec.ofNat 32 (i 1).val) 0#32)) 0#32) = 1#1
/-- It holds at the points ≡ 0 (mod 4). -/
theorem hcond5_0 : ∀ t : Fin cfg5.N, cond5_0 (grid5.coords t) ↔ t.val % 4 = 0 :=
  (by decide +kernel : ∀ t : Fin grid5.N, cond5_0 (grid5.coords t) ↔ t.val % 4 = 0)

/-- The second condition (the outputs are stored), from the grid coordinates. -/
abbrev cond5_1 (i : grid5.Coords) : Prop := k5_cond2 i = 1#1
/-- It holds at the points ≡ 3 (mod 4). -/
theorem hcond5_1 : ∀ t : Fin cfg5.N, cond5_1 (grid5.coords t) ↔ t.val % 4 = 3 :=
  (by decide +kernel : ∀ t : Fin grid5.N, cond5_1 (grid5.coords t) ↔ t.val % 4 = 3)

/-- A store through the whole-shape rectangle, last, leaves its payload whatever the earlier stores were. -/
theorem read_writes_cons_whole5 {Val : EltTy → Type} [∀ e, Nonempty (Val e)] {S : Shape} {e : EltTy} {sg : RefSig} {κ : Kind} {sp : Space}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]

set_option maxHeartbeats 4000000 in
/-- A middle point (neither condition): each accumulator gains its block product. -/
theorem run5_B (c : Dev nD) (i : grid5.Coords) (arg2 : Memref sig .tc .vmem S1024x2048 .bf16) (harg2 : arg2.IsWhole) (arg3 : Memref sig .tc .vmem S2048x128 .bf16) (harg3 : arg3.IsWhole) (arg4 : Memref sig .tc .vmem S2048x256 .bf16) (harg4 : arg4.IsWhole) (arg5 : Memref sig .tc .vmem S2048x1 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1x256 .f32) (harg8 : arg8.IsWhole) (arg9 : Memref sig .tc .vmem S1024x128 .f32) (harg9 : arg9.IsWhole) (arg10 : Memref sig .tc .vmem S1024x256 .bf16) (harg10 : arg10.IsWhole) (arg11 : Memref sig .tc .vmem S1024x128 .f32) (harg11 : arg11.IsWhole) (arg12 : Memref sig .tc .vmem S1024x256 .f32) (harg12 : arg12.IsWhole) (hc0 : ¬cond5_0 i) (hc1 : ¬cond5_1 i)
    (x0 : Vec F S1024x2048 .bf16) (x1 : Vec F S2048x128 .bf16) (x2 : Vec F S2048x256 .bf16) (x3 : Vec F S2048x1 .f32)
    (xs0 : Vec F S1024x128 .f32) (xs1 : Vec F S1024x256 .f32) (E : Set ℕ) (K : PUnit → sProp (MK F)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg11 fullShare xs0 ∗ owns (c : Thread nD τ) arg12 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg11 fullShare (k5_pay8 x0 x3 x1 xs0)
            ∗ owns (c : Thread nD τ) arg12 fullShare (k5_pay9 x0 x3 x2 xs1)) -∗ K ⟨⟩))
      ⊢ wp frame (wpE (defs₀ (F := F)) Variants.none c none) E (cc5__dual_kernel i arg2 harg2 arg3 harg3 arg4 harg4 arg5 harg5 arg6 harg6 arg7 harg7 arg8 harg8 arg9 harg9 arg10 harg10 arg11 harg11 arg12 harg12) K := by
  simp only [cc5__dual_kernel_eq_skeleton]; unfold cc5__dual_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  subst hf0; subst hf1; subst hf2; subst hf3; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HS0]
  · iexists _; isplitr
    swap; · iexact HS0
    ipureintro
    rw [read_writes_cons_whole5 _ _ View.zero_offsets2]
    exact congr (congr (congr (congrArg _ (View.readAt_unit_zero _ _ View.zero_offsets2 _)) (View.readAt_unit_zero _ _ View.zero_offsets2 _)) (View.readAt_unit_zero _ _ View.zero_offsets2 _)) (View.readAt_unit_zero _ _ View.zero_offsets2 _)
  · iexists _; isplitr
    swap; · iexact HS1
    ipureintro
    rw [read_writes_cons_whole5 _ _ View.zero_offsets2]
    exact congr (congr (congr (congrArg _ (View.readAt_unit_zero _ _ View.zero_offsets2 _)) (View.readAt_unit_zero _ _ View.zero_offsets2 _)) (View.readAt_unit_zero _ _ View.zero_offsets2 _)) (View.readAt_unit_zero _ _ View.zero_offsets2 _)

set_option maxHeartbeats 4000000 in
/-- A first point of a reduction (the first condition only): each accumulator is its block product over zero. -/
theorem run5_A (c : Dev nD) (i : grid5.Coords) (arg2 : Memref sig .tc .vmem S1024x2048 .bf16) (harg2 : arg2.IsWhole) (arg3 : Memref sig .tc .vmem S2048x128 .bf16) (harg3 : arg3.IsWhole) (arg4 : Memref sig .tc .vmem S2048x256 .bf16) (harg4 : arg4.IsWhole) (arg5 : Memref sig .tc .vmem S2048x1 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1x256 .f32) (harg8 : arg8.IsWhole) (arg9 : Memref sig .tc .vmem S1024x128 .f32) (harg9 : arg9.IsWhole) (arg10 : Memref sig .tc .vmem S1024x256 .bf16) (harg10 : arg10.IsWhole) (arg11 : Memref sig .tc .vmem S1024x128 .f32) (harg11 : arg11.IsWhole) (arg12 : Memref sig .tc .vmem S1024x256 .f32) (harg12 : arg12.IsWhole) (hc0 : cond5_0 i) (hc1 : ¬cond5_1 i)
    (x0 : Vec F S1024x2048 .bf16) (x1 : Vec F S2048x128 .bf16) (x2 : Vec F S2048x256 .bf16) (x3 : Vec F S2048x1 .f32)
    (E : Set ℕ) (K : PUnit → sProp (MK F)) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg11 fullShare (k5_pay8 x0 x3 x1 k5_pay4)
            ∗ owns (c : Thread nD τ) arg12 fullShare (k5_pay9 x0 x3 x2 k5_pay5)) -∗ K ⟨⟩))
      ⊢ wp frame (wpE (defs₀ (F := F)) Variants.none c none) E (cc5__dual_kernel i arg2 harg2 arg3 harg3 arg4 harg4 arg5 harg5 arg6 harg6 arg7 harg7 arg8 harg8 arg9 harg9 arg10 harg10 arg11 harg11 arg12 harg12) K := by
  simp only [cc5__dual_kernel_eq_skeleton]; unfold cc5__dual_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HS0]
  · iexists _; isplitr
    swap; · iexact HS0
    ipureintro
    rw [read_writes_cons_whole5 _ _ View.zero_offsets2]
    unfold run5_A.sl.v19 run5_A.sl.HS0_1
    exact congr (congr (congr (congrArg _ (View.readAt_unit_zero _ _ View.zero_offsets2 _)) (View.readAt_unit_zero _ _ View.zero_offsets2 _)) (View.readAt_unit_zero _ _ View.zero_offsets2 _)) (View.readCov_unit_zero _ View.zero_offsets2 _ _)
  · iexists _; isplitr
    swap; · iexact HS1
    ipureintro
    rw [read_writes_cons_whole5 _ _ View.zero_offsets2]
    unfold run5_A.sl.v25 run5_A.sl.HS1_1
    exact congr (congr (congr (congrArg _ (View.readAt_unit_zero _ _ View.zero_offsets2 _)) (View.readAt_unit_zero _ _ View.zero_offsets2 _)) (View.readAt_unit_zero _ _ View.zero_offsets2 _)) (View.readCov_unit_zero _ View.zero_offsets2 _ _)

set_option maxHeartbeats 4000000 in
/-- A last point of a reduction (the second condition only): each accumulator gains its block product, and the two
    outputs are stored from them. -/
theorem run5_C (c : Dev nD) (i : grid5.Coords) (arg2 : Memref sig .tc .vmem S1024x2048 .bf16) (harg2 : arg2.IsWhole) (arg3 : Memref sig .tc .vmem S2048x128 .bf16) (harg3 : arg3.IsWhole) (arg4 : Memref sig .tc .vmem S2048x256 .bf16) (harg4 : arg4.IsWhole) (arg5 : Memref sig .tc .vmem S2048x1 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1x256 .f32) (harg8 : arg8.IsWhole) (arg9 : Memref sig .tc .vmem S1024x128 .f32) (harg9 : arg9.IsWhole) (arg10 : Memref sig .tc .vmem S1024x256 .bf16) (harg10 : arg10.IsWhole) (arg11 : Memref sig .tc .vmem S1024x128 .f32) (harg11 : arg11.IsWhole) (arg12 : Memref sig .tc .vmem S1024x256 .f32) (harg12 : arg12.IsWhole) (hc0 : ¬cond5_0 i) (hc1 : cond5_1 i)
    (x0 : Vec F S1024x2048 .bf16) (x1 : Vec F S2048x128 .bf16) (x2 : Vec F S2048x256 .bf16) (x3 : Vec F S2048x1 .f32)
    (x4 : Vec F S1024x1 .f32) (x5 : Vec F S1x128 .f32) (x6 : Vec F S1x256 .f32)
    (xs0 : Vec F S1024x128 .f32) (xs1 : Vec F S1024x256 .f32) (E : Set ℕ) (K : PUnit → sProp (MK F)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d)
        ∗ owns (c : Thread nD τ) arg11 fullShare xs0 ∗ owns (c : Thread nD τ) arg12 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k5_pay2 x4 (k5_pay8 x0 x3 x1 xs0) x5)
            ∗ owns (c : Thread nD τ) arg10 fullShare (k5_pay3 x4 (k5_pay9 x0 x3 x2 xs1) x6)
            ∗ owns (c : Thread nD τ) arg11 fullShare (k5_pay8 x0 x3 x1 xs0)
            ∗ owns (c : Thread nD τ) arg12 fullShare (k5_pay9 x0 x3 x2 xs1)) -∗ K ⟨⟩))
      ⊢ wp frame (wpE (defs₀ (F := F)) Variants.none c none) E (cc5__dual_kernel i arg2 harg2 arg3 harg3 arg4 harg4 arg5 harg5 arg6 harg6 arg7 harg7 arg8 harg8 arg9 harg9 arg10 harg10 arg11 harg11 arg12 harg12) K := by
  simp only [cc5__dual_kernel_eq_skeleton]; unfold cc5__dual_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, Hk⟩
  subst hf0; subst hf1; subst hf2; subst hf3; subst hf4; subst hf5; subst hf6; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_writes_cons_whole5 _ _ View.zero_offsets2]
    unfold run5_C.sl.v36 run5_C.sl.HS0_1
    exact congr (congr (congrArg _ (View.readAt_unit_zero _ _ View.zero_offsets2 _)) ((View.readCov_unit_zero _ View.zero_offsets2 _ _).trans (congr (congr (congr (congrArg _ (View.readAt_unit_zero _ _ View.zero_offsets2 _)) (View.readAt_unit_zero _ _ View.zero_offsets2 _)) (View.readAt_unit_zero _ _ View.zero_offsets2 _)) (View.readAt_unit_zero _ _ View.zero_offsets2 _)))) (View.readAt_unit_zero _ _ View.zero_offsets2 _)
  isplitl [H8]
  · iexists _; isplitr
    swap; · iexact H8
    ipureintro
    rw [read_writes_cons_whole5 _ _ View.zero_offsets2]
    unfold run5_C.sl.v43 run5_C.sl.HS1_1
    exact congr (congr (congrArg _ (View.readAt_unit_zero _ _ View.zero_offsets2 _)) ((View.readCov_unit_zero _ View.zero_offsets2 _ _).trans (congr (congr (congr (congrArg _ (View.readAt_unit_zero _ _ View.zero_offsets2 _)) (View.readAt_unit_zero _ _ View.zero_offsets2 _)) (View.readAt_unit_zero _ _ View.zero_offsets2 _)) (View.readAt_unit_zero _ _ View.zero_offsets2 _)))) (View.readAt_unit_zero _ _ View.zero_offsets2 _)
  isplitl [HS0]
  · iexists _; isplitr
    swap; · iexact HS0
    ipureintro
    unfold run5_C.sl.HS0_1
    rw [read_writes_cons_whole5 _ _ View.zero_offsets2]
    exact congr (congr (congr (congrArg _ (View.readAt_unit_zero _ _ View.zero_offsets2 _)) (View.readAt_unit_zero _ _ View.zero_offsets2 _)) (View.readAt_unit_zero _ _ View.zero_offsets2 _)) (View.readAt_unit_zero _ _ View.zero_offsets2 _)
  · iexists _; isplitr
    swap; · iexact HS1
    ipureintro
    unfold run5_C.sl.HS1_1
    rw [read_writes_cons_whole5 _ _ View.zero_offsets2]
    exact congr (congr (congr (congrArg _ (View.readAt_unit_zero _ _ View.zero_offsets2 _)) (View.readAt_unit_zero _ _ View.zero_offsets2 _)) (View.readAt_unit_zero _ _ View.zero_offsets2 _)) (View.readAt_unit_zero _ _ View.zero_offsets2 _)

end Cert.KernelIdeal.Hand

end
-- ==== Proof.KI.Reg5.lean ====
import proofs.«105977_j57329223467619_2_alg».proof.Proof.KI.Reg5Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The fifth call (the dual kernel) as a region, at the entry contents `V`

Nine windows on a grid of 8 × 4 points, the second coordinate the reduction: the adjacency block, the two feature
blocks, the scaling vector read twice (by reduction block and by row block), the two bias rows, and the two outputs,
stored at the last step of each reduction from two accumulators kept in scratch. -/

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Each input window's current staging buffer holds its block at every point, fetched there or not, for any proof data
    whose array is the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## Where the output windows are idle -/

theorem idleAt5_7 : ∀ t : Fin cfg5.N, ¬cond5_1 (grid5.coords t) → cfg5.idle 7 (grid5.coords t) = true := by decide +kernel
theorem idleAt5_8 : ∀ t : Fin cfg5.N, ¬cond5_1 (grid5.coords t) → cfg5.idle 8 (grid5.coords t) = true := by decide +kernel
theorem liveAt5_7 : ∀ t : Fin cfg5.N, cond5_1 (grid5.coords t) → cfg5.idle 7 (grid5.coords t) = false := by decide +kernel
theorem liveAt5_8 : ∀ t : Fin cfg5.N, cond5_1 (grid5.coords t) → cfg5.idle 8 (grid5.coords t) = false := by decide +kernel
theorem noFlush5_7 (t : Fin cfg5.N) (h : ¬t.val % 4 = 3) : (cfg5.win 7).flush t = false :=
  Bool.eq_false_iff.mpr fun e => h ((flush5_7 t).mp e)
theorem noFlush5_8 (t : Fin cfg5.N) (h : ¬t.val % 4 = 3) : (cfg5.win 8).flush t = false :=
  Bool.eq_false_iff.mpr fun e => h ((flush5_8 t).mp e)

/-! ## The accumulators, point by point -/

/-- What the two scratch accumulators hold after the body at position `n`: at the first step of a reduction the block
    product over zero, afterwards the block product added to what the point before left. -/
def acc5 (c : Dev nD) : (n : ℕ) → n < cfg5.N → Vec F S1024x128 .f32 × Vec F S1024x256 .f32
  | 0, hn => (k5_pay8 (iblk5 V c 0 ⟨0, hn⟩) (iblk5 V c 3 ⟨0, hn⟩) (iblk5 V c 1 ⟨0, hn⟩) k5_pay4, k5_pay9 (iblk5 V c 0 ⟨0, hn⟩) (iblk5 V c 3 ⟨0, hn⟩) (iblk5 V c 2 ⟨0, hn⟩) k5_pay5)
  | n + 1, hn =>
    if (n + 1) % 4 = 0 then
      (k5_pay8 (iblk5 V c 0 ⟨n + 1, hn⟩) (iblk5 V c 3 ⟨n + 1, hn⟩) (iblk5 V c 1 ⟨n + 1, hn⟩) k5_pay4, k5_pay9 (iblk5 V c 0 ⟨n + 1, hn⟩) (iblk5 V c 3 ⟨n + 1, hn⟩) (iblk5 V c 2 ⟨n + 1, hn⟩) k5_pay5)
    else
      (k5_pay8 (iblk5 V c 0 ⟨n + 1, hn⟩) (iblk5 V c 3 ⟨n + 1, hn⟩) (iblk5 V c 1 ⟨n + 1, hn⟩) (acc5 c n (Nat.lt_of_succ_lt hn)).1, k5_pay9 (iblk5 V c 0 ⟨n + 1, hn⟩) (iblk5 V c 3 ⟨n + 1, hn⟩) (iblk5 V c 2 ⟨n + 1, hn⟩) (acc5 c n (Nat.lt_of_succ_lt hn)).2)

/-- At a first step of a reduction. -/
theorem acc5_first (c : Dev nD) (t : Fin cfg5.N) (h0 : t.val % 4 = 0) :
    acc5 V c t.val t.isLt = (k5_pay8 (iblk5 V c 0 t) (iblk5 V c 3 t) (iblk5 V c 1 t) k5_pay4, k5_pay9 (iblk5 V c 0 t) (iblk5 V c 3 t) (iblk5 V c 2 t) k5_pay5) := by
  obtain ⟨n, hn⟩ := t
  cases n with
  | zero => rfl
  | succ n => exact if_pos h0

/-- At a later step. -/
theorem acc5_later (c : Dev nD) (t : Fin cfg5.N) (h0 : ¬t.val % 4 = 0) :
    acc5 V c t.val t.isLt = (k5_pay8 (iblk5 V c 0 t) (iblk5 V c 3 t) (iblk5 V c 1 t) (acc5 V c (t.val - 1) (Nat.lt_of_le_of_lt (Nat.sub_le _ _) t.isLt)).1, k5_pay9 (iblk5 V c 0 t) (iblk5 V c 3 t) (iblk5 V c 2 t) (acc5 V c (t.val - 1) (Nat.lt_of_le_of_lt (Nat.sub_le _ _) t.isLt)).2) := by
  obtain ⟨n, hn⟩ := t
  cases n with
  | zero => exact absurd (Nat.zero_mod _) h0
  | succ n => exact if_neg h0

/-- What the first output's staging buffer holds after a storing point: the first accumulator scaled by the row block of
    the scaling vector, plus the bias row. -/
def out5_7 (c : Dev nD) (t : Fin cfg5.N) : Vec F S1024x128 .f32 :=
  k5_pay2 (iblk5 V c 4 t) (acc5 V c t.val t.isLt).1 (iblk5 V c 5 t)
/-- The second output's: the row-wise softmax of the second accumulator scaled, plus the bias row. -/
def out5_8 (c : Dev nD) (t : Fin cfg5.N) : Vec F S1024x256 .bf16 :=
  k5_pay3 (iblk5 V c 4 t) (acc5 V c t.val t.isLt).2 (iblk5 V c 6 t)

/-! ## The invariant -/

/-- The two scratch operands, whole buffers of the kernel's own. -/
abbrev scM5_0 : Memref sig .tc .vmem S1024x128 .f32 := Memref.whole cc5_scratch0
abbrev scM5_1 : Memref sig .tc .vmem S1024x256 .f32 := Memref.whole cc5_scratch1

/-- The other scoped buffers, unopened. -/
abbrev rest5 (c : Dev nD) : sProp (MK F) :=
  Pipeline.scopedRestBut (Ix := Unit) (Name := ℕ) (U := UR sig nD τ) (Lvl := ℕ) (Val := Elt F) spec5 c [cc5_scratch0, cc5_scratch1]

/-- The class's invariant with the two scratch operands as memrefs owned at some contents. -/
theorem PhiA5_eq (c : Dev nD) :
    (Pipeline.ΦA spec5 c : sProp (MK F))
      = iprop(iprop(iprop((∃ d, owns (c : Thread nD τ) scM5_0 fullShare d) ∗ (∃ d, owns (c : Thread nD τ) scM5_1 fullShare d)) ∗ rest5 c) ∗ (∃ r, prngReg c r)) := by
  unfold Pipeline.ΦA; rw [scopedRest5_split]; simp only [scM5_0, scM5_1, owns_whole]; try rfl

/-- The invariant before position `n`: before the first point the class's; afterwards the two accumulators at what the
    point before left, the other scoped buffers and the generator register at some state. -/
def PhiS5 (c : Dev nD) : (n : ℕ) → n ≤ cfg5.N → sProp (MK F)
  | 0, _ => Pipeline.ΦA spec5 c
  | n + 1, hn => iprop(iprop(iprop(owns (c : Thread nD τ) scM5_0 fullShare (acc5 V c n hn).1 ∗ owns (c : Thread nD τ) scM5_1 fullShare (acc5 V c n hn).2) ∗ rest5 c) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(iprop(owns (c : Thread nD τ) scM5_0 fullShare (acc5 V c n hn).1 ∗ owns (c : Thread nD τ) scM5_1 fullShare (acc5 V c n hn).2) ∗ rest5 c) ∗ (∃ r, prngReg c r)) := rfl
theorem PhiS5_pos (c : Dev nD) (n : ℕ) (h : n ≤ cfg5.N) (hz : n ≠ 0) :
    PhiS5 V c n h = iprop(iprop(iprop(owns (c : Thread nD τ) scM5_0 fullShare (acc5 V c (n - 1) (by omega)).1 ∗ owns (c : Thread nD τ) scM5_1 fullShare (acc5 V c (n - 1) (by omega)).2) ∗ rest5 c) ∗ (∃ r, prngReg c r)) := by
  cases n with
  | zero => exact absurd rfl hz
  | succ n => rfl

/-! ## The proof data -/

/-- The proof data of the fifth pipeline on core `c`: the arrays as the region finds them; after the body each input's
    buffer at its block and the outputs' at what a storing point leaves; the invariant carrying the accumulators;
    nothing owed; full shares, the scaling vector's array dealt to its two windows as the two halves. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 V c t
    | ⟨8, _⟩ => out5_8 V c t
  Φ t := PhiS5 V c t.val (Nat.le_of_lt_succ t.isLt)
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
    | ⟨6, _⟩ => fullShare
    | ⟨7, _⟩ => fullShare
    | ⟨8, _⟩ => fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 V c t := by dsimp only [dat5]
theorem after5_8 (c : Dev nD) (t : Fin cfg5.N) : (dat5 V c).after 8 t = out5_8 V c t := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-- An input window is never idle: the body hands its buffer back at the block. -/
theorem leaves5_0 (c : Dev nD) (t : Fin cfg5.N) : (dat5 V c).leavesExact 0 t = owns (c : Thread nD τ) (st5_0 t) fullShare (iblk5 V c 0 t) := by
  unfold Dat.leavesExact; rw [show cfg5.idle 0 (cfg5.grid.coords t) = false from rfl, after5_0]
theorem leaves5_1 (c : Dev nD) (t : Fin cfg5.N) : (dat5 V c).leavesExact 1 t = owns (c : Thread nD τ) (st5_1 t) fullShare (iblk5 V c 1 t) := by
  unfold Dat.leavesExact; rw [show cfg5.idle 1 (cfg5.grid.coords t) = false from rfl, after5_1]
theorem leaves5_2 (c : Dev nD) (t : Fin cfg5.N) : (dat5 V c).leavesExact 2 t = owns (c : Thread nD τ) (st5_2 t) fullShare (iblk5 V c 2 t) := by
  unfold Dat.leavesExact; rw [show cfg5.idle 2 (cfg5.grid.coords t) = false from rfl, after5_2]
theorem leaves5_3 (c : Dev nD) (t : Fin cfg5.N) : (dat5 V c).leavesExact 3 t = owns (c : Thread nD τ) (st5_3 t) fullShare (iblk5 V c 3 t) := by
  unfold Dat.leavesExact; rw [show cfg5.idle 3 (cfg5.grid.coords t) = false from rfl, after5_3]
theorem leaves5_4 (c : Dev nD) (t : Fin cfg5.N) : (dat5 V c).leavesExact 4 t = owns (c : Thread nD τ) (st5_4 t) fullShare (iblk5 V c 4 t) := by
  unfold Dat.leavesExact; rw [show cfg5.idle 4 (cfg5.grid.coords t) = false from rfl, after5_4]
theorem leaves5_5 (c : Dev nD) (t : Fin cfg5.N) : (dat5 V c).leavesExact 5 t = owns (c : Thread nD τ) (st5_5 t) fullShare (iblk5 V c 5 t) := by
  unfold Dat.leavesExact; rw [show cfg5.idle 5 (cfg5.grid.coords t) = false from rfl, after5_5]
theorem leaves5_6 (c : Dev nD) (t : Fin cfg5.N) : (dat5 V c).leavesExact 6 t = owns (c : Thread nD τ) (st5_6 t) fullShare (iblk5 V c 6 t) := by
  unfold Dat.leavesExact; rw [show cfg5.idle 6 (cfg5.grid.coords t) = false from rfl, after5_6]

/-! ## The body obligation, at a generic point -/

def bodyPre5 (c : Dev nD) (t : Fin cfg5.N) : sProp (MK F) :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d)))

def bodyPost5 (c : Dev nD) (t : Fin cfg5.N) : sProp (MK F) :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t)

set_option maxHeartbeats 4800000 in
/-- The body at any point: the inputs' memrefs hold their blocks; the closed forms say which case the point is in; the
    invariant hands the body the accumulators at what the point before left (at anything at the first point) and takes
    them back at this point's contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [leaves5_0, leaves5_1, leaves5_2, leaves5_3, leaves5_4, leaves5_5, leaves5_6]
  rw [show (dat5 V c).owesAt () t.succ = (dat5 V c).owesAt () t.castSucc from rfl]
  rw [show (dat5 V c).Φ t.succ = PhiS5 V c (t.val + 1) t.isLt from rfl, PhiS5_succ]
  have hN : t.val < 32 := lt_of_lt_of_eq t.isLt (show cfg5.N = 32 from N_5)
  by_cases h0 : t.val % 4 = 0
  · have h1 : ¬t.val % 4 = 3 := by omega
    have hc0 : cond5_0 (grid5.coords t) := (hcond5_0 t).mpr h0
    have hc1 : ¬cond5_1 (grid5.coords t) := fun h => h1 ((hcond5_1 t).mp h)
    rw [Dat.leavesExact_idle (dat5 V c) 7 t (idleAt5_7 t hc1) (noFlush5_7 t h1),
      Dat.leavesExact_idle (dat5 V c) 8 t (idleAt5_8 t hc1) (noFlush5_8 t h1)]
    have e1 : (acc5 V c t.val t.isLt).1 = k5_pay8 (iblk5 V c 0 t) (iblk5 V c 3 t) (iblk5 V c 1 t) k5_pay4 := by rw [acc5_first V c t h0]
    have e2 : (acc5 V c t.val t.isLt).2 = k5_pay9 (iblk5 V c 0 t) (iblk5 V c 3 t) (iblk5 V c 2 t) k5_pay5 := by rw [acc5_first V c t h0]
    rw [e1, e2]
    by_cases hz : t.val = 0
    · rw [PhiS5_castSucc V c t, PhiS5_zero V c _ _ hz, PhiA5_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run5_A c (grid5.coords t) _ _ _ _ _ _ _ _ _ _ _ _ _ _ _ _ _ _ _ _ _ _ hc0 hc1 (iblk5 V c 0 t) (iblk5 V c 1 t) (iblk5 V c 2 t) (iblk5 V c 3 t) Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [PhiS5_castSucc V c t, PhiS5_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run5_A c (grid5.coords t) _ _ _ _ _ _ _ _ _ _ _ _ _ _ _ _ _ _ _ _ _ _ hc0 hc1 (iblk5 V c 0 t) (iblk5 V c 1 t) (iblk5 V c 2 t) (iblk5 V c 3 t) Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hz : t.val ≠ 0 := fun e => h0 (by rw [e])
    have hc0 : ¬cond5_0 (grid5.coords t) := fun h => h0 ((hcond5_0 t).mp h)
    have e1 : (acc5 V c t.val t.isLt).1 = k5_pay8 (iblk5 V c 0 t) (iblk5 V c 3 t) (iblk5 V c 1 t) (acc5 V c (t.val - 1) (Nat.lt_of_le_of_lt (Nat.sub_le _ _) t.isLt)).1 := by rw [acc5_later V c t h0]
    have e2 : (acc5 V c t.val t.isLt).2 = k5_pay9 (iblk5 V c 0 t) (iblk5 V c 3 t) (iblk5 V c 2 t) (acc5 V c (t.val - 1) (Nat.lt_of_le_of_lt (Nat.sub_le _ _) t.isLt)).2 := by rw [acc5_later V c t h0]
    by_cases h1 : t.val % 4 = 3
    · have hc1 : cond5_1 (grid5.coords t) := (hcond5_1 t).mpr h1
      rw [show (dat5 V c).leavesExact 7 t = owns (c : Thread nD τ) (st5_7 t) fullShare (out5_7 V c t) from by
        unfold Dat.leavesExact; rw [liveAt5_7 t hc1, after5_7]]
      rw [show (dat5 V c).leavesExact 8 t = owns (c : Thread nD τ) (st5_8 t) fullShare (out5_8 V c t) from by
        unfold Dat.leavesExact; rw [liveAt5_8 t hc1, after5_8]]
      unfold out5_7 out5_8
      rw [e1, e2]
      rw [PhiS5_castSucc V c t, PhiS5_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run5_C c (grid5.coords t) _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond5_1 (grid5.coords t) := fun h => h1 ((hcond5_1 t).mp h)
      rw [Dat.leavesExact_idle (dat5 V c) 7 t (idleAt5_7 t hc1) (noFlush5_7 t h1),
        Dat.leavesExact_idle (dat5 V c) 8 t (idleAt5_8 t hc1) (noFlush5_8 t h1)]
      rw [e1, e2]
      rw [PhiS5_castSucc V c t, PhiS5_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run5_B c (grid5.coords t) _ _ _ _ _ _ _ _ _ _ _ _ _ _ _ _ _ _ _ _ _ _ hc0 hc1 (iblk5 V c 0 t) (iblk5 V c 1 t) (iblk5 V c 2 t) (iblk5 V c 3 t) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the class's back: the accumulators' contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

theorem hout5 (c : Dev nD) : (dat5 V c).Φ (Fin.last cfg5.N) ⊢ Pipeline.ΦA spec5 c :=
  Phi_out5 V c _ (by rw [Fin.val_last]; have : cfg5.N = 32 := N_5; omega)

/-! ## The region as a segment of the host program -/

section Seg5
variable (W : Dev nD → Valuation τ sig (Elt F))

/-- The valuation read at the TensorCore's references: what the proof data take. -/
abbrev V5of (W : Dev nD → Valuation τ sig (Elt F)) : (c : Dev nD) → (b : Ref sig .tc) → Buf (Elt F) ((c : Thread nD τ).loc b) :=
  fun c b => W c b

/-- The exit contents: the two output arrays at what the write-backs leave, every other buffer as entered. -/
def Wout5 (c : Dev nD) : Valuation τ sig (Elt F) :=
  Function.update (Function.update (W c) (Proc.devRef .tc main_v9_0) ((dat5 (V5of W) c).arrAt 7 cfg5.N))
    (Proc.devRef .tc main_v9_1) ((dat5 (V5of W) c).arrAt 8 cfg5.N)

theorem Wout5_main_v9_1 (c : Dev nD) : Wout5 W c (Proc.devRef .tc main_v9_1) = (dat5 (V5of W) c).arrAt 8 cfg5.N := by
  unfold Wout5; exact Function.update_self ..

theorem Wout5_main_v9_0 (c : Dev nD) : Wout5 W c (Proc.devRef .tc main_v9_0) = (dat5 (V5of W) c).arrAt 7 cfg5.N := by
  unfold Wout5
  rw [Function.update_of_ne (StableHlo.devRef_ne_of_ne (by decide))]
  exact Function.update_self ..

theorem Wout5_of_ne_dev (c : Dev nD) (b : DevRef τ sig) (h0 : b ≠ Proc.devRef .tc main_v9_0) (h1 : b ≠ Proc.devRef .tc main_v9_1) :
    Wout5 W c b = W c b := by
  unfold Wout5; rw [Function.update_of_ne h1, Function.update_of_ne h0]

theorem Wout5_of_ne (c : Dev nD) (b : Ref sig .tc) (hb : ∀ w, Pipeline.arrRef spec5 w ≠ b) :
    Wout5 W c (Proc.devRef .tc b) = W c (Proc.devRef .tc b) :=
  Wout5_of_ne_dev W c _ (fun e => hb 7 (Proc.devRef_injective _ e).symm) (fun e => hb 8 (Proc.devRef_injective _ e).symm)

/-- The input windows' arrays leave as they entered. -/
theorem Wout5_main_v0_0 (c : Dev nD) : Wout5 W c (Proc.devRef .tc main_v0_0) = W c (Proc.devRef .tc main_v0_0) :=
  Wout5_of_ne_dev W c _ (StableHlo.devRef_ne_of_ne (by decide)) (StableHlo.devRef_ne_of_ne (by decide))
theorem Wout5_main_v5 (c : Dev nD) : Wout5 W c (Proc.devRef .tc main_v5) = W c (Proc.devRef .tc main_v5) :=
  Wout5_of_ne_dev W c _ (StableHlo.devRef_ne_of_ne (by decide)) (StableHlo.devRef_ne_of_ne (by decide))
theorem Wout5_main_v6 (c : Dev nD) : Wout5 W c (Proc.devRef .tc main_v6) = W c (Proc.devRef .tc main_v6) :=
  Wout5_of_ne_dev W c _ (StableHlo.devRef_ne_of_ne (by decide)) (StableHlo.devRef_ne_of_ne (by decide))
theorem Wout5_main_v1 (c : Dev nD) : Wout5 W c (Proc.devRef .tc main_v1) = W c (Proc.devRef .tc main_v1) :=
  Wout5_of_ne_dev W c _ (StableHlo.devRef_ne_of_ne (by decide)) (StableHlo.devRef_ne_of_ne (by decide))
theorem Wout5_main_v7 (c : Dev nD) : Wout5 W c (Proc.devRef .tc main_v7) = W c (Proc.devRef .tc main_v7) :=
  Wout5_of_ne_dev W c _ (StableHlo.devRef_ne_of_ne (by decide)) (StableHlo.devRef_ne_of_ne (by decide))
theorem Wout5_main_v8 (c : Dev nD) : Wout5 W c (Proc.devRef .tc main_v8) = W c (Proc.devRef .tc main_v8) :=
  Wout5_of_ne_dev W c _ (StableHlo.devRef_ne_of_ne (by decide)) (StableHlo.devRef_ne_of_ne (by decide))

/-- The eight buffers behind the nine windows' arrays. -/
abbrev arrs5 : List (DevRef τ sig) :=
  [Proc.devRef .tc main_v0_0, Proc.devRef .tc main_v5, Proc.devRef .tc main_v6, Proc.devRef .tc main_v1, Proc.devRef .tc main_v7, Proc.devRef .tc main_v8, Proc.devRef .tc main_v9_0, Proc.devRef .tc main_v9_1]

theorem arrs5_nodup : arrs5.Nodup := by decide

theorem arrs5_sub : arrs5.toFinset ⊆ Pipeline.ucRefs τ sig := by
  intro b hb
  simp only [arrs5, List.toFinset_cons, List.toFinset_nil, Finset.mem_insert, Finset.mem_singleton, insert_empty_eq] at hb
  rcases hb with rfl | rfl | rfl | rfl | rfl | rfl | rfl | rfl <;> exact mem_uc _ (by decide)

/-- Those buffers held at a valuation, one by one. -/
theorem held_arrs5 (c : Dev nD) (X : Valuation τ sig (Elt F)) :
    (StableHlo.held (c : Thread nD τ) arrs5.toFinset X : sProp (MK F))
      = iprop((((c : Thread nD τ).loc main_v0_0) ↦{fullShare} X (Proc.devRef .tc main_v0_0))
          ∗ (((c : Thread nD τ).loc main_v5) ↦{fullShare} X (Proc.devRef .tc main_v5))
          ∗ (((c : Thread nD τ).loc main_v6) ↦{fullShare} X (Proc.devRef .tc main_v6))
          ∗ (((c : Thread nD τ).loc main_v1) ↦{fullShare} X (Proc.devRef .tc main_v1))
          ∗ (((c : Thread nD τ).loc main_v7) ↦{fullShare} X (Proc.devRef .tc main_v7))
          ∗ (((c : Thread nD τ).loc main_v8) ↦{fullShare} X (Proc.devRef .tc main_v8))
          ∗ (((c : Thread nD τ).loc main_v9_0) ↦{fullShare} X (Proc.devRef .tc main_v9_0))
          ∗ (((c : Thread nD τ).loc main_v9_1) ↦{fullShare} X (Proc.devRef .tc main_v9_1))) := by
  unfold StableHlo.held; rw [bigSep_eq_bigSepL _ arrs5_nodup]; rfl

set_option maxHeartbeats 4000000 in
/-- The windows' arrays as the proof data hold them, one by one: the array two windows read is held by each at one half
    of the full share. -/
theorem arrays5_eq (c : Dev nD)
    (Fa : (w : Fin cfg5.W) → Buf (Elt F) ((cfg5.win w).arr.view.loc (c.tc : Thread nD τ))) :
    ((dat5 V c).arrays Fa : sProp (MK F))
      = iprop((((c : Thread nD τ).loc main_v0_0) ↦{fullShare} Fa 0)
          ∗ (((c : Thread nD τ).loc main_v5) ↦{fullShare} Fa 1)
          ∗ (((c : Thread nD τ).loc main_v6) ↦{fullShare} Fa 2)
          ∗ (((c : Thread nD τ).loc main_v1) ↦{fullShare.left} Fa 3)
          ∗ (((c : Thread nD τ).loc main_v1) ↦{fullShare.right} Fa 4)
          ∗ (((c : Thread nD τ).loc main_v7) ↦{fullShare} Fa 5)
          ∗ (((c : Thread nD τ).loc main_v8) ↦{fullShare} Fa 6)
          ∗ (((c : Thread nD τ).loc main_v9_0) ↦{fullShare} Fa 7)
          ∗ (((c : Thread nD τ).loc main_v9_1) ↦{fullShare} Fa 8)) := by
  unfold Dat.arrays
  rw [bigSep_W5, (arr_whole5 0).set_eq_univ, (arr_whole5 1).set_eq_univ, (arr_whole5 2).set_eq_univ, (arr_whole5 3).set_eq_univ,
    (arr_whole5 5).set_eq_univ, (arr_whole5 6).set_eq_univ, (arr_whole5 7).set_eq_univ, (arr_whole5 8).set_eq_univ]
  rfl

set_option maxHeartbeats 4000000 in
set_option backward.isDefEq.respectTransparency.types false in
/-- REGION 5 over the thread state: entered from every unscoped buffer at `W`, left at `Wout5 W`. The eight buffers
    behind its arrays are split out of the unscoped buffers, the one two windows read dealt to them as its two half
    shares, and at the exit joined and put back; the generator register into the invariant and out; nothing owed; no
    semaphore of the kernel's own. -/
def reg5 (pdats : (p : Fin 9) → (c : Dev nD) → Dat τ (Elt F) Unit ℕ (UR sig nD τ) ℕ (Pipeline.pin (pcfgs (F := F)) adm p) c)
    (hK : ∀ c, pdats 5 c = dat5 (V5of W) c) :
    Pipeline.RegionSeg (pcfgs (F := F)) adm pdats () defs₀ 𝒱₀ L lv 5 where
  win := winFacts₀5
  block_pos := block_pos5
  stage_whole := stage_whole5
  K := PEmpty
  osem k := k.elim
  ho := Pipeline.OwnSemFacts.none _
  hbody c := by rw [hK c]; exact (body_obligation5 (V5of W) c).loose
  hwaits := Pipeline.hwaits_of_owed_zero _ _ _ _ L lv 5 fun c _ => by rw [hK c]; rfl
  pre c := iprop(StableHlo.held (c : Thread nD τ) (Pipeline.ucRefs τ sig) (W c) ∗ R c)
  post c := iprop(StableHlo.held (c : Thread nD τ) (Pipeline.ucRefs τ sig) (Wout5 W c) ∗ R c)
  X c := iprop(∃ r, prngReg c r)
  Y c := iprop(∃ r, prngReg c r)
  Z c := StableHlo.held (c : Thread nD τ) (Pipeline.ucRefs τ sig \ arrs5.toFinset) (W c)
  hentry c := by
    rw [Pipeline.ownSems0_none, hK c, arrays5_eq, StableHlo.held_sub_split _ arrs5_sub (W c), held_arrs5]
    iintro ⟨⟨⟨⟨Ha, Hb, Hc, Hd, He, Hf, Hg, Hh⟩, Hrest⟩, Hp, HO⟩, -, -⟩
    ihave Hd' := (pointsTo_share (PosShare.mem_left_op_right fullShare)).1 $$ Hd
    icases Hd' with ⟨Hd1, Hd2⟩
    imodintro
    isplitl [Ha Hb Hc Hd1 Hd2 He Hf Hg Hh]
    · isplitl [Ha]; · iexact Ha
      isplitl [Hb]; · iexact Hb
      isplitl [Hc]; · iexact Hc
      isplitl [Hd1]; · iexact Hd1
      isplitl [Hd2]; · iexact Hd2
      isplitl [He]; · iexact He
      isplitl [Hf]; · iexact Hf
      isplitl [Hg]; · iexact Hg
      iexact Hh
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [hK c, show (dat5 (V5of W) c).Φ 0 = Pipeline.ΦA spec5 c from rfl]; unfold Pipeline.ΦA
    iintro ⟨Hp, -, Hr⟩
    isplitl [Hr]; · iexact Hr
    iexact Hp
  hout c := by
    rw [Pipeline.ownSems0_none, hK c]
    refine (Phi_out5 (V5of W) c _ (by rw [Fin.val_last]; show grid5.N ≠ 0; rw [N_5]; decide)).trans ?_
    unfold Pipeline.ΦA
    iintro ⟨Hr, Hp⟩
    isplitl [Hp]; · iexact Hp
    isplitr; · iempintro
    iexact Hr
  hexit c := by
    rw [hK c, arrays5_eq, StableHlo.held_sub_split _ arrs5_sub (Wout5 W c), held_arrs5,
      Wout5_main_v0_0, Wout5_main_v5, Wout5_main_v6, Wout5_main_v1, Wout5_main_v7, Wout5_main_v8, Wout5_main_v9_0, Wout5_main_v9_1,
      StableHlo.held_congr _ (V := Wout5 W c) (V' := W c) (fun b hb => Wout5_of_ne_dev W c b
        (fun e => (Finset.mem_sdiff.mp hb).2 (e ▸ by decide)) (fun e => (Finset.mem_sdiff.mp hb).2 (e ▸ by decide)))]
    beta_reduce
    rw [(dat5 (V5of W) c).arrAt_in 0 rfl, (dat5 (V5of W) c).arrAt_in 1 rfl, (dat5 (V5of W) c).arrAt_in 2 rfl, (dat5 (V5of W) c).arrAt_in 3 rfl, (dat5 (V5of W) c).arrAt_in 4 rfl, (dat5 (V5of W) c).arrAt_in 5 rfl, (dat5 (V5of W) c).arrAt_in 6 rfl]
    iintro ⟨⟨Ha, Hb, Hc, Hd1, Hd2, He, Hf, Hg, Hh⟩, HO, HY, Hrest⟩
    imodintro
    isplitl [Ha Hb Hc Hd1 Hd2 He Hf Hg Hh Hrest]
    · isplitl [Ha Hb Hc Hd1 Hd2 He Hf Hg Hh]
      · isplitl [Ha]; · iexact Ha
        isplitl [Hb]; · iexact Hb
        isplitl [Hc]; · iexact Hc
        isplitl [Hd1 Hd2]
        · iapply (pointsTo_share (PosShare.mem_left_op_right fullShare)).2
          isplitl [Hd1]; · iexact Hd1
          iexact Hd2
        isplitl [He]; · iexact He
        isplitl [Hf]; · iexact Hf
        isplitl [Hg]; · iexact Hg
        iexact Hh
      iexact Hrest
    isplitl [HY]; · iexact HY
    unfold Pipeline.Dat.owesAt Pipeline.owesWithin
    icases HO with ⟨%W', -, HO⟩; iexists W'; iexact HO

theorem reg5_pre (pdats : (p : Fin 9) → (c : Dev nD) → Dat τ (Elt F) Unit ℕ (UR sig nD τ) ℕ (Pipeline.pin (pcfgs (F := F)) adm p) c)
    (hK : ∀ c, pdats 5 c = dat5 (V5of W) c) (c : Dev nD) :
    (reg5 W pdats hK).pre c = iprop(StableHlo.held (c : Thread nD τ) (Pipeline.ucRefs τ sig) (W c) ∗ R c) := rfl
theorem reg5_post (pdats : (p : Fin 9) → (c : Dev nD) → Dat τ (Elt F) Unit ℕ (UR sig nD τ) ℕ (Pipeline.pin (pcfgs (F := F)) adm p) c)
    (hK : ∀ c, pdats 5 c = dat5 (V5of W) c) (c : Dev nD) :
    (reg5 W pdats hK).post c = iprop(StableHlo.held (c : Thread nD τ) (Pipeline.ucRefs τ sig) (Wout5 W c) ∗ R c) := rfl

end Seg5

end Cert.KernelIdeal.Hand

end
-- ==== Proof.KI.Reg6.lean ====
/-
  Region 6 of the nine-region program: the transposed product s1ᵀ·z1 accumulated over the four blocks of the
  contracted axis in a scratch accumulator, the result stored at the last block only. The region's proof data at any
  entry contents, the body's triples in the three cases of its two conditions, the body obligation, and the region as
  a segment of the host program.
-/
import proofs.«105977_j57329223467619_2_alg».proof.Proof.KI.Common
import proofs.«105977_j57329223467619_2_alg».proof.Proof.LibWhole
import proofs.«105977_j57329223467619_2_alg».proof.Proof.LibAcc
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's two conditions over the grid -/

/-- The accumulator is zeroed: the block coordinate of the contracted axis is 0. -/
abbrev cond6_0 (i : grid6.Coords) : Prop := (Scalar.cmpi .ne (Scalar.extui (Scalar.cmpi .eq (BitVec.ofNat 32 (i 2).val) 0#32)) 0#32) = 1#1
/-- The result is stored: that coordinate is the last, 3. -/
abbrev cond6_1 (i : grid6.Coords) : Prop := k6_cond2 i = 1#1

theorem hcond6_0 : ∀ t : Fin cfg6.N, cond6_0 (grid6.coords t) ↔ t.val = 0 :=
  (by decide +kernel : ∀ t : Fin grid6.N, cond6_0 (grid6.coords t) ↔ t.val = 0)
theorem hcond6_1 : ∀ t : Fin cfg6.N, cond6_1 (grid6.coords t) ↔ t.val = 3 :=
  (by decide +kernel : ∀ t : Fin grid6.N, cond6_1 (grid6.coords t) ↔ t.val = 3)

theorem N6 : cfg6.N = 4 := N_6

/-- The two operand windows are never idle; the result window is idle, and not written back, wherever the result is
    not stored, and live where it is. -/
theorem liveAt6_0 : ∀ t : Fin cfg6.N, cfg6.idle 0 (grid6.coords t) = false := by decide +kernel
theorem liveAt6_1 : ∀ t : Fin cfg6.N, cfg6.idle 1 (grid6.coords t) = false := by decide +kernel
theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
theorem liveAt6_2 : ∀ t : Fin cfg6.N, cond6_1 (grid6.coords t) → cfg6.idle 2 (grid6.coords t) = false := by decide +kernel

/-! ## The body's triples -/

/-- The scratch accumulator as a memref. -/
abbrev scM6 : Memref sig .tc .vmem S256x128 .f32 := Memref.whole cc6_scratch0

set_option maxHeartbeats 1000000 in
/-- First block: the accumulator, whatever it held, ends at the zero fill plus this block's product; the result
    buffer is not touched. -/
theorem sound_kernel6_A (c : Dev nD) (E : Set ℕ) (i : grid6.Coords)
    (arg3 : Memref sig .tc .vmem S2048x256 .bf16) (harg3 : arg3.IsWhole) (arg4 : Memref sig .tc .vmem S2048x128 .f32) (harg4 : arg4.IsWhole)
    (arg5 : Memref sig .tc .vmem S256x128 .f32) (harg5 : arg5.IsWhole) (arg6 : Memref sig .tc .vmem S256x128 .f32) (harg6 : arg6.IsWhole)
    (hc0 : cond6_0 i) (hc1 : ¬cond6_1 i)
    (x0 : Vec F S2048x256 .bf16) (x1 : Vec F S2048x128 .f32) (xi : Vec F S256x128 .f32) (K : PUnit → sProp (MK F)) :
    iprop(owns (c : Thread nD τ) arg3 fullShare x0 ∗ owns (c : Thread nD τ) arg4 fullShare x1 ∗ owns (c : Thread nD τ) arg5 fullShare xi
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi
            ∗ owns (c : Thread nD τ) arg6 fullShare (k6_pay2 x0 x1 (k6_pay1 (F := F)))) -∗ K ⟨⟩))
      ⊢ wp frame (wpE (defs₀ (F := F)) Variants.none c none) E (cc6_kernel i arg3 harg3 arg4 harg4 arg5 harg5 arg6 harg6) K := by
  simp only [cc6_kernel_eq_skeleton]; unfold cc6_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_cons_unit_zero _ _ View.zero_offsets2, View.readCov_unit_zero _ View.zero_offsets2,
    View.readAt_unit_zero _ _ View.zero_offsets2, View.readAt_unit_zero _ _ View.zero_offsets2]

set_option maxHeartbeats 1000000 in
/-- A middle block: the accumulator gains this block's product; the result buffer is not touched. -/
theorem sound_kernel6_B (c : Dev nD) (E : Set ℕ) (i : grid6.Coords)
    (arg3 : Memref sig .tc .vmem S2048x256 .bf16) (harg3 : arg3.IsWhole) (arg4 : Memref sig .tc .vmem S2048x128 .f32) (harg4 : arg4.IsWhole)
    (arg5 : Memref sig .tc .vmem S256x128 .f32) (harg5 : arg5.IsWhole) (arg6 : Memref sig .tc .vmem S256x128 .f32) (harg6 : arg6.IsWhole)
    (hc0 : ¬cond6_0 i) (hc1 : ¬cond6_1 i)
    (x0 : Vec F S2048x256 .bf16) (x1 : Vec F S2048x128 .f32) (xi : Vec F S256x128 .f32) (xs : Vec F S256x128 .f32) (K : PUnit → sProp (MK F)) :
    iprop(owns (c : Thread nD τ) arg3 fullShare x0 ∗ owns (c : Thread nD τ) arg4 fullShare x1 ∗ owns (c : Thread nD τ) arg5 fullShare xi
        ∗ owns (c : Thread nD τ) arg6 fullShare xs
        ∗ (iprop(owns (c : Thread nD τ) arg3 fullShare x0 ∗ owns (c : Thread nD τ) arg4 fullShare x1 ∗ owns (c : Thread nD τ) arg5 fullShare xi
            ∗ owns (c : Thread nD τ) arg6 fullShare (k6_pay2 x0 x1 xs)) -∗ K ⟨⟩))
      ⊢ wp frame (wpE (defs₀ (F := F)) Variants.none c none) E (cc6_kernel i arg3 harg3 arg4 harg4 arg5 harg5 arg6 harg6) K := by
  simp only [cc6_kernel_eq_skeleton]; unfold cc6_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_cons_unit_zero _ _ View.zero_offsets2, View.readAt_unit_zero _ _ View.zero_offsets2,
    View.readAt_unit_zero _ _ View.zero_offsets2, View.readAt_unit_zero _ _ View.zero_offsets2]

set_option maxHeartbeats 1000000 in
/-- Last block: the accumulator gains this block's product and the result buffer, whatever it held, ends at the
    accumulator. -/
theorem sound_kernel6_C (c : Dev nD) (E : Set ℕ) (i : grid6.Coords)
    (arg3 : Memref sig .tc .vmem S2048x256 .bf16) (harg3 : arg3.IsWhole) (arg4 : Memref sig .tc .vmem S2048x128 .f32) (harg4 : arg4.IsWhole)
    (arg5 : Memref sig .tc .vmem S256x128 .f32) (harg5 : arg5.IsWhole) (arg6 : Memref sig .tc .vmem S256x128 .f32) (harg6 : arg6.IsWhole)
    (hc0 : ¬cond6_0 i) (hc1 : cond6_1 i)
    (x0 : Vec F S2048x256 .bf16) (x1 : Vec F S2048x128 .f32) (xs : Vec F S256x128 .f32) (K : PUnit → sProp (MK F)) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (k6_pay2 x0 x1 xs)
            ∗ owns (c : Thread nD τ) arg6 fullShare (k6_pay2 x0 x1 xs)) -∗ K ⟨⟩))
      ⊢ wp frame (wpE (defs₀ (F := F)) Variants.none c none) E (cc6_kernel i arg3 harg3 arg4 harg4 arg5 harg5 arg6 harg6) K := by
  simp only [cc6_kernel_eq_skeleton]; unfold cc6_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_cons_unit_zero _ _ View.zero_offsets2, View.readCov_unit_zero _ View.zero_offsets2,
      View.readAt_unit_zero _ _ View.zero_offsets2, View.readAt_unit_zero _ _ View.zero_offsets2, View.readAt_unit_zero _ _ View.zero_offsets2]
  iexists _; isplitr
  swap; · iexact HS
  ipureintro
  sl_unfold_run_names
  rw [View.read_writes_cons_unit_zero _ _ View.zero_offsets2, View.readAt_unit_zero _ _ View.zero_offsets2,
    View.readAt_unit_zero _ _ View.zero_offsets2, View.readAt_unit_zero _ _ View.zero_offsets2]

section Region6

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An operand window's current staging buffer holds its block at every point, for any proof data whose array is the
    entry contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The accumulator after each point -/

/-- What the scratch accumulator holds after the body at position `n`: the zero fill plus the products of the blocks
    0 … n, added one after the other. -/
def acc6 (c : Dev nD) : (n : ℕ) → n < cfg6.N → Vec F S256x128 .f32
  | 0, hn => k6_pay2 (iblk6 V c 0 ⟨0, hn⟩) (iblk6 V c 1 ⟨0, hn⟩) (k6_pay1 (F := F))
  | n + 1, hn => k6_pay2 (iblk6 V c 0 ⟨n + 1, hn⟩) (iblk6 V c 1 ⟨n + 1, hn⟩) (acc6 c n (Nat.lt_of_succ_lt hn))

theorem acc6_zero (c : Dev nD) (t : Fin cfg6.N) (h0 : t.val = 0) :
    acc6 V c t.val t.isLt = k6_pay2 (iblk6 V c 0 t) (iblk6 V c 1 t) (k6_pay1 (F := F)) := by
  obtain ⟨n, hn⟩ := t
  cases n with
  | zero => rfl
  | succ n => exact absurd h0 (Nat.succ_ne_zero n)

theorem acc6_pos (c : Dev nD) (t : Fin cfg6.N) (h0 : t.val ≠ 0) :
    acc6 V c t.val t.isLt = k6_pay2 (iblk6 V c 0 t) (iblk6 V c 1 t) (acc6 V c (t.val - 1) (Nat.lt_of_le_of_lt (Nat.sub_le _ _) t.isLt)) := by
  obtain ⟨n, hn⟩ := t
  cases n with
  | zero => exact absurd rfl h0
  | succ n => rfl

/-! ## The region invariant -/

/-- The invariant before position `n`: before the first point every scoped buffer no window stages at anything and the
    generator register at some state; afterwards the scratch accumulator at what the point before left, the other such
    scoped buffers at anything, the register at some state. -/
def PhiS6 (c : Dev nD) : (n : ℕ) → n ≤ cfg6.N → sProp (MK F)
  | 0, _ => Pipeline.ΦA spec6 c
  | n + 1, hn => iprop(iprop(owns (c : Thread nD τ) scM6 fullShare (acc6 V c n hn)
      ∗ Pipeline.scopedRestBut (Ix := Unit) (Name := ℕ) (U := UR sig nD τ) (Lvl := ℕ) (Val := Elt F) spec6 c [cc6_scratch0]) ∗ (∃ r, prngReg c r))

theorem PhiA6_eq (c : Dev nD) :
    (Pipeline.ΦA spec6 c : sProp (MK F))
      = iprop(iprop((∃ d, owns (c : Thread nD τ) scM6 fullShare d)
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6 fullShare (acc6 V c n hn)
      ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6 fullShare (acc6 V c (n - 1) (by omega))
      ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The proof data -/

/-- The proof data of the pipeline on core `c`: the arrays as the region finds them; after the body each operand's
    buffer at its block and the result's at the accumulator; the invariant carrying the accumulator; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val t.isLt
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c t.val t.isLt := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation -/

abbrev ms6_0 (t : Fin cfg6.N) : Memref sig .tc .vmem S2048x256 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2048x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S256x128 .f32 := win6_2.stage (cfg6.slots t 2)
abbrev hs6_2 (t : Fin cfg6.N) : (ms6_2 t).IsWhole := hstage6_2 ((cfg6.slots t 2).cast nbuf6_2)

/-- What the body is called with at point `t`, -/
def bodyPre6 (c : Dev nD) (t : Fin cfg6.N) : sProp (MK F) :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns. -/
def bodyPost6 (c : Dev nD) (t : Fin cfg6.N) : sProp (MK F) :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point: the operands' buffers hold their blocks; the point's position decides the case; the
    invariant hands the body the accumulator at what the point before left (at anything at the first point) and takes it
    back at this point's contents. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  have hN : t.val < 4 := lt_of_lt_of_eq t.isLt N6
  by_cases h0 : t.val = 0
  · have h1 : ¬t.val = 3 := by omega
    rw [Dat.leavesExact_idle (dat6 V c) 2 t (idleAt6_2 t (fun h => h1 ((hcond6_1 t).mp h))) (noFlush6_2 t (fun h => h1 ((hcond6_1 t).mp h)))]
    rw [acc6_zero V c t h0]
    rw [PhiS6_castSucc V c t, PhiS6_zero V c _ _ h0, PhiA6_eq]
    iintro ⟨⟨⟨HS, Hrest⟩, Hg⟩, Ho, ⟨%d0, H0⟩, ⟨%d1, H1⟩, ⟨%d2, H2⟩⟩
    iapply (sound_kernel6_A c Set.univ (grid6.coords t) _ _ _ _ _ _ _ _ ((hcond6_0 t).mpr h0) (fun h => h1 ((hcond6_1 t).mp h)) (iblk6 V c 0 t) (iblk6 V c 1 t) _ _)
    isplitl [H0]; · iexact H0
    isplitl [H1]; · iexact H1
    isplitl [H2]; · iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexists _; iexact H2
  · by_cases h1 : t.val = 3
    · rw [show (dat6 V c).leavesExact 2 t = owns (c : Thread nD τ) (ms6_2 t) fullShare ((dat6 V c).after 2 t) from by
        unfold Dat.leavesExact; rw [liveAt6_2 t ((hcond6_1 t).mpr h1)], after6_2]
      rw [acc6_pos V c t h0]
      rw [PhiS6_castSucc V c t, PhiS6_pos V c _ _ h0]
      iintro ⟨⟨⟨HS, Hrest⟩, Hg⟩, Ho, ⟨%d0, H0⟩, ⟨%d1, H1⟩, ⟨%d2, H2⟩⟩
      iapply (sound_kernel6_C c Set.univ (grid6.coords t) _ _ _ _ _ _ _ _ (fun h => h0 ((hcond6_0 t).mp h)) ((hcond6_1 t).mpr h1) (iblk6 V c 0 t) (iblk6 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat6 V c) 2 t (idleAt6_2 t (fun h => h1 ((hcond6_1 t).mp h))) (noFlush6_2 t (fun h => h1 ((hcond6_1 t).mp h)))]
      rw [acc6_pos V c t h0]
      rw [PhiS6_castSucc V c t, PhiS6_pos V c _ _ h0]
      iintro ⟨⟨⟨HS, Hrest⟩, Hg⟩, Ho, ⟨%d0, H0⟩, ⟨%d1, H1⟩, ⟨%d2, H2⟩⟩
      iapply (sound_kernel6_B c Set.univ (grid6.coords t) _ _ _ _ _ _ _ _ (fun h => h0 ((hcond6_0 t).mp h)) (fun h => h1 ((hcond6_1 t).mp h)) (iblk6 V c 0 t) (iblk6 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives it back: the accumulator's contents are forgotten. -/
theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 4 := N6; omega), PhiA6_eq]
  iintro ⟨⟨HS, Hrest⟩, Hg⟩
  isplitl [HS Hrest]
  · isplitl [HS]; · iexists _; iexact HS
    iexact Hrest
  iexact Hg

end Region6

/-! ## The region as a segment of the host program -/

section Seg6

variable (W : Dev nD → Valuation τ sig (Elt F))

/-- The entry contents read at the TensorCore's references. -/
abbrev V6 : (c : Dev nD) → (b : Ref sig .tc) → Buf (Elt F) ((c : Thread nD τ).loc b) := fun c b => W c b

/-- The contents at the region's exit: its arrays at what the pipeline leaves, every other buffer as entered. -/
def Wout6 (c : Dev nD) : Valuation τ sig (Elt F) :=
  Pipeline.withArrays spec6 c (W c) fun w => (dat6 (V6 W) c).arrAt w cfg6.N

theorem Wout6_arr (c : Dev nD) (w : Fin cfg6.W) :
    Wout6 W c (Proc.devRef .tc (Pipeline.arrRef spec6 w)) = (dat6 (V6 W) c).arrAt w cfg6.N := by
  unfold Wout6; exact Pipeline.withArrays_arr spec6 launch6.win.arr_inj c _ _ w

theorem Wout6_of_ne (c : Dev nD) (b : Ref sig .tc) (hb : ∀ w, Pipeline.arrRef spec6 w ≠ b) :
    Wout6 W c (Proc.devRef .tc b) = W c (Proc.devRef .tc b) := by
  unfold Wout6; exact Pipeline.withArrays_of_ne spec6 c _ _ b hb

/-- The two operand arrays leave as they entered. -/
theorem Wout6_main_v9_1 (c : Dev nD) : Wout6 W c (Proc.devRef .tc main_v9_1) = W c (Proc.devRef .tc main_v9_1) :=
  (Wout6_arr W c 0).trans (((dat6 (V6 W) c).arrAt_in 0 rfl _).trans (A_eq6 (V6 W) c 0))
theorem Wout6_main_v9_0 (c : Dev nD) : Wout6 W c (Proc.devRef .tc main_v9_0) = W c (Proc.devRef .tc main_v9_0) :=
  (Wout6_arr W c 1).trans (((dat6 (V6 W) c).arrAt_in 1 rfl _).trans (A_eq6 (V6 W) c 1))
/-- The result array leaves at the pipeline's write-backs. -/
theorem Wout6_main_v10 (c : Dev nD) : Wout6 W c (Proc.devRef .tc main_v10) = (dat6 (V6 W) c).arrAt 2 cfg6.N :=
  Wout6_arr W c 2

theorem hF6 (c : Dev nD) (w : Fin cfg6.W) : (dat6 (V6 W) c).arrAt w cfg6.N = (fun b : Ref sig .tc => Wout6 W c b) (Pipeline.arrRef spec6 w) :=
  (Wout6_arr W c w).symm
theorem hrest6 (c : Dev nD) : ∀ b, b ∉ Finset.univ.image (Pipeline.arrRef spec6) → (fun b : Ref sig .tc => Wout6 W c b) b = V6 W c b :=
  fun b hb => Wout6_of_ne W c b fun w e => hb (Finset.mem_image.mpr ⟨w, Finset.mem_univ _, e⟩)

set_option backward.isDefEq.respectTransparency.types false in
/-- Region 6 over the thread state: entered from every unscoped buffer at `W`, left at `Wout6 W`. Its arrays are
    split out of the unscoped buffers and put back at the exit contents; the generator register goes into the
    invariant and comes back; nothing owed; no semaphore of the kernel's own. -/
def reg6 (pdats : (p : Fin 9) → (c : Dev nD) → Dat τ (Elt F) Unit ℕ (UR sig nD τ) ℕ (Pipeline.pin (pcfgs (F := F)) adm p) c)
    (hK : ∀ c, pdats 6 c = dat6 (V6 W) c) :
    Pipeline.RegionSeg (pcfgs (F := F)) adm pdats () defs₀ 𝒱₀ L lv 6 where
  win := launch6.win.to₀
  block_pos := launch6.block_pos
  stage_whole := launch6.stage_whole
  K := PEmpty
  osem k := k.elim
  ho := Pipeline.OwnSemFacts.none _
  hbody c := by rw [hK c]; exact (body_obligation6 (V6 W) c).loose
  hwaits := Pipeline.hwaits_of_owed_zero _ _ _ _ L lv 6 fun c t => by rw [hK c]; rfl
  pre c := iprop(StableHlo.held (c : Thread nD τ) (Pipeline.ucRefs τ sig) (W c) ∗ R c)
  post c := iprop(StableHlo.held (c : Thread nD τ) (Pipeline.ucRefs τ sig) (Wout6 W c) ∗ R c)
  X c := iprop(∃ r, prngReg c r)
  Y c := iprop(∃ r, prngReg c r)
  Z c := Pipeline.unscopedRest (Ix := Unit) (Name := ℕ) (U := UR sig nD τ) (Lvl := ℕ) spec6 c (V6 W c)
  hentry c := by
    rw [Pipeline.ownSems0_none]
    have hsh : ∀ w, (pdats 6 c).share w = fullShare := by rw [hK c]; exact (dat6 (V6 W) c).share_full fun _ => rfl
    have hsplit := Pipeline.arrays_of_unscopedBufs (p := 6) (pcfgs (F := F)) adm pdats launch6.win launch6.arr_whole c
      hsh (V6 W c) (fun w => by rw [hK c]; rfl)
    rw [Pipeline.unscopedBufs_held] at hsplit
    rw [hK c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [hK c, show (dat6 (V6 W) c).Φ 0 = Pipeline.ΦA spec6 c from rfl]; unfold Pipeline.ΦA
    iintro ⟨Hp, -, Hr⟩
    isplitl [Hr]; · iexact Hr
    iexact Hp
  hout c := by
    rw [Pipeline.ownSems0_none, hK c]
    refine (hout6 (V6 W) c).trans ?_
    unfold Pipeline.ΦA
    iintro ⟨Hr, Hp⟩
    isplitl [Hp]; · iexact Hp
    isplitr; · iempintro
    iexact Hr
  hexit c := by
    have hsh : ∀ w, (pdats 6 c).share w = fullShare := by rw [hK c]; exact (dat6 (V6 W) c).share_full fun _ => rfl
    have hjoin := Pipeline.unscopedBufs_of_arrays (p := 6) (pcfgs (F := F)) adm (Ix := Unit) (Name := ℕ) (U := UR sig nD τ) (Lvl := ℕ)
      launch6.win launch6.arr_whole c pdats hsh
      (V6 W c) (fun b : Ref sig .tc => Wout6 W c b) ((pdats 6 c).arrAt · cfg6.N) (fun w => by rw [hK c]; exact hF6 W c w) (hrest6 W c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W', -, HO⟩; iexists W'; rw [hK c]; iexact HO

theorem reg6_pre (pdats : (p : Fin 9) → (c : Dev nD) → Dat τ (Elt F) Unit ℕ (UR sig nD τ) ℕ (Pipeline.pin (pcfgs (F := F)) adm p) c)
    (hK : ∀ c, pdats 6 c = dat6 (V6 W) c) (c : Dev nD) :
    (reg6 W pdats hK).pre c = iprop(StableHlo.held (c : Thread nD τ) (Pipeline.ucRefs τ sig) (W c) ∗ R c) := rfl
theorem reg6_post (pdats : (p : Fin 9) → (c : Dev nD) → Dat τ (Elt F) Unit ℕ (UR sig nD τ) ℕ (Pipeline.pin (pcfgs (F := F)) adm p) c)
    (hK : ∀ c, pdats 6 c = dat6 (V6 W) c) (c : Dev nD) :
    (reg6 W pdats hK).post c = iprop(StableHlo.held (c : Thread nD τ) (Pipeline.ucRefs τ sig) (Wout6 W c) ∗ R c) := rfl

end Seg6

end Cert.KernelIdeal.Hand

end
-- ==== Proof.KI.Reg7.lean ====
/-
  Region 7 of the nine-region program: the transposed, scaled matrix product. Over a grid of 8 column blocks by 4 steps
  along the contracted axis, the body scales the rows of a left block by a column of factors, multiplies its transpose
  by a right block, adds the product into an accumulator kept across the four steps (zeroed at the first), and at the
  last step stores the accumulator, each column scaled by a row of factors, into the output block.
  Stated at the contents V the region is entered with: the windows' blocks, the body's triple in each case of its two
  conditions, the accumulator point by point, the proof data, the body obligation, and the region as a segment between
  two thread states.
-/
import proofs.«105977_j57329223467619_2_alg».proof.Proof.KI.Common
import proofs.«105977_j57329223467619_2_alg».proof.Proof.LibWhole
import proofs.«105977_j57329223467619_2_alg».proof.Proof.LibCover
import Idealize.ShloMosaic.Lib.Pipeline.FrameBody
import Idealize.ShloMosaic.Lib.Pipeline.Value
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's two conditions, decided over the grid -/

/-- The first condition of the body: the step along the contracted axis is the first one. -/
abbrev cond7_0 (i : grid7.Coords) : Prop := (Scalar.cmpi .ne (Scalar.extui (Scalar.cmpi .eq (BitVec.ofNat 32 (i 2).val) 0#32)) 0#32) = 1#1
/-- The second condition: the step is the last one. -/
abbrev cond7_1 (i : grid7.Coords) : Prop := k7_cond2 i = 1#1

theorem hcond7_0 : ∀ t : Fin cfg7.N, cond7_0 (grid7.coords t) ↔ t.val % 4 = 0 :=
  (by decide +kernel : ∀ t : Fin grid7.N, cond7_0 (grid7.coords t) ↔ t.val % 4 = 0)
theorem hcond7_1 : ∀ t : Fin cfg7.N, cond7_1 (grid7.coords t) ↔ t.val % 4 = 3 :=
  (by decide +kernel : ∀ t : Fin grid7.N, cond7_1 (grid7.coords t) ↔ t.val % 4 = 3)

/-- The four input windows are never idle. -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
/-- The output window is idle, and not written back, away from the last step; live at the last step. -/
theorem idleAt7_4 : ∀ t : Fin cfg7.N, ¬cond7_1 (grid7.coords t) → cfg7.idle 4 (grid7.coords t) = true := by decide +kernel
theorem noFlush7_4 : ∀ t : Fin cfg7.N, ¬cond7_1 (grid7.coords t) → (cfg7.win 4).flush t = false := by decide +kernel
theorem liveAt7_4 : ∀ t : Fin cfg7.N, cond7_1 (grid7.coords t) → cfg7.idle 4 (grid7.coords t) = false := by decide +kernel

/-! ## Reading a buffer through the rectangle that covers it -/

/-- After a last store through the whole-shape rectangle, the buffer reads as that store's payload, whatever came before. -/
theorem read_writes_cons_whole7 {Val : EltTy → Type} [∀ e, Nonempty (Val e)] {S : Shape} {e : EltTy} {sg : RefSig} {κ : Kind} {sp : Space}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_of_cover_last (v := v) (f := f) v f _ L [] (fun y => by
    subst h; show y ∈ (Rect.whole S).set; rw [Rect.set_whole]; exact Finset.mem_univ y)]
  exact View.read_writes_unit_zero v f h inb w

/-! ## The body's triple, case by case -/

set_option maxHeartbeats 1000000 in
/-- FIRST STEP: the accumulator is zeroed, then the product of the scaled left block and the right block is added. -/
theorem run7_A (c : Dev nD) (i : grid7.Coords)
    (arg3 : Memref sig .tc .vmem S2048x256 .bf16) (harg3 : arg3.IsWhole) (arg4 : Memref sig .tc .vmem S2048x1024 .bf16) (harg4 : arg4.IsWhole)
    (arg5 : Memref sig .tc .vmem S2048x1 .f32) (harg5 : arg5.IsWhole) (arg6 : Memref sig .tc .vmem S1x1024 .f32) (harg6 : arg6.IsWhole)
    (arg7 : Memref sig .tc .vmem S256x1024 .bf16) (harg7 : arg7.IsWhole) (arg8 : Memref sig .tc .vmem S256x1024 .f32) (harg8 : arg8.IsWhole)
    (hc0 : cond7_0 i) (hc1 : ¬cond7_1 i)
    (x0 : Vec F S2048x256 .bf16) (x1 : Vec F S2048x1024 .bf16) (x2 : Vec F S2048x1 .f32) (x3 : Vec F S1x1024 .f32)
    (xo : Vec F S256x1024 .bf16) (E : Set ℕ) (K : PUnit → sProp (MK F)) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xo
            ∗ owns (c : Thread nD τ) arg8 fullShare (k7_pay2 x2 x0 x1 (k7_pay1 (F := F)))) -∗ K ⟨⟩))
      ⊢ wp frame (wpE (defs₀ (F := F)) Variants.none c none) E (cc7_kernel i arg3 harg3 arg4 harg4 arg5 harg5 arg6 harg6 arg7 harg7 arg8 harg8) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%fo, %hfo, Ho⟩, ⟨%xs, %fs, -, Hs⟩, Hk⟩
  sl_exec (disch := first | exact hc0 | exact hc1)
  sl_step
  iapply Hk
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [Ho]; · iexists fo; isplitr; · ipureintro; exact hfo
                  iexact Ho
  iexists _; isplitr
  swap; · iexact Hs
  ipureintro
  sl_unfold_run_names
  rw [read_writes_cons_whole7 (S := S256x1024) _ _ View.zero_offsets2,
    View.readAt_unit_zero (S := S2048x1) _ _ View.zero_offsets2, View.readAt_unit_zero (S := S2048x256) _ _ View.zero_offsets2,
    View.readAt_unit_zero (S := S2048x1024) _ _ View.zero_offsets2, View.readCov_cons_whole_ld (S := S256x1024) _ View.zero_offsets2,
    View.ld_unit_zero View.zero_offsets2, hf0, hf1, hf2]

set_option maxHeartbeats 1000000 in
/-- A MIDDLE STEP: the product is added to the accumulator as found. -/
theorem run7_B (c : Dev nD) (i : grid7.Coords)
    (arg3 : Memref sig .tc .vmem S2048x256 .bf16) (harg3 : arg3.IsWhole) (arg4 : Memref sig .tc .vmem S2048x1024 .bf16) (harg4 : arg4.IsWhole)
    (arg5 : Memref sig .tc .vmem S2048x1 .f32) (harg5 : arg5.IsWhole) (arg6 : Memref sig .tc .vmem S1x1024 .f32) (harg6 : arg6.IsWhole)
    (arg7 : Memref sig .tc .vmem S256x1024 .bf16) (harg7 : arg7.IsWhole) (arg8 : Memref sig .tc .vmem S256x1024 .f32) (harg8 : arg8.IsWhole)
    (hc0 : ¬cond7_0 i) (hc1 : ¬cond7_1 i)
    (x0 : Vec F S2048x256 .bf16) (x1 : Vec F S2048x1024 .bf16) (x2 : Vec F S2048x1 .f32) (x3 : Vec F S1x1024 .f32)
    (xo : Vec F S256x1024 .bf16) (xs : Vec F S256x1024 .f32) (E : Set ℕ) (K : PUnit → sProp (MK F)) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xo
            ∗ owns (c : Thread nD τ) arg8 fullShare (k7_pay2 x2 x0 x1 xs)) -∗ K ⟨⟩))
      ⊢ wp frame (wpE (defs₀ (F := F)) Variants.none c none) E (cc7_kernel i arg3 harg3 arg4 harg4 arg5 harg5 arg6 harg6 arg7 harg7 arg8 harg8) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%fo, %hfo, Ho⟩, ⟨%fs, %hfs, Hs⟩, Hk⟩
  sl_exec (disch := first | exact hc0 | exact hc1)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [Ho]
  · iexists fo; isplitr; · ipureintro; exact hfo
    iexact Ho
  iexists _; isplitr
  swap; · iexact Hs
  ipureintro
  sl_unfold_run_names
  rw [read_writes_cons_whole7 (S := S256x1024) _ _ View.zero_offsets2,
    View.readAt_unit_zero (S := S2048x1) _ _ View.zero_offsets2, View.readAt_unit_zero (S := S2048x256) _ _ View.zero_offsets2,
    View.readAt_unit_zero (S := S2048x1024) _ _ View.zero_offsets2, View.readAt_unit_zero (S := S256x1024) _ _ View.zero_offsets2,
    hf0, hf1, hf2, hfs]

set_option maxHeartbeats 1000000 in
/-- THE LAST STEP: the product is added to the accumulator as found, and the accumulator, scaled column by column, is stored
    into the output block, whatever that held. -/
theorem run7_C (c : Dev nD) (i : grid7.Coords)
    (arg3 : Memref sig .tc .vmem S2048x256 .bf16) (harg3 : arg3.IsWhole) (arg4 : Memref sig .tc .vmem S2048x1024 .bf16) (harg4 : arg4.IsWhole)
    (arg5 : Memref sig .tc .vmem S2048x1 .f32) (harg5 : arg5.IsWhole) (arg6 : Memref sig .tc .vmem S1x1024 .f32) (harg6 : arg6.IsWhole)
    (arg7 : Memref sig .tc .vmem S256x1024 .bf16) (harg7 : arg7.IsWhole) (arg8 : Memref sig .tc .vmem S256x1024 .f32) (harg8 : arg8.IsWhole)
    (hc0 : ¬cond7_0 i) (hc1 : cond7_1 i)
    (x0 : Vec F S2048x256 .bf16) (x1 : Vec F S2048x1024 .bf16) (x2 : Vec F S2048x1 .f32) (x3 : Vec F S1x1024 .f32)
    (xs : Vec F S256x1024 .f32) (E : Set ℕ) (K : PUnit → sProp (MK F)) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k7_pay3 (k7_pay2 x2 x0 x1 xs) x3)
            ∗ owns (c : Thread nD τ) arg8 fullShare (k7_pay2 x2 x0 x1 xs)) -∗ K ⟨⟩))
      ⊢ wp frame (wpE (defs₀ (F := F)) Variants.none c none) E (cc7_kernel i arg3 harg3 arg4 harg4 arg5 harg5 arg6 harg6 arg7 harg7 arg8 harg8) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%xo, %fo, -, Ho⟩, ⟨%fs, %hfs, Hs⟩, Hk⟩
  sl_exec (disch := first | exact hc0 | exact hc1)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [Ho]
  · iexists _; isplitr
    swap; · iexact Ho
    ipureintro
    sl_unfold_run_names
    rw [read_writes_cons_whole7 (S := S256x1024) _ _ View.zero_offsets2, View.readCov_cons_whole_ld (S := S256x1024) _ View.zero_offsets2,
      View.ld_unit_zero View.zero_offsets2,
      View.readAt_unit_zero (S := S2048x1) _ _ View.zero_offsets2, View.readAt_unit_zero (S := S2048x256) _ _ View.zero_offsets2,
      View.readAt_unit_zero (S := S2048x1024) _ _ View.zero_offsets2, View.readAt_unit_zero (S := S256x1024) _ _ View.zero_offsets2,
      View.readAt_unit_zero (S := S1x1024) _ _ View.zero_offsets2, hf0, hf1, hf2, hf3, hfs]
  iexists _; isplitr
  swap; · iexact Hs
  ipureintro
  sl_unfold_run_names
  rw [read_writes_cons_whole7 (S := S256x1024) _ _ View.zero_offsets2,
    View.readAt_unit_zero (S := S2048x1) _ _ View.zero_offsets2, View.readAt_unit_zero (S := S2048x256) _ _ View.zero_offsets2,
    View.readAt_unit_zero (S := S2048x1024) _ _ View.zero_offsets2, View.readAt_unit_zero (S := S256x1024) _ _ View.zero_offsets2,
    hf0, hf1, hf2, hfs]

section Region
variable (V : (c : Dev nD) → (b : Ref sig .tc) → Buf (Elt F) ((c : Thread nD τ).loc b))

/-! ## The windows' blocks -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Each input window's current staging buffer holds its block at every point, fetched there or not (unfetched, the
    block index has not moved), for any proof data whose array is the entry contents and whose body leaves the block. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The accumulator, point by point -/

/-- The scratch accumulator as a memref. -/
abbrev scM7 : Memref sig .tc .vmem S256x1024 .f32 := Memref.whole cc7_scratch0

/-- What the accumulator holds after the body at point n: at a first step the product of the point's blocks added to
    zero, at a later step added to what the point before left. -/
def acc7 (c : Dev nD) : (n : ℕ) → n < cfg7.N → Vec F S256x1024 .f32
  | 0, hn => k7_pay2 (iblk7 V c 2 ⟨0, hn⟩) (iblk7 V c 0 ⟨0, hn⟩) (iblk7 V c 1 ⟨0, hn⟩) (k7_pay1 (F := F))
  | n + 1, hn =>
    if (n + 1) % 4 = 0 then k7_pay2 (iblk7 V c 2 ⟨n + 1, hn⟩) (iblk7 V c 0 ⟨n + 1, hn⟩) (iblk7 V c 1 ⟨n + 1, hn⟩) (k7_pay1 (F := F))
    else k7_pay2 (iblk7 V c 2 ⟨n + 1, hn⟩) (iblk7 V c 0 ⟨n + 1, hn⟩) (iblk7 V c 1 ⟨n + 1, hn⟩) (acc7 c n (Nat.lt_of_succ_lt hn))

theorem acc7_first (c : Dev nD) (t : Fin cfg7.N) (h0 : t.val % 4 = 0) :
    acc7 V c t.val t.isLt = k7_pay2 (iblk7 V c 2 t) (iblk7 V c 0 t) (iblk7 V c 1 t) (k7_pay1 (F := F)) := by
  obtain ⟨n, hn⟩ := t
  cases n with
  | zero => rfl
  | succ n => exact if_pos h0

theorem acc7_later (c : Dev nD) (t : Fin cfg7.N) (h0 : ¬t.val % 4 = 0) :
    acc7 V c t.val t.isLt = k7_pay2 (iblk7 V c 2 t) (iblk7 V c 0 t) (iblk7 V c 1 t)
      (acc7 V c (t.val - 1) (Nat.lt_of_le_of_lt (Nat.sub_le _ _) t.isLt)) := by
  obtain ⟨n, hn⟩ := t
  cases n with
  | zero => exact absurd (Nat.zero_mod _) h0
  | succ n => exact if_neg h0

/-! ## The region invariant -/

/-- The class invariant with the accumulator set apart, owned at some contents. -/
theorem PhiA7_eq (c : Dev nD) :
    (Pipeline.ΦA spec7 c : sProp (MK F))
      = iprop(iprop((∃ d, owns (c : Thread nD τ) scM7 fullShare d) ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7, owns_whole]; try rfl

/-- Before the first point the class invariant (the accumulator at anything); before a later point the accumulator at what
    the point before left, the other scoped buffers at anything, the generator register at some state. -/
def PhiS7 (c : Dev nD) : (n : ℕ) → n ≤ cfg7.N → sProp (MK F)
  | 0, _ => Pipeline.ΦA spec7 c
  | n + 1, hn => iprop(iprop(owns (c : Thread nD τ) scM7 fullShare (acc7 V c n hn) ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7 fullShare (acc7 V c n hn) ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) scM7 fullShare (acc7 V c (n - 1) (by omega)) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The proof data -/

/-- The proof data of the region on core c: the arrays as the region finds them; after the body each input's buffer at its
    block and the output's at the accumulator scaled column by column; the invariant carrying the accumulator. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => k7_pay3 (acc7 V c t.val t.isLt) (iblk7 V c 3 t)
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = k7_pay3 (acc7 V c t.val t.isLt) (iblk7 V c 3 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

/-- What the body is called with at point t, the windows one by one, -/
def bodyPre7 (c : Dev nD) (t : Fin cfg7.N) : sProp (MK F) :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp (MK F) :=
  iprop((dat7 V c).Φ t.succ ∗ (dat7 V c).owesAt () t.succ
    ∗ (dat7 V c).leavesExact 0 t ∗ (dat7 V c).leavesExact 1 t ∗ (dat7 V c).leavesExact 2 t
    ∗ (dat7 V c).leavesExact 3 t ∗ (dat7 V c).leavesExact 4 t)

set_option maxHeartbeats 4800000 in
/-- The body at any point: the inputs' buffers hold their blocks; the step along the contracted axis says which case the
    point is in; the invariant hands the body the accumulator at what the point before left (at anything at a first
    step) and takes it back at this point's contents; off the last step the output's buffer goes back as found. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  have hN : t.val < 32 := lt_of_lt_of_eq t.isLt (show cfg7.N = 32 from N_7)
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  rw [show (dat7 V c).leavesExact 2 t = owns (c : Thread nD τ) (st7_2 t) fullShare ((dat7 V c).after 2 t) from by
    unfold Dat.leavesExact; rw [liveAt7_2 t], after7_2]
  rw [show (dat7 V c).leavesExact 3 t = owns (c : Thread nD τ) (st7_3 t) fullShare ((dat7 V c).after 3 t) from by
    unfold Dat.leavesExact; rw [liveAt7_3 t], after7_3]
  by_cases h0 : t.val % 4 = 0
  · have h1 : ¬t.val % 4 = 3 := by omega
    rw [Dat.leavesExact_idle (dat7 V c) 4 t (idleAt7_4 t (fun h => h1 ((hcond7_1 t).mp h))) (noFlush7_4 t (fun h => h1 ((hcond7_1 t).mp h)))]
    rw [acc7_first V c t h0]
    by_cases hz : t.val = 0
    · rw [PhiS7_castSucc V c t, PhiS7_zero V c _ _ hz, PhiA7_eq]
      iintro ⟨⟨⟨HS, Hr⟩, Hg⟩, Ho, ⟨%d0, H0⟩, ⟨%d1, H1⟩, ⟨%d2, H2⟩, ⟨%d3, H3⟩, ⟨%d4, H4⟩⟩
      iapply (run7_A c (grid7.coords t) _ _ _ _ _ _ _ _ _ _ _ _ ((hcond7_0 t).mpr h0) (fun h => h1 ((hcond7_1 t).mp h))
        (iblk7 V c 0 t) (iblk7 V c 1 t) (iblk7 V c 2 t) (iblk7 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS7_castSucc V c t, PhiS7_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (run7_A c (grid7.coords t) _ _ _ _ _ _ _ _ _ _ _ _ ((hcond7_0 t).mpr h0) (fun h => h1 ((hcond7_1 t).mp h))
        (iblk7 V c 0 t) (iblk7 V c 1 t) (iblk7 V c 2 t) (iblk7 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [acc7_later V c t h0, PhiS7_castSucc V c t, PhiS7_pos V c _ _ hz]
    by_cases h1 : t.val % 4 = 3
    · rw [show (dat7 V c).leavesExact 4 t = owns (c : Thread nD τ) (st7_4 t) fullShare ((dat7 V c).after 4 t) from by
        unfold Dat.leavesExact; rw [liveAt7_4 t ((hcond7_1 t).mpr h1)], after7_4, acc7_later V c t h0]
      iintro ⟨⟨⟨HS, Hr⟩, Hg⟩, Ho, ⟨%d0, H0⟩, ⟨%d1, H1⟩, ⟨%d2, H2⟩, ⟨%d3, H3⟩, ⟨%d4, H4⟩⟩
      iapply (run7_C c (grid7.coords t) _ _ _ _ _ _ _ _ _ _ _ _ (fun h => h0 ((hcond7_0 t).mp h)) ((hcond7_1 t).mpr h1)
        (iblk7 V c 0 t) (iblk7 V c 1 t) (iblk7 V c 2 t) (iblk7 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat7 V c) 4 t (idleAt7_4 t (fun h => h1 ((hcond7_1 t).mp h))) (noFlush7_4 t (fun h => h1 ((hcond7_1 t).mp h)))]
      iintro ⟨⟨⟨HS, Hr⟩, Hg⟩, Ho, ⟨%d0, H0⟩, ⟨%d1, H1⟩, ⟨%d2, H2⟩, ⟨%d3, H3⟩, ⟨%d4, H4⟩⟩
      iapply (run7_B c (grid7.coords t) _ _ _ _ _ _ _ _ _ _ _ _ (fun h => h0 ((hcond7_0 t).mp h)) (fun h => h1 ((hcond7_1 t).mp h))
        (iblk7 V c 0 t) (iblk7 V c 1 t) (iblk7 V c 2 t) (iblk7 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point the invariant gives the class invariant back: the accumulator's contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS, Hr⟩, Hg⟩
  isplitl [HS Hr]
  · isplitl [HS]; · iexists _; iexact HS
    iexact Hr
  iexact Hg

theorem hout7 (c : Dev nD) : (dat7 V c).Φ (Fin.last cfg7.N) ⊢ Pipeline.ΦA spec7 c :=
  Phi_out7 V c _ (by rw [Fin.val_last]; have : cfg7.N = 32 := N_7; omega)

end Region

/-! # The region as a segment between two thread states -/

section Segment
variable (W : Dev nD → Valuation τ sig (Elt F))

/-- The entry contents read at the TensorCore's references: what the proof data take. -/
abbrev V7 : (c : Dev nD) → (b : Ref sig .tc) → Buf (Elt F) ((c : Thread nD τ).loc b) := fun c b => W c b

/-- The contents at the region's exit: its arrays at what the write-backs leave (an input as entered), every other buffer
    as entered. -/
def Wout7 (c : Dev nD) : Valuation τ sig (Elt F) :=
  Pipeline.withArrays spec7 c (W c) fun w => (dat7 (V7 W) c).arrAt w cfg7.N

theorem Wout7_arr (c : Dev nD) (w : Fin cfg7.W) :
    Wout7 W c (Proc.devRef .tc (Pipeline.arrRef spec7 w)) = (dat7 (V7 W) c).arrAt w cfg7.N := by
  unfold Wout7; exact Pipeline.withArrays_arr spec7 launch7.win.arr_inj c _ _ w

theorem Wout7_of_ne (c : Dev nD) (b : Ref sig .tc) (hb : ∀ w, Pipeline.arrRef spec7 w ≠ b) :
    Wout7 W c (Proc.devRef .tc b) = W c (Proc.devRef .tc b) := by
  unfold Wout7; exact Pipeline.withArrays_of_ne spec7 c _ _ b hb

/-- An input window's array leaves the region as it entered. -/
theorem Wout7_in (c : Dev nD) (w : Fin cfg7.W) (hw : (cfg7.win w).isOut = false) :
    Wout7 W c (Proc.devRef .tc (Pipeline.arrRef spec7 w)) = W c (Proc.devRef .tc (Pipeline.arrRef spec7 w)) :=
  (Wout7_arr W c w).trans (((dat7 (V7 W) c).arrAt_in w hw _).trans (A_eq7 (V7 W) c w))

theorem Wout7_main_v9_1 (c : Dev nD) : Wout7 W c (Proc.devRef .tc main_v9_1) = W c (Proc.devRef .tc main_v9_1) := Wout7_in W c 0 rfl
theorem Wout7_main_v0_0 (c : Dev nD) : Wout7 W c (Proc.devRef .tc main_v0_0) = W c (Proc.devRef .tc main_v0_0) := Wout7_in W c 1 rfl
theorem Wout7_main_v1 (c : Dev nD) : Wout7 W c (Proc.devRef .tc main_v1) = W c (Proc.devRef .tc main_v1) := Wout7_in W c 2 rfl
theorem Wout7_main_v11 (c : Dev nD) : Wout7 W c (Proc.devRef .tc main_v11) = W c (Proc.devRef .tc main_v11) := Wout7_in W c 3 rfl
/-- The output array leaves the region at what the write-backs of all the points leave. -/
theorem Wout7_main_v12 (c : Dev nD) : Wout7 W c (Proc.devRef .tc main_v12) = (dat7 (V7 W) c).arrAt 4 cfg7.N := Wout7_arr W c 4

set_option backward.isDefEq.respectTransparency.types false in
/-- The region over the thread state "every unscoped buffer at the boundary's contents, the generator register at some
    state, nothing owed": entered from the contents W, left at Wout7 W. Its arrays are split out of the unscoped buffers
    and put back at the exit contents; the generator register goes into the invariant and comes back; no semaphore of the
    kernel's own. -/
def reg7 (pdats : (p : Fin 9) → (c : Dev nD) → Dat τ (Elt F) Unit ℕ (UR sig nD τ) ℕ (Pipeline.pin (pcfgs (F := F)) adm p) c)
    (hK : ∀ c, pdats 7 c = dat7 (V7 W) c) :
    Pipeline.RegionSeg (pcfgs (F := F)) adm pdats () defs₀ 𝒱₀ L lv 7 where
  win := launch7.win.to₀
  block_pos := launch7.block_pos
  stage_whole := launch7.stage_whole
  K := PEmpty
  osem k := k.elim
  ho := Pipeline.OwnSemFacts.none _
  hbody c := by rw [hK c]; exact (body_obligation7 (V7 W) c).loose
  hwaits := Pipeline.hwaits_of_owed_zero _ _ _ _ L lv 7 fun c _ => by rw [hK c]; rfl
  pre c := iprop(StableHlo.held (c : Thread nD τ) (Pipeline.ucRefs τ sig) (W c) ∗ R c)
  post c := iprop(StableHlo.held (c : Thread nD τ) (Pipeline.ucRefs τ sig) (Wout7 W c) ∗ R c)
  X c := iprop(∃ r, prngReg c r)
  Y c := iprop(∃ r, prngReg c r)
  Z c := Pipeline.unscopedRest (Ix := Unit) (Name := ℕ) (U := UR sig nD τ) (Lvl := ℕ) spec7 c (V7 W c)
  hentry c := by
    rw [Pipeline.ownSems0_none]
    have hsplit := Pipeline.arrays_of_unscopedBufs (p := 7) (pcfgs (F := F)) adm pdats launch7.win launch7.arr_whole c
      (fun w => by rw [hK c]; exact (dat7 (V7 W) c).share_full (fun _ => rfl) w) (V7 W c) (fun w => by rw [hK c]; exact A_eq7 (V7 W) c w)
    rw [Pipeline.unscopedBufs_held] at hsplit
    rw [hK c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [hK c]
    refine _root_.Idealize.SL.BI.BIBase.Entails.trans ?_ (hin7 (V7 W) c)
    unfold Pipeline.ΦA
    iintro ⟨Hp, -, Hr⟩
    isplitl [Hr]; · iexact Hr
    iexact Hp
  hout c := by
    rw [Pipeline.ownSems0_none, hK c]
    refine _root_.Idealize.SL.BI.BIBase.Entails.trans (hout7 (V7 W) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c pdats (fun w => by rw [hK c]; exact (dat7 (V7 W) c).share_full (fun _ => rfl) w)
      (V7 W c) (fun b => Wout7 W c b) ((pdats 7 c).arrAt · cfg7.N) (fun w => by rw [hK c]; exact (Wout7_arr W c w).symm)
      (fun b hb => Wout7_of_ne W c b fun w e => hb (Finset.mem_image.mpr ⟨w, Finset.mem_univ _, e⟩))
    rw [Pipeline.unscopedBufs_held] at hjoin
    rw [hK c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W', -, HO⟩; iexists W'; iexact HO

theorem reg7_pre (pdats : (p : Fin 9) → (c : Dev nD) → Dat τ (Elt F) Unit ℕ (UR sig nD τ) ℕ (Pipeline.pin (pcfgs (F := F)) adm p) c)
    (hK : ∀ c, pdats 7 c = dat7 (V7 W) c) (c : Dev nD) :
    (reg7 W pdats hK).pre c = iprop(StableHlo.held (c : Thread nD τ) (Pipeline.ucRefs τ sig) (W c) ∗ R c) := rfl
theorem reg7_post (pdats : (p : Fin 9) → (c : Dev nD) → Dat τ (Elt F) Unit ℕ (UR sig nD τ) ℕ (Pipeline.pin (pcfgs (F := F)) adm p) c)
    (hK : ∀ c, pdats 7 c = dat7 (V7 W) c) (c : Dev nD) :
    (reg7 W pdats hK).post c = iprop(StableHlo.held (c : Thread nD τ) (Pipeline.ucRefs τ sig) (Wout7 W c) ∗ R c) := rfl

end Segment

end Cert.KernelIdeal.Hand
end
-- ==== Proof.KI.Reg8.lean ====
/-
  Region 8 of the nine-region program: the plain product of the [256,8192] array by s1 accumulated over the four blocks
  of the contracted axis in a scratch accumulator, the result stored at the last block only. The region's proof data at
  any entry contents, the body's triples in the three cases of its two conditions, the body obligation, and the region
  as a segment of the host program.
-/
import proofs.«105977_j57329223467619_2_alg».proof.Proof.KI.Common
import proofs.«105977_j57329223467619_2_alg».proof.Proof.LibWhole
import proofs.«105977_j57329223467619_2_alg».proof.Proof.LibAcc
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's two conditions over the grid -/

/-- The accumulator is zeroed: the block coordinate of the contracted axis is 0. -/
abbrev cond8_0 (i : grid8.Coords) : Prop := (Scalar.cmpi .ne (Scalar.extui (Scalar.cmpi .eq (BitVec.ofNat 32 (i 2).val) 0#32)) 0#32) = 1#1
/-- The result is stored: that coordinate is the last, 3. -/
abbrev cond8_1 (i : grid8.Coords) : Prop := k8_cond2 i = 1#1

theorem hcond8_0 : ∀ t : Fin cfg8.N, cond8_0 (grid8.coords t) ↔ t.val = 0 :=
  (by decide +kernel : ∀ t : Fin grid8.N, cond8_0 (grid8.coords t) ↔ t.val = 0)
theorem hcond8_1 : ∀ t : Fin cfg8.N, cond8_1 (grid8.coords t) ↔ t.val = 3 :=
  (by decide +kernel : ∀ t : Fin grid8.N, cond8_1 (grid8.coords t) ↔ t.val = 3)

theorem N8 : cfg8.N = 4 := N_8

/-- The two operand windows are never idle; the result window is idle, and not written back, wherever the result is
    not stored, and live where it is. -/
theorem liveAt8_0 : ∀ t : Fin cfg8.N, cfg8.idle 0 (grid8.coords t) = false := by decide +kernel
theorem liveAt8_1 : ∀ t : Fin cfg8.N, cfg8.idle 1 (grid8.coords t) = false := by decide +kernel
theorem idleAt8_2 : ∀ t : Fin cfg8.N, ¬cond8_1 (grid8.coords t) → cfg8.idle 2 (grid8.coords t) = true := by decide +kernel
theorem noFlush8_2 : ∀ t : Fin cfg8.N, ¬cond8_1 (grid8.coords t) → (cfg8.win 2).flush t = false := by decide +kernel
theorem liveAt8_2 : ∀ t : Fin cfg8.N, cond8_1 (grid8.coords t) → cfg8.idle 2 (grid8.coords t) = false := by decide +kernel

/-! ## The body's triples -/

/-- The scratch accumulator as a memref. -/
abbrev scM8 : Memref sig .tc .vmem S256x256 .f32 := Memref.whole cc8_scratch0

set_option maxHeartbeats 1000000 in
/-- First block: the accumulator, whatever it held, ends at the zero fill plus this block's product; the result
    buffer is not touched. -/
theorem sound_kernel8_A (c : Dev nD) (E : Set ℕ) (i : grid8.Coords)
    (arg3 : Memref sig .tc .vmem S256x2048 .bf16) (harg3 : arg3.IsWhole) (arg4 : Memref sig .tc .vmem S2048x256 .bf16) (harg4 : arg4.IsWhole)
    (arg5 : Memref sig .tc .vmem S256x256 .f32) (harg5 : arg5.IsWhole) (arg8 : Memref sig .tc .vmem S256x256 .f32) (harg8 : arg8.IsWhole)
    (hc0 : cond8_0 i) (hc1 : ¬cond8_1 i)
    (x0 : Vec F S256x2048 .bf16) (x1 : Vec F S2048x256 .bf16) (xi : Vec F S256x256 .f32) (K : PUnit → sProp (MK F)) :
    iprop(owns (c : Thread nD τ) arg3 fullShare x0 ∗ owns (c : Thread nD τ) arg4 fullShare x1 ∗ owns (c : Thread nD τ) arg5 fullShare xi
        ∗ (∃ d, owns (c : Thread nD τ) arg8 fullShare d)
        ∗ (iprop(owns (c : Thread nD τ) arg3 fullShare x0 ∗ owns (c : Thread nD τ) arg4 fullShare x1 ∗ owns (c : Thread nD τ) arg5 fullShare xi
            ∗ owns (c : Thread nD τ) arg8 fullShare (k8_pay2 x0 x1 (k8_pay1 (F := F)))) -∗ K ⟨⟩))
      ⊢ wp frame (wpE (defs₀ (F := F)) Variants.none c none) E (cc8_kernel i arg3 harg3 arg4 harg4 arg5 harg5 arg8 harg8) K := by
  simp only [cc8_kernel_eq_skeleton]; unfold cc8_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_cons_unit_zero _ _ View.zero_offsets2, View.readCov_unit_zero _ View.zero_offsets2,
    View.readAt_unit_zero _ _ View.zero_offsets2, View.readAt_unit_zero _ _ View.zero_offsets2]

set_option maxHeartbeats 1000000 in
/-- A middle block: the accumulator gains this block's product; the result buffer is not touched. -/
theorem sound_kernel8_B (c : Dev nD) (E : Set ℕ) (i : grid8.Coords)
    (arg3 : Memref sig .tc .vmem S256x2048 .bf16) (harg3 : arg3.IsWhole) (arg4 : Memref sig .tc .vmem S2048x256 .bf16) (harg4 : arg4.IsWhole)
    (arg5 : Memref sig .tc .vmem S256x256 .f32) (harg5 : arg5.IsWhole) (arg8 : Memref sig .tc .vmem S256x256 .f32) (harg8 : arg8.IsWhole)
    (hc0 : ¬cond8_0 i) (hc1 : ¬cond8_1 i)
    (x0 : Vec F S256x2048 .bf16) (x1 : Vec F S2048x256 .bf16) (xi : Vec F S256x256 .f32) (xs : Vec F S256x256 .f32) (K : PUnit → sProp (MK F)) :
    iprop(owns (c : Thread nD τ) arg3 fullShare x0 ∗ owns (c : Thread nD τ) arg4 fullShare x1 ∗ owns (c : Thread nD τ) arg5 fullShare xi
        ∗ owns (c : Thread nD τ) arg8 fullShare xs
        ∗ (iprop(owns (c : Thread nD τ) arg3 fullShare x0 ∗ owns (c : Thread nD τ) arg4 fullShare x1 ∗ owns (c : Thread nD τ) arg5 fullShare xi
            ∗ owns (c : Thread nD τ) arg8 fullShare (k8_pay2 x0 x1 xs)) -∗ K ⟨⟩))
      ⊢ wp frame (wpE (defs₀ (F := F)) Variants.none c none) E (cc8_kernel i arg3 harg3 arg4 harg4 arg5 harg5 arg8 harg8) K := by
  simp only [cc8_kernel_eq_skeleton]; unfold cc8_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_cons_unit_zero _ _ View.zero_offsets2, View.readAt_unit_zero _ _ View.zero_offsets2,
    View.readAt_unit_zero _ _ View.zero_offsets2, View.readAt_unit_zero _ _ View.zero_offsets2]

set_option maxHeartbeats 1000000 in
/-- Last block: the accumulator gains this block's product and the result buffer, whatever it held, ends at the
    accumulator. -/
theorem sound_kernel8_C (c : Dev nD) (E : Set ℕ) (i : grid8.Coords)
    (arg3 : Memref sig .tc .vmem S256x2048 .bf16) (harg3 : arg3.IsWhole) (arg4 : Memref sig .tc .vmem S2048x256 .bf16) (harg4 : arg4.IsWhole)
    (arg5 : Memref sig .tc .vmem S256x256 .f32) (harg5 : arg5.IsWhole) (arg8 : Memref sig .tc .vmem S256x256 .f32) (harg8 : arg8.IsWhole)
    (hc0 : ¬cond8_0 i) (hc1 : cond8_1 i)
    (x0 : Vec F S256x2048 .bf16) (x1 : Vec F S2048x256 .bf16) (xs : Vec F S256x256 .f32) (K : PUnit → sProp (MK F)) :
    iprop(owns (c : Thread nD τ) arg3 fullShare x0 ∗ owns (c : Thread nD τ) arg4 fullShare x1 ∗ (∃ d, owns (c : Thread nD τ) arg5 fullShare d)
        ∗ owns (c : Thread nD τ) arg8 fullShare xs
        ∗ (iprop(owns (c : Thread nD τ) arg3 fullShare x0 ∗ owns (c : Thread nD τ) arg4 fullShare x1
            ∗ owns (c : Thread nD τ) arg5 fullShare (k8_pay2 x0 x1 xs)
            ∗ owns (c : Thread nD τ) arg8 fullShare (k8_pay2 x0 x1 xs)) -∗ K ⟨⟩))
      ⊢ wp frame (wpE (defs₀ (F := F)) Variants.none c none) E (cc8_kernel i arg3 harg3 arg4 harg4 arg5 harg5 arg8 harg8) K := by
  simp only [cc8_kernel_eq_skeleton]; unfold cc8_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_cons_unit_zero _ _ View.zero_offsets2, View.readCov_unit_zero _ View.zero_offsets2,
      View.readAt_unit_zero _ _ View.zero_offsets2, View.readAt_unit_zero _ _ View.zero_offsets2, View.readAt_unit_zero _ _ View.zero_offsets2]
  iexists _; isplitr
  swap; · iexact HS
  ipureintro
  sl_unfold_run_names
  rw [View.read_writes_cons_unit_zero _ _ View.zero_offsets2, View.readAt_unit_zero _ _ View.zero_offsets2,
    View.readAt_unit_zero _ _ View.zero_offsets2, View.readAt_unit_zero _ _ View.zero_offsets2]

section Region8

variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An operand window's current staging buffer holds its block at every point, for any proof data whose array is the
    entry contents and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The accumulator after each point -/

/-- What the scratch accumulator holds after the body at position `n`: the zero fill plus the products of the blocks
    0 … n, added one after the other. -/
def acc8 (c : Dev nD) : (n : ℕ) → n < cfg8.N → Vec F S256x256 .f32
  | 0, hn => k8_pay2 (iblk8 V c 0 ⟨0, hn⟩) (iblk8 V c 1 ⟨0, hn⟩) (k8_pay1 (F := F))
  | n + 1, hn => k8_pay2 (iblk8 V c 0 ⟨n + 1, hn⟩) (iblk8 V c 1 ⟨n + 1, hn⟩) (acc8 c n (Nat.lt_of_succ_lt hn))

theorem acc8_zero (c : Dev nD) (t : Fin cfg8.N) (h0 : t.val = 0) :
    acc8 V c t.val t.isLt = k8_pay2 (iblk8 V c 0 t) (iblk8 V c 1 t) (k8_pay1 (F := F)) := by
  obtain ⟨n, hn⟩ := t
  cases n with
  | zero => rfl
  | succ n => exact absurd h0 (Nat.succ_ne_zero n)

theorem acc8_pos (c : Dev nD) (t : Fin cfg8.N) (h0 : t.val ≠ 0) :
    acc8 V c t.val t.isLt = k8_pay2 (iblk8 V c 0 t) (iblk8 V c 1 t) (acc8 V c (t.val - 1) (Nat.lt_of_le_of_lt (Nat.sub_le _ _) t.isLt)) := by
  obtain ⟨n, hn⟩ := t
  cases n with
  | zero => exact absurd rfl h0
  | succ n => rfl

/-! ## The region invariant -/

/-- The invariant before position `n`: before the first point every scoped buffer no window stages at anything and the
    generator register at some state; afterwards the scratch accumulator at what the point before left, the other such
    scoped buffers at anything, the register at some state. -/
def PhiS8 (c : Dev nD) : (n : ℕ) → n ≤ cfg8.N → sProp (MK F)
  | 0, _ => Pipeline.ΦA spec8 c
  | n + 1, hn => iprop(iprop(owns (c : Thread nD τ) scM8 fullShare (acc8 V c n hn)
      ∗ Pipeline.scopedRestBut (Ix := Unit) (Name := ℕ) (U := UR sig nD τ) (Lvl := ℕ) (Val := Elt F) spec8 c [cc8_scratch0]) ∗ (∃ r, prngReg c r))

theorem PhiA8_eq (c : Dev nD) :
    (Pipeline.ΦA spec8 c : sProp (MK F))
      = iprop(iprop((∃ d, owns (c : Thread nD τ) scM8 fullShare d)
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; try rfl

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(owns (c : Thread nD τ) scM8 fullShare (acc8 V c n hn)
      ∗ Pipeline.scopedRestBut (Ix := Unit) (Name := ℕ) (U := UR sig nD τ) (Lvl := ℕ) (Val := Elt F) spec8 c [cc8_scratch0]) ∗ (∃ r, prngReg c r)) := rfl

theorem PhiS8_pos (c : Dev nD) (n : ℕ) (h : n ≤ cfg8.N) (hz : n ≠ 0) :
    PhiS8 V c n h = iprop(iprop(owns (c : Thread nD τ) scM8 fullShare (acc8 V c (n - 1) (by omega))
      ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-! ## The proof data -/

/-- The proof data of the pipeline on core `c`: the arrays as the region finds them; after the body each operand's
    buffer at its block and the result's at the accumulator; the invariant carrying the accumulator; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => acc8 V c t.val t.isLt
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = acc8 V c t.val t.isLt := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation -/

abbrev ms8_0 (t : Fin cfg8.N) : Memref sig .tc .vmem S256x2048 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S2048x256 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S256x256 .f32 := win8_2.stage (cfg8.slots t 2)
abbrev hs8_2 (t : Fin cfg8.N) : (ms8_2 t).IsWhole := hstage8_2 ((cfg8.slots t 2).cast nbuf8_2)

/-- What the body is called with at point `t`, -/
def bodyPre8 (c : Dev nD) (t : Fin cfg8.N) : sProp (MK F) :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

/-- and what it returns. -/
def bodyPost8 (c : Dev nD) (t : Fin cfg8.N) : sProp (MK F) :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point: the operands' buffers hold their blocks; the point's position decides the case; the
    invariant hands the body the accumulator at what the point before left (at anything at the first point) and takes it
    back at this point's contents. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  have hN : t.val < 4 := lt_of_lt_of_eq t.isLt N8
  by_cases h0 : t.val = 0
  · have h1 : ¬t.val = 3 := by omega
    rw [Dat.leavesExact_idle (dat8 V c) 2 t (idleAt8_2 t (fun h => h1 ((hcond8_1 t).mp h))) (noFlush8_2 t (fun h => h1 ((hcond8_1 t).mp h)))]
    rw [acc8_zero V c t h0]
    rw [PhiS8_castSucc V c t, PhiS8_zero V c _ _ h0, PhiA8_eq]
    iintro ⟨⟨⟨HS, Hrest⟩, Hg⟩, Ho, ⟨%d0, H0⟩, ⟨%d1, H1⟩, ⟨%d2, H2⟩⟩
    iapply (sound_kernel8_A c Set.univ (grid8.coords t) _ _ _ _ _ _ _ _ ((hcond8_0 t).mpr h0) (fun h => h1 ((hcond8_1 t).mp h)) (iblk8 V c 0 t) (iblk8 V c 1 t) _ _)
    isplitl [H0]; · iexact H0
    isplitl [H1]; · iexact H1
    isplitl [H2]; · iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexists _; iexact H2
  · by_cases h1 : t.val = 3
    · rw [show (dat8 V c).leavesExact 2 t = owns (c : Thread nD τ) (ms8_2 t) fullShare ((dat8 V c).after 2 t) from by
        unfold Dat.leavesExact; rw [liveAt8_2 t ((hcond8_1 t).mpr h1)], after8_2]
      rw [acc8_pos V c t h0]
      rw [PhiS8_castSucc V c t, PhiS8_pos V c _ _ h0]
      iintro ⟨⟨⟨HS, Hrest⟩, Hg⟩, Ho, ⟨%d0, H0⟩, ⟨%d1, H1⟩, ⟨%d2, H2⟩⟩
      iapply (sound_kernel8_C c Set.univ (grid8.coords t) _ _ _ _ _ _ _ _ (fun h => h0 ((hcond8_0 t).mp h)) ((hcond8_1 t).mpr h1) (iblk8 V c 0 t) (iblk8 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [Dat.leavesExact_idle (dat8 V c) 2 t (idleAt8_2 t (fun h => h1 ((hcond8_1 t).mp h))) (noFlush8_2 t (fun h => h1 ((hcond8_1 t).mp h)))]
      rw [acc8_pos V c t h0]
      rw [PhiS8_castSucc V c t, PhiS8_pos V c _ _ h0]
      iintro ⟨⟨⟨HS, Hrest⟩, Hg⟩, Ho, ⟨%d0, H0⟩, ⟨%d1, H1⟩, ⟨%d2, H2⟩⟩
      iapply (sound_kernel8_B c Set.univ (grid8.coords t) _ _ _ _ _ _ _ _ (fun h => h0 ((hcond8_0 t).mp h)) (fun h => h1 ((hcond8_1 t).mp h)) (iblk8 V c 0 t) (iblk8 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After the last point the invariant gives it back: the accumulator's contents are forgotten. -/
theorem hout8 (c : Dev nD) : (dat8 V c).Φ (Fin.last cfg8.N) ⊢ Pipeline.ΦA spec8 c := by
  rw [show (dat8 V c).Φ (Fin.last cfg8.N) = PhiS8 V c (Fin.last cfg8.N).val (Nat.le_of_lt_succ (Fin.last cfg8.N).isLt) from rfl,
    PhiS8_pos V c _ _ (by rw [Fin.val_last]; have : cfg8.N = 4 := N8; omega), PhiA8_eq]
  iintro ⟨⟨HS, Hrest⟩, Hg⟩
  isplitl [HS Hrest]
  · isplitl [HS]; · iexists _; iexact HS
    iexact Hrest
  iexact Hg

end Region8

/-! ## The region as a segment of the host program -/

section Seg8

variable (W : Dev nD → Valuation τ sig (Elt F))

/-- The entry contents read at the TensorCore's references. -/
abbrev V8 : (c : Dev nD) → (b : Ref sig .tc) → Buf (Elt F) ((c : Thread nD τ).loc b) := fun c b => W c b

/-- The contents at the region's exit: its arrays at what the pipeline leaves, every other buffer as entered. -/
def Wout8 (c : Dev nD) : Valuation τ sig (Elt F) :=
  Pipeline.withArrays spec8 c (W c) fun w => (dat8 (V8 W) c).arrAt w cfg8.N

theorem Wout8_arr (c : Dev nD) (w : Fin cfg8.W) :
    Wout8 W c (Proc.devRef .tc (Pipeline.arrRef spec8 w)) = (dat8 (V8 W) c).arrAt w cfg8.N := by
  unfold Wout8; exact Pipeline.withArrays_arr spec8 launch8.win.arr_inj c _ _ w

theorem Wout8_of_ne (c : Dev nD) (b : Ref sig .tc) (hb : ∀ w, Pipeline.arrRef spec8 w ≠ b) :
    Wout8 W c (Proc.devRef .tc b) = W c (Proc.devRef .tc b) := by
  unfold Wout8; exact Pipeline.withArrays_of_ne spec8 c _ _ b hb

/-- The two operand arrays leave as they entered. -/
theorem Wout8_main_v12 (c : Dev nD) : Wout8 W c (Proc.devRef .tc main_v12) = W c (Proc.devRef .tc main_v12) :=
  (Wout8_arr W c 0).trans (((dat8 (V8 W) c).arrAt_in 0 rfl _).trans (A_eq8 (V8 W) c 0))
theorem Wout8_main_v9_1 (c : Dev nD) : Wout8 W c (Proc.devRef .tc main_v9_1) = W c (Proc.devRef .tc main_v9_1) :=
  (Wout8_arr W c 1).trans (((dat8 (V8 W) c).arrAt_in 1 rfl _).trans (A_eq8 (V8 W) c 1))
/-- The result array leaves at the pipeline's write-backs. -/
theorem Wout8_main_v13 (c : Dev nD) : Wout8 W c (Proc.devRef .tc main_v13) = (dat8 (V8 W) c).arrAt 2 cfg8.N :=
  Wout8_arr W c 2

theorem hF8 (c : Dev nD) (w : Fin cfg8.W) : (dat8 (V8 W) c).arrAt w cfg8.N = (fun b : Ref sig .tc => Wout8 W c b) (Pipeline.arrRef spec8 w) :=
  (Wout8_arr W c w).symm
theorem hrest8 (c : Dev nD) : ∀ b, b ∉ Finset.univ.image (Pipeline.arrRef spec8) → (fun b : Ref sig .tc => Wout8 W c b) b = V8 W c b :=
  fun b hb => Wout8_of_ne W c b fun w e => hb (Finset.mem_image.mpr ⟨w, Finset.mem_univ _, e⟩)

set_option backward.isDefEq.respectTransparency.types false in
/-- Region 8 over the thread state: entered from every unscoped buffer at `W`, left at `Wout8 W`. Its arrays are
    split out of the unscoped buffers and put back at the exit contents; the generator register goes into the
    invariant and comes back; nothing owed; no semaphore of the kernel's own. -/
def reg8 (pdats : (p : Fin 9) → (c : Dev nD) → Dat τ (Elt F) Unit ℕ (UR sig nD τ) ℕ (Pipeline.pin (pcfgs (F := F)) adm p) c)
    (hK : ∀ c, pdats 8 c = dat8 (V8 W) c) :
    Pipeline.RegionSeg (pcfgs (F := F)) adm pdats () defs₀ 𝒱₀ L lv 8 where
  win := launch8.win.to₀
  block_pos := launch8.block_pos
  stage_whole := launch8.stage_whole
  K := PEmpty
  osem k := k.elim
  ho := Pipeline.OwnSemFacts.none _
  hbody c := by rw [hK c]; exact (body_obligation8 (V8 W) c).loose
  hwaits := Pipeline.hwaits_of_owed_zero _ _ _ _ L lv 8 fun c t => by rw [hK c]; rfl
  pre c := iprop(StableHlo.held (c : Thread nD τ) (Pipeline.ucRefs τ sig) (W c) ∗ R c)
  post c := iprop(StableHlo.held (c : Thread nD τ) (Pipeline.ucRefs τ sig) (Wout8 W c) ∗ R c)
  X c := iprop(∃ r, prngReg c r)
  Y c := iprop(∃ r, prngReg c r)
  Z c := Pipeline.unscopedRest (Ix := Unit) (Name := ℕ) (U := UR sig nD τ) (Lvl := ℕ) spec8 c (V8 W c)
  hentry c := by
    rw [Pipeline.ownSems0_none]
    have hsh : ∀ w, (pdats 8 c).share w = fullShare := by rw [hK c]; exact (dat8 (V8 W) c).share_full fun _ => rfl
    have hsplit := Pipeline.arrays_of_unscopedBufs (p := 8) (pcfgs (F := F)) adm pdats launch8.win launch8.arr_whole c
      hsh (V8 W c) (fun w => by rw [hK c]; rfl)
    rw [Pipeline.unscopedBufs_held] at hsplit
    rw [hK c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [hK c, show (dat8 (V8 W) c).Φ 0 = Pipeline.ΦA spec8 c from rfl]; unfold Pipeline.ΦA
    iintro ⟨Hp, -, Hr⟩
    isplitl [Hr]; · iexact Hr
    iexact Hp
  hout c := by
    rw [Pipeline.ownSems0_none, hK c]
    refine (hout8 (V8 W) c).trans ?_
    unfold Pipeline.ΦA
    iintro ⟨Hr, Hp⟩
    isplitl [Hp]; · iexact Hp
    isplitr; · iempintro
    iexact Hr
  hexit c := by
    have hsh : ∀ w, (pdats 8 c).share w = fullShare := by rw [hK c]; exact (dat8 (V8 W) c).share_full fun _ => rfl
    have hjoin := Pipeline.unscopedBufs_of_arrays (p := 8) (pcfgs (F := F)) adm (Ix := Unit) (Name := ℕ) (U := UR sig nD τ) (Lvl := ℕ)
      launch8.win launch8.arr_whole c pdats hsh
      (V8 W c) (fun b : Ref sig .tc => Wout8 W c b) ((pdats 8 c).arrAt · cfg8.N) (fun w => by rw [hK c]; exact hF8 W c w) (hrest8 W c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W', -, HO⟩; iexists W'; rw [hK c]; iexact HO

theorem reg8_pre (pdats : (p : Fin 9) → (c : Dev nD) → Dat τ (Elt F) Unit ℕ (UR sig nD τ) ℕ (Pipeline.pin (pcfgs (F := F)) adm p) c)
    (hK : ∀ c, pdats 8 c = dat8 (V8 W) c) (c : Dev nD) :
    (reg8 W pdats hK).pre c = iprop(StableHlo.held (c : Thread nD τ) (Pipeline.ucRefs τ sig) (W c) ∗ R c) := rfl
theorem reg8_post (pdats : (p : Fin 9) → (c : Dev nD) → Dat τ (Elt F) Unit ℕ (UR sig nD τ) ℕ (Pipeline.pin (pcfgs (F := F)) adm p) c)
    (hK : ∀ c, pdats 8 c = dat8 (V8 W) c) (c : Dev nD) :
    (reg8 W pdats hK).post c = iprop(StableHlo.held (c : Thread nD τ) (Pipeline.ucRefs τ sig) (Wout8 W c) ∗ R c) := rfl

end Seg8

end Cert.KernelIdeal.Hand

end
-- ==== Proof.KI.Run.lean ====
/-
  The whole program as a sequence of fifteen items — nine kernel regions and six stretches of host operations — run from
  the launch memory: the contents of every unscoped buffer between two items (each region replaces its output arrays by
  what its pipeline leaves, each host stretch folds its operations), the segments, and the run: every weakly fair
  execution terminates with every unscoped buffer at the last of these contents.
-/
import proofs.«105977_j57329223467619_2_alg».proof.Proof.KI.Host
import proofs.«105977_j57329223467619_2_alg».proof.Proof.KI.Reg0
import proofs.«105977_j57329223467619_2_alg».proof.Proof.KI.Reg1
import proofs.«105977_j57329223467619_2_alg».proof.Proof.KI.Reg2
import proofs.«105977_j57329223467619_2_alg».proof.Proof.KI.Reg3
import proofs.«105977_j57329223467619_2_alg».proof.Proof.KI.Reg4
import proofs.«105977_j57329223467619_2_alg».proof.Proof.KI.Reg5
import proofs.«105977_j57329223467619_2_alg».proof.Proof.KI.Reg6
import proofs.«105977_j57329223467619_2_alg».proof.Proof.KI.Reg7
import proofs.«105977_j57329223467619_2_alg».proof.Proof.KI.Reg8

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MK F

variable (m : (ℓ : Loc nD τ sig) → Buf (Elt F) ℓ)

/-! ## The buffers' contents between the items -/

/-- Core `c`'s buffers at launch. -/
abbrev Wi0 : Dev nD → Valuation τ sig (Elt F) := fun c b => m (c, b)
/-- After region 0. -/
def Wi1 : Dev nD → Valuation τ sig (Elt F) := fun c => Wout0 (Wi0 m) c
/-- After the host stretch `hostOps1`. -/
abbrev Wi2 : Dev nD → Valuation τ sig (Elt F) := fun c => StableHlo.after hostOps1 (Wi1 m c)
/-- After region 1. -/
def Wi3 : Dev nD → Valuation τ sig (Elt F) := fun c => Wout1 (Wi2 m) c
/-- After the host stretch `hostOps2`. -/
abbrev Wi4 : Dev nD → Valuation τ sig (Elt F) := fun c => StableHlo.after hostOps2 (Wi3 m c)
/-- After region 2. -/
def Wi5 : Dev nD → Valuation τ sig (Elt F) := fun c => Wout2 (Wi4 m) c
/-- After region 3. -/
def Wi6 : Dev nD → Valuation τ sig (Elt F) := fun c => Wout3 (Wi5 m) c
/-- After region 4. -/
def Wi7 : Dev nD → Valuation τ sig (Elt F) := fun c => Wout4 (Wi6 m) c
/-- After the host stretch `hostOps5`. -/
abbrev Wi8 : Dev nD → Valuation τ sig (Elt F) := fun c => StableHlo.after hostOps5 (Wi7 m c)
/-- After region 5. -/
def Wi9 : Dev nD → Valuation τ sig (Elt F) := fun c => Wout5 (Wi8 m) c
/-- After region 6. -/
def Wi10 : Dev nD → Valuation τ sig (Elt F) := fun c => Wout6 (Wi9 m) c
/-- After the host stretch `hostOps7`. -/
abbrev Wi11 : Dev nD → Valuation τ sig (Elt F) := fun c => StableHlo.after hostOps7 (Wi10 m c)
/-- After region 7. -/
def Wi12 : Dev nD → Valuation τ sig (Elt F) := fun c => Wout7 (Wi11 m) c
/-- After region 8. -/
def Wi13 : Dev nD → Valuation τ sig (Elt F) := fun c => Wout8 (Wi12 m) c
/-- After the host stretch `hostOps9`. -/
abbrev Wi14 : Dev nD → Valuation τ sig (Elt F) := fun c => StableHlo.after hostOps9 (Wi13 m c)
/-- After the host stretch `hostOps9_1`. -/
abbrev Wi15 : Dev nD → Valuation τ sig (Elt F) := fun c => StableHlo.after hostOps9_1 (Wi14 m c)

/-- A valuation read at the TensorCore's references: what a region's proof data take. -/
abbrev tcV (W : Dev nD → Valuation τ sig (Elt F)) : (c : Dev nD) → (b : Ref sig .tc) → Buf (Elt F) ((c : Thread nD τ).loc b) := fun c b => W c b

/-! ## The proof data family and the segments -/

/-- Every pipeline's proof data, each at its region's entry contents. -/
def pdats : (p : Fin 9) → (c : Dev nD) → Dat τ (Elt F) Unit ℕ (UR sig nD τ) ℕ (Pipeline.pin (pcfgs (F := F)) adm p) c
  | ⟨0, _⟩ => fun c => dat0 (tcV (Wi0 m)) c
  | ⟨1, _⟩ => fun c => dat1 (tcV (Wi2 m)) c
  | ⟨2, _⟩ => fun c => dat2 (tcV (Wi4 m)) c
  | ⟨3, _⟩ => fun c => dat3 (tcV (Wi5 m)) c
  | ⟨4, _⟩ => fun c => dat4 (tcV (Wi6 m)) c
  | ⟨5, _⟩ => fun c => dat5 (tcV (Wi8 m)) c
  | ⟨6, _⟩ => fun c => dat6 (tcV (Wi9 m)) c
  | ⟨7, _⟩ => fun c => dat7 (tcV (Wi11 m)) c
  | ⟨8, _⟩ => fun c => dat8 (tcV (Wi12 m)) c

/-- The fifteen items in order. -/
abbrev segs : List (Pipeline.Seg (pcfgs (F := F)) adm (pdats m) () defs₀ 𝒱₀ L lv) :=
  [ .region (reg0 (Wi0 m) (pdats m) (fun _ => rfl)),
    .host (hseg hostOps1 hostOps1_sub hostOps1_fresh (Wi1 m)),
    .region (reg1 (Wi2 m) (pdats m) (fun _ => rfl)),
    .host (hseg hostOps2 hostOps2_sub hostOps2_fresh (Wi3 m)),
    .region (reg2 (Wi4 m) (pdats m) (fun _ => rfl)),
    .region (reg3 (Wi5 m) (pdats m) (fun _ => rfl)),
    .region (reg4 (Wi6 m) (pdats m) (fun _ => rfl)),
    .host (hseg hostOps5 hostOps5_sub hostOps5_fresh (Wi7 m)),
    .region (reg5 (Wi8 m) (pdats m) (fun _ => rfl)),
    .region (reg6 (Wi9 m) (pdats m) (fun _ => rfl)),
    .host (hseg hostOps7 hostOps7_sub hostOps7_fresh (Wi10 m)),
    .region (reg7 (Wi11 m) (pdats m) (fun _ => rfl)),
    .region (reg8 (Wi12 m) (pdats m) (fun _ => rfl)),
    .host (hseg hostOps9 hostOps9_sub hostOps9_fresh (Wi13 m)),
    .host (hseg hostOps9_1 hostOps9_1_sub hostOps9_1_fresh (Wi14 m)) ]

/-- The program is the run of the segments. -/
theorem main_run (c : Dev nD) : main (F := F) c = Pipeline.Seg.run (segs m) := (main_chain c).trans (by chain_rfl)

/-- The last thread state without the `owes`. -/
abbrev Tₙ (c : Dev nD) : sProp 𝕄 := iprop(StableHlo.held (c : Thread nD τ) (Pipeline.ucRefs τ sig) (Wi15 m c) ∗ ∃ r, prngReg c r)

set_option backward.isDefEq.respectTransparency.types false in
/-- From any memory with zero counters every weakly fair execution of the program terminates, nothing faulting, and
    every unscoped buffer ends at the last contents. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Wi15 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wi0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (Wi15 m c)
            ∗ ((∃ r, prngReg c r) ∗ ∃ W, owes (c : Thread nD τ) (0 : CellTallies nD τ sig Unit) W))
        ⊢ (iprop((StableHlo.held (c : Thread nD τ) (Pipeline.ucRefs τ sig) (Wi15 m c) ∗ ∃ r, prngReg c r)
            ∗ ∃ W, owes (c : Thread nD τ) (0 : CellTallies nD τ sig Unit) W) : sProp 𝕄)
      iintro ⟨Hh, Hp, HO⟩
      isplitl [Hh Hp]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (Wi0 m c)
        from Pipeline.unscopedBufs_held c (Wi0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wi15 m c b)
    (hfin := fun c s' => by
      iintro ⟨⟨Hh, -⟩, HSI⟩
      unfold StableHlo.held
      imodintro
      iapply (pointsTo_read_all (Pipeline.ucRefs τ sig) (fun b => (((c : Thread nD τ)).1, b)) (Wi15 m c) s')
      isplitl [Hh] <;> iassumption)
    (hQ := fun s h c => h c)

end Cert.KernelIdeal.Hand

end
-- ==== Proof.KI.Args.lean ====
/-
  What the items leave unchanged: a buffer written by one item and read by a later one holds, when it is read, what
  its writer left; and no item writes an argument, so every argument holds at the end what the launch memory held.
-/
import proofs.«105977_j57329223467619_2_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

theorem keep_main_v0_0_4_1 (c : Dev nD) : Wi4 m c (Proc.devRef .tc main_v0_0) = Wi1 m c (Proc.devRef .tc main_v0_0) :=
  (hostOps2_keep (Wi3 m c) main_v0_0 (by decide)).trans ((Wout1_of_ne (Wi2 m) c main_v0_0 (by decide)).trans ((hostOps1_keep (Wi1 m c) main_v0_0 (by decide))))
theorem keep_main_v0_0_8_1 (c : Dev nD) : Wi8 m c (Proc.devRef .tc main_v0_0) = Wi1 m c (Proc.devRef .tc main_v0_0) :=
  (hostOps5_keep (Wi7 m c) main_v0_0 (by decide)).trans ((Wout4_of_ne (Wi6 m) c main_v0_0 (by decide)).trans ((Wout3_of_ne (Wi5 m) c main_v0_0 (by decide)).trans ((Wout2_main_v0_0 (Wi4 m) c).trans ((hostOps2_keep (Wi3 m c) main_v0_0 (by decide)).trans ((Wout1_of_ne (Wi2 m) c main_v0_0 (by decide)).trans ((hostOps1_keep (Wi1 m c) main_v0_0 (by decide))))))))
theorem keep_main_v0_0_11_1 (c : Dev nD) : Wi11 m c (Proc.devRef .tc main_v0_0) = Wi1 m c (Proc.devRef .tc main_v0_0) :=
  (hostOps7_keep (Wi10 m c) main_v0_0 (by decide)).trans ((Wout6_of_ne (Wi9 m) c main_v0_0 (by decide)).trans ((Wout5_main_v0_0 (Wi8 m) c).trans ((hostOps5_keep (Wi7 m c) main_v0_0 (by decide)).trans ((Wout4_of_ne (Wi6 m) c main_v0_0 (by decide)).trans ((Wout3_of_ne (Wi5 m) c main_v0_0 (by decide)).trans ((Wout2_main_v0_0 (Wi4 m) c).trans ((hostOps2_keep (Wi3 m c) main_v0_0 (by decide)).trans ((Wout1_of_ne (Wi2 m) c main_v0_0 (by decide)).trans ((hostOps1_keep (Wi1 m c) main_v0_0 (by decide)))))))))))
theorem keep_main_v1_4_2 (c : Dev nD) : Wi4 m c (Proc.devRef .tc main_v1) = Wi2 m c (Proc.devRef .tc main_v1) :=
  (hostOps2_keep (Wi3 m c) main_v1 (by decide)).trans ((Wout1_of_ne (Wi2 m) c main_v1 (by decide)))
theorem keep_main_v1_8_2 (c : Dev nD) : Wi8 m c (Proc.devRef .tc main_v1) = Wi2 m c (Proc.devRef .tc main_v1) :=
  (hostOps5_keep (Wi7 m c) main_v1 (by decide)).trans ((Wout4_of_ne (Wi6 m) c main_v1 (by decide)).trans ((Wout3_of_ne (Wi5 m) c main_v1 (by decide)).trans ((Wout2_main_v1 (Wi4 m) c).trans ((hostOps2_keep (Wi3 m c) main_v1 (by decide)).trans ((Wout1_of_ne (Wi2 m) c main_v1 (by decide)))))))
theorem keep_main_v1_10_2 (c : Dev nD) : Wi10 m c (Proc.devRef .tc main_v1) = Wi2 m c (Proc.devRef .tc main_v1) :=
  (Wout6_of_ne (Wi9 m) c main_v1 (by decide)).trans ((Wout5_main_v1 (Wi8 m) c).trans ((hostOps5_keep (Wi7 m c) main_v1 (by decide)).trans ((Wout4_of_ne (Wi6 m) c main_v1 (by decide)).trans ((Wout3_of_ne (Wi5 m) c main_v1 (by decide)).trans ((Wout2_main_v1 (Wi4 m) c).trans ((hostOps2_keep (Wi3 m c) main_v1 (by decide)).trans ((Wout1_of_ne (Wi2 m) c main_v1 (by decide)))))))))
theorem keep_main_v1_11_2 (c : Dev nD) : Wi11 m c (Proc.devRef .tc main_v1) = Wi2 m c (Proc.devRef .tc main_v1) :=
  (hostOps7_keep (Wi10 m c) main_v1 (by decide)).trans ((Wout6_of_ne (Wi9 m) c main_v1 (by decide)).trans ((Wout5_main_v1 (Wi8 m) c).trans ((hostOps5_keep (Wi7 m c) main_v1 (by decide)).trans ((Wout4_of_ne (Wi6 m) c main_v1 (by decide)).trans ((Wout3_of_ne (Wi5 m) c main_v1 (by decide)).trans ((Wout2_main_v1 (Wi4 m) c).trans ((hostOps2_keep (Wi3 m c) main_v1 (by decide)).trans ((Wout1_of_ne (Wi2 m) c main_v1 (by decide))))))))))
theorem keep_main_v2_4_3 (c : Dev nD) : Wi4 m c (Proc.devRef .tc main_v2) = Wi3 m c (Proc.devRef .tc main_v2) :=
  (hostOps2_keep (Wi3 m c) main_v2 (by decide))
theorem keep_main_v4_6_5 (c : Dev nD) : Wi6 m c (Proc.devRef .tc main_v4) = Wi5 m c (Proc.devRef .tc main_v4) :=
  (Wout3_main_v4 (Wi5 m) c)
theorem keep_main_v5_8_6 (c : Dev nD) : Wi8 m c (Proc.devRef .tc main_v5) = Wi6 m c (Proc.devRef .tc main_v5) :=
  (hostOps5_keep (Wi7 m c) main_v5 (by decide)).trans ((Wout4_of_ne (Wi6 m) c main_v5 (by decide)))
theorem keep_main_v6_8_7 (c : Dev nD) : Wi8 m c (Proc.devRef .tc main_v6) = Wi7 m c (Proc.devRef .tc main_v6) :=
  (hostOps5_keep (Wi7 m c) main_v6 (by decide))
theorem keep_main_v9_1_11_9 (c : Dev nD) : Wi11 m c (Proc.devRef .tc main_v9_1) = Wi9 m c (Proc.devRef .tc main_v9_1) :=
  (hostOps7_keep (Wi10 m c) main_v9_1 (by decide)).trans ((Wout6_main_v9_1 (Wi9 m) c))
theorem keep_main_v9_1_12_9 (c : Dev nD) : Wi12 m c (Proc.devRef .tc main_v9_1) = Wi9 m c (Proc.devRef .tc main_v9_1) :=
  (Wout7_main_v9_1 (Wi11 m) c).trans ((hostOps7_keep (Wi10 m c) main_v9_1 (by decide)).trans ((Wout6_main_v9_1 (Wi9 m) c)))
theorem keep_main_v10_13_10 (c : Dev nD) : Wi13 m c (Proc.devRef .tc main_v10) = Wi10 m c (Proc.devRef .tc main_v10) :=
  (Wout8_of_ne (Wi12 m) c main_v10 (by decide)).trans ((Wout7_of_ne (Wi11 m) c main_v10 (by decide)).trans ((hostOps7_keep (Wi10 m c) main_v10 (by decide))))
theorem keep_main_arg0_2_0 (c : Dev nD) : Wi2 m c (Proc.devRef .tc main_arg0) = Wi0 m c (Proc.devRef .tc main_arg0) :=
  (hostOps1_keep (Wi1 m c) main_arg0 (by decide)).trans ((Wout0_of_ne (Wi0 m) c main_arg0 (by decide)))
theorem keep_main_arg2_2_0 (c : Dev nD) : Wi2 m c (Proc.devRef .tc main_arg2) = Wi0 m c (Proc.devRef .tc main_arg2) :=
  (hostOps1_keep (Wi1 m c) main_arg2 (by decide)).trans ((Wout0_of_ne (Wi0 m) c main_arg2 (by decide)))
theorem keep_main_arg3_3_0 (c : Dev nD) : Wi3 m c (Proc.devRef .tc main_arg3) = Wi0 m c (Proc.devRef .tc main_arg3) :=
  (Wout1_of_ne (Wi2 m) c main_arg3 (by decide)).trans ((hostOps1_keep (Wi1 m c) main_arg3 (by decide)).trans ((Wout0_of_ne (Wi0 m) c main_arg3 (by decide))))
theorem keep_main_arg4_5_0 (c : Dev nD) : Wi5 m c (Proc.devRef .tc main_arg4) = Wi0 m c (Proc.devRef .tc main_arg4) :=
  (Wout2_of_ne (Wi4 m) c main_arg4 (by decide)).trans ((hostOps2_keep (Wi3 m c) main_arg4 (by decide)).trans ((Wout1_of_ne (Wi2 m) c main_arg4 (by decide)).trans ((hostOps1_keep (Wi1 m c) main_arg4 (by decide)).trans ((Wout0_of_ne (Wi0 m) c main_arg4 (by decide))))))
theorem keep_main_arg6_6_0 (c : Dev nD) : Wi6 m c (Proc.devRef .tc main_arg6) = Wi0 m c (Proc.devRef .tc main_arg6) :=
  (Wout3_of_ne (Wi5 m) c main_arg6 (by decide)).trans ((Wout2_of_ne (Wi4 m) c main_arg6 (by decide)).trans ((hostOps2_keep (Wi3 m c) main_arg6 (by decide)).trans ((Wout1_of_ne (Wi2 m) c main_arg6 (by decide)).trans ((hostOps1_keep (Wi1 m c) main_arg6 (by decide)).trans ((Wout0_of_ne (Wi0 m) c main_arg6 (by decide)))))))
theorem keep_main_arg5_7_0 (c : Dev nD) : Wi7 m c (Proc.devRef .tc main_arg5) = Wi0 m c (Proc.devRef .tc main_arg5) :=
  (Wout4_of_ne (Wi6 m) c main_arg5 (by decide)).trans ((Wout3_of_ne (Wi5 m) c main_arg5 (by decide)).trans ((Wout2_of_ne (Wi4 m) c main_arg5 (by decide)).trans ((hostOps2_keep (Wi3 m c) main_arg5 (by decide)).trans ((Wout1_of_ne (Wi2 m) c main_arg5 (by decide)).trans ((hostOps1_keep (Wi1 m c) main_arg5 (by decide)).trans ((Wout0_of_ne (Wi0 m) c main_arg5 (by decide))))))))
theorem keep_main_arg7_7_0 (c : Dev nD) : Wi7 m c (Proc.devRef .tc main_arg7) = Wi0 m c (Proc.devRef .tc main_arg7) :=
  (Wout4_of_ne (Wi6 m) c main_arg7 (by decide)).trans ((Wout3_of_ne (Wi5 m) c main_arg7 (by decide)).trans ((Wout2_of_ne (Wi4 m) c main_arg7 (by decide)).trans ((hostOps2_keep (Wi3 m c) main_arg7 (by decide)).trans ((Wout1_of_ne (Wi2 m) c main_arg7 (by decide)).trans ((hostOps1_keep (Wi1 m c) main_arg7 (by decide)).trans ((Wout0_of_ne (Wi0 m) c main_arg7 (by decide))))))))
theorem keep_main_arg8_13_0 (c : Dev nD) : Wi13 m c (Proc.devRef .tc main_arg8) = Wi0 m c (Proc.devRef .tc main_arg8) :=
  (Wout8_of_ne (Wi12 m) c main_arg8 (by decide)).trans ((Wout7_of_ne (Wi11 m) c main_arg8 (by decide)).trans ((hostOps7_keep (Wi10 m c) main_arg8 (by decide)).trans ((Wout6_of_ne (Wi9 m) c main_arg8 (by decide)).trans ((Wout5_of_ne (Wi8 m) c main_arg8 (by decide)).trans ((hostOps5_keep (Wi7 m c) main_arg8 (by decide)).trans ((Wout4_of_ne (Wi6 m) c main_arg8 (by decide)).trans ((Wout3_of_ne (Wi5 m) c main_arg8 (by decide)).trans ((Wout2_of_ne (Wi4 m) c main_arg8 (by decide)).trans ((hostOps2_keep (Wi3 m c) main_arg8 (by decide)).trans ((Wout1_of_ne (Wi2 m) c main_arg8 (by decide)).trans ((hostOps1_keep (Wi1 m c) main_arg8 (by decide)).trans ((Wout0_of_ne (Wi0 m) c main_arg8 (by decide))))))))))))))
theorem keep_main_arg9_13_0 (c : Dev nD) : Wi13 m c (Proc.devRef .tc main_arg9) = Wi0 m c (Proc.devRef .tc main_arg9) :=
  (Wout8_of_ne (Wi12 m) c main_arg9 (by decide)).trans ((Wout7_of_ne (Wi11 m) c main_arg9 (by decide)).trans ((hostOps7_keep (Wi10 m c) main_arg9 (by decide)).trans ((Wout6_of_ne (Wi9 m) c main_arg9 (by decide)).trans ((Wout5_of_ne (Wi8 m) c main_arg9 (by decide)).trans ((hostOps5_keep (Wi7 m c) main_arg9 (by decide)).trans ((Wout4_of_ne (Wi6 m) c main_arg9 (by decide)).trans ((Wout3_of_ne (Wi5 m) c main_arg9 (by decide)).trans ((Wout2_of_ne (Wi4 m) c main_arg9 (by decide)).trans ((hostOps2_keep (Wi3 m c) main_arg9 (by decide)).trans ((Wout1_of_ne (Wi2 m) c main_arg9 (by decide)).trans ((hostOps1_keep (Wi1 m c) main_arg9 (by decide)).trans ((Wout0_of_ne (Wi0 m) c main_arg9 (by decide))))))))))))))
theorem keep_main_arg10_13_0 (c : Dev nD) : Wi13 m c (Proc.devRef .tc main_arg10) = Wi0 m c (Proc.devRef .tc main_arg10) :=
  (Wout8_of_ne (Wi12 m) c main_arg10 (by decide)).trans ((Wout7_of_ne (Wi11 m) c main_arg10 (by decide)).trans ((hostOps7_keep (Wi10 m c) main_arg10 (by decide)).trans ((Wout6_of_ne (Wi9 m) c main_arg10 (by decide)).trans ((Wout5_of_ne (Wi8 m) c main_arg10 (by decide)).trans ((hostOps5_keep (Wi7 m c) main_arg10 (by decide)).trans ((Wout4_of_ne (Wi6 m) c main_arg10 (by decide)).trans ((Wout3_of_ne (Wi5 m) c main_arg10 (by decide)).trans ((Wout2_of_ne (Wi4 m) c main_arg10 (by decide)).trans ((hostOps2_keep (Wi3 m c) main_arg10 (by decide)).trans ((Wout1_of_ne (Wi2 m) c main_arg10 (by decide)).trans ((hostOps1_keep (Wi1 m c) main_arg10 (by decide)).trans ((Wout0_of_ne (Wi0 m) c main_arg10 (by decide))))))))))))))
theorem keep_main_arg11_13_0 (c : Dev nD) : Wi13 m c (Proc.devRef .tc main_arg11) = Wi0 m c (Proc.devRef .tc main_arg11) :=
  (Wout8_of_ne (Wi12 m) c main_arg11 (by decide)).trans ((Wout7_of_ne (Wi11 m) c main_arg11 (by decide)).trans ((hostOps7_keep (Wi10 m c) main_arg11 (by decide)).trans ((Wout6_of_ne (Wi9 m) c main_arg11 (by decide)).trans ((Wout5_of_ne (Wi8 m) c main_arg11 (by decide)).trans ((hostOps5_keep (Wi7 m c) main_arg11 (by decide)).trans ((Wout4_of_ne (Wi6 m) c main_arg11 (by decide)).trans ((Wout3_of_ne (Wi5 m) c main_arg11 (by decide)).trans ((Wout2_of_ne (Wi4 m) c main_arg11 (by decide)).trans ((hostOps2_keep (Wi3 m c) main_arg11 (by decide)).trans ((Wout1_of_ne (Wi2 m) c main_arg11 (by decide)).trans ((hostOps1_keep (Wi1 m c) main_arg11 (by decide)).trans ((Wout0_of_ne (Wi0 m) c main_arg11 (by decide))))))))))))))
theorem keep_main_arg12_13_0 (c : Dev nD) : Wi13 m c (Proc.devRef .tc main_arg12) = Wi0 m c (Proc.devRef .tc main_arg12) :=
  (Wout8_of_ne (Wi12 m) c main_arg12 (by decide)).trans ((Wout7_of_ne (Wi11 m) c main_arg12 (by decide)).trans ((hostOps7_keep (Wi10 m c) main_arg12 (by decide)).trans ((Wout6_of_ne (Wi9 m) c main_arg12 (by decide)).trans ((Wout5_of_ne (Wi8 m) c main_arg12 (by decide)).trans ((hostOps5_keep (Wi7 m c) main_arg12 (by decide)).trans ((Wout4_of_ne (Wi6 m) c main_arg12 (by decide)).trans ((Wout3_of_ne (Wi5 m) c main_arg12 (by decide)).trans ((Wout2_of_ne (Wi4 m) c main_arg12 (by decide)).trans ((hostOps2_keep (Wi3 m c) main_arg12 (by decide)).trans ((Wout1_of_ne (Wi2 m) c main_arg12 (by decide)).trans ((hostOps1_keep (Wi1 m c) main_arg12 (by decide)).trans ((Wout0_of_ne (Wi0 m) c main_arg12 (by decide))))))))))))))
theorem keep_main_arg13_13_0 (c : Dev nD) : Wi13 m c (Proc.devRef .tc main_arg13) = Wi0 m c (Proc.devRef .tc main_arg13) :=
  (Wout8_of_ne (Wi12 m) c main_arg13 (by decide)).trans ((Wout7_of_ne (Wi11 m) c main_arg13 (by decide)).trans ((hostOps7_keep (Wi10 m c) main_arg13 (by decide)).trans ((Wout6_of_ne (Wi9 m) c main_arg13 (by decide)).trans ((Wout5_of_ne (Wi8 m) c main_arg13 (by decide)).trans ((hostOps5_keep (Wi7 m c) main_arg13 (by decide)).trans ((Wout4_of_ne (Wi6 m) c main_arg13 (by decide)).trans ((Wout3_of_ne (Wi5 m) c main_arg13 (by decide)).trans ((Wout2_of_ne (Wi4 m) c main_arg13 (by decide)).trans ((hostOps2_keep (Wi3 m c) main_arg13 (by decide)).trans ((Wout1_of_ne (Wi2 m) c main_arg13 (by decide)).trans ((hostOps1_keep (Wi1 m c) main_arg13 (by decide)).trans ((Wout0_of_ne (Wi0 m) c main_arg13 (by decide))))))))))))))
theorem keep_main_arg14_13_0 (c : Dev nD) : Wi13 m c (Proc.devRef .tc main_arg14) = Wi0 m c (Proc.devRef .tc main_arg14) :=
  (Wout8_of_ne (Wi12 m) c main_arg14 (by decide)).trans ((Wout7_of_ne (Wi11 m) c main_arg14 (by decide)).trans ((hostOps7_keep (Wi10 m c) main_arg14 (by decide)).trans ((Wout6_of_ne (Wi9 m) c main_arg14 (by decide)).trans ((Wout5_of_ne (Wi8 m) c main_arg14 (by decide)).trans ((hostOps5_keep (Wi7 m c) main_arg14 (by decide)).trans ((Wout4_of_ne (Wi6 m) c main_arg14 (by decide)).trans ((Wout3_of_ne (Wi5 m) c main_arg14 (by decide)).trans ((Wout2_of_ne (Wi4 m) c main_arg14 (by decide)).trans ((hostOps2_keep (Wi3 m c) main_arg14 (by decide)).trans ((Wout1_of_ne (Wi2 m) c main_arg14 (by decide)).trans ((hostOps1_keep (Wi1 m c) main_arg14 (by decide)).trans ((Wout0_of_ne (Wi0 m) c main_arg14 (by decide))))))))))))))
theorem keep_main_arg15_13_0 (c : Dev nD) : Wi13 m c (Proc.devRef .tc main_arg15) = Wi0 m c (Proc.devRef .tc main_arg15) :=
  (Wout8_of_ne (Wi12 m) c main_arg15 (by decide)).trans ((Wout7_of_ne (Wi11 m) c main_arg15 (by decide)).trans ((hostOps7_keep (Wi10 m c) main_arg15 (by decide)).trans ((Wout6_of_ne (Wi9 m) c main_arg15 (by decide)).trans ((Wout5_of_ne (Wi8 m) c main_arg15 (by decide)).trans ((hostOps5_keep (Wi7 m c) main_arg15 (by decide)).trans ((Wout4_of_ne (Wi6 m) c main_arg15 (by decide)).trans ((Wout3_of_ne (Wi5 m) c main_arg15 (by decide)).trans ((Wout2_of_ne (Wi4 m) c main_arg15 (by decide)).trans ((hostOps2_keep (Wi3 m c) main_arg15 (by decide)).trans ((Wout1_of_ne (Wi2 m) c main_arg15 (by decide)).trans ((hostOps1_keep (Wi1 m c) main_arg15 (by decide)).trans ((Wout0_of_ne (Wi0 m) c main_arg15 (by decide))))))))))))))
theorem keep_main_arg16_13_0 (c : Dev nD) : Wi13 m c (Proc.devRef .tc main_arg16) = Wi0 m c (Proc.devRef .tc main_arg16) :=
  (Wout8_of_ne (Wi12 m) c main_arg16 (by decide)).trans ((Wout7_of_ne (Wi11 m) c main_arg16 (by decide)).trans ((hostOps7_keep (Wi10 m c) main_arg16 (by decide)).trans ((Wout6_of_ne (Wi9 m) c main_arg16 (by decide)).trans ((Wout5_of_ne (Wi8 m) c main_arg16 (by decide)).trans ((hostOps5_keep (Wi7 m c) main_arg16 (by decide)).trans ((Wout4_of_ne (Wi6 m) c main_arg16 (by decide)).trans ((Wout3_of_ne (Wi5 m) c main_arg16 (by decide)).trans ((Wout2_of_ne (Wi4 m) c main_arg16 (by decide)).trans ((hostOps2_keep (Wi3 m c) main_arg16 (by decide)).trans ((Wout1_of_ne (Wi2 m) c main_arg16 (by decide)).trans ((hostOps1_keep (Wi1 m c) main_arg16 (by decide)).trans ((Wout0_of_ne (Wi0 m) c main_arg16 (by decide))))))))))))))
theorem keep_main_arg17_13_0 (c : Dev nD) : Wi13 m c (Proc.devRef .tc main_arg17) = Wi0 m c (Proc.devRef .tc main_arg17) :=
  (Wout8_of_ne (Wi12 m) c main_arg17 (by decide)).trans ((Wout7_of_ne (Wi11 m) c main_arg17 (by decide)).trans ((hostOps7_keep (Wi10 m c) main_arg17 (by decide)).trans ((Wout6_of_ne (Wi9 m) c main_arg17 (by decide)).trans ((Wout5_of_ne (Wi8 m) c main_arg17 (by decide)).trans ((hostOps5_keep (Wi7 m c) main_arg17 (by decide)).trans ((Wout4_of_ne (Wi6 m) c main_arg17 (by decide)).trans ((Wout3_of_ne (Wi5 m) c main_arg17 (by decide)).trans ((Wout2_of_ne (Wi4 m) c main_arg17 (by decide)).trans ((hostOps2_keep (Wi3 m c) main_arg17 (by decide)).trans ((Wout1_of_ne (Wi2 m) c main_arg17 (by decide)).trans ((hostOps1_keep (Wi1 m c) main_arg17 (by decide)).trans ((Wout0_of_ne (Wi0 m) c main_arg17 (by decide))))))))))))))
theorem keep_main_arg18_13_0 (c : Dev nD) : Wi13 m c (Proc.devRef .tc main_arg18) = Wi0 m c (Proc.devRef .tc main_arg18) :=
  (Wout8_of_ne (Wi12 m) c main_arg18 (by decide)).trans ((Wout7_of_ne (Wi11 m) c main_arg18 (by decide)).trans ((hostOps7_keep (Wi10 m c) main_arg18 (by decide)).trans ((Wout6_of_ne (Wi9 m) c main_arg18 (by decide)).trans ((Wout5_of_ne (Wi8 m) c main_arg18 (by decide)).trans ((hostOps5_keep (Wi7 m c) main_arg18 (by decide)).trans ((Wout4_of_ne (Wi6 m) c main_arg18 (by decide)).trans ((Wout3_of_ne (Wi5 m) c main_arg18 (by decide)).trans ((Wout2_of_ne (Wi4 m) c main_arg18 (by decide)).trans ((hostOps2_keep (Wi3 m c) main_arg18 (by decide)).trans ((Wout1_of_ne (Wi2 m) c main_arg18 (by decide)).trans ((hostOps1_keep (Wi1 m c) main_arg18 (by decide)).trans ((Wout0_of_ne (Wi0 m) c main_arg18 (by decide))))))))))))))
theorem keep_main_arg19_13_0 (c : Dev nD) : Wi13 m c (Proc.devRef .tc main_arg19) = Wi0 m c (Proc.devRef .tc main_arg19) :=
  (Wout8_of_ne (Wi12 m) c main_arg19 (by decide)).trans ((Wout7_of_ne (Wi11 m) c main_arg19 (by decide)).trans ((hostOps7_keep (Wi10 m c) main_arg19 (by decide)).trans ((Wout6_of_ne (Wi9 m) c main_arg19 (by decide)).trans ((Wout5_of_ne (Wi8 m) c main_arg19 (by decide)).trans ((hostOps5_keep (Wi7 m c) main_arg19 (by decide)).trans ((Wout4_of_ne (Wi6 m) c main_arg19 (by decide)).trans ((Wout3_of_ne (Wi5 m) c main_arg19 (by decide)).trans ((Wout2_of_ne (Wi4 m) c main_arg19 (by decide)).trans ((hostOps2_keep (Wi3 m c) main_arg19 (by decide)).trans ((Wout1_of_ne (Wi2 m) c main_arg19 (by decide)).trans ((hostOps1_keep (Wi1 m c) main_arg19 (by decide)).trans ((Wout0_of_ne (Wi0 m) c main_arg19 (by decide))))))))))))))
theorem keep_main_arg20_13_0 (c : Dev nD) : Wi13 m c (Proc.devRef .tc main_arg20) = Wi0 m c (Proc.devRef .tc main_arg20) :=
  (Wout8_of_ne (Wi12 m) c main_arg20 (by decide)).trans ((Wout7_of_ne (Wi11 m) c main_arg20 (by decide)).trans ((hostOps7_keep (Wi10 m c) main_arg20 (by decide)).trans ((Wout6_of_ne (Wi9 m) c main_arg20 (by decide)).trans ((Wout5_of_ne (Wi8 m) c main_arg20 (by decide)).trans ((hostOps5_keep (Wi7 m c) main_arg20 (by decide)).trans ((Wout4_of_ne (Wi6 m) c main_arg20 (by decide)).trans ((Wout3_of_ne (Wi5 m) c main_arg20 (by decide)).trans ((Wout2_of_ne (Wi4 m) c main_arg20 (by decide)).trans ((hostOps2_keep (Wi3 m c) main_arg20 (by decide)).trans ((Wout1_of_ne (Wi2 m) c main_arg20 (by decide)).trans ((hostOps1_keep (Wi1 m c) main_arg20 (by decide)).trans ((Wout0_of_ne (Wi0 m) c main_arg20 (by decide))))))))))))))
theorem keep_main_arg21_13_0 (c : Dev nD) : Wi13 m c (Proc.devRef .tc main_arg21) = Wi0 m c (Proc.devRef .tc main_arg21) :=
  (Wout8_of_ne (Wi12 m) c main_arg21 (by decide)).trans ((Wout7_of_ne (Wi11 m) c main_arg21 (by decide)).trans ((hostOps7_keep (Wi10 m c) main_arg21 (by decide)).trans ((Wout6_of_ne (Wi9 m) c main_arg21 (by decide)).trans ((Wout5_of_ne (Wi8 m) c main_arg21 (by decide)).trans ((hostOps5_keep (Wi7 m c) main_arg21 (by decide)).trans ((Wout4_of_ne (Wi6 m) c main_arg21 (by decide)).trans ((Wout3_of_ne (Wi5 m) c main_arg21 (by decide)).trans ((Wout2_of_ne (Wi4 m) c main_arg21 (by decide)).trans ((hostOps2_keep (Wi3 m c) main_arg21 (by decide)).trans ((Wout1_of_ne (Wi2 m) c main_arg21 (by decide)).trans ((hostOps1_keep (Wi1 m c) main_arg21 (by decide)).trans ((Wout0_of_ne (Wi0 m) c main_arg21 (by decide))))))))))))))

/-! ## The arguments at the end -/

theorem Wi15_main_arg0 (c : Dev nD) : Wi15 m c (Proc.devRef .tc main_arg0) = m ((c : Thread nD τ).loc main_arg0) :=
  ((hostOps9_1_keep (Wi14 m c) main_arg0 (by decide)).trans ((hostOps9_keep (Wi13 m c) main_arg0 (by decide)).trans ((Wout8_of_ne (Wi12 m) c main_arg0 (by decide)).trans ((Wout7_of_ne (Wi11 m) c main_arg0 (by decide)).trans ((hostOps7_keep (Wi10 m c) main_arg0 (by decide)).trans ((Wout6_of_ne (Wi9 m) c main_arg0 (by decide)).trans ((Wout5_of_ne (Wi8 m) c main_arg0 (by decide)).trans ((hostOps5_keep (Wi7 m c) main_arg0 (by decide)).trans ((Wout4_of_ne (Wi6 m) c main_arg0 (by decide)).trans ((Wout3_of_ne (Wi5 m) c main_arg0 (by decide)).trans ((Wout2_of_ne (Wi4 m) c main_arg0 (by decide)).trans ((hostOps2_keep (Wi3 m c) main_arg0 (by decide)).trans ((Wout1_main_arg0 (Wi2 m) c).trans ((hostOps1_keep (Wi1 m c) main_arg0 (by decide)).trans ((Wout0_of_ne (Wi0 m) c main_arg0 (by decide))))))))))))))))).trans rfl
theorem Wi15_main_arg1 (c : Dev nD) : Wi15 m c (Proc.devRef .tc main_arg1) = m ((c : Thread nD τ).loc main_arg1) :=
  ((hostOps9_1_keep (Wi14 m c) main_arg1 (by decide)).trans ((hostOps9_keep (Wi13 m c) main_arg1 (by decide)).trans ((Wout8_of_ne (Wi12 m) c main_arg1 (by decide)).trans ((Wout7_of_ne (Wi11 m) c main_arg1 (by decide)).trans ((hostOps7_keep (Wi10 m c) main_arg1 (by decide)).trans ((Wout6_of_ne (Wi9 m) c main_arg1 (by decide)).trans ((Wout5_of_ne (Wi8 m) c main_arg1 (by decide)).trans ((hostOps5_keep (Wi7 m c) main_arg1 (by decide)).trans ((Wout4_of_ne (Wi6 m) c main_arg1 (by decide)).trans ((Wout3_of_ne (Wi5 m) c main_arg1 (by decide)).trans ((Wout2_of_ne (Wi4 m) c main_arg1 (by decide)).trans ((hostOps2_keep (Wi3 m c) main_arg1 (by decide)).trans ((Wout1_of_ne (Wi2 m) c main_arg1 (by decide)).trans ((hostOps1_keep (Wi1 m c) main_arg1 (by decide)).trans ((Wout0_main_arg1 (Wi0 m) c)))))))))))))))).trans rfl
theorem Wi15_main_arg2 (c : Dev nD) : Wi15 m c (Proc.devRef .tc main_arg2) = m ((c : Thread nD τ).loc main_arg2) :=
  ((hostOps9_1_keep (Wi14 m c) main_arg2 (by decide)).trans ((hostOps9_keep (Wi13 m c) main_arg2 (by decide)).trans ((Wout8_of_ne (Wi12 m) c main_arg2 (by decide)).trans ((Wout7_of_ne (Wi11 m) c main_arg2 (by decide)).trans ((hostOps7_keep (Wi10 m c) main_arg2 (by decide)).trans ((Wout6_of_ne (Wi9 m) c main_arg2 (by decide)).trans ((Wout5_of_ne (Wi8 m) c main_arg2 (by decide)).trans ((hostOps5_keep (Wi7 m c) main_arg2 (by decide)).trans ((Wout4_of_ne (Wi6 m) c main_arg2 (by decide)).trans ((Wout3_of_ne (Wi5 m) c main_arg2 (by decide)).trans ((Wout2_of_ne (Wi4 m) c main_arg2 (by decide)).trans ((hostOps2_keep (Wi3 m c) main_arg2 (by decide)).trans ((Wout1_main_arg2 (Wi2 m) c).trans ((hostOps1_keep (Wi1 m c) main_arg2 (by decide)).trans ((Wout0_of_ne (Wi0 m) c main_arg2 (by decide))))))))))))))))).trans rfl
theorem Wi15_main_arg3 (c : Dev nD) : Wi15 m c (Proc.devRef .tc main_arg3) = m ((c : Thread nD τ).loc main_arg3) :=
  ((hostOps9_1_keep (Wi14 m c) main_arg3 (by decide)).trans ((hostOps9_keep (Wi13 m c) main_arg3 (by decide)).trans ((Wout8_of_ne (Wi12 m) c main_arg3 (by decide)).trans ((Wout7_of_ne (Wi11 m) c main_arg3 (by decide)).trans ((hostOps7_keep (Wi10 m c) main_arg3 (by decide)).trans ((Wout6_of_ne (Wi9 m) c main_arg3 (by decide)).trans ((Wout5_of_ne (Wi8 m) c main_arg3 (by decide)).trans ((hostOps5_keep (Wi7 m c) main_arg3 (by decide)).trans ((Wout4_of_ne (Wi6 m) c main_arg3 (by decide)).trans ((Wout3_of_ne (Wi5 m) c main_arg3 (by decide)).trans ((Wout2_of_ne (Wi4 m) c main_arg3 (by decide)).trans ((hostOps2_keep (Wi3 m c) main_arg3 (by decide)).trans ((Wout1_of_ne (Wi2 m) c main_arg3 (by decide)).trans ((hostOps1_keep (Wi1 m c) main_arg3 (by decide)).trans ((Wout0_of_ne (Wi0 m) c main_arg3 (by decide))))))))))))))))).trans rfl
theorem Wi15_main_arg4 (c : Dev nD) : Wi15 m c (Proc.devRef .tc main_arg4) = m ((c : Thread nD τ).loc main_arg4) :=
  ((hostOps9_1_keep (Wi14 m c) main_arg4 (by decide)).trans ((hostOps9_keep (Wi13 m c) main_arg4 (by decide)).trans ((Wout8_of_ne (Wi12 m) c main_arg4 (by decide)).trans ((Wout7_of_ne (Wi11 m) c main_arg4 (by decide)).trans ((hostOps7_keep (Wi10 m c) main_arg4 (by decide)).trans ((Wout6_of_ne (Wi9 m) c main_arg4 (by decide)).trans ((Wout5_of_ne (Wi8 m) c main_arg4 (by decide)).trans ((hostOps5_keep (Wi7 m c) main_arg4 (by decide)).trans ((Wout4_of_ne (Wi6 m) c main_arg4 (by decide)).trans ((Wout3_main_arg4 (Wi5 m) c).trans ((Wout2_of_ne (Wi4 m) c main_arg4 (by decide)).trans ((hostOps2_keep (Wi3 m c) main_arg4 (by decide)).trans ((Wout1_of_ne (Wi2 m) c main_arg4 (by decide)).trans ((hostOps1_keep (Wi1 m c) main_arg4 (by decide)).trans ((Wout0_of_ne (Wi0 m) c main_arg4 (by decide))))))))))))))))).trans rfl
theorem Wi15_main_arg5 (c : Dev nD) : Wi15 m c (Proc.devRef .tc main_arg5) = m ((c : Thread nD τ).loc main_arg5) :=
  ((hostOps9_1_keep (Wi14 m c) main_arg5 (by decide)).trans ((hostOps9_keep (Wi13 m c) main_arg5 (by decide)).trans ((Wout8_of_ne (Wi12 m) c main_arg5 (by decide)).trans ((Wout7_of_ne (Wi11 m) c main_arg5 (by decide)).trans ((hostOps7_keep (Wi10 m c) main_arg5 (by decide)).trans ((Wout6_of_ne (Wi9 m) c main_arg5 (by decide)).trans ((Wout5_of_ne (Wi8 m) c main_arg5 (by decide)).trans ((hostOps5_keep (Wi7 m c) main_arg5 (by decide)).trans ((Wout4_of_ne (Wi6 m) c main_arg5 (by decide)).trans ((Wout3_of_ne (Wi5 m) c main_arg5 (by decide)).trans ((Wout2_of_ne (Wi4 m) c main_arg5 (by decide)).trans ((hostOps2_keep (Wi3 m c) main_arg5 (by decide)).trans ((Wout1_of_ne (Wi2 m) c main_arg5 (by decide)).trans ((hostOps1_keep (Wi1 m c) main_arg5 (by decide)).trans ((Wout0_of_ne (Wi0 m) c main_arg5 (by decide))))))))))))))))).trans rfl
theorem Wi15_main_arg6 (c : Dev nD) : Wi15 m c (Proc.devRef .tc main_arg6) = m ((c : Thread nD τ).loc main_arg6) :=
  ((hostOps9_1_keep (Wi14 m c) main_arg6 (by decide)).trans ((hostOps9_keep (Wi13 m c) main_arg6 (by decide)).trans ((Wout8_of_ne (Wi12 m) c main_arg6 (by decide)).trans ((Wout7_of_ne (Wi11 m) c main_arg6 (by decide)).trans ((hostOps7_keep (Wi10 m c) main_arg6 (by decide)).trans ((Wout6_of_ne (Wi9 m) c main_arg6 (by decide)).trans ((Wout5_of_ne (Wi8 m) c main_arg6 (by decide)).trans ((hostOps5_keep (Wi7 m c) main_arg6 (by decide)).trans ((Wout4_main_arg6 (Wi6 m) c).trans ((Wout3_of_ne (Wi5 m) c main_arg6 (by decide)).trans ((Wout2_of_ne (Wi4 m) c main_arg6 (by decide)).trans ((hostOps2_keep (Wi3 m c) main_arg6 (by decide)).trans ((Wout1_of_ne (Wi2 m) c main_arg6 (by decide)).trans ((hostOps1_keep (Wi1 m c) main_arg6 (by decide)).trans ((Wout0_of_ne (Wi0 m) c main_arg6 (by decide))))))))))))))))).trans rfl
theorem Wi15_main_arg7 (c : Dev nD) : Wi15 m c (Proc.devRef .tc main_arg7) = m ((c : Thread nD τ).loc main_arg7) :=
  ((hostOps9_1_keep (Wi14 m c) main_arg7 (by decide)).trans ((hostOps9_keep (Wi13 m c) main_arg7 (by decide)).trans ((Wout8_of_ne (Wi12 m) c main_arg7 (by decide)).trans ((Wout7_of_ne (Wi11 m) c main_arg7 (by decide)).trans ((hostOps7_keep (Wi10 m c) main_arg7 (by decide)).trans ((Wout6_of_ne (Wi9 m) c main_arg7 (by decide)).trans ((Wout5_of_ne (Wi8 m) c main_arg7 (by decide)).trans ((hostOps5_keep (Wi7 m c) main_arg7 (by decide)).trans ((Wout4_of_ne (Wi6 m) c main_arg7 (by decide)).trans ((Wout3_of_ne (Wi5 m) c main_arg7 (by decide)).trans ((Wout2_of_ne (Wi4 m) c main_arg7 (by decide)).trans ((hostOps2_keep (Wi3 m c) main_arg7 (by decide)).trans ((Wout1_of_ne (Wi2 m) c main_arg7 (by decide)).trans ((hostOps1_keep (Wi1 m c) main_arg7 (by decide)).trans ((Wout0_of_ne (Wi0 m) c main_arg7 (by decide))))))))))))))))).trans rfl
theorem Wi15_main_arg8 (c : Dev nD) : Wi15 m c (Proc.devRef .tc main_arg8) = m ((c : Thread nD τ).loc main_arg8) :=
  ((hostOps9_1_keep (Wi14 m c) main_arg8 (by decide)).trans ((hostOps9_keep (Wi13 m c) main_arg8 (by decide)).trans ((Wout8_of_ne (Wi12 m) c main_arg8 (by decide)).trans ((Wout7_of_ne (Wi11 m) c main_arg8 (by decide)).trans ((hostOps7_keep (Wi10 m c) main_arg8 (by decide)).trans ((Wout6_of_ne (Wi9 m) c main_arg8 (by decide)).trans ((Wout5_of_ne (Wi8 m) c main_arg8 (by decide)).trans ((hostOps5_keep (Wi7 m c) main_arg8 (by decide)).trans ((Wout4_of_ne (Wi6 m) c main_arg8 (by decide)).trans ((Wout3_of_ne (Wi5 m) c main_arg8 (by decide)).trans ((Wout2_of_ne (Wi4 m) c main_arg8 (by decide)).trans ((hostOps2_keep (Wi3 m c) main_arg8 (by decide)).trans ((Wout1_of_ne (Wi2 m) c main_arg8 (by decide)).trans ((hostOps1_keep (Wi1 m c) main_arg8 (by decide)).trans ((Wout0_of_ne (Wi0 m) c main_arg8 (by decide))))))))))))))))).trans rfl
theorem Wi15_main_arg9 (c : Dev nD) : Wi15 m c (Proc.devRef .tc main_arg9) = m ((c : Thread nD τ).loc main_arg9) :=
  ((hostOps9_1_keep (Wi14 m c) main_arg9 (by decide)).trans ((hostOps9_keep (Wi13 m c) main_arg9 (by decide)).trans ((Wout8_of_ne (Wi12 m) c main_arg9 (by decide)).trans ((Wout7_of_ne (Wi11 m) c main_arg9 (by decide)).trans ((hostOps7_keep (Wi10 m c) main_arg9 (by decide)).trans ((Wout6_of_ne (Wi9 m) c main_arg9 (by decide)).trans ((Wout5_of_ne (Wi8 m) c main_arg9 (by decide)).trans ((hostOps5_keep (Wi7 m c) main_arg9 (by decide)).trans ((Wout4_of_ne (Wi6 m) c main_arg9 (by decide)).trans ((Wout3_of_ne (Wi5 m) c main_arg9 (by decide)).trans ((Wout2_of_ne (Wi4 m) c main_arg9 (by decide)).trans ((hostOps2_keep (Wi3 m c) main_arg9 (by decide)).trans ((Wout1_of_ne (Wi2 m) c main_arg9 (by decide)).trans ((hostOps1_keep (Wi1 m c) main_arg9 (by decide)).trans ((Wout0_of_ne (Wi0 m) c main_arg9 (by decide))))))))))))))))).trans rfl
theorem Wi15_main_arg10 (c : Dev nD) : Wi15 m c (Proc.devRef .tc main_arg10) = m ((c : Thread nD τ).loc main_arg10) :=
  ((hostOps9_1_keep (Wi14 m c) main_arg10 (by decide)).trans ((hostOps9_keep (Wi13 m c) main_arg10 (by decide)).trans ((Wout8_of_ne (Wi12 m) c main_arg10 (by decide)).trans ((Wout7_of_ne (Wi11 m) c main_arg10 (by decide)).trans ((hostOps7_keep (Wi10 m c) main_arg10 (by decide)).trans ((Wout6_of_ne (Wi9 m) c main_arg10 (by decide)).trans ((Wout5_of_ne (Wi8 m) c main_arg10 (by decide)).trans ((hostOps5_keep (Wi7 m c) main_arg10 (by decide)).trans ((Wout4_of_ne (Wi6 m) c main_arg10 (by decide)).trans ((Wout3_of_ne (Wi5 m) c main_arg10 (by decide)).trans ((Wout2_of_ne (Wi4 m) c main_arg10 (by decide)).trans ((hostOps2_keep (Wi3 m c) main_arg10 (by decide)).trans ((Wout1_of_ne (Wi2 m) c main_arg10 (by decide)).trans ((hostOps1_keep (Wi1 m c) main_arg10 (by decide)).trans ((Wout0_of_ne (Wi0 m) c main_arg10 (by decide))))))))))))))))).trans rfl
theorem Wi15_main_arg11 (c : Dev nD) : Wi15 m c (Proc.devRef .tc main_arg11) = m ((c : Thread nD τ).loc main_arg11) :=
  ((hostOps9_1_keep (Wi14 m c) main_arg11 (by decide)).trans ((hostOps9_keep (Wi13 m c) main_arg11 (by decide)).trans ((Wout8_of_ne (Wi12 m) c main_arg11 (by decide)).trans ((Wout7_of_ne (Wi11 m) c main_arg11 (by decide)).trans ((hostOps7_keep (Wi10 m c) main_arg11 (by decide)).trans ((Wout6_of_ne (Wi9 m) c main_arg11 (by decide)).trans ((Wout5_of_ne (Wi8 m) c main_arg11 (by decide)).trans ((hostOps5_keep (Wi7 m c) main_arg11 (by decide)).trans ((Wout4_of_ne (Wi6 m) c main_arg11 (by decide)).trans ((Wout3_of_ne (Wi5 m) c main_arg11 (by decide)).trans ((Wout2_of_ne (Wi4 m) c main_arg11 (by decide)).trans ((hostOps2_keep (Wi3 m c) main_arg11 (by decide)).trans ((Wout1_of_ne (Wi2 m) c main_arg11 (by decide)).trans ((hostOps1_keep (Wi1 m c) main_arg11 (by decide)).trans ((Wout0_of_ne (Wi0 m) c main_arg11 (by decide))))))))))))))))).trans rfl
theorem Wi15_main_arg12 (c : Dev nD) : Wi15 m c (Proc.devRef .tc main_arg12) = m ((c : Thread nD τ).loc main_arg12) :=
  ((hostOps9_1_keep (Wi14 m c) main_arg12 (by decide)).trans ((hostOps9_keep (Wi13 m c) main_arg12 (by decide)).trans ((Wout8_of_ne (Wi12 m) c main_arg12 (by decide)).trans ((Wout7_of_ne (Wi11 m) c main_arg12 (by decide)).trans ((hostOps7_keep (Wi10 m c) main_arg12 (by decide)).trans ((Wout6_of_ne (Wi9 m) c main_arg12 (by decide)).trans ((Wout5_of_ne (Wi8 m) c main_arg12 (by decide)).trans ((hostOps5_keep (Wi7 m c) main_arg12 (by decide)).trans ((Wout4_of_ne (Wi6 m) c main_arg12 (by decide)).trans ((Wout3_of_ne (Wi5 m) c main_arg12 (by decide)).trans ((Wout2_of_ne (Wi4 m) c main_arg12 (by decide)).trans ((hostOps2_keep (Wi3 m c) main_arg12 (by decide)).trans ((Wout1_of_ne (Wi2 m) c main_arg12 (by decide)).trans ((hostOps1_keep (Wi1 m c) main_arg12 (by decide)).trans ((Wout0_of_ne (Wi0 m) c main_arg12 (by decide))))))))))))))))).trans rfl
theorem Wi15_main_arg13 (c : Dev nD) : Wi15 m c (Proc.devRef .tc main_arg13) = m ((c : Thread nD τ).loc main_arg13) :=
  ((hostOps9_1_keep (Wi14 m c) main_arg13 (by decide)).trans ((hostOps9_keep (Wi13 m c) main_arg13 (by decide)).trans ((Wout8_of_ne (Wi12 m) c main_arg13 (by decide)).trans ((Wout7_of_ne (Wi11 m) c main_arg13 (by decide)).trans ((hostOps7_keep (Wi10 m c) main_arg13 (by decide)).trans ((Wout6_of_ne (Wi9 m) c main_arg13 (by decide)).trans ((Wout5_of_ne (Wi8 m) c main_arg13 (by decide)).trans ((hostOps5_keep (Wi7 m c) main_arg13 (by decide)).trans ((Wout4_of_ne (Wi6 m) c main_arg13 (by decide)).trans ((Wout3_of_ne (Wi5 m) c main_arg13 (by decide)).trans ((Wout2_of_ne (Wi4 m) c main_arg13 (by decide)).trans ((hostOps2_keep (Wi3 m c) main_arg13 (by decide)).trans ((Wout1_of_ne (Wi2 m) c main_arg13 (by decide)).trans ((hostOps1_keep (Wi1 m c) main_arg13 (by decide)).trans ((Wout0_of_ne (Wi0 m) c main_arg13 (by decide))))))))))))))))).trans rfl
theorem Wi15_main_arg14 (c : Dev nD) : Wi15 m c (Proc.devRef .tc main_arg14) = m ((c : Thread nD τ).loc main_arg14) :=
  ((hostOps9_1_keep (Wi14 m c) main_arg14 (by decide)).trans ((hostOps9_keep (Wi13 m c) main_arg14 (by decide)).trans ((Wout8_of_ne (Wi12 m) c main_arg14 (by decide)).trans ((Wout7_of_ne (Wi11 m) c main_arg14 (by decide)).trans ((hostOps7_keep (Wi10 m c) main_arg14 (by decide)).trans ((Wout6_of_ne (Wi9 m) c main_arg14 (by decide)).trans ((Wout5_of_ne (Wi8 m) c main_arg14 (by decide)).trans ((hostOps5_keep (Wi7 m c) main_arg14 (by decide)).trans ((Wout4_of_ne (Wi6 m) c main_arg14 (by decide)).trans ((Wout3_of_ne (Wi5 m) c main_arg14 (by decide)).trans ((Wout2_of_ne (Wi4 m) c main_arg14 (by decide)).trans ((hostOps2_keep (Wi3 m c) main_arg14 (by decide)).trans ((Wout1_of_ne (Wi2 m) c main_arg14 (by decide)).trans ((hostOps1_keep (Wi1 m c) main_arg14 (by decide)).trans ((Wout0_of_ne (Wi0 m) c main_arg14 (by decide))))))))))))))))).trans rfl
theorem Wi15_main_arg15 (c : Dev nD) : Wi15 m c (Proc.devRef .tc main_arg15) = m ((c : Thread nD τ).loc main_arg15) :=
  ((hostOps9_1_keep (Wi14 m c) main_arg15 (by decide)).trans ((hostOps9_keep (Wi13 m c) main_arg15 (by decide)).trans ((Wout8_of_ne (Wi12 m) c main_arg15 (by decide)).trans ((Wout7_of_ne (Wi11 m) c main_arg15 (by decide)).trans ((hostOps7_keep (Wi10 m c) main_arg15 (by decide)).trans ((Wout6_of_ne (Wi9 m) c main_arg15 (by decide)).trans ((Wout5_of_ne (Wi8 m) c main_arg15 (by decide)).trans ((hostOps5_keep (Wi7 m c) main_arg15 (by decide)).trans ((Wout4_of_ne (Wi6 m) c main_arg15 (by decide)).trans ((Wout3_of_ne (Wi5 m) c main_arg15 (by decide)).trans ((Wout2_of_ne (Wi4 m) c main_arg15 (by decide)).trans ((hostOps2_keep (Wi3 m c) main_arg15 (by decide)).trans ((Wout1_of_ne (Wi2 m) c main_arg15 (by decide)).trans ((hostOps1_keep (Wi1 m c) main_arg15 (by decide)).trans ((Wout0_of_ne (Wi0 m) c main_arg15 (by decide))))))))))))))))).trans rfl
theorem Wi15_main_arg16 (c : Dev nD) : Wi15 m c (Proc.devRef .tc main_arg16) = m ((c : Thread nD τ).loc main_arg16) :=
  ((hostOps9_1_keep (Wi14 m c) main_arg16 (by decide)).trans ((hostOps9_keep (Wi13 m c) main_arg16 (by decide)).trans ((Wout8_of_ne (Wi12 m) c main_arg16 (by decide)).trans ((Wout7_of_ne (Wi11 m) c main_arg16 (by decide)).trans ((hostOps7_keep (Wi10 m c) main_arg16 (by decide)).trans ((Wout6_of_ne (Wi9 m) c main_arg16 (by decide)).trans ((Wout5_of_ne (Wi8 m) c main_arg16 (by decide)).trans ((hostOps5_keep (Wi7 m c) main_arg16 (by decide)).trans ((Wout4_of_ne (Wi6 m) c main_arg16 (by decide)).trans ((Wout3_of_ne (Wi5 m) c main_arg16 (by decide)).trans ((Wout2_of_ne (Wi4 m) c main_arg16 (by decide)).trans ((hostOps2_keep (Wi3 m c) main_arg16 (by decide)).trans ((Wout1_of_ne (Wi2 m) c main_arg16 (by decide)).trans ((hostOps1_keep (Wi1 m c) main_arg16 (by decide)).trans ((Wout0_of_ne (Wi0 m) c main_arg16 (by decide))))))))))))))))).trans rfl
theorem Wi15_main_arg17 (c : Dev nD) : Wi15 m c (Proc.devRef .tc main_arg17) = m ((c : Thread nD τ).loc main_arg17) :=
  ((hostOps9_1_keep (Wi14 m c) main_arg17 (by decide)).trans ((hostOps9_keep (Wi13 m c) main_arg17 (by decide)).trans ((Wout8_of_ne (Wi12 m) c main_arg17 (by decide)).trans ((Wout7_of_ne (Wi11 m) c main_arg17 (by decide)).trans ((hostOps7_keep (Wi10 m c) main_arg17 (by decide)).trans ((Wout6_of_ne (Wi9 m) c main_arg17 (by decide)).trans ((Wout5_of_ne (Wi8 m) c main_arg17 (by decide)).trans ((hostOps5_keep (Wi7 m c) main_arg17 (by decide)).trans ((Wout4_of_ne (Wi6 m) c main_arg17 (by decide)).trans ((Wout3_of_ne (Wi5 m) c main_arg17 (by decide)).trans ((Wout2_of_ne (Wi4 m) c main_arg17 (by decide)).trans ((hostOps2_keep (Wi3 m c) main_arg17 (by decide)).trans ((Wout1_of_ne (Wi2 m) c main_arg17 (by decide)).trans ((hostOps1_keep (Wi1 m c) main_arg17 (by decide)).trans ((Wout0_of_ne (Wi0 m) c main_arg17 (by decide))))))))))))))))).trans rfl
theorem Wi15_main_arg18 (c : Dev nD) : Wi15 m c (Proc.devRef .tc main_arg18) = m ((c : Thread nD τ).loc main_arg18) :=
  ((hostOps9_1_keep (Wi14 m c) main_arg18 (by decide)).trans ((hostOps9_keep (Wi13 m c) main_arg18 (by decide)).trans ((Wout8_of_ne (Wi12 m) c main_arg18 (by decide)).trans ((Wout7_of_ne (Wi11 m) c main_arg18 (by decide)).trans ((hostOps7_keep (Wi10 m c) main_arg18 (by decide)).trans ((Wout6_of_ne (Wi9 m) c main_arg18 (by decide)).trans ((Wout5_of_ne (Wi8 m) c main_arg18 (by decide)).trans ((hostOps5_keep (Wi7 m c) main_arg18 (by decide)).trans ((Wout4_of_ne (Wi6 m) c main_arg18 (by decide)).trans ((Wout3_of_ne (Wi5 m) c main_arg18 (by decide)).trans ((Wout2_of_ne (Wi4 m) c main_arg18 (by decide)).trans ((hostOps2_keep (Wi3 m c) main_arg18 (by decide)).trans ((Wout1_of_ne (Wi2 m) c main_arg18 (by decide)).trans ((hostOps1_keep (Wi1 m c) main_arg18 (by decide)).trans ((Wout0_of_ne (Wi0 m) c main_arg18 (by decide))))))))))))))))).trans rfl
theorem Wi15_main_arg19 (c : Dev nD) : Wi15 m c (Proc.devRef .tc main_arg19) = m ((c : Thread nD τ).loc main_arg19) :=
  ((hostOps9_1_keep (Wi14 m c) main_arg19 (by decide)).trans ((hostOps9_keep (Wi13 m c) main_arg19 (by decide)).trans ((Wout8_of_ne (Wi12 m) c main_arg19 (by decide)).trans ((Wout7_of_ne (Wi11 m) c main_arg19 (by decide)).trans ((hostOps7_keep (Wi10 m c) main_arg19 (by decide)).trans ((Wout6_of_ne (Wi9 m) c main_arg19 (by decide)).trans ((Wout5_of_ne (Wi8 m) c main_arg19 (by decide)).trans ((hostOps5_keep (Wi7 m c) main_arg19 (by decide)).trans ((Wout4_of_ne (Wi6 m) c main_arg19 (by decide)).trans ((Wout3_of_ne (Wi5 m) c main_arg19 (by decide)).trans ((Wout2_of_ne (Wi4 m) c main_arg19 (by decide)).trans ((hostOps2_keep (Wi3 m c) main_arg19 (by decide)).trans ((Wout1_of_ne (Wi2 m) c main_arg19 (by decide)).trans ((hostOps1_keep (Wi1 m c) main_arg19 (by decide)).trans ((Wout0_of_ne (Wi0 m) c main_arg19 (by decide))))))))))))))))).trans rfl
theorem Wi15_main_arg20 (c : Dev nD) : Wi15 m c (Proc.devRef .tc main_arg20) = m ((c : Thread nD τ).loc main_arg20) :=
  ((hostOps9_1_keep (Wi14 m c) main_arg20 (by decide)).trans ((hostOps9_keep (Wi13 m c) main_arg20 (by decide)).trans ((Wout8_of_ne (Wi12 m) c main_arg20 (by decide)).trans ((Wout7_of_ne (Wi11 m) c main_arg20 (by decide)).trans ((hostOps7_keep (Wi10 m c) main_arg20 (by decide)).trans ((Wout6_of_ne (Wi9 m) c main_arg20 (by decide)).trans ((Wout5_of_ne (Wi8 m) c main_arg20 (by decide)).trans ((hostOps5_keep (Wi7 m c) main_arg20 (by decide)).trans ((Wout4_of_ne (Wi6 m) c main_arg20 (by decide)).trans ((Wout3_of_ne (Wi5 m) c main_arg20 (by decide)).trans ((Wout2_of_ne (Wi4 m) c main_arg20 (by decide)).trans ((hostOps2_keep (Wi3 m c) main_arg20 (by decide)).trans ((Wout1_of_ne (Wi2 m) c main_arg20 (by decide)).trans ((hostOps1_keep (Wi1 m c) main_arg20 (by decide)).trans ((Wout0_of_ne (Wi0 m) c main_arg20 (by decide))))))))))))))))).trans rfl
theorem Wi15_main_arg21 (c : Dev nD) : Wi15 m c (Proc.devRef .tc main_arg21) = m ((c : Thread nD τ).loc main_arg21) :=
  ((hostOps9_1_keep (Wi14 m c) main_arg21 (by decide)).trans ((hostOps9_keep (Wi13 m c) main_arg21 (by decide)).trans ((Wout8_of_ne (Wi12 m) c main_arg21 (by decide)).trans ((Wout7_of_ne (Wi11 m) c main_arg21 (by decide)).trans ((hostOps7_keep (Wi10 m c) main_arg21 (by decide)).trans ((Wout6_of_ne (Wi9 m) c main_arg21 (by decide)).trans ((Wout5_of_ne (Wi8 m) c main_arg21 (by decide)).trans ((hostOps5_keep (Wi7 m c) main_arg21 (by decide)).trans ((Wout4_of_ne (Wi6 m) c main_arg21 (by decide)).trans ((Wout3_of_ne (Wi5 m) c main_arg21 (by decide)).trans ((Wout2_of_ne (Wi4 m) c main_arg21 (by decide)).trans ((hostOps2_keep (Wi3 m c) main_arg21 (by decide)).trans ((Wout1_of_ne (Wi2 m) c main_arg21 (by decide)).trans ((hostOps1_keep (Wi1 m c) main_arg21 (by decide)).trans ((Wout0_of_ne (Wi0 m) c main_arg21 (by decide))))))))))))))))).trans rfl

end Cert.KernelIdeal.Hand

end
-- ==== Proof.KI.HostReads.lean ====
/-
  The five small host operations between the kernel regions, read at an index from any contents: the inverse square
  root of the degree column, entry by entry; the three bias vectors recast as one row; the column d recast as one row.
-/
import proofs.«105977_j57329223467619_2_alg».proof.Proof.KI.Host
import Idealize.ShloMosaic.Lib.StableHlo.Run
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.StableHlo

/-- A column [a, 1] recast as one row [1, a] holds at (0, j) the column's entry (j, 0). -/
theorem shapeCast_col_row {α : Type} {a : ℕ} (x : (⟨2, ![a, 1]⟩ : Shape).Idx → α)
    (h : (⟨2, ![a, 1]⟩ : Shape).ShapeCasts ⟨2, ![1, a]⟩) (j : Fin a) :
    shapeCast ⟨2, ![1, a]⟩ x h (ValueIdx.ix2 (0 : Fin 1) j) = x (ValueIdx.ix2 j (0 : Fin 1)) :=
  shapeCast_apply x h _ _ (by
    rw [Shape.rowMajor_val_two, Shape.rowMajor_val_two]
    show j.val * 1 + 0 = 0 * a + j.val
    omega)

/-- d = rsqrt(degree), entry by entry. -/
theorem hread_v1 (W : Valuation τ sig (Elt Ideal)) (p : Fin 8192) :
    (StableHlo.after (hostOps1 (F := Ideal)) W (Proc.devRef .tc main_v1) : S8192x1.Idx → EReal) (ValueIdx.ix2 p 0)
      = Ideal.rsqrt ((W (Proc.devRef .tc main_v0_1) : S8192x1.Idx → EReal) (ValueIdx.ix2 p 0)) := by
  have h : StableHlo.after (hostOps1 (F := Ideal)) W (Proc.devRef .tc main_v1)
      = Host.rsqrt (F := Ideal) (s := S8192x1) (φ := .f32) (W (Proc.devRef .tc main_v0_1)) := by
    after_results <;> rfl
  rw [h]
  rfl

/-- The first layer's bias as one row. -/
theorem hread_v3 (W : Valuation τ sig (Elt Ideal)) (q : Fin 256) :
    (StableHlo.after (hostOps2 (F := Ideal)) W (Proc.devRef .tc main_v3) : S1x256.Idx → EReal) (ValueIdx.ix2 0 q)
      = (W (Proc.devRef .tc main_arg3) : S256.Idx → EReal) (ValueIdx.ix1 q) := by
  have h : StableHlo.after (hostOps2 (F := Ideal)) W (Proc.devRef .tc main_v3)
      = shapeCast S1x256 (W (Proc.devRef .tc main_arg3)) shapeCasts_S256_S1x256 := by
    after_results <;> rfl
  rw [h]
  exact ValueIdx.shapeCast_a_1a_apply _ _ 0 q

/-- The feature layer's bias as one row. -/
theorem hread_v7 (W : Valuation τ sig (Elt Ideal)) (q : Fin 128) :
    (StableHlo.after (hostOps5 (F := Ideal)) W (Proc.devRef .tc main_v7) : S1x128.Idx → EReal) (ValueIdx.ix2 0 q)
      = (W (Proc.devRef .tc main_arg5) : S128.Idx → EReal) (ValueIdx.ix1 q) := by
  have h : StableHlo.after (hostOps5 (F := Ideal)) W (Proc.devRef .tc main_v7)
      = shapeCast S1x128 (W (Proc.devRef .tc main_arg5)) shapeCasts_S128_S1x128 := by
    after_results <;> rfl
  rw [h]
  exact ValueIdx.shapeCast_a_1a_apply _ _ 0 q

/-- The assignment layer's bias as one row. -/
theorem hread_v8 (W : Valuation τ sig (Elt Ideal)) (q : Fin 256) :
    (StableHlo.after (hostOps5 (F := Ideal)) W (Proc.devRef .tc main_v8) : S1x256.Idx → EReal) (ValueIdx.ix2 0 q)
      = (W (Proc.devRef .tc main_arg7) : S256.Idx → EReal) (ValueIdx.ix1 q) := by
  have h : StableHlo.after (hostOps5 (F := Ideal)) W (Proc.devRef .tc main_v8)
      = shapeCast S1x256 (W (Proc.devRef .tc main_arg7)) shapeCasts_S256_S1x256 := by
    after_results <;> rfl
  rw [h]
  exact ValueIdx.shapeCast_a_1a_apply _ _ 0 q

/-- The column d as one row. -/
theorem hread_v11 (W : Valuation τ sig (Elt Ideal)) (j : Fin 8192) :
    (StableHlo.after (hostOps7 (F := Ideal)) W (Proc.devRef .tc main_v11) : S1x8192.Idx → EReal) (ValueIdx.ix2 0 j)
      = (W (Proc.devRef .tc main_v1) : S8192x1.Idx → EReal) (ValueIdx.ix2 j 0) := by
  have h : StableHlo.after (hostOps7 (F := Ideal)) W (Proc.devRef .tc main_v11)
      = shapeCast S1x8192 (W (Proc.devRef .tc main_v1)) shapeCasts_S8192x1_S1x8192 := by
    after_results <;> rfl
  rw [h]
  exact shapeCast_col_row _ _ j

end Cert.KernelIdeal.Hand

end
-- ==== Proof.Spec.lean ====
/-
  The vocabulary both programs are read in, at the ideal instance (every float an extended real): the indicator of a
  nonzero entry, whose row sums are the degrees; the row-wise softmax in the one form both programs spell — shift by
  the row maximum, exponentiate, divide by the row's sum of exponentials —; and the first pooling block of the network
  written twice: as the kernel computes it (the normalisation D^(-1/2) A D^(-1/2) folded into the matrix products,
  d = rsqrt(degree) pulled out of the sums) and as the reference does (the normalised adjacency built first).
-/
import Idealize.ShloMosaic.PureOps.Ideal

noncomputable section

namespace Cert.GcnSpec

open Idealize.ShloMosaic

/-- A matrix of extended reals. -/
abbrev Mat (a b : ℕ) : Type := Fin a → Fin b → EReal

/-- 1 where an entry is not zero, 0 where it is: the summand of a row's degree. -/
def indic (x : EReal) : EReal := if x = 0 then 0 else 1

/-- The largest entry of a row (the bottom element for an empty row). -/
def rowMax {n : ℕ} (v : Fin n → EReal) : EReal := Finset.univ.sup v

/-- The softmax of one row: exp (v j − max v) over the sum of those exponentials. -/
def softmaxRow {n : ℕ} (v : Fin n → EReal) : Fin n → EReal :=
  fun j => Ideal.div (Ideal.exp (v j - rowMax v)) (∑ j' : Fin n, Ideal.exp (v j' - rowMax v))

/-- The softmax of every row. -/
def softmaxRows {n f : ℕ} (M : Mat n f) : Mat n f := fun p => softmaxRow (M p)

/-- The matrix product A · B. -/
def mm {a k b : ℕ} (A : Mat a k) (B : Mat k b) : Mat a b := fun p q => ∑ t : Fin k, A p t * B t q

/-- The matrix product Aᵀ · B. -/
def mmT {k a b : ℕ} (A : Mat k a) (B : Mat k b) : Mat a b := fun p q => ∑ t : Fin k, A t p * B t q

/-- The degree of row i: the number of its nonzero entries. -/
def deg {n : ℕ} (A : Mat n n) (i : Fin n) : EReal := ∑ k : Fin n, indic (A i k)

/-- d = degree^(-1/2). -/
def dvec {n : ℕ} (A : Mat n n) (i : Fin n) : EReal := Ideal.rsqrt (deg A i)

/-! ## As the kernel computes -/

/-- One graph-convolution layer with the normalisation folded in: d_p · Σ_k A_pk · (H_kq · d_k), plus the bias. -/
def kGcn {n f : ℕ} (A : Mat n n) (d : Fin n → EReal) (H : Mat n f) (b : Fin f → EReal) : Mat n f :=
  fun p q => (∑ k : Fin n, A p k * (H k q * d k)) * d p + b q

/-- Sᵀ · (normalised adjacency) with the normalisation folded in: (Σ_i (S_ip · d_i) · A_ij) · d_j. -/
def kPoolAdj {n s : ℕ} (S : Mat n s) (A : Mat n n) (d : Fin n → EReal) : Mat s n :=
  fun p j => (∑ i : Fin n, (S i p * d i) * A i j) * d j

section Block
variable {n f0 f1 f2 s : ℕ} (X : Mat n f0) (A : Mat n n) (W1 : Mat f0 f1) (b1 : Fin f1 → EReal)
  (Wz : Mat f1 f2) (bz : Fin f2 → EReal) (Ws : Mat f1 s) (bs : Fin s → EReal)

def kXg : Mat n f1 := kGcn A (dvec A) (mm X W1) b1
def kZ1 : Mat n f2 := kGcn A (dvec A) (mm (kXg X A W1 b1) Wz) bz
def kS1 : Mat n s := softmaxRows (kGcn A (dvec A) (mm (kXg X A W1 b1) Ws) bs)
/-- The pooled features the kernel hands to the second layer. -/
def kX2 : Mat s f2 := mmT (kS1 X A W1 b1 Ws bs) (kZ1 X A W1 b1 Wz bz)
/-- The pooled adjacency the kernel hands to the second layer. -/
def kAdj2 : Mat s s := mm (kPoolAdj (kS1 X A W1 b1 Ws bs) A (dvec A)) (kS1 X A W1 b1 Ws bs)

/-! ## As the reference computes -/

/-- The normalised adjacency, multiplied out entry by entry: (A_ik · d_i) · d_k. -/
def adjn (d : Fin n → EReal) : Mat n n := fun i k => A i k * d i * d k

/-- One graph-convolution layer over a given adjacency: An · H plus the bias. -/
def rGcn {g : ℕ} (An : Mat n n) (H : Mat n g) (b : Fin g → EReal) : Mat n g := fun p q => (∑ k : Fin n, An p k * H k q) + b q

def rX1 : Mat n f1 := rGcn (adjn A (dvec A)) (mm X W1) b1
def rZ1 : Mat n f2 := rGcn (adjn A (dvec A)) (mm (rX1 X A W1 b1) Wz) bz
def rS1 : Mat n s := softmaxRows (rGcn (adjn A (dvec A)) (mm (rX1 X A W1 b1) Ws) bs)
def rX2 : Mat s f2 := mmT (rS1 X A W1 b1 Ws bs) (rZ1 X A W1 b1 Wz bz)
/-- (S1ᵀ · An) · S1, in the reference's grouping. -/
def rAdj2 : Mat s s := mm (mmT (rS1 X A W1 b1 Ws bs) (adjn A (dvec A))) (rS1 X A W1 b1 Ws bs)
end Block

/-- Every entry is a real number. -/
def RealMat {a b : ℕ} (M : Mat a b) : Prop := ∀ p q, ∃ r : ℝ, M p q = (r : EReal)
def RealVec {a : ℕ} (v : Fin a → EReal) : Prop := ∀ p, ∃ r : ℝ, v p = (r : EReal)

end Cert.GcnSpec

end
-- ==== Proof.LibPlain.lean ====
/-
  General facts, at the ideal values, about the plain two-dimensional matrix product and about reductions along the
  rows of a two-dimensional array, stated at indices built from their two coordinates; and two regroupings of a finite
  sum in a commutative monoid (by tiles of equal length; against a mask that keeps one index).
-/
import Idealize.ShloMosaic.Lib.ValueIdx
import Idealize.ShloMosaic.PureOps.Ideal.Laws
import Idealize.ShloMosaic.Lib.Pipeline.Value

noncomputable section

namespace Idealize.ShloMosaic

open ValueIdx

/-- In the plain product `[M,K] × [K,N]` the left operand is read at (row, k) -/
theorem plain_lhsIdx {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- and the right operand at (k, column). -/
theorem plain_rhsIdx {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- The matrix unit's product into a zero accumulator, at (p, q): the sum over k of L(p,k) · R(k,q). -/
theorem Ideal.matmul_plain_zero_apply {M K N : Nat} {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply, ← Equiv.sum_comp (contrEquiv1 (DotDims.plain M K N) K rfl rfl).symm]
  exact Finset.sum_congr rfl fun k _ => by rw [plain_lhsIdx, plain_rhsIdx]

/-- The host's product, at (p, q): the same sum. -/
theorem Ideal.dotGeneral_plain_apply {M K N : Nat} {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) := by
  rw [Ideal.dotGeneral_apply, ← Equiv.sum_comp (contrEquiv1 (DotDims.plain M K N) K rfl rfl).symm]
  exact Finset.sum_congr rfl fun k _ => by rw [plain_lhsIdx, plain_rhsIdx]

/-- Reducing the second axis of an `[M,N]` array: the source index over row `p` with coordinate `q` inserted is (p, q). -/
theorem lift_rows {M N : Nat} (h : (⟨2, ![M, N]⟩ : Shape).Reduces [1] ⟨1, ![M]⟩) (p : Fin M) (q : Fin N) :
    h.lift (ix1 p) q = ix2 p q := by
  funext a
  apply Fin.ext
  match a with
  | ⟨0, _⟩ => rfl
  | ⟨1, _⟩ => rfl

/-- A lane sum along the rows, at row `p`: the sum over the row. -/
theorem Ideal.multiReduction_add_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ q : Fin N, src (ix2 p q) := by
  rw [Ideal.multiReduction_add_single]
  exact Finset.sum_congr rfl fun q _ => congrArg src (lift_rows h p q)

/-- A lane maximum along the rows, at row `p`: the fold of `max` over the row from the accumulator's value. -/
theorem Ideal.multiReduction_maximumf_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun q => src (ix2 p q)) := by
  rw [Ideal.multiReduction_maximumf_single]
  exact congrArg (fun f => Finset.fold max (FloatOps.ofBits φ acc) f Finset.univ) (funext fun q => congrArg src (lift_rows h p q) : src ∘ h.lift (ix1 p) = fun q => src (ix2 p q))

/-- The same two facts with the accumulator's word spelt as a kernel's text spells it (the -inf word; the zero word), the
    format's proof the literal one. -/
theorem Ideal.multiReduction_maximumf_rows_f32 {M N : Nat} (src : FVec Ideal ⟨2, ![M, N]⟩ .f32) (h : (⟨2, ![M, N]⟩ : Shape).Reduces [1] ⟨1, ![M]⟩)
    (hacc : (0xFF800000#32 : BitVec 32) = 0xFF800000#32) (p : Fin M) :
    multiReduction .maximumf [1] ⟨1, ![M]⟩ src 0xFF800000#32 h (.inl rfl) hacc (ix1 p)
      = (Finset.univ : Finset (Fin N)).fold max (Ideal.ofBits .f32 0xFF800000#32) (fun q => src (ix2 p q)) :=
  Ideal.multiReduction_maximumf_rows src _ h (.inl rfl) hacc p
theorem Ideal.multiReduction_add_rows_f32 {M N : Nat} (src : FVec Ideal ⟨2, ![M, N]⟩ .f32) (h : (⟨2, ![M, N]⟩ : Shape).Reduces [1] ⟨1, ![M]⟩)
    (hacc : (0x00000000#32 : BitVec 32) = 0x00000000#32) (p : Fin M) :
    multiReduction .add [1] ⟨1, ![M]⟩ src 0x00000000#32 h (.inl rfl) hacc (ix1 p) = ∑ q : Fin N, src (ix2 p q) :=
  Ideal.multiReduction_add_rows src _ h (.inl rfl) hacc p

/-- The vector exponential at an index. -/
theorem exp_apply_ideal {s : Shape} {φ : FTy} (a : FVec Ideal s φ) (i : s.Idx) : Idealize.ShloMosaic.exp a i = Ideal.exp (a i) := rfl

/-- A rank-1 vector recast as a column, at (p, q): the vector at p. -/
theorem shapeCast_col {α : Type} {M : Nat} (x : (⟨1, ![M]⟩ : Shape).Idx → α) (h : (⟨1, ![M]⟩ : Shape).ShapeCasts ⟨2, ![M, 1]⟩)
    (p : Fin M) (q : Fin 1) : shapeCast ⟨2, ![M, 1]⟩ x h (ix2 p q) = x (ix1 p) := by
  refine shapeCast_apply x h (ix2 p q) (ix1 p) ?_
  rw [Shape.rowMajor_val_one, Shape.rowMajor_val_two]
  show p.val = p.val * 1 + q.val
  omega

/-- A column broadcast along the rows, at (p, q): the column at p. -/
theorem broadcastTo_col {α : Type} {M N : Nat} (x : (⟨2, ![M, 1]⟩ : Shape).Idx → α) (h : (⟨2, ![M, 1]⟩ : Shape).Broadcasts ⟨2, ![M, N]⟩)
    (p : Fin M) (q : Fin N) : broadcastTo ⟨2, ![M, N]⟩ x h (ix2 p q) = x (ix2 p 0) := by
  refine broadcastTo_apply x h (ix2 p q) (ix2 p 0) fun a => ?_
  match a with
  | ⟨0, _⟩ =>
    show p.val = if M = 1 then 0 else p.val
    split
    · have := p.isLt; omega
    · rfl
  | ⟨1, _⟩ =>
    show (0 : Fin 1).val = if (1 : Nat) = 1 then 0 else q.val
    rw [if_pos rfl]; rfl

namespace Layer
/-- Two linear maps with the clamp `max · z` before each, on one row. -/
def net {a b c : Nat} (z : EReal) (y : Fin a → EReal) (W1 : Fin a → Fin b → EReal) (W2 : Fin b → Fin c → EReal) (q : Fin c) : EReal :=
  ∑ k : Fin b, max (∑ j : Fin a, max (y j) z * W1 j k) z * W2 k q
/-- The softmax of one row, with the maximum taken from `ninf`. -/
def smax {c : Nat} (ninf : EReal) (l : Fin c → EReal) (q : Fin c) : EReal :=
  Ideal.div (Ideal.exp (l q - max ninf (Finset.univ.fold max ninf l)))
    (∑ q' : Fin c, Ideal.exp (l q' - max ninf (Finset.univ.fold max ninf l)))
/-- Both depend on their arguments only through their values. -/
theorem net_congr {a b c : Nat} (z : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    net z y W1 W2 q = net z y' W1' W2' q := by
  rw [funext hy, funext fun j => funext (h1 j), funext fun k => funext (h2 k)]
theorem smax_net_congr {a b c : Nat} (z ninf : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    smax ninf (net z y W1 W2) q = smax ninf (net z y' W1' W2') q := by
  rw [funext hy, funext fun j => funext (h1 j), funext fun k => funext (h2 k)]
end Layer

/-- A sum over `T · K` consecutive indices is the sum over the `T` tiles of the sums over each tile's `K` indices. -/
theorem sum_tiles {α : Type*} [AddCommMonoid α] (T K : Nat) (f : Fin (T * K) → α) :
    ∑ j, f j = ∑ t : Fin T, ∑ k : Fin K, f (finProdFinEquiv (t, k)) :=
  (Fintype.sum_equiv finProdFinEquiv (fun x => f (finProdFinEquiv x)) f (fun _ => rfl)).symm.trans (Fintype.sum_prod_type _)

end Idealize.ShloMosaic

end
-- ==== Proof.Alg.lean ====
/-
  The first pooling block, program-free: under the precondition (every input a real number, every row of the adjacency
  with a nonzero entry) every degree is a real number ≥ 1, so d = degree^(-1/2) is a positive real, every matrix of
  both chains is real-valued, and on real numbers pulling d out of a sum is commutativity, associativity and
  distributivity. Hence the block as the kernel computes it (d pulled out of the sums) equals the block as the
  reference computes it (the normalised adjacency built first).
-/
import proofs.«105977_j57329223467619_2_alg».proof.Proof.Spec
import Mathlib

noncomputable section

namespace Cert.GcnSpec

open Idealize.ShloMosaic

/-! ## Real numbers among the extended reals -/

/-- An extended real that is a real number. -/
abbrev IsReal (x : EReal) : Prop := ∃ r : ℝ, x = (r : EReal)

/-- The coercion of a finite sum of reals is the sum of the coercions. -/
@[norm_cast] theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_sum {k : ℕ} (f : Fin k → EReal) (h : ∀ t, IsReal (f t)) : IsReal (∑ t, f t) := by
  choose g hg using h
  exact ⟨∑ t, g t, by rw [coe_sum]; exact Finset.sum_congr rfl (fun t _ => hg t)⟩

/-! ## Every matrix of the two chains is real-valued -/

theorem realMat_mm {a k b : ℕ} {A : Mat a k} {B : Mat k b} (hA : RealMat A) (hB : RealMat B) : RealMat (mm A B) :=
  fun p q => isReal_sum _ (fun t => isReal_mul (hA p t) (hB t q))

theorem realMat_mmT {k a b : ℕ} {A : Mat k a} {B : Mat k b} (hA : RealMat A) (hB : RealMat B) : RealMat (mmT A B) :=
  fun p q => isReal_sum _ (fun t => isReal_mul (hA t p) (hB t q))

theorem realMat_adjn {n : ℕ} {A : Mat n n} {d : Fin n → EReal} (hA : RealMat A) (hd : RealVec d) :
    RealMat (adjn A d) :=
  fun i k => isReal_mul (isReal_mul (hA i k) (hd i)) (hd k)

theorem realMat_rGcn {n g : ℕ} {An : Mat n n} {H : Mat n g} {b : Fin g → EReal} (hAn : RealMat An) (hH : RealMat H)
    (hb : RealVec b) : RealMat (rGcn An H b) :=
  fun p q => isReal_add (isReal_sum _ (fun k => isReal_mul (hAn p k) (hH k q))) (hb q)

theorem realMat_kGcn {n f : ℕ} {A : Mat n n} {d : Fin n → EReal} {H : Mat n f} {b : Fin f → EReal} (hA : RealMat A)
    (hd : RealVec d) (hH : RealMat H) (hb : RealVec b) : RealMat (kGcn A d H b) :=
  fun p q => isReal_add (isReal_mul (isReal_sum _ (fun k => isReal_mul (hA p k) (isReal_mul (hH k q) (hd k)))) (hd p))
    (hb q)

theorem realMat_kPoolAdj {n s : ℕ} {S : Mat n s} {A : Mat n n} {d : Fin n → EReal} (hS : RealMat S) (hA : RealMat A)
    (hd : RealVec d) : RealMat (kPoolAdj S A d) :=
  fun p j => isReal_mul (isReal_sum _ (fun i => isReal_mul (isReal_mul (hS i p) (hd i)) (hA i j))) (hd j)

/-! ## The degrees and d -/

/-- The degree of a row is the (real) number of its nonzero entries. -/
theorem deg_eq_coe {n : ℕ} (A : Mat n n) (i : Fin n) :
    deg A i = ((∑ k : Fin n, (if A i k = 0 then (0 : ℝ) else 1) : ℝ) : EReal) := by
  rw [coe_sum]
  unfold deg indic
  refine Finset.sum_congr rfl (fun k _ => ?_)
  by_cases h : A i k = 0
  · rw [if_pos h, if_pos h, EReal.coe_zero]
  · rw [if_neg h, if_neg h, EReal.coe_one]

/-- A row with a nonzero entry has a positive degree. -/
theorem deg_pos {n : ℕ} (A : Mat n n) (hdeg : ∀ i, ∃ k, A i k ≠ 0) (i : Fin n) :
    0 < ∑ k : Fin n, (if A i k = 0 then (0 : ℝ) else 1) := by
  obtain ⟨k, hk⟩ := hdeg i
  refine Finset.sum_pos' (fun j _ => ?_) ⟨k, Finset.mem_univ k, ?_⟩
  · by_cases h : A i j = 0
    · rw [if_pos h]
    · rw [if_neg h]; exact zero_le_one
  · rw [if_neg hk]; exact zero_lt_one

/-- d is a positive real at every row. -/
theorem dvec_pos {n : ℕ} (A : Mat n n) (hdeg : ∀ i, ∃ k, A i k ≠ 0) (i : Fin n) :
    ∃ r : ℝ, 0 < r ∧ dvec A i = (r : EReal) := by
  have h := deg_pos A hdeg i
  refine ⟨(Real.sqrt (∑ k : Fin n, (if A i k = 0 then (0 : ℝ) else 1)))⁻¹, inv_pos.mpr (Real.sqrt_pos.mpr h), ?_⟩
  unfold dvec
  rw [deg_eq_coe, Ideal.rsqrt_coe, if_neg (not_lt.mpr h.le), if_neg h.ne']

theorem realVec_dvec {n : ℕ} (A : Mat n n) (hdeg : ∀ i, ∃ k, A i k ≠ 0) : RealVec (dvec A) := fun i => by
  obtain ⟨r, _, hr⟩ := dvec_pos A hdeg i
  exact ⟨r, hr⟩

/-! ## The softmax of a real row is real -/

theorem isReal_rowMax {n : ℕ} (v : Fin n → EReal) (hv : ∀ j, IsReal (v j)) (j : Fin n) : IsReal (rowMax v) := by
  obtain ⟨i, _, hi⟩ := Finset.exists_mem_eq_sup Finset.univ ⟨j, Finset.mem_univ j⟩ v
  unfold rowMax
  rw [hi]
  exact hv i

/-- The softmax of a real row, entry by entry, as a quotient of real numbers with a positive denominator. -/
theorem softmaxRow_eq_coe {n : ℕ} (v : Fin n → EReal) (w : Fin n → ℝ) (m : ℝ) (hw : ∀ j, v j = (w j : EReal))
    (hm : rowMax v = (m : EReal)) (j : Fin n) :
    0 < ∑ j' : Fin n, Real.exp (w j' - m) ∧
      softmaxRow v j = ((Real.exp (w j - m) * (1 / ∑ j' : Fin n, Real.exp (w j' - m)) : ℝ) : EReal) := by
  have hexp : ∀ j', Ideal.exp (v j' - rowMax v) = ((Real.exp (w j' - m) : ℝ) : EReal) := by
    intro j'
    rw [hw j', hm, ← EReal.coe_sub, Ideal.exp_coe]
  have hsum : (∑ j' : Fin n, Ideal.exp (v j' - rowMax v)) = ((∑ j' : Fin n, Real.exp (w j' - m) : ℝ) : EReal) := by
    rw [coe_sum]
    exact Finset.sum_congr rfl (fun j' _ => hexp j')
  have hpos : 0 < ∑ j' : Fin n, Real.exp (w j' - m) :=
    Finset.sum_pos (fun j' _ => Real.exp_pos _) ⟨j, Finset.mem_univ j⟩
  refine ⟨hpos, ?_⟩
  unfold softmaxRow
  rw [hsum, Ideal.div_coe hpos.ne', hexp j, ← EReal.coe_mul]

theorem isReal_softmaxRow {n : ℕ} (v : Fin n → EReal) (hv : ∀ j, IsReal (v j)) (j : Fin n) :
    IsReal (softmaxRow v j) := by
  obtain ⟨m, hm⟩ := isReal_rowMax v hv j
  choose w hw using hv
  exact ⟨_, (softmaxRow_eq_coe v w m hw hm j).2⟩

theorem realMat_softmaxRows {n f : ℕ} {M : Mat n f} (hM : RealMat M) : RealMat (softmaxRows M) :=
  fun p q => isReal_softmaxRow (M p) (hM p) q

/-! ## Pulling d out of the sums, on real numbers -/

/-- d_p · Σ_k A_pk · (H_kq · d_k) is Σ_k ((A_pk · d_p) · d_k) · H_kq when everything is real. -/
theorem kGcn_eq_rGcn {n f : ℕ} (A : Mat n n) (d : Fin n → EReal) (H : Mat n f) (b : Fin f → EReal) (hA : RealMat A)
    (hd : RealVec d) (hH : RealMat H) : kGcn A d H b = rGcn (adjn A d) H b := by
  choose a ha using hA
  choose δ hδ using hd
  choose h hh using hH
  funext p q
  unfold kGcn rGcn adjn
  congr 1
  simp only [ha, hδ, hh, ← EReal.coe_mul, ← coe_sum]
  rw [EReal.coe_eq_coe_iff, Finset.sum_mul]
  exact Finset.sum_congr rfl (fun k _ => by ring)

/-- (Σ_i (S_ip · d_i) · A_ij) · d_j is Σ_i S_ip · ((A_ij · d_i) · d_j) when everything is real. -/
theorem kPoolAdj_eq_mmT {n s : ℕ} (S : Mat n s) (A : Mat n n) (d : Fin n → EReal) (hS : RealMat S) (hA : RealMat A)
    (hd : RealVec d) : kPoolAdj S A d = mmT S (adjn A d) := by
  choose σ hσ using hS
  choose a ha using hA
  choose δ hδ using hd
  funext p j
  unfold kPoolAdj mmT adjn
  simp only [hσ, ha, hδ, ← EReal.coe_mul, ← coe_sum]
  rw [EReal.coe_eq_coe_iff, Finset.sum_mul]
  exact Finset.sum_congr rfl (fun i _ => by ring)

/-! ## The two chains agree -/

section Block
variable {n f0 f1 f2 s : ℕ} (X : Mat n f0) (A : Mat n n) (W1 : Mat f0 f1) (b1 : Fin f1 → EReal)
  (Wz : Mat f1 f2) (bz : Fin f2 → EReal) (Ws : Mat f1 s) (bs : Fin s → EReal)

theorem kXg_eq_rX1 (hX : RealMat X) (hA : RealMat A) (hW1 : RealMat W1) (hdeg : ∀ i, ∃ k, A i k ≠ 0) :
    kXg X A W1 b1 = rX1 X A W1 b1 :=
  kGcn_eq_rGcn A (dvec A) (mm X W1) b1 hA (realVec_dvec A hdeg) (realMat_mm hX hW1)

theorem realMat_rX1 (hX : RealMat X) (hA : RealMat A) (hW1 : RealMat W1) (hb1 : RealVec b1)
    (hdeg : ∀ i, ∃ k, A i k ≠ 0) : RealMat (rX1 X A W1 b1) :=
  realMat_rGcn (realMat_adjn hA (realVec_dvec A hdeg)) (realMat_mm hX hW1) hb1

theorem realMat_kXg (hX : RealMat X) (hA : RealMat A) (hW1 : RealMat W1) (hb1 : RealVec b1)
    (hdeg : ∀ i, ∃ k, A i k ≠ 0) : RealMat (kXg X A W1 b1) :=
  realMat_kGcn hA (realVec_dvec A hdeg) (realMat_mm hX hW1) hb1

theorem kZ1_eq_rZ1 (hX : RealMat X) (hA : RealMat A) (hW1 : RealMat W1) (hb1 : RealVec b1) (hWz : RealMat Wz)
    (hdeg : ∀ i, ∃ k, A i k ≠ 0) : kZ1 X A W1 b1 Wz bz = rZ1 X A W1 b1 Wz bz := by
  unfold kZ1 rZ1
  rw [kXg_eq_rX1 X A W1 b1 hX hA hW1 hdeg]
  exact kGcn_eq_rGcn A (dvec A) _ bz hA (realVec_dvec A hdeg) (realMat_mm (realMat_rX1 X A W1 b1 hX hA hW1 hb1 hdeg) hWz)

theorem realMat_rZ1 (hX : RealMat X) (hA : RealMat A) (hW1 : RealMat W1) (hb1 : RealVec b1) (hWz : RealMat Wz)
    (hbz : RealVec bz) (hdeg : ∀ i, ∃ k, A i k ≠ 0) : RealMat (rZ1 X A W1 b1 Wz bz) :=
  realMat_rGcn (realMat_adjn hA (realVec_dvec A hdeg)) (realMat_mm (realMat_rX1 X A W1 b1 hX hA hW1 hb1 hdeg) hWz) hbz

theorem kS1_eq_rS1 (hX : RealMat X) (hA : RealMat A) (hW1 : RealMat W1) (hb1 : RealVec b1) (hWs : RealMat Ws)
    (hdeg : ∀ i, ∃ k, A i k ≠ 0) : kS1 X A W1 b1 Ws bs = rS1 X A W1 b1 Ws bs := by
  unfold kS1 rS1
  rw [kXg_eq_rX1 X A W1 b1 hX hA hW1 hdeg]
  rw [kGcn_eq_rGcn A (dvec A) _ bs hA (realVec_dvec A hdeg) (realMat_mm (realMat_rX1 X A W1 b1 hX hA hW1 hb1 hdeg) hWs)]

theorem realMat_rS1 (hX : RealMat X) (hA : RealMat A) (hW1 : RealMat W1) (hb1 : RealVec b1) (hWs : RealMat Ws)
    (hbs : RealVec bs) (hdeg : ∀ i, ∃ k, A i k ≠ 0) : RealMat (rS1 X A W1 b1 Ws bs) :=
  realMat_softmaxRows
    (realMat_rGcn (realMat_adjn hA (realVec_dvec A hdeg)) (realMat_mm (realMat_rX1 X A W1 b1 hX hA hW1 hb1 hdeg) hWs) hbs)

/-- The pooled features: the kernel's are the reference's. -/
theorem kX2_eq_rX2 (hX : RealMat X) (hA : RealMat A) (hW1 : RealMat W1) (hb1 : RealVec b1) (hWz : RealMat Wz)
    (hbz : RealVec bz) (hWs : RealMat Ws) (hbs : RealVec bs) (hdeg : ∀ i, ∃ k, A i k ≠ 0) :
    kX2 X A W1 b1 Wz bz Ws bs = rX2 X A W1 b1 Wz bz Ws bs := by
  unfold kX2 rX2
  rw [kS1_eq_rS1 X A W1 b1 Ws bs hX hA hW1 hb1 hWs hdeg, kZ1_eq_rZ1 X A W1 b1 Wz bz hX hA hW1 hb1 hWz hdeg]

/-- The pooled adjacency: the kernel's is the reference's. -/
theorem kAdj2_eq_rAdj2 (hX : RealMat X) (hA : RealMat A) (hW1 : RealMat W1) (hb1 : RealVec b1) (hWz : RealMat Wz)
    (hbz : RealVec bz) (hWs : RealMat Ws) (hbs : RealVec bs) (hdeg : ∀ i, ∃ k, A i k ≠ 0) :
    kAdj2 X A W1 b1 Ws bs = rAdj2 X A W1 b1 Ws bs := by
  unfold kAdj2 rAdj2
  rw [kS1_eq_rS1 X A W1 b1 Ws bs hX hA hW1 hb1 hWs hdeg]
  rw [kPoolAdj_eq_mmT _ A (dvec A) (realMat_rS1 X A W1 b1 Ws bs hX hA hW1 hb1 hWs hbs hdeg) hA (realVec_dvec A hdeg)]

end Block

end Cert.GcnSpec

end
-- ==== Proof.KChain.lean ====
/-
  The first pooling block read off array by array: twelve arrays, each given entry by entry from the ones before it in
  the shape the kernel computes it (the degree as a sum of indicators, d its inverse square root, the products with d
  pulled out of the sums, the row-wise softmax, the two pooled products), are together the closed forms kX2 and kAdj2.
  Nothing here needs an entry to be finite: every step is an unfolding.
-/
import proofs.«105977_j57329223467619_2_alg».proof.Proof.Spec

noncomputable section

namespace Cert.GcnSpec

open Idealize.ShloMosaic

/-- Arrays that satisfy the block's twelve entrywise equations end in the kernel-side closed forms. -/
theorem kchain {n f0 f1 f2 s : ℕ} (X : Mat n f0) (A : Mat n n) (W1 : Mat f0 f1) (b1 : Fin f1 → EReal)
    (Wz : Mat f1 f2) (bz : Fin f2 → EReal) (Ws : Mat f1 s) (bs : Fin s → EReal)
    (adjb : Mat n n) (degK d : Fin n → EReal) (h1 xg : Mat n f1) (hz z1 : Mat n f2) (hs s1 : Mat n s)
    (x2 : Mat s f2) (adj2a : Mat s n) (adj2 : Mat s s)
    (hadjb : ∀ p q, adjb p q = A p q)
    (hdegK : ∀ p, degK p = ∑ k, indic (A p k))
    (hd : ∀ p, d p = Ideal.rsqrt (degK p))
    (hh1 : ∀ p q, h1 p q = ∑ k, X p k * W1 k q)
    (hxg : ∀ p q, xg p q = (∑ k, adjb p k * (h1 k q * d k)) * d p + b1 q)
    (hhz : ∀ p q, hz p q = ∑ k, xg p k * Wz k q)
    (hhs : ∀ p q, hs p q = ∑ k, xg p k * Ws k q)
    (hz1 : ∀ p q, z1 p q = (∑ k, adjb p k * (hz k q * d k)) * d p + bz q)
    (hs1 : ∀ p q, s1 p q = softmaxRow (fun j => (∑ k, adjb p k * (hs k j * d k)) * d p + bs j) q)
    (hx2 : ∀ p q, x2 p q = ∑ i, s1 i p * z1 i q)
    (hadj2a : ∀ p j, adj2a p j = (∑ i, (s1 i p * d i) * adjb i j) * d j)
    (hadj2 : ∀ p q, adj2 p q = ∑ j, adj2a p j * s1 j q) :
    x2 = kX2 X A W1 b1 Wz bz Ws bs ∧ adj2 = kAdj2 X A W1 b1 Ws bs := by
  have eA : adjb = A := funext fun p => funext fun q => hadjb p q
  subst eA
  have edeg : degK = deg adjb := funext fun p => hdegK p
  subst edeg
  have ed : d = dvec adjb := funext fun p => hd p
  subst ed
  have eh1 : h1 = mm X W1 := funext fun p => funext fun q => hh1 p q
  subst eh1
  have exg : xg = kXg X adjb W1 b1 := funext fun p => funext fun q => hxg p q
  subst exg
  have ehz : hz = mm (kXg X adjb W1 b1) Wz := funext fun p => funext fun q => hhz p q
  subst ehz
  have ehs : hs = mm (kXg X adjb W1 b1) Ws := funext fun p => funext fun q => hhs p q
  subst ehs
  have ez1 : z1 = kZ1 X adjb W1 b1 Wz bz := funext fun p => funext fun q => hz1 p q
  subst ez1
  have es1 : s1 = kS1 X adjb W1 b1 Ws bs := funext fun p => funext fun q => hs1 p q
  subst es1
  have ea : adj2a = kPoolAdj (kS1 X adjb W1 b1 Ws bs) adjb (dvec adjb) :=
    funext fun p => funext fun j => hadj2a p j
  subst ea
  exact ⟨funext fun p => funext fun q => hx2 p q, funext fun p => funext fun q => hadj2 p q⟩

end Cert.GcnSpec

end
-- ==== Proof.Bridge0.lean ====
/-
  Arrays over a shape's index type read as matrices: an array over the rank-2 shape [a, b] is the matrix of its entries
  at the indices (p, q), an array over the rank-1 shape [a] the vector of its entries; two arrays that agree at every
  (p, q) are equal; hence two arrays whose entries are, one the kernel-side closed form of the first pooling block and
  the other the reference-side one, are equal under the precondition.
-/
import proofs.«105977_j57329223467619_2_alg».proof.Proof.Spec
import proofs.«105977_j57329223467619_2_alg».proof.Proof.Alg
import proofs.«105977_j57329223467619_2_alg».proof.Proof.KChain
import Idealize.ShloMosaic.Lib.ValueIdx

noncomputable section

namespace Cert.GcnSpec

open Idealize.ShloMosaic

/-- An array over the rank-2 shape [a, b], as the matrix of its entries. -/
def toMat {a b : ℕ} (f : (⟨2, ![a, b]⟩ : Shape).Idx → EReal) : Mat a b := fun p q => f (ValueIdx.ix2 p q)

/-- An array over the rank-1 shape [a], as the vector of its entries. -/
def toVec {a : ℕ} (f : (⟨1, ![a]⟩ : Shape).Idx → EReal) : Fin a → EReal := fun p => f (ValueIdx.ix1 p)

theorem toMat_apply {a b : ℕ} (f : (⟨2, ![a, b]⟩ : Shape).Idx → EReal) (p : Fin a) (q : Fin b) :
    toMat f p q = f (ValueIdx.ix2 p q) := rfl

theorem toVec_apply {a : ℕ} (f : (⟨1, ![a]⟩ : Shape).Idx → EReal) (p : Fin a) : toVec f p = f (ValueIdx.ix1 p) := rfl

/-- Two arrays over a rank-2 shape that agree at every (p, q) are equal. -/
theorem ext_ix2 {α : Type*} {a b : ℕ} (f g : (⟨2, ![a, b]⟩ : Shape).Idx → α)
    (h : ∀ p q, f (ValueIdx.ix2 p q) = g (ValueIdx.ix2 p q)) : f = g :=
  funext fun j => by rw [ValueIdx.eq_ix2 j]; exact h (j 0) (j 1)

/-- Two arrays over a rank-1 shape that agree at every p are equal. -/
theorem ext_ix1 {α : Type*} {a : ℕ} (f g : (⟨1, ![a]⟩ : Shape).Idx → α)
    (h : ∀ p, f (ValueIdx.ix1 p) = g (ValueIdx.ix1 p)) : f = g :=
  funext fun j => by rw [ValueIdx.eq_ix1 j]; exact h (j 0)

/-- The matrix of an array's entries determines the array. -/
theorem toMat_injective {a b : ℕ} (f g : (⟨2, ![a, b]⟩ : Shape).Idx → EReal) (h : toMat f = toMat g) : f = g :=
  ext_ix2 f g fun p q => congrFun (congrFun h p) q

theorem toVec_injective {a : ℕ} (f g : (⟨1, ![a]⟩ : Shape).Idx → EReal) (h : toVec f = toVec g) : f = g :=
  ext_ix1 f g fun p => congrFun h p

/-- An array whose entries are those of a matrix has that matrix. -/
theorem toMat_eq_of_apply {a b : ℕ} (f : (⟨2, ![a, b]⟩ : Shape).Idx → EReal) (M : Mat a b)
    (h : ∀ p q, f (ValueIdx.ix2 p q) = M p q) : toMat f = M :=
  funext fun p => funext fun q => h p q

theorem toVec_eq_of_apply {a : ℕ} (f : (⟨1, ![a]⟩ : Shape).Idx → EReal) (v : Fin a → EReal)
    (h : ∀ p, f (ValueIdx.ix1 p) = v p) : toVec f = v :=
  funext fun p => h p

/-- Two arrays whose entries are those of two equal matrices are equal. -/
theorem eq_of_apply_eq {a b : ℕ} (f g : (⟨2, ![a, b]⟩ : Shape).Idx → EReal) (M N : Mat a b)
    (hf : ∀ p q, f (ValueIdx.ix2 p q) = M p q) (hg : ∀ p q, g (ValueIdx.ix2 p q) = N p q) (hMN : M = N) : f = g :=
  ext_ix2 f g fun p q => by rw [hf, hg, hMN]

/-- Every entry of the array is a real number exactly when its matrix is real. -/
theorem realMat_toMat {a b : ℕ} (f : (⟨2, ![a, b]⟩ : Shape).Idx → EReal) (h : ∀ j, ∃ r : ℝ, f j = (r : EReal)) :
    RealMat (toMat f) := fun p q => h (ValueIdx.ix2 p q)

theorem realVec_toVec {a : ℕ} (f : (⟨1, ![a]⟩ : Shape).Idx → EReal) (h : ∀ j, ∃ r : ℝ, f j = (r : EReal)) :
    RealVec (toVec f) := fun p => h (ValueIdx.ix1 p)

section Block
variable {n f0 f1 f2 s : ℕ} (X : Mat n f0) (A : Mat n n) (W1 : Mat f0 f1) (b1 : Fin f1 → EReal)
  (Wz : Mat f1 f2) (bz : Fin f2 → EReal) (Ws : Mat f1 s) (bs : Fin s → EReal)

/-- An array holding the kernel-side pooled features and one holding the reference-side ones are equal. -/
theorem x2_bridge (f g : (⟨2, ![s, f2]⟩ : Shape).Idx → EReal) (hX : RealMat X) (hA : RealMat A) (hW1 : RealMat W1)
    (hb1 : RealVec b1) (hWz : RealMat Wz) (hbz : RealVec bz) (hWs : RealMat Ws) (hbs : RealVec bs)
    (hdeg : ∀ i, ∃ k, A i k ≠ 0)
    (hf : ∀ p q, f (ValueIdx.ix2 p q) = kX2 X A W1 b1 Wz bz Ws bs p q)
    (hg : ∀ p q, g (ValueIdx.ix2 p q) = rX2 X A W1 b1 Wz bz Ws bs p q) : f = g :=
  eq_of_apply_eq f g _ _ hf hg (kX2_eq_rX2 X A W1 b1 Wz bz Ws bs hX hA hW1 hb1 hWz hbz hWs hbs hdeg)

/-- An array holding the kernel-side pooled adjacency and one holding the reference-side one are equal. -/
theorem adj2_bridge (f g : (⟨2, ![s, s]⟩ : Shape).Idx → EReal) (hX : RealMat X) (hA : RealMat A) (hW1 : RealMat W1)
    (hb1 : RealVec b1) (hWz : RealMat Wz) (hbz : RealVec bz) (hWs : RealMat Ws) (hbs : RealVec bs)
    (hdeg : ∀ i, ∃ k, A i k ≠ 0)
    (hf : ∀ p q, f (ValueIdx.ix2 p q) = kAdj2 X A W1 b1 Ws bs p q)
    (hg : ∀ p q, g (ValueIdx.ix2 p q) = rAdj2 X A W1 b1 Ws bs p q) : f = g :=
  eq_of_apply_eq f g _ _ hf hg (kAdj2_eq_rAdj2 X A W1 b1 Wz bz Ws bs hX hA hW1 hb1 hWz hbz hWs hbs hdeg)

end Block

end Cert.GcnSpec

end
-- ==== Proof.KI.Val0.lean ====
/-
  The values region 0 leaves, at the ideal instance (every float an extended real): the bfloat16 copy of the adjacency
  matrix holds the matrix, and the degree column holds, row by row, the number of nonzero entries of the row.
-/
import proofs.«105977_j57329223467619_2_alg».proof.Proof.KI.Reg0
import proofs.«105977_j57329223467619_2_alg».proof.Proof.Spec
import proofs.«105977_j57329223467619_2_alg».proof.Proof.LibPlain
import proofs.«105977_j57329223467619_2_alg».proof.Proof.Bridge0

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open ValueIdx

/-! ## The payloads at an index -/

/-- The indicator of a nonzero entry as the kernel computes it: compare with zero, widen the bit, convert. -/
theorem indic0_elem (x : EReal) :
    (FloatOps.sitofp (F := Ideal) .f32 ((FloatOps.cmpf (F := Ideal) (φ := .f32) .one x (Scalar.ofBits (F := Ideal) .f32 0x00000000#32)).setWidth 32) : EReal)
      = Cert.GcnSpec.indic x := by
  show (((((Ideal.cmp .one x (Ideal.ofBits .f32 0x00000000#32)).setWidth 32).toInt : ℝ)) : EReal) = _
  rw [Ideal.ofBits_zero_f32]
  unfold Ideal.cmp Cert.GcnSpec.indic
  by_cases h : x = 0
  · rw [if_pos h]
    have e : (BitVec.setWidth 32 (BitVec.ofBool (decide (x ≠ 0)))).toInt = 0 := by
      rw [show decide (x ≠ 0) = false from by simp [h]]; decide
    show (((BitVec.setWidth 32 (BitVec.ofBool (decide (x ≠ 0)))).toInt : ℝ) : EReal) = 0
    rw [e]; simp
  · rw [if_neg h]
    have e : (BitVec.setWidth 32 (BitVec.ofBool (decide (x ≠ 0)))).toInt = 1 := by
      rw [show decide (x ≠ 0) = true from by simp [h]]; decide
    show (((BitVec.setWidth 32 (BitVec.ofBool (decide (x ≠ 0)))).toInt : ℝ) : EReal) = 1
    rw [e]; simp

/-- The zero block at an index. -/
theorem k0_pay1_apply0 (i : S1024x1.Idx) : (k0_pay1 (F := Ideal) : S1024x1.Idx → EReal) i = 0 := by
  unfold k0_pay1
  rw [shapeCast_self]
  show Ideal.ofBits .f32 0x00000000#32 = 0
  exact Ideal.ofBits_zero_f32

/-- The recast block at an index: the block. -/
theorem k0_pay3_apply0 (x : Vec Ideal S1024x2048 .f32) (i : S1024x2048.Idx) :
    (k0_pay3 (F := Ideal) x : S1024x2048.Idx → EReal) i = (x : S1024x2048.Idx → EReal) i := rfl

/-- The accumulator's step at row r: what it held plus the number of nonzero entries of the block's row. -/
theorem k0_pay2_apply0 (x : Vec Ideal S1024x2048 .f32) (a : Vec Ideal S1024x1 .f32) (r : Fin 1024) :
    (k0_pay2 (F := Ideal) x a : S1024x1.Idx → EReal) (ix2 r 0)
      = (a : S1024x1.Idx → EReal) (ix2 r 0) + ∑ k : Fin 2048, Cert.GcnSpec.indic ((x : S1024x2048.Idx → EReal) (ix2 r k)) := by
  unfold k0_pay2
  rw [shapeCast_self]
  show (a (ix2 r 0) : EReal) + shapeCast S1024x1 _ shapeCasts_S1024_S1024x1 (ix2 r 0) = _
  rw [shapeCast_col]
  refine congrArg (fun z => (a (ix2 r 0) : EReal) + z) ?_
  refine (Ideal.multiReduction_add_rows_f32 _ reduces_S1024x2048_S1024 rfl r).trans ?_
  exact Finset.sum_congr rfl fun k _ => indic0_elem _

/-! ## The windows' block indices, and the input block at an index -/

/-- The block index of a point: row block t / 4 for every window; column block t % 4 for the matrix windows, 0 for the
    degree window. -/
theorem index0_0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem index0_1 : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)
theorem index0_2 : ∀ t : Fin cfg0.N, win0_2.index t 0 = t.val / 4 ∧ win0_2.index t 1 = 0 :=
  (by decide +kernel : ∀ t : Fin grid0.N, win0_2.index t 0 = t.val / 4 ∧ win0_2.index t 1 = 0)
/-- No block is cut. -/
theorem xsize0_1 : ∀ t : Fin cfg0.N, win0_1.xsize (grid0.coords t) 0 = 1024 ∧ win0_1.xsize (grid0.coords t) 1 = 2048 :=
  (by decide +kernel : ∀ t : Fin grid0.N, win0_1.xsize (grid0.coords t) 0 = 1024 ∧ win0_1.xsize (grid0.coords t) 1 = 2048)
theorem xsize0_2 : ∀ t : Fin cfg0.N, win0_2.xsize (grid0.coords t) 0 = 1024 ∧ win0_2.xsize (grid0.coords t) 1 = 1 :=
  (by decide +kernel : ∀ t : Fin grid0.N, win0_2.xsize (grid0.coords t) 0 = 1024 ∧ win0_2.xsize (grid0.coords t) 1 = 1)

/-- A square matrix read at two natural numbers (zero outside). -/
def natAt0 (A : S8192x8192.Idx → EReal) (i j : ℕ) : EReal :=
  if h : i < 8192 ∧ j < 8192 then A (ix2 ⟨i, h.1⟩ ⟨j, h.2⟩) else 0

theorem natAt0_fin (A : S8192x8192.Idx → EReal) (p q : Fin 8192) : natAt0 A p.val q.val = A (ix2 p q) := by
  unfold natAt0; rw [dif_pos ⟨p.isLt, q.isLt⟩]

section Values0
variable (V : (c : Dev nD) → (b : Ref sig .tc) → Buf (Elt Ideal) ((c : Thread nD τ).loc b))

/-- The input window's block at point t, at (r, k): the matrix at row (t / 4) · 1024 + r, column (t % 4) · 2048 + k. -/
theorem iblk0_apply (c : Dev nD) (t : Fin cfg0.N) (r : Fin 1024) (k : Fin 2048) :
    (iblk0 (F := Ideal) V c 0 t : S1024x2048.Idx → EReal) (ix2 r k)
      = natAt0 (V c main_arg1 : S8192x8192.Idx → EReal) (t.val / 4 * 1024 + r.val) (t.val % 4 * 2048 + k.val) := by
  have hN : t.val < 32 := lt_of_lt_of_eq t.isLt (show cfg0.N = 32 from N_0)
  have hr : t.val / 4 * 1024 + r.val < 8192 := by have := r.isLt; omega
  have hk : t.val % 4 * 2048 + k.val < 8192 := by have := k.isLt; omega
  unfold natAt0; rw [dif_pos ⟨hr, hk⟩]
  unfold iblk0
  rw [View.read_apply]
  show (V c main_arg1 : S8192x8192.Idx → EReal) _ = (V c main_arg1 : S8192x8192.Idx → EReal) _
  congr 1
  funext a
  apply Fin.ext
  match a with
  | ⟨0, _⟩ => show win0_0.index t 0 * 1024 + 1 * r.val = t.val / 4 * 1024 + r.val; rw [(index0_0 t).1]; omega
  | ⟨1, _⟩ => show win0_0.index t 1 * 2048 + 1 * k.val = t.val % 4 * 2048 + k.val; rw [(index0_0 t).2]; omega

/-! ## The accumulator at the last column step of a row block -/

/-- The number of nonzero entries of row r of the input block at position n. -/
def rowCnt0 (c : Dev nD) (n : ℕ) (hn : n < cfg0.N) (r : Fin 1024) : EReal :=
  ∑ k : Fin 2048, Cert.GcnSpec.indic ((iblk0 (F := Ideal) V c 0 ⟨n, hn⟩ : S1024x2048.Idx → EReal) (ix2 r k))

theorem rowCnt0_eq (c : Dev nD) (n : ℕ) (hn : n < cfg0.N) (r : Fin 1024) :
    rowCnt0 V c n hn r = ∑ k : Fin 2048, Cert.GcnSpec.indic
      (natAt0 (V c main_arg1 : S8192x8192.Idx → EReal) (n / 4 * 1024 + r.val) (n % 4 * 2048 + k.val)) :=
  Finset.sum_congr rfl fun k _ => congrArg Cert.GcnSpec.indic (iblk0_apply V c ⟨n, hn⟩ r k)

theorem accAt0_reset (c : Dev nD) (n : ℕ) (hn : n < cfg0.N) (h : n % 4 = 0) (r : Fin 1024) :
    (accAt0 (F := Ideal) V c n hn : S1024x1.Idx → EReal) (ix2 r 0) = 0 + rowCnt0 V c n hn r := by
  have e : accAt0 (F := Ideal) V c n hn = k0_pay2 (iblk0 V c 0 ⟨n, hn⟩) (k0_pay1 (F := Ideal)) := accAt0_first V c ⟨n, hn⟩ h
  rw [e, k0_pay2_apply0, k0_pay1_apply0]; rfl

theorem accAt0_step (c : Dev nD) (n : ℕ) (hn : n + 1 < cfg0.N) (h : ¬(n + 1) % 4 = 0) (r : Fin 1024) :
    (accAt0 (F := Ideal) V c (n + 1) hn : S1024x1.Idx → EReal) (ix2 r 0)
      = (accAt0 (F := Ideal) V c n (Nat.lt_of_succ_lt hn) : S1024x1.Idx → EReal) (ix2 r 0) + rowCnt0 V c (n + 1) hn r := by
  have e : accAt0 (F := Ideal) V c (n + 1) hn
      = k0_pay2 (iblk0 V c 0 ⟨n + 1, hn⟩) (accAt0 V c n (Nat.lt_of_succ_lt hn)) := by
    show k0_pay2 _ (if (n + 1) % 4 = 0 then _ else _) = _
    rw [if_neg h]
  rw [e, k0_pay2_apply0]; rfl

/-- A row's count over all 8192 columns is the sum of its counts over the four column blocks. -/
theorem sum_blocks0 (f : ℕ → EReal) :
    ∑ k : Fin 8192, f k.val = (∑ k : Fin 2048, f (0 * 2048 + k.val)) + (∑ k : Fin 2048, f (1 * 2048 + k.val))
      + (∑ k : Fin 2048, f (2 * 2048 + k.val)) + (∑ k : Fin 2048, f (3 * 2048 + k.val)) := by
  have h := sum_tiles 4 2048 (fun j : Fin (4 * 2048) => f j.val)
  refine Eq.trans (by exact h) ?_
  rw [Fin.sum_univ_four]
  have hv : ∀ (b : Fin 4) (k : Fin 2048), (finProdFinEquiv (b, k) : Fin (4 * 2048)).val = b.val * 2048 + k.val := by
    intro b k; show k.val + 2048 * b.val = _; omega
  simp only [hv]
  rfl

/-- After the last column step of row block a the accumulator holds, at row r, the number of nonzero entries of the
    whole row a · 1024 + r of the matrix. -/
theorem accAt0_last (c : Dev nD) (t : Fin cfg0.N) (h3 : t.val % 4 = 3) (r : Fin 1024) :
    (accAt0 (F := Ideal) V c t.val t.isLt : S1024x1.Idx → EReal) (ix2 r 0)
      = ∑ k : Fin 8192, Cert.GcnSpec.indic (natAt0 (V c main_arg1 : S8192x8192.Idx → EReal) (t.val / 4 * 1024 + r.val) k.val) := by
  obtain ⟨n, hn⟩ := t
  dsimp only at h3 ⊢
  obtain ⟨m, rfl⟩ : ∃ m, n = m + 1 + 1 + 1 := ⟨n - 3, by omega⟩
  have hN : m + 1 + 1 + 1 < 32 := lt_of_lt_of_eq hn (show cfg0.N = 32 from N_0)
  rw [accAt0_step V c (m + 1 + 1) hn (by omega) r, accAt0_step V c (m + 1) _ (by omega) r,
    accAt0_step V c m _ (by omega) r, accAt0_reset V c m _ (by omega) r,
    rowCnt0_eq, rowCnt0_eq, rowCnt0_eq, rowCnt0_eq, zero_add,
    sum_blocks0 (fun j => Cert.GcnSpec.indic (natAt0 (V c main_arg1 : S8192x8192.Idx → EReal) ((m + 1 + 1 + 1) / 4 * 1024 + r.val) j))]
  have e0 : m / 4 = (m + 1 + 1 + 1) / 4 := by omega
  have e1 : (m + 1) / 4 = (m + 1 + 1 + 1) / 4 := by omega
  have e2 : (m + 1 + 1) / 4 = (m + 1 + 1 + 1) / 4 := by omega
  have f0 : m % 4 = 0 := by omega
  have f1 : (m + 1) % 4 = 1 := by omega
  have f2 : (m + 1 + 1) % 4 = 2 := by omega
  have f3 : (m + 1 + 1 + 1) % 4 = 3 := by omega
  rw [e0, e1, e2, f0, f1, f2, f3]

/-! ## The two output arrays after the region -/

/-- The matrix, as contents of the copy's array. -/
def G0_1 (c : Dev nD) : Buf (Elt Ideal) ((cfg0.win 1).arr.view.loc (c.tc : Thread nD τ)) :=
  fun i => natAt0 (V c main_arg1 : S8192x8192.Idx → EReal) ((i : S8192x8192.Idx) 0).val ((i : S8192x8192.Idx) 1).val

/-- What every point writes back through the copy's window is its block of the matrix. -/
theorem hG0_1 (c : Dev nD) (t : Fin cfg0.N) (hf : (cfg0.win 1).flush t = true) :
    (dat0 V c).flushed 1 t = ((cfg0.win 1).blk t).view.read (Elt Ideal) (G0_1 V c) := by
  show (cfg0.win 1).cut (grid0.coords t) ((dat0 V c).after 1 t) = _
  rw [after0_1]
  funext y
  obtain ⟨r, k, rfl⟩ : ∃ (r : Fin 1024) (k : Fin 2048), y = (ix2 r k : S1024x2048.Idx) := ⟨_, _, eq_ix2 (y : S1024x2048.Idx)⟩
  rw [View.read_apply]
  show (k0_pay3 (iblk0 V c 0 t) : S1024x2048.Idx → EReal) (ix2 r k) = G0_1 V c _
  rw [k0_pay3_apply0, iblk0_apply]
  unfold G0_1
  refine congrArg₂ (natAt0 (V c main_arg1 : S8192x8192.Idx → EReal)) ?_ ?_
  · show t.val / 4 * 1024 + r.val = win0_1.index t 0 * 1024 + 1 * r.val
    rw [(index0_1 t).1]; omega
  · show t.val % 4 * 2048 + k.val = win0_1.index t 1 * 2048 + 1 * k.val
    rw [(index0_1 t).2]; omega

/-- Entry (p, q) lies in the block of the point of row block p / 1024 and column block q / 2048. -/
theorem mem0_1 (p q : Fin 8192) (t : Fin cfg0.N) (ht : t.val = p.val / 1024 * 4 + q.val / 2048) :
    (ix2 p q : S8192x8192.Idx) ∈ ((cfg0.win 1).blk t).view.set := by
  have hp := p.isLt
  have hq := q.isLt
  show (ix2 p q : S8192x8192.Idx) ∈ ((View.whole main_v0_0).slice (win0_1.rect t)).set
  rw [View.set_slice_whole, Rect.mem_set_unit]
  intro a
  match a with
  | ⟨0, _⟩ =>
    show win0_1.index t 0 * 1024 ≤ p.val ∧ p.val < win0_1.index t 0 * 1024 + win0_1.xsize (grid0.coords t) 0
    rw [(index0_1 t).1, (xsize0_1 t).1]; omega
  | ⟨1, _⟩ =>
    show win0_1.index t 1 * 2048 ≤ q.val ∧ q.val < win0_1.index t 1 * 2048 + win0_1.xsize (grid0.coords t) 1
    rw [(index0_1 t).2, (xsize0_1 t).2]; omega

/-- The row counts of the matrix, as contents of the degree array. -/
def G0_2 (c : Dev nD) : Buf (Elt Ideal) ((cfg0.win 2).arr.view.loc (c.tc : Thread nD τ)) :=
  fun i => ((∑ k : Fin 8192, Cert.GcnSpec.indic (natAt0 (V c main_arg1 : S8192x8192.Idx → EReal) ((i : S8192x1.Idx) 0).val k.val) : EReal))

/-- What the last column step of each row block writes back through the degree window is its block of the row counts. -/
theorem hG0_2 (c : Dev nD) (t : Fin cfg0.N) (hf : (cfg0.win 2).flush t = true) :
    (dat0 V c).flushed 2 t = ((cfg0.win 2).blk t).view.read (Elt Ideal) (G0_2 V c) := by
  have h3 : t.val % 4 = 3 := (flush0_2 t).mp hf
  show (cfg0.win 2).cut (grid0.coords t) ((dat0 V c).after 2 t) = _
  rw [after0_2]
  funext y
  obtain ⟨r, j, rfl⟩ : ∃ (r : Fin 1024) (j : Fin 1), y = (ix2 r j : S1024x1.Idx) := ⟨_, _, eq_ix2 (y : S1024x1.Idx)⟩
  obtain rfl : j = 0 := Subsingleton.elim _ _
  rw [View.read_apply]
  show (accAt0 V c t.val t.isLt : S1024x1.Idx → EReal) (ix2 r 0) = G0_2 V c _
  rw [accAt0_last V c t h3 r]
  unfold G0_2
  refine Finset.sum_congr rfl fun k _ => congrArg Cert.GcnSpec.indic ?_
  refine congrArg (fun z => natAt0 (V c main_arg1 : S8192x8192.Idx → EReal) z k.val) ?_
  show t.val / 4 * 1024 + r.val = win0_2.index t 0 * 1024 + 1 * r.val
  rw [(index0_2 t).1]; omega

/-- Row p's entry of the degree column lies in the block of the last column step of row block p / 1024. -/
theorem mem0_2 (p : Fin 8192) (t : Fin cfg0.N) (ht : t.val = p.val / 1024 * 4 + 3) :
    (ix2 p 0 : S8192x1.Idx) ∈ ((cfg0.win 2).blk t).view.set := by
  have hp := p.isLt
  show (ix2 p 0 : S8192x1.Idx) ∈ ((View.whole main_v0_1).slice (win0_2.rect t)).set
  rw [View.set_slice_whole, Rect.mem_set_unit]
  intro a
  match a with
  | ⟨0, _⟩ =>
    show win0_2.index t 0 * 1024 ≤ p.val ∧ p.val < win0_2.index t 0 * 1024 + win0_2.xsize (grid0.coords t) 0
    rw [(index0_2 t).1, (xsize0_2 t).1]; omega
  | ⟨1, _⟩ =>
    show win0_2.index t 1 * 1 ≤ 0 ∧ 0 < win0_2.index t 1 * 1 + win0_2.xsize (grid0.coords t) 1
    rw [(index0_2 t).2, (xsize0_2 t).2]; omega

end Values0

/-! ## The values at the region's exit -/

/-- The copy holds the matrix. -/
theorem val0_copy_ix (W : Dev nD → Valuation τ sig (Elt Ideal)) (c : Dev nD) (p q : Fin 8192) :
    (Wout0 (F := Ideal) W c (Proc.devRef .tc main_v0_0) : S8192x8192.Idx → EReal) (ix2 p q)
      = (W c (Proc.devRef .tc main_arg1) : S8192x8192.Idx → EReal) (ix2 p q) := by
  rw [Wout0_main_v0_0]
  have hp := p.isLt
  have hq := q.isLt
  have ht : p.val / 1024 * 4 + q.val / 2048 < cfg0.N := by rw [show cfg0.N = 32 from N_0]; omega
  have h := (dat0 (Vin0 W) c).arrAt_apply_of_mem 1 (G0_1 (Vin0 W) c) (hG0_1 (Vin0 W) c) cfg0.N ⟨_, ht⟩ (ix2 p q) ht
    (flush0_1 _) (mem0_1 p q _ rfl)
  refine Eq.trans (by exact h) ?_
  unfold G0_1
  exact natAt0_fin _ p q

/-- The degree column holds, at row p, the number of nonzero entries of row p of the matrix. -/
theorem val0_deg_ix (W : Dev nD → Valuation τ sig (Elt Ideal)) (c : Dev nD) (p : Fin 8192) :
    (Wout0 (F := Ideal) W c (Proc.devRef .tc main_v0_1) : S8192x1.Idx → EReal) (ix2 p 0)
      = ∑ k : Fin 8192, Cert.GcnSpec.indic ((W c (Proc.devRef .tc main_arg1) : S8192x8192.Idx → EReal) (ix2 p k)) := by
  rw [Wout0_main_v0_1]
  have hp := p.isLt
  have ht : p.val / 1024 * 4 + 3 < cfg0.N := by rw [show cfg0.N = 32 from N_0]; omega
  have h := (dat0 (Vin0 W) c).arrAt_apply_of_mem 2 (G0_2 (Vin0 W) c) (hG0_2 (Vin0 W) c) cfg0.N ⟨_, ht⟩ (ix2 p 0) ht
    ((flush0_2 _).mpr (by show (p.val / 1024 * 4 + 3) % 4 = 3; omega)) (mem0_2 p _ rfl)
  refine Eq.trans (b := ((∑ k : Fin 8192, Cert.GcnSpec.indic (natAt0 (Vin0 W c main_arg1 : S8192x8192.Idx → EReal) p.val k.val) : EReal))) (by exact h) ?_
  exact Finset.sum_congr rfl fun k _ => congrArg Cert.GcnSpec.indic (natAt0_fin _ p k)

/-- The same two facts with every array read as the matrix of its entries. -/
theorem val0_copy (W : Dev nD → Valuation τ sig (Elt Ideal)) (c : Dev nD) (p q : Fin 8192) :
    Cert.GcnSpec.toMat (Wout0 (F := Ideal) W c (Proc.devRef .tc main_v0_0) : S8192x8192.Idx → EReal) p q
      = Cert.GcnSpec.toMat (W c (Proc.devRef .tc main_arg1) : S8192x8192.Idx → EReal) p q :=
  val0_copy_ix W c p q

theorem val0_deg (W : Dev nD → Valuation τ sig (Elt Ideal)) (c : Dev nD) (p : Fin 8192) :
    Cert.GcnSpec.toMat (Wout0 (F := Ideal) W c (Proc.devRef .tc main_v0_1) : S8192x1.Idx → EReal) p 0
      = ∑ k : Fin 8192, Cert.GcnSpec.indic (Cert.GcnSpec.toMat (W c (Proc.devRef .tc main_arg1) : S8192x8192.Idx → EReal) p k) :=
  val0_deg_ix W c p

end Cert.KernelIdeal.Hand

end
-- ==== Proof.KI.Val1.lean ====
/-
  Region 1 at the ideal values: the output array after the region, read at (p, q), is the sum over the whole contracted axis
  of the products of row p of the left array and column q of the right array, both as the region found them.
-/
import proofs.«105977_j57329223467619_2_alg».proof.Proof.KI.Reg1
import proofs.«105977_j57329223467619_2_alg».proof.Proof.LibPlain
import proofs.«105977_j57329223467619_2_alg».proof.Proof.Bridge0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open ValueIdx

/-! ## The body's output block at an index -/

/-- The dimension numbers of the body's product are the plain ones. -/
theorem dot1_eq : dot_S1024x784_S784x256_S1024x256_1_0_0_1_n_n = DotDims.plain 1024 784 256 := rfl

/-- The body's output block at (a, b): row a of the left block times column b of the right block, summed over the
    contracted axis (added to the zeroed accumulator; the format changes are the identity). -/
theorem out1_2_apply (x0 : Vec Ideal S1024x784 .f32) (x1 : Vec Ideal S784x256 .f32) (a : Fin 1024) (b : Fin 256) :
    out1_2 (F := Ideal) x0 x1 (ix2 a b) = ∑ k : Fin 784, x0 (ix2 a k) * x1 (ix2 k b) := by
  unfold out1_2 k1_pay3 k1_pay2 k1_pay1
  simp only [shapeCast_self]
  rw [truncf_apply, addf_apply, broadcast_apply, dot1_eq]
  refine (congrArg (fun z => (FloatOps.ofBits (F := Ideal) FTy.f32 0#32 : EReal) + z)
    (Ideal.matmul_plain_zero_apply none (truncf FTy.bf16 x0 bitsLt_bf16_f32) (truncf FTy.bf16 x1 bitsLt_bf16_f32) a b)).trans ?_
  show Ideal.ofBits .f32 0x00000000#32 + _ = _
  rw [Ideal.ofBits_zero_f32, zero_add]
  rfl

/-! ## The windows' block indices, and the input blocks at an index -/

/-- The block index of a point: row block t for the left array and the output, block (0, 0) for the right array. -/
theorem index1_0 : ∀ t : Fin cfg1.N, win1_0.index t 0 = t.val ∧ win1_0.index t 1 = 0 :=
  (by decide +kernel : ∀ t : Fin grid1.N, win1_0.index t 0 = t.val ∧ win1_0.index t 1 = 0)
theorem index1_1 : ∀ t : Fin cfg1.N, win1_1.index t 0 = 0 ∧ win1_1.index t 1 = 0 :=
  (by decide +kernel : ∀ t : Fin grid1.N, win1_1.index t 0 = 0 ∧ win1_1.index t 1 = 0)
theorem index1_2 : ∀ t : Fin cfg1.N, win1_2.index t 0 = t.val ∧ win1_2.index t 1 = 0 :=
  (by decide +kernel : ∀ t : Fin grid1.N, win1_2.index t 0 = t.val ∧ win1_2.index t 1 = 0)
/-- The output's blocks are not cut. -/
theorem xsize1_2 : ∀ t : Fin cfg1.N, win1_2.xsize (grid1.coords t) 0 = 1024 ∧ win1_2.xsize (grid1.coords t) 1 = 256 :=
  (by decide +kernel : ∀ t : Fin grid1.N, win1_2.xsize (grid1.coords t) 0 = 1024 ∧ win1_2.xsize (grid1.coords t) 1 = 256)

/-- A matrix read at two natural numbers (zero outside). -/
def natAt1 {a b : ℕ} (A : (⟨2, ![a, b]⟩ : Shape).Idx → EReal) (i j : ℕ) : EReal :=
  if h : i < a ∧ j < b then A (ix2 ⟨i, h.1⟩ ⟨j, h.2⟩) else 0

theorem natAt1_fin {a b : ℕ} (A : (⟨2, ![a, b]⟩ : Shape).Idx → EReal) (p : Fin a) (q : Fin b) : natAt1 A p.val q.val = A (ix2 p q) := by
  unfold natAt1; rw [dif_pos ⟨p.isLt, q.isLt⟩]

section Values1
variable (V : (c : Dev nD) → (b : Ref sig .tc) → Buf (Elt Ideal) ((c : Thread nD τ).loc b))

/-- The left window's block at point t, at (r, k): the left array at row t · 1024 + r, column k. -/
theorem iblk1_0_apply (c : Dev nD) (t : Fin cfg1.N) (r : Fin 1024) (k : Fin 784) :
    (iblk1 (F := Ideal) V c 0 t : S1024x784.Idx → EReal) (ix2 r k)
      = natAt1 (V c main_arg0 : S8192x784.Idx → EReal) (t.val * 1024 + r.val) k.val := by
  have hN : t.val < 8 := lt_of_lt_of_eq t.isLt (show cfg1.N = 8 from N_1)
  have hr : t.val * 1024 + r.val < 8192 := by have := r.isLt; omega
  unfold natAt1; rw [dif_pos ⟨hr, k.isLt⟩]
  unfold iblk1
  rw [View.read_apply]
  show (V c main_arg0 : S8192x784.Idx → EReal) _ = (V c main_arg0 : S8192x784.Idx → EReal) _
  congr 1
  funext a
  apply Fin.ext
  match a with
  | ⟨0, _⟩ => show win1_0.index t 0 * 1024 + 1 * r.val = t.val * 1024 + r.val; rw [(index1_0 t).1]; omega
  | ⟨1, _⟩ => show win1_0.index t 1 * 784 + 1 * k.val = k.val; rw [(index1_0 t).2]; omega

/-- The right window's block at any point, at (k, q): the right array there. -/
theorem iblk1_1_apply (c : Dev nD) (t : Fin cfg1.N) (k : Fin 784) (q : Fin 256) :
    (iblk1 (F := Ideal) V c 1 t : S784x256.Idx → EReal) (ix2 k q)
      = natAt1 (V c main_arg2 : S784x256.Idx → EReal) k.val q.val := by
  unfold natAt1; rw [dif_pos ⟨k.isLt, q.isLt⟩]
  unfold iblk1
  rw [View.read_apply]
  show (V c main_arg2 : S784x256.Idx → EReal) _ = (V c main_arg2 : S784x256.Idx → EReal) _
  congr 1
  funext a
  apply Fin.ext
  match a with
  | ⟨0, _⟩ => show win1_1.index t 0 * 784 + 1 * k.val = k.val; rw [(index1_1 t).1]; omega
  | ⟨1, _⟩ => show win1_1.index t 1 * 256 + 1 * q.val = q.val; rw [(index1_1 t).2]; omega

/-! ## The output array after the region -/

/-- The product of the two arrays, as contents of the output's array. -/
def G1_2 (c : Dev nD) : Buf (Elt Ideal) ((cfg1.win 2).arr.view.loc (c.tc : Thread nD τ)) :=
  fun i => ((∑ k : Fin 784, natAt1 (V c main_arg0 : S8192x784.Idx → EReal) ((i : S8192x256.Idx) 0).val k.val
    * natAt1 (V c main_arg2 : S784x256.Idx → EReal) k.val ((i : S8192x256.Idx) 1).val : EReal))

/-- What every point writes back through the output's window is its block of the product. -/
theorem hG1_2 (c : Dev nD) (t : Fin cfg1.N) (hf : (cfg1.win 2).flush t = true) :
    (dat1 V c).flushed 2 t = ((cfg1.win 2).blk t).view.read (Elt Ideal) (G1_2 V c) := by
  show (cfg1.win 2).cut (grid1.coords t) ((dat1 V c).after 2 t) = _
  rw [after1_2]
  funext y
  obtain ⟨r, q, rfl⟩ : ∃ (r : Fin 1024) (q : Fin 256), y = (ix2 r q : S1024x256.Idx) := ⟨_, _, eq_ix2 (y : S1024x256.Idx)⟩
  rw [View.read_apply]
  show (out1_2 (iblk1 V c 0 t) (iblk1 V c 1 t) : S1024x256.Idx → EReal) (ix2 r q) = G1_2 V c _
  rw [out1_2_apply]
  unfold G1_2
  refine Finset.sum_congr rfl fun k _ => ?_
  rw [iblk1_0_apply, iblk1_1_apply]
  refine congrArg₂ (fun x y : EReal => x * y) (congrArg (fun z => natAt1 (V c main_arg0 : S8192x784.Idx → EReal) z k.val) ?_)
    (congrArg (fun z => natAt1 (V c main_arg2 : S784x256.Idx → EReal) k.val z) ?_)
  · show t.val * 1024 + r.val = win1_2.index t 0 * 1024 + 1 * r.val
    rw [(index1_2 t).1]; omega
  · show q.val = win1_2.index t 1 * 256 + 1 * q.val
    rw [(index1_2 t).2]; omega

/-- Entry (p, q) lies in the block of the point of row block p / 1024. -/
theorem mem1_2 (p : Fin 8192) (q : Fin 256) (t : Fin cfg1.N) (ht : t.val = p.val / 1024) :
    (ix2 p q : S8192x256.Idx) ∈ ((cfg1.win 2).blk t).view.set := by
  have hp := p.isLt
  have hq := q.isLt
  show (ix2 p q : S8192x256.Idx) ∈ ((View.whole main_v2).slice (win1_2.rect t)).set
  rw [View.set_slice_whole, Rect.mem_set_unit]
  intro a
  match a with
  | ⟨0, _⟩ =>
    show win1_2.index t 0 * 1024 ≤ p.val ∧ p.val < win1_2.index t 0 * 1024 + win1_2.xsize (grid1.coords t) 0
    rw [(index1_2 t).1, (xsize1_2 t).1]; omega
  | ⟨1, _⟩ =>
    show win1_2.index t 1 * 256 ≤ q.val ∧ q.val < win1_2.index t 1 * 256 + win1_2.xsize (grid1.coords t) 1
    rw [(index1_2 t).2, (xsize1_2 t).2]; omega

end Values1

/-! ## The value at the region's exit -/

/-- The output array holds, at (p, q), the sum over k of the left array at (p, k) times the right array at (k, q). -/
theorem val1 (W : Dev nD → Valuation τ sig (Elt Ideal)) (c : Dev nD) (p : Fin 8192) (q : Fin 256) :
    Cert.GcnSpec.toMat (Wout1 (F := Ideal) W c (Proc.devRef .tc main_v2) : S8192x256.Idx → EReal) p q
      = ∑ k : Fin 784, Cert.GcnSpec.toMat (W c (Proc.devRef .tc main_arg0) : S8192x784.Idx → EReal) p k
          * Cert.GcnSpec.toMat (W c (Proc.devRef .tc main_arg2) : S784x256.Idx → EReal) k q := by
  simp only [Cert.GcnSpec.toMat_apply]
  rw [Wout1_main_v2]
  have hp := p.isLt
  have ht : p.val / 1024 < cfg1.N := by rw [show cfg1.N = 8 from N_1]; omega
  have h := (dat1 (fun c b => W c b) c).arrAt_apply_of_mem 2 (G1_2 (fun c b => W c b) c) (hG1_2 (fun c b => W c b) c) cfg1.N ⟨_, ht⟩ (ix2 p q) ht
    (flush1_2 _) (mem1_2 p q _ rfl)
  refine Eq.trans (by exact h) ?_
  unfold G1_2
  exact Finset.sum_congr rfl fun k _ => congrArg₂ (fun x y : EReal => x * y) (natAt1_fin _ p k) (natAt1_fin _ k q)

end Cert.KernelIdeal.Hand

end
-- ==== Proof.KI.Val2.lean ====
/-
  Region 2 at the ideal values: the output array after the region, read at (p, q), is the sum over the whole contracted
  axis of the products of the adjacency row with the scaled feature column, times the row's scale, plus the bias.
-/
import proofs.«105977_j57329223467619_2_alg».proof.Proof.KI.Reg2
import proofs.«105977_j57329223467619_2_alg».proof.Proof.LibPlain
import proofs.«105977_j57329223467619_2_alg».proof.Proof.Bridge0
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open ValueIdx
open Cert.GcnSpec (toMat toMat_apply)

/-! ## The payloads at the ideal values, read at an index -/

/-- The zero block. -/
theorem k2_pay1_apply (y : S1024x256.Idx) : (k2_pay1 (F := Ideal)) y = 0 := by
  unfold k2_pay1
  simp only [shapeCast_self, broadcast_apply]
  exact Ideal.ofBits_zero_f32

/-- One step of the accumulation: what was there plus the block product, the right factor scaled entry by entry. -/
theorem k2_pay2_apply (x2 : Vec Ideal S2048x1 .f32) (x0 : Vec Ideal S1024x2048 .bf16) (x1 : Vec Ideal S2048x256 .bf16)
    (xs : Vec Ideal S1024x256 .f32) (p : Fin 1024) (q : Fin 256) :
    k2_pay2 (F := Ideal) x2 x0 x1 xs (ix2 p q)
      = xs (ix2 p q) + ∑ k : Fin 2048, x0 (ix2 p k) * (x1 (ix2 k q) * x2 (ix2 k 0)) := by
  unfold k2_pay2
  simp only [shapeCast_self]
  rw [addf_apply]
  congr 1
  rw [show dot_S1024x2048_S2048x256_S1024x256_1_0_0_1_n_n = DotDims.plain 1024 2048 256 from rfl]
  simp only [matmul]
  rw [Ideal.matmul_plain_zero_apply]
  refine Finset.sum_congr rfl fun k _ => ?_
  rw [truncf_apply, mulf_apply, extf_apply, broadcastTo_col]

/-- The output block: the accumulator times the row's scale plus the bias. -/
theorem k2_pay3_apply (xs : Vec Ideal S1024x256 .f32) (x3 : Vec Ideal S1024x1 .f32) (x4 : Vec Ideal S1x256 .f32)
    (p : Fin 1024) (q : Fin 256) :
    k2_pay3 (F := Ideal) xs x3 x4 (ix2 p q) = xs (ix2 p q) * x3 (ix2 p 0) + x4 (ix2 0 q) := by
  unfold k2_pay3
  simp only [shapeCast_self]
  rw [addf_apply, mulf_apply, broadcastTo_col, broadcastTo_1b_ab_apply]

/-! ## The windows' blocks read at an index -/

/-- Point `t` is step `t % 4` of row block `t / 4`: each window's block index there. -/
theorem index2_0 : ∀ t : Fin grid2.N, win2_0.index t 0 = t.val / 4 ∧ win2_0.index t 1 = t.val % 4 := by decide +kernel
theorem index2_1 : ∀ t : Fin grid2.N, win2_1.index t 0 = t.val % 4 ∧ win2_1.index t 1 = 0 := by decide +kernel
theorem index2_2 : ∀ t : Fin grid2.N, win2_2.index t 0 = t.val % 4 ∧ win2_2.index t 1 = 0 := by decide +kernel
theorem index2_3 : ∀ t : Fin grid2.N, win2_3.index t 0 = t.val / 4 ∧ win2_3.index t 1 = 0 := by decide +kernel
theorem index2_4 : ∀ t : Fin grid2.N, win2_4.index t 0 = 0 ∧ win2_4.index t 1 = 0 := by decide +kernel
theorem index2_5 : ∀ t : Fin grid2.N, win2_5.index t 0 = t.val / 4 ∧ win2_5.index t 1 = 0 := by decide +kernel

theorem blk2_0_apply (X : Vec F S8192x8192 .bf16) (t : Fin cfg2.N) (a : Fin 1024) (k : Fin 2048) (P K : Fin 8192)
    (hP : P.val = 1024 * (t.val / 4) + a.val) (hK : K.val = 2048 * (t.val % 4) + k.val) :
    (((cfg2.win 0).blk t).view.read (Elt F) X : Vec F S1024x2048 .bf16) (ix2 a k) = X (ix2 P K) := by
  have hi := index2_0 t
  rw [View.read_apply]
  show X _ = X _
  congr 1
  funext d
  apply Fin.ext
  match d with
  | ⟨0, _⟩ => show win2_0.index t 0 * 1024 + 1 * a.val = P.val; rw [hi.1, hP]; omega
  | ⟨1, _⟩ => show win2_0.index t 1 * 2048 + 1 * k.val = K.val; rw [hi.2, hK]; omega

theorem blk2_1_apply (X : Vec F S8192x256 .bf16) (t : Fin cfg2.N) (k : Fin 2048) (q : Fin 256) (K : Fin 8192)
    (hK : K.val = 2048 * (t.val % 4) + k.val) :
    (((cfg2.win 1).blk t).view.read (Elt F) X : Vec F S2048x256 .bf16) (ix2 k q) = X (ix2 K q) := by
  have hi := index2_1 t
  rw [View.read_apply]
  show X _ = X _
  congr 1
  funext d
  apply Fin.ext
  match d with
  | ⟨0, _⟩ => show win2_1.index t 0 * 2048 + 1 * k.val = K.val; rw [hi.1, hK]; omega
  | ⟨1, _⟩ => show win2_1.index t 1 * 256 + 1 * q.val = q.val; rw [hi.2]; omega

theorem blk2_2_apply (X : Vec F S8192x1 .f32) (t : Fin cfg2.N) (k : Fin 2048) (K : Fin 8192)
    (hK : K.val = 2048 * (t.val % 4) + k.val) :
    (((cfg2.win 2).blk t).view.read (Elt F) X : Vec F S2048x1 .f32) (ix2 k 0) = X (ix2 K 0) := by
  have hi := index2_2 t
  rw [View.read_apply]
  show X _ = X _
  congr 1
  funext d
  apply Fin.ext
  match d with
  | ⟨0, _⟩ => show win2_2.index t 0 * 2048 + 1 * k.val = K.val; rw [hi.1, hK]; omega
  | ⟨1, _⟩ => show win2_2.index t 1 * 1 + 1 * (0 : Fin 1).val = (0 : Fin 1).val; rw [hi.2]; rfl

theorem blk2_3_apply (X : Vec F S8192x1 .f32) (t : Fin cfg2.N) (a : Fin 1024) (P : Fin 8192)
    (hP : P.val = 1024 * (t.val / 4) + a.val) :
    (((cfg2.win 3).blk t).view.read (Elt F) X : Vec F S1024x1 .f32) (ix2 a 0) = X (ix2 P 0) := by
  have hi := index2_3 t
  rw [View.read_apply]
  show X _ = X _
  congr 1
  funext d
  apply Fin.ext
  match d with
  | ⟨0, _⟩ => show win2_3.index t 0 * 1024 + 1 * a.val = P.val; rw [hi.1, hP]; omega
  | ⟨1, _⟩ => show win2_3.index t 1 * 1 + 1 * (0 : Fin 1).val = (0 : Fin 1).val; rw [hi.2]; rfl

theorem blk2_4_apply (X : Vec F S1x256 .f32) (t : Fin cfg2.N) (q : Fin 256) :
    (((cfg2.win 4).blk t).view.read (Elt F) X : Vec F S1x256 .f32) (ix2 0 q) = X (ix2 0 q) := by
  have hi := index2_4 t
  rw [View.read_apply]
  show X _ = X _
  congr 1
  funext d
  apply Fin.ext
  match d with
  | ⟨0, _⟩ => show win2_4.index t 0 * 1 + 1 * (0 : Fin 1).val = (0 : Fin 1).val; rw [hi.1]; rfl
  | ⟨1, _⟩ => show win2_4.index t 1 * 256 + 1 * q.val = q.val; rw [hi.2]; omega

/-! ## The region's arrays and blocks, typed at the ideal values -/

section Val2
variable (W : Dev nD → Valuation τ sig (Elt Ideal))

/-- The arrays the region reads, at the entry contents. -/
abbrev adj2 (c : Dev nD) : S8192x8192.Idx → EReal := W c (Proc.devRef .tc main_v0_0)
abbrev feat2 (c : Dev nD) : S8192x256.Idx → EReal := W c (Proc.devRef .tc main_v2)
abbrev scale2 (c : Dev nD) : S8192x1.Idx → EReal := W c (Proc.devRef .tc main_v1)
abbrev bias2 (c : Dev nD) : S1x256.Idx → EReal := W c (Proc.devRef .tc main_v3)

/-- The windows' blocks at a point. -/
abbrev blkA2 (c : Dev nD) (t : Fin cfg2.N) : Vec Ideal S1024x2048 .bf16 := iblk2 (V2of W) c 0 t
abbrev blkB2 (c : Dev nD) (t : Fin cfg2.N) : Vec Ideal S2048x256 .bf16 := iblk2 (V2of W) c 1 t
abbrev blkD2 (c : Dev nD) (t : Fin cfg2.N) : Vec Ideal S2048x1 .f32 := iblk2 (V2of W) c 2 t
abbrev blkR2 (c : Dev nD) (t : Fin cfg2.N) : Vec Ideal S1024x1 .f32 := iblk2 (V2of W) c 3 t
abbrev blkC2 (c : Dev nD) (t : Fin cfg2.N) : Vec Ideal S1x256 .f32 := iblk2 (V2of W) c 4 t

theorem blkA2_apply (c : Dev nD) (t : Fin cfg2.N) (a : Fin 1024) (k : Fin 2048) (P K : Fin 8192)
    (hP : P.val = 1024 * (t.val / 4) + a.val) (hK : K.val = 2048 * (t.val % 4) + k.val) :
    blkA2 W c t (ix2 a k) = adj2 W c (ix2 P K) := blk2_0_apply (F := Ideal) (adj2 W c) t a k P K hP hK
theorem blkB2_apply (c : Dev nD) (t : Fin cfg2.N) (k : Fin 2048) (q : Fin 256) (K : Fin 8192)
    (hK : K.val = 2048 * (t.val % 4) + k.val) :
    blkB2 W c t (ix2 k q) = feat2 W c (ix2 K q) := blk2_1_apply (F := Ideal) (feat2 W c) t k q K hK
theorem blkD2_apply (c : Dev nD) (t : Fin cfg2.N) (k : Fin 2048) (K : Fin 8192)
    (hK : K.val = 2048 * (t.val % 4) + k.val) :
    blkD2 W c t (ix2 k 0) = scale2 W c (ix2 K 0) := blk2_2_apply (F := Ideal) (scale2 W c) t k K hK
theorem blkR2_apply (c : Dev nD) (t : Fin cfg2.N) (a : Fin 1024) (P : Fin 8192)
    (hP : P.val = 1024 * (t.val / 4) + a.val) :
    blkR2 W c t (ix2 a 0) = scale2 W c (ix2 P 0) := blk2_3_apply (F := Ideal) (scale2 W c) t a P hP
theorem blkC2_apply (c : Dev nD) (t : Fin cfg2.N) (q : Fin 256) :
    blkC2 W c t (ix2 0 q) = bias2 W c (ix2 0 q) := blk2_4_apply (F := Ideal) (bias2 W c) t q

/-! ## The accumulator after a run of four points -/

/-- Point `n`'s addend to the accumulator at (a, q) of the block (zero past the grid). -/
def M2 (c : Dev nD) (n : ℕ) (i : S1024x256.Idx) : EReal :=
  if hn : n < cfg2.N then
    ∑ k : Fin 2048, blkA2 W c ⟨n, hn⟩ (ix2 (i 0) k) * (blkB2 W c ⟨n, hn⟩ (ix2 k (i 1)) * blkD2 W c ⟨n, hn⟩ (ix2 k 0))
  else 0

/-- After the last step of row block `r` the accumulator holds the four points' addends, summed from zero. -/
theorem acc2_apply (c : Dev nD) (r : ℕ) (h : 4 * r + 3 < cfg2.N) (i : S1024x256.Idx) :
    acc2 (V2of W) c (4 * r + 3) h i = 0 + ∑ s ∈ Finset.range (3 + 1), M2 W c (4 * r + s) i := by
  have e := Pipeline.eq_accAt (N := cfg2.N) (acc2 (V2of W) c) 4
    (fun n hn => k2_pay2 (blkD2 W c ⟨n, hn⟩) (blkA2 W c ⟨n, hn⟩) (blkB2 W c ⟨n, hn⟩) (k2_pay1 (F := Ideal)))
    (fun n hn acc => k2_pay2 (blkD2 W c ⟨n, hn⟩) (blkA2 W c ⟨n, hn⟩) (blkB2 W c ⟨n, hn⟩) acc)
    (fun n hn h0 => acc2_first (V2of W) c ⟨n, hn⟩ h0)
    (fun n hn hne => acc2_next (V2of W) c ⟨n + 1, hn⟩ hne)
    r 3 (by decide) h
  rw [e]
  refine Pipeline.accAt_add_apply _ _ (fun _ => 0) (M2 W c) (4 * r) 3 ?_ ?_ 3 le_rfl h i
  · intro hb j
    obtain ⟨a, q, rfl⟩ : ∃ (a : Fin 1024) (q : Fin 256), j = ix2 a q := ⟨j 0, j 1, eq_ix2 j⟩
    rw [k2_pay2_apply, k2_pay1_apply]
    unfold M2
    rw [dif_pos hb]
    try rfl
  · intro n hn acc j _ _
    obtain ⟨a, q, rfl⟩ : ∃ (a : Fin 1024) (q : Fin 256), j = ix2 a q := ⟨j 0, j 1, eq_ix2 j⟩
    rw [k2_pay2_apply]
    unfold M2
    rw [dif_pos hn]
    try rfl

/-! ## The output block at a last step, and the output array -/

/-- The closed form at (p, q). -/
def g2 (c : Dev nD) (p : Fin 8192) (q : Fin 256) : EReal :=
  (∑ k : Fin 8192, adj2 W c (ix2 p k) * (feat2 W c (ix2 k q) * scale2 W c (ix2 k 0))) * scale2 W c (ix2 p 0) + bias2 W c (ix2 0 q)

theorem out2_apply (c : Dev nD) (t : Fin cfg2.N) (h3 : t.val % 4 = 3) (a : Fin 1024) (q : Fin 256) (P : Fin 8192) (Q : Fin 256)
    (hP : P.val = 1024 * (t.val / 4) + a.val) (hQ : Q = q) :
    out2 (V2of W) c t (ix2 a q) = g2 W c P Q := by
  subst hQ
  have hN : t.val < 32 := lt_of_lt_of_eq t.isLt N_2
  have hlt : 4 * (t.val / 4) + 3 < cfg2.N := lt_of_lt_of_eq (by omega : 4 * (t.val / 4) + 3 < 32) N_2.symm
  have same : ∀ (u : ℕ) (hu : u < cfg2.N), u = t.val → acc2 (V2of W) c u hu = acc2 (V2of W) c t.val t.isLt := by
    intro u hu e; subst e; rfl
  unfold out2 g2
  rw [k2_pay3_apply]
  show acc2 (V2of W) c t.val t.isLt (ix2 a Q) * blkR2 W c t (ix2 a 0) + blkC2 W c t (ix2 0 Q) = _
  rw [blkR2_apply W c t a P hP, blkC2_apply, ← same _ hlt (by omega), acc2_apply, zero_add]
  congr 2
  refine Eq.trans ?_ (sum_tiles 4 2048 (fun j : Fin (4 * 2048) =>
    adj2 W c (ix2 P j) * (feat2 W c (ix2 j Q) * scale2 W c (ix2 j 0)))).symm
  rw [Finset.sum_range]
  refine Finset.sum_congr rfl fun s _ => ?_
  have hs : s.val < 4 := s.isLt
  have hn : 4 * (t.val / 4) + s.val < cfg2.N := lt_of_lt_of_eq (by omega : 4 * (t.val / 4) + s.val < 32) N_2.symm
  unfold M2; rw [dif_pos hn]
  refine Finset.sum_congr rfl fun k _ => ?_
  have hk : k.val < 2048 := k.isLt
  have hK : (finProdFinEquiv (s, k) : Fin (4 * 2048)).val = 2048 * ((⟨4 * (t.val / 4) + s.val, hn⟩ : Fin cfg2.N).val % 4) + k.val := by
    rw [finProdFinEquiv_apply_val]; show k.val + 2048 * s.val = 2048 * ((4 * (t.val / 4) + s.val) % 4) + k.val; omega
  have hP' : P.val = 1024 * ((⟨4 * (t.val / 4) + s.val, hn⟩ : Fin cfg2.N).val / 4) + a.val := by
    rw [hP]; show 1024 * (t.val / 4) + a.val = 1024 * ((4 * (t.val / 4) + s.val) / 4) + a.val; omega
  rw [blkA2_apply W c _ a k P (finProdFinEquiv (s, k)) hP' hK, blkB2_apply W c _ k Q (finProdFinEquiv (s, k)) hK,
    blkD2_apply W c _ k (finProdFinEquiv (s, k)) hK]

theorem xsize2_5 : ∀ t : Fin grid2.N, win2_5.xsize (grid2.coords t) 0 = 1024 ∧ win2_5.xsize (grid2.coords t) 1 = 256 := by decide +kernel

/-- The output array after the region: the closed form at every index (each row block is written back once, at its last
    step, and the row blocks tile the array). -/
theorem arrAt2_5_eq (c : Dev nD) :
    (dat2 (V2of W) c).arrAt 5 cfg2.N = (fun i => g2 W c (i 0) (i 1) : S8192x256.Idx → EReal) := by
  refine (dat2 (V2of W) c).arrAt_eq_of_cover 5 _ (fun t hf => ?_) (fun i => ?_)
  · have h3 := (flush2_5 t).mp hf
    show (cfg2.win 5).cut (grid2.coords t) ((dat2 (V2of W) c).after 5 t) = _
    rw [after2_5]
    funext y
    rw [View.read_apply]
    rw [eq_ix2 y]
    refine out2_apply W c t h3 (y 0) (y 1) _ _ ?_ ?_
    · show win2_5.index t 0 * 1024 + 1 * (y 0).val = 1024 * (t.val / 4) + (y 0).val
      rw [(index2_5 t).1]; omega
    · apply Fin.ext
      show win2_5.index t 1 * 256 + 1 * (y 1).val = (y 1).val
      rw [(index2_5 t).2]; omega
  · have h0 : (i 0).val < 8192 := (i 0).isLt
    have h1 : (i 1).val < 256 := (i 1).isLt
    have hT : 4 * ((i 0).val / 1024) + 3 < cfg2.N := lt_of_lt_of_eq (by omega : 4 * ((i 0).val / 1024) + 3 < 32) N_2.symm
    refine ⟨⟨4 * ((i 0).val / 1024) + 3, hT⟩, (flush2_5 _).mpr (by show (4 * ((i 0).val / 1024) + 3) % 4 = 3; omega), ?_⟩
    show i ∈ ((View.whole main_v4).slice (win2_5.rect ⟨4 * ((i 0).val / 1024) + 3, hT⟩)).set
    rw [View.set_slice_whole, Rect.mem_set_unit]
    intro d
    match d with
    | ⟨0, _⟩ =>
      show win2_5.index ⟨4 * ((i 0).val / 1024) + 3, hT⟩ 0 * win2_5.size 0 ≤ (i 0 : Nat)
        ∧ (i 0 : Nat) < win2_5.index ⟨4 * ((i 0).val / 1024) + 3, hT⟩ 0 * win2_5.size 0 + win2_5.xsize (grid2.coords ⟨4 * ((i 0).val / 1024) + 3, hT⟩) 0
      rw [(index2_5 _).1, (xsize2_5 _).1, show win2_5.size 0 = 1024 from rfl]
      show (4 * ((i 0).val / 1024) + 3) / 4 * 1024 ≤ (i 0).val ∧ (i 0).val < (4 * ((i 0).val / 1024) + 3) / 4 * 1024 + 1024
      omega
    | ⟨1, _⟩ =>
      show win2_5.index ⟨4 * ((i 0).val / 1024) + 3, hT⟩ 1 * win2_5.size 1 ≤ (i 1 : Nat)
        ∧ (i 1 : Nat) < win2_5.index ⟨4 * ((i 0).val / 1024) + 3, hT⟩ 1 * win2_5.size 1 + win2_5.xsize (grid2.coords ⟨4 * ((i 0).val / 1024) + 3, hT⟩) 1
      rw [(index2_5 _).2, (xsize2_5 _).2]
      omega

/-- REGION 2 AT THE IDEAL VALUES: the output array at (p, q) is the whole row of the adjacency against the scaled
    feature column, times the row's scale, plus the bias. -/
theorem val2 (c : Dev nD) (p : Fin 8192) (q : Fin 256) :
    toMat (Wout2 (F := Ideal) W c (Proc.devRef .tc main_v4) : S8192x256.Idx → EReal) p q
      = (∑ k : Fin 8192, toMat (W c (Proc.devRef .tc main_v0_0) : S8192x8192.Idx → EReal) p k
          * (toMat (W c (Proc.devRef .tc main_v2) : S8192x256.Idx → EReal) k q
            * toMat (W c (Proc.devRef .tc main_v1) : S8192x1.Idx → EReal) k 0))
        * toMat (W c (Proc.devRef .tc main_v1) : S8192x1.Idx → EReal) p 0
        + toMat (W c (Proc.devRef .tc main_v3) : S1x256.Idx → EReal) 0 q := by
  rw [Wout2_main_v4, arrAt2_5_eq]
  rfl

end Val2

end Cert.KernelIdeal.Hand

end
-- ==== Proof.KI.Val3.lean ====
/-
  Region 3 at the ideal values: the output array after the region, read at (p, q), is the sum over the whole contracted axis
  of the products of row p of the left array and column q of the right array, both as the region found them.
-/
import proofs.«105977_j57329223467619_2_alg».proof.Proof.KI.Reg3
import proofs.«105977_j57329223467619_2_alg».proof.Proof.LibPlain
import proofs.«105977_j57329223467619_2_alg».proof.Proof.Bridge0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open ValueIdx

/-! ## The body's output block at an index -/

/-- The dimension numbers of the body's product are the plain ones. -/
theorem dot3_eq : dot_S1024x256_S256x128_S1024x128_1_0_0_1_n_n = DotDims.plain 1024 256 128 := rfl

/-- The body's output block at (a, b): row a of the left block times column b of the right block, summed over the
    contracted axis (added to the zeroed accumulator; the format changes are the identity). -/
theorem out3_2_apply (x0 : Vec Ideal S1024x256 .f32) (x1 : Vec Ideal S256x128 .f32) (a : Fin 1024) (b : Fin 128) :
    out3_2 (F := Ideal) x0 x1 (ix2 a b) = ∑ k : Fin 256, x0 (ix2 a k) * x1 (ix2 k b) := by
  unfold out3_2 k3_pay3 k3_pay2 k3_pay1
  simp only [shapeCast_self]
  rw [truncf_apply, addf_apply, broadcast_apply, dot3_eq]
  refine (congrArg (fun z => (FloatOps.ofBits (F := Ideal) FTy.f32 0#32 : EReal) + z)
    (Ideal.matmul_plain_zero_apply none (truncf FTy.bf16 x0 bitsLt_bf16_f32) (truncf FTy.bf16 x1 bitsLt_bf16_f32) a b)).trans ?_
  show Ideal.ofBits .f32 0x00000000#32 + _ = _
  rw [Ideal.ofBits_zero_f32, zero_add]
  rfl

/-! ## The windows' block indices, and the input blocks at an index -/

/-- The block index of a point: row block t for the left array and the output, block (0, 0) for the right array. -/
theorem index3_0 : ∀ t : Fin cfg3.N, win3_0.index t 0 = t.val ∧ win3_0.index t 1 = 0 :=
  (by decide +kernel : ∀ t : Fin grid3.N, win3_0.index t 0 = t.val ∧ win3_0.index t 1 = 0)
theorem index3_1 : ∀ t : Fin cfg3.N, win3_1.index t 0 = 0 ∧ win3_1.index t 1 = 0 :=
  (by decide +kernel : ∀ t : Fin grid3.N, win3_1.index t 0 = 0 ∧ win3_1.index t 1 = 0)
theorem index3_2 : ∀ t : Fin cfg3.N, win3_2.index t 0 = t.val ∧ win3_2.index t 1 = 0 :=
  (by decide +kernel : ∀ t : Fin grid3.N, win3_2.index t 0 = t.val ∧ win3_2.index t 1 = 0)
/-- The output's blocks are not cut. -/
theorem xsize3_2 : ∀ t : Fin cfg3.N, win3_2.xsize (grid3.coords t) 0 = 1024 ∧ win3_2.xsize (grid3.coords t) 1 = 128 :=
  (by decide +kernel : ∀ t : Fin grid3.N, win3_2.xsize (grid3.coords t) 0 = 1024 ∧ win3_2.xsize (grid3.coords t) 1 = 128)

/-- A matrix read at two natural numbers (zero outside). -/
def natAt3 {a b : ℕ} (A : (⟨2, ![a, b]⟩ : Shape).Idx → EReal) (i j : ℕ) : EReal :=
  if h : i < a ∧ j < b then A (ix2 ⟨i, h.1⟩ ⟨j, h.2⟩) else 0

theorem natAt3_fin {a b : ℕ} (A : (⟨2, ![a, b]⟩ : Shape).Idx → EReal) (p : Fin a) (q : Fin b) : natAt3 A p.val q.val = A (ix2 p q) := by
  unfold natAt3; rw [dif_pos ⟨p.isLt, q.isLt⟩]

section Values3
variable (V : (c : Dev nD) → (b : Ref sig .tc) → Buf (Elt Ideal) ((c : Thread nD τ).loc b))

/-- The left window's block at point t, at (r, k): the left array at row t · 1024 + r, column k. -/
theorem iblk3_0_apply (c : Dev nD) (t : Fin cfg3.N) (r : Fin 1024) (k : Fin 256) :
    (iblk3 (F := Ideal) V c 0 t : S1024x256.Idx → EReal) (ix2 r k)
      = natAt3 (V c main_v4 : S8192x256.Idx → EReal) (t.val * 1024 + r.val) k.val := by
  have hN : t.val < 8 := lt_of_lt_of_eq t.isLt (show cfg3.N = 8 from N_3)
  have hr : t.val * 1024 + r.val < 8192 := by have := r.isLt; omega
  unfold natAt3; rw [dif_pos ⟨hr, k.isLt⟩]
  unfold iblk3
  rw [View.read_apply]
  show (V c main_v4 : S8192x256.Idx → EReal) _ = (V c main_v4 : S8192x256.Idx → EReal) _
  congr 1
  funext a
  apply Fin.ext
  match a with
  | ⟨0, _⟩ => show win3_0.index t 0 * 1024 + 1 * r.val = t.val * 1024 + r.val; rw [(index3_0 t).1]; omega
  | ⟨1, _⟩ => show win3_0.index t 1 * 256 + 1 * k.val = k.val; rw [(index3_0 t).2]; omega

/-- The right window's block at any point, at (k, q): the right array there. -/
theorem iblk3_1_apply (c : Dev nD) (t : Fin cfg3.N) (k : Fin 256) (q : Fin 128) :
    (iblk3 (F := Ideal) V c 1 t : S256x128.Idx → EReal) (ix2 k q)
      = natAt3 (V c main_arg4 : S256x128.Idx → EReal) k.val q.val := by
  unfold natAt3; rw [dif_pos ⟨k.isLt, q.isLt⟩]
  unfold iblk3
  rw [View.read_apply]
  show (V c main_arg4 : S256x128.Idx → EReal) _ = (V c main_arg4 : S256x128.Idx → EReal) _
  congr 1
  funext a
  apply Fin.ext
  match a with
  | ⟨0, _⟩ => show win3_1.index t 0 * 256 + 1 * k.val = k.val; rw [(index3_1 t).1]; omega
  | ⟨1, _⟩ => show win3_1.index t 1 * 128 + 1 * q.val = q.val; rw [(index3_1 t).2]; omega

/-! ## The output array after the region -/

/-- The product of the two arrays, as contents of the output's array. -/
def G3_2 (c : Dev nD) : Buf (Elt Ideal) ((cfg3.win 2).arr.view.loc (c.tc : Thread nD τ)) :=
  fun i => ((∑ k : Fin 256, natAt3 (V c main_v4 : S8192x256.Idx → EReal) ((i : S8192x128.Idx) 0).val k.val
    * natAt3 (V c main_arg4 : S256x128.Idx → EReal) k.val ((i : S8192x128.Idx) 1).val : EReal))

/-- What every point writes back through the output's window is its block of the product. -/
theorem hG3_2 (c : Dev nD) (t : Fin cfg3.N) (hf : (cfg3.win 2).flush t = true) :
    (dat3 V c).flushed 2 t = ((cfg3.win 2).blk t).view.read (Elt Ideal) (G3_2 V c) := by
  show (cfg3.win 2).cut (grid3.coords t) ((dat3 V c).after 2 t) = _
  rw [after3_2]
  funext y
  obtain ⟨r, q, rfl⟩ : ∃ (r : Fin 1024) (q : Fin 128), y = (ix2 r q : S1024x128.Idx) := ⟨_, _, eq_ix2 (y : S1024x128.Idx)⟩
  rw [View.read_apply]
  show (out3_2 (iblk3 V c 0 t) (iblk3 V c 1 t) : S1024x128.Idx → EReal) (ix2 r q) = G3_2 V c _
  rw [out3_2_apply]
  unfold G3_2
  refine Finset.sum_congr rfl fun k _ => ?_
  rw [iblk3_0_apply, iblk3_1_apply]
  refine congrArg₂ (fun x y : EReal => x * y) (congrArg (fun z => natAt3 (V c main_v4 : S8192x256.Idx → EReal) z k.val) ?_)
    (congrArg (fun z => natAt3 (V c main_arg4 : S256x128.Idx → EReal) k.val z) ?_)
  · show t.val * 1024 + r.val = win3_2.index t 0 * 1024 + 1 * r.val
    rw [(index3_2 t).1]; omega
  · show q.val = win3_2.index t 1 * 128 + 1 * q.val
    rw [(index3_2 t).2]; omega

/-- Entry (p, q) lies in the block of the point of row block p / 1024. -/
theorem mem3_2 (p : Fin 8192) (q : Fin 128) (t : Fin cfg3.N) (ht : t.val = p.val / 1024) :
    (ix2 p q : S8192x128.Idx) ∈ ((cfg3.win 2).blk t).view.set := by
  have hp := p.isLt
  have hq := q.isLt
  show (ix2 p q : S8192x128.Idx) ∈ ((View.whole main_v5).slice (win3_2.rect t)).set
  rw [View.set_slice_whole, Rect.mem_set_unit]
  intro a
  match a with
  | ⟨0, _⟩ =>
    show win3_2.index t 0 * 1024 ≤ p.val ∧ p.val < win3_2.index t 0 * 1024 + win3_2.xsize (grid3.coords t) 0
    rw [(index3_2 t).1, (xsize3_2 t).1]; omega
  | ⟨1, _⟩ =>
    show win3_2.index t 1 * 128 ≤ q.val ∧ q.val < win3_2.index t 1 * 128 + win3_2.xsize (grid3.coords t) 1
    rw [(index3_2 t).2, (xsize3_2 t).2]; omega

end Values3

/-! ## The value at the region's exit -/

/-- The output array holds, at (p, q), the sum over k of the left array at (p, k) times the right array at (k, q). -/
theorem val3 (W : Dev nD → Valuation τ sig (Elt Ideal)) (c : Dev nD) (p : Fin 8192) (q : Fin 128) :
    Cert.GcnSpec.toMat (Wout3 (F := Ideal) W c (Proc.devRef .tc main_v5) : S8192x128.Idx → EReal) p q
      = ∑ k : Fin 256, Cert.GcnSpec.toMat (W c (Proc.devRef .tc main_v4) : S8192x256.Idx → EReal) p k
          * Cert.GcnSpec.toMat (W c (Proc.devRef .tc main_arg4) : S256x128.Idx → EReal) k q := by
  simp only [Cert.GcnSpec.toMat_apply]
  rw [Wout3_main_v5]
  have hp := p.isLt
  have ht : p.val / 1024 < cfg3.N := by rw [show cfg3.N = 8 from N_3]; omega
  have h := (dat3 (fun c b => W c b) c).arrAt_apply_of_mem 2 (G3_2 (fun c b => W c b) c) (hG3_2 (fun c b => W c b) c) cfg3.N ⟨_, ht⟩ (ix2 p q) ht
    (flush3_2 _) (mem3_2 p q _ rfl)
  refine Eq.trans (by exact h) ?_
  unfold G3_2
  exact Finset.sum_congr rfl fun k _ => congrArg₂ (fun x y : EReal => x * y) (natAt3_fin _ p k) (natAt3_fin _ k q)

end Cert.KernelIdeal.Hand

end
-- ==== Proof.KI.Val4.lean ====
/-
  Region 4 at the ideal values: the output array after the region, read at (p, q), is the sum over the whole contracted axis
  of the products of row p of the left array and column q of the right array, both as the region found them.
-/
import proofs.«105977_j57329223467619_2_alg».proof.Proof.KI.Reg4
import proofs.«105977_j57329223467619_2_alg».proof.Proof.LibPlain
import proofs.«105977_j57329223467619_2_alg».proof.Proof.Bridge0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open ValueIdx

/-! ## The body's output block at an index -/

/-- The dimension numbers of the body's product are the plain ones. -/
theorem dot4_eq : dot_S1024x256_S256x256_S1024x256_1_0_0_1_n_n = DotDims.plain 1024 256 256 := rfl

/-- The body's output block at (a, b): row a of the left block times column b of the right block, summed over the
    contracted axis (added to the zeroed accumulator; the format changes are the identity). -/
theorem out4_2_apply (x0 : Vec Ideal S1024x256 .f32) (x1 : Vec Ideal S256x256 .f32) (a : Fin 1024) (b : Fin 256) :
    out4_2 (F := Ideal) x0 x1 (ix2 a b) = ∑ k : Fin 256, x0 (ix2 a k) * x1 (ix2 k b) := by
  unfold out4_2 k4_pay3 k4_pay2 k4_pay1
  simp only [shapeCast_self]
  rw [truncf_apply, addf_apply, broadcast_apply, dot4_eq]
  refine (congrArg (fun z => (FloatOps.ofBits (F := Ideal) FTy.f32 0#32 : EReal) + z)
    (Ideal.matmul_plain_zero_apply none (truncf FTy.bf16 x0 bitsLt_bf16_f32) (truncf FTy.bf16 x1 bitsLt_bf16_f32) a b)).trans ?_
  show Ideal.ofBits .f32 0x00000000#32 + _ = _
  rw [Ideal.ofBits_zero_f32, zero_add]
  rfl

/-! ## The windows' block indices, and the input blocks at an index -/

/-- The block index of a point: row block t for the left array and the output, block (0, 0) for the right array. -/
theorem index4_0 : ∀ t : Fin cfg4.N, win4_0.index t 0 = t.val ∧ win4_0.index t 1 = 0 :=
  (by decide +kernel : ∀ t : Fin grid4.N, win4_0.index t 0 = t.val ∧ win4_0.index t 1 = 0)
theorem index4_1 : ∀ t : Fin cfg4.N, win4_1.index t 0 = 0 ∧ win4_1.index t 1 = 0 :=
  (by decide +kernel : ∀ t : Fin grid4.N, win4_1.index t 0 = 0 ∧ win4_1.index t 1 = 0)
theorem index4_2 : ∀ t : Fin cfg4.N, win4_2.index t 0 = t.val ∧ win4_2.index t 1 = 0 :=
  (by decide +kernel : ∀ t : Fin grid4.N, win4_2.index t 0 = t.val ∧ win4_2.index t 1 = 0)
/-- The output's blocks are not cut. -/
theorem xsize4_2 : ∀ t : Fin cfg4.N, win4_2.xsize (grid4.coords t) 0 = 1024 ∧ win4_2.xsize (grid4.coords t) 1 = 256 :=
  (by decide +kernel : ∀ t : Fin grid4.N, win4_2.xsize (grid4.coords t) 0 = 1024 ∧ win4_2.xsize (grid4.coords t) 1 = 256)

/-- A matrix read at two natural numbers (zero outside). -/
def natAt4 {a b : ℕ} (A : (⟨2, ![a, b]⟩ : Shape).Idx → EReal) (i j : ℕ) : EReal :=
  if h : i < a ∧ j < b then A (ix2 ⟨i, h.1⟩ ⟨j, h.2⟩) else 0

theorem natAt4_fin {a b : ℕ} (A : (⟨2, ![a, b]⟩ : Shape).Idx → EReal) (p : Fin a) (q : Fin b) : natAt4 A p.val q.val = A (ix2 p q) := by
  unfold natAt4; rw [dif_pos ⟨p.isLt, q.isLt⟩]

section Values4
variable (V : (c : Dev nD) → (b : Ref sig .tc) → Buf (Elt Ideal) ((c : Thread nD τ).loc b))

/-- The left window's block at point t, at (r, k): the left array at row t · 1024 + r, column k. -/
theorem iblk4_0_apply (c : Dev nD) (t : Fin cfg4.N) (r : Fin 1024) (k : Fin 256) :
    (iblk4 (F := Ideal) V c 0 t : S1024x256.Idx → EReal) (ix2 r k)
      = natAt4 (V c main_v4 : S8192x256.Idx → EReal) (t.val * 1024 + r.val) k.val := by
  have hN : t.val < 8 := lt_of_lt_of_eq t.isLt (show cfg4.N = 8 from N_4)
  have hr : t.val * 1024 + r.val < 8192 := by have := r.isLt; omega
  unfold natAt4; rw [dif_pos ⟨hr, k.isLt⟩]
  unfold iblk4
  rw [View.read_apply]
  show (V c main_v4 : S8192x256.Idx → EReal) _ = (V c main_v4 : S8192x256.Idx → EReal) _
  congr 1
  funext a
  apply Fin.ext
  match a with
  | ⟨0, _⟩ => show win4_0.index t 0 * 1024 + 1 * r.val = t.val * 1024 + r.val; rw [(index4_0 t).1]; omega
  | ⟨1, _⟩ => show win4_0.index t 1 * 256 + 1 * k.val = k.val; rw [(index4_0 t).2]; omega

/-- The right window's block at any point, at (k, q): the right array there. -/
theorem iblk4_1_apply (c : Dev nD) (t : Fin cfg4.N) (k : Fin 256) (q : Fin 256) :
    (iblk4 (F := Ideal) V c 1 t : S256x256.Idx → EReal) (ix2 k q)
      = natAt4 (V c main_arg6 : S256x256.Idx → EReal) k.val q.val := by
  unfold natAt4; rw [dif_pos ⟨k.isLt, q.isLt⟩]
  unfold iblk4
  rw [View.read_apply]
  show (V c main_arg6 : S256x256.Idx → EReal) _ = (V c main_arg6 : S256x256.Idx → EReal) _
  congr 1
  funext a
  apply Fin.ext
  match a with
  | ⟨0, _⟩ => show win4_1.index t 0 * 256 + 1 * k.val = k.val; rw [(index4_1 t).1]; omega
  | ⟨1, _⟩ => show win4_1.index t 1 * 256 + 1 * q.val = q.val; rw [(index4_1 t).2]; omega

/-! ## The output array after the region -/

/-- The product of the two arrays, as contents of the output's array. -/
def G4_2 (c : Dev nD) : Buf (Elt Ideal) ((cfg4.win 2).arr.view.loc (c.tc : Thread nD τ)) :=
  fun i => ((∑ k : Fin 256, natAt4 (V c main_v4 : S8192x256.Idx → EReal) ((i : S8192x256.Idx) 0).val k.val
    * natAt4 (V c main_arg6 : S256x256.Idx → EReal) k.val ((i : S8192x256.Idx) 1).val : EReal))

/-- What every point writes back through the output's window is its block of the product. -/
theorem hG4_2 (c : Dev nD) (t : Fin cfg4.N) (hf : (cfg4.win 2).flush t = true) :
    (dat4 V c).flushed 2 t = ((cfg4.win 2).blk t).view.read (Elt Ideal) (G4_2 V c) := by
  show (cfg4.win 2).cut (grid4.coords t) ((dat4 V c).after 2 t) = _
  rw [after4_2]
  funext y
  obtain ⟨r, q, rfl⟩ : ∃ (r : Fin 1024) (q : Fin 256), y = (ix2 r q : S1024x256.Idx) := ⟨_, _, eq_ix2 (y : S1024x256.Idx)⟩
  rw [View.read_apply]
  show (out4_2 (iblk4 V c 0 t) (iblk4 V c 1 t) : S1024x256.Idx → EReal) (ix2 r q) = G4_2 V c _
  rw [out4_2_apply]
  unfold G4_2
  refine Finset.sum_congr rfl fun k _ => ?_
  rw [iblk4_0_apply, iblk4_1_apply]
  refine congrArg₂ (fun x y : EReal => x * y) (congrArg (fun z => natAt4 (V c main_v4 : S8192x256.Idx → EReal) z k.val) ?_)
    (congrArg (fun z => natAt4 (V c main_arg6 : S256x256.Idx → EReal) k.val z) ?_)
  · show t.val * 1024 + r.val = win4_2.index t 0 * 1024 + 1 * r.val
    rw [(index4_2 t).1]; omega
  · show q.val = win4_2.index t 1 * 256 + 1 * q.val
    rw [(index4_2 t).2]; omega

/-- Entry (p, q) lies in the block of the point of row block p / 1024. -/
theorem mem4_2 (p : Fin 8192) (q : Fin 256) (t : Fin cfg4.N) (ht : t.val = p.val / 1024) :
    (ix2 p q : S8192x256.Idx) ∈ ((cfg4.win 2).blk t).view.set := by
  have hp := p.isLt
  have hq := q.isLt
  show (ix2 p q : S8192x256.Idx) ∈ ((View.whole main_v6).slice (win4_2.rect t)).set
  rw [View.set_slice_whole, Rect.mem_set_unit]
  intro a
  match a with
  | ⟨0, _⟩ =>
    show win4_2.index t 0 * 1024 ≤ p.val ∧ p.val < win4_2.index t 0 * 1024 + win4_2.xsize (grid4.coords t) 0
    rw [(index4_2 t).1, (xsize4_2 t).1]; omega
  | ⟨1, _⟩ =>
    show win4_2.index t 1 * 256 ≤ q.val ∧ q.val < win4_2.index t 1 * 256 + win4_2.xsize (grid4.coords t) 1
    rw [(index4_2 t).2, (xsize4_2 t).2]; omega

end Values4

/-! ## The value at the region's exit -/

/-- The output array holds, at (p, q), the sum over k of the left array at (p, k) times the right array at (k, q). -/
theorem val4 (W : Dev nD → Valuation τ sig (Elt Ideal)) (c : Dev nD) (p : Fin 8192) (q : Fin 256) :
    Cert.GcnSpec.toMat (Wout4 (F := Ideal) W c (Proc.devRef .tc main_v6) : S8192x256.Idx → EReal) p q
      = ∑ k : Fin 256, Cert.GcnSpec.toMat (W c (Proc.devRef .tc main_v4) : S8192x256.Idx → EReal) p k
          * Cert.GcnSpec.toMat (W c (Proc.devRef .tc main_arg6) : S256x256.Idx → EReal) k q := by
  simp only [Cert.GcnSpec.toMat_apply]
  rw [Wout4_main_v6]
  have hp := p.isLt
  have ht : p.val / 1024 < cfg4.N := by rw [show cfg4.N = 8 from N_4]; omega
  have h := (dat4 (fun c b => W c b) c).arrAt_apply_of_mem 2 (G4_2 (fun c b => W c b) c) (hG4_2 (fun c b => W c b) c) cfg4.N ⟨_, ht⟩ (ix2 p q) ht
    (flush4_2 _) (mem4_2 p q _ rfl)
  refine Eq.trans (by exact h) ?_
  unfold G4_2
  exact Finset.sum_congr rfl fun k _ => congrArg₂ (fun x y : EReal => x * y) (natAt4_fin _ p k) (natAt4_fin _ k q)

end Cert.KernelIdeal.Hand

end
-- ==== Proof.KI.Val5Pay.lean ====
/-
  The payloads of the fifth call's body read at an index, at the ideal instance (every float an extended real): the two
  accumulator steps are block products added to what was held, each feature entry scaled first; the first output is the
  accumulator scaled by the row's factor plus the bias; the second is the softmax of that expression along the row.
-/
import proofs.«105977_j57329223467619_2_alg».proof.Proof.KI.Common
import proofs.«105977_j57329223467619_2_alg».proof.Proof.Spec
import proofs.«105977_j57329223467619_2_alg».proof.Proof.LibPlain

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open ValueIdx

/-! ## The payloads at an index -/

/-- The two matrix products of the body are plain products. -/
theorem dot5_128 : dot_S1024x2048_S2048x128_S1024x128_1_0_0_1_n_n = DotDims.plain 1024 2048 128 := rfl
theorem dot5_256 : dot_S1024x2048_S2048x256_S1024x256_1_0_0_1_n_n = DotDims.plain 1024 2048 256 := rfl

/-- The zero blocks at an index. -/
theorem k5_pay4_apply5 (i : S1024x128.Idx) : (k5_pay4 (F := Ideal) : S1024x128.Idx → EReal) i = 0 := by
  unfold k5_pay4
  rw [shapeCast_self]
  show Ideal.ofBits .f32 0x00000000#32 = 0
  exact Ideal.ofBits_zero_f32
theorem k5_pay5_apply5 (i : S1024x256.Idx) : (k5_pay5 (F := Ideal) : S1024x256.Idx → EReal) i = 0 := by
  unfold k5_pay5
  rw [shapeCast_self]
  show Ideal.ofBits .f32 0x00000000#32 = 0
  exact Ideal.ofBits_zero_f32

/-- The first accumulator's step at (p, q): what it held plus the block product, each feature entry scaled first. -/
theorem k5_pay8_apply5 (a : Vec Ideal S1024x2048 .bf16) (d : Vec Ideal S2048x1 .f32) (b : Vec Ideal S2048x128 .bf16)
    (s : Vec Ideal S1024x128 .f32) (p : Fin 1024) (q : Fin 128) :
    (k5_pay8 (F := Ideal) a d b s : S1024x128.Idx → EReal) (ix2 p q)
      = (s : S1024x128.Idx → EReal) (ix2 p q)
        + ∑ k : Fin 2048, (a : S1024x2048.Idx → EReal) (ix2 p k) * ((b : S2048x128.Idx → EReal) (ix2 k q) * (d : S2048x1.Idx → EReal) (ix2 k 0)) := by
  unfold k5_pay8 k5_pay6 k5_pay7
  simp only [shapeCast_self]
  rw [dot5_128]
  show (s (ix2 p q) : EReal) + FloatOps.matmul (F := Ideal) (DotDims.plain 1024 2048 128) none a _ (constant (F := Ideal) ⟨2, ![1024, 128]⟩ .f32 0x00000000#32) (ix2 p q) = _
  rw [Ideal.matmul_plain_zero_apply]
  refine congrArg (fun z => (s (ix2 p q) : EReal) + z) (Finset.sum_congr rfl fun k _ => ?_)
  show (a (ix2 p k) : EReal) * ((b (ix2 k q) : EReal) * broadcastTo S2048x128 d broadcasts_S2048x1_S2048x128 (ix2 k q)) = _
  rw [broadcastTo_col]

/-- The second accumulator's step likewise. -/
theorem k5_pay9_apply5 (a : Vec Ideal S1024x2048 .bf16) (d : Vec Ideal S2048x1 .f32) (b : Vec Ideal S2048x256 .bf16)
    (s : Vec Ideal S1024x256 .f32) (p : Fin 1024) (q : Fin 256) :
    (k5_pay9 (F := Ideal) a d b s : S1024x256.Idx → EReal) (ix2 p q)
      = (s : S1024x256.Idx → EReal) (ix2 p q)
        + ∑ k : Fin 2048, (a : S1024x2048.Idx → EReal) (ix2 p k) * ((b : S2048x256.Idx → EReal) (ix2 k q) * (d : S2048x1.Idx → EReal) (ix2 k 0)) := by
  unfold k5_pay9 k5_pay6 k5_pay7
  simp only [shapeCast_self]
  rw [dot5_256]
  show (s (ix2 p q) : EReal) + FloatOps.matmul (F := Ideal) (DotDims.plain 1024 2048 256) none a _ (constant (F := Ideal) ⟨2, ![1024, 256]⟩ .f32 0x00000000#32) (ix2 p q) = _
  rw [Ideal.matmul_plain_zero_apply]
  refine congrArg (fun z => (s (ix2 p q) : EReal) + z) (Finset.sum_congr rfl fun k _ => ?_)
  show (a (ix2 p k) : EReal) * ((b (ix2 k q) : EReal) * broadcastTo S2048x256 d broadcasts_S2048x1_S2048x256 (ix2 k q)) = _
  rw [broadcastTo_col]

/-- A row broadcast down the columns, at (p, q): the row at q. -/
theorem broadcastTo_row5 {α : Type} {M N : Nat} (x : (⟨2, ![1, N]⟩ : Shape).Idx → α) (h : (⟨2, ![1, N]⟩ : Shape).Broadcasts ⟨2, ![M, N]⟩)
    (p : Fin M) (q : Fin N) : broadcastTo ⟨2, ![M, N]⟩ x h (ix2 p q) = x (ix2 0 q) := by
  refine broadcastTo_apply x h (ix2 p q) (ix2 0 q) fun a => ?_
  match a with
  | ⟨0, _⟩ =>
    show (0 : Fin 1).val = if (1 : Nat) = 1 then 0 else p.val
    rw [if_pos rfl]; rfl
  | ⟨1, _⟩ =>
    show q.val = if N = 1 then 0 else q.val
    split
    · have := q.isLt; omega
    · rfl

/-- The first output at (p, q): the accumulator scaled by the row's factor, plus the bias. -/
theorem k5_pay2_apply5 (dm : Vec Ideal S1024x1 .f32) (s : Vec Ideal S1024x128 .f32) (b : Vec Ideal S1x128 .f32) (p : Fin 1024) (q : Fin 128) :
    (k5_pay2 (F := Ideal) dm s b : S1024x128.Idx → EReal) (ix2 p q)
      = (s : S1024x128.Idx → EReal) (ix2 p q) * (dm : S1024x1.Idx → EReal) (ix2 p 0) + (b : S1x128.Idx → EReal) (ix2 0 q) := by
  unfold k5_pay2 k5_pay1
  simp only [shapeCast_self]
  show (s (ix2 p q) : EReal) * broadcastTo S1024x128 dm broadcasts_S1024x1_S1024x128 (ix2 p q)
      + broadcastTo S1024x128 b broadcasts_S1x128_S1024x128 (ix2 p q) = _
  rw [broadcastTo_col, broadcastTo_row5]

/-- The word of minus infinity is the bottom element. -/
theorem ofBits_ninf5 : Ideal.ofBits .f32 0xFF800000#32 = (⊥ : EReal) := by simp [Ideal.ofBits, Ideal.ieee]

/-- The row maximum as the body spells it — the lane maximum from minus infinity, joined once more with minus infinity,
    recast as a column — at row p: the largest entry of the row. -/
theorem rowmax5 (L : FVec Ideal S1024x256 .f32) (p : Fin 1024) :
    (shapeCast S1024x1 (maximumf (broadcast S1024 (Scalar.ofBits (F := Ideal) .f32 0xFF800000#32))
        (multiReduction .maximumf [1] S1024 L 0xFF800000#32 reduces_S1024x256_S1024 (.inl rfl) rfl)) shapeCasts_S1024_S1024x1 : S1024x1.Idx → EReal) (ix2 p 0)
      = Cert.GcnSpec.rowMax (fun j : Fin 256 => (L (ix2 p j) : EReal)) := by
  rw [shapeCast_col]
  show max (Ideal.ofBits .f32 0xFF800000#32) (multiReduction .maximumf [1] S1024 L 0xFF800000#32 reduces_S1024x256_S1024 (.inl rfl) rfl (ix1 p)) = _
  rw [Ideal.multiReduction_maximumf_rows_f32, ofBits_ninf5, max_bot_left]
  show Finset.fold max (Ideal.ofBits .f32 0xFF800000#32) (fun q => L (ix2 p q)) Finset.univ = _
  rw [ofBits_ninf5]
  rfl

/-- The row sum as the body spells it, recast as a column, at row p. -/
theorem rowsum5 (X : FVec Ideal S1024x256 .f32) (p : Fin 1024) :
    (shapeCast S1024x1 (multiReduction .add [1] S1024 X 0x00000000#32 reduces_S1024x256_S1024 (.inl rfl) rfl) shapeCasts_S1024_S1024x1 : S1024x1.Idx → EReal) (ix2 p 0)
      = ∑ j : Fin 256, (X (ix2 p j) : EReal) := by
  rw [shapeCast_col, Ideal.multiReduction_add_rows_f32]

/-- The second output at (p, q): the softmax, along the row, of the accumulator scaled by the row's factor plus the bias. -/
theorem k5_pay3_apply5 (dm : Vec Ideal S1024x1 .f32) (s : Vec Ideal S1024x256 .f32) (b : Vec Ideal S1x256 .f32) (p : Fin 1024) (q : Fin 256) :
    (k5_pay3 (F := Ideal) dm s b : S1024x256.Idx → EReal) (ix2 p q)
      = Cert.GcnSpec.softmaxRow (fun j : Fin 256 => (s : S1024x256.Idx → EReal) (ix2 p j) * (dm : S1024x1.Idx → EReal) (ix2 p 0) + (b : S1x256.Idx → EReal) (ix2 0 j)) q := by
  have hL : ∀ j : Fin 256, (addf (F := Ideal) (φ := .f32) (mulf (F := Ideal) (φ := .f32) s (broadcastTo S1024x256 dm broadcasts_S1024x1_S1024x256)) (broadcastTo S1024x256 b broadcasts_S1x256_S1024x256) : S1024x256.Idx → EReal) (ix2 p j)
      = (s : S1024x256.Idx → EReal) (ix2 p j) * (dm : S1024x1.Idx → EReal) (ix2 p 0) + (b : S1x256.Idx → EReal) (ix2 0 j) := fun j => by
    show (s (ix2 p j) : EReal) * broadcastTo S1024x256 dm broadcasts_S1024x1_S1024x256 (ix2 p j)
      + broadcastTo S1024x256 b broadcasts_S1x256_S1024x256 (ix2 p j) = _
    rw [broadcastTo_col, broadcastTo_row5]
  unfold k5_pay3 k5_pay1
  simp only [shapeCast_self]
  change Ideal.div (Ideal.exp (_ - broadcastTo S1024x256 _ broadcasts_S1024x1_S1024x256 (ix2 p q))) (broadcastTo S1024x256 _ broadcasts_S1024x1_S1024x256 (ix2 p q)) = _
  rw [broadcastTo_col, broadcastTo_col, rowmax5, rowsum5]
  unfold Cert.GcnSpec.softmaxRow
  simp only [hL]
  refine congrArg (Ideal.div _) (Finset.sum_congr rfl fun j _ => ?_)
  change Ideal.exp (_ - broadcastTo S1024x256 _ broadcasts_S1024x1_S1024x256 (ix2 p j)) = _
  rw [broadcastTo_col, rowmax5]
  simp only [hL]

end Cert.KernelIdeal.Hand

end
-- ==== Proof.KI.Val5Arr.lean ====
/-
  The fifth call's two output arrays after the region, at the ideal instance, read at an index: the input blocks read
  off their arrays, the accumulators after the last step of a row block as sums over the whole contracted axis, what a
  storing point leaves in the outputs' blocks, and the arrays the write-backs leave.
-/
import proofs.«105977_j57329223467619_2_alg».proof.Proof.KI.Reg5
import proofs.«105977_j57329223467619_2_alg».proof.Proof.KI.Val5Pay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open ValueIdx

/-! ## The windows' block indices, and the input blocks at an index -/

theorem index5_0 : ∀ t : Fin cfg5.N, win5_0.index t 0 = t.val / 4 ∧ win5_0.index t 1 = t.val % 4 :=
  (by decide +kernel : ∀ t : Fin grid5.N, win5_0.index t 0 = t.val / 4 ∧ win5_0.index t 1 = t.val % 4)
theorem index5_1 : ∀ t : Fin cfg5.N, win5_1.index t 0 = t.val % 4 ∧ win5_1.index t 1 = 0 :=
  (by decide +kernel : ∀ t : Fin grid5.N, win5_1.index t 0 = t.val % 4 ∧ win5_1.index t 1 = 0)
theorem index5_2 : ∀ t : Fin cfg5.N, win5_2.index t 0 = t.val % 4 ∧ win5_2.index t 1 = 0 :=
  (by decide +kernel : ∀ t : Fin grid5.N, win5_2.index t 0 = t.val % 4 ∧ win5_2.index t 1 = 0)
theorem index5_3 : ∀ t : Fin cfg5.N, win5_3.index t 0 = t.val % 4 ∧ win5_3.index t 1 = 0 :=
  (by decide +kernel : ∀ t : Fin grid5.N, win5_3.index t 0 = t.val % 4 ∧ win5_3.index t 1 = 0)
theorem index5_4 : ∀ t : Fin cfg5.N, win5_4.index t 0 = t.val / 4 ∧ win5_4.index t 1 = 0 :=
  (by decide +kernel : ∀ t : Fin grid5.N, win5_4.index t 0 = t.val / 4 ∧ win5_4.index t 1 = 0)
theorem index5_5 : ∀ t : Fin cfg5.N, win5_5.index t 0 = 0 ∧ win5_5.index t 1 = 0 :=
  (by decide +kernel : ∀ t : Fin grid5.N, win5_5.index t 0 = 0 ∧ win5_5.index t 1 = 0)
theorem index5_6 : ∀ t : Fin cfg5.N, win5_6.index t 0 = 0 ∧ win5_6.index t 1 = 0 :=
  (by decide +kernel : ∀ t : Fin grid5.N, win5_6.index t 0 = 0 ∧ win5_6.index t 1 = 0)
theorem index5_7 : ∀ t : Fin cfg5.N, win5_7.index t 0 = t.val / 4 ∧ win5_7.index t 1 = 0 :=
  (by decide +kernel : ∀ t : Fin grid5.N, win5_7.index t 0 = t.val / 4 ∧ win5_7.index t 1 = 0)
theorem index5_8 : ∀ t : Fin cfg5.N, win5_8.index t 0 = t.val / 4 ∧ win5_8.index t 1 = 0 :=
  (by decide +kernel : ∀ t : Fin grid5.N, win5_8.index t 0 = t.val / 4 ∧ win5_8.index t 1 = 0)

/-- A matrix read at two natural numbers (zero outside). -/
def natAt5 {R C : ℕ} (A : (⟨2, ![R, C]⟩ : Shape).Idx → EReal) (i j : ℕ) : EReal :=
  if h : i < R ∧ j < C then A (ix2 ⟨i, h.1⟩ ⟨j, h.2⟩) else 0

theorem natAt5_fin {R C : ℕ} (A : (⟨2, ![R, C]⟩ : Shape).Idx → EReal) (p : Fin R) (q : Fin C) : natAt5 A p.val q.val = A (ix2 p q) := by
  unfold natAt5; rw [dif_pos ⟨p.isLt, q.isLt⟩]
theorem natAt5_col {R : ℕ} (A : (⟨2, ![R, 1]⟩ : Shape).Idx → EReal) (p : Fin R) : natAt5 A p.val 0 = A (ix2 p 0) :=
  natAt5_fin A p 0
theorem natAt5_row {C : ℕ} (A : (⟨2, ![1, C]⟩ : Shape).Idx → EReal) (q : Fin C) : natAt5 A 0 q.val = A (ix2 0 q) :=
  natAt5_fin A 0 q

/-- A sum over all 8192 indices is the sum of the sums over the four blocks of 2048. -/
theorem sum_blocks5 (f : ℕ → EReal) :
    ∑ k : Fin 8192, f k.val = (∑ k : Fin 2048, f (0 * 2048 + k.val)) + (∑ k : Fin 2048, f (1 * 2048 + k.val))
      + (∑ k : Fin 2048, f (2 * 2048 + k.val)) + (∑ k : Fin 2048, f (3 * 2048 + k.val)) := by
  have h := sum_tiles 4 2048 (fun j : Fin (4 * 2048) => f j.val)
  refine Eq.trans (by exact h) ?_
  rw [Fin.sum_univ_four]
  have hv : ∀ (b : Fin 4) (k : Fin 2048), (finProdFinEquiv (b, k) : Fin (4 * 2048)).val = b.val * 2048 + k.val := by
    intro b k; show k.val + 2048 * b.val = _; omega
  simp only [hv]
  rfl

section Values5
variable (V : (c : Dev nD) → (b : Ref sig .tc) → Buf (Elt Ideal) ((c : Thread nD τ).loc b))

theorem iblk5_0_apply (c : Dev nD) (t : Fin cfg5.N) (r : Fin 1024) (k : Fin 2048) :
    (iblk5 (F := Ideal) V c 0 t : S1024x2048.Idx → EReal) (ix2 r k)
      = natAt5 (V c main_v0_0 : S8192x8192.Idx → EReal) (t.val / 4 * 1024 + r.val) (t.val % 4 * 2048 + k.val) := by
  have hN : t.val < 32 := lt_of_lt_of_eq t.isLt (show cfg5.N = 32 from N_5)
  have hr : t.val / 4 * 1024 + r.val < 8192 := by have := r.isLt; omega
  have hk : t.val % 4 * 2048 + k.val < 8192 := by have := k.isLt; omega
  unfold natAt5; rw [dif_pos ⟨hr, hk⟩]
  unfold iblk5
  rw [View.read_apply]
  show (V c main_v0_0 : S8192x8192.Idx → EReal) _ = (V c main_v0_0 : S8192x8192.Idx → EReal) _
  congr 1
  funext a
  apply Fin.ext
  match a with
  | ⟨0, _⟩ => show win5_0.index t 0 * 1024 + 1 * r.val = t.val / 4 * 1024 + r.val; rw [(index5_0 t).1]; omega
  | ⟨1, _⟩ => show win5_0.index t 1 * 2048 + 1 * k.val = t.val % 4 * 2048 + k.val; rw [(index5_0 t).2]; omega

theorem iblk5_1_apply (c : Dev nD) (t : Fin cfg5.N) (r : Fin 2048) (k : Fin 128) :
    (iblk5 (F := Ideal) V c 1 t : S2048x128.Idx → EReal) (ix2 r k)
      = natAt5 (V c main_v5 : S8192x128.Idx → EReal) (t.val % 4 * 2048 + r.val) (k.val) := by
  have hN : t.val < 32 := lt_of_lt_of_eq t.isLt (show cfg5.N = 32 from N_5)
  have hr : t.val % 4 * 2048 + r.val < 8192 := by have := r.isLt; omega
  have hk : k.val < 128 := by have := k.isLt; omega
  unfold natAt5; rw [dif_pos ⟨hr, hk⟩]
  unfold iblk5
  rw [View.read_apply]
  show (V c main_v5 : S8192x128.Idx → EReal) _ = (V c main_v5 : S8192x128.Idx → EReal) _
  congr 1
  funext a
  apply Fin.ext
  match a with
  | ⟨0, _⟩ => show win5_1.index t 0 * 2048 + 1 * r.val = t.val % 4 * 2048 + r.val; rw [(index5_1 t).1]; omega
  | ⟨1, _⟩ => show win5_1.index t 1 * 128 + 1 * k.val = k.val; rw [(index5_1 t).2]; omega

theorem iblk5_2_apply (c : Dev nD) (t : Fin cfg5.N) (r : Fin 2048) (k : Fin 256) :
    (iblk5 (F := Ideal) V c 2 t : S2048x256.Idx → EReal) (ix2 r k)
      = natAt5 (V c main_v6 : S8192x256.Idx → EReal) (t.val % 4 * 2048 + r.val) (k.val) := by
  have hN : t.val < 32 := lt_of_lt_of_eq t.isLt (show cfg5.N = 32 from N_5)
  have hr : t.val % 4 * 2048 + r.val < 8192 := by have := r.isLt; omega
  have hk : k.val < 256 := by have := k.isLt; omega
  unfold natAt5; rw [dif_pos ⟨hr, hk⟩]
  unfold iblk5
  rw [View.read_apply]
  show (V c main_v6 : S8192x256.Idx → EReal) _ = (V c main_v6 : S8192x256.Idx → EReal) _
  congr 1
  funext a
  apply Fin.ext
  match a with
  | ⟨0, _⟩ => show win5_2.index t 0 * 2048 + 1 * r.val = t.val % 4 * 2048 + r.val; rw [(index5_2 t).1]; omega
  | ⟨1, _⟩ => show win5_2.index t 1 * 256 + 1 * k.val = k.val; rw [(index5_2 t).2]; omega

theorem iblk5_3_apply (c : Dev nD) (t : Fin cfg5.N) (r : Fin 2048) :
    (iblk5 (F := Ideal) V c 3 t : S2048x1.Idx → EReal) (ix2 r (0 : Fin 1))
      = natAt5 (V c main_v1 : S8192x1.Idx → EReal) (t.val % 4 * 2048 + r.val) (0) := by
  have hN : t.val < 32 := lt_of_lt_of_eq t.isLt (show cfg5.N = 32 from N_5)
  have hr : t.val % 4 * 2048 + r.val < 8192 := by have := r.isLt; omega
  have hk : 0 < 1 := by omega
  unfold natAt5; rw [dif_pos ⟨hr, hk⟩]
  unfold iblk5
  rw [View.read_apply]
  show (V c main_v1 : S8192x1.Idx → EReal) _ = (V c main_v1 : S8192x1.Idx → EReal) _
  congr 1
  funext a
  apply Fin.ext
  match a with
  | ⟨0, _⟩ => show win5_3.index t 0 * 2048 + 1 * r.val = t.val % 4 * 2048 + r.val; rw [(index5_3 t).1]; omega
  | ⟨1, _⟩ => show win5_3.index t 1 * 1 + 1 * (0 : Fin 1).val = 0; rw [(index5_3 t).2]; show 0 * 1 + 1 * 0 = 0; omega

theorem iblk5_4_apply (c : Dev nD) (t : Fin cfg5.N) (r : Fin 1024) :
    (iblk5 (F := Ideal) V c 4 t : S1024x1.Idx → EReal) (ix2 r (0 : Fin 1))
      = natAt5 (V c main_v1 : S8192x1.Idx → EReal) (t.val / 4 * 1024 + r.val) (0) := by
  have hN : t.val < 32 := lt_of_lt_of_eq t.isLt (show cfg5.N = 32 from N_5)
  have hr : t.val / 4 * 1024 + r.val < 8192 := by have := r.isLt; omega
  have hk : 0 < 1 := by omega
  unfold natAt5; rw [dif_pos ⟨hr, hk⟩]
  unfold iblk5
  rw [View.read_apply]
  show (V c main_v1 : S8192x1.Idx → EReal) _ = (V c main_v1 : S8192x1.Idx → EReal) _
  congr 1
  funext a
  apply Fin.ext
  match a with
  | ⟨0, _⟩ => show win5_4.index t 0 * 1024 + 1 * r.val = t.val / 4 * 1024 + r.val; rw [(index5_4 t).1]; omega
  | ⟨1, _⟩ => show win5_4.index t 1 * 1 + 1 * (0 : Fin 1).val = 0; rw [(index5_4 t).2]; show 0 * 1 + 1 * 0 = 0; omega

theorem iblk5_5_apply (c : Dev nD) (t : Fin cfg5.N) (k : Fin 128) :
    (iblk5 (F := Ideal) V c 5 t : S1x128.Idx → EReal) (ix2 (0 : Fin 1) k)
      = natAt5 (V c main_v7 : S1x128.Idx → EReal) (0) (k.val) := by
  have hN : t.val < 32 := lt_of_lt_of_eq t.isLt (show cfg5.N = 32 from N_5)
  have hr : 0 < 1 := by omega
  have hk : k.val < 128 := by have := k.isLt; omega
  unfold natAt5; rw [dif_pos ⟨hr, hk⟩]
  unfold iblk5
  rw [View.read_apply]
  show (V c main_v7 : S1x128.Idx → EReal) _ = (V c main_v7 : S1x128.Idx → EReal) _
  congr 1
  funext a
  apply Fin.ext
  match a with
  | ⟨0, _⟩ => show win5_5.index t 0 * 1 + 1 * (0 : Fin 1).val = 0; rw [(index5_5 t).1]; show 0 * 1 + 1 * 0 = 0; omega
  | ⟨1, _⟩ => show win5_5.index t 1 * 128 + 1 * k.val = k.val; rw [(index5_5 t).2]; omega

theorem iblk5_6_apply (c : Dev nD) (t : Fin cfg5.N) (k : Fin 256) :
    (iblk5 (F := Ideal) V c 6 t : S1x256.Idx → EReal) (ix2 (0 : Fin 1) k)
      = natAt5 (V c main_v8 : S1x256.Idx → EReal) (0) (k.val) := by
  have hN : t.val < 32 := lt_of_lt_of_eq t.isLt (show cfg5.N = 32 from N_5)
  have hr : 0 < 1 := by omega
  have hk : k.val < 256 := by have := k.isLt; omega
  unfold natAt5; rw [dif_pos ⟨hr, hk⟩]
  unfold iblk5
  rw [View.read_apply]
  show (V c main_v8 : S1x256.Idx → EReal) _ = (V c main_v8 : S1x256.Idx → EReal) _
  congr 1
  funext a
  apply Fin.ext
  match a with
  | ⟨0, _⟩ => show win5_6.index t 0 * 1 + 1 * (0 : Fin 1).val = 0; rw [(index5_6 t).1]; show 0 * 1 + 1 * 0 = 0; omega
  | ⟨1, _⟩ => show win5_6.index t 1 * 256 + 1 * k.val = k.val; rw [(index5_6 t).2]; omega

/-! ## The accumulators at the last step of a row block -/

/-- The scaled block product of position n, at (p, q), read off the arrays. -/
def term5_1 (c : Dev nD) (n : ℕ) (p : Fin 1024) (q : Fin 128) : EReal :=
  ∑ k : Fin 2048, natAt5 (V c main_v0_0 : S8192x8192.Idx → EReal) (n / 4 * 1024 + p.val) (n % 4 * 2048 + k.val)
      * (natAt5 (V c main_v5 : S8192x128.Idx → EReal) (n % 4 * 2048 + k.val) q.val * natAt5 (V c main_v1 : S8192x1.Idx → EReal) (n % 4 * 2048 + k.val) 0)

theorem acc5_1_reset (c : Dev nD) (n : ℕ) (hn : n < cfg5.N) (h : n % 4 = 0) (p : Fin 1024) (q : Fin 128) :
    ((acc5 (F := Ideal) V c n hn).1 : S1024x128.Idx → EReal) (ix2 p q) = 0 + term5_1 V c n p q := by
  rw [acc5_first V c ⟨n, hn⟩ h]
  dsimp only
  rw [k5_pay8_apply5, k5_pay4_apply5]
  refine congrArg (fun z => (0 : EReal) + z) (Finset.sum_congr rfl fun k _ => ?_)
  rw [iblk5_0_apply V c ⟨n, hn⟩ p k, iblk5_1_apply V c ⟨n, hn⟩ k q, iblk5_3_apply V c ⟨n, hn⟩ k]

theorem acc5_1_step (c : Dev nD) (n : ℕ) (hn : n + 1 < cfg5.N) (h : ¬(n + 1) % 4 = 0) (p : Fin 1024) (q : Fin 128) :
    ((acc5 (F := Ideal) V c (n + 1) hn).1 : S1024x128.Idx → EReal) (ix2 p q)
      = ((acc5 (F := Ideal) V c n (Nat.lt_of_succ_lt hn)).1 : S1024x128.Idx → EReal) (ix2 p q) + term5_1 V c (n + 1) p q := by
  rw [acc5_later V c ⟨n + 1, hn⟩ h]
  dsimp only
  rw [k5_pay8_apply5]
  refine congrArg (fun z => ((acc5 (F := Ideal) V c n (Nat.lt_of_succ_lt hn)).1 : S1024x128.Idx → EReal) (ix2 p q) + z) (Finset.sum_congr rfl fun k _ => ?_)
  rw [iblk5_0_apply V c ⟨n + 1, hn⟩ p k, iblk5_1_apply V c ⟨n + 1, hn⟩ k q, iblk5_3_apply V c ⟨n + 1, hn⟩ k]

/-- After the last step of row block a the accumulator holds, at (p, q), the product over the whole contracted axis. -/
theorem acc5_1_last (c : Dev nD) (t : Fin cfg5.N) (h3 : t.val % 4 = 3) (p : Fin 1024) (q : Fin 128) :
    ((acc5 (F := Ideal) V c t.val t.isLt).1 : S1024x128.Idx → EReal) (ix2 p q)
      = ∑ K : Fin 8192, natAt5 (V c main_v0_0 : S8192x8192.Idx → EReal) (t.val / 4 * 1024 + p.val) K.val * (natAt5 (V c main_v5 : S8192x128.Idx → EReal) K.val q.val * natAt5 (V c main_v1 : S8192x1.Idx → EReal) K.val 0) := by
  obtain ⟨n, hn⟩ := t
  dsimp only at h3 ⊢
  obtain ⟨m, rfl⟩ : ∃ m, n = m + 1 + 1 + 1 := ⟨n - 3, by omega⟩
  have hN : m + 1 + 1 + 1 < 32 := lt_of_lt_of_eq hn (show cfg5.N = 32 from N_5)
  rw [acc5_1_step V c (m + 1 + 1) hn (by omega) p q, acc5_1_step V c (m + 1) _ (by omega) p q,
    acc5_1_step V c m _ (by omega) p q, acc5_1_reset V c m _ (by omega) p q, zero_add,
    sum_blocks5 (fun j => natAt5 (V c main_v0_0 : S8192x8192.Idx → EReal) ((m + 1 + 1 + 1) / 4 * 1024 + p.val) j
      * (natAt5 (V c main_v5 : S8192x128.Idx → EReal) j q.val * natAt5 (V c main_v1 : S8192x1.Idx → EReal) j 0))]
  unfold term5_1
  have e0 : m / 4 = (m + 1 + 1 + 1) / 4 := by omega
  have e1 : (m + 1) / 4 = (m + 1 + 1 + 1) / 4 := by omega
  have e2 : (m + 1 + 1) / 4 = (m + 1 + 1 + 1) / 4 := by omega
  have f0 : m % 4 = 0 := by omega
  have f1 : (m + 1) % 4 = 1 := by omega
  have f2 : (m + 1 + 1) % 4 = 2 := by omega
  have f3 : (m + 1 + 1 + 1) % 4 = 3 := by omega
  rw [e0, e1, e2, f0, f1, f2, f3]

/-- The scaled block product of position n, at (p, q), read off the arrays. -/
def term5_2 (c : Dev nD) (n : ℕ) (p : Fin 1024) (q : Fin 256) : EReal :=
  ∑ k : Fin 2048, natAt5 (V c main_v0_0 : S8192x8192.Idx → EReal) (n / 4 * 1024 + p.val) (n % 4 * 2048 + k.val)
      * (natAt5 (V c main_v6 : S8192x256.Idx → EReal) (n % 4 * 2048 + k.val) q.val * natAt5 (V c main_v1 : S8192x1.Idx → EReal) (n % 4 * 2048 + k.val) 0)

theorem acc5_2_reset (c : Dev nD) (n : ℕ) (hn : n < cfg5.N) (h : n % 4 = 0) (p : Fin 1024) (q : Fin 256) :
    ((acc5 (F := Ideal) V c n hn).2 : S1024x256.Idx → EReal) (ix2 p q) = 0 + term5_2 V c n p q := by
  rw [acc5_first V c ⟨n, hn⟩ h]
  dsimp only
  rw [k5_pay9_apply5, k5_pay5_apply5]
  refine congrArg (fun z => (0 : EReal) + z) (Finset.sum_congr rfl fun k _ => ?_)
  rw [iblk5_0_apply V c ⟨n, hn⟩ p k, iblk5_2_apply V c ⟨n, hn⟩ k q, iblk5_3_apply V c ⟨n, hn⟩ k]

theorem acc5_2_step (c : Dev nD) (n : ℕ) (hn : n + 1 < cfg5.N) (h : ¬(n + 1) % 4 = 0) (p : Fin 1024) (q : Fin 256) :
    ((acc5 (F := Ideal) V c (n + 1) hn).2 : S1024x256.Idx → EReal) (ix2 p q)
      = ((acc5 (F := Ideal) V c n (Nat.lt_of_succ_lt hn)).2 : S1024x256.Idx → EReal) (ix2 p q) + term5_2 V c (n + 1) p q := by
  rw [acc5_later V c ⟨n + 1, hn⟩ h]
  dsimp only
  rw [k5_pay9_apply5]
  refine congrArg (fun z => ((acc5 (F := Ideal) V c n (Nat.lt_of_succ_lt hn)).2 : S1024x256.Idx → EReal) (ix2 p q) + z) (Finset.sum_congr rfl fun k _ => ?_)
  rw [iblk5_0_apply V c ⟨n + 1, hn⟩ p k, iblk5_2_apply V c ⟨n + 1, hn⟩ k q, iblk5_3_apply V c ⟨n + 1, hn⟩ k]

/-- After the last step of row block a the accumulator holds, at (p, q), the product over the whole contracted axis. -/
theorem acc5_2_last (c : Dev nD) (t : Fin cfg5.N) (h3 : t.val % 4 = 3) (p : Fin 1024) (q : Fin 256) :
    ((acc5 (F := Ideal) V c t.val t.isLt).2 : S1024x256.Idx → EReal) (ix2 p q)
      = ∑ K : Fin 8192, natAt5 (V c main_v0_0 : S8192x8192.Idx → EReal) (t.val / 4 * 1024 + p.val) K.val * (natAt5 (V c main_v6 : S8192x256.Idx → EReal) K.val q.val * natAt5 (V c main_v1 : S8192x1.Idx → EReal) K.val 0) := by
  obtain ⟨n, hn⟩ := t
  dsimp only at h3 ⊢
  obtain ⟨m, rfl⟩ : ∃ m, n = m + 1 + 1 + 1 := ⟨n - 3, by omega⟩
  have hN : m + 1 + 1 + 1 < 32 := lt_of_lt_of_eq hn (show cfg5.N = 32 from N_5)
  rw [acc5_2_step V c (m + 1 + 1) hn (by omega) p q, acc5_2_step V c (m + 1) _ (by omega) p q,
    acc5_2_step V c m _ (by omega) p q, acc5_2_reset V c m _ (by omega) p q, zero_add,
    sum_blocks5 (fun j => natAt5 (V c main_v0_0 : S8192x8192.Idx → EReal) ((m + 1 + 1 + 1) / 4 * 1024 + p.val) j
      * (natAt5 (V c main_v6 : S8192x256.Idx → EReal) j q.val * natAt5 (V c main_v1 : S8192x1.Idx → EReal) j 0))]
  unfold term5_2
  have e0 : m / 4 = (m + 1 + 1 + 1) / 4 := by omega
  have e1 : (m + 1) / 4 = (m + 1 + 1 + 1) / 4 := by omega
  have e2 : (m + 1 + 1) / 4 = (m + 1 + 1 + 1) / 4 := by omega
  have f0 : m % 4 = 0 := by omega
  have f1 : (m + 1) % 4 = 1 := by omega
  have f2 : (m + 1 + 1) % 4 = 2 := by omega
  have f3 : (m + 1 + 1 + 1) % 4 = 3 := by omega
  rw [e0, e1, e2, f0, f1, f2, f3]

/-! ## The outputs' blocks at a storing point -/

theorem out5_7_apply (c : Dev nD) (t : Fin cfg5.N) (h3 : t.val % 4 = 3) (p : Fin 1024) (q : Fin 128) :
    (out5_7 (F := Ideal) V c t : S1024x128.Idx → EReal) (ix2 p q) = (∑ K : Fin 8192, natAt5 (V c main_v0_0 : S8192x8192.Idx → EReal) (t.val / 4 * 1024 + p.val) K.val * (natAt5 (V c main_v5 : S8192x128.Idx → EReal) K.val q.val * natAt5 (V c main_v1 : S8192x1.Idx → EReal) K.val 0)) * natAt5 (V c main_v1 : S8192x1.Idx → EReal) (t.val / 4 * 1024 + p.val) 0 + natAt5 (V c main_v7 : S1x128.Idx → EReal) 0 q.val := by
  unfold out5_7
  rw [k5_pay2_apply5, acc5_1_last V c t h3 p q, iblk5_4_apply V c t p, iblk5_5_apply V c t q]

theorem out5_8_apply (c : Dev nD) (t : Fin cfg5.N) (h3 : t.val % 4 = 3) (p : Fin 1024) (q : Fin 256) :
    (out5_8 (F := Ideal) V c t : S1024x256.Idx → EReal) (ix2 p q)
      = Cert.GcnSpec.softmaxRow (fun j : Fin 256 => (∑ K : Fin 8192, natAt5 (V c main_v0_0 : S8192x8192.Idx → EReal) (t.val / 4 * 1024 + p.val) K.val * (natAt5 (V c main_v6 : S8192x256.Idx → EReal) K.val j.val * natAt5 (V c main_v1 : S8192x1.Idx → EReal) K.val 0)) * natAt5 (V c main_v1 : S8192x1.Idx → EReal) (t.val / 4 * 1024 + p.val) 0 + natAt5 (V c main_v8 : S1x256.Idx → EReal) 0 j.val) q := by
  unfold out5_8
  rw [k5_pay3_apply5]
  refine congrArg (fun v => Cert.GcnSpec.softmaxRow v q) (funext fun j => ?_)
  rw [acc5_2_last V c t h3 p j, iblk5_4_apply V c t p, iblk5_6_apply V c t j]

/-! ## The output arrays after the region -/

/-- What the first output array holds after the region, as one function of the entry contents. -/
def G5_7 (c : Dev nD) : S8192x128.Idx → EReal := fun i => (∑ K : Fin 8192, natAt5 (V c main_v0_0 : S8192x8192.Idx → EReal) ((i 0).val) K.val * (natAt5 (V c main_v5 : S8192x128.Idx → EReal) K.val (i 1).val * natAt5 (V c main_v1 : S8192x1.Idx → EReal) K.val 0)) * natAt5 (V c main_v1 : S8192x1.Idx → EReal) ((i 0).val) 0 + natAt5 (V c main_v7 : S1x128.Idx → EReal) 0 (i 1).val
/-- And the second. -/
def G5_8 (c : Dev nD) : S8192x256.Idx → EReal := fun i =>
  Cert.GcnSpec.softmaxRow (fun j : Fin 256 => (∑ K : Fin 8192, natAt5 (V c main_v0_0 : S8192x8192.Idx → EReal) ((i 0).val) K.val * (natAt5 (V c main_v6 : S8192x256.Idx → EReal) K.val j.val * natAt5 (V c main_v1 : S8192x1.Idx → EReal) K.val 0)) * natAt5 (V c main_v1 : S8192x1.Idx → EReal) ((i 0).val) 0 + natAt5 (V c main_v8 : S1x256.Idx → EReal) 0 j.val) ⟨(i 1).val, (i 1).isLt⟩

/-- A block index of two coordinates is the pair of its coordinates. -/
theorem ix2_eta5 {R C : ℕ} (y : (⟨2, ![R, C]⟩ : Shape).Idx) : y = ix2 (y 0) (y 1) := by
  funext a
  match a with
  | ⟨0, _⟩ => rfl
  | ⟨1, _⟩ => rfl

/-- Every storing point writes back its block of the one function. -/
theorem hG5_7 (c : Dev nD) (t : Fin cfg5.N) (hf : (cfg5.win 7).flush t = true) :
    (dat5 (F := Ideal) V c).flushed 7 t = ((cfg5.win 7).blk t).view.read (Elt Ideal) (G5_7 V c) := by
  have h3 : t.val % 4 = 3 := (flush5_7 t).mp hf
  funext y
  rw [View.read_apply]
  show (dat5 (F := Ideal) V c).after 7 t y = _
  rw [after5_7]
  obtain ⟨r, k, rfl⟩ : ∃ (r : Fin 1024) (k : Fin 128), y = ix2 r k := ⟨y 0, y 1, ix2_eta5 (R := 1024) (C := 128) y⟩
  rw [out5_7_apply V c t h3 r k]
  have e0 : ((((cfg5.win 7).blk t).view.emb (ix2 r k) : S8192x128.Idx) 0).val = t.val / 4 * 1024 + r.val := by
    show win5_7.index t 0 * 1024 + 1 * r.val = _; rw [(index5_7 t).1]; omega
  have e1 : ((((cfg5.win 7).blk t).view.emb (ix2 r k) : S8192x128.Idx) 1).val = k.val := by
    show win5_7.index t 1 * 128 + 1 * k.val = _; rw [(index5_7 t).2]; omega
  show _ = G5_7 V c (((cfg5.win 7).blk t).view.emb (ix2 r k) : S8192x128.Idx)
  unfold G5_7
  simp only [e0, e1]

theorem hG5_8 (c : Dev nD) (t : Fin cfg5.N) (hf : (cfg5.win 8).flush t = true) :
    (dat5 (F := Ideal) V c).flushed 8 t = ((cfg5.win 8).blk t).view.read (Elt Ideal) (G5_8 V c) := by
  have h3 : t.val % 4 = 3 := (flush5_8 t).mp hf
  funext y
  rw [View.read_apply]
  show (dat5 (F := Ideal) V c).after 8 t y = _
  rw [after5_8]
  obtain ⟨r, k, rfl⟩ : ∃ (r : Fin 1024) (k : Fin 256), y = ix2 r k := ⟨y 0, y 1, ix2_eta5 (R := 1024) (C := 256) y⟩
  rw [out5_8_apply V c t h3 r k]
  have e0 : ((((cfg5.win 8).blk t).view.emb (ix2 r k) : S8192x256.Idx) 0).val = t.val / 4 * 1024 + r.val := by
    show win5_8.index t 0 * 1024 + 1 * r.val = _; rw [(index5_8 t).1]; omega
  have e1 : ((((cfg5.win 8).blk t).view.emb (ix2 r k) : S8192x256.Idx) 1).val = k.val := by
    show win5_8.index t 1 * 256 + 1 * k.val = _; rw [(index5_8 t).2]; omega
  show _ = G5_8 V c (((cfg5.win 8).blk t).view.emb (ix2 r k) : S8192x256.Idx)
  unfold G5_8
  simp only [e0]
  exact congrArg _ (Fin.ext e1.symm)

/-- The first output array after the region, at (P, q). -/
theorem arr5_7_apply (c : Dev nD) (P : Fin 8192) (q : Fin 128) :
    ((dat5 (F := Ideal) V c).arrAt 7 cfg5.N : S8192x128.Idx → EReal) (ix2 P q) = G5_7 V c (ix2 P q) := by
  have hP := P.isLt
  have ht : P.val / 1024 * 4 + 3 < cfg5.N := by rw [show cfg5.N = 32 from N_5]; omega
  have hf : (cfg5.win 7).flush ⟨P.val / 1024 * 4 + 3, ht⟩ = true := (flush5_7 _).mpr (by show (P.val / 1024 * 4 + 3) % 4 = 3; omega)
  have hr : P.val % 1024 < 1024 := Nat.mod_lt _ (by decide)
  have hemb : (((cfg5.win 7).blk ⟨P.val / 1024 * 4 + 3, ht⟩).view.emb (ix2 (⟨P.val % 1024, hr⟩ : Fin 1024) q) : S8192x128.Idx) = ix2 P q := by
    funext a
    apply Fin.ext
    match a with
    | ⟨0, _⟩ => show win5_7.index ⟨P.val / 1024 * 4 + 3, ht⟩ 0 * 1024 + 1 * (P.val % 1024) = P.val; rw [(index5_7 _).1]; show (P.val / 1024 * 4 + 3) / 4 * 1024 + 1 * (P.val % 1024) = P.val; omega
    | ⟨1, _⟩ => show win5_7.index ⟨P.val / 1024 * 4 + 3, ht⟩ 1 * 128 + 1 * q.val = q.val; rw [(index5_7 _).2]; omega
  have h := congrFun ((dat5 (F := Ideal) V c).read_blk_arrAt 7 (G5_7 V c) (hG5_7 V c) ⟨P.val / 1024 * 4 + 3, ht⟩ hf) (ix2 (⟨P.val % 1024, hr⟩ : Fin 1024) q)
  rw [View.read_apply, View.read_apply] at h
  rw [← hemb]
  exact h

theorem arr5_8_apply (c : Dev nD) (P : Fin 8192) (q : Fin 256) :
    ((dat5 (F := Ideal) V c).arrAt 8 cfg5.N : S8192x256.Idx → EReal) (ix2 P q) = G5_8 V c (ix2 P q) := by
  have hP := P.isLt
  have ht : P.val / 1024 * 4 + 3 < cfg5.N := by rw [show cfg5.N = 32 from N_5]; omega
  have hf : (cfg5.win 8).flush ⟨P.val / 1024 * 4 + 3, ht⟩ = true := (flush5_8 _).mpr (by show (P.val / 1024 * 4 + 3) % 4 = 3; omega)
  have hr : P.val % 1024 < 1024 := Nat.mod_lt _ (by decide)
  have hemb : (((cfg5.win 8).blk ⟨P.val / 1024 * 4 + 3, ht⟩).view.emb (ix2 (⟨P.val % 1024, hr⟩ : Fin 1024) q) : S8192x256.Idx) = ix2 P q := by
    funext a
    apply Fin.ext
    match a with
    | ⟨0, _⟩ => show win5_8.index ⟨P.val / 1024 * 4 + 3, ht⟩ 0 * 1024 + 1 * (P.val % 1024) = P.val; rw [(index5_8 _).1]; show (P.val / 1024 * 4 + 3) / 4 * 1024 + 1 * (P.val % 1024) = P.val; omega
    | ⟨1, _⟩ => show win5_8.index ⟨P.val / 1024 * 4 + 3, ht⟩ 1 * 256 + 1 * q.val = q.val; rw [(index5_8 _).2]; omega
  have h := congrFun ((dat5 (F := Ideal) V c).read_blk_arrAt 8 (G5_8 V c) (hG5_8 V c) ⟨P.val / 1024 * 4 + 3, ht⟩ hf) (ix2 (⟨P.val % 1024, hr⟩ : Fin 1024) q)
  rw [View.read_apply, View.read_apply] at h
  rw [← hemb]
  exact h

end Values5

end Cert.KernelIdeal.Hand

end
-- ==== Proof.KI.Val5.lean ====
/-
  The values the fifth call leaves, at the ideal instance (every float an extended real): the first result is the
  adjacency times the features scaled by the reduction index's factor, scaled by the row's factor, plus the bias; the
  second is the row-wise softmax of the same expression over the other features and bias.
-/
import proofs.«105977_j57329223467619_2_alg».proof.Proof.KI.Val5Arr
import proofs.«105977_j57329223467619_2_alg».proof.Proof.Bridge0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open ValueIdx

/-! ## The two results of the region, read off the exit valuation -/

section Final5
variable (W : Dev nD → Valuation τ sig (Elt Ideal))
open Cert.GcnSpec (toMat)

/-- The first result: the adjacency times the scaled features, scaled by the row's factor, plus the bias. -/
theorem val5_z (c : Dev nD) (p : Fin 8192) (q : Fin 128) :
    toMat (Wout5 (F := Ideal) W c (Proc.devRef .tc main_v9_0) : S8192x128.Idx → EReal) p q
      = (∑ k : Fin 8192, toMat (W c (Proc.devRef .tc main_v0_0) : S8192x8192.Idx → EReal) p k * (toMat (W c (Proc.devRef .tc main_v5) : S8192x128.Idx → EReal) k q * toMat (W c (Proc.devRef .tc main_v1) : S8192x1.Idx → EReal) k 0))
        * toMat (W c (Proc.devRef .tc main_v1) : S8192x1.Idx → EReal) p 0 + toMat (W c (Proc.devRef .tc main_v7) : S1x128.Idx → EReal) 0 q := by
  rw [Wout5_main_v9_0]
  show ((dat5 (F := Ideal) (V5of W) c).arrAt 7 cfg5.N : S8192x128.Idx → EReal) (ix2 p q) = _
  rw [arr5_7_apply (V5of W) c p q]
  unfold G5_7
  have e0 : ((ix2 p q : S8192x128.Idx) 0).val = p.val := rfl
  have e1 : ((ix2 p q : S8192x128.Idx) 1).val = q.val := rfl
  simp only [e0, e1, natAt5_fin, natAt5_col, natAt5_row]
  rfl

/-- The second result: the row-wise softmax of the same expression over the other features and bias. -/
theorem val5_s (c : Dev nD) (p : Fin 8192) (q : Fin 256) :
    toMat (Wout5 (F := Ideal) W c (Proc.devRef .tc main_v9_1) : S8192x256.Idx → EReal) p q
      = Cert.GcnSpec.softmaxRow (fun j : Fin 256 =>
          (∑ k : Fin 8192, toMat (W c (Proc.devRef .tc main_v0_0) : S8192x8192.Idx → EReal) p k * (toMat (W c (Proc.devRef .tc main_v6) : S8192x256.Idx → EReal) k j * toMat (W c (Proc.devRef .tc main_v1) : S8192x1.Idx → EReal) k 0))
            * toMat (W c (Proc.devRef .tc main_v1) : S8192x1.Idx → EReal) p 0 + toMat (W c (Proc.devRef .tc main_v8) : S1x256.Idx → EReal) 0 j) q := by
  rw [Wout5_main_v9_1]
  show ((dat5 (F := Ideal) (V5of W) c).arrAt 8 cfg5.N : S8192x256.Idx → EReal) (ix2 p q) = _
  rw [arr5_8_apply (V5of W) c p q]
  unfold G5_8
  have e0 : ((ix2 p q : S8192x256.Idx) 0).val = p.val := rfl
  simp only [e0, natAt5_fin, natAt5_col, natAt5_row]
  rfl

end Final5

end Cert.KernelIdeal.Hand

end
-- ==== Proof.KI.Val6.lean ====
/-
  Region 6 at the extended reals: the result array at the region's exit, read at an index, is the sum over the whole
  contracted axis of the products of the two operand arrays' entries.
-/
import proofs.«105977_j57329223467619_2_alg».proof.Proof.KI.Reg6
import proofs.«105977_j57329223467619_2_alg».proof.Proof.LibPlain
import proofs.«105977_j57329223467619_2_alg».proof.Proof.Bridge0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.GcnSpec (toMat toMat_apply)

/-! ## The result array at the region's exit (any float instance) -/

section Final6

variable {F : FTy → Type} [FloatOps F]
variable (V : (c : Dev nD) → (b : Ref sig .tc) → Buf (Elt F) ((c : Thread nD τ).loc b))

theorem lt6_three : 3 < cfg6.N := by rw [N6]; decide

/-- The accumulator after the last point, as contents of the result array (its one block is the array). -/
abbrev result6 (c : Dev nD) : Buf (Elt F) ((c : Thread nD τ).loc main_v10) := acc6 V c 3 lt6_three

/-- The one write-back, at the last point, writes it. -/
theorem flushed6_eq (c : Dev nD) (t : Fin cfg6.N) (hf : (cfg6.win 2).flush t = true) :
    (dat6 V c).flushed 2 t = ((cfg6.win 2).blk t).view.read (Elt F) (result6 V c) := by
  have hN : cfg6.N = 4 := N6
  have h3 : t.val = 3 := by have := (flush6_2 t).mp hf; have := t.isLt; omega
  obtain rfl : t = t6_3 := Fin.ext h3
  show (cfg6.win 2).cut (grid6.coords t6_3) ((dat6 V c).after 2 t6_3) = _
  rw [after6_2]
  have hz' : (fun a => win6_2.index t6_3 a * main_v10.ty.shape.size a) = fun _ => 0 := funext fun a => by fin_cases a <;> decide
  exact (Memref.read_access_unit_zero (Elt F) main_v10 hz' (fun a => by rw [congrFun hz' a]; simp) (result6 V c)).symm

/-- So the result array ends holding the accumulator after the last point. -/
theorem final6 (c : Dev nD) : (dat6 V c).arrAt 2 cfg6.N = result6 V c :=
  (dat6 V c).arrAt_eq_of_cover 2 (result6 V c) (flushed6_eq V c) fun i =>
    ⟨t6_3, (flush6_2 t6_3).mpr rfl, by
      show i ∈ ((View.whole main_v10).slice (win6_2.rect t6_3)).set
      rw [View.set_slice_whole, Rect.mem_set_unit]
      intro a
      have h0 : (i 0 : Nat) < 256 := (i 0).isLt
      have h1 : (i 1 : Nat) < 128 := (i 1).isLt
      match a with
      | ⟨0, _⟩ => show win6_2.index t6_3 0 * win6_2.size 0 ≤ (i 0 : Nat) ∧ (i 0 : Nat) < win6_2.index t6_3 0 * win6_2.size 0 + win6_2.xsize (grid6.coords t6_3) 0
                  rw [show win6_2.index t6_3 0 * win6_2.size 0 = 0 from by decide +kernel, show win6_2.xsize (grid6.coords t6_3) 0 = 256 from by decide +kernel]; omega
      | ⟨1, _⟩ => show win6_2.index t6_3 1 * win6_2.size 1 ≤ (i 1 : Nat) ∧ (i 1 : Nat) < win6_2.index t6_3 1 * win6_2.size 1 + win6_2.xsize (grid6.coords t6_3) 1
                  rw [show win6_2.index t6_3 1 * win6_2.size 1 = 0 from by decide +kernel, show win6_2.xsize (grid6.coords t6_3) 1 = 128 from by decide +kernel]; omega⟩

/-- The accumulator after the last point: the four blocks' steps, one after the other, from the zero fill. -/
theorem acc6_three (c : Dev nD) : acc6 V c 3 lt6_three
    = k6_pay2 (iblk6 V c 0 t6_3) (iblk6 V c 1 t6_3) (k6_pay2 (iblk6 V c 0 t6_2) (iblk6 V c 1 t6_2)
        (k6_pay2 (iblk6 V c 0 t6_1) (iblk6 V c 1 t6_1) (k6_pay2 (iblk6 V c 0 t6_0) (iblk6 V c 1 t6_0) (k6_pay1 (F := F))))) := rfl

/-- Operand window 0's block at point `t`, at (k, p): row `2048 t + k`, column `p` of the array. -/
theorem iblk6_0_apply (c : Dev nD) (t : Fin cfg6.N) (k : Fin 2048) (p : Fin 256) (i : Fin 8192) (hi : i.val = 2048 * t.val + k.val) :
    (iblk6 V c 0 t : Vec F S2048x256 .bf16) (ix2 k p) = (V c main_v9_1 : Vec F S8192x256 .bf16) (ix2 i p) := by
  have hi0 : win6_0.index t 0 = t.val ∧ win6_0.index t 1 = 0 := by
    rcases fin_N6 t with rfl | rfl | rfl | rfl <;> decide
  unfold iblk6
  rw [View.read_apply]
  show V c main_v9_1 _ = V c main_v9_1 _
  congr 1
  funext a
  apply Fin.ext
  match a with
  | ⟨0, _⟩ => show win6_0.index t 0 * 2048 + 1 * k.val = i.val; rw [hi0.1, hi]; omega
  | ⟨1, _⟩ => show win6_0.index t 1 * 256 + 1 * p.val = p.val; rw [hi0.2]; omega

/-- Operand window 1's block at point `t`, at (k, q): row `2048 t + k`, column `q` of the array. -/
theorem iblk6_1_apply (c : Dev nD) (t : Fin cfg6.N) (k : Fin 2048) (q : Fin 128) (i : Fin 8192) (hi : i.val = 2048 * t.val + k.val) :
    (iblk6 V c 1 t : Vec F S2048x128 .f32) (ix2 k q) = (V c main_v9_0 : Vec F S8192x128 .f32) (ix2 i q) := by
  have hi0 : win6_1.index t 0 = t.val ∧ win6_1.index t 1 = 0 := by
    rcases fin_N6 t with rfl | rfl | rfl | rfl <;> decide
  unfold iblk6
  rw [View.read_apply]
  show V c main_v9_0 _ = V c main_v9_0 _
  congr 1
  funext a
  apply Fin.ext
  match a with
  | ⟨0, _⟩ => show win6_1.index t 0 * 2048 + 1 * k.val = i.val; rw [hi0.1, hi]; omega
  | ⟨1, _⟩ => show win6_1.index t 1 * 128 + 1 * q.val = q.val; rw [hi0.2]; omega

end Final6

/-! ## The values at the extended reals -/

section Val6

/-- The product's dimension numbers: both operands contracted along their first axis. -/
abbrev dot6 : DotDims S2048x256 S2048x128 S256x128 := dot_S2048x256_S2048x128_S256x128_0_0_1_1_n_n

/-- The left operand is read at (k, row of the result) -/
theorem dot6_lhsIdx (p : Fin 256) (q : Fin 128) (k : Fin 2048) :
    dot6.lhsIdx (ix2 p q) ((contrEquiv1 dot6 2048 rfl rfl).symm k) = ix2 k p := by
  have hk := contrEquiv1_symm_val dot6 2048 rfl rfl k
  funext a
  apply Fin.ext
  match a with
  | ⟨0, _⟩ => exact (dot6.lhsIdx_val_of_single rfl (ix2 p q) _).trans hk
  | ⟨1, _⟩ => rfl

/-- and the right operand at (k, column of the result). -/
theorem dot6_rhsIdx (p : Fin 256) (q : Fin 128) (k : Fin 2048) :
    dot6.rhsIdx (ix2 p q) ((contrEquiv1 dot6 2048 rfl rfl).symm k) = ix2 k q := by
  have hk := contrEquiv1_symm_val dot6 2048 rfl rfl k
  funext a
  apply Fin.ext
  match a with
  | ⟨0, _⟩ => exact (dot6.rhsIdx_val_of_single rfl (ix2 p q) _).trans hk
  | ⟨1, _⟩ => rfl

/-- The zero fill reads 0 everywhere. -/
theorem k6_pay1_apply (j : S256x128.Idx) : k6_pay1 (F := Ideal) j = 0 := by
  unfold k6_pay1
  simp only [shapeCast_self]
  show Ideal.ofBits .f32 0x00000000#32 = 0
  exact Ideal.ofBits_zero_f32

/-- One block's step at (p, q): what the accumulator held plus the block's sum of products. -/
theorem k6_pay2_apply (x0 : Vec Ideal S2048x256 .bf16) (x1 : Vec Ideal S2048x128 .f32) (xs : Vec Ideal S256x128 .f32)
    (p : Fin 256) (q : Fin 128) (S : EReal) (hS : xs (ix2 p q) = S) :
    k6_pay2 (F := Ideal) x0 x1 xs (ix2 p q) = S + ∑ k : Fin 2048, x0 (ix2 k p) * x1 (ix2 k q) := by
  unfold k6_pay2
  simp only [shapeCast_self]
  rw [addf_apply, hS]
  refine congrArg (S + ·) ?_
  refine (Ideal.matmul_constant_zero_apply dot6 none x0 (truncf .bf16 x1 bitsLt_bf16_f32) (ix2 p q)).trans ?_
  rw [← Equiv.sum_comp (contrEquiv1 dot6 2048 rfl rfl).symm]
  exact Finset.sum_congr rfl fun k _ => by rw [dot6_lhsIdx, dot6_rhsIdx]; rfl

/-- The contracted axis by its four blocks. -/
theorem sum_blocks6 (f : Fin 8192 → EReal) :
    ∑ i : Fin 8192, f i = ∑ t : Fin 4, ∑ k : Fin 2048, f ⟨2048 * t.val + k.val, by have := t.isLt; have := k.isLt; omega⟩ :=
  (sum_tiles 4 2048 f).trans (Finset.sum_congr rfl fun t _ => Finset.sum_congr rfl fun k _ =>
    congrArg f (Fin.ext (by show k.val + 2048 * t.val = 2048 * t.val + k.val; omega)))

variable (W : Dev nD → Valuation τ sig (Elt Ideal))

/-- The result of region 6 at (p, q): the sum over the whole contracted axis of s1(i, p) · z1(i, q). -/
theorem val6 (c : Dev nD) (p : Fin 256) (q : Fin 128) :
    toMat (Wout6 (F := Ideal) W c (Proc.devRef .tc main_v10) : S256x128.Idx → EReal) p q
      = ∑ i : Fin 8192, toMat (W c (Proc.devRef .tc main_v9_1) : S8192x256.Idx → EReal) i p
          * toMat (W c (Proc.devRef .tc main_v9_0) : S8192x128.Idx → EReal) i q := by
  rw [toMat_apply, Wout6_main_v10, final6]
  show acc6 (V6 W) c 3 lt6_three (ix2 p q) = _
  rw [acc6_three]
  refine (k6_pay2_apply _ _ _ p q _ (k6_pay2_apply _ _ _ p q _ (k6_pay2_apply _ _ _ p q _ (k6_pay2_apply _ _ _ p q _ (k6_pay1_apply _))))).trans ?_
  rw [sum_blocks6, Fin.sum_univ_four, zero_add]
  have key : ∀ (t : Fin cfg6.N) (n : Fin 4), t.val = n.val → ∀ k : Fin 2048,
      toMat (iblk6 (V6 W) c 0 t : S2048x256.Idx → EReal) k p * toMat (iblk6 (V6 W) c 1 t : S2048x128.Idx → EReal) k q
        = toMat (W c (Proc.devRef .tc main_v9_1) : S8192x256.Idx → EReal) ⟨2048 * n.val + k.val, by have := n.isLt; have := k.isLt; omega⟩ p
          * toMat (W c (Proc.devRef .tc main_v9_0) : S8192x128.Idx → EReal) ⟨2048 * n.val + k.val, by have := n.isLt; have := k.isLt; omega⟩ q := by
    intro t n h k
    simp only [toMat_apply]
    rw [iblk6_0_apply (V6 W) c t k p ⟨2048 * n.val + k.val, by have := n.isLt; have := k.isLt; omega⟩ (by rw [h]),
      iblk6_1_apply (V6 W) c t k q ⟨2048 * n.val + k.val, by have := n.isLt; have := k.isLt; omega⟩ (by rw [h])]
    all_goals rfl
  have s : ∀ (t : Fin cfg6.N) (n : Fin 4), t.val = n.val →
      (∑ k : Fin 2048, toMat (iblk6 (V6 W) c 0 t : S2048x256.Idx → EReal) k p * toMat (iblk6 (V6 W) c 1 t : S2048x128.Idx → EReal) k q)
        = ∑ k : Fin 2048, toMat (W c (Proc.devRef .tc main_v9_1) : S8192x256.Idx → EReal) ⟨2048 * n.val + k.val, by have := n.isLt; have := k.isLt; omega⟩ p
          * toMat (W c (Proc.devRef .tc main_v9_0) : S8192x128.Idx → EReal) ⟨2048 * n.val + k.val, by have := n.isLt; have := k.isLt; omega⟩ q :=
    fun t n h => Finset.sum_congr rfl fun k _ => key t n h k
  have e := congrArg₂ (fun a b : EReal => a + b) (congrArg₂ (fun a b : EReal => a + b) (congrArg₂ (fun a b : EReal => a + b)
    (s t6_0 0 rfl) (s t6_1 1 rfl)) (s t6_2 2 rfl)) (s t6_3 3 rfl)
  exact e

end Val6

end Cert.KernelIdeal.Hand

end
-- ==== Proof.KI.Val7.lean ====
/-
  The value of region 7 at the ideal values. The region's output array, read at (p, j) after the region, is the sum down
  all 8192 rows i of (left entry (i, p) times the row factor (i, 0)) times the right entry (i, j), that sum times the
  column factor (0, j): the payloads read at an index, each window's block placed in its array, the accumulator unrolled
  over the four steps of a column block and regrouped into one sum over the rows (addition of extended reals is
  commutative and associative; no distributivity is used), and the array after the write-backs read at the block that
  holds column j.
-/
import proofs.«105977_j57329223467619_2_alg».proof.Proof.KI.Reg7
import proofs.«105977_j57329223467619_2_alg».proof.Proof.LibPlain
import proofs.«105977_j57329223467619_2_alg».proof.Proof.Bridge0
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.GcnSpec (toMat toMat_apply)

/-! ## The contraction's dimension numbers: both operands contract their first axis -/

abbrev d7 : DotDims S2048x256 S2048x1024 S256x1024 := dot_S2048x256_S2048x1024_S256x1024_0_0_1_1_n_n

/-- The left operand is read at (k, row of the result) -/
theorem d7_lhsIdx (p : Fin 256) (q : Fin 1024) (k : Fin 2048) :
    d7.lhsIdx (ix2 p q) ((contrEquiv1 d7 2048 rfl rfl).symm k) = ix2 k p := by
  have hk := contrEquiv1_symm_val d7 2048 rfl rfl k
  funext a
  apply Fin.ext
  match a with
  | ⟨0, _⟩ => exact (d7.lhsIdx_val_of_single rfl (ix2 p q) _).trans hk
  | ⟨1, _⟩ => rfl

/-- and the right operand at (k, column of the result). -/
theorem d7_rhsIdx (p : Fin 256) (q : Fin 1024) (k : Fin 2048) :
    d7.rhsIdx (ix2 p q) ((contrEquiv1 d7 2048 rfl rfl).symm k) = ix2 k q := by
  have hk := contrEquiv1_symm_val d7 2048 rfl rfl k
  funext a
  apply Fin.ext
  match a with
  | ⟨0, _⟩ => exact (d7.rhsIdx_val_of_single rfl (ix2 p q) _).trans hk
  | ⟨1, _⟩ => rfl

/-- A row broadcast down the rows, at (p, q): the row at q. -/
theorem broadcastTo_row7 {α : Type} {M N : Nat} (x : (⟨2, ![1, N]⟩ : Shape).Idx → α) (h : (⟨2, ![1, N]⟩ : Shape).Broadcasts ⟨2, ![M, N]⟩)
    (p : Fin M) (q : Fin N) : broadcastTo ⟨2, ![M, N]⟩ x h (ix2 p q) = x (ix2 0 q) := by
  refine broadcastTo_apply x h (ix2 p q) (ix2 0 q) fun a => ?_
  match a with
  | ⟨0, _⟩ =>
    show (0 : Fin 1).val = if (1 : Nat) = 1 then 0 else p.val
    rw [if_pos rfl]; rfl
  | ⟨1, _⟩ =>
    show q.val = if N = 1 then 0 else q.val
    split
    · have := q.isLt; omega
    · rfl

/-! ## The payloads at the ideal values, read at an index -/

/-- The zeroing store's payload is zero everywhere. -/
theorem pay1_7_apply (i : S256x1024.Idx) : (k7_pay1 (F := Ideal) : S256x1024.Idx → EReal) i = 0 := by
  unfold k7_pay1
  rw [shapeCast_self]
  exact Ideal.ofBits_zero_f32

/-- The accumulating store's payload at (p, q): what the accumulator held there plus the sum, down the block's rows, of
    the left entry scaled by its row's factor times the right entry. -/
theorem pay2_7_apply (x2 : Vec Ideal S2048x1 .f32) (x0 : Vec Ideal S2048x256 .bf16) (x1 : Vec Ideal S2048x1024 .bf16)
    (a : Vec Ideal S256x1024 .f32) (p : Fin 256) (q : Fin 1024) :
    (k7_pay2 x2 x0 x1 a : S256x1024.Idx → EReal) (ix2 p q)
      = (a : S256x1024.Idx → EReal) (ix2 p q) + ∑ r : Fin 2048,
          ((x0 : S2048x256.Idx → EReal) (ix2 r p) * (x2 : S2048x1.Idx → EReal) (ix2 r 0)) * (x1 : S2048x1024.Idx → EReal) (ix2 r q) := by
  unfold k7_pay2
  simp only [shapeCast_self, matmul]
  refine (addf_apply _ _ _).trans (congrArg (fun z => (a : S256x1024.Idx → EReal) (ix2 p q) + z) ?_)
  show FloatOps.matmul d7 none _ _ _ (ix2 p q) = _
  rw [Ideal.matmul_constant_zero_apply, ← Equiv.sum_comp (contrEquiv1 d7 2048 rfl rfl).symm]
  refine Finset.sum_congr rfl fun r _ => ?_
  rw [d7_lhsIdx, d7_rhsIdx]
  show ((x0 : S2048x256.Idx → EReal) (ix2 r p) * broadcastTo S2048x256 (x2 : S2048x1.Idx → EReal) broadcasts_S2048x1_S2048x256 (ix2 r p))
      * (x1 : S2048x1024.Idx → EReal) (ix2 r q) = _
  rw [broadcastTo_col]

/-- The output store's payload at (p, q): the accumulator there times the column's factor. -/
theorem pay3_7_apply (a : Vec Ideal S256x1024 .f32) (x3 : Vec Ideal S1x1024 .f32) (p : Fin 256) (q : Fin 1024) :
    (k7_pay3 a x3 : S256x1024.Idx → EReal) (ix2 p q)
      = (a : S256x1024.Idx → EReal) (ix2 p q) * (x3 : S1x1024.Idx → EReal) (ix2 0 q) := by
  unfold k7_pay3
  simp only [shapeCast_self]
  show (a : S256x1024.Idx → EReal) (ix2 p q) * broadcastTo S256x1024 (x3 : S1x1024.Idx → EReal) broadcasts_S1x1024_S256x1024 (ix2 p q) = _
  rw [broadcastTo_row7]

/-! ## The windows' blocks in their arrays

Where each window's block sits at point t: the step along the contracted axis is t mod 4, the column block t div 4. -/

theorem idx7_0 : ∀ t : Fin cfg7.N, (cfg7.win 0).index t ⟨0, by decide⟩ = t.val % 4 ∧ (cfg7.win 0).index t ⟨1, by decide⟩ = 0 :=
  (by decide +kernel : ∀ t : Fin grid7.N, win7_0.index t ⟨0, by decide⟩ = t.val % 4 ∧ win7_0.index t ⟨1, by decide⟩ = 0)
theorem idx7_1 : ∀ t : Fin cfg7.N, (cfg7.win 1).index t ⟨0, by decide⟩ = t.val % 4 ∧ (cfg7.win 1).index t ⟨1, by decide⟩ = t.val / 4 :=
  (by decide +kernel : ∀ t : Fin grid7.N, win7_1.index t ⟨0, by decide⟩ = t.val % 4 ∧ win7_1.index t ⟨1, by decide⟩ = t.val / 4)
theorem idx7_2 : ∀ t : Fin cfg7.N, (cfg7.win 2).index t ⟨0, by decide⟩ = t.val % 4 ∧ (cfg7.win 2).index t ⟨1, by decide⟩ = 0 :=
  (by decide +kernel : ∀ t : Fin grid7.N, win7_2.index t ⟨0, by decide⟩ = t.val % 4 ∧ win7_2.index t ⟨1, by decide⟩ = 0)
theorem idx7_3 : ∀ t : Fin cfg7.N, (cfg7.win 3).index t ⟨0, by decide⟩ = 0 ∧ (cfg7.win 3).index t ⟨1, by decide⟩ = t.val / 4 :=
  (by decide +kernel : ∀ t : Fin grid7.N, win7_3.index t ⟨0, by decide⟩ = 0 ∧ win7_3.index t ⟨1, by decide⟩ = t.val / 4)
theorem idx7_4 : ∀ t : Fin cfg7.N, (cfg7.win 4).index t ⟨0, by decide⟩ = 0 ∧ (cfg7.win 4).index t ⟨1, by decide⟩ = t.val / 4 :=
  (by decide +kernel : ∀ t : Fin grid7.N, win7_4.index t ⟨0, by decide⟩ = 0 ∧ win7_4.index t ⟨1, by decide⟩ = t.val / 4)

/-- An element of a window's block is the array's element at the block index times the block's extent plus its own
    coordinate, on each axis. -/

theorem iblk7_0_apply (V : (c : Dev nD) → (b : Ref sig .tc) → Buf (Elt Ideal) ((c : Thread nD τ).loc b)) (c : Dev nD) (t : Fin cfg7.N)
    (a : Fin 2048) (b : Fin 256) (i : Fin 8192) (j : Fin 256) (hi : i.val = (t.val % 4) * 2048 + a.val) (hj : j.val = (0) * 256 + b.val) :
    (iblk7 (F := Ideal) V c 0 t : S2048x256.Idx → EReal) (ix2 a b) = (V c main_v9_1 : S8192x256.Idx → EReal) (ix2 i j) := by
  unfold iblk7
  rw [View.read_apply]
  refine (cast_eq _ _).trans ?_
  show (V c main_v9_1 : S8192x256.Idx → EReal) (((cfg7.win 0).rect t).emb (ix2 a b)) = _
  refine congrArg (V c main_v9_1 : S8192x256.Idx → EReal) ?_
  funext d
  apply Fin.ext
  refine ((cfg7.win 0).rect_emb_val t (ix2 a b) d).trans ?_
  match d with
  | ⟨0, _⟩ => rw [(idx7_0 t).1]; exact hi.symm
  | ⟨1, _⟩ => rw [(idx7_0 t).2]; exact hj.symm

theorem iblk7_1_apply (V : (c : Dev nD) → (b : Ref sig .tc) → Buf (Elt Ideal) ((c : Thread nD τ).loc b)) (c : Dev nD) (t : Fin cfg7.N)
    (a : Fin 2048) (b : Fin 1024) (i : Fin 8192) (j : Fin 8192) (hi : i.val = (t.val % 4) * 2048 + a.val) (hj : j.val = (t.val / 4) * 1024 + b.val) :
    (iblk7 (F := Ideal) V c 1 t : S2048x1024.Idx → EReal) (ix2 a b) = (V c main_v0_0 : S8192x8192.Idx → EReal) (ix2 i j) := by
  unfold iblk7
  rw [View.read_apply]
  refine (cast_eq _ _).trans ?_
  show (V c main_v0_0 : S8192x8192.Idx → EReal) (((cfg7.win 1).rect t).emb (ix2 a b)) = _
  refine congrArg (V c main_v0_0 : S8192x8192.Idx → EReal) ?_
  funext d
  apply Fin.ext
  refine ((cfg7.win 1).rect_emb_val t (ix2 a b) d).trans ?_
  match d with
  | ⟨0, _⟩ => rw [(idx7_1 t).1]; exact hi.symm
  | ⟨1, _⟩ => rw [(idx7_1 t).2]; exact hj.symm

theorem iblk7_2_apply (V : (c : Dev nD) → (b : Ref sig .tc) → Buf (Elt Ideal) ((c : Thread nD τ).loc b)) (c : Dev nD) (t : Fin cfg7.N)
    (a : Fin 2048) (b : Fin 1) (i : Fin 8192) (j : Fin 1) (hi : i.val = (t.val % 4) * 2048 + a.val) (hj : j.val = (0) * 1 + b.val) :
    (iblk7 (F := Ideal) V c 2 t : S2048x1.Idx → EReal) (ix2 a b) = (V c main_v1 : S8192x1.Idx → EReal) (ix2 i j) := by
  unfold iblk7
  rw [View.read_apply]
  refine (cast_eq _ _).trans ?_
  show (V c main_v1 : S8192x1.Idx → EReal) (((cfg7.win 2).rect t).emb (ix2 a b)) = _
  refine congrArg (V c main_v1 : S8192x1.Idx → EReal) ?_
  funext d
  apply Fin.ext
  refine ((cfg7.win 2).rect_emb_val t (ix2 a b) d).trans ?_
  match d with
  | ⟨0, _⟩ => rw [(idx7_2 t).1]; exact hi.symm
  | ⟨1, _⟩ => rw [(idx7_2 t).2]; exact hj.symm

theorem iblk7_3_apply (V : (c : Dev nD) → (b : Ref sig .tc) → Buf (Elt Ideal) ((c : Thread nD τ).loc b)) (c : Dev nD) (t : Fin cfg7.N)
    (a : Fin 1) (b : Fin 1024) (i : Fin 1) (j : Fin 8192) (hi : i.val = (0) * 1 + a.val) (hj : j.val = (t.val / 4) * 1024 + b.val) :
    (iblk7 (F := Ideal) V c 3 t : S1x1024.Idx → EReal) (ix2 a b) = (V c main_v11 : S1x8192.Idx → EReal) (ix2 i j) := by
  unfold iblk7
  rw [View.read_apply]
  refine (cast_eq _ _).trans ?_
  show (V c main_v11 : S1x8192.Idx → EReal) (((cfg7.win 3).rect t).emb (ix2 a b)) = _
  refine congrArg (V c main_v11 : S1x8192.Idx → EReal) ?_
  funext d
  apply Fin.ext
  refine ((cfg7.win 3).rect_emb_val t (ix2 a b) d).trans ?_
  match d with
  | ⟨0, _⟩ => rw [(idx7_3 t).1]; exact hi.symm
  | ⟨1, _⟩ => rw [(idx7_3 t).2]; exact hj.symm

/-! ## The accumulator at a last step, and the block stored there -/

/-- The accumulator's recursion over the naturals. -/
theorem acc7_step {F : FTy → Type} [FloatOps F] (V : (c : Dev nD) → (b : Ref sig .tc) → Buf (Elt F) ((c : Thread nD τ).loc b)) (c : Dev nD)
    (n n' : ℕ) (e : n' = n + 1) (hn' : n' < cfg7.N) (h : ¬n' % 4 = 0) :
    acc7 V c n' hn' = k7_pay2 (iblk7 V c 2 ⟨n', hn'⟩) (iblk7 V c 0 ⟨n', hn'⟩) (iblk7 V c 1 ⟨n', hn'⟩)
      (acc7 V c n (by omega)) := by
  subst e; exact if_neg h
theorem acc7_reset {F : FTy → Type} [FloatOps F] (V : (c : Dev nD) → (b : Ref sig .tc) → Buf (Elt F) ((c : Thread nD τ).loc b)) (c : Dev nD)
    (n : ℕ) (hn : n < cfg7.N) (h : n % 4 = 0) :
    acc7 V c n hn = k7_pay2 (iblk7 V c 2 ⟨n, hn⟩) (iblk7 V c 0 ⟨n, hn⟩) (iblk7 V c 1 ⟨n, hn⟩) (k7_pay1 (F := F)) :=
  acc7_first V c ⟨n, hn⟩ h

/-- Row r of tile k of the 4 × 2048 rows. -/
theorem fpf7_val (k : Fin 4) (r : Fin 2048) : ((finProdFinEquiv (k, r) : Fin (4 * 2048)) : ℕ) = r.val + 2048 * k.val := rfl

/-- One step's product, its factors named by the arrays' entries at tile k's rows. -/
theorem tile7 (x0 : Vec Ideal S2048x256 .bf16) (x1 : Vec Ideal S2048x1024 .bf16) (x2 : Vec Ideal S2048x1 .f32)
    (A : Fin 8192 → Fin 256 → EReal) (B : Fin 8192 → Fin 8192 → EReal) (D : Fin 8192 → Fin 1 → EReal)
    (k : Fin 4) (p : Fin 256) (q : Fin 1024) (j : Fin 8192)
    (h0 : ∀ r : Fin 2048, (x0 : S2048x256.Idx → EReal) (ix2 r p) = A (finProdFinEquiv (k, r)) p)
    (h1 : ∀ r : Fin 2048, (x1 : S2048x1024.Idx → EReal) (ix2 r q) = B (finProdFinEquiv (k, r)) j)
    (h2 : ∀ r : Fin 2048, (x2 : S2048x1.Idx → EReal) (ix2 r 0) = D (finProdFinEquiv (k, r)) 0) :
    (∑ r : Fin 2048, ((x0 : S2048x256.Idx → EReal) (ix2 r p) * (x2 : S2048x1.Idx → EReal) (ix2 r 0)) * (x1 : S2048x1024.Idx → EReal) (ix2 r q))
      = ∑ r : Fin 2048, (A (finProdFinEquiv (k, r)) p * D (finProdFinEquiv (k, r)) 0) * B (finProdFinEquiv (k, r)) j :=
  Finset.sum_congr rfl fun r _ => by rw [h0, h1, h2]

section AtIdeal
variable (V : (c : Dev nD) → (b : Ref sig .tc) → Buf (Elt Ideal) ((c : Thread nD τ).loc b))

/-- The blocks of point n, a point of step k, read at tile k's rows. -/
theorem tile7_h0 (c : Dev nD) (n : ℕ) (hn : n < cfg7.N) (k : Fin 4) (hk : n % 4 = k.val) (p : Fin 256) (r : Fin 2048) :
    (iblk7 V c 0 ⟨n, hn⟩ : S2048x256.Idx → EReal) (ix2 r p) = toMat (V c main_v9_1 : S8192x256.Idx → EReal) (finProdFinEquiv (k, r)) p :=
  iblk7_0_apply V c ⟨n, hn⟩ r p (finProdFinEquiv (k, r)) p (by rw [fpf7_val]; show _ = n % 4 * 2048 + r.val; omega) (by show p.val = 0 * 256 + p.val; omega)
theorem tile7_h1 (c : Dev nD) (n : ℕ) (hn : n < cfg7.N) (k : Fin 4) (hk : n % 4 = k.val) (q : Fin 1024) (j : Fin 8192)
    (hj : j.val = (n / 4) * 1024 + q.val) (r : Fin 2048) :
    (iblk7 V c 1 ⟨n, hn⟩ : S2048x1024.Idx → EReal) (ix2 r q) = toMat (V c main_v0_0 : S8192x8192.Idx → EReal) (finProdFinEquiv (k, r)) j :=
  iblk7_1_apply V c ⟨n, hn⟩ r q (finProdFinEquiv (k, r)) j (by rw [fpf7_val]; show _ = n % 4 * 2048 + r.val; omega) hj
theorem tile7_h2 (c : Dev nD) (n : ℕ) (hn : n < cfg7.N) (k : Fin 4) (hk : n % 4 = k.val) (r : Fin 2048) :
    (iblk7 V c 2 ⟨n, hn⟩ : S2048x1.Idx → EReal) (ix2 r 0) = toMat (V c main_v1 : S8192x1.Idx → EReal) (finProdFinEquiv (k, r)) 0 :=
  iblk7_2_apply V c ⟨n, hn⟩ r 0 (finProdFinEquiv (k, r)) 0 (by rw [fpf7_val]; show _ = n % 4 * 2048 + r.val; omega) (by decide)

set_option maxHeartbeats 1600000 in
/-- At a last step the accumulator holds, at (p, q), the sum down ALL the rows of the scaled left entry times the right
    entry of the point's column block. -/
theorem acc7_last (c : Dev nD) (m : ℕ) (hm : m + 3 < cfg7.N) (h0 : m % 4 = 0) (p : Fin 256) (q : Fin 1024) (j : Fin 8192)
    (hj : j.val = ((m + 3) / 4) * 1024 + q.val) :
    (acc7 (F := Ideal) V c (m + 3) hm : S256x1024.Idx → EReal) (ix2 p q)
      = ∑ i : Fin 8192, (toMat (V c main_v9_1 : S8192x256.Idx → EReal) i p * toMat (V c main_v1 : S8192x1.Idx → EReal) i 0) * toMat (V c main_v0_0 : S8192x8192.Idx → EReal) i j := by
  have hN : m + 3 < 32 := lt_of_lt_of_eq hm (show cfg7.N = 32 from N_7)
  have h2lt : m + 2 < cfg7.N := Nat.lt_of_succ_lt hm
  have h1lt : m + 1 < cfg7.N := Nat.lt_of_succ_lt h2lt
  have h0lt : m < cfg7.N := Nat.lt_of_succ_lt h1lt
  rw [acc7_step V c (m + 2) (m + 3) rfl hm (by omega), pay2_7_apply,
    acc7_step V c (m + 1) (m + 2) rfl h2lt (by omega), pay2_7_apply,
    acc7_step V c m (m + 1) rfl h1lt (by omega), pay2_7_apply,
    acc7_reset V c m h0lt h0, pay2_7_apply, pay1_7_apply, zero_add]
  refine Eq.trans ?_ (sum_tiles 4 2048 (fun i : Fin 8192 => (toMat (V c main_v9_1 : S8192x256.Idx → EReal) i p * toMat (V c main_v1 : S8192x1.Idx → EReal) i 0) * toMat (V c main_v0_0 : S8192x8192.Idx → EReal) i j)).symm
  rw [Fin.sum_univ_four]
  refine congrArg₂ (· + ·) (congrArg₂ (· + ·) (congrArg₂ (· + ·) ?_ ?_) ?_) ?_
  · exact tile7 _ _ _ (toMat (V c main_v9_1 : S8192x256.Idx → EReal)) (toMat (V c main_v0_0 : S8192x8192.Idx → EReal)) (toMat (V c main_v1 : S8192x1.Idx → EReal)) 0 p q j
      (tile7_h0 V c m h0lt 0 h0 p) (tile7_h1 V c m h0lt 0 h0 q j (by omega)) (tile7_h2 V c m h0lt 0 h0)
  · exact tile7 _ _ _ (toMat (V c main_v9_1 : S8192x256.Idx → EReal)) (toMat (V c main_v0_0 : S8192x8192.Idx → EReal)) (toMat (V c main_v1 : S8192x1.Idx → EReal)) 1 p q j
      (tile7_h0 V c (m + 1) h1lt 1 (by show _ = 1; omega) p) (tile7_h1 V c (m + 1) h1lt 1 (by show _ = 1; omega) q j (by omega))
      (tile7_h2 V c (m + 1) h1lt 1 (by show _ = 1; omega))
  · exact tile7 _ _ _ (toMat (V c main_v9_1 : S8192x256.Idx → EReal)) (toMat (V c main_v0_0 : S8192x8192.Idx → EReal)) (toMat (V c main_v1 : S8192x1.Idx → EReal)) 2 p q j
      (tile7_h0 V c (m + 2) h2lt 2 (by show _ = 2; omega) p) (tile7_h1 V c (m + 2) h2lt 2 (by show _ = 2; omega) q j (by omega))
      (tile7_h2 V c (m + 2) h2lt 2 (by show _ = 2; omega))
  · exact tile7 _ _ _ (toMat (V c main_v9_1 : S8192x256.Idx → EReal)) (toMat (V c main_v0_0 : S8192x8192.Idx → EReal)) (toMat (V c main_v1 : S8192x1.Idx → EReal)) 3 p q j
      (tile7_h0 V c (m + 3) hm 3 (by show _ = 3; omega) p) (tile7_h1 V c (m + 3) hm 3 (by show _ = 3; omega) q j hj)
      (tile7_h2 V c (m + 3) hm 3 (by show _ = 3; omega))

/-- The block written back at a last step, at (p, q): that sum times the column's factor. -/
theorem out7_last (c : Dev nD) (m : ℕ) (hm : m + 3 < cfg7.N) (h0 : m % 4 = 0) (p : Fin 256) (q : Fin 1024) (j : Fin 8192)
    (hj : j.val = ((m + 3) / 4) * 1024 + q.val) :
    (k7_pay3 (acc7 (F := Ideal) V c (m + 3) hm) (iblk7 V c 3 ⟨m + 3, hm⟩) : S256x1024.Idx → EReal) (ix2 p q)
      = (∑ i : Fin 8192, (toMat (V c main_v9_1 : S8192x256.Idx → EReal) i p * toMat (V c main_v1 : S8192x1.Idx → EReal) i 0) * toMat (V c main_v0_0 : S8192x8192.Idx → EReal) i j) * toMat (V c main_v11 : S1x8192.Idx → EReal) 0 j := by
  rw [pay3_7_apply, acc7_last V c m hm h0 p q j hj,
    iblk7_3_apply V c ⟨m + 3, hm⟩ 0 q 0 j (by decide) hj]
  rfl

end AtIdeal

/-! ## The output array after the region -/

section Final
variable (V : (c : Dev nD) → (b : Ref sig .tc) → Buf (Elt Ideal) ((c : Thread nD τ).loc b))

/-- The claimed entry of the output array at (p, j). -/
def G7 (c : Dev nD) (p : Fin 256) (j : Fin 8192) : EReal :=
  (∑ i : Fin 8192, (toMat (V c main_v9_1 : S8192x256.Idx → EReal) i p * toMat (V c main_v1 : S8192x1.Idx → EReal) i 0) * toMat (V c main_v0_0 : S8192x8192.Idx → EReal) i j) * toMat (V c main_v11 : S1x8192.Idx → EReal) 0 j

/-- What the write-back at point t writes: the output block the body stored. -/
theorem flushed7_4 (c : Dev nD) (t : Fin cfg7.N) :
    (dat7 (F := Ideal) V c).flushed 4 t = k7_pay3 (acc7 V c t.val t.isLt) (iblk7 V c 3 t) := by
  show (cfg7.win 4).cut (cfg7.grid.coords t) ((dat7 (F := Ideal) V c).after 4 t) = _
  rw [after7_4]; rfl

set_option maxHeartbeats 1600000 in
/-- Every element a write-back writes is the claimed entry at its place in the array. -/
theorem hP7 (c : Dev nD) : ∀ t, (cfg7.win 4).flush t = true → ∀ y : ((cfg7.win 4).xblock (cfg7.grid.coords t)).Idx,
    (fun (i : S256x8192.Idx) (v : EReal) => ∀ (p' : Fin 256) (j' : Fin 8192), i = ix2 p' j' → v = G7 V c p' j')
      (((cfg7.win 4).blk t).view.emb y)
      (_root_.cast (congrArg (Elt Ideal) ((cfg7.win 4).blk t).view.elt_eq.symm) ((dat7 (F := Ideal) V c).flushed 4 t y)) := by
  intro t hf y p' j' hij
  obtain ⟨n, hn⟩ := t
  have h3 : n % 4 = 3 := (flush7_4 ⟨n, hn⟩).mp hf
  have hN : n < 32 := lt_of_lt_of_eq hn (show cfg7.N = 32 from N_7)
  obtain ⟨m, rfl⟩ : ∃ m, n = m + 3 := ⟨n - 3, by omega⟩
  obtain ⟨p0, q0, rfl⟩ : ∃ (p0 : Fin 256) (q0 : Fin 1024), y = ix2 p0 q0 := ⟨y 0, y 1, eq_ix2 (n0 := 256) (n1 := 1024) y⟩
  have hval : ∀ d, ((((cfg7.win 4).blk ⟨m + 3, hn⟩).view.emb (ix2 p0 q0)) d : ℕ)
      = (cfg7.win 4).index ⟨m + 3, hn⟩ d * (cfg7.win 4).size d + ((ix2 p0 q0 : S256x1024.Idx) d : ℕ) :=
    fun d => (cfg7.win 4).rect_emb_val ⟨m + 3, hn⟩ (ix2 p0 q0) d
  have e0 : (p'.val : ℕ) = 0 * 256 + p0.val :=
    ((congrArg Fin.val (congrFun hij ⟨0, show (0 : ℕ) < 2 from by decide⟩)).symm.trans (hval ⟨0, show (0 : ℕ) < 2 from by decide⟩)).trans (by rw [(idx7_4 ⟨m + 3, hn⟩).1]; rfl)
  have e1 : (j'.val : ℕ) = (m + 3) / 4 * 1024 + q0.val :=
    ((congrArg Fin.val (congrFun hij ⟨1, show (1 : ℕ) < 2 from by decide⟩)).symm.trans (hval ⟨1, show (1 : ℕ) < 2 from by decide⟩)).trans (by rw [(idx7_4 ⟨m + 3, hn⟩).2]; rfl)
  obtain rfl : p' = p0 := Fin.ext (by omega)
  refine (cast_eq _ _).trans ?_
  rw [flushed7_4]
  exact out7_last V c m hn (by omega) p' q0 j' e1

set_option maxHeartbeats 1600000 in
/-- The output array after all the points, at (p, j). -/
theorem arr7_apply (c : Dev nD) (p : Fin 256) (j : Fin 8192) :
    ((dat7 (F := Ideal) V c).arrAt 4 cfg7.N : S256x8192.Idx → EReal) (ix2 p j) = G7 V c p j := by
  have hjlt := j.isLt
  have hm : 4 * (j.val / 1024) + 3 < cfg7.N := by rw [show cfg7.N = 32 from N_7]; omega
  have hf : (cfg7.win 4).flush ⟨4 * (j.val / 1024) + 3, hm⟩ = true :=
    (flush7_4 ⟨4 * (j.val / 1024) + 3, hm⟩).mpr (by show (4 * (j.val / 1024) + 3) % 4 = 3; omega)
  have hq : j.val % 1024 < 1024 := Nat.mod_lt _ (by decide)
  have hemb : ((cfg7.win 4).blk ⟨4 * (j.val / 1024) + 3, hm⟩).view.emb (ix2 p ⟨j.val % 1024, hq⟩ : S256x1024.Idx) = (ix2 p j : S256x8192.Idx) := by
    funext d
    apply Fin.ext
    refine ((cfg7.win 4).rect_emb_val ⟨4 * (j.val / 1024) + 3, hm⟩ (ix2 p ⟨j.val % 1024, hq⟩) d).trans ?_
    match d with
    | ⟨0, _⟩ => rw [(idx7_4 ⟨4 * (j.val / 1024) + 3, hm⟩).1]; show 0 * 256 + p.val = p.val; omega
    | ⟨1, _⟩ => rw [(idx7_4 ⟨4 * (j.val / 1024) + 3, hm⟩).2]; show (4 * (j.val / 1024) + 3) / 4 * 1024 + j.val % 1024 = j.val; omega
  have key := Dat.arrAt_forall_of_flushed (dat7 (F := Ideal) V c) 4
    (fun (i : S256x8192.Idx) (v : EReal) => ∀ (p' : Fin 256) (j' : Fin 8192), i = ix2 p' j' → v = G7 V c p' j')
    (hP7 V c) cfg7.N ⟨4 * (j.val / 1024) + 3, hm⟩ _ hm hf
    (((cfg7.win 4).blk ⟨4 * (j.val / 1024) + 3, hm⟩).view.emb_mem_set (ix2 p ⟨j.val % 1024, hq⟩ : S256x1024.Idx))
  rw [hemb] at key
  exact key p j rfl

end Final

/-! ## The region's value -/

section Value
variable (W : Dev nD → Valuation τ sig (Elt Ideal))

/-- After the region the output array holds, at (p, j), the sum down the 8192 rows of the scaled left entry times the right
    entry, times column j's factor. -/
theorem val7 (c : Dev nD) (p : Fin 256) (j : Fin 8192) :
    toMat (Wout7 (F := Ideal) W c (Proc.devRef .tc main_v12) : S256x8192.Idx → EReal) p j
      = (∑ i : Fin 8192, (toMat (W c (Proc.devRef .tc main_v9_1) : S8192x256.Idx → EReal) i p
            * toMat (W c (Proc.devRef .tc main_v1) : S8192x1.Idx → EReal) i 0)
          * toMat (W c (Proc.devRef .tc main_v0_0) : S8192x8192.Idx → EReal) i j)
        * toMat (W c (Proc.devRef .tc main_v11) : S1x8192.Idx → EReal) 0 j := by
  rw [toMat_apply, Wout7_main_v12]
  exact arr7_apply (V7 W) c p j

end Value

end Cert.KernelIdeal.Hand
end
-- ==== Proof.KI.Val8.lean ====
/-
  Region 8 at the extended reals: the result array at the region's exit, read at an index, is the sum over the whole
  contracted axis of the products of the two operand arrays' entries.
-/
import proofs.«105977_j57329223467619_2_alg».proof.Proof.KI.Reg8
import proofs.«105977_j57329223467619_2_alg».proof.Proof.LibPlain
import proofs.«105977_j57329223467619_2_alg».proof.Proof.Bridge0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.GcnSpec (toMat toMat_apply)

/-! ## The result array at the region's exit (any float instance) -/

section Final8

variable {F : FTy → Type} [FloatOps F]
variable (V : (c : Dev nD) → (b : Ref sig .tc) → Buf (Elt F) ((c : Thread nD τ).loc b))

theorem lt8_three : 3 < cfg8.N := by rw [N8]; decide

/-- The accumulator after the last point, as contents of the result array (its one block is the array). -/
abbrev result8 (c : Dev nD) : Buf (Elt F) ((c : Thread nD τ).loc main_v13) := acc8 V c 3 lt8_three

/-- The one write-back, at the last point, writes it. -/
theorem flushed8_eq (c : Dev nD) (t : Fin cfg8.N) (hf : (cfg8.win 2).flush t = true) :
    (dat8 V c).flushed 2 t = ((cfg8.win 2).blk t).view.read (Elt F) (result8 V c) := by
  have hN : cfg8.N = 4 := N8
  have h3 : t.val = 3 := by have := (flush8_2 t).mp hf; have := t.isLt; omega
  obtain rfl : t = t8_3 := Fin.ext h3
  show (cfg8.win 2).cut (grid8.coords t8_3) ((dat8 V c).after 2 t8_3) = _
  rw [after8_2]
  have hz' : (fun a => win8_2.index t8_3 a * main_v13.ty.shape.size a) = fun _ => 0 := funext fun a => by fin_cases a <;> decide
  exact (Memref.read_access_unit_zero (Elt F) main_v13 hz' (fun a => by rw [congrFun hz' a]; simp) (result8 V c)).symm

/-- So the result array ends holding the accumulator after the last point. -/
theorem final8 (c : Dev nD) : (dat8 V c).arrAt 2 cfg8.N = result8 V c :=
  (dat8 V c).arrAt_eq_of_cover 2 (result8 V c) (flushed8_eq V c) fun i =>
    ⟨t8_3, (flush8_2 t8_3).mpr rfl, by
      show i ∈ ((View.whole main_v13).slice (win8_2.rect t8_3)).set
      rw [View.set_slice_whole, Rect.mem_set_unit]
      intro a
      have h0 : (i 0 : Nat) < 256 := (i 0).isLt
      have h1 : (i 1 : Nat) < 256 := (i 1).isLt
      match a with
      | ⟨0, _⟩ => show win8_2.index t8_3 0 * win8_2.size 0 ≤ (i 0 : Nat) ∧ (i 0 : Nat) < win8_2.index t8_3 0 * win8_2.size 0 + win8_2.xsize (grid8.coords t8_3) 0
                  rw [show win8_2.index t8_3 0 * win8_2.size 0 = 0 from by decide +kernel, show win8_2.xsize (grid8.coords t8_3) 0 = 256 from by decide +kernel]; omega
      | ⟨1, _⟩ => show win8_2.index t8_3 1 * win8_2.size 1 ≤ (i 1 : Nat) ∧ (i 1 : Nat) < win8_2.index t8_3 1 * win8_2.size 1 + win8_2.xsize (grid8.coords t8_3) 1
                  rw [show win8_2.index t8_3 1 * win8_2.size 1 = 0 from by decide +kernel, show win8_2.xsize (grid8.coords t8_3) 1 = 256 from by decide +kernel]; omega⟩

/-- The accumulator after the last point: the four blocks' steps, one after the other, from the zero fill. -/
theorem acc8_three (c : Dev nD) : acc8 V c 3 lt8_three
    = k8_pay2 (iblk8 V c 0 t8_3) (iblk8 V c 1 t8_3) (k8_pay2 (iblk8 V c 0 t8_2) (iblk8 V c 1 t8_2)
        (k8_pay2 (iblk8 V c 0 t8_1) (iblk8 V c 1 t8_1) (k8_pay2 (iblk8 V c 0 t8_0) (iblk8 V c 1 t8_0) (k8_pay1 (F := F))))) := rfl

/-- Operand window 0's block at point `t`, at (p, k): row `p`, column `2048 t + k` of the array. -/
theorem iblk8_0_apply (c : Dev nD) (t : Fin cfg8.N) (p : Fin 256) (k : Fin 2048) (i : Fin 8192) (hi : i.val = 2048 * t.val + k.val) :
    (iblk8 V c 0 t : Vec F S256x2048 .bf16) (ix2 p k) = (V c main_v12 : Vec F S256x8192 .bf16) (ix2 p i) := by
  have hi0 : win8_0.index t 0 = 0 ∧ win8_0.index t 1 = t.val := by
    rcases fin_N8 t with rfl | rfl | rfl | rfl <;> decide
  unfold iblk8
  rw [View.read_apply]
  show V c main_v12 _ = V c main_v12 _
  congr 1
  funext a
  apply Fin.ext
  match a with
  | ⟨0, _⟩ => show win8_0.index t 0 * 256 + 1 * p.val = p.val; rw [hi0.1]; omega
  | ⟨1, _⟩ => show win8_0.index t 1 * 2048 + 1 * k.val = i.val; rw [hi0.2, hi]; omega

/-- Operand window 1's block at point `t`, at (k, q): row `2048 t + k`, column `q` of the array. -/
theorem iblk8_1_apply (c : Dev nD) (t : Fin cfg8.N) (k : Fin 2048) (q : Fin 256) (i : Fin 8192) (hi : i.val = 2048 * t.val + k.val) :
    (iblk8 V c 1 t : Vec F S2048x256 .bf16) (ix2 k q) = (V c main_v9_1 : Vec F S8192x256 .bf16) (ix2 i q) := by
  have hi0 : win8_1.index t 0 = t.val ∧ win8_1.index t 1 = 0 := by
    rcases fin_N8 t with rfl | rfl | rfl | rfl <;> decide
  unfold iblk8
  rw [View.read_apply]
  show V c main_v9_1 _ = V c main_v9_1 _
  congr 1
  funext a
  apply Fin.ext
  match a with
  | ⟨0, _⟩ => show win8_1.index t 0 * 2048 + 1 * k.val = i.val; rw [hi0.1, hi]; omega
  | ⟨1, _⟩ => show win8_1.index t 1 * 256 + 1 * q.val = q.val; rw [hi0.2]; omega

end Final8

/-! ## The values at the extended reals -/

section Val8

/-- The product's dimension numbers: the left operand contracted along its second axis, the right along its first. -/
abbrev dot8 : DotDims S256x2048 S2048x256 S256x256 := dot_S256x2048_S2048x256_S256x256_1_0_0_1_n_n

/-- The left operand is read at (row of the result, k) -/
theorem dot8_lhsIdx (p : Fin 256) (q : Fin 256) (k : Fin 2048) :
    dot8.lhsIdx (ix2 p q) ((contrEquiv1 dot8 2048 rfl rfl).symm k) = ix2 p k := by
  have hk := contrEquiv1_symm_val dot8 2048 rfl rfl k
  funext a
  apply Fin.ext
  match a with
  | ⟨0, _⟩ => rfl
  | ⟨1, _⟩ => exact (dot8.lhsIdx_val_of_single rfl (ix2 p q) _).trans hk

/-- and the right operand at (k, column of the result). -/
theorem dot8_rhsIdx (p : Fin 256) (q : Fin 256) (k : Fin 2048) :
    dot8.rhsIdx (ix2 p q) ((contrEquiv1 dot8 2048 rfl rfl).symm k) = ix2 k q := by
  have hk := contrEquiv1_symm_val dot8 2048 rfl rfl k
  funext a
  apply Fin.ext
  match a with
  | ⟨0, _⟩ => exact (dot8.rhsIdx_val_of_single rfl (ix2 p q) _).trans hk
  | ⟨1, _⟩ => rfl

/-- The zero fill reads 0 everywhere. -/
theorem k8_pay1_apply (j : S256x256.Idx) : k8_pay1 (F := Ideal) j = 0 := by
  unfold k8_pay1
  simp only [shapeCast_self]
  show Ideal.ofBits .f32 0x00000000#32 = 0
  exact Ideal.ofBits_zero_f32

/-- One block's step at (p, q): what the accumulator held plus the block's sum of products. -/
theorem k8_pay2_apply (x0 : Vec Ideal S256x2048 .bf16) (x1 : Vec Ideal S2048x256 .bf16) (xs : Vec Ideal S256x256 .f32)
    (p : Fin 256) (q : Fin 256) (S : EReal) (hS : xs (ix2 p q) = S) :
    k8_pay2 (F := Ideal) x0 x1 xs (ix2 p q) = S + ∑ k : Fin 2048, x0 (ix2 p k) * x1 (ix2 k q) := by
  unfold k8_pay2
  simp only [shapeCast_self]
  rw [addf_apply, hS]
  refine congrArg (S + ·) ?_
  refine (Ideal.matmul_constant_zero_apply (φ₁ := .bf16) (φ₂ := .bf16) dot8 none x0 x1 (ix2 p q)).trans ?_
  rw [← Equiv.sum_comp (contrEquiv1 dot8 2048 rfl rfl).symm]
  exact Finset.sum_congr rfl fun k _ => by rw [dot8_lhsIdx, dot8_rhsIdx]

/-- The contracted axis by its four blocks. -/
theorem sum_blocks8 (f : Fin 8192 → EReal) :
    ∑ i : Fin 8192, f i = ∑ t : Fin 4, ∑ k : Fin 2048, f ⟨2048 * t.val + k.val, by have := t.isLt; have := k.isLt; omega⟩ :=
  (sum_tiles 4 2048 f).trans (Finset.sum_congr rfl fun t _ => Finset.sum_congr rfl fun k _ =>
    congrArg f (Fin.ext (by show k.val + 2048 * t.val = 2048 * t.val + k.val; omega)))

variable (W : Dev nD → Valuation τ sig (Elt Ideal))

/-- The result of region 8 at (p, q): the sum over the whole contracted axis of the left array at (p, j) times s1 at (j, q). -/
theorem val8 (c : Dev nD) (p : Fin 256) (q : Fin 256) :
    toMat (Wout8 (F := Ideal) W c (Proc.devRef .tc main_v13) : S256x256.Idx → EReal) p q
      = ∑ j : Fin 8192, toMat (W c (Proc.devRef .tc main_v12) : S256x8192.Idx → EReal) p j
          * toMat (W c (Proc.devRef .tc main_v9_1) : S8192x256.Idx → EReal) j q := by
  rw [toMat_apply, Wout8_main_v13, final8]
  show acc8 (V8 W) c 3 lt8_three (ix2 p q) = _
  rw [acc8_three]
  refine (k8_pay2_apply _ _ _ p q _ (k8_pay2_apply _ _ _ p q _ (k8_pay2_apply _ _ _ p q _ (k8_pay2_apply _ _ _ p q _ (k8_pay1_apply _))))).trans ?_
  rw [sum_blocks8, Fin.sum_univ_four, zero_add]
  have key : ∀ (t : Fin cfg8.N) (n : Fin 4), t.val = n.val → ∀ k : Fin 2048,
      toMat (iblk8 (V8 W) c 0 t : S256x2048.Idx → EReal) p k * toMat (iblk8 (V8 W) c 1 t : S2048x256.Idx → EReal) k q
        = toMat (W c (Proc.devRef .tc main_v12) : S256x8192.Idx → EReal) p ⟨2048 * n.val + k.val, by have := n.isLt; have := k.isLt; omega⟩
          * toMat (W c (Proc.devRef .tc main_v9_1) : S8192x256.Idx → EReal) ⟨2048 * n.val + k.val, by have := n.isLt; have := k.isLt; omega⟩ q := by
    intro t n h k
    simp only [toMat_apply]
    rw [iblk8_0_apply (V8 W) c t p k ⟨2048 * n.val + k.val, by have := n.isLt; have := k.isLt; omega⟩ (by rw [h]),
      iblk8_1_apply (V8 W) c t k q ⟨2048 * n.val + k.val, by have := n.isLt; have := k.isLt; omega⟩ (by rw [h])]
    all_goals rfl
  have s : ∀ (t : Fin cfg8.N) (n : Fin 4), t.val = n.val →
      (∑ k : Fin 2048, toMat (iblk8 (V8 W) c 0 t : S256x2048.Idx → EReal) p k * toMat (iblk8 (V8 W) c 1 t : S2048x256.Idx → EReal) k q)
        = ∑ k : Fin 2048, toMat (W c (Proc.devRef .tc main_v12) : S256x8192.Idx → EReal) p ⟨2048 * n.val + k.val, by have := n.isLt; have := k.isLt; omega⟩
          * toMat (W c (Proc.devRef .tc main_v9_1) : S8192x256.Idx → EReal) ⟨2048 * n.val + k.val, by have := n.isLt; have := k.isLt; omega⟩ q :=
    fun t n h => Finset.sum_congr rfl fun k _ => key t n h k
  have e := congrArg₂ (fun a b : EReal => a + b) (congrArg₂ (fun a b : EReal => a + b) (congrArg₂ (fun a b : EReal => a + b)
    (s t8_0 0 rfl) (s t8_1 1 rfl)) (s t8_2 2 rfl)) (s t8_3 3 rfl)
  exact e

end Val8

end Cert.KernelIdeal.Hand

end
-- ==== Proof.KI.ValRun.lean ====
/-
  The kernel program's first pooling block in closed form: the nine regions' value equations, the five small host
  operations between them and the facts about what each item leaves unchanged, chained from the launch memory, give
  the two arrays handed to the last host stretches — the pooled features and the pooled adjacency — as the
  kernel-side closed forms of the block at the launch memory's arguments.
-/
import proofs.«105977_j57329223467619_2_alg».proof.Proof.KI.Args
import proofs.«105977_j57329223467619_2_alg».proof.Proof.KI.HostReads
import proofs.«105977_j57329223467619_2_alg».proof.Proof.KI.Val0
import proofs.«105977_j57329223467619_2_alg».proof.Proof.KI.Val1
import proofs.«105977_j57329223467619_2_alg».proof.Proof.KI.Val2
import proofs.«105977_j57329223467619_2_alg».proof.Proof.KI.Val3
import proofs.«105977_j57329223467619_2_alg».proof.Proof.KI.Val4
import proofs.«105977_j57329223467619_2_alg».proof.Proof.KI.Val5
import proofs.«105977_j57329223467619_2_alg».proof.Proof.KI.Val6
import proofs.«105977_j57329223467619_2_alg».proof.Proof.KI.Val7
import proofs.«105977_j57329223467619_2_alg».proof.Proof.KI.Val8
import proofs.«105977_j57329223467619_2_alg».proof.Proof.KChain
import proofs.«105977_j57329223467619_2_alg».proof.Proof.Bridge0

set_option maxRecDepth 16384

noncomputable section

namespace Cert.KernelIdeal.Hand

open Cert.KernelIdeal Cert.KernelIdeal.Gen
open Idealize.ShloMosaic Idealize.ShloMosaic.TcCoe
open Idealize.SL Idealize.SL.Sem
open Cert.GcnSpec
open ValueIdx

variable (m : (ℓ : Loc nD τ sig) → Buf (Elt Ideal) ℓ) (c : Dev nD)

/-! ## The block's arguments, read off the launch memory -/

/-- The node features. -/
abbrev argX : Mat 8192 784 := toMat (Wi0 m c (Proc.devRef .tc main_arg0) : S8192x784.Idx → EReal)
/-- The adjacency. -/
abbrev argA : Mat 8192 8192 := toMat (Wi0 m c (Proc.devRef .tc main_arg1) : S8192x8192.Idx → EReal)
/-- The first layer's weights and bias. -/
abbrev argW1 : Mat 784 256 := toMat (Wi0 m c (Proc.devRef .tc main_arg2) : S784x256.Idx → EReal)
abbrev argb1 : Fin 256 → EReal := toVec (Wi0 m c (Proc.devRef .tc main_arg3) : S256.Idx → EReal)
/-- The feature layer's weights and bias. -/
abbrev argWz : Mat 256 128 := toMat (Wi0 m c (Proc.devRef .tc main_arg4) : S256x128.Idx → EReal)
abbrev argbz : Fin 128 → EReal := toVec (Wi0 m c (Proc.devRef .tc main_arg5) : S128.Idx → EReal)
/-- The assignment layer's weights and bias. -/
abbrev argWs : Mat 256 256 := toMat (Wi0 m c (Proc.devRef .tc main_arg6) : S256x256.Idx → EReal)
abbrev argbs : Fin 256 → EReal := toVec (Wi0 m c (Proc.devRef .tc main_arg7) : S256.Idx → EReal)

/-! ## The five host reads, at the contents between the items -/

/-- d is the inverse square root of the degree column. -/
theorem rd_d (p : Fin 8192) :
    toMat (Wi2 m c (Proc.devRef .tc main_v1) : S8192x1.Idx → EReal) p 0 = Ideal.rsqrt (toMat (Wi1 m c (Proc.devRef .tc main_v0_1) : S8192x1.Idx → EReal) p 0) :=
  hread_v1 (Wi1 m c) p

/-- The bias row of the first layer is the launch memory's bias. -/
theorem rd_b1 (q : Fin 256) :
    toMat (Wi4 m c (Proc.devRef .tc main_v3) : S1x256.Idx → EReal) 0 q = toVec (Wi0 m c (Proc.devRef .tc main_arg3) : S256.Idx → EReal) q :=
  (hread_v3 (Wi3 m c) q).trans (by rw [keep_main_arg3_3_0 m c]; rfl)

/-- The bias row of the feature layer. -/
theorem rd_bz (q : Fin 128) :
    toMat (Wi8 m c (Proc.devRef .tc main_v7) : S1x128.Idx → EReal) 0 q = toVec (Wi0 m c (Proc.devRef .tc main_arg5) : S128.Idx → EReal) q :=
  (hread_v7 (Wi7 m c) q).trans (by rw [keep_main_arg5_7_0 m c]; rfl)

/-- The bias row of the assignment layer. -/
theorem rd_bs (q : Fin 256) :
    toMat (Wi8 m c (Proc.devRef .tc main_v8) : S1x256.Idx → EReal) 0 q = toVec (Wi0 m c (Proc.devRef .tc main_arg7) : S256.Idx → EReal) q :=
  (hread_v8 (Wi7 m c) q).trans (by rw [keep_main_arg7_7_0 m c]; rfl)

/-- The row d is the column d. -/
theorem rd_drow (j : Fin 8192) :
    toMat (Wi11 m c (Proc.devRef .tc main_v11) : S1x8192.Idx → EReal) 0 j = toMat (Wi2 m c (Proc.devRef .tc main_v1) : S8192x1.Idx → EReal) j 0 :=
  (hread_v11 (Wi10 m c) j).trans (by rw [keep_main_v1_10_2 m c]; rfl)

/-! ## The twelve arrays, each from the ones before it -/

theorem st_adjb (p q : Fin 8192) :
    toMat (Wi1 m c (Proc.devRef .tc main_v0_0) : S8192x8192.Idx → EReal) p q = toMat (Wi0 m c (Proc.devRef .tc
      main_arg1) : S8192x8192.Idx → EReal) p q := by
  unfold Wi1
  exact val0_copy (Wi0 m) c p q

theorem st_deg (p : Fin 8192) :
    toMat (Wi1 m c (Proc.devRef .tc main_v0_1) : S8192x1.Idx → EReal) p 0 = ∑ k : Fin 8192, indic (toMat (Wi0 m c
      (Proc.devRef .tc main_arg1) : S8192x8192.Idx → EReal) p k) := by
  unfold Wi1
  exact val0_deg (Wi0 m) c p

theorem st_h1 (p : Fin 8192) (q : Fin 256) :
    toMat (Wi3 m c (Proc.devRef .tc main_v2) : S8192x256.Idx → EReal) p q = ∑ k : Fin 784, toMat (Wi0 m c
      (Proc.devRef .tc main_arg0) : S8192x784.Idx → EReal) p k * toMat (Wi0 m c (Proc.devRef .tc main_arg2) :
      S784x256.Idx → EReal) k q := by
  have h := val1 (Wi2 m) c p q
  rw [keep_main_arg0_2_0 m c, keep_main_arg2_2_0 m c] at h
  unfold Wi3
  exact h

theorem st_xg (p : Fin 8192) (q : Fin 256) :
    toMat (Wi5 m c (Proc.devRef .tc main_v4) : S8192x256.Idx → EReal) p q = (∑ k : Fin 8192, toMat (Wi1 m c
      (Proc.devRef .tc main_v0_0) : S8192x8192.Idx → EReal) p k * (toMat (Wi3 m c (Proc.devRef .tc main_v2) :
      S8192x256.Idx → EReal) k q * toMat (Wi2 m c (Proc.devRef .tc main_v1) : S8192x1.Idx → EReal) k 0)) * toMat
      (Wi2 m c (Proc.devRef .tc main_v1) : S8192x1.Idx → EReal) p 0 + toVec (Wi0 m c (Proc.devRef .tc main_arg3) :
      S256.Idx → EReal) q := by
  have h := val2 (Wi4 m) c p q
  rw [keep_main_v0_0_4_1 m c, keep_main_v2_4_3 m c, keep_main_v1_4_2 m c, rd_b1 m c q] at h
  unfold Wi5
  exact h

theorem st_hz (p : Fin 8192) (q : Fin 128) :
    toMat (Wi6 m c (Proc.devRef .tc main_v5) : S8192x128.Idx → EReal) p q = ∑ k : Fin 256, toMat (Wi5 m c
      (Proc.devRef .tc main_v4) : S8192x256.Idx → EReal) p k * toMat (Wi0 m c (Proc.devRef .tc main_arg4) :
      S256x128.Idx → EReal) k q := by
  have h := val3 (Wi5 m) c p q
  rw [keep_main_arg4_5_0 m c] at h
  unfold Wi6
  exact h

theorem st_hs (p : Fin 8192) (q : Fin 256) :
    toMat (Wi7 m c (Proc.devRef .tc main_v6) : S8192x256.Idx → EReal) p q = ∑ k : Fin 256, toMat (Wi5 m c
      (Proc.devRef .tc main_v4) : S8192x256.Idx → EReal) p k * toMat (Wi0 m c (Proc.devRef .tc main_arg6) :
      S256x256.Idx → EReal) k q := by
  have h := val4 (Wi6 m) c p q
  rw [keep_main_v4_6_5 m c, keep_main_arg6_6_0 m c] at h
  unfold Wi7
  exact h

theorem st_z1 (p : Fin 8192) (q : Fin 128) :
    toMat (Wi9 m c (Proc.devRef .tc main_v9_0) : S8192x128.Idx → EReal) p q = (∑ k : Fin 8192, toMat (Wi1 m c
      (Proc.devRef .tc main_v0_0) : S8192x8192.Idx → EReal) p k * (toMat (Wi6 m c (Proc.devRef .tc main_v5) :
      S8192x128.Idx → EReal) k q * toMat (Wi2 m c (Proc.devRef .tc main_v1) : S8192x1.Idx → EReal) k 0)) * toMat
      (Wi2 m c (Proc.devRef .tc main_v1) : S8192x1.Idx → EReal) p 0 + toVec (Wi0 m c (Proc.devRef .tc main_arg5) :
      S128.Idx → EReal) q := by
  have h := val5_z (Wi8 m) c p q
  rw [keep_main_v0_0_8_1 m c, keep_main_v5_8_6 m c, keep_main_v1_8_2 m c, rd_bz m c q] at h
  unfold Wi9
  exact h

theorem st_s1 (p : Fin 8192) (q : Fin 256) :
    toMat (Wi9 m c (Proc.devRef .tc main_v9_1) : S8192x256.Idx → EReal) p q = softmaxRow (fun j : Fin 256 => (∑ k :
      Fin 8192, toMat (Wi1 m c (Proc.devRef .tc main_v0_0) : S8192x8192.Idx → EReal) p k * (toMat (Wi7 m c
      (Proc.devRef .tc main_v6) : S8192x256.Idx → EReal) k j * toMat (Wi2 m c (Proc.devRef .tc main_v1) :
      S8192x1.Idx → EReal) k 0)) * toMat (Wi2 m c (Proc.devRef .tc main_v1) : S8192x1.Idx → EReal) p 0 + toVec (Wi0
      m c (Proc.devRef .tc main_arg7) : S256.Idx → EReal) j) q := by
  have h := val5_s (Wi8 m) c p q
  rw [keep_main_v0_0_8_1 m c, keep_main_v6_8_7 m c, keep_main_v1_8_2 m c] at h
  simp only [rd_bs m c] at h
  unfold Wi9
  exact h

theorem st_x2 (p : Fin 256) (q : Fin 128) :
    toMat (Wi10 m c (Proc.devRef .tc main_v10) : S256x128.Idx → EReal) p q = ∑ i : Fin 8192, toMat (Wi9 m c
      (Proc.devRef .tc main_v9_1) : S8192x256.Idx → EReal) i p * toMat (Wi9 m c (Proc.devRef .tc main_v9_0) :
      S8192x128.Idx → EReal) i q := by
  unfold Wi10
  exact val6 (Wi9 m) c p q

theorem st_adj2a (p : Fin 256) (j : Fin 8192) :
    toMat (Wi12 m c (Proc.devRef .tc main_v12) : S256x8192.Idx → EReal) p j = (∑ i : Fin 8192, (toMat (Wi9 m c
      (Proc.devRef .tc main_v9_1) : S8192x256.Idx → EReal) i p * toMat (Wi2 m c (Proc.devRef .tc main_v1) :
      S8192x1.Idx → EReal) i 0) * toMat (Wi1 m c (Proc.devRef .tc main_v0_0) : S8192x8192.Idx → EReal) i j) * toMat
      (Wi2 m c (Proc.devRef .tc main_v1) : S8192x1.Idx → EReal) j 0 := by
  have h := val7 (Wi11 m) c p j
  rw [keep_main_v9_1_11_9 m c, keep_main_v1_11_2 m c, keep_main_v0_0_11_1 m c, rd_drow m c j] at h
  unfold Wi12
  exact h

theorem st_adj2 (p q : Fin 256) :
    toMat (Wi13 m c (Proc.devRef .tc main_v13) : S256x256.Idx → EReal) p q = ∑ j : Fin 8192, toMat (Wi12 m c
      (Proc.devRef .tc main_v12) : S256x8192.Idx → EReal) p j * toMat (Wi9 m c (Proc.devRef .tc main_v9_1) :
      S8192x256.Idx → EReal) j q := by
  have h := val8 (Wi12 m) c p q
  rw [keep_main_v9_1_12_9 m c] at h
  unfold Wi13
  exact h

/-! ## The first pooling block of the kernel program, in closed form -/

/-- The two arrays the kernel program hands to its last host stretches are the kernel-side closed forms of the block,
    at the launch memory's arguments. -/
theorem kernel_block :
    toMat (Wi10 m c (Proc.devRef .tc main_v10) : S256x128.Idx → EReal)
        = kX2 (argX m c) (argA m c) (argW1 m c) (argb1 m c) (argWz m c) (argbz m c) (argWs m c) (argbs m c)
      ∧ toMat (Wi13 m c (Proc.devRef .tc main_v13) : S256x256.Idx → EReal)
        = kAdj2 (argX m c) (argA m c) (argW1 m c) (argb1 m c) (argWs m c) (argbs m c) :=
  kchain (argX m c) (argA m c) (argW1 m c) (argb1 m c) (argWz m c) (argbz m c) (argWs m c) (argbs m c)
    (toMat (Wi1 m c (Proc.devRef .tc main_v0_0) : S8192x8192.Idx → EReal))
    (fun p => toMat (Wi1 m c (Proc.devRef .tc main_v0_1) : S8192x1.Idx → EReal) p 0)
    (fun p => toMat (Wi2 m c (Proc.devRef .tc main_v1) : S8192x1.Idx → EReal) p 0)
    (toMat (Wi3 m c (Proc.devRef .tc main_v2) : S8192x256.Idx → EReal))
    (toMat (Wi5 m c (Proc.devRef .tc main_v4) : S8192x256.Idx → EReal))
    (toMat (Wi6 m c (Proc.devRef .tc main_v5) : S8192x128.Idx → EReal))
    (toMat (Wi9 m c (Proc.devRef .tc main_v9_0) : S8192x128.Idx → EReal))
    (toMat (Wi7 m c (Proc.devRef .tc main_v6) : S8192x256.Idx → EReal))
    (toMat (Wi9 m c (Proc.devRef .tc main_v9_1) : S8192x256.Idx → EReal))
    (toMat (Wi10 m c (Proc.devRef .tc main_v10) : S256x128.Idx → EReal))
    (toMat (Wi12 m c (Proc.devRef .tc main_v12) : S256x8192.Idx → EReal))
    (toMat (Wi13 m c (Proc.devRef .tc main_v13) : S256x256.Idx → EReal))
    (fun p q => st_adjb m c p q) (fun p => st_deg m c p) (fun p => rd_d m c p) (fun p q => st_h1 m c p q)
    (fun p q => st_xg m c p q) (fun p q => st_hz m c p q) (fun p q => st_hs m c p q) (fun p q => st_z1 m c p q)
    (fun p q => st_s1 m c p q) (fun p q => st_x2 m c p q) (fun p j => st_adj2a m c p j) (fun p q => st_adj2 m c p q)

/-- The pooled features the kernel program computes, entry by entry. -/
theorem kernel_x2 (p : Fin 256) (q : Fin 128) :
    (Wi13 m c (Proc.devRef .tc main_v10) : S256x128.Idx → EReal) (ix2 p q)
      = kX2 (argX m c) (argA m c) (argW1 m c) (argb1 m c) (argWz m c) (argbz m c) (argWs m c) (argbs m c) p q := by
  rw [keep_main_v10_13_10 m c]
  exact congrFun (congrFun (kernel_block m c).1 p) q

/-- The pooled adjacency the kernel program computes, entry by entry. -/
theorem kernel_adj2 (p q : Fin 256) :
    (Wi13 m c (Proc.devRef .tc main_v13) : S256x256.Idx → EReal) (ix2 p q)
      = kAdj2 (argX m c) (argA m c) (argW1 m c) (argb1 m c) (argWs m c) (argbs m c) p q :=
  congrFun (congrFun (kernel_block m c).2 p) q

end Cert.KernelIdeal.Hand

end
-- ==== Proof.TailDef.lean ====
/-
  The second and third stages of the network, which the two programs compute by the same host operations: from the
  first pooling block's outputs — the pooled features x2 [256,128] and the pooled adjacency adj2 [256,256] — two
  graph-convolution layers and a pooling block (softmax over 64 clusters), again two layers and a pooling block
  (softmax over one cluster), the cluster mean's linear read-out [1,10] and its log-softmax. One function of x2, adj2
  and the fourteen weight arrays, every operation at the exact (extended real) instance.
-/
import proofs.«105977_j57329223467619_2_alg».proof.Proof.Gen.KernelIdeal
import Idealize.ShloMosaic.PureOps.Ideal.Laws

noncomputable section

namespace Cert.Tail

open Cert.KernelIdeal Cert.KernelIdeal.Gen
open Idealize.ShloMosaic

set_option maxRecDepth 16384 in
/-- The network after the first pooling block. -/
def tail (x2 : FVec Ideal S256x128 .f32) (adj2 : FVec Ideal S256x256 .f32)
    (a8 : FVec Ideal S128x128 .f32) (a9 : FVec Ideal S128 .f32)
    (a10 : FVec Ideal S128x128 .f32) (a11 : FVec Ideal S128 .f32)
    (a12 : FVec Ideal S128x64 .f32) (a13 : FVec Ideal S64 .f32)
    (a14 : FVec Ideal S128x128 .f32) (a15 : FVec Ideal S128 .f32)
    (a16 : FVec Ideal S128x128 .f32) (a17 : FVec Ideal S128 .f32)
    (a18 : FVec Ideal S128x1 .f32) (a19 : FVec Ideal S1 .f32)
    (a20 : FVec Ideal S128x10 .f32) (a21 : FVec Ideal S10 .f32) : FVec Ideal S1x10 .f32 :=
  -- layer 2a: adj2 · (x2 · W) + b
  let v14 : FVec Ideal S256x128 .f32 := Host.dotGeneral (F := Ideal) dot_S256x128_S128x128_S256x128_1_0_0_1_n_n none x2 a8
  let v15 : FVec Ideal S256x128 .f32 := Host.dotGeneral (F := Ideal) dot_S256x256_S256x128_S256x128_1_0_0_1_n_n none adj2 v14
  let v16 : FVec Ideal S1x128 .f32 := broadcastInDim (s := S128) S1x128 ![1] bcast_S128_S1x128_1 a9
  let v17 : FVec Ideal S256x128 .f32 := broadcastInDim (s := S1x128) S256x128 ![0, 1] bcast_S1x128_S256x128_0_1 v16
  let v18 : FVec Ideal S256x128 .f32 := addf (F := Ideal) v15 v17
  -- layer 2b (features)
  let v19 : FVec Ideal S256x128 .f32 := Host.dotGeneral (F := Ideal) dot_S256x128_S128x128_S256x128_1_0_0_1_n_n none v18 a10
  let v20 : FVec Ideal S256x128 .f32 := Host.dotGeneral (F := Ideal) dot_S256x256_S256x128_S256x128_1_0_0_1_n_n none adj2 v19
  let v21 : FVec Ideal S1x128 .f32 := broadcastInDim (s := S128) S1x128 ![1] bcast_S128_S1x128_1 a11
  let v22 : FVec Ideal S256x128 .f32 := broadcastInDim (s := S1x128) S256x128 ![0, 1] bcast_S1x128_S256x128_0_1 v21
  let v23 : FVec Ideal S256x128 .f32 := addf (F := Ideal) v20 v22
  -- layer 2c (assignment logits) and its softmax over the 64 clusters
  let v24 : FVec Ideal S256x64 .f32 := Host.dotGeneral (F := Ideal) dot_S256x128_S128x64_S256x64_1_0_0_1_n_n none v18 a12
  let v25 : FVec Ideal S256x64 .f32 := Host.dotGeneral (F := Ideal) dot_S256x256_S256x64_S256x64_1_0_0_1_n_n none adj2 v24
  let v26 : FVec Ideal S1x64 .f32 := broadcastInDim (s := S64) S1x64 ![1] bcast_S64_S1x64_1 a13
  let v27 : FVec Ideal S256x64 .f32 := broadcastInDim (s := S1x64) S256x64 ![0, 1] bcast_S1x64_S256x64_0_1 v26
  let v28 : FVec Ideal S256x64 .f32 := addf (F := Ideal) v25 v27
  let c0 : FVec Ideal S_ .f32 := constant (F := Ideal) S_ .f32 0xFF800000#32
  let v29 : FVec Ideal S256 .f32 := Host.reduce (FloatOps.maximumf (F := Ideal) (φ := .f32)) v28 c0 reducesTo_S256x64_S256_d1 h_S_
  let c1 : FVec Ideal S_ .f32 := constant (F := Ideal) S_ .f32 0xFF800000#32
  let v30 : FVec Ideal S256 .f32 := broadcastInDim (s := S_) S256 ![] bcast_S_S256 c1
  let v31 : FVec Ideal S256 .f32 := maximumf (F := Ideal) v30 v29
  let v32 : FVec Ideal S256x1 .f32 := broadcastInDim (s := S256) S256x1 ![0] bcast_S256_S256x1_0 v31
  let v33 : FVec Ideal S256x64 .f32 := broadcastInDim (s := S256x1) S256x64 ![0, 1] bcast_S256x1_S256x64_0_1 v32
  let v34 : FVec Ideal S256x64 .f32 := subf (F := Ideal) v28 v33
  let v35 : FVec Ideal S256x64 .f32 := Host.exp (F := Ideal) v34
  let c2 : FVec Ideal S_ .f32 := constant (F := Ideal) S_ .f32 0x00000000#32
  let v36 : FVec Ideal S256 .f32 := Host.reduceAdd (F := Ideal) v35 c2 reducesTo_S256x64_S256_d1 h_S_
  let v37 : FVec Ideal S256x1 .f32 := broadcastInDim (s := S256) S256x1 ![0] bcast_S256_S256x1_0 v36
  let v38 : FVec Ideal S256x64 .f32 := broadcastInDim (s := S256x1) S256x64 ![0, 1] bcast_S256x1_S256x64_0_1 v37
  let v39 : FVec Ideal S256x64 .f32 := Host.divf (F := Ideal) v35 v38
  -- pooled features s^T z and pooled adjacency s^T (adj2 s)
  let v40 : FVec Ideal S64x256 .f32 := transpose (s := S256x64) S64x256 [1, 0] v39 transposes_S256x64_S64x256_1_0
  let v41 : FVec Ideal S64x128 .f32 := Host.dotGeneral (F := Ideal) dot_S64x256_S256x128_S64x128_1_0_0_1_n_n none v40 v23
  let v42 : FVec Ideal S64x256 .f32 := transpose (s := S256x64) S64x256 [1, 0] v39 transposes_S256x64_S64x256_1_0
  let v43 : FVec Ideal S256x64 .f32 := Host.dotGeneral (F := Ideal) dot_S256x256_S256x64_S256x64_1_0_0_1_n_n none adj2 v39
  let v44 : FVec Ideal S64x64 .f32 := Host.dotGeneral (F := Ideal) dot_S64x256_S256x64_S64x64_1_0_0_1_n_n none v42 v43
  -- layer 3a
  let v45 : FVec Ideal S64x128 .f32 := Host.dotGeneral (F := Ideal) dot_S64x128_S128x128_S64x128_1_0_0_1_n_n none v41 a14
  let v46 : FVec Ideal S64x128 .f32 := Host.dotGeneral (F := Ideal) dot_S64x64_S64x128_S64x128_1_0_0_1_n_n none v44 v45
  let v47 : FVec Ideal S1x128 .f32 := broadcastInDim (s := S128) S1x128 ![1] bcast_S128_S1x128_1 a15
  let v48 : FVec Ideal S64x128 .f32 := broadcastInDim (s := S1x128) S64x128 ![0, 1] bcast_S1x128_S64x128_0_1 v47
  let v49 : FVec Ideal S64x128 .f32 := addf (F := Ideal) v46 v48
  -- layer 3b (features)
  let v50 : FVec Ideal S64x128 .f32 := Host.dotGeneral (F := Ideal) dot_S64x128_S128x128_S64x128_1_0_0_1_n_n none v49 a16
  let v51 : FVec Ideal S64x128 .f32 := Host.dotGeneral (F := Ideal) dot_S64x64_S64x128_S64x128_1_0_0_1_n_n none v44 v50
  let v52 : FVec Ideal S1x128 .f32 := broadcastInDim (s := S128) S1x128 ![1] bcast_S128_S1x128_1 a17
  let v53 : FVec Ideal S64x128 .f32 := broadcastInDim (s := S1x128) S64x128 ![0, 1] bcast_S1x128_S64x128_0_1 v52
  let v54 : FVec Ideal S64x128 .f32 := addf (F := Ideal) v51 v53
  -- layer 3c (assignment logits) and its softmax over the single cluster
  let v55 : FVec Ideal S64x1 .f32 := Host.dotGeneral (F := Ideal) dot_S64x128_S128x1_S64x1_1_0_0_1_n_n none v49 a18
  let v56 : FVec Ideal S64x1 .f32 := Host.dotGeneral (F := Ideal) dot_S64x64_S64x1_S64x1_1_0_0_1_n_n none v44 v55
  let v57 : FVec Ideal S1x1 .f32 := broadcastInDim (s := S1) S1x1 ![1] bcast_S1_S1x1_1 a19
  let v58 : FVec Ideal S64x1 .f32 := broadcastInDim (s := S1x1) S64x1 ![0, 1] bcast_S1x1_S64x1_0_1 v57
  let v59 : FVec Ideal S64x1 .f32 := addf (F := Ideal) v56 v58
  let c3 : FVec Ideal S_ .f32 := constant (F := Ideal) S_ .f32 0xFF800000#32
  let v60 : FVec Ideal S64 .f32 := Host.reduce (FloatOps.maximumf (F := Ideal) (φ := .f32)) v59 c3 reducesTo_S64x1_S64_d1 h_S_
  let c4 : FVec Ideal S_ .f32 := constant (F := Ideal) S_ .f32 0xFF800000#32
  let v61 : FVec Ideal S64 .f32 := broadcastInDim (s := S_) S64 ![] bcast_S_S64 c4
  let v62 : FVec Ideal S64 .f32 := maximumf (F := Ideal) v61 v60
  let v63 : FVec Ideal S64x1 .f32 := broadcastInDim (s := S64) S64x1 ![0] bcast_S64_S64x1_0 v62
  let v64 : FVec Ideal S64x1 .f32 := subf (F := Ideal) v59 v63
  let v65 : FVec Ideal S64x1 .f32 := Host.exp (F := Ideal) v64
  let c5 : FVec Ideal S_ .f32 := constant (F := Ideal) S_ .f32 0x00000000#32
  let v66 : FVec Ideal S64 .f32 := Host.reduceAdd (F := Ideal) v65 c5 reducesTo_S64x1_S64_d1 h_S_
  let v67 : FVec Ideal S64x1 .f32 := broadcastInDim (s := S64) S64x1 ![0] bcast_S64_S64x1_0 v66
  let v68 : FVec Ideal S64x1 .f32 := Host.divf (F := Ideal) v65 v67
  -- pooled features, the read-out
  let v69 : FVec Ideal S1x64 .f32 := transpose (s := S64x1) S1x64 [1, 0] v68 transposes_S64x1_S1x64_1_0
  let v70 : FVec Ideal S1x128 .f32 := Host.dotGeneral (F := Ideal) dot_S1x64_S64x128_S1x128_1_0_0_1_n_n none v69 v54
  let v71 : FVec Ideal S1x10 .f32 := Host.dotGeneral (F := Ideal) dot_S1x128_S128x10_S1x10_1_0_0_1_n_n none v70 a20
  let v72 : FVec Ideal S1x10 .f32 := broadcastInDim (s := S10) S1x10 ![1] bcast_S10_S1x10_1 a21
  let v73 : FVec Ideal S1x10 .f32 := addf (F := Ideal) v71 v72
  -- log-softmax of the read-out
  let d0 : FVec Ideal S_ .f32 := constant (F := Ideal) S_ .f32 0xFF800000#32
  let l0 : FVec Ideal S1 .f32 := Host.reduce (FloatOps.maximumf (F := Ideal) (φ := .f32)) v73 d0 reducesTo_S1x10_S1_d1 h_S_
  let d1 : FVec Ideal S_ .f32 := constant (F := Ideal) S_ .f32 0xFF800000#32
  let l1 : FVec Ideal S1 .f32 := broadcastInDim (s := S_) S1 ![] bcast_S_S1 d1
  let l2 : FVec Ideal S1 .f32 := maximumf (F := Ideal) l1 l0
  let l3 : FVec Ideal S1x1 .f32 := broadcastInDim (s := S1) S1x1 ![0] bcast_S1_S1x1_0 l2
  let l4 : FVec Ideal S1x10 .f32 := broadcastInDim (s := S1x1) S1x10 ![0, 1] bcast_S1x1_S1x10_0_1 l3
  let l5 : FVec Ideal S1x10 .f32 := subf (F := Ideal) v73 l4
  let l6 : FVec Ideal S1x10 .f32 := Host.exp (F := Ideal) l5
  let d2 : FVec Ideal S_ .f32 := constant (F := Ideal) S_ .f32 0x00000000#32
  let l7 : FVec Ideal S1 .f32 := Host.reduceAdd (F := Ideal) l6 d2 reducesTo_S1x10_S1_d1 h_S_
  let l8 : FVec Ideal S1x1 .f32 := broadcastInDim (s := S1) S1x1 ![0] bcast_S1_S1x1_0 l7
  let l9 : FVec Ideal S1x1 .f32 := Host.log (F := Ideal) l8
  let l10 : FVec Ideal S1x10 .f32 := broadcastInDim (s := S1x1) S1x10 ![0, 1] bcast_S1x1_S1x10_0_1 l9
  subf (F := Ideal) l5 l10

end Cert.Tail

end
-- ==== Proof.TailK.lean ====
/-
  The kernel program's last two host stretches compute the network after the first pooling block: whatever the
  buffers hold when they start, the result buffer ends at that one function of the pooled features, the pooled adjacency
  and the fourteen weight arrays.
-/
import proofs.«105977_j57329223467619_2_alg».proof.Proof.TailDef
import proofs.«105977_j57329223467619_2_alg».proof.Proof.Gen.KernelIdeal.Launch
import Idealize.ShloMosaic.Lib.StableHlo.Run
import Idealize.ShloMosaic.Lib.Pipeline.Frame

noncomputable section

namespace Cert.Tail

open Cert.KernelIdeal Cert.KernelIdeal.Gen
open Idealize.ShloMosaic Idealize.ShloMosaic.TcCoe Idealize.SL.Sem Idealize.ShloMosaic.StableHlo

set_option maxRecDepth 16384 in
set_option maxHeartbeats 2000000 in
/-- The two last host stretches, run one after the other from any contents. -/
theorem tail_kernel (W : Valuation τ sig (Elt Ideal)) :
    StableHlo.after (hostOps9_1 (F := Ideal)) (StableHlo.after (hostOps9 (F := Ideal)) W) (Proc.devRef .tc main_v74)
      = tail (W (Proc.devRef .tc main_v10)) (W (Proc.devRef .tc main_v13))
          (W (Proc.devRef .tc main_arg8)) (W (Proc.devRef .tc main_arg9)) (W (Proc.devRef .tc main_arg10))
          (W (Proc.devRef .tc main_arg11)) (W (Proc.devRef .tc main_arg12)) (W (Proc.devRef .tc main_arg13))
          (W (Proc.devRef .tc main_arg14)) (W (Proc.devRef .tc main_arg15)) (W (Proc.devRef .tc main_arg16))
          (W (Proc.devRef .tc main_arg17)) (W (Proc.devRef .tc main_arg18)) (W (Proc.devRef .tc main_arg19))
          (W (Proc.devRef .tc main_arg20)) (W (Proc.devRef .tc main_arg21)) := by
  after_results_simp
  rfl

set_option maxRecDepth 16384 in
/-- The same, the two stretches as one list. -/
theorem tail_kernel_append (W : Valuation τ sig (Elt Ideal)) :
    StableHlo.after (hostOps9 (F := Ideal) ++ hostOps9_1 (F := Ideal)) W (Proc.devRef .tc main_v74)
      = tail (W (Proc.devRef .tc main_v10)) (W (Proc.devRef .tc main_v13))
          (W (Proc.devRef .tc main_arg8)) (W (Proc.devRef .tc main_arg9)) (W (Proc.devRef .tc main_arg10))
          (W (Proc.devRef .tc main_arg11)) (W (Proc.devRef .tc main_arg12)) (W (Proc.devRef .tc main_arg13))
          (W (Proc.devRef .tc main_arg14)) (W (Proc.devRef .tc main_arg15)) (W (Proc.devRef .tc main_arg16))
          (W (Proc.devRef .tc main_arg17)) (W (Proc.devRef .tc main_arg18)) (W (Proc.devRef .tc main_arg19))
          (W (Proc.devRef .tc main_arg20)) (W (Proc.devRef .tc main_arg21)) := by
  rw [StableHlo.after_append]
  exact tail_kernel W

end Cert.Tail

end
-- ==== Proof.TailR.lean ====
/-
  The reference program's operations after the first pooling block compute the same function of the pooled features,
  the pooled adjacency and the fourteen weight arrays as the kernel program's last host stretches: whatever the
  buffers hold when they start, the result buffer ends at that one function of those sixteen arrays.
-/
import proofs.«105977_j57329223467619_2_alg».proof.Proof.TailDef
import proofs.«105977_j57329223467619_2_alg».proof.Proof.RefRunP
import Idealize.ShloMosaic.Lib.StableHlo.Run

noncomputable section

namespace Cert.Tail

open Cert.ReferenceIdeal Cert.ReferenceIdeal.Gen
open Idealize.ShloMosaic Idealize.ShloMosaic.TcCoe Idealize.SL.Sem Idealize.ShloMosaic.StableHlo

set_option maxRecDepth 16384 in
set_option maxHeartbeats 4000000 in
/-- The reference's operations after the first pooled adjacency, run from any contents. -/
theorem tail_ref (W : Valuation Cert.ReferenceIdeal.τ Cert.ReferenceIdeal.sig (Elt Ideal)) :
    StableHlo.after (Cert.ReferenceIdeal.ValueP.opsB (F := Ideal)) W (Proc.devRef .tc main_v103)
      = tail (W (Proc.devRef .tc main_v39)) (W (Proc.devRef .tc main_v42))
          (W (Proc.devRef .tc main_arg8)) (W (Proc.devRef .tc main_arg9)) (W (Proc.devRef .tc main_arg10))
          (W (Proc.devRef .tc main_arg11)) (W (Proc.devRef .tc main_arg12)) (W (Proc.devRef .tc main_arg13))
          (W (Proc.devRef .tc main_arg14)) (W (Proc.devRef .tc main_arg15)) (W (Proc.devRef .tc main_arg16))
          (W (Proc.devRef .tc main_arg17)) (W (Proc.devRef .tc main_arg18)) (W (Proc.devRef .tc main_arg19))
          (W (Proc.devRef .tc main_arg20)) (W (Proc.devRef .tc main_arg21)) := by
  after_results_simp
  first | rfl | fail "the two composed terms do not meet by unfolding"

end Cert.Tail

end
-- ==== Proof.RefHeadLib.lean ====
/-
  Facts about words and extended reals that the reading of the reference's first block uses: a real sum cast to the
  extended reals is the sum of the casts; a sum of 32-bit words each 0 or 1, few enough not to wrap, counts the ones;
  the 0/1 word of "x ≠ 0", summed over a row and read as a signed integer, is the row's degree; a fold of the maximum
  from the bottom element is the supremum.
-/
import Idealize.ShloMosaic.Lib.ValueIdx
import Idealize.ShloMosaic.PureOps.Ideal.Laws
import proofs.«105977_j57329223467619_2_alg».proof.Proof.Spec

noncomputable section

open scoped BigOperators

namespace Cert.RefHead

open Idealize.ShloMosaic Idealize.ShloMosaic.ValueIdx Cert.GcnSpec

/-- A real sum, cast, is the sum of the casts. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Fewer than 2^32 words, each 0 or 1, added as 32-bit words: the value of the sum is the number of ones. -/
theorem toNat_fold_addi {ι : Type*} (s : Finset ι) (f : ι → BitVec 32) (hf : ∀ i ∈ s, (f i).toNat ≤ 1)
    (hs : s.card < 4294967296) : (s.fold IntOp.addi 0#32 f).toNat = ∑ i ∈ s, (f i).toNat := by
  classical
  induction s using Finset.induction_on with
  | empty => simp
  | insert a s ha ih =>
    rw [Finset.card_insert_of_notMem ha] at hs
    have ih' := ih (fun i hi => hf i (Finset.mem_insert_of_mem hi)) (by omega)
    have hle : ∑ i ∈ s, (f i).toNat ≤ s.card := by
      calc ∑ i ∈ s, (f i).toNat ≤ ∑ _i ∈ s, 1 := Finset.sum_le_sum (fun i hi => hf i (Finset.mem_insert_of_mem hi))
        _ = s.card := by simp
    have ha1 := hf a (Finset.mem_insert_self a s)
    rw [Finset.fold_insert ha, Finset.sum_insert ha]
    show (f a + s.fold IntOp.addi 0#32 f).toNat = _
    rw [BitVec.toNat_add, ih']
    omega

/-- The 32-bit word of the comparison "x ≠ 0" is 0 where x = 0 and 1 elsewhere. -/
theorem toNat_une_word (x : EReal) : ((Ideal.cmp .une x 0).setWidth 32).toNat = if x = 0 then 0 else 1 := by
  unfold Ideal.cmp
  by_cases h : x = 0
  · simp [h]
  · simp [h]

/-- The summand of the degree is that word's value. -/
theorem indic_eq_cast (x : EReal) : indic x = (((if x = 0 then 0 else 1 : ℕ) : ℝ) : EReal) := by
  unfold indic
  by_cases h : x = 0
  · simp [h]
  · simp [h]

/-- The 0/1 words of a row of fewer than 2^31 entries, added as 32-bit words and read as a signed integer, are the
    row's degree. -/
theorem count_eq_deg {n : ℕ} (v : Fin n → EReal) (hn : n < 2147483648) :
    ((((Finset.univ : Finset (Fin n)).fold IntOp.addi 0#32 (fun k => (Ideal.cmp .une (v k) 0).setWidth 32)).toInt : ℝ) : EReal)
      = ∑ k : Fin n, indic (v k) := by
  have hcard : (Finset.univ : Finset (Fin n)).card = n := by simp
  have hN := toNat_fold_addi (Finset.univ : Finset (Fin n)) (fun k => (Ideal.cmp .une (v k) 0).setWidth 32)
    (fun k _ => by rw [toNat_une_word]; split_ifs <;> omega) (by rw [hcard]; omega)
  have hle : ∑ k : Fin n, ((Ideal.cmp .une (v k) 0).setWidth 32).toNat ≤ n := by
    calc ∑ k : Fin n, ((Ideal.cmp .une (v k) 0).setWidth 32).toNat ≤ ∑ _k : Fin n, 1 :=
          Finset.sum_le_sum (fun k _ => by rw [toNat_une_word]; split_ifs <;> omega)
      _ = n := by simp
  generalize (Finset.univ : Finset (Fin n)).fold IntOp.addi 0#32 (fun k => (Ideal.cmp .une (v k) 0).setWidth 32) = w at hN
  have hI : w.toInt = (w.toNat : ℤ) := by
    rw [BitVec.toInt_eq_toNat_cond, if_pos (by omega)]
  rw [hI, hN]
  simp only [toNat_une_word]
  rw [Int.cast_natCast, Nat.cast_sum, coe_sum]
  exact Finset.sum_congr rfl fun k _ => (indic_eq_cast (v k)).symm

/-- The maximum folded from the bottom element is the supremum. -/
theorem fold_max_eq_sup {ι : Type*} (s : Finset ι) (v : ι → EReal) :
    s.fold (FloatOps.maximumf (F := Ideal) (φ := .f32)) (⊥ : EReal) v = s.sup v := by
  classical
  induction s using Finset.induction_on with
  | empty => simp
  | insert a s ha ih =>
    rw [Finset.fold_insert ha, Finset.sup_insert, ih]
    rfl

/-- The word 0xFF800000 is −∞. -/
theorem ofBits_neg_inf : Ideal.ofBits .f32 0xFF800000#32 = (⊥ : EReal) := by simp [Ideal.ofBits, Ideal.ieee]

end Cert.RefHead

end
-- ==== Proof.RefHead.lean ====
/-
  The reference's first block, read at an index. From the adjacency the reference counts each row's nonzero entries
  (as 32-bit words, converted to a float), takes d = rsqrt of the count, builds the normalised adjacency entry by
  entry, and computes one graph-convolution layer, the features z1, the assignment s1 = softmax over each row, and the
  pooled features s1ᵀ z1 and pooled adjacency (s1ᵀ An) s1. Each stage is identified, entry by entry, with the
  corresponding function of the specification.
-/
import proofs.«105977_j57329223467619_2_alg».proof.Proof.RefReadP
import proofs.«105977_j57329223467619_2_alg».proof.Proof.RefHeadLib

set_option maxRecDepth 16384

noncomputable section

open scoped BigOperators

namespace Cert.RefHead

open Cert.ReferenceIdeal Cert.ReferenceIdeal.Gen Cert.ReferenceIdeal.ReadP Idealize.ShloMosaic Idealize.ShloMosaic.ValueIdx Cert.GcnSpec

/-- Two rank-2 indices are equal when their coordinates are. -/
macro "ix_eq2" : tactic => `(tactic| exact funext fun a => Fin.ext (by match a with | ⟨0, _⟩ => rfl | ⟨1, _⟩ => rfl))
/-- Two rank-1 indices are equal when their coordinates are. -/
macro "ix_eq1" : tactic => `(tactic| exact funext fun a => Fin.ext (by match a with | ⟨0, _⟩ => rfl))

variable (a0 : FVec Ideal S8192x784 .f32) (a1 : FVec Ideal S8192x8192 .f32) (a2 : FVec Ideal S784x256 .f32)
  (a3 : FVec Ideal S256 .f32) (a4 : FVec Ideal S256x128 .f32) (a5 : FVec Ideal S128 .f32)
  (a6 : FVec Ideal S256x256 .f32) (a7 : FVec Ideal S256 .f32)

/-- The argument arrays as matrices and vectors of extended reals. -/
abbrev mX : Mat 8192 784 := fun i k => a0 (ix2 i k)
abbrev mA : Mat 8192 8192 := fun i k => a1 (ix2 i k)
abbrev mW1 : Mat 784 256 := fun i k => a2 (ix2 i k)
abbrev vb1 : Fin 256 → EReal := fun k => a3 (ix1 k)
abbrev mWz : Mat 256 128 := fun i k => a4 (ix2 i k)
abbrev vbz : Fin 128 → EReal := fun k => a5 (ix1 k)
abbrev mWs : Mat 256 256 := fun i k => a6 (ix2 i k)
abbrev vbs : Fin 256 → EReal := fun k => a7 (ix1 k)

/-! ## The degree and the normalised adjacency -/

/-- Row p with column k put back is (p, k). -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The count of a row's nonzero entries, converted to a float, is the row's degree. -/
theorem ref_deg (p : Fin 8192) : val_main_v4 (F := Ideal) a1 (ix1 p) = deg (mA a1) p := by
  rw [val_main_v4_apply]
  show (((val_main_v3 (F := Ideal) a1 (ix1 p)).toInt : ℝ) : EReal) = _
  unfold val_main_v3
  have h : S8192x8192.Reduces [1] S8192 := by decide
  rw [Host.reduce_eq_fold_single (IntOp.addi (w := 32)) _ _ _ h]
  have hf : (val_main_v2 (F := Ideal) a1 ∘ h.lift (ix1 p))
      = fun k : Fin 8192 => (Ideal.cmp .une (a1 (ix2 p k)) 0).setWidth 32 := by
    funext k
    show val_main_v2 (F := Ideal) a1 (h.lift (ix1 p) k) = _
    rw [lift_row h p k, val_main_v2_apply, val_main_v1_apply, val_main_v0_apply, val_main_cst_apply]
    show (Ideal.cmp .une (a1 (ix2 p (⟨k.val, k.isLt⟩ : Fin 8192))) (Ideal.ofBits .f32 0x00000000#32)).setWidth 32 = _
    rw [Ideal.ofBits_zero_f32]
    rfl
  refine Eq.trans ?_ (count_eq_deg (fun k => a1 (ix2 p k)) (by norm_num))
  exact congrArg (fun f => ((((Finset.univ : Finset (Fin 8192)).fold IntOp.addi 0#32 f).toInt : ℝ) : EReal)) hf

/-- d = rsqrt of the degree. -/
theorem ref_d (p : Fin 8192) : val_main_v5 (F := Ideal) a1 (ix1 p) = dvec (mA a1) p := by
  rw [val_main_v5_apply, Ideal.hostUnary_rsqrt_def, ref_deg]
  rfl

/-- The normalised adjacency, entry (i, k): (A_ik · d_i) · d_k. -/
theorem ref_adjn (i k : Fin 8192) : val_main_v11 (F := Ideal) a1 (ix2 i k) = adjn (mA a1) (dvec (mA a1)) i k := by
  rw [val_main_v11_apply, val_main_v8_apply, val_main_v7_apply, val_main_v6_apply, val_main_v10_apply, val_main_v9_apply,
    show idx_main_v6 (idx_main_v7 (ix2 i k)) = ix1 i from by ix_eq1,
    show idx_main_v9 (idx_main_v10 (ix2 i k)) = ix1 k from by ix_eq1, ref_d, ref_d]
  rfl

/-! ## The first layer -/

/-- X · W. -/
theorem ref_h1 (i : Fin 8192) (q : Fin 256) : val_main_v12 (F := Ideal) a0 a2 (ix2 i q) = mm (mX a0) (mW1 a2) i q := by
  rw [val_main_v12_apply]
  show _ = ∑ t : Fin 784, mX a0 i t * mW1 a2 t q
  refine Finset.sum_congr rfl fun k _ => ?_
  rw [show lidx_main_v12 (ix2 i q) k = ix2 i k from by ix_eq2, show ridx_main_v12 (ix2 i q) k = ix2 k q from by ix_eq2]

/-- x1 = An · (X · W) + b. -/
theorem ref_x1 (p : Fin 8192) (q : Fin 256) :
    val_main_v16 (F := Ideal) a0 a1 a2 a3 (ix2 p q) = rX1 (mX a0) (mA a1) (mW1 a2) (vb1 a3) p q := by
  rw [val_main_v16_apply, val_main_v13_apply, val_main_v15_apply, val_main_v14_apply,
    show idx_main_v14 (idx_main_v15 (ix2 p q)) = ix1 q from by ix_eq1]
  show _ + _ = (∑ k : Fin 8192, adjn (mA a1) (dvec (mA a1)) p k * mm (mX a0) (mW1 a2) k q) + a3 (ix1 q)
  refine congrArg (· + a3 (ix1 q)) (Finset.sum_congr rfl fun k _ => ?_)
  rw [show lidx_main_v13 (ix2 p q) k = ix2 p k from by ix_eq2, show ridx_main_v13 (ix2 p q) k = ix2 k q from by ix_eq2,
    ref_adjn, ref_h1]

/-! ## The features z1 -/

/-- x1 · Wz. -/
theorem ref_hz (p : Fin 8192) (q : Fin 128) :
    val_main_v17 (F := Ideal) a0 a1 a2 a3 a4 (ix2 p q) = mm (rX1 (mX a0) (mA a1) (mW1 a2) (vb1 a3)) (mWz a4) p q := by
  rw [val_main_v17_apply]
  show _ = ∑ t : Fin 256, rX1 (mX a0) (mA a1) (mW1 a2) (vb1 a3) p t * mWz a4 t q
  refine Finset.sum_congr rfl fun k _ => ?_
  rw [show lidx_main_v17 (ix2 p q) k = ix2 p k from by ix_eq2, show ridx_main_v17 (ix2 p q) k = ix2 k q from by ix_eq2, ref_x1]

/-- z1 = An · (x1 · Wz) + bz. -/
theorem ref_z1 (p : Fin 8192) (q : Fin 128) :
    val_main_v21 (F := Ideal) a0 a1 a2 a3 a4 a5 (ix2 p q) = rZ1 (mX a0) (mA a1) (mW1 a2) (vb1 a3) (mWz a4) (vbz a5) p q := by
  rw [val_main_v21_apply, val_main_v18_apply, val_main_v20_apply, val_main_v19_apply,
    show idx_main_v19 (idx_main_v20 (ix2 p q)) = ix1 q from by ix_eq1]
  show _ + _ = (∑ k : Fin 8192, adjn (mA a1) (dvec (mA a1)) p k
      * mm (rX1 (mX a0) (mA a1) (mW1 a2) (vb1 a3)) (mWz a4) k q) + a5 (ix1 q)
  refine congrArg (· + a5 (ix1 q)) (Finset.sum_congr rfl fun k _ => ?_)
  rw [show lidx_main_v18 (ix2 p q) k = ix2 p k from by ix_eq2, show ridx_main_v18 (ix2 p q) k = ix2 k q from by ix_eq2,
    ref_adjn, ref_hz]

/-! ## The assignment s1 -/

/-- x1 · Ws. -/
theorem ref_hs (p : Fin 8192) (q : Fin 256) :
    val_main_v22 (F := Ideal) a0 a1 a2 a3 a6 (ix2 p q) = mm (rX1 (mX a0) (mA a1) (mW1 a2) (vb1 a3)) (mWs a6) p q := by
  rw [val_main_v22_apply]
  show _ = ∑ t : Fin 256, rX1 (mX a0) (mA a1) (mW1 a2) (vb1 a3) p t * mWs a6 t q
  refine Finset.sum_congr rfl fun k _ => ?_
  rw [show lidx_main_v22 (ix2 p q) k = ix2 p k from by ix_eq2, show ridx_main_v22 (ix2 p q) k = ix2 k q from by ix_eq2, ref_x1]

/-- The logits An · (x1 · Ws) + bs. -/
theorem ref_logit (p : Fin 8192) (q : Fin 256) :
    val_main_v26 (F := Ideal) a0 a1 a2 a3 a6 a7 (ix2 p q)
      = rGcn (adjn (mA a1) (dvec (mA a1))) (mm (rX1 (mX a0) (mA a1) (mW1 a2) (vb1 a3)) (mWs a6)) (vbs a7) p q := by
  rw [val_main_v26_apply, val_main_v23_apply, val_main_v25_apply, val_main_v24_apply,
    show idx_main_v24 (idx_main_v25 (ix2 p q)) = ix1 q from by ix_eq1]
  show _ + _ = (∑ k : Fin 8192, adjn (mA a1) (dvec (mA a1)) p k
      * mm (rX1 (mX a0) (mA a1) (mW1 a2) (vb1 a3)) (mWs a6) k q) + a7 (ix1 q)
  refine congrArg (· + a7 (ix1 q)) (Finset.sum_congr rfl fun k _ => ?_)
  rw [show lidx_main_v23 (ix2 p q) k = ix2 p k from by ix_eq2, show ridx_main_v23 (ix2 p q) k = ix2 k q from by ix_eq2,
    ref_adjn, ref_hs]

/-- The row maximum the reference subtracts: the maximum with −∞ of the row's reduce-max from −∞. -/
theorem ref_max (p : Fin 8192) :
    val_main_v29 (F := Ideal) a0 a1 a2 a3 a6 a7 (ix1 p) = rowMax fun j : Fin 256 => val_main_v26 (F := Ideal) a0 a1 a2 a3 a6 a7 (ix2 p j) := by
  rw [val_main_v29_apply, val_main_v28_apply, val_main_cst_1_apply]
  unfold val_main_v27
  have h : S8192x256.Reduces [1] S8192 := by decide
  rw [Host.reduce_eq_fold_single (FloatOps.maximumf (F := Ideal) (φ := .f32)) _ _ _ h, val_main_cst_0_apply, Ideal.ofBits_def, ofBits_neg_inf,
    Ideal.maximumf_def]
  have hf : (val_main_v26 (F := Ideal) a0 a1 a2 a3 a6 a7 ∘ h.lift (ix1 p))
      = fun k : Fin 256 => val_main_v26 (F := Ideal) a0 a1 a2 a3 a6 a7 (ix2 p k) :=
    funext fun k => congrArg (val_main_v26 (F := Ideal) a0 a1 a2 a3 a6 a7) (lift_row h p k)
  refine (max_eq_right bot_le).trans ?_
  refine Eq.trans ?_ (fold_max_eq_sup Finset.univ fun k : Fin 256 => val_main_v26 (F := Ideal) a0 a1 a2 a3 a6 a7 (ix2 p k))
  exact congrArg (fun f => (Finset.univ : Finset (Fin 256)).fold (FloatOps.maximumf (F := Ideal) (φ := .f32)) (⊥ : EReal) f) hf

/-- The softmax of a row, as the reference spells it. -/
theorem softmax_read {n : ℕ} (v : Fin n → EReal) (q : Fin n) :
    Ideal.div (Ideal.exp (v q - rowMax v)) (∑ k : Fin n, Ideal.exp (v k - rowMax v)) = softmaxRow v q := rfl

/-- The exponential of a logit less its row's maximum. -/
theorem ref_exp (p : Fin 8192) (q : Fin 256) :
    val_main_v33 (F := Ideal) a0 a1 a2 a3 a6 a7 (ix2 p q)
      = Ideal.exp (val_main_v26 (F := Ideal) a0 a1 a2 a3 a6 a7 (ix2 p q)
          - rowMax fun j : Fin 256 => val_main_v26 (F := Ideal) a0 a1 a2 a3 a6 a7 (ix2 p j)) := by
  rw [val_main_v33_apply, val_main_v32_apply, val_main_v31_apply, val_main_v30_apply,
    show idx_main_v30 (idx_main_v31 (ix2 p q)) = ix1 p from by ix_eq1, ref_max]
  rfl

/-- s1 = the softmax of each row of the logits. -/
theorem ref_s1 (p : Fin 8192) (q : Fin 256) :
    val_main_v37 (F := Ideal) a0 a1 a2 a3 a6 a7 (ix2 p q)
      = rS1 (mX a0) (mA a1) (mW1 a2) (vb1 a3) (mWs a6) (vbs a7) p q := by
  rw [val_main_v37_apply, val_main_v36_apply, val_main_v35_apply, val_main_v34_apply, val_main_cst_2_apply,
    show idx_main_v35 (idx_main_v36 (ix2 p q)) = ix1 p from by ix_eq1, Ideal.hostDivf_def, Ideal.ofBits_def,
    Ideal.ofBits_zero_f32, zero_add, ref_exp]
  have hs : (∑ k : Fin 256, val_main_v33 (F := Ideal) a0 a1 a2 a3 a6 a7 (idx_main_v34 (ix1 p) k))
      = ∑ k : Fin 256, Ideal.exp (val_main_v26 (F := Ideal) a0 a1 a2 a3 a6 a7 (ix2 p k)
          - rowMax fun j : Fin 256 => val_main_v26 (F := Ideal) a0 a1 a2 a3 a6 a7 (ix2 p j)) :=
    Finset.sum_congr rfl fun k _ => by
      rw [show idx_main_v34 (ix1 p) k = ix2 p k from by ix_eq2, ref_exp]
  rw [hs]
  have hv : (fun j : Fin 256 => val_main_v26 (F := Ideal) a0 a1 a2 a3 a6 a7 (ix2 p j))
      = rGcn (adjn (mA a1) (dvec (mA a1))) (mm (rX1 (mX a0) (mA a1) (mW1 a2) (vb1 a3)) (mWs a6)) (vbs a7) p :=
    funext fun j => ref_logit a0 a1 a2 a3 a6 a7 p j
  refine (softmax_read (fun j : Fin 256 => val_main_v26 (F := Ideal) a0 a1 a2 a3 a6 a7 (ix2 p j)) q).trans ?_
  rw [hv]
  rfl

/-! ## The pooled features and the pooled adjacency -/

/-- x2 = s1ᵀ · z1. -/
theorem ref_x2 (p : Fin 256) (q : Fin 128) :
    val_main_v39 (F := Ideal) a0 a1 a2 a3 a4 a5 a6 a7 (ix2 p q)
      = rX2 (X := fun i k => a0 (ix2 i k)) (A := fun i k => a1 (ix2 i k)) (W1 := fun i k => a2 (ix2 i k))
          (b1 := fun k => a3 (ix1 k)) (Wz := fun i k => a4 (ix2 i k)) (bz := fun k => a5 (ix1 k))
          (Ws := fun i k => a6 (ix2 i k)) (bs := fun k => a7 (ix1 k)) p q := by
  rw [val_main_v39_apply]
  show _ = ∑ t : Fin 8192, rS1 (mX a0) (mA a1) (mW1 a2) (vb1 a3) (mWs a6) (vbs a7) t p
      * rZ1 (mX a0) (mA a1) (mW1 a2) (vb1 a3) (mWz a4) (vbz a5) t q
  refine Finset.sum_congr rfl fun k _ => ?_
  rw [show lidx_main_v39 (ix2 p q) k = ix2 p k from by ix_eq2, show ridx_main_v39 (ix2 p q) k = ix2 k q from by ix_eq2,
    val_main_v38_apply, show idx_main_v38 (ix2 p k) = ix2 k p from by ix_eq2, ref_s1, ref_z1]

/-- s1ᵀ · An. -/
theorem ref_sta (p : Fin 256) (k : Fin 8192) :
    val_main_v41 (F := Ideal) a0 a1 a2 a3 a6 a7 (ix2 p k)
      = mmT (rS1 (mX a0) (mA a1) (mW1 a2) (vb1 a3) (mWs a6) (vbs a7)) (adjn (mA a1) (dvec (mA a1))) p k := by
  rw [val_main_v41_apply]
  show _ = ∑ t : Fin 8192, rS1 (mX a0) (mA a1) (mW1 a2) (vb1 a3) (mWs a6) (vbs a7) t p * adjn (mA a1) (dvec (mA a1)) t k
  refine Finset.sum_congr rfl fun i _ => ?_
  rw [show lidx_main_v41 (ix2 p k) i = ix2 p i from by ix_eq2, show ridx_main_v41 (ix2 p k) i = ix2 i k from by ix_eq2,
    val_main_v40_apply, show idx_main_v40 (ix2 p i) = ix2 i p from by ix_eq2, ref_s1, ref_adjn]

/-- adj2 = (s1ᵀ · An) · s1. -/
theorem ref_adj2 (p q : Fin 256) :
    val_main_v42 (F := Ideal) a0 a1 a2 a3 a6 a7 (ix2 p q)
      = rAdj2 (X := fun i k => a0 (ix2 i k)) (A := fun i k => a1 (ix2 i k)) (W1 := fun i k => a2 (ix2 i k))
          (b1 := fun k => a3 (ix1 k)) (Ws := fun i k => a6 (ix2 i k)) (bs := fun k => a7 (ix1 k)) p q := by
  rw [val_main_v42_apply]
  show _ = ∑ t : Fin 8192, mmT (rS1 (mX a0) (mA a1) (mW1 a2) (vb1 a3) (mWs a6) (vbs a7)) (adjn (mA a1) (dvec (mA a1))) p t
      * rS1 (mX a0) (mA a1) (mW1 a2) (vb1 a3) (mWs a6) (vbs a7) t q
  refine Finset.sum_congr rfl fun k _ => ?_
  rw [show lidx_main_v42 (ix2 p q) k = ix2 p k from by ix_eq2, show ridx_main_v42 (ix2 p q) k = ix2 k q from by ix_eq2,
    ref_sta, ref_s1]

end Cert.RefHead

end
-- ==== Proof.RefHeadRun.lean ====
/-
  The contents of the reference's buffers after its first 48 operations (through the pooled adjacency), from any
  contents W: the pooled features and the pooled adjacency are the stage functions of the first eight arguments'
  contents, and the arguments of the later layers are untouched. And the cut of the whole line after that block.
-/
import proofs.«105977_j57329223467619_2_alg».proof.Proof.RefReadP
import Idealize.ShloMosaic.Lib.Pipeline.Frame

set_option maxRecDepth 16384

noncomputable section

namespace Cert.RefHead

open Cert.ReferenceIdeal Cert.ReferenceIdeal.Gen Idealize.ShloMosaic Idealize.ShloMosaic.TcCoe Idealize.SL.Sem Idealize.ShloMosaic.StableHlo

variable (W : Valuation τ sig (Elt Ideal))

set_option maxHeartbeats 4000000 in
/-- The pooled features' buffer after the first block. -/
theorem after_head_x2 : after (ValueP.opsA (F := Ideal)) W (Proc.devRef .tc main_v39)
    = ReadP.val_main_v39 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  after_results_simp
  rfl

set_option maxHeartbeats 4000000 in
/-- The pooled adjacency's buffer after the first block. -/
theorem after_head_adj2 : after (ValueP.opsA (F := Ideal)) W (Proc.devRef .tc main_v42)
    = ReadP.val_main_v42 (F := Ideal) (W (Proc.devRef .tc main_arg0)) (W (Proc.devRef .tc main_arg1)) (W (Proc.devRef .tc main_arg2)) (W (Proc.devRef .tc main_arg3)) (W (Proc.devRef .tc main_arg6)) (W (Proc.devRef .tc main_arg7)) := by
  after_results_simp
  rfl

/-- The whole line is the first block followed by the rest: the result after the line is the result after the rest
    from the contents after the first block. -/
theorem after_ops_split : after (ValueP.ops (F := Ideal)) W (Proc.devRef .tc main_v103)
    = after (ValueP.opsB (F := Ideal)) (after (ValueP.opsA (F := Ideal)) W) (Proc.devRef .tc main_v103) :=
  congrFun ((congrArg (fun l => after l W) (ValueP.ops_split (F := Ideal))).trans
    (after_append (ValueP.opsA (F := Ideal)) (ValueP.opsB (F := Ideal)) W)) (Proc.devRef .tc main_v103)

/-! The later layers' arguments are not written by the first block. -/

theorem after_head_main_arg8 : after (ValueP.opsA (F := Ideal)) W (Proc.devRef .tc main_arg8) = W (Proc.devRef .tc main_arg8) := by
  after_results_simp

theorem after_head_main_arg9 : after (ValueP.opsA (F := Ideal)) W (Proc.devRef .tc main_arg9) = W (Proc.devRef .tc main_arg9) := by
  after_results_simp

theorem after_head_main_arg10 : after (ValueP.opsA (F := Ideal)) W (Proc.devRef .tc main_arg10) = W (Proc.devRef .tc main_arg10) := by
  after_results_simp

theorem after_head_main_arg11 : after (ValueP.opsA (F := Ideal)) W (Proc.devRef .tc main_arg11) = W (Proc.devRef .tc main_arg11) := by
  after_results_simp

theorem after_head_main_arg12 : after (ValueP.opsA (F := Ideal)) W (Proc.devRef .tc main_arg12) = W (Proc.devRef .tc main_arg12) := by
  after_results_simp

theorem after_head_main_arg13 : after (ValueP.opsA (F := Ideal)) W (Proc.devRef .tc main_arg13) = W (Proc.devRef .tc main_arg13) := by
  after_results_simp

theorem after_head_main_arg14 : after (ValueP.opsA (F := Ideal)) W (Proc.devRef .tc main_arg14) = W (Proc.devRef .tc main_arg14) := by
  after_results_simp

theorem after_head_main_arg15 : after (ValueP.opsA (F := Ideal)) W (Proc.devRef .tc main_arg15) = W (Proc.devRef .tc main_arg15) := by
  after_results_simp

theorem after_head_main_arg16 : after (ValueP.opsA (F := Ideal)) W (Proc.devRef .tc main_arg16) = W (Proc.devRef .tc main_arg16) := by
  after_results_simp

theorem after_head_main_arg17 : after (ValueP.opsA (F := Ideal)) W (Proc.devRef .tc main_arg17) = W (Proc.devRef .tc main_arg17) := by
  after_results_simp

theorem after_head_main_arg18 : after (ValueP.opsA (F := Ideal)) W (Proc.devRef .tc main_arg18) = W (Proc.devRef .tc main_arg18) := by
  after_results_simp

theorem after_head_main_arg19 : after (ValueP.opsA (F := Ideal)) W (Proc.devRef .tc main_arg19) = W (Proc.devRef .tc main_arg19) := by
  after_results_simp

theorem after_head_main_arg20 : after (ValueP.opsA (F := Ideal)) W (Proc.devRef .tc main_arg20) = W (Proc.devRef .tc main_arg20) := by
  after_results_simp

theorem after_head_main_arg21 : after (ValueP.opsA (F := Ideal)) W (Proc.devRef .tc main_arg21) = W (Proc.devRef .tc main_arg21) := by
  after_results_simp

end Cert.RefHead

end
-- ==== Proof.LibReal.lean ====
/-
  General facts about the test "every entry of a float array has absolute value below +∞", as a host program
  states it (an and-reduction, from true, of the comparison of |x| with the word of +∞), at the exact instance where
  a float is an extended real: the word 0x7F800000 is +∞; an extended real whose absolute value is below +∞ is a
  real number; and if the test comes out true, every entry of the array is a real number.
-/
import Idealize.ShloMosaic.PureOps.Ideal
import Idealize.ShloMosaic.Lib.ReduceAll
import Idealize.ShloMosaic.Lib.ValueIdx

noncomputable section

namespace Idealize.ShloMosaic.RealEntries

open Idealize.ShloMosaic

instance : Subsingleton (⟨0, ![]⟩ : Shape).Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value max(x, −x) is below +∞ is a real number. -/
theorem real_of_abs_lt (x : EReal) (h : Ideal.cmp .olt (max x (-x)) (Ideal.ofBits .f32 0x7F800000#32) = 1#1) :
    ∃ r : ℝ, x = (r : EReal) := by
  rw [inf_word] at h
  have hlt : max x (-x) < ⊤ := by
    by_contra hn
    have : Ideal.cmp .olt (max x (-x)) ⊤ = 0#1 := by simp [Ideal.cmp, hn]
    rw [this] at h; exact absurd h (by decide)
  induction x using EReal.rec with
  | bot => exact absurd hlt (by simp)
  | coe r => exact ⟨r, rfl⟩
  | top => exact absurd hlt (by simp)

/-- One "all entries have absolute value below +∞" test that came out true makes every entry real. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ValueIdx.ix0 = 1#1) :
    ∀ i, ∃ r : ℝ, x i = (r : EReal) := by
  intro i
  have h := Host.reduce_andi_all _ _ hr hu _ e i
  exact real_of_abs_lt (x i) h

end Idealize.ShloMosaic.RealEntries

end
-- ==== Proof.PreFacts.lean ====
/-
  Facts read off the precondition: every entry of the first eight arguments is a real number, and every row of the
  adjacency has an entry that is not zero.  The precondition is a conjunction, nested to the left in argument order,
  of "all entries have absolute value below +∞" tests, one per argument, and last the test that every row of the
  adjacency has a positive count of entries different from zero (the count is a sum of 0/1 words from the word 0,
  compared with 0 as a signed word).
-/
import proofs.«105977_j57329223467619_2_alg».proof.Pre_finite_inputs
import proofs.«105977_j57329223467619_2_alg».proof.Proof.LibReal
import Idealize.ShloMosaic.Lib.ReduceAll
import Idealize.ShloMosaic.Lib.ValueIdx

set_option maxRecDepth 16384

noncomputable section

namespace Cert.PreFacts

open Idealize.ShloMosaic Cert.Pre_finite_inputs

variable [Cert.Pre_finite_inputs.Facts]

/-- A left fold by word addition over summands that are all the zero word gives back the initial word. -/
theorem foldl_addi_zero {ι : Type} {w : Nat} (f : ι → BitVec w) :
    ∀ (l : List ι) (init : BitVec w), (∀ n ∈ l, f n = 0#w) → l.foldl (fun r n => IntOp.addi r (f n)) init = init
  | [], init, _ => rfl
  | a :: l, init, h => by
    rw [List.foldl_cons, h a (List.mem_cons_self ..)]
    have e : IntOp.addi init 0#w = init := by simp [IntOp.addi]
    rw [e]
    exact foldl_addi_zero f l init (fun n hn => h n (List.mem_cons_of_mem _ hn))

/-- The word 0 is the real number 0. -/
theorem zero_word : Ideal.ofBits .f32 0x00000000#32 = (0 : EReal) := by
  simp [Ideal.ofBits, Ideal.ieee]

/-- A row of the adjacency whose entries are all zero has the count word 0: every summand is the word 0. -/
theorem row_count_zero (a1 : FVec Ideal S8192x8192 .f32) (hb : S_.BroadcastsInDim S8192x8192 (![] : Fin 0 → Fin S8192x8192.rank))
    (hlt : 1 < 32) (hr : S8192x8192.ReducesTo [1] S8192) (hu : 0 < S_.numel) (p : Fin 8192)
    (hz : ∀ k : Fin 8192, a1 (ValueIdx.ix2 p k) = 0) :
    Host.reduce IntOp.addi
        (extui 32 (cmpf .une a1 (broadcastInDim S8192x8192 ![] hb (constant (F := Ideal) S_ .f32 0x00000000#32))) hlt)
        (constantI S_ 32 0#32) hr hu (ValueIdx.ix1 p) = 0#32 := by
  rw [Host.reduce_eq_foldl]
  refine foldl_addi_zero _ _ _ ?_
  intro i hi
  have hd : hr.drop i = ValueIdx.ix1 p := by simpa using (List.mem_filter.1 hi).2
  have h0 : i 0 = p := by
    apply Fin.ext
    have e := Shape.ReducesTo.drop_apply_val_of_eq hr i 0 0
    rw [hd] at e
    exact e.symm
  have hi2 : i = ValueIdx.ix2 p (i 1) := by rw [← h0]; exact ValueIdx.eq_ix2 i
  have hv : a1 i = 0 := by rw [hi2]; exact hz _
  show (Ideal.cmp .une (a1 i) (Ideal.ofBits .f32 0x00000000#32)).setWidth 32 = 0#32
  rw [hv, zero_word]
  simp [Ideal.cmp]

section
variable (a0 : FVec Ideal S8192x784 .f32) (a1 : FVec Ideal S8192x8192 .f32) (a2 : FVec Ideal S784x256 .f32)
  (a3 : FVec Ideal S256 .f32) (a4 : FVec Ideal S256x128 .f32) (a5 : FVec Ideal S128 .f32) (a6 : FVec Ideal S256x256 .f32)
  (a7 : FVec Ideal S256 .f32) (a8 : FVec Ideal S128x128 .f32) (a9 : FVec Ideal S128 .f32) (a10 : FVec Ideal S128x128 .f32)
  (a11 : FVec Ideal S128 .f32) (a12 : FVec Ideal S128x64 .f32) (a13 : FVec Ideal S64 .f32) (a14 : FVec Ideal S128x128 .f32)
  (a15 : FVec Ideal S128 .f32) (a16 : FVec Ideal S128x128 .f32) (a17 : FVec Ideal S128 .f32) (a18 : FVec Ideal S128x1 .f32)
  (a19 : FVec Ideal S1 .f32) (a20 : FVec Ideal S128x10 .f32) (a21 : FVec Ideal S10 .f32)

/-- The precondition, split: each of the first eight arguments has only real entries, and every row of the second
    argument has an entry that is not zero. -/
theorem pre_all
    (h : Cert.Pre_finite_inputs.fn (F := Ideal) a0 a1 a2 a3 a4 a5 a6 a7 a8 a9 a10 a11 a12 a13 a14 a15 a16 a17 a18 a19 a20 a21 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal))
    ∧ (∀ p : Fin 8192, ∃ k : Fin 8192, a1 (ValueIdx.ix2 p k) ≠ 0) := by
  have h0 := congrFun h ValueIdx.ix0
  dsimp only [fn, fn_part1, fn_part2, fn_part3, fn_part4, fn_part5, fn_part6, Idealize.ShloMosaic.andi] at h0
  obtain ⟨h0, hdeg⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨RealEntries.all_real a0 _ _ _ h0, RealEntries.all_real a1 _ _ _ h1, RealEntries.all_real a2 _ _ _ h2,
    RealEntries.all_real a3 _ _ _ h3, RealEntries.all_real a4 _ _ _ h4, RealEntries.all_real a5 _ _ _ h5,
    RealEntries.all_real a6 _ _ _ h6, RealEntries.all_real a7 _ _ _ h7, ?_⟩
  intro p
  by_contra hne
  have hz : ∀ k : Fin 8192, a1 (ValueIdx.ix2 p k) = 0 := fun k => by
    by_contra hk; exact hne ⟨k, hk⟩
  have hp := Host.reduce_andi_all _ _ _ _ _ hdeg (ValueIdx.ix1 p)
  have hc : IntOp.cmpi .sgt
      (Host.reduce IntOp.addi
        (extui 32 (cmpf .une a1 (broadcastInDim S8192x8192 ![] Facts.bcast_S_S8192x8192 (constant (F := Ideal) S_ .f32 0x00000000#32))) Facts.natLt_1_32)
        (constantI S_ 32 0#32) Facts.reducesTo_S8192x8192_S8192_d1 Facts.h_S_ (ValueIdx.ix1 p)) 0#32 = 1#1 := hp
  rw [row_count_zero a1 _ _ _ _ p hz] at hc
  exact absurd hc (by decide)

end

section
variable {a0 : FVec Ideal S8192x784 .f32} {a1 : FVec Ideal S8192x8192 .f32} {a2 : FVec Ideal S784x256 .f32}
  {a3 : FVec Ideal S256 .f32} {a4 : FVec Ideal S256x128 .f32} {a5 : FVec Ideal S128 .f32} {a6 : FVec Ideal S256x256 .f32}
  {a7 : FVec Ideal S256 .f32} {a8 : FVec Ideal S128x128 .f32} {a9 : FVec Ideal S128 .f32} {a10 : FVec Ideal S128x128 .f32}
  {a11 : FVec Ideal S128 .f32} {a12 : FVec Ideal S128x64 .f32} {a13 : FVec Ideal S64 .f32} {a14 : FVec Ideal S128x128 .f32}
  {a15 : FVec Ideal S128 .f32} {a16 : FVec Ideal S128x128 .f32} {a17 : FVec Ideal S128 .f32} {a18 : FVec Ideal S128x1 .f32}
  {a19 : FVec Ideal S1 .f32} {a20 : FVec Ideal S128x10 .f32} {a21 : FVec Ideal S10 .f32}

/-- Every entry of argument 0 is a real number. -/
theorem pre_real_a0 (h : Cert.Pre_finite_inputs.fn (F := Ideal) a0 a1 a2 a3 a4 a5 a6 a7 a8 a9 a10 a11 a12 a13 a14 a15 a16 a17 a18 a19 a20 a21 = fun _ => 1#1) (p : Fin 8192) (q : Fin 784) :
    ∃ r : ℝ, a0 (ValueIdx.ix2 p q) = (r : EReal) :=
  (pre_all a0 a1 a2 a3 a4 a5 a6 a7 a8 a9 a10 a11 a12 a13 a14 a15 a16 a17 a18 a19 a20 a21 h).1 (ValueIdx.ix2 p q)

/-- Every entry of argument 1 is a real number. -/
theorem pre_real_a1 (h : Cert.Pre_finite_inputs.fn (F := Ideal) a0 a1 a2 a3 a4 a5 a6 a7 a8 a9 a10 a11 a12 a13 a14 a15 a16 a17 a18 a19 a20 a21 = fun _ => 1#1) (p : Fin 8192) (q : Fin 8192) :
    ∃ r : ℝ, a1 (ValueIdx.ix2 p q) = (r : EReal) :=
  (pre_all a0 a1 a2 a3 a4 a5 a6 a7 a8 a9 a10 a11 a12 a13 a14 a15 a16 a17 a18 a19 a20 a21 h).2.1 (ValueIdx.ix2 p q)

/-- Every entry of argument 2 is a real number. -/
theorem pre_real_a2 (h : Cert.Pre_finite_inputs.fn (F := Ideal) a0 a1 a2 a3 a4 a5 a6 a7 a8 a9 a10 a11 a12 a13 a14 a15 a16 a17 a18 a19 a20 a21 = fun _ => 1#1) (p : Fin 784) (q : Fin 256) :
    ∃ r : ℝ, a2 (ValueIdx.ix2 p q) = (r : EReal) :=
  (pre_all a0 a1 a2 a3 a4 a5 a6 a7 a8 a9 a10 a11 a12 a13 a14 a15 a16 a17 a18 a19 a20 a21 h).2.2.1 (ValueIdx.ix2 p q)

/-- Every entry of argument 3 is a real number. -/
theorem pre_real_a3 (h : Cert.Pre_finite_inputs.fn (F := Ideal) a0 a1 a2 a3 a4 a5 a6 a7 a8 a9 a10 a11 a12 a13 a14 a15 a16 a17 a18 a19 a20 a21 = fun _ => 1#1) (q : Fin 256) :
    ∃ r : ℝ, a3 (ValueIdx.ix1 q) = (r : EReal) :=
  (pre_all a0 a1 a2 a3 a4 a5 a6 a7 a8 a9 a10 a11 a12 a13 a14 a15 a16 a17 a18 a19 a20 a21 h).2.2.2.1 (ValueIdx.ix1 q)

/-- Every entry of argument 4 is a real number. -/
theorem pre_real_a4 (h : Cert.Pre_finite_inputs.fn (F := Ideal) a0 a1 a2 a3 a4 a5 a6 a7 a8 a9 a10 a11 a12 a13 a14 a15 a16 a17 a18 a19 a20 a21 = fun _ => 1#1) (p : Fin 256) (q : Fin 128) :
    ∃ r : ℝ, a4 (ValueIdx.ix2 p q) = (r : EReal) :=
  (pre_all a0 a1 a2 a3 a4 a5 a6 a7 a8 a9 a10 a11 a12 a13 a14 a15 a16 a17 a18 a19 a20 a21 h).2.2.2.2.1 (ValueIdx.ix2 p q)

/-- Every entry of argument 5 is a real number. -/
theorem pre_real_a5 (h : Cert.Pre_finite_inputs.fn (F := Ideal) a0 a1 a2 a3 a4 a5 a6 a7 a8 a9 a10 a11 a12 a13 a14 a15 a16 a17 a18 a19 a20 a21 = fun _ => 1#1) (q : Fin 128) :
    ∃ r : ℝ, a5 (ValueIdx.ix1 q) = (r : EReal) :=
  (pre_all a0 a1 a2 a3 a4 a5 a6 a7 a8 a9 a10 a11 a12 a13 a14 a15 a16 a17 a18 a19 a20 a21 h).2.2.2.2.2.1 (ValueIdx.ix1 q)

/-- Every entry of argument 6 is a real number. -/
theorem pre_real_a6 (h : Cert.Pre_finite_inputs.fn (F := Ideal) a0 a1 a2 a3 a4 a5 a6 a7 a8 a9 a10 a11 a12 a13 a14 a15 a16 a17 a18 a19 a20 a21 = fun _ => 1#1) (p : Fin 256) (q : Fin 256) :
    ∃ r : ℝ, a6 (ValueIdx.ix2 p q) = (r : EReal) :=
  (pre_all a0 a1 a2 a3 a4 a5 a6 a7 a8 a9 a10 a11 a12 a13 a14 a15 a16 a17 a18 a19 a20 a21 h).2.2.2.2.2.2.1 (ValueIdx.ix2 p q)

/-- Every entry of argument 7 is a real number. -/
theorem pre_real_a7 (h : Cert.Pre_finite_inputs.fn (F := Ideal) a0 a1 a2 a3 a4 a5 a6 a7 a8 a9 a10 a11 a12 a13 a14 a15 a16 a17 a18 a19 a20 a21 = fun _ => 1#1) (q : Fin 256) :
    ∃ r : ℝ, a7 (ValueIdx.ix1 q) = (r : EReal) :=
  (pre_all a0 a1 a2 a3 a4 a5 a6 a7 a8 a9 a10 a11 a12 a13 a14 a15 a16 a17 a18 a19 a20 a21 h).2.2.2.2.2.2.2.1 (ValueIdx.ix1 q)

/-- Every row of the adjacency has an entry that is not zero. -/
theorem pre_deg (h : Cert.Pre_finite_inputs.fn (F := Ideal) a0 a1 a2 a3 a4 a5 a6 a7 a8 a9 a10 a11 a12 a13 a14 a15 a16 a17 a18 a19 a20 a21 = fun _ => 1#1) (p : Fin 8192) :
    ∃ k : Fin 8192, a1 (ValueIdx.ix2 p k) ≠ 0 :=
  (pre_all a0 a1 a2 a3 a4 a5 a6 a7 a8 a9 a10 a11 a12 a13 a14 a15 a16 a17 a18 a19 a20 a21 h).2.2.2.2.2.2.2.2 p

end

end Cert.PreFacts

end
-- ==== Proof.KI.Final.lean ====
/-
  The two idealized programs end with equal results. The reference's operations split at its first pooled
  adjacency: what follows is, in both programs, ONE function of the pooled features x2, the pooled adjacency adj2 and
  the arguments 8 … 21. So the results are equal once x2 and adj2 are: the kernel's are the folded forms kX2, kAdj2 of
  the launch arguments (the regions' values chained), the reference's the multiplied-out forms rX2, rAdj2 (its
  operations read one by one), and the two forms agree when every entry is a real number and every row of the
  adjacency has a nonzero entry — which is what the precondition says.
-/
import proofs.«105977_j57329223467619_2_alg».proof.Defs
import proofs.«105977_j57329223467619_2_alg».proof.Proof.Gen.Pre_finite_inputs
import proofs.«105977_j57329223467619_2_alg».proof.Proof.KI.ValRun
import proofs.«105977_j57329223467619_2_alg».proof.Proof.TailK
import proofs.«105977_j57329223467619_2_alg».proof.Proof.TailR
import proofs.«105977_j57329223467619_2_alg».proof.Proof.RefHead
import proofs.«105977_j57329223467619_2_alg».proof.Proof.RefHeadRun
import proofs.«105977_j57329223467619_2_alg».proof.Proof.PreFacts
import proofs.«105977_j57329223467619_2_alg».proof.Proof.Bridge0
import proofs.«105977_j57329223467619_2_alg».proof.Proof.RefRunP

set_option maxRecDepth 16384

noncomputable section

namespace Cert.Proof.Final

open Idealize.ShloMosaic Idealize.ShloMosaic.TcCoe Idealize.SL.Sem Idealize.ShloMosaic.StableHlo
open Idealize.ShloMosaic.ValueIdx Cert.GcnSpec

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

set_option maxHeartbeats 4000000 in
/-- The reference's result buffer after its run holds what the kernel program's does. -/
theorem result_eq
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    (StableHlo.after (Cert.ReferenceIdeal.ValueP.ops (F := Ideal)) (launchContents m' c) (Proc.devRef .tc Cert.ReferenceIdeal.main_v103) : (⟨2, ![1, 10]⟩ : Shape).Idx → EReal)
      = (Cert.KernelIdeal.Hand.Wi15 m c (Proc.devRef .tc Cert.KernelIdeal.main_v74) : (⟨2, ![1, 10]⟩ : Shape).Idx → EReal) := by
  -- both sides as the tail of their pooled features, pooled adjacency and arguments
  refine (Cert.RefHead.after_ops_split (launchContents m' c)).trans ((Cert.Tail.tail_ref _).trans ?_)
  refine Eq.trans ?_ (Cert.Tail.tail_kernel (Cert.KernelIdeal.Hand.Wi13 m c)).symm
  -- the arguments 8 … 21
  have e8 : StableHlo.after (Cert.ReferenceIdeal.ValueP.opsA (F := Ideal)) (launchContents m' c) (Proc.devRef .tc Cert.ReferenceIdeal.main_arg8)
      = Cert.KernelIdeal.Hand.Wi13 m c (Proc.devRef .tc Cert.KernelIdeal.main_arg8) :=
    (Cert.RefHead.after_head_main_arg8 _).trans (h8.trans (Cert.KernelIdeal.Hand.keep_main_arg8_13_0 m c).symm)
  have e9 : StableHlo.after (Cert.ReferenceIdeal.ValueP.opsA (F := Ideal)) (launchContents m' c) (Proc.devRef .tc Cert.ReferenceIdeal.main_arg9)
      = Cert.KernelIdeal.Hand.Wi13 m c (Proc.devRef .tc Cert.KernelIdeal.main_arg9) :=
    (Cert.RefHead.after_head_main_arg9 _).trans (h9.trans (Cert.KernelIdeal.Hand.keep_main_arg9_13_0 m c).symm)
  have e10 : StableHlo.after (Cert.ReferenceIdeal.ValueP.opsA (F := Ideal)) (launchContents m' c) (Proc.devRef .tc Cert.ReferenceIdeal.main_arg10)
      = Cert.KernelIdeal.Hand.Wi13 m c (Proc.devRef .tc Cert.KernelIdeal.main_arg10) :=
    (Cert.RefHead.after_head_main_arg10 _).trans (h10.trans (Cert.KernelIdeal.Hand.keep_main_arg10_13_0 m c).symm)
  have e11 : StableHlo.after (Cert.ReferenceIdeal.ValueP.opsA (F := Ideal)) (launchContents m' c) (Proc.devRef .tc Cert.ReferenceIdeal.main_arg11)
      = Cert.KernelIdeal.Hand.Wi13 m c (Proc.devRef .tc Cert.KernelIdeal.main_arg11) :=
    (Cert.RefHead.after_head_main_arg11 _).trans (h11.trans (Cert.KernelIdeal.Hand.keep_main_arg11_13_0 m c).symm)
  have e12 : StableHlo.after (Cert.ReferenceIdeal.ValueP.opsA (F := Ideal)) (launchContents m' c) (Proc.devRef .tc Cert.ReferenceIdeal.main_arg12)
      = Cert.KernelIdeal.Hand.Wi13 m c (Proc.devRef .tc Cert.KernelIdeal.main_arg12) :=
    (Cert.RefHead.after_head_main_arg12 _).trans (h12.trans (Cert.KernelIdeal.Hand.keep_main_arg12_13_0 m c).symm)
  have e13 : StableHlo.after (Cert.ReferenceIdeal.ValueP.opsA (F := Ideal)) (launchContents m' c) (Proc.devRef .tc Cert.ReferenceIdeal.main_arg13)
      = Cert.KernelIdeal.Hand.Wi13 m c (Proc.devRef .tc Cert.KernelIdeal.main_arg13) :=
    (Cert.RefHead.after_head_main_arg13 _).trans (h13.trans (Cert.KernelIdeal.Hand.keep_main_arg13_13_0 m c).symm)
  have e14 : StableHlo.after (Cert.ReferenceIdeal.ValueP.opsA (F := Ideal)) (launchContents m' c) (Proc.devRef .tc Cert.ReferenceIdeal.main_arg14)
      = Cert.KernelIdeal.Hand.Wi13 m c (Proc.devRef .tc Cert.KernelIdeal.main_arg14) :=
    (Cert.RefHead.after_head_main_arg14 _).trans (h14.trans (Cert.KernelIdeal.Hand.keep_main_arg14_13_0 m c).symm)
  have e15 : StableHlo.after (Cert.ReferenceIdeal.ValueP.opsA (F := Ideal)) (launchContents m' c) (Proc.devRef .tc Cert.ReferenceIdeal.main_arg15)
      = Cert.KernelIdeal.Hand.Wi13 m c (Proc.devRef .tc Cert.KernelIdeal.main_arg15) :=
    (Cert.RefHead.after_head_main_arg15 _).trans (h15.trans (Cert.KernelIdeal.Hand.keep_main_arg15_13_0 m c).symm)
  have e16 : StableHlo.after (Cert.ReferenceIdeal.ValueP.opsA (F := Ideal)) (launchContents m' c) (Proc.devRef .tc Cert.ReferenceIdeal.main_arg16)
      = Cert.KernelIdeal.Hand.Wi13 m c (Proc.devRef .tc Cert.KernelIdeal.main_arg16) :=
    (Cert.RefHead.after_head_main_arg16 _).trans (h16.trans (Cert.KernelIdeal.Hand.keep_main_arg16_13_0 m c).symm)
  have e17 : StableHlo.after (Cert.ReferenceIdeal.ValueP.opsA (F := Ideal)) (launchContents m' c) (Proc.devRef .tc Cert.ReferenceIdeal.main_arg17)
      = Cert.KernelIdeal.Hand.Wi13 m c (Proc.devRef .tc Cert.KernelIdeal.main_arg17) :=
    (Cert.RefHead.after_head_main_arg17 _).trans (h17.trans (Cert.KernelIdeal.Hand.keep_main_arg17_13_0 m c).symm)
  have e18 : StableHlo.after (Cert.ReferenceIdeal.ValueP.opsA (F := Ideal)) (launchContents m' c) (Proc.devRef .tc Cert.ReferenceIdeal.main_arg18)
      = Cert.KernelIdeal.Hand.Wi13 m c (Proc.devRef .tc Cert.KernelIdeal.main_arg18) :=
    (Cert.RefHead.after_head_main_arg18 _).trans (h18.trans (Cert.KernelIdeal.Hand.keep_main_arg18_13_0 m c).symm)
  have e19 : StableHlo.after (Cert.ReferenceIdeal.ValueP.opsA (F := Ideal)) (launchContents m' c) (Proc.devRef .tc Cert.ReferenceIdeal.main_arg19)
      = Cert.KernelIdeal.Hand.Wi13 m c (Proc.devRef .tc Cert.KernelIdeal.main_arg19) :=
    (Cert.RefHead.after_head_main_arg19 _).trans (h19.trans (Cert.KernelIdeal.Hand.keep_main_arg19_13_0 m c).symm)
  have e20 : StableHlo.after (Cert.ReferenceIdeal.ValueP.opsA (F := Ideal)) (launchContents m' c) (Proc.devRef .tc Cert.ReferenceIdeal.main_arg20)
      = Cert.KernelIdeal.Hand.Wi13 m c (Proc.devRef .tc Cert.KernelIdeal.main_arg20) :=
    (Cert.RefHead.after_head_main_arg20 _).trans (h20.trans (Cert.KernelIdeal.Hand.keep_main_arg20_13_0 m c).symm)
  have e21 : StableHlo.after (Cert.ReferenceIdeal.ValueP.opsA (F := Ideal)) (launchContents m' c) (Proc.devRef .tc Cert.ReferenceIdeal.main_arg21)
      = Cert.KernelIdeal.Hand.Wi13 m c (Proc.devRef .tc Cert.KernelIdeal.main_arg21) :=
    (Cert.RefHead.after_head_main_arg21 _).trans (h21.trans (Cert.KernelIdeal.Hand.keep_main_arg21_13_0 m c).symm)
  -- the arguments 0 … 7 of the reference are the kernel program's
  have a0 : launchContents m' c (Proc.devRef .tc Cert.ReferenceIdeal.main_arg0) = Cert.KernelIdeal.Hand.Wi0 m c (Proc.devRef .tc Cert.KernelIdeal.main_arg0) := h0
  have a1 : launchContents m' c (Proc.devRef .tc Cert.ReferenceIdeal.main_arg1) = Cert.KernelIdeal.Hand.Wi0 m c (Proc.devRef .tc Cert.KernelIdeal.main_arg1) := h1
  have a2 : launchContents m' c (Proc.devRef .tc Cert.ReferenceIdeal.main_arg2) = Cert.KernelIdeal.Hand.Wi0 m c (Proc.devRef .tc Cert.KernelIdeal.main_arg2) := h2
  have a3 : launchContents m' c (Proc.devRef .tc Cert.ReferenceIdeal.main_arg3) = Cert.KernelIdeal.Hand.Wi0 m c (Proc.devRef .tc Cert.KernelIdeal.main_arg3) := h3
  have a4 : launchContents m' c (Proc.devRef .tc Cert.ReferenceIdeal.main_arg4) = Cert.KernelIdeal.Hand.Wi0 m c (Proc.devRef .tc Cert.KernelIdeal.main_arg4) := h4
  have a5 : launchContents m' c (Proc.devRef .tc Cert.ReferenceIdeal.main_arg5) = Cert.KernelIdeal.Hand.Wi0 m c (Proc.devRef .tc Cert.KernelIdeal.main_arg5) := h5
  have a6 : launchContents m' c (Proc.devRef .tc Cert.ReferenceIdeal.main_arg6) = Cert.KernelIdeal.Hand.Wi0 m c (Proc.devRef .tc Cert.KernelIdeal.main_arg6) := h6
  have a7 : launchContents m' c (Proc.devRef .tc Cert.ReferenceIdeal.main_arg7) = Cert.KernelIdeal.Hand.Wi0 m c (Proc.devRef .tc Cert.KernelIdeal.main_arg7) := h7
  -- every entry of the arguments 0 … 7 is a real number, every row of the adjacency has a nonzero entry
  have hX : RealMat (Cert.KernelIdeal.Hand.argX m c) := fun p q => Cert.PreFacts.pre_real_a0 hpre p q
  have hA : RealMat (Cert.KernelIdeal.Hand.argA m c) := fun p q => Cert.PreFacts.pre_real_a1 hpre p q
  have hW1 : RealMat (Cert.KernelIdeal.Hand.argW1 m c) := fun p q => Cert.PreFacts.pre_real_a2 hpre p q
  have hb1 : RealVec (Cert.KernelIdeal.Hand.argb1 m c) := fun q => Cert.PreFacts.pre_real_a3 hpre q
  have hWz : RealMat (Cert.KernelIdeal.Hand.argWz m c) := fun p q => Cert.PreFacts.pre_real_a4 hpre p q
  have hbz : RealVec (Cert.KernelIdeal.Hand.argbz m c) := fun q => Cert.PreFacts.pre_real_a5 hpre q
  have hWs : RealMat (Cert.KernelIdeal.Hand.argWs m c) := fun p q => Cert.PreFacts.pre_real_a6 hpre p q
  have hbs : RealVec (Cert.KernelIdeal.Hand.argbs m c) := fun q => Cert.PreFacts.pre_real_a7 hpre q
  have hdeg : ∀ i, ∃ k, Cert.KernelIdeal.Hand.argA m c i k ≠ 0 := fun p => Cert.PreFacts.pre_deg hpre p
  -- the pooled features and the pooled adjacency
  have ex2 : StableHlo.after (Cert.ReferenceIdeal.ValueP.opsA (F := Ideal)) (launchContents m' c) (Proc.devRef .tc Cert.ReferenceIdeal.main_v39)
      = Cert.KernelIdeal.Hand.Wi13 m c (Proc.devRef .tc Cert.KernelIdeal.main_v10) := by
    rw [Cert.RefHead.after_head_x2, a0, a1, a2, a3, a4, a5, a6, a7]
    exact (x2_bridge (Cert.KernelIdeal.Hand.argX m c) (Cert.KernelIdeal.Hand.argA m c) (Cert.KernelIdeal.Hand.argW1 m c) (Cert.KernelIdeal.Hand.argb1 m c) (Cert.KernelIdeal.Hand.argWz m c) (Cert.KernelIdeal.Hand.argbz m c)
      (Cert.KernelIdeal.Hand.argWs m c) (Cert.KernelIdeal.Hand.argbs m c) _ _ hX hA hW1 hb1 hWz hbz hWs hbs hdeg
      (fun p q => Cert.KernelIdeal.Hand.kernel_x2 m c p q) (fun p q => Cert.RefHead.ref_x2 _ _ _ _ _ _ _ _ p q)).symm
  have eadj2 : StableHlo.after (Cert.ReferenceIdeal.ValueP.opsA (F := Ideal)) (launchContents m' c) (Proc.devRef .tc Cert.ReferenceIdeal.main_v42)
      = Cert.KernelIdeal.Hand.Wi13 m c (Proc.devRef .tc Cert.KernelIdeal.main_v13) := by
    rw [Cert.RefHead.after_head_adj2, a0, a1, a2, a3, a6, a7]
    exact (adj2_bridge (Cert.KernelIdeal.Hand.argX m c) (Cert.KernelIdeal.Hand.argA m c) (Cert.KernelIdeal.Hand.argW1 m c) (Cert.KernelIdeal.Hand.argb1 m c) (Cert.KernelIdeal.Hand.argWz m c) (Cert.KernelIdeal.Hand.argbz m c)
      (Cert.KernelIdeal.Hand.argWs m c) (Cert.KernelIdeal.Hand.argbs m c) _ _ hX hA hW1 hb1 hWz hbz hWs hbs hdeg
      (fun p q => Cert.KernelIdeal.Hand.kernel_adj2 m c p q) (fun p q => Cert.RefHead.ref_adj2 _ _ _ _ _ _ p q)).symm
  rw [ex2, eadj2, e8, e9, e10, e11, e12, e13, e14, e15, e16, e17, e18, e19, e20, e21]

end Cert.Proof.Final

end
-- ==== Proof.lean ====
/-
  The certificate's five claims. Each kernel program is run as its fifteen items (nine kernel regions, six stretches
  of host operations): it terminates, nothing faults, and no item writes an argument; the reference is a straight
  line of host operations. Nothing was rewritten by the idealization, so it preserves the program trivially. At the
  ideal instance both programs end at the same function of the pooled features, the pooled adjacency and the
  arguments, and those agree because every input is a real number and every row of the adjacency has a nonzero
  entry: the degree is then a positive real and its inverse square root may be moved across the sums.
-/
import proofs.«105977_j57329223467619_2_alg».proof.Defs
import proofs.«105977_j57329223467619_2_alg».proof.Proof.Gen.Kernel
import proofs.«105977_j57329223467619_2_alg».proof.Proof.Gen.KernelIdeal
import proofs.«105977_j57329223467619_2_alg».proof.Proof.Gen.ReferenceIdeal
import proofs.«105977_j57329223467619_2_alg».proof.Proof.Gen.Pre_finite_inputs
import proofs.«105977_j57329223467619_2_alg».proof.Proof.KB.Args
import proofs.«105977_j57329223467619_2_alg».proof.Proof.KI.Args
import proofs.«105977_j57329223467619_2_alg».proof.Proof.KI.Final
import proofs.«105977_j57329223467619_2_alg».proof.Proof.RefRunP
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs to the end and leaves its arguments as launched. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.Wi15_main_arg0 m c),
      (h c _ (Cert.Kernel.Hand.mem_uc Cert.Kernel.main_arg1 (by decide))).trans (Cert.Kernel.Hand.Wi15_main_arg1 m c),
      (h c _ (Cert.Kernel.Hand.mem_uc Cert.Kernel.main_arg2 (by decide))).trans (Cert.Kernel.Hand.Wi15_main_arg2 m c),
      (h c _ (Cert.Kernel.Hand.mem_uc Cert.Kernel.main_arg3 (by decide))).trans (Cert.Kernel.Hand.Wi15_main_arg3 m c),
      (h c _ (Cert.Kernel.Hand.mem_uc Cert.Kernel.main_arg4 (by decide))).trans (Cert.Kernel.Hand.Wi15_main_arg4 m c),
      (h c _ (Cert.Kernel.Hand.mem_uc Cert.Kernel.main_arg5 (by decide))).trans (Cert.Kernel.Hand.Wi15_main_arg5 m c),
      (h c _ (Cert.Kernel.Hand.mem_uc Cert.Kernel.main_arg6 (by decide))).trans (Cert.Kernel.Hand.Wi15_main_arg6 m c),
      (h c _ (Cert.Kernel.Hand.mem_uc Cert.Kernel.main_arg7 (by decide))).trans (Cert.Kernel.Hand.Wi15_main_arg7 m c),
      (h c _ (Cert.Kernel.Hand.mem_uc Cert.Kernel.main_arg8 (by decide))).trans (Cert.Kernel.Hand.Wi15_main_arg8 m c),
      (h c _ (Cert.Kernel.Hand.mem_uc Cert.Kernel.main_arg9 (by decide))).trans (Cert.Kernel.Hand.Wi15_main_arg9 m c),
      (h c _ (Cert.Kernel.Hand.mem_uc Cert.Kernel.main_arg10 (by decide))).trans (Cert.Kernel.Hand.Wi15_main_arg10 m c),
      (h c _ (Cert.Kernel.Hand.mem_uc Cert.Kernel.main_arg11 (by decide))).trans (Cert.Kernel.Hand.Wi15_main_arg11 m c),
      (h c _ (Cert.Kernel.Hand.mem_uc Cert.Kernel.main_arg12 (by decide))).trans (Cert.Kernel.Hand.Wi15_main_arg12 m c),
      (h c _ (Cert.Kernel.Hand.mem_uc Cert.Kernel.main_arg13 (by decide))).trans (Cert.Kernel.Hand.Wi15_main_arg13 m c),
      (h c _ (Cert.Kernel.Hand.mem_uc Cert.Kernel.main_arg14 (by decide))).trans (Cert.Kernel.Hand.Wi15_main_arg14 m c),
      (h c _ (Cert.Kernel.Hand.mem_uc Cert.Kernel.main_arg15 (by decide))).trans (Cert.Kernel.Hand.Wi15_main_arg15 m c),
      (h c _ (Cert.Kernel.Hand.mem_uc Cert.Kernel.main_arg16 (by decide))).trans (Cert.Kernel.Hand.Wi15_main_arg16 m c),
      (h c _ (Cert.Kernel.Hand.mem_uc Cert.Kernel.main_arg17 (by decide))).trans (Cert.Kernel.Hand.Wi15_main_arg17 m c),
      (h c _ (Cert.Kernel.Hand.mem_uc Cert.Kernel.main_arg18 (by decide))).trans (Cert.Kernel.Hand.Wi15_main_arg18 m c),
      (h c _ (Cert.Kernel.Hand.mem_uc Cert.Kernel.main_arg19 (by decide))).trans (Cert.Kernel.Hand.Wi15_main_arg19 m c),
      (h c _ (Cert.Kernel.Hand.mem_uc Cert.Kernel.main_arg20 (by decide))).trans (Cert.Kernel.Hand.Wi15_main_arg20 m c),
      (h c _ (Cert.Kernel.Hand.mem_uc Cert.Kernel.main_arg21 (by decide))).trans (Cert.Kernel.Hand.Wi15_main_arg21 m c)⟩)
    (Cert.Kernel.Hand.run_main (F := Bits) m ρ)

/-- So does its idealization. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.Wi15_main_arg0 m c),
      (h c _ (Cert.KernelIdeal.Hand.mem_uc Cert.KernelIdeal.main_arg1 (by decide))).trans (Cert.KernelIdeal.Hand.Wi15_main_arg1 m c),
      (h c _ (Cert.KernelIdeal.Hand.mem_uc Cert.KernelIdeal.main_arg2 (by decide))).trans (Cert.KernelIdeal.Hand.Wi15_main_arg2 m c),
      (h c _ (Cert.KernelIdeal.Hand.mem_uc Cert.KernelIdeal.main_arg3 (by decide))).trans (Cert.KernelIdeal.Hand.Wi15_main_arg3 m c),
      (h c _ (Cert.KernelIdeal.Hand.mem_uc Cert.KernelIdeal.main_arg4 (by decide))).trans (Cert.KernelIdeal.Hand.Wi15_main_arg4 m c),
      (h c _ (Cert.KernelIdeal.Hand.mem_uc Cert.KernelIdeal.main_arg5 (by decide))).trans (Cert.KernelIdeal.Hand.Wi15_main_arg5 m c),
      (h c _ (Cert.KernelIdeal.Hand.mem_uc Cert.KernelIdeal.main_arg6 (by decide))).trans (Cert.KernelIdeal.Hand.Wi15_main_arg6 m c),
      (h c _ (Cert.KernelIdeal.Hand.mem_uc Cert.KernelIdeal.main_arg7 (by decide))).trans (Cert.KernelIdeal.Hand.Wi15_main_arg7 m c),
      (h c _ (Cert.KernelIdeal.Hand.mem_uc Cert.KernelIdeal.main_arg8 (by decide))).trans (Cert.KernelIdeal.Hand.Wi15_main_arg8 m c),
      (h c _ (Cert.KernelIdeal.Hand.mem_uc Cert.KernelIdeal.main_arg9 (by decide))).trans (Cert.KernelIdeal.Hand.Wi15_main_arg9 m c),
      (h c _ (Cert.KernelIdeal.Hand.mem_uc Cert.KernelIdeal.main_arg10 (by decide))).trans (Cert.KernelIdeal.Hand.Wi15_main_arg10 m c),
      (h c _ (Cert.KernelIdeal.Hand.mem_uc Cert.KernelIdeal.main_arg11 (by decide))).trans (Cert.KernelIdeal.Hand.Wi15_main_arg11 m c),
      (h c _ (Cert.KernelIdeal.Hand.mem_uc Cert.KernelIdeal.main_arg12 (by decide))).trans (Cert.KernelIdeal.Hand.Wi15_main_arg12 m c),
      (h c _ (Cert.KernelIdeal.Hand.mem_uc Cert.KernelIdeal.main_arg13 (by decide))).trans (Cert.KernelIdeal.Hand.Wi15_main_arg13 m c),
      (h c _ (Cert.KernelIdeal.Hand.mem_uc Cert.KernelIdeal.main_arg14 (by decide))).trans (Cert.KernelIdeal.Hand.Wi15_main_arg14 m c),
      (h c _ (Cert.KernelIdeal.Hand.mem_uc Cert.KernelIdeal.main_arg15 (by decide))).trans (Cert.KernelIdeal.Hand.Wi15_main_arg15 m c),
      (h c _ (Cert.KernelIdeal.Hand.mem_uc Cert.KernelIdeal.main_arg16 (by decide))).trans (Cert.KernelIdeal.Hand.Wi15_main_arg16 m c),
      (h c _ (Cert.KernelIdeal.Hand.mem_uc Cert.KernelIdeal.main_arg17 (by decide))).trans (Cert.KernelIdeal.Hand.Wi15_main_arg17 m c),
      (h c _ (Cert.KernelIdeal.Hand.mem_uc Cert.KernelIdeal.main_arg18 (by decide))).trans (Cert.KernelIdeal.Hand.Wi15_main_arg18 m c),
      (h c _ (Cert.KernelIdeal.Hand.mem_uc Cert.KernelIdeal.main_arg19 (by decide))).trans (Cert.KernelIdeal.Hand.Wi15_main_arg19 m c),
      (h c _ (Cert.KernelIdeal.Hand.mem_uc Cert.KernelIdeal.main_arg20 (by decide))).trans (Cert.KernelIdeal.Hand.Wi15_main_arg20 m c),
      (h c _ (Cert.KernelIdeal.Hand.mem_uc Cert.KernelIdeal.main_arg21 (by decide))).trans (Cert.KernelIdeal.Hand.Wi15_main_arg21 m c)⟩)
    (Cert.KernelIdeal.Hand.run_main (F := Ideal) m ρ)

/-- The reference is a straight line of host operations: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs, from memories agreeing on the arguments, end with equal results. -/
theorem algebraic : Cert.algebraic_KernelIdeal_ReferenceIdeal := by
  intro m ρ m' ρ' hpre hagree
  refine ⟨fun c => Cert.KernelIdeal.Hand.Wi15 (F := Ideal) m c (Proc.devRef .tc Cert.KernelIdeal.main_v74), ?_, ?_⟩
  · exact (θ_run (Cert.KernelIdeal.defs (F := Ideal)) _ _).mono (fun r h c =>
      ⟨h c _ (Cert.KernelIdeal.Hand.mem_uc Cert.KernelIdeal.main_v74 (by decide)),
      (h c _ (Cert.KernelIdeal.Hand.mem_uc Cert.KernelIdeal.main_arg0 (by decide))).trans (Cert.KernelIdeal.Hand.Wi15_main_arg0 m c),
      (h c _ (Cert.KernelIdeal.Hand.mem_uc Cert.KernelIdeal.main_arg1 (by decide))).trans (Cert.KernelIdeal.Hand.Wi15_main_arg1 m c),
      (h c _ (Cert.KernelIdeal.Hand.mem_uc Cert.KernelIdeal.main_arg2 (by decide))).trans (Cert.KernelIdeal.Hand.Wi15_main_arg2 m c),
      (h c _ (Cert.KernelIdeal.Hand.mem_uc Cert.KernelIdeal.main_arg3 (by decide))).trans (Cert.KernelIdeal.Hand.Wi15_main_arg3 m c),
      (h c _ (Cert.KernelIdeal.Hand.mem_uc Cert.KernelIdeal.main_arg4 (by decide))).trans (Cert.KernelIdeal.Hand.Wi15_main_arg4 m c),
      (h c _ (Cert.KernelIdeal.Hand.mem_uc Cert.KernelIdeal.main_arg5 (by decide))).trans (Cert.KernelIdeal.Hand.Wi15_main_arg5 m c),
      (h c _ (Cert.KernelIdeal.Hand.mem_uc Cert.KernelIdeal.main_arg6 (by decide))).trans (Cert.KernelIdeal.Hand.Wi15_main_arg6 m c),
      (h c _ (Cert.KernelIdeal.Hand.mem_uc Cert.KernelIdeal.main_arg7 (by decide))).trans (Cert.KernelIdeal.Hand.Wi15_main_arg7 m c),
      (h c _ (Cert.KernelIdeal.Hand.mem_uc Cert.KernelIdeal.main_arg8 (by decide))).trans (Cert.KernelIdeal.Hand.Wi15_main_arg8 m c),
      (h c _ (Cert.KernelIdeal.Hand.mem_uc Cert.KernelIdeal.main_arg9 (by decide))).trans (Cert.KernelIdeal.Hand.Wi15_main_arg9 m c),
      (h c _ (Cert.KernelIdeal.Hand.mem_uc Cert.KernelIdeal.main_arg10 (by decide))).trans (Cert.KernelIdeal.Hand.Wi15_main_arg10 m c),
      (h c _ (Cert.KernelIdeal.Hand.mem_uc Cert.KernelIdeal.main_arg11 (by decide))).trans (Cert.KernelIdeal.Hand.Wi15_main_arg11 m c),
      (h c _ (Cert.KernelIdeal.Hand.mem_uc Cert.KernelIdeal.main_arg12 (by decide))).trans (Cert.KernelIdeal.Hand.Wi15_main_arg12 m c),
      (h c _ (Cert.KernelIdeal.Hand.mem_uc Cert.KernelIdeal.main_arg13 (by decide))).trans (Cert.KernelIdeal.Hand.Wi15_main_arg13 m c),
      (h c _ (Cert.KernelIdeal.Hand.mem_uc Cert.KernelIdeal.main_arg14 (by decide))).trans (Cert.KernelIdeal.Hand.Wi15_main_arg14 m c),
      (h c _ (Cert.KernelIdeal.Hand.mem_uc Cert.KernelIdeal.main_arg15 (by decide))).trans (Cert.KernelIdeal.Hand.Wi15_main_arg15 m c),
      (h c _ (Cert.KernelIdeal.Hand.mem_uc Cert.KernelIdeal.main_arg16 (by decide))).trans (Cert.KernelIdeal.Hand.Wi15_main_arg16 m c),
      (h c _ (Cert.KernelIdeal.Hand.mem_uc Cert.KernelIdeal.main_arg17 (by decide))).trans (Cert.KernelIdeal.Hand.Wi15_main_arg17 m c),
      (h c _ (Cert.KernelIdeal.Hand.mem_uc Cert.KernelIdeal.main_arg18 (by decide))).trans (Cert.KernelIdeal.Hand.Wi15_main_arg18 m c),
      (h c _ (Cert.KernelIdeal.Hand.mem_uc Cert.KernelIdeal.main_arg19 (by decide))).trans (Cert.KernelIdeal.Hand.Wi15_main_arg19 m c),
      (h c _ (Cert.KernelIdeal.Hand.mem_uc Cert.KernelIdeal.main_arg20 (by decide))).trans (Cert.KernelIdeal.Hand.Wi15_main_arg20 m c),
      (h c _ (Cert.KernelIdeal.Hand.mem_uc Cert.KernelIdeal.main_arg21 (by decide))).trans (Cert.KernelIdeal.Hand.Wi15_main_arg21 m c)⟩)
      (Cert.KernelIdeal.Hand.run_main (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11, h12, h13, h14, h15, h16, h17, h18, h19, h20, h21⟩ := hagree c
    exact Cert.Proof.Final.result_eq m m' c (hpre c) h0 h1 h2 h3 h4 h5 h6 h7 h8 h9 h10 h11 h12 h13 h14 h15 h16 h17 h18 h19 h20 h21

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
